-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x384 : Shape := ⟨2, ![50000, 384]⟩
abbrev S2x500000 : Shape := ⟨2, ![2, 500000]⟩
abbrev S500000 : Shape := ⟨1, ![500000]⟩
abbrev S384x256 : Shape := ⟨2, ![384, 256]⟩
abbrev S1x4x64 : Shape := ⟨3, ![1, 4, 64]⟩
abbrev S256 : Shape := ⟨1, ![256]⟩
abbrev S256x256 : Shape := ⟨2, ![256, 256]⟩
abbrev S256x128 : Shape := ⟨2, ![256, 128]⟩
abbrev S1x1x128 : Shape := ⟨3, ![1, 1, 128]⟩
abbrev S128 : Shape := ⟨1, ![128]⟩
abbrev S_ : Shape := ⟨0, ![]⟩

class Facts : Prop where
  bcast_S_S50000x384 : S_.BroadcastsInDim S50000x384 (![] : Fin 0 → Fin S50000x384.rank)
  reducesTo_S50000x384_S_d0_1 : S50000x384.ReducesTo [0, 1] S_
  h_S_ : 0 < S_.numel
  bcast_S_S500000 : S_.BroadcastsInDim S500000 (![] : Fin 0 → Fin S500000.rank)
  reducesTo_S500000_S_d0 : S500000.ReducesTo [0] S_
  bcast_S_S384x256 : S_.BroadcastsInDim S384x256 (![] : Fin 0 → Fin S384x256.rank)
  reducesTo_S384x256_S_d0_1 : S384x256.ReducesTo [0, 1] S_
  bcast_S_S1x4x64 : S_.BroadcastsInDim S1x4x64 (![] : Fin 0 → Fin S1x4x64.rank)
  reducesTo_S1x4x64_S_d0_1_2 : S1x4x64.ReducesTo [0, 1, 2] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S1x1x128 : S_.BroadcastsInDim S1x1x128 (![] : Fin 0 → Fin S1x1x128.rank)
  reducesTo_S1x1x128_S_d0_1_2 : S1x1x128.ReducesTo [0, 1, 2] S_
  bcast_S_S128 : S_.BroadcastsInDim S128 (![] : Fin 0 → Fin S128.rank)
  reducesTo_S128_S_d0 : S128.ReducesTo [0] S_

variable [Facts]

def fn_part5 {F : FTy → Type} [FloatOps F] (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg15 : FVec F S256x128 .f32) (main_arg16 : FVec F S1x1x128 .f32) (main_arg17 : FVec F S1x1x128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S1x1x128 .f32 := Host.absf main_arg16
  let main_cst_28 : FVec F S_ .f32 := constant S_ .f32 0x7F800000#32
  let main_v75 : FVec F S1x1x128 .f32 := broadcastInDim S1x1x128 ![] bcast_S_S1x1x128 main_cst_28
  let main_v76 : IVec S1x1x128 1 := cmpf .olt main_v74 main_v75
  let main_c_29 : IVec S_ 1 := constantI S_ 1 1#1
  let main_v77 : IVec S_ 1 := (fun x v => Host.reduce IntOp.andi x v reducesTo_S1x1x128_S_d0_1_2 h_S_) main_v76 main_c_29
  let main_v78 : IVec S_ 1 := andi main_v73 main_v77
  let main_v79 : FVec F S1x1x128 .f32 := Host.absf main_arg17
  let main_cst_30 : FVec F S_ .f32 := constant S_ .f32 0x7F800000#32
  let main_v80 : FVec F S1x1x128 .f32 := broadcastInDim S1x1x128 ![] bcast_S_S1x1x128 main_cst_30
  let main_v81 : IVec S1x1x128 1 := cmpf .olt main_v79 main_v80
  let main_c_31 : IVec S_ 1 := constantI S_ 1 1#1
  let main_v82 : IVec S_ 1 := (fun x v => Host.reduce IntOp.andi x v reducesTo_S1x1x128_S_d0_1_2 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S256 .f32) (main_arg13 : FVec F S256 .f32) (main_arg14 : FVec F S256 .f32) (main_arg15 : FVec F S256x128 .f32) (main_arg16 : FVec F S1x1x128 .f32) (main_arg17 : FVec F S1x1x128 .f32) (main_arg18 : FVec F S128 .f32) (main_arg19 : FVec F S128 .f32) (main_arg20 : FVec F S128 .f32) (main_v48 : IVec S_ 1) (main_v49 : FVec F S1x4x64 .f32) (main_v50 : FVec F S1x4x64 .f32) : IVec S_ 1 :=
  let main_v51 : IVec S1x4x64 1 := cmpf .olt main_v49 main_v50
  let main_c_19 : IVec S_ 1 := constantI S_ 1 1#1
  let main_v52 : IVec S_ 1 := (fun x v => Host.reduce IntOp.andi x v reducesTo_S1x4x64_S_d0_1_2 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S256 .f32) (main_arg9 : FVec F S256x256 .f32) (main_arg10 : FVec F S1x4x64 .f32) (main_arg11 : FVec F S1x4x64 .f32) (main_arg12 : FVec F S256 .f32) (main_arg13 : FVec F S256 .f32) (main_arg14 : FVec F S256 .f32) (main_arg15 : FVec F S256x128 .f32) (main_arg16 : FVec F S1x1x128 .f32) (main_arg17 : FVec F S1x1x128 .f32) (main_arg18 : FVec F S128 .f32) (main_arg19 : FVec F S128 .f32) (main_arg20 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S1x4x64 .f32 := Host.absf main_arg10
  let main_cst_16 : FVec F S_ .f32 := constant S_ .f32 0x7F800000#32
  let main_v45 : FVec F S1x4x64 .f32 := broadcastInDim S1x4x64 ![] bcast_S_S1x4x64 main_cst_16
  let main_v46 : IVec S1x4x64 1 := cmpf .olt main_v44 main_v45
  let main_c_17 : IVec S_ 1 := constantI S_ 1 1#1
  let main_v47 : IVec S_ 1 := (fun x v => Host.reduce IntOp.andi x v reducesTo_S1x4x64_S_d0_1_2 h_S_) main_v46 main_c_17
  let main_v48 : IVec S_ 1 := andi main_v43 main_v47
  let main_v49 : FVec F S1x4x64 .f32 := Host.absf main_arg11
  let main_cst_18 : FVec F S_ .f32 := constant S_ .f32 0x7F800000#32
  let main_v50 : FVec F S1x4x64 .f32 := broadcastInDim S1x4x64 ![] bcast_S_S1x4x64 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S1x4x64 .f32) (main_arg6 : FVec F S256 .f32) (main_arg7 : FVec F S256 .f32) (main_arg8 : FVec F S256 .f32) (main_arg9 : FVec F S256x256 .f32) (main_arg10 : FVec F S1x4x64 .f32) (main_arg11 : FVec F S1x4x64 .f32) (main_arg12 : FVec F S256 .f32) (main_arg13 : FVec F S256 .f32) (main_arg14 : FVec F S256 .f32) (main_arg15 : FVec F S256x128 .f32) (main_arg16 : FVec F S1x1x128 .f32) (main_arg17 : FVec F S1x1x128 .f32) (main_arg18 : FVec F S128 .f32) (main_arg19 : FVec F S128 .f32) (main_arg20 : FVec F S128 .f32) (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  let main_v19 : FVec F S1x4x64 .f32 := Host.absf main_arg5
  let main_cst_6 : FVec F S_ .f32 := constant S_ .f32 0x7F800000#32
  let main_v20 : FVec F S1x4x64 .f32 := broadcastInDim S1x4x64 ![] bcast_S_S1x4x64 main_cst_6
  let main_v21 : IVec S1x4x64 1 := cmpf .olt main_v19 main_v20
  let main_c_7 : IVec S_ 1 := constantI S_ 1 1#1
  let main_v22 : IVec S_ 1 := (fun x v => Host.reduce IntOp.andi x v reducesTo_S1x4x64_S_d0_1_2 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x384 .f32) (main_arg1 : IVec S2x500000 32) (main_arg2 : FVec F S500000 .f32) (main_arg3 : FVec F S384x256 .f32) (main_arg4 : FVec F S1x4x64 .f32) (main_arg5 : FVec F S1x4x64 .f32) (main_arg6 : FVec F S256 .f32) (main_arg7 : FVec F S256 .f32) (main_arg8 : FVec F S256 .f32) (main_arg9 : FVec F S256x256 .f32) (main_arg10 : FVec F S1x4x64 .f32) (main_arg11 : FVec F S1x4x64 .f32) (main_arg12 : FVec F S256 .f32) (main_arg13 : FVec F S256 .f32) (main_arg14 : FVec F S256 .f32) (main_arg15 : FVec F S256x128 .f32) (main_arg16 : FVec F S1x1x128 .f32) (main_arg17 : FVec F S1x1x128 .f32) (main_arg18 : FVec F S128 .f32) (main_arg19 : FVec F S128 .f32) (main_arg20 : FVec F S128 .f32) : IVec S_ 1 :=
  let main_v0 : FVec F S50000x384 .f32 := Host.absf main_arg0
  let main_cst : FVec F S_ .f32 := constant S_ .f32 0x7F800000#32
  let main_v1 : FVec F S50000x384 .f32 := broadcastInDim S50000x384 ![] bcast_S_S50000x384 main_cst
  let main_v2 : IVec S50000x384 1 := cmpf .olt main_v0 main_v1
  let main_c : IVec S_ 1 := constantI S_ 1 1#1
  let main_v3 : IVec S_ 1 := (fun x v => Host.reduce IntOp.andi x v reducesTo_S50000x384_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S384x256 .f32 := Host.absf main_arg3
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S1x4x64 .f32 := Host.absf main_arg4
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x384 : Shape := ⟨2, ![50000, 384]⟩
abbrev S2x500000 : Shape := ⟨2, ![2, 500000]⟩
abbrev S500000 : Shape := ⟨1, ![500000]⟩
abbrev S384x256 : Shape := ⟨2, ![384, 256]⟩
abbrev S1x4x64 : Shape := ⟨3, ![1, 4, 64]⟩
abbrev S256 : Shape := ⟨1, ![256]⟩
abbrev S256x256 : Shape := ⟨2, ![256, 256]⟩
abbrev S256x128 : Shape := ⟨2, ![256, 128]⟩
abbrev S1x1x128 : Shape := ⟨3, ![1, 1, 128]⟩
abbrev S128 : Shape := ⟨1, ![128]⟩
abbrev S1x500000 : Shape := ⟨2, ![1, 500000]⟩
abbrev S500000x1 : Shape := ⟨2, ![500000, 1]⟩
abbrev S50000x256 : Shape := ⟨2, ![50000, 256]⟩
abbrev S2000x384 : Shape := ⟨2, ![2000, 384]⟩
abbrev S2000x256 : Shape := ⟨2, ![2000, 256]⟩
abbrev S50000x4x64 : Shape := ⟨3, ![50000, 4, 64]⟩
abbrev S_ : Shape := ⟨0, ![]⟩
abbrev S50000x4 : Shape := ⟨2, ![50000, 4]⟩
abbrev S500000x4 : Shape := ⟨2, ![500000, 4]⟩
abbrev S5000x4 : Shape := ⟨2, ![5000, 4]⟩
abbrev S5000x1 : Shape := ⟨2, ![5000, 1]⟩
abbrev S500000x4x64 : Shape := ⟨3, ![500000, 4, 64]⟩
abbrev S1000x4 : Shape := ⟨2, ![1000, 4]⟩
abbrev S1000x4x64 : Shape := ⟨3, ![1000, 4, 64]⟩
abbrev S1000x4x1 : Shape := ⟨3, ![1000, 4, 1]⟩
abbrev S1x256 : Shape := ⟨2, ![1, 256]⟩
abbrev S2000 : Shape := ⟨1, ![2000]⟩
abbrev S2000x1 : Shape := ⟨2, ![2000, 1]⟩
abbrev S50000x128 : Shape := ⟨2, ![50000, 128]⟩
abbrev S2000x128 : Shape := ⟨2, ![2000, 128]⟩
abbrev S50000x1x128 : Shape := ⟨3, ![50000, 1, 128]⟩
abbrev S50000x1 : Shape := ⟨2, ![50000, 1]⟩
abbrev S500000x1x128 : Shape := ⟨3, ![500000, 1, 128]⟩
abbrev S1000x1 : Shape := ⟨2, ![1000, 1]⟩
abbrev S1000x1x128 : Shape := ⟨3, ![1000, 1, 128]⟩
abbrev S1000x1x1 : Shape := ⟨3, ![1000, 1, 1]⟩
abbrev S1x128 : Shape := ⟨2, ![1, 128]⟩

abbrev nBuf : Space → Nat
  | .hbm => 213
  | .vmem => 84
  | .smem => 0
  | _ => 0

abbrev hbmTy0_0 (i : Nat) : BufTy := match i % 128 with
  | 0 => ⟨S50000x384, .f32⟩
  | 1 => ⟨S2x500000, .i32⟩
  | 2 => ⟨S500000, .f32⟩
  | 3 => ⟨S384x256, .f32⟩
  | 4 => ⟨S1x4x64, .f32⟩
  | 5 => ⟨S1x4x64, .f32⟩
  | 6 => ⟨S256, .f32⟩
  | 7 => ⟨S256, .f32⟩
  | 8 => ⟨S256, .f32⟩
  | 9 => ⟨S256x256, .f32⟩
  | 10 => ⟨S1x4x64, .f32⟩
  | 11 => ⟨S1x4x64, .f32⟩
  | 12 => ⟨S256, .f32⟩
  | 13 => ⟨S256, .f32⟩
  | 14 => ⟨S256, .f32⟩
  | 15 => ⟨S256x128, .f32⟩
  | 16 => ⟨S1x1x128, .f32⟩
  | 17 => ⟨S1x1x128, .f32⟩
  | 18 => ⟨S128, .f32⟩
  | 19 => ⟨S128, .f32⟩
  | 20 => ⟨S128, .f32⟩
  | 21 => ⟨S1x500000, .i32⟩
  | 22 => ⟨S500000, .i32⟩
  | 23 => ⟨S1x500000, .i32⟩
  | 24 => ⟨S500000, .i32⟩
  | 25 => ⟨S500000x1, .f32⟩
  | 26 => ⟨S50000x256, .f32⟩
  | 27 => ⟨S50000x4x64, .f32⟩
  | 28 => ⟨S50000x4x64, .f32⟩
  | 29 => ⟨S50000x4x64, .f32⟩
  | 30 => ⟨S_, .f32⟩
  | 31 => ⟨S50000x4, .f32⟩
  | 32 => ⟨S50000x4x64, .f32⟩
  | 33 => ⟨S50000x4x64, .f32⟩
  | 34 => ⟨S_, .f32⟩
  | 35 => ⟨S50000x4, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x4, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x4, .f32⟩
  | 54 => ⟨S500000x4, .f32⟩
  | 55 => ⟨S_, .f32⟩
  | 56 => ⟨S50000x4, .f32⟩
  | 57 => ⟨S500000x1, .i32⟩
  | 58 => ⟨S50000x4, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x4, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x4x64, .f32⟩
  | 77 => ⟨S500000x4x64, .f32⟩
  | 78 => ⟨S_, .f32⟩
  | 79 => ⟨S50000x4x64, .f32⟩
  | 80 => ⟨S500000x1, .i32⟩
  | 81 => ⟨S50000x4x64, .f32⟩
  | 82 => ⟨S50000x256, .f32⟩
  | 83 => ⟨S1x256, .f32⟩
  | 84 => ⟨S1x256, .f32⟩
  | 85 => ⟨S1x256, .f32⟩
  | 86 => ⟨S50000x256, .f32⟩
  | 87 => ⟨S50000x256, .f32⟩
  | 88 => ⟨S50000x4x64, .f32⟩
  | 89 => ⟨S50000x4x64, .f32⟩
  | 90 => ⟨S50000x4x64, .f32⟩
  | 91 => ⟨S_, .f32⟩
  | 92 => ⟨S50000x4, .f32⟩
  | 93 => ⟨S50000x4x64, .f32⟩
  | 94 => ⟨S50000x4x64, .f32⟩
  | 95 => ⟨S_, .f32⟩
  | 96 => ⟨S50000x4, .f32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x4, .f32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x4, .f32⟩
  | 115 => ⟨S500000x4, .f32⟩
  | 116 => ⟨S_, .f32⟩
  | 117 => ⟨S50000x4, .f32⟩
  | 118 => ⟨S500000x1, .i32⟩
  | 119 => ⟨S50000x4, .f32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S50000x384, .f32⟩

abbrev hbmTy0_1 (i : Nat) : BufTy := match i % 128 with
  | 0 => ⟨S500000x4, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x4x64, .f32⟩
  | 10 => ⟨S500000x4x64, .f32⟩
  | 11 => ⟨S_, .f32⟩
  | 12 => ⟨S50000x4x64, .f32⟩
  | 13 => ⟨S500000x1, .i32⟩
  | 14 => ⟨S50000x4x64, .f32⟩
  | 15 => ⟨S50000x256, .f32⟩
  | 16 => ⟨S1x256, .f32⟩
  | 17 => ⟨S1x256, .f32⟩
  | 18 => ⟨S1x256, .f32⟩
  | 19 => ⟨S50000x256, .f32⟩
  | 20 => ⟨S50000x128, .f32⟩
  | 21 => ⟨S50000x1x128, .f32⟩
  | 22 => ⟨S50000x1x128, .f32⟩
  | 23 => ⟨S50000x1x128, .f32⟩
  | 24 => ⟨S_, .f32⟩
  | 25 => ⟨S50000x1, .f32⟩
  | 26 => ⟨S50000x1x128, .f32⟩
  | 27 => ⟨S50000x1x128, .f32⟩
  | 28 => ⟨S_, .f32⟩
  | 29 => ⟨S50000x1, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x1, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x1, .f32⟩
  | 48 => ⟨S500000x1, .f32⟩
  | 49 => ⟨S_, .f32⟩
  | 50 => ⟨S50000x1, .f32⟩
  | 51 => ⟨S500000x1, .i32⟩
  | 52 => ⟨S50000x1, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x1, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x1x128, .f32⟩
  | 71 => ⟨S500000x1x128, .f32⟩
  | 72 => ⟨S_, .f32⟩
  | 73 => ⟨S50000x1x128, .f32⟩
  | 74 => ⟨S500000x1, .i32⟩
  | 75 => ⟨S50000x1x128, .f32⟩
  | 76 => ⟨S_, .f32⟩
  | 77 => ⟨S50000x128, .f32⟩
  | 78 => ⟨S_, .f32⟩
  | 79 => ⟨S50000x128, .f32⟩
  | 80 => ⟨S50000x128, .f32⟩
  | 81 => ⟨S1x128, .f32⟩
  | 82 => ⟨S1x128, .f32⟩
  | 83 => ⟨S1x128, .f32⟩
  | 84 => ⟨S50000x128, .f32⟩
  | _ => ⟨S50000x384, .f32⟩

abbrev hbmTy (i : Nat) : BufTy := match i / 128 with
  | 0 => hbmTy0_0 i
  | 1 => hbmTy0_1 i
  | _ => ⟨S50000x384, .f32⟩

abbrev bufTy : (tb : Table) → Fin (tcTables nBuf tb) → BufTy
  | .hbm, ⟨i, _⟩ => hbmTy i
  | .local _ .vmem, ⟨0, _⟩ => ⟨S2000x384, .f32⟩
  | .local _ .vmem, ⟨1, _⟩ => ⟨S2000x384, .f32⟩
  | .local _ .vmem, ⟨2, _⟩ => ⟨S384x256, .f32⟩
  | .local _ .vmem, ⟨3, _⟩ => ⟨S2000x256, .f32⟩
  | .local _ .vmem, ⟨4, _⟩ => ⟨S2000x256, .f32⟩
  | .local _ .vmem, ⟨5, _⟩ => ⟨S5000x4, .f32⟩
  | .local _ .vmem, ⟨6, _⟩ => ⟨S5000x4, .f32⟩
  | .local _ .vmem, ⟨7, _⟩ => ⟨S5000x4, .f32⟩
  | .local _ .vmem, ⟨8, _⟩ => ⟨S5000x4, .f32⟩
  | .local _ .vmem, ⟨9, _⟩ => ⟨S5000x1, .f32⟩
  | .local _ .vmem, ⟨10, _⟩ => ⟨S5000x1, .f32⟩
  | .local _ .vmem, ⟨11, _⟩ => ⟨S5000x4, .f32⟩
  | .local _ .vmem, ⟨12, _⟩ => ⟨S5000x4, .f32⟩
  | .local _ .vmem, ⟨13, _⟩ => ⟨S1000x4, .f32⟩
  | .local _ .vmem, ⟨14, _⟩ => ⟨S1000x4, .f32⟩
  | .local _ .vmem, ⟨15, _⟩ => ⟨S1000x4, .f32⟩
  | .local _ .vmem, ⟨16, _⟩ => ⟨S1000x4, .f32⟩
  | .local _ .vmem, ⟨17, _⟩ => ⟨S1000x4x64, .f32⟩
  | .local _ .vmem, ⟨18, _⟩ => ⟨S1000x4x64, .f32⟩
  | .local _ .vmem, ⟨19, _⟩ => ⟨S1000x4x64, .f32⟩
  | .local _ .vmem, ⟨20, _⟩ => ⟨S1000x4x64, .f32⟩
  | .local _ .vmem, ⟨21, _⟩ => ⟨S2000x256, .f32⟩
  | .local _ .vmem, ⟨22, _⟩ => ⟨S2000x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S2000x256, .f32⟩
  | .local _ .vmem, ⟨32, _⟩ => ⟨S2000x256, .f32⟩
  | .local _ .vmem, ⟨33, _⟩ => ⟨S5000x4, .f32⟩
  | .local _ .vmem, ⟨34, _⟩ => ⟨S5000x4, .f32⟩
  | .local _ .vmem, ⟨35, _⟩ => ⟨S5000x4, .f32⟩
  | .local _ .vmem, ⟨36, _⟩ => ⟨S5000x4, .f32⟩
  | .local _ .vmem, ⟨37, _⟩ => ⟨S5000x1, .f32⟩
  | .local _ .vmem, ⟨38, _⟩ => ⟨S5000x1, .f32⟩
  | .local _ .vmem, ⟨39, _⟩ => ⟨S5000x4, .f32⟩
  | .local _ .vmem, ⟨40, _⟩ => ⟨S5000x4, .f32⟩
  | .local _ .vmem, ⟨41, _⟩ => ⟨S1000x4, .f32⟩
  | .local _ .vmem, ⟨42, _⟩ => ⟨S1000x4, .f32⟩
  | .local _ .vmem, ⟨43, _⟩ => ⟨S1000x4, .f32⟩
  | .local _ .vmem, ⟨44, _⟩ => ⟨S1000x4, .f32⟩
  | .local _ .vmem, ⟨45, _⟩ => ⟨S1000x4x64, .f32⟩
  | .local _ .vmem, ⟨46, _⟩ => ⟨S1000x4x64, .f32⟩
  | .local _ .vmem, ⟨47, _⟩ => ⟨S1000x4x64, .f32⟩
  | .local _ .vmem, ⟨48, _⟩ => ⟨S1000x4x64, .f32⟩
  | .local _ .vmem, ⟨49, _⟩ => ⟨S2000x256, .f32⟩
  | .local _ .vmem, ⟨50, _⟩ => ⟨S2000x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S256x128, .f32⟩
  | .local _ .vmem, ⟨59, _⟩ => ⟨S2000x128, .f32⟩
  | .local _ .vmem, ⟨60, _⟩ => ⟨S2000x128, .f32⟩
  | .local _ .vmem, ⟨61, _⟩ => ⟨S5000x1, .f32⟩
  | .local _ .vmem, ⟨62, _⟩ => ⟨S5000x1, .f32⟩
  | .local _ .vmem, ⟨63, _⟩ => ⟨S5000x1, .f32⟩
  | .local _ .vmem, ⟨64, _⟩ => ⟨S5000x1, .f32⟩
  | .local _ .vmem, ⟨65, _⟩ => ⟨S5000x1, .f32⟩
  | .local _ .vmem, ⟨66, _⟩ => ⟨S5000x1, .f32⟩
  | .local _ .vmem, ⟨67, _⟩ => ⟨S5000x1, .f32⟩
  | .local _ .vmem, ⟨68, _⟩ => ⟨S5000x1, .f32⟩
  | .local _ .vmem, ⟨69, _⟩ => ⟨S1000x1, .f32⟩
  | .local _ .vmem, ⟨70, _⟩ => ⟨S1000x1, .f32⟩
  | .local _ .vmem, ⟨71, _⟩ => ⟨S1000x1, .f32⟩
  | .local _ .vmem, ⟨72, _⟩ => ⟨S1000x1, .f32⟩
  | .local _ .vmem, ⟨73, _⟩ => ⟨S1000x1x128, .f32⟩
  | .local _ .vmem, ⟨74, _⟩ => ⟨S1000x1x128, .f32⟩
  | .local _ .vmem, ⟨75, _⟩ => ⟨S1000x1x128, .f32⟩
  | .local _ .vmem, ⟨76, _⟩ => ⟨S1000x1x128, .f32⟩
  | .local _ .vmem, ⟨77, _⟩ => ⟨S2000x128, .f32⟩
  | .local _ .vmem, ⟨78, _⟩ => ⟨S2000x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | _, _ => ⟨S50000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_v38 : Ref sig .tc := ⟨.hbm, 69, rfl⟩
abbrev main_v39 : Ref sig .tc := ⟨.hbm, 70, rfl⟩
abbrev main_c_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_c_12 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_14 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_17 : Ref sig .tc := ⟨.hbm, 120, rfl⟩
abbrev main_v80 : Ref sig .tc := ⟨.hbm, 121, rfl⟩
abbrev main_v81 : Ref sig .tc := ⟨.hbm, 122, rfl⟩
abbrev main_c_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_19 : Ref sig .tc := ⟨.hbm, 129, rfl⟩
abbrev main_v87 : Ref sig .tc := ⟨.hbm, 130, rfl⟩
abbrev main_v88 : Ref sig .tc := ⟨.hbm, 131, rfl⟩
abbrev main_c_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_21 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_22 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_23 : Ref sig .tc := ⟨.hbm, 156, rfl⟩
abbrev main_v110 : Ref sig .tc := ⟨.hbm, 157, rfl⟩
abbrev main_c_24 : Ref sig .tc := ⟨.hbm, 158, rfl⟩
abbrev main_v111 : Ref sig .tc := ⟨.hbm, 159, rfl⟩
abbrev main_v112 : Ref sig .tc := ⟨.hbm, 160, rfl⟩
abbrev main_c_25 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_26 : Ref sig .tc := ⟨.hbm, 167, rfl⟩
abbrev main_v118 : Ref sig .tc := ⟨.hbm, 168, rfl⟩
abbrev main_v119 : Ref sig .tc := ⟨.hbm, 169, rfl⟩
abbrev main_c_27 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_28 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_c_29 : Ref sig .tc := ⟨.hbm, 181, rfl⟩
abbrev main_v129 : Ref sig .tc := ⟨.hbm, 182, rfl⟩
abbrev main_v130 : Ref sig .tc := ⟨.hbm, 183, rfl⟩
abbrev main_c_30 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_c_31 : Ref sig .tc := ⟨.hbm, 190, rfl⟩
abbrev main_v136 : Ref sig .tc := ⟨.hbm, 191, rfl⟩
abbrev main_v137 : Ref sig .tc := ⟨.hbm, 192, rfl⟩
abbrev main_c_32 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_33 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_34 : Ref sig .tc := ⟨.hbm, 204, rfl⟩
abbrev main_v147 : Ref sig .tc := ⟨.hbm, 205, rfl⟩
abbrev main_cst_35 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg3_1 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg1_1 : Ref sig .tc := ⟨.vmem, 72, rfl⟩
abbrev cc10_stg2_0 : Ref sig .tc := ⟨.vmem, 73, rfl⟩
abbrev cc10_stg2_1 : Ref sig .tc := ⟨.vmem, 74, rfl⟩
abbrev cc10_stg3_0 : Ref sig .tc := ⟨.vmem, 75, rfl⟩
abbrev cc10_stg3_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg2_0 : Ref sig .tc := ⟨.vmem, 80, rfl⟩
abbrev cc11_stg3_0 : Ref sig .tc := ⟨.vmem, 81, rfl⟩
abbrev cc11_stg4_0 : Ref sig .tc := ⟨.vmem, 82, rfl⟩
abbrev cc11_stg4_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem2_1 : DmaSem sig := 66
abbrev cc9_sem3_0 : DmaSem sig := 67
abbrev cc9_sem3_1 : DmaSem sig := 68
abbrev cc10_sem0_0 : DmaSem sig := 69
abbrev cc10_sem0_1 : DmaSem sig := 70
abbrev cc10_sem1_0 : DmaSem sig := 71
abbrev cc10_sem1_1 : DmaSem sig := 72
abbrev cc10_sem2_0 : DmaSem sig := 73
abbrev cc10_sem2_1 : DmaSem sig := 74
abbrev cc10_sem3_0 : DmaSem sig := 75
abbrev cc10_sem3_1 : DmaSem sig := 76
abbrev cc11_sem0_0 : DmaSem sig := 77
abbrev cc11_sem0_1 : DmaSem sig := 78
abbrev cc11_sem1_0 : DmaSem sig := 79
abbrev cc11_sem2_0 : DmaSem sig := 80
abbrev cc11_sem3_0 : DmaSem sig := 81
abbrev cc11_sem4_0 : DmaSem sig := 82
abbrev cc11_sem4_1 : DmaSem sig := 83

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x4x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x4x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x4 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x4 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x4 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![500], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1000x4 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x4 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1000x4x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1000x4x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![500], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_3 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1000x1 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1000x1x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S1000x1x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S500000_S500000x1 : S500000.ShapeCasts S500000x1
  inb_S2000x384_S2000x384_0_0 : ∀ a, (![0, 0] : Fin 2 → Nat) a + S2000x384.size a ≤ S2000x384.size a
  h_S2000x384 : 0 < S2000x384.numel
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S2000x256_S2000x256_0_0 : ∀ a, (![0, 0] : Fin 2 → Nat) a + S2000x256.size a ≤ S2000x256.size a
  h_S2000x256 : 0 < S2000x256.numel
  shapeCasts_S50000x256_S50000x4x64 : S50000x256.ShapeCasts S50000x4x64
  bcast_S1x4x64_S50000x4x64_0_1_2 : S1x4x64.BroadcastsInDim S50000x4x64 (![0, 1, 2] : Fin 3 → Fin S50000x4x64.rank)
  reducesTo_S50000x4x64_S50000x4_d2 : S50000x4x64.ReducesTo [2] S50000x4
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x4 : S5000x1.Broadcasts S5000x4
  bcast_S_S50000x4 : S_.BroadcastsInDim S50000x4 (![] : Fin 0 → Fin S50000x4.rank)
  inb_S1000x4_S1000x4_0_0 : ∀ a, (![0, 0] : Fin 2 → Nat) a + S1000x4.size a ≤ S1000x4.size a
  h_S1000x4 : 0 < S1000x4.numel
  shapeCasts_S1000x4_S1000x4 : S1000x4.ShapeCasts S1000x4
  shapeCasts_S1000x4_S1000x4x1 : S1000x4.ShapeCasts S1000x4x1
  inb_S1000x4x64_S1000x4x64_0_0_0 : ∀ a, (![0, 0, 0] : Fin 3 → Nat) a + S1000x4x64.size a ≤ S1000x4x64.size a
  h_S1000x4x64 : 0 < S1000x4x64.numel
  shapeCasts_S1000x4x64_S1000x4x64 : S1000x4x64.ShapeCasts S1000x4x64
  broadcasts_S1000x4x1_S1000x4x64 : S1000x4x1.Broadcasts S1000x4x64
  bcast_S_S50000x4x64 : S_.BroadcastsInDim S50000x4x64 (![] : Fin 0 → Fin S50000x4x64.rank)
  shapeCasts_S50000x4x64_S50000x256 : S50000x4x64.ShapeCasts S50000x256
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  shapeCasts_S50000x128_S50000x1x128 : S50000x128.ShapeCasts S50000x1x128
  bcast_S1x1x128_S50000x1x128_0_1_2 : S1x1x128.BroadcastsInDim S50000x1x128 (![0, 1, 2] : Fin 3 → Fin S50000x1x128.rank)
  reducesTo_S50000x1x128_S50000x1_d2 : S50000x1x128.ReducesTo [2] S50000x1
  bcast_S_S50000x1 : S_.BroadcastsInDim S50000x1 (![] : Fin 0 → Fin S50000x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  shapeCasts_S1000x1_S1000x1x1 : S1000x1.ShapeCasts S1000x1x1
  inb_S1000x1x128_S1000x1x128_0_0_0 : ∀ a, (![0, 0, 0] : Fin 3 → Nat) a + S1000x1x128.size a ≤ S1000x1x128.size a
  h_S1000x1x128 : 0 < S1000x1x128.numel
  shapeCasts_S1000x1x128_S1000x1x128 : S1000x1x128.ShapeCasts S1000x1x128
  broadcasts_S1000x1x1_S1000x1x128 : S1000x1x1.Broadcasts S1000x1x128
  bcast_S_S50000x1x128 : S_.BroadcastsInDim S50000x1x128 (![] : Fin 0 → Fin S50000x1x128.rank)
  reducesTo_S50000x1x128_S50000x128_d1 : S50000x1x128.ReducesTo [1] S50000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  broadcasts_S2000x1_S2000x128 : S2000x1.Broadcasts S2000x128
  dot_S2000x384_S384x256_S2000x256_1_0_0_1_n_n_wf : DotDims.WF S2000x384 S384x256 S2000x256 [1] [0] [0] [1] [] []
  gather_S50000x4_S500000x1_S500000x4_1_0_n_n_0_1_14_wf : GatherDims.WF S50000x4 S500000x1 S500000x4 [1] [0] [] [0] [] 1 ![1, 4]
  scatter_S50000x4_S500000x1_S500000x4_1_0_0_1_wf : ScatterDims.WF S50000x4 S500000x1 S500000x4 [1] [0] [0] 1
  gather_S50000x4x64_S500000x1_S500000x4x64_12_0_n_n_0_1_1464_wf : GatherDims.WF S50000x4x64 S500000x1 S500000x4x64 [1, 2] [0] [] [0] [] 1 ![1, 4, 64]
  scatter_S50000x4x64_S500000x1_S500000x4x64_12_0_0_1_wf : ScatterDims.WF S50000x4x64 S500000x1 S500000x4x64 [1, 2] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x1_S500000x1_S500000x1_1_0_n_n_0_1_11_wf : GatherDims.WF S50000x1 S500000x1 S500000x1 [1] [0] [] [0] [] 1 ![1, 1]
  scatter_S50000x1_S500000x1_S500000x1_1_0_0_1_wf : ScatterDims.WF S50000x1 S500000x1 S500000x1 [1] [0] [0] 1
  gather_S50000x1x128_S500000x1_S500000x1x128_12_0_n_n_0_1_11128_wf : GatherDims.WF S50000x1x128 S500000x1 S500000x1x128 [1, 2] [0] [] [0] [] 1 ![1, 1, 128]
  scatter_S50000x1x128_S500000x1_S500000x1x128_12_0_0_1_wf : ScatterDims.WF S50000x1x128 S500000x1 S500000x1x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .f32 = 32 ∨ (Rect.block (s := S50000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x256.size a
  hwx0_1 : ∀ i : grid0.Coords, EltTy.bits .f32 = 32 ∨ (Rect.block (s := S384x256) S384x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S500000x4.size a
  hwx1_0 : ∀ i : grid1.Coords, EltTy.bits .f32 = 32 ∨ (Rect.block (s := S500000x4) S5000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x4.size a ≤ S500000x4.size a
  hwx1_1 : ∀ i : grid1.Coords, EltTy.bits .f32 = 32 ∨ (Rect.block (s := S500000x4) S5000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x4.size a ≤ S500000x4.size a
  hwx1_3 : ∀ i : grid1.Coords, EltTy.bits .f32 = 32 ∨ (Rect.block (s := S500000x4) S5000x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x4.size a ≤ S500000x4.size a
  hwx2_0 : ∀ i : grid2.Coords, EltTy.bits .f32 = 32 ∨ (Rect.block (s := S500000x4) S1000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x4.size a ≤ S500000x4.size a
  hwx2_1 : ∀ i : grid2.Coords, EltTy.bits .f32 = 32 ∨ (Rect.block (s := S500000x4) S1000x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x4x64.size a ≤ S500000x4x64.size a
  hwx2_2 : ∀ i : grid2.Coords, EltTy.bits .f32 = 32 ∨ (Rect.block (s := S500000x4x64) S1000x4x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x4x64.size a ≤ S500000x4x64.size a
  hwx2_3 : ∀ i : grid2.Coords, EltTy.bits .f32 = 32 ∨ (Rect.block (s := S500000x4x64) S1000x4x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x4.size a ≤ S500000x4.size a
  hwx5_0 : ∀ i : grid5.Coords, EltTy.bits .f32 = 32 ∨ (Rect.block (s := S500000x4) S5000x4.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x4.size a ≤ S500000x4.size a
  hwx5_1 : ∀ i : grid5.Coords, EltTy.bits .f32 = 32 ∨ (Rect.block (s := S500000x4) S5000x4.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S500000x1.size a
  hwx5_2 : ∀ i : grid5.Coords, EltTy.bits .f32 = 32 ∨ (Rect.block (s := S500000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x4.size a ≤ S500000x4.size a
  hwx5_3 : ∀ i : grid5.Coords, EltTy.bits .f32 = 32 ∨ (Rect.block (s := S500000x4) S5000x4.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x4.size a ≤ S500000x4.size a
  hwx6_0 : ∀ i : grid6.Coords, EltTy.bits .f32 = 32 ∨ (Rect.block (s := S500000x4) S1000x4.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x4.size a ≤ S500000x4.size a
  hwx6_1 : ∀ i : grid6.Coords, EltTy.bits .f32 = 32 ∨ (Rect.block (s := S500000x4) S1000x4.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x4x64.size a ≤ S500000x4x64.size a
  hwx6_2 : ∀ i : grid6.Coords, EltTy.bits .f32 = 32 ∨ (Rect.block (s := S500000x4x64) S1000x4x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x4x64.size a ≤ S500000x4x64.size a
  hwx6_3 : ∀ i : grid6.Coords, EltTy.bits .f32 = 32 ∨ (Rect.block (s := S500000x4x64) S1000x4x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S50000x256.size a
  hwx7_4 : ∀ i : grid7.Coords, EltTy.bits .f32 = 32 ∨ (Rect.block (s := S50000x256) S2000x256.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x1.size a ≤ S500000x1.size a
  hwx9_0 : ∀ i : grid9.Coords, EltTy.bits .f32 = 32 ∨ (Rect.block (s := S500000x1) S5000x1.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S500000x1.size a
  hwx9_1 : ∀ i : grid9.Coords, EltTy.bits .f32 = 32 ∨ (Rect.block (s := S500000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S500000x1.size a
  hwx9_2 : ∀ i : grid9.Coords, EltTy.bits .f32 = 32 ∨ (Rect.block (s := S500000x1) S5000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x1.size a ≤ S500000x1.size a
  hwx9_3 : ∀ i : grid9.Coords, EltTy.bits .f32 = 32 ∨ (Rect.block (s := S500000x1) S5000x1.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x1.size a ≤ S500000x1.size a
  hwx10_0 : ∀ i : grid10.Coords, EltTy.bits .f32 = 32 ∨ (Rect.block (s := S500000x1) S1000x1.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1000x1.size a ≤ S500000x1.size a
  hwx10_1 : ∀ i : grid10.Coords, EltTy.bits .f32 = 32 ∨ (Rect.block (s := S500000x1) S1000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x1x128.size a ≤ S500000x1x128.size a
  hwx10_2 : ∀ i : grid10.Coords, EltTy.bits .f32 = 32 ∨ (Rect.block (s := S500000x1x128) S1000x1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1000x1x128.size a ≤ S500000x1x128.size a
  hwx10_3 : ∀ i : grid10.Coords, EltTy.bits .f32 = 32 ∨ (Rect.block (s := S500000x1x128) S1000x1x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x128.size a ≤ S50000x128.size a
  hwx11_4 : ∀ i : grid11.Coords, EltTy.bits .f32 = 32 ∨ (Rect.block (s := S50000x128) S2000x128.size (cc11_transform_4 i) (hinb11_4 i)).WholeWords (EltTy.packing .f32)

variable [Facts₀]

def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def gather_S50000x4_S500000x1_S500000x4_1_0_n_n_0_1_14 : GatherDims S50000x4 S500000x1 S500000x4 where
  offsetDims := [1]
  collapsedSliceDims := [0]
  operandBatchingDims := []
  startIndicesBatchingDims := []
  startIndexMap := [0]
  indexVectorDim := 1
  sliceSizes := ![1, 4]
  wf := gather_S50000x4_S500000x1_S500000x4_1_0_n_n_0_1_14_wf
def scatter_S50000x4_S500000x1_S500000x4_1_0_0_1 : ScatterDims S50000x4 S500000x1 S500000x4 where
  updateWindowDims := [1]
  insertedWindowDims := [0]
  scatterDimsToOperandDims := [0]
  indexVectorDim := 1
  wf := scatter_S50000x4_S500000x1_S500000x4_1_0_0_1_wf
def gather_S50000x4x64_S500000x1_S500000x4x64_12_0_n_n_0_1_1464 : GatherDims S50000x4x64 S500000x1 S500000x4x64 where
  offsetDims := [1, 2]
  collapsedSliceDims := [0]
  operandBatchingDims := []
  startIndicesBatchingDims := []
  startIndexMap := [0]
  indexVectorDim := 1
  sliceSizes := ![1, 4, 64]
  wf := gather_S50000x4x64_S500000x1_S500000x4x64_12_0_n_n_0_1_1464_wf
def scatter_S50000x4x64_S500000x1_S500000x4x64_12_0_0_1 : ScatterDims S50000x4x64 S500000x1 S500000x4x64 where
  updateWindowDims := [1, 2]
  insertedWindowDims := [0]
  scatterDimsToOperandDims := [0]
  indexVectorDim := 1
  wf := scatter_S50000x4x64_S500000x1_S500000x4x64_12_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x1_S500000x1_S500000x1_1_0_n_n_0_1_11 : GatherDims S50000x1 S500000x1 S500000x1 where
  offsetDims := [1]
  collapsedSliceDims := [0]
  operandBatchingDims := []
  startIndicesBatchingDims := []
  startIndexMap := [0]
  indexVectorDim := 1
  sliceSizes := ![1, 1]
  wf := gather_S50000x1_S500000x1_S500000x1_1_0_n_n_0_1_11_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def gather_S50000x1x128_S500000x1_S500000x1x128_12_0_n_n_0_1_11128 : GatherDims S50000x1x128 S500000x1 S500000x1x128 where
  offsetDims := [1, 2]
  collapsedSliceDims := [0]
  operandBatchingDims := []
  startIndicesBatchingDims := []
  startIndexMap := [0]
  indexVectorDim := 1
  sliceSizes := ![1, 1, 128]
  wf := gather_S50000x1x128_S500000x1_S500000x1x128_12_0_n_n_0_1_11128_wf
def scatter_S50000x1x128_S500000x1_S500000x1x128_12_0_0_1 : ScatterDims S50000x1x128 S500000x1 S500000x1x128 where
  updateWindowDims := [1, 2]
  insertedWindowDims := [0]
  scatterDimsToOperandDims := [0]
  indexVectorDim := 1
  wf := scatter_S50000x1x128_S500000x1_S500000x1x128_12_0_0_1_wf

abbrev win0_0 : Pipeline.Window sig grid0 :=
  Pipeline.Window.ofSpec (Memref.whole main_arg0) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S1000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1000x4x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1000x4x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S5000x4.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S5000x4.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S5000x4.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v76) S1000x4.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S1000x4.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1000x4x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v94) S1000x4x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v98) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v102) S2000x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v102) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg15) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v117) S5000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v124) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v125) S5000x1.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v125) S1000x1.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v135) S1000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v142) S1000x1x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v143) S1000x1x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v149) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v150) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v151) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v152) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v153) S2000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S50000x384 : Shape := ⟨2, ![50000, 384]⟩
abbrev S2x500000 : Shape := ⟨2, ![2, 500000]⟩
abbrev S500000 : Shape := ⟨1, ![500000]⟩
abbrev S384x256 : Shape := ⟨2, ![384, 256]⟩
abbrev S1x4x64 : Shape := ⟨3, ![1, 4, 64]⟩
abbrev S256 : Shape := ⟨1, ![256]⟩
abbrev S256x256 : Shape := ⟨2, ![256, 256]⟩
abbrev S256x128 : Shape := ⟨2, ![256, 128]⟩
abbrev S1x1x128 : Shape := ⟨3, ![1, 1, 128]⟩
abbrev S128 : Shape := ⟨1, ![128]⟩
abbrev S1x500000 : Shape := ⟨2, ![1, 500000]⟩
abbrev S50000x256 : Shape := ⟨2, ![50000, 256]⟩
abbrev S50000x4x64 : Shape := ⟨3, ![50000, 4, 64]⟩
abbrev S_ : Shape := ⟨0, ![]⟩
abbrev S50000x4 : Shape := ⟨2, ![50000, 4]⟩
abbrev S500000x1 : Shape := ⟨2, ![500000, 1]⟩
abbrev S500000x4 : Shape := ⟨2, ![500000, 4]⟩
abbrev S500000x4x1 : Shape := ⟨3, ![500000, 4, 1]⟩
abbrev S500000x4x64 : Shape := ⟨3, ![500000, 4, 64]⟩
abbrev S1x256 : Shape := ⟨2, ![1, 256]⟩
abbrev S50000 : Shape := ⟨1, ![50000]⟩
abbrev S50000x1 : Shape := ⟨2, ![50000, 1]⟩
abbrev S50000x128 : Shape := ⟨2, ![50000, 128]⟩
abbrev S50000x1x128 : Shape := ⟨3, ![50000, 1, 128]⟩
abbrev S500000x1x1 : Shape := ⟨3, ![500000, 1, 1]⟩
abbrev S500000x1x128 : Shape := ⟨3, ![500000, 1, 128]⟩
abbrev S1x128 : Shape := ⟨2, ![1, 128]⟩

abbrev nBuf : Space → Nat
  | .hbm => 424
  | .vmem => 0
  | .smem => 0
  | _ => 0

abbrev hbmTy0_0 (i : Nat) : BufTy := match i % 128 with
  | 0 => ⟨S50000x384, .f32⟩
  | 1 => ⟨S2x500000, .i32⟩
  | 2 => ⟨S500000, .f32⟩
  | 3 => ⟨S384x256, .f32⟩
  | 4 => ⟨S1x4x64, .f32⟩
  | 5 => ⟨S1x4x64, .f32⟩
  | 6 => ⟨S256, .f32⟩
  | 7 => ⟨S256, .f32⟩
  | 8 => ⟨S256, .f32⟩
  | 9 => ⟨S256x256, .f32⟩
  | 10 => ⟨S1x4x64, .f32⟩
  | 11 => ⟨S1x4x64, .f32⟩
  | 12 => ⟨S256, .f32⟩
  | 13 => ⟨S256, .f32⟩
  | 14 => ⟨S256, .f32⟩
  | 15 => ⟨S256x128, .f32⟩
  | 16 => ⟨S1x1x128, .f32⟩
  | 17 => ⟨S1x1x128, .f32⟩
  | 18 => ⟨S128, .f32⟩
  | 19 => ⟨S128, .f32⟩
  | 20 => ⟨S128, .f32⟩
  | 21 => ⟨S1x500000, .i32⟩
  | 22 => ⟨S500000, .i32⟩
  | 23 => ⟨S1x500000, .i32⟩
  | 24 => ⟨S500000, .i32⟩
  | 25 => ⟨S50000x256, .f32⟩
  | 26 => ⟨S50000x4x64, .f32⟩
  | 27 => ⟨S50000x4x64, .f32⟩
  | 28 => ⟨S50000x4x64, .f32⟩
  | 29 => ⟨S_, .f32⟩
  | 30 => ⟨S50000x4, .f32⟩
  | 31 => ⟨S50000x4x64, .f32⟩
  | 32 => ⟨S50000x4x64, .f32⟩
  | 33 => ⟨S_, .f32⟩
  | 34 => ⟨S50000x4, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000x4, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x4, .f32⟩
  | 53 => ⟨S500000x4, .f32⟩
  | 54 => ⟨S_, .f32⟩
  | 55 => ⟨S_, .f32⟩
  | 56 => ⟨S500000x4, .f32⟩
  | 57 => ⟨S500000x4, .i1⟩
  | 58 => ⟨S_, .f32⟩
  | 59 => ⟨S500000x4, .f32⟩
  | 60 => ⟨S500000x4, .f32⟩
  | 61 => ⟨S500000x4, .f32⟩
  | 62 => ⟨S500000x1, .f32⟩
  | 63 => ⟨S500000x4, .f32⟩
  | 64 => ⟨S500000x4, .f32⟩
  | 65 => ⟨S500000x4, .f32⟩
  | 66 => ⟨S_, .f32⟩
  | 67 => ⟨S50000x4, .f32⟩
  | 68 => ⟨S500000x1, .i32⟩
  | 69 => ⟨S50000x4, .f32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S500000x4, .f32⟩
  | 79 => ⟨S_, .f32⟩
  | 80 => ⟨S500000x4, .f32⟩
  | 81 => ⟨S500000x4, .f32⟩
  | 82 => ⟨S500000x4, .f32⟩
  | 83 => ⟨S500000x4x1, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x4x64, .f32⟩
  | 93 => ⟨S500000x4x64, .f32⟩
  | 94 => ⟨S500000x4x64, .f32⟩
  | 95 => ⟨S_, .f32⟩
  | 96 => ⟨S50000x4x64, .f32⟩
  | 97 => ⟨S500000x1, .i32⟩
  | 98 => ⟨S50000x4x64, .f32⟩
  | 99 => ⟨S50000x256, .f32⟩
  | 100 => ⟨S1x256, .f32⟩
  | 101 => ⟨S50000x256, .f32⟩
  | 102 => ⟨S50000x256, .f32⟩
  | 103 => ⟨S_, .f32⟩
  | 104 => ⟨S50000, .f32⟩
  | 105 => ⟨S50000x1, .f32⟩
  | 106 => ⟨S_, .f32⟩
  | 107 => ⟨S50000x1, .f32⟩
  | 108 => ⟨S50000x1, .f32⟩
  | 109 => ⟨S_, .i32⟩
  | 110 => ⟨S_, .f32⟩
  | 111 => ⟨S50000, .f32⟩
  | 112 => ⟨S50000x1, .f32⟩
  | 113 => ⟨S_, .f32⟩
  | 114 => ⟨S50000x1, .f32⟩
  | 115 => ⟨S50000x1, .f32⟩
  | 116 => ⟨S50000x256, .f32⟩
  | 117 => ⟨S50000x256, .f32⟩
  | 118 => ⟨S50000x256, .f32⟩
  | 119 => ⟨S_, .f32⟩
  | 120 => ⟨S_, .f32⟩
  | 121 => ⟨S_, .f32⟩
  | 122 => ⟨S_, .f32⟩
  | 123 => ⟨S50000, .f32⟩
  | 124 => ⟨S50000x1, .f32⟩
  | 125 => ⟨S50000x1, .f32⟩
  | 126 => ⟨S50000x1, .f32⟩
  | 127 => ⟨S_, .f32⟩
  | _ => ⟨S50000x384, .f32⟩

abbrev hbmTy0_1 (i : Nat) : BufTy := match i % 128 with
  | 0 => ⟨S_, .i1⟩
  | 1 => ⟨S_, .f32⟩
  | 2 => ⟨S_, .f32⟩
  | 3 => ⟨S50000x1, .f32⟩
  | 4 => ⟨S50000x1, .f32⟩
  | 5 => ⟨S50000x256, .f32⟩
  | 6 => ⟨S50000x256, .f32⟩
  | 7 => ⟨S_, .f32⟩
  | 8 => ⟨S50000x1, .f32⟩
  | 9 => ⟨S50000x1, .f32⟩
  | 10 => ⟨S50000x1, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .i1⟩
  | 22 => ⟨S_, .f32⟩
  | 23 => ⟨S50000x256, .f32⟩
  | 24 => ⟨S50000x256, .i1⟩
  | 25 => ⟨S_, .f32⟩
  | 26 => ⟨S_, .f32⟩
  | 27 => ⟨S50000x256, .f32⟩
  | 28 => ⟨S50000x256, .f32⟩
  | 29 => ⟨S50000x256, .f32⟩
  | 30 => ⟨S_, .f32⟩
  | 31 => ⟨S50000x256, .f32⟩
  | 32 => ⟨S50000x256, .f32⟩
  | 33 => ⟨S50000x256, .f32⟩
  | 34 => ⟨S50000x256, .f32⟩
  | 35 => ⟨S50000x4x64, .f32⟩
  | 36 => ⟨S50000x4x64, .f32⟩
  | 37 => ⟨S50000x4x64, .f32⟩
  | 38 => ⟨S_, .f32⟩
  | 39 => ⟨S50000x4, .f32⟩
  | 40 => ⟨S50000x4x64, .f32⟩
  | 41 => ⟨S50000x4x64, .f32⟩
  | 42 => ⟨S_, .f32⟩
  | 43 => ⟨S50000x4, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x4, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x4, .f32⟩
  | 62 => ⟨S500000x4, .f32⟩
  | 63 => ⟨S_, .f32⟩
  | 64 => ⟨S_, .f32⟩
  | 65 => ⟨S500000x4, .f32⟩
  | 66 => ⟨S500000x4, .i1⟩
  | 67 => ⟨S_, .f32⟩
  | 68 => ⟨S500000x4, .f32⟩
  | 69 => ⟨S500000x4, .f32⟩
  | 70 => ⟨S500000x4, .f32⟩
  | 71 => ⟨S500000x1, .f32⟩
  | 72 => ⟨S500000x4, .f32⟩
  | 73 => ⟨S500000x4, .f32⟩
  | 74 => ⟨S500000x4, .f32⟩
  | 75 => ⟨S_, .f32⟩
  | 76 => ⟨S50000x4, .f32⟩
  | 77 => ⟨S500000x1, .i32⟩
  | 78 => ⟨S50000x4, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x4, .f32⟩
  | 88 => ⟨S_, .f32⟩
  | 89 => ⟨S500000x4, .f32⟩
  | 90 => ⟨S500000x4, .f32⟩
  | 91 => ⟨S500000x4, .f32⟩
  | 92 => ⟨S500000x4x1, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x4x64, .f32⟩
  | 102 => ⟨S500000x4x64, .f32⟩
  | 103 => ⟨S500000x4x64, .f32⟩
  | 104 => ⟨S_, .f32⟩
  | 105 => ⟨S50000x4x64, .f32⟩
  | 106 => ⟨S500000x1, .i32⟩
  | 107 => ⟨S50000x4x64, .f32⟩
  | 108 => ⟨S50000x256, .f32⟩
  | 109 => ⟨S1x256, .f32⟩
  | 110 => ⟨S50000x256, .f32⟩
  | 111 => ⟨S50000x256, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S_, .i32⟩
  | 119 => ⟨S_, .f32⟩
  | 120 => ⟨S50000, .f32⟩
  | 121 => ⟨S50000x1, .f32⟩
  | 122 => ⟨S_, .f32⟩
  | 123 => ⟨S50000x1, .f32⟩
  | 124 => ⟨S50000x1, .f32⟩
  | 125 => ⟨S50000x256, .f32⟩
  | 126 => ⟨S50000x256, .f32⟩
  | 127 => ⟨S50000x256, .f32⟩
  | _ => ⟨S50000x384, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S50000, .f32⟩
  | 5 => ⟨S50000x1, .f32⟩
  | 6 => ⟨S50000x1, .f32⟩
  | 7 => ⟨S50000x1, .f32⟩
  | 8 => ⟨S_, .f32⟩
  | 9 => ⟨S_, .i1⟩
  | 10 => ⟨S_, .f32⟩
  | 11 => ⟨S_, .f32⟩
  | 12 => ⟨S50000x1, .f32⟩
  | 13 => ⟨S50000x1, .f32⟩
  | 14 => ⟨S50000x256, .f32⟩
  | 15 => ⟨S50000x256, .f32⟩
  | 16 => ⟨S_, .f32⟩
  | 17 => ⟨S50000x1, .f32⟩
  | 18 => ⟨S50000x1, .f32⟩
  | 19 => ⟨S50000x1, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .i1⟩
  | 31 => ⟨S_, .f32⟩
  | 32 => ⟨S50000x256, .f32⟩
  | 33 => ⟨S50000x256, .i1⟩
  | 34 => ⟨S_, .f32⟩
  | 35 => ⟨S_, .f32⟩
  | 36 => ⟨S50000x256, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S50000x256, .f32⟩
  | 43 => ⟨S50000x128, .f32⟩
  | 44 => ⟨S50000x1x128, .f32⟩
  | 45 => ⟨S50000x1x128, .f32⟩
  | 46 => ⟨S50000x1x128, .f32⟩
  | 47 => ⟨S_, .f32⟩
  | 48 => ⟨S50000x1, .f32⟩
  | 49 => ⟨S50000x1x128, .f32⟩
  | 50 => ⟨S50000x1x128, .f32⟩
  | 51 => ⟨S_, .f32⟩
  | 52 => ⟨S50000x1, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x1, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x1, .f32⟩
  | 71 => ⟨S500000x1, .f32⟩
  | 72 => ⟨S_, .f32⟩
  | 73 => ⟨S_, .f32⟩
  | 74 => ⟨S500000x1, .f32⟩
  | 75 => ⟨S500000x1, .i1⟩
  | 76 => ⟨S_, .f32⟩
  | 77 => ⟨S500000x1, .f32⟩
  | 78 => ⟨S500000x1, .f32⟩
  | 79 => ⟨S500000x1, .f32⟩
  | 80 => ⟨S500000x1, .f32⟩
  | 81 => ⟨S500000x1, .f32⟩
  | 82 => ⟨S500000x1, .f32⟩
  | 83 => ⟨S_, .f32⟩
  | 84 => ⟨S50000x1, .f32⟩
  | 85 => ⟨S500000x1, .i32⟩
  | 86 => ⟨S50000x1, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x1, .f32⟩
  | 96 => ⟨S_, .f32⟩
  | 97 => ⟨S500000x1, .f32⟩
  | 98 => ⟨S500000x1, .f32⟩
  | 99 => ⟨S500000x1, .f32⟩
  | 100 => ⟨S500000x1x1, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x1x128, .f32⟩
  | 110 => ⟨S500000x1x128, .f32⟩
  | 111 => ⟨S500000x1x128, .f32⟩
  | 112 => ⟨S_, .f32⟩
  | 113 => ⟨S50000x1x128, .f32⟩
  | 114 => ⟨S500000x1, .i32⟩
  | 115 => ⟨S50000x1x128, .f32⟩
  | 116 => ⟨S_, .f32⟩
  | 117 => ⟨S50000x128, .f32⟩
  | 118 => ⟨S_, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000, .f32⟩
  | 126 => ⟨S50000x1, .f32⟩
  | 127 => ⟨S_, .f32⟩
  | _ => ⟨S50000x384, .f32⟩

abbrev hbmTy0_3 (i : Nat) : BufTy := match i % 128 with
  | 0 => ⟨S50000x1, .f32⟩
  | 1 => ⟨S50000x1, .f32⟩
  | 2 => ⟨S_, .i32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x128, .f32⟩
  | 10 => ⟨S50000x128, .f32⟩
  | 11 => ⟨S50000x128, .f32⟩
  | 12 => ⟨S_, .f32⟩
  | 13 => ⟨S_, .f32⟩
  | 14 => ⟨S_, .f32⟩
  | 15 => ⟨S_, .f32⟩
  | 16 => ⟨S50000, .f32⟩
  | 17 => ⟨S50000x1, .f32⟩
  | 18 => ⟨S50000x1, .f32⟩
  | 19 => ⟨S50000x1, .f32⟩
  | 20 => ⟨S_, .f32⟩
  | 21 => ⟨S_, .i1⟩
  | 22 => ⟨S_, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S_, .f32⟩
  | 29 => ⟨S50000x1, .f32⟩
  | 30 => ⟨S50000x1, .f32⟩
  | 31 => ⟨S50000x1, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | _ => ⟨S50000x384, .f32⟩

abbrev hbmTy (i : Nat) : BufTy := match i / 128 with
  | 0 => hbmTy0_0 i
  | 1 => hbmTy0_1 i
  | 2 => hbmTy0_2 i
  | 3 => hbmTy0_3 i
  | _ => ⟨S50000x384, .f32⟩

abbrev bufTy : (tb : Table) → Fin (tcTables nBuf tb) → BufTy
  | .hbm, ⟨i, _⟩ => hbmTy i
  | _, _ => ⟨S50000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_6 : Ref sig .tc := ⟨.hbm, 70, rfl⟩
abbrev main_v35 : Ref sig .tc := ⟨.hbm, 71, rfl⟩
abbrev main_v36 : Ref sig .tc := ⟨.hbm, 72, rfl⟩
abbrev main_c_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_9 : Ref sig .tc := ⟨.hbm, 84, rfl⟩
abbrev main_v46 : Ref sig .tc := ⟨.hbm, 85, rfl⟩
abbrev main_v47 : Ref sig .tc := ⟨.hbm, 86, rfl⟩
abbrev main_c_10 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_12 : Ref sig .tc := ⟨.hbm, 103, rfl⟩
abbrev main_v62 : Ref sig .tc := ⟨.hbm, 104, rfl⟩
abbrev main_v63 : Ref sig .tc := ⟨.hbm, 105, rfl⟩
abbrev main_cst_13 : Ref sig .tc := ⟨.hbm, 106, rfl⟩
abbrev main_v64 : Ref sig .tc := ⟨.hbm, 107, rfl⟩
abbrev main_v65 : Ref sig .tc := ⟨.hbm, 108, rfl⟩
abbrev main_c_14 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_cst_0 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_v6 : Ref sig .tc := ⟨.hbm, 118, rfl⟩
abbrev main_call1_v7 : Ref sig .tc := ⟨.hbm, 119, rfl⟩
abbrev main_call1_cst_1 : Ref sig .tc := ⟨.hbm, 120, rfl⟩
abbrev main_call1_v8 : Ref sig .tc := ⟨.hbm, 121, rfl⟩
abbrev main_call1_cst_2 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_v12 : Ref sig .tc := ⟨.hbm, 126, rfl⟩
abbrev main_call1_cst_3 : Ref sig .tc := ⟨.hbm, 127, rfl⟩
abbrev main_call1_v13 : Ref sig .tc := ⟨.hbm, 128, rfl⟩
abbrev main_call1_cst_4 : Ref sig .tc := ⟨.hbm, 129, rfl⟩
abbrev main_call1_call0_v0 : Ref sig .tc := ⟨.hbm, 130, rfl⟩
abbrev main_call1_call0_v1 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_cst_15 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_cst_1 : Ref sig .tc := ⟨.hbm, 153, rfl⟩
abbrev main_call2_call0_v0 : Ref sig .tc := ⟨.hbm, 154, rfl⟩
abbrev main_call2_call0_v1 : Ref sig .tc := ⟨.hbm, 155, rfl⟩
abbrev main_call2_v4 : Ref sig .tc := ⟨.hbm, 156, rfl⟩
abbrev main_call2_v5 : Ref sig .tc := ⟨.hbm, 157, rfl⟩
abbrev main_call2_cst_2 : Ref sig .tc := ⟨.hbm, 158, rfl⟩
abbrev main_call2_v6 : Ref sig .tc := ⟨.hbm, 159, rfl⟩
abbrev main_call2_v7 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_cst_16 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_cst_17 : Ref sig .tc := ⟨.hbm, 170, rfl⟩
abbrev main_v88 : Ref sig .tc := ⟨.hbm, 171, rfl⟩
abbrev main_c_18 : Ref sig .tc := ⟨.hbm, 172, rfl⟩
abbrev main_v89 : Ref sig .tc := ⟨.hbm, 173, rfl⟩
abbrev main_v90 : Ref sig .tc := ⟨.hbm, 174, rfl⟩
abbrev main_c_19 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_c_20 : Ref sig .tc := ⟨.hbm, 181, rfl⟩
abbrev main_v96 : Ref sig .tc := ⟨.hbm, 182, rfl⟩
abbrev main_v97 : Ref sig .tc := ⟨.hbm, 183, rfl⟩
abbrev main_c_21 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_22 : Ref sig .tc := ⟨.hbm, 191, rfl⟩
abbrev main_call3_cst : Ref sig .tc := ⟨.hbm, 192, rfl⟩
abbrev main_call3_v0 : Ref sig .tc := ⟨.hbm, 193, rfl⟩
abbrev main_call3_v1 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_cst_23 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_c_24 : Ref sig .tc := ⟨.hbm, 207, rfl⟩
abbrev main_v112 : Ref sig .tc := ⟨.hbm, 208, rfl⟩
abbrev main_v113 : Ref sig .tc := ⟨.hbm, 209, rfl⟩
abbrev main_c_25 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_cst_26 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_c_27 : Ref sig .tc := ⟨.hbm, 221, rfl⟩
abbrev main_v123 : Ref sig .tc := ⟨.hbm, 222, rfl⟩
abbrev main_v124 : Ref sig .tc := ⟨.hbm, 223, rfl⟩
abbrev main_c_28 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_cst_29 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_cst_30 : Ref sig .tc := ⟨.hbm, 240, rfl⟩
abbrev main_v139 : Ref sig .tc := ⟨.hbm, 241, rfl⟩
abbrev main_v140 : Ref sig .tc := ⟨.hbm, 242, rfl⟩
abbrev main_cst_31 : Ref sig .tc := ⟨.hbm, 243, rfl⟩
abbrev main_v141 : Ref sig .tc := ⟨.hbm, 244, rfl⟩
abbrev main_v142 : Ref sig .tc := ⟨.hbm, 245, rfl⟩
abbrev main_c_32 : Ref sig .tc := ⟨.hbm, 246, rfl⟩
abbrev main_call4_cst : Ref sig .tc := ⟨.hbm, 247, rfl⟩
abbrev main_call4_v0 : Ref sig .tc := ⟨.hbm, 248, rfl⟩
abbrev main_call4_v1 : Ref sig .tc := ⟨.hbm, 249, rfl⟩
abbrev main_call4_cst_0 : Ref sig .tc := ⟨.hbm, 250, rfl⟩
abbrev main_call4_v2 : Ref sig .tc := ⟨.hbm, 251, rfl⟩
abbrev main_call4_v3 : Ref sig .tc := ⟨.hbm, 252, rfl⟩
abbrev main_call4_v4 : Ref sig .tc := ⟨.hbm, 253, rfl⟩
abbrev main_call4_v5 : Ref sig .tc := ⟨.hbm, 254, rfl⟩
abbrev main_call4_v6 : Ref sig .tc := ⟨.hbm, 255, rfl⟩
abbrev main_call4_v7 : Ref sig .tc := ⟨.hbm, 256, rfl⟩
abbrev main_call4_cst_1 : Ref sig .tc := ⟨.hbm, 257, rfl⟩
abbrev main_call4_v8 : Ref sig .tc := ⟨.hbm, 258, rfl⟩
abbrev main_call4_cst_2 : Ref sig .tc := ⟨.hbm, 259, rfl⟩
abbrev main_call4_v9 : Ref sig .tc := ⟨.hbm, 260, rfl⟩
abbrev main_call4_v10 : Ref sig .tc := ⟨.hbm, 261, rfl⟩
abbrev main_call4_v11 : Ref sig .tc := ⟨.hbm, 262, rfl⟩
abbrev main_call4_v12 : Ref sig .tc := ⟨.hbm, 263, rfl⟩
abbrev main_call4_cst_3 : Ref sig .tc := ⟨.hbm, 264, rfl⟩
abbrev main_call4_v13 : Ref sig .tc := ⟨.hbm, 265, rfl⟩
abbrev main_call4_cst_4 : Ref sig .tc := ⟨.hbm, 266, rfl⟩
abbrev main_call4_call0_v0 : Ref sig .tc := ⟨.hbm, 267, rfl⟩
abbrev main_call4_call0_v1 : Ref sig .tc := ⟨.hbm, 268, rfl⟩
abbrev main_v143 : Ref sig .tc := ⟨.hbm, 269, rfl⟩
abbrev main_v144 : Ref sig .tc := ⟨.hbm, 270, rfl⟩
abbrev main_v145 : Ref sig .tc := ⟨.hbm, 271, rfl⟩
abbrev main_cst_33 : Ref sig .tc := ⟨.hbm, 272, rfl⟩
abbrev main_v146 : Ref sig .tc := ⟨.hbm, 273, rfl⟩
abbrev main_v147 : Ref sig .tc := ⟨.hbm, 274, rfl⟩
abbrev main_v148 : Ref sig .tc := ⟨.hbm, 275, rfl⟩
abbrev main_v149 : Ref sig .tc := ⟨.hbm, 276, rfl⟩
abbrev main_v150 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_call5_cst : Ref sig .tc := ⟨.hbm, 284, rfl⟩
abbrev main_call5_v0 : Ref sig .tc := ⟨.hbm, 285, rfl⟩
abbrev main_call5_v1 : Ref sig .tc := ⟨.hbm, 286, rfl⟩
abbrev main_call5_cst_0 : Ref sig .tc := ⟨.hbm, 287, rfl⟩
abbrev main_call5_v2 : Ref sig .tc := ⟨.hbm, 288, rfl⟩
abbrev main_call5_v3 : Ref sig .tc := ⟨.hbm, 289, rfl⟩
abbrev main_call5_cst_1 : Ref sig .tc := ⟨.hbm, 290, rfl⟩
abbrev main_call5_call0_v0 : Ref sig .tc := ⟨.hbm, 291, rfl⟩
abbrev main_call5_call0_v1 : Ref sig .tc := ⟨.hbm, 292, rfl⟩
abbrev main_call5_v4 : Ref sig .tc := ⟨.hbm, 293, rfl⟩
abbrev main_call5_v5 : Ref sig .tc := ⟨.hbm, 294, rfl⟩
abbrev main_call5_cst_2 : Ref sig .tc := ⟨.hbm, 295, rfl⟩
abbrev main_call5_v6 : Ref sig .tc := ⟨.hbm, 296, rfl⟩
abbrev main_call5_v7 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_v161 : Ref sig .tc := ⟨.hbm, 302, rfl⟩
abbrev main_cst_34 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_cst_35 : Ref sig .tc := ⟨.hbm, 307, rfl⟩
abbrev main_v165 : Ref sig .tc := ⟨.hbm, 308, rfl⟩
abbrev main_c_36 : Ref sig .tc := ⟨.hbm, 309, rfl⟩
abbrev main_v166 : Ref sig .tc := ⟨.hbm, 310, rfl⟩
abbrev main_v167 : Ref sig .tc := ⟨.hbm, 311, rfl⟩
abbrev main_c_37 : Ref sig .tc := ⟨.hbm, 312, rfl⟩
abbrev main_v168 : Ref sig .tc := ⟨.hbm, 313, rfl⟩
abbrev main_v169 : Ref sig .tc := ⟨.hbm, 314, rfl⟩
abbrev main_v170 : Ref sig .tc := ⟨.hbm, 315, rfl⟩
abbrev main_v171 : Ref sig .tc := ⟨.hbm, 316, rfl⟩
abbrev main_v172 : Ref sig .tc := ⟨.hbm, 317, rfl⟩
abbrev main_c_38 : Ref sig .tc := ⟨.hbm, 318, rfl⟩
abbrev main_v173 : Ref sig .tc := ⟨.hbm, 319, rfl⟩
abbrev main_v174 : Ref sig .tc := ⟨.hbm, 320, rfl⟩
abbrev main_c_39 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_cst_40 : Ref sig .tc := ⟨.hbm, 328, rfl⟩
abbrev main_call6_cst : Ref sig .tc := ⟨.hbm, 329, rfl⟩
abbrev main_call6_v0 : Ref sig .tc := ⟨.hbm, 330, rfl⟩
abbrev main_call6_v1 : Ref sig .tc := ⟨.hbm, 331, rfl⟩
abbrev main_call6_v2 : Ref sig .tc := ⟨.hbm, 332, rfl⟩
abbrev main_call6_v3 : Ref sig .tc := ⟨.hbm, 333, rfl⟩
abbrev main_call6_v4 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_v184 : Ref sig .tc := ⟨.hbm, 338, rfl⟩
abbrev main_cst_41 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_c_42 : Ref sig .tc := ⟨.hbm, 343, rfl⟩
abbrev main_v188 : Ref sig .tc := ⟨.hbm, 344, rfl⟩
abbrev main_v189 : Ref sig .tc := ⟨.hbm, 345, rfl⟩
abbrev main_c_43 : Ref sig .tc := ⟨.hbm, 346, rfl⟩
abbrev main_v190 : Ref sig .tc := ⟨.hbm, 347, rfl⟩
abbrev main_v191 : Ref sig .tc := ⟨.hbm, 348, rfl⟩
abbrev main_v192 : Ref sig .tc := ⟨.hbm, 349, rfl⟩
abbrev main_v193 : Ref sig .tc := ⟨.hbm, 350, rfl⟩
abbrev main_v194 : Ref sig .tc := ⟨.hbm, 351, rfl⟩
abbrev main_cst_44 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_c_45 : Ref sig .tc := ⟨.hbm, 357, rfl⟩
abbrev main_v199 : Ref sig .tc := ⟨.hbm, 358, rfl⟩
abbrev main_v200 : Ref sig .tc := ⟨.hbm, 359, rfl⟩
abbrev main_c_46 : Ref sig .tc := ⟨.hbm, 360, rfl⟩
abbrev main_v201 : Ref sig .tc := ⟨.hbm, 361, rfl⟩
abbrev main_v202 : Ref sig .tc := ⟨.hbm, 362, rfl⟩
abbrev main_v203 : Ref sig .tc := ⟨.hbm, 363, rfl⟩
abbrev main_v204 : Ref sig .tc := ⟨.hbm, 364, rfl⟩
abbrev main_v205 : Ref sig .tc := ⟨.hbm, 365, rfl⟩
abbrev main_v206 : Ref sig .tc := ⟨.hbm, 366, rfl⟩
abbrev main_v207 : Ref sig .tc := ⟨.hbm, 367, rfl⟩
abbrev main_cst_47 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_cst_48 : Ref sig .tc := ⟨.hbm, 372, rfl⟩
abbrev main_v211 : Ref sig .tc := ⟨.hbm, 373, rfl⟩
abbrev main_cst_49 : Ref sig .tc := ⟨.hbm, 374, rfl⟩
abbrev main_v212 : Ref sig .tc := ⟨.hbm, 375, rfl⟩
abbrev main_v213 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_cst_50 : Ref sig .tc := ⟨.hbm, 380, rfl⟩
abbrev main_v217 : Ref sig .tc := ⟨.hbm, 381, rfl⟩
abbrev main_v218 : Ref sig .tc := ⟨.hbm, 382, rfl⟩
abbrev main_cst_51 : Ref sig .tc := ⟨.hbm, 383, rfl⟩
abbrev main_v219 : Ref sig .tc := ⟨.hbm, 384, rfl⟩
abbrev main_v220 : Ref sig .tc := ⟨.hbm, 385, rfl⟩
abbrev main_c_52 : Ref sig .tc := ⟨.hbm, 386, rfl⟩
abbrev main_call7_cst : Ref sig .tc := ⟨.hbm, 387, rfl⟩
abbrev main_call7_v0 : Ref sig .tc := ⟨.hbm, 388, rfl⟩
abbrev main_call7_v1 : Ref sig .tc := ⟨.hbm, 389, rfl⟩
abbrev main_call7_cst_0 : Ref sig .tc := ⟨.hbm, 390, rfl⟩
abbrev main_call7_v2 : Ref sig .tc := ⟨.hbm, 391, rfl⟩
abbrev main_call7_v3 : Ref sig .tc := ⟨.hbm, 392, rfl⟩
abbrev main_call7_v4 : Ref sig .tc := ⟨.hbm, 393, rfl⟩
abbrev main_call7_v5 : Ref sig .tc := ⟨.hbm, 394, rfl⟩
abbrev main_call7_v6 : Ref sig .tc := ⟨.hbm, 395, rfl⟩
abbrev main_call7_v7 : Ref sig .tc := ⟨.hbm, 396, rfl⟩
abbrev main_call7_cst_1 : Ref sig .tc := ⟨.hbm, 397, rfl⟩
abbrev main_call7_v8 : Ref sig .tc := ⟨.hbm, 398, rfl⟩
abbrev main_call7_cst_2 : Ref sig .tc := ⟨.hbm, 399, rfl⟩
abbrev main_call7_v9 : Ref sig .tc := ⟨.hbm, 400, rfl⟩
abbrev main_call7_v10 : Ref sig .tc := ⟨.hbm, 401, rfl⟩
abbrev main_call7_v11 : Ref sig .tc := ⟨.hbm, 402, rfl⟩
abbrev main_call7_v12 : Ref sig .tc := ⟨.hbm, 403, rfl⟩
abbrev main_call7_cst_3 : Ref sig .tc := ⟨.hbm, 404, rfl⟩
abbrev main_call7_v13 : Ref sig .tc := ⟨.hbm, 405, rfl⟩
abbrev main_call7_cst_4 : Ref sig .tc := ⟨.hbm, 406, rfl⟩
abbrev main_call7_call0_v0 : Ref sig .tc := ⟨.hbm, 407, rfl⟩
abbrev main_call7_call0_v1 : Ref sig .tc := ⟨.hbm, 408, rfl⟩
abbrev main_v221 : Ref sig .tc := ⟨.hbm, 409, rfl⟩
abbrev main_v222 : Ref sig .tc := ⟨.hbm, 410, rfl⟩
abbrev main_v223 : Ref sig .tc := ⟨.hbm, 411, rfl⟩
abbrev main_cst_53 : Ref sig .tc := ⟨.hbm, 412, rfl⟩
abbrev main_v224 : Ref sig .tc := ⟨.hbm, 413, rfl⟩
abbrev main_v225 : Ref sig .tc := ⟨.hbm, 414, rfl⟩
abbrev main_v226 : Ref sig .tc := ⟨.hbm, 415, rfl⟩
abbrev main_v227 : Ref sig .tc := ⟨.hbm, 416, rfl⟩
abbrev main_v228 : Ref sig .tc := ⟨.hbm, 417, rfl⟩
abbrev main_v229 : Ref sig .tc := ⟨.hbm, 418, rfl⟩
abbrev main_v230 : Ref sig .tc := ⟨.hbm, 419, rfl⟩
abbrev main_v231 : Ref sig .tc := ⟨.hbm, 420, rfl⟩
abbrev main_v232 : Ref sig .tc := ⟨.hbm, 421, rfl⟩
abbrev main_v233 : Ref sig .tc := ⟨.hbm, 422, rfl⟩
abbrev main_v234 : Ref sig .tc := ⟨.hbm, 423, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S50000x256_S50000x4x64 : S50000x256.ShapeCasts S50000x4x64
  bcast_S1x4x64_S50000x4x64_0_1_2 : S1x4x64.BroadcastsInDim S50000x4x64 (![0, 1, 2] : Fin 3 → Fin S50000x4x64.rank)
  reducesTo_S50000x4x64_S50000x4_d2 : S50000x4x64.ReducesTo [2] S50000x4
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S_S500000x4 : S_.BroadcastsInDim S500000x4 (![] : Fin 0 → Fin S500000x4.rank)
  bcast_S500000x1_S500000x4_0_1 : S500000x1.BroadcastsInDim S500000x4 (![0, 1] : Fin 2 → Fin S500000x4.rank)
  bcast_S_S50000x4 : S_.BroadcastsInDim S50000x4 (![] : Fin 0 → Fin S50000x4.rank)
  bcast_S500000x4_S500000x4x1_0_1 : S500000x4.BroadcastsInDim S500000x4x1 (![0, 1] : Fin 2 → Fin S500000x4x1.rank)
  bcast_S500000x4x1_S500000x4x64_0_1_2 : S500000x4x1.BroadcastsInDim S500000x4x64 (![0, 1, 2] : Fin 3 → Fin S500000x4x64.rank)
  bcast_S_S50000x4x64 : S_.BroadcastsInDim S50000x4x64 (![] : Fin 0 → Fin S50000x4x64.rank)
  shapeCasts_S50000x4x64_S50000x256 : S50000x4x64.ShapeCasts S50000x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S50000x128_S50000x1x128 : S50000x128.ShapeCasts S50000x1x128
  bcast_S1x1x128_S50000x1x128_0_1_2 : S1x1x128.BroadcastsInDim S50000x1x128 (![0, 1, 2] : Fin 3 → Fin S50000x1x128.rank)
  reducesTo_S50000x1x128_S50000x1_d2 : S50000x1x128.ReducesTo [2] S50000x1
  bcast_S_S500000x1 : S_.BroadcastsInDim S500000x1 (![] : Fin 0 → Fin S500000x1.rank)
  bcast_S500000x1_S500000x1x1_0_1 : S500000x1.BroadcastsInDim S500000x1x1 (![0, 1] : Fin 2 → Fin S500000x1x1.rank)
  bcast_S500000x1x1_S500000x1x128_0_1_2 : S500000x1x1.BroadcastsInDim S500000x1x128 (![0, 1, 2] : Fin 3 → Fin S500000x1x128.rank)
  bcast_S_S50000x1x128 : S_.BroadcastsInDim S50000x1x128 (![] : Fin 0 → Fin S50000x1x128.rank)
  reducesTo_S50000x1x128_S50000x128_d1 : S50000x1x128.ReducesTo [1] S50000x128
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  dot_S50000x384_S384x256_S50000x256_1_0_0_1_n_n_wf : DotDims.WF S50000x384 S384x256 S50000x256 [1] [0] [0] [1] [] []
  gather_S50000x4_S500000x1_S500000x4_1_0_n_n_0_1_14_wf : GatherDims.WF S50000x4 S500000x1 S500000x4 [1] [0] [] [0] [] 1 ![1, 4]
  scatter_S50000x4_S500000x1_S500000x4_1_0_0_1_wf : ScatterDims.WF S50000x4 S500000x1 S500000x4 [1] [0] [0] 1
  gather_S50000x4x64_S500000x1_S500000x4x64_12_0_n_n_0_1_1464_wf : GatherDims.WF S50000x4x64 S500000x1 S500000x4x64 [1, 2] [0] [] [0] [] 1 ![1, 4, 64]
  scatter_S50000x4x64_S500000x1_S500000x4x64_12_0_0_1_wf : ScatterDims.WF S50000x4x64 S500000x1 S500000x4x64 [1, 2] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x1_S500000x1_S500000x1_1_0_n_n_0_1_11_wf : GatherDims.WF S50000x1 S500000x1 S500000x1 [1] [0] [] [0] [] 1 ![1, 1]
  scatter_S50000x1_S500000x1_S500000x1_1_0_0_1_wf : ScatterDims.WF S50000x1 S500000x1 S500000x1 [1] [0] [0] 1
  gather_S50000x1x128_S500000x1_S500000x1x128_12_0_n_n_0_1_11128_wf : GatherDims.WF S50000x1x128 S500000x1 S500000x1x128 [1, 2] [0] [] [0] [] 1 ![1, 1, 128]
  scatter_S50000x1x128_S500000x1_S500000x1x128_12_0_0_1_wf : ScatterDims.WF S50000x1x128 S500000x1 S500000x1x128 [1, 2] [0] [0] 1

variable [Facts₀]

def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def gather_S50000x4_S500000x1_S500000x4_1_0_n_n_0_1_14 : GatherDims S50000x4 S500000x1 S500000x4 where
  offsetDims := [1]
  collapsedSliceDims := [0]
  operandBatchingDims := []
  startIndicesBatchingDims := []
  startIndexMap := [0]
  indexVectorDim := 1
  sliceSizes := ![1, 4]
  wf := gather_S50000x4_S500000x1_S500000x4_1_0_n_n_0_1_14_wf
def scatter_S50000x4_S500000x1_S500000x4_1_0_0_1 : ScatterDims S50000x4 S500000x1 S500000x4 where
  updateWindowDims := [1]
  insertedWindowDims := [0]
  scatterDimsToOperandDims := [0]
  indexVectorDim := 1
  wf := scatter_S50000x4_S500000x1_S500000x4_1_0_0_1_wf
def gather_S50000x4x64_S500000x1_S500000x4x64_12_0_n_n_0_1_1464 : GatherDims S50000x4x64 S500000x1 S500000x4x64 where
  offsetDims := [1, 2]
  collapsedSliceDims := [0]
  operandBatchingDims := []
  startIndicesBatchingDims := []
  startIndexMap := [0]
  indexVectorDim := 1
  sliceSizes := ![1, 4, 64]
  wf := gather_S50000x4x64_S500000x1_S500000x4x64_12_0_n_n_0_1_1464_wf
def scatter_S50000x4x64_S500000x1_S500000x4x64_12_0_0_1 : ScatterDims S50000x4x64 S500000x1 S500000x4x64 where
  updateWindowDims := [1, 2]
  insertedWindowDims := [0]
  scatterDimsToOperandDims := [0]
  indexVectorDim := 1
  wf := scatter_S50000x4x64_S500000x1_S500000x4x64_12_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x1_S500000x1_S500000x1_1_0_n_n_0_1_11 : GatherDims S50000x1 S500000x1 S500000x1 where
  offsetDims := [1]
  collapsedSliceDims := [0]
  operandBatchingDims := []
  startIndicesBatchingDims := []
  startIndexMap := [0]
  indexVectorDim := 1
  sliceSizes := ![1, 1]
  wf := gather_S50000x1_S500000x1_S500000x1_1_0_n_n_0_1_11_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def gather_S50000x1x128_S500000x1_S500000x1x128_12_0_n_n_0_1_11128 : GatherDims S50000x1x128 S500000x1 S500000x1x128 where
  offsetDims := [1, 2]
  collapsedSliceDims := [0]
  operandBatchingDims := []
  startIndicesBatchingDims := []
  startIndexMap := [0]
  indexVectorDim := 1
  sliceSizes := ![1, 1, 128]
  wf := gather_S50000x1x128_S500000x1_S500000x1x128_12_0_n_n_0_1_11128_wf
def scatter_S50000x1x128_S500000x1_S500000x1x128_12_0_0_1 : ScatterDims S50000x1x128 S500000x1 S500000x1x128 where
  updateWindowDims := [1, 2]
  insertedWindowDims := [0]
  scatterDimsToOperandDims := [0]
  indexVectorDim := 1
  wf := scatter_S50000x1x128_S500000x1_S500000x1x128_12_0_0_1_wf

class Facts : Prop extends Facts₀ where

variable [Facts]
-- ==== Proof.KernelRun.lean ====
/-
  The idealized kernel program's run with its RESULT read out: every weakly fair execution of the twelve regions and
  the host operations between them terminates, nothing faulting, the argument arrays end as launched, and the result
  array ends holding what the last region's write-backs leave — the last boundary's contents at the result buffer.
-/
import proofs.«158057_j81853486727297_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with the result array named. -/
theorem run_value : θ_run defs (onTc (τ := τ) (main (F := F))) ⟨m, fun _ => 0, ρ⟩ (fun r => ∀ c : Dev nD,
      r.2.mem ((c.tc : Thread nD τ).loc main_v153) = W22 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v153 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c),
       (h c _ (mem_uc main_arg20 (by decide))).trans (W22_main_arg20 m ρ c)⟩)

end Cert.KernelIdeal.RunValue

end
-- ==== Proof.KStages.lean ====
/-
  The host operations between the regions of the idealized kernel program, stretch by stretch: each buffer a later
  region or stretch reads, as ONE function of the buffers its stretch reads (index normalisation, gathers of per-node
  scores and features along the edges, segment sums back to the nodes, reshapes), and that the stretch computes it.
-/
import proofs.«158057_j81853486727297_2_alg».proof.Proof.Gen.KernelIdeal.Launch
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Stretch 0: buffer `main_v1` as a function of the buffers the stretch reads. -/
def st0_v1 (x_arg1 : (⟨S2x500000, .i32⟩ : BufTy).Contents (Elt F)) : (⟨S500000, .i32⟩ : BufTy).Contents (Elt F) :=
  (shapeCast S500000 (((extractStridedSlice S1x500000 ![0, 0] · slices_S2x500000_S1x500000_0_0) : (⟨S2x500000, .i32⟩ : BufTy).Contents (Elt F) → (⟨S1x500000, .i32⟩ : BufTy).Contents (Elt F)) x_arg1) shapeCasts_S1x500000_S500000)

theorem after_st0_v1 (W : Valuation τ sig (Elt F)) :
    StableHlo.after hostOps0 W (Proc.devRef .tc main_v1) = st0_v1 (W (Proc.devRef .tc main_arg1)) := by
  after_results_simp
  rfl

/-- Stretch 0: buffer `main_v3` as a function of the buffers the stretch reads. -/
def st0_v3 (x_arg1 : (⟨S2x500000, .i32⟩ : BufTy).Contents (Elt F)) : (⟨S500000, .i32⟩ : BufTy).Contents (Elt F) :=
  (shapeCast S500000 (((extractStridedSlice S1x500000 ![1, 0] · slices_S2x500000_S1x500000_1_0) : (⟨S2x500000, .i32⟩ : BufTy).Contents (Elt F) → (⟨S1x500000, .i32⟩ : BufTy).Contents (Elt F)) x_arg1) shapeCasts_S1x500000_S500000)

theorem after_st0_v3 (W : Valuation τ sig (Elt F)) :
    StableHlo.after hostOps0 W (Proc.devRef .tc main_v3) = st0_v3 (W (Proc.devRef .tc main_arg1)) := by
  after_results_simp
  rfl

/-- Stretch 0: buffer `main_v4` as a function of the buffers the stretch reads. -/
def st0_v4 (x_arg2 : (⟨S500000, .f32⟩ : BufTy).Contents (Elt F)) : (⟨S500000x1, .f32⟩ : BufTy).Contents (Elt F) :=
  (shapeCast S500000x1 x_arg2 shapeCasts_S500000_S500000x1)

theorem after_st0_v4 (W : Valuation τ sig (Elt F)) :
    StableHlo.after hostOps0 W (Proc.devRef .tc main_v4) = st0_v4 (W (Proc.devRef .tc main_arg2)) := by
  after_results_simp
  rfl

/-- Stretch 1: buffer `main_v6` as a function of the buffers the stretch reads. -/
def st1_v6 (x_v5 : (⟨S50000x256, .f32⟩ : BufTy).Contents (Elt F)) : (⟨S50000x4x64, .f32⟩ : BufTy).Contents (Elt F) :=
  (shapeCast S50000x4x64 x_v5 shapeCasts_S50000x256_S50000x4x64)

theorem after_st1_v6 (W : Valuation τ sig (Elt F)) :
    StableHlo.after hostOps1 W (Proc.devRef .tc main_v6) = st1_v6 (W (Proc.devRef .tc main_v5)) := by
  after_results_simp
  rfl

/-- Stretch 1: buffer `main_v19` as a function of the buffers the stretch reads. -/
def st1_v19 (x_v5 : (⟨S50000x256, .f32⟩ : BufTy).Contents (Elt F)) (x_arg4 : (⟨S1x4x64, .f32⟩ : BufTy).Contents (Elt F)) (x_v1 : (⟨S500000, .i32⟩ : BufTy).Contents (Elt F)) : (⟨S500000x4, .f32⟩ : BufTy).Contents (Elt F) :=
  (((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) (((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)) ((mulf : (⟨S50000x4x64, .f32⟩ : BufTy).Contents (Elt F) → (⟨S50000x4x64, .f32⟩ : BufTy).Contents (Elt F) → (⟨S50000x4x64, .f32⟩ : BufTy).Contents (Elt F)) (shapeCast S50000x4x64 x_v5 shapeCasts_S50000x256_S50000x4x64) ((broadcastInDim S50000x4x64 ![0, 1, 2] bcast_S1x4x64_S50000x4x64_0_1_2 : (⟨S1x4x64, .f32⟩ : BufTy).Contents (Elt F) → (⟨S50000x4x64, .f32⟩ : BufTy).Contents (Elt F)) x_arg4)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v1 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v1 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v1)))

theorem after_st1_v19 (W : Valuation τ sig (Elt F)) :
    StableHlo.after hostOps1 W (Proc.devRef .tc main_v19) = st1_v19 (W (Proc.devRef .tc main_v5)) (W (Proc.devRef .tc main_arg4)) (W (Proc.devRef .tc main_v1)) := by
  after_results_simp
  rfl

/-- Stretch 1: buffer `main_v26` as a function of the buffers the stretch reads. -/
def st1_v26 (x_v5 : (⟨S50000x256, .f32⟩ : BufTy).Contents (Elt F)) (x_arg5 : (⟨S1x4x64, .f32⟩ : BufTy).Contents (Elt F)) (x_v3 : (⟨S500000, .i32⟩ : BufTy).Contents (Elt F)) : (⟨S500000x4, .f32⟩ : BufTy).Contents (Elt F) :=
  (((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) (((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)) ((mulf : (⟨S50000x4x64, .f32⟩ : BufTy).Contents (Elt F) → (⟨S50000x4x64, .f32⟩ : BufTy).Contents (Elt F) → (⟨S50000x4x64, .f32⟩ : BufTy).Contents (Elt F)) (shapeCast S50000x4x64 x_v5 shapeCasts_S50000x256_S50000x4x64) ((broadcastInDim S50000x4x64 ![0, 1, 2] bcast_S1x4x64_S50000x4x64_0_1_2 : (⟨S1x4x64, .f32⟩ : BufTy).Contents (Elt F) → (⟨S50000x4x64, .f32⟩ : BufTy).Contents (Elt F)) x_arg5)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st1_v26 (W : Valuation τ sig (Elt F)) :
    StableHlo.after hostOps1 W (Proc.devRef .tc main_v26) = st1_v26 (W (Proc.devRef .tc main_v5)) (W (Proc.devRef .tc main_arg5)) (W (Proc.devRef .tc main_v3)) := by
  after_results_simp
  rfl

/-- Stretch 2: buffer `main_v37` as a function of the buffers the stretch reads. -/
def st2_v37 (x_v3 : (⟨S500000, .i32⟩ : BufTy).Contents (Elt F)) (x_v27 : (⟨S500000x4, .f32⟩ : BufTy).Contents (Elt F)) : (⟨S500000x4, .f32⟩ : BufTy).Contents (Elt F) :=
  (((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) (((fun x i u => Host.scatterAdd scatter_S50000x4_S500000x1_S500000x4_1_0_0_1 x i u) : (⟨S50000x4, .f32⟩ : BufTy).Contents (Elt F) → (⟨S500000x1, .i32⟩ : BufTy).Contents (Elt F) → (⟨S500000x4, .f32⟩ : BufTy).Contents (Elt F) → (⟨S50000x4, .f32⟩ : BufTy).Contents (Elt F)) ((broadcastInDim S50000x4 ![] bcast_S_S50000x4 : (⟨S_, .f32⟩ : BufTy).Contents (Elt F) → (⟨S50000x4, .f32⟩ : BufTy).Contents (Elt F)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) x_v3) x_v27) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st2_v37 (W : Valuation τ sig (Elt F)) :
    StableHlo.after hostOps2 W (Proc.devRef .tc main_v37) = st2_v37 (W (Proc.devRef .tc main_v3)) (W (Proc.devRef .tc main_v27)) := by
  after_results_simp
  rfl

/-- Stretch 2: buffer `main_v44` as a function of the buffers the stretch reads. -/
def st2_v44 (x_v6 : (⟨S50000x4x64, .f32⟩ : BufTy).Contents (Elt F)) (x_v3 : (⟨S500000, .i32⟩ : BufTy).Contents (Elt F)) : (⟨S500000x4x64, .f32⟩ : BufTy).Contents (Elt F) :=
  (((fun x i => Host.gather gather_S50000x4x64_S500000x1_S500000x4x64_12_0_n_n_0_1_1464 x i) : (⟨S50000x4x64, .f32⟩ : BufTy).Contents (Elt F) → (⟨S500000x1, .i32⟩ : BufTy).Contents (Elt F) → (⟨S500000x4x64, .f32⟩ : BufTy).Contents (Elt F)) x_v6 ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st2_v44 (W : Valuation τ sig (Elt F)) :
    StableHlo.after hostOps2 W (Proc.devRef .tc main_v44) = st2_v44 (W (Proc.devRef .tc main_v6)) (W (Proc.devRef .tc main_v3)) := by
  after_results_simp
  rfl

/-- Stretch 3: buffer `main_v49` as a function of the buffers the stretch reads. -/
def st3_v49 (x_v1 : (⟨S500000, .i32⟩ : BufTy).Contents (Elt F)) (x_v45 : (⟨S500000x4x64, .f32⟩ : BufTy).Contents (Elt F)) : (⟨S50000x256, .f32⟩ : BufTy).Contents (Elt F) :=
  (shapeCast S50000x256 (((fun x i u => Host.scatterAdd scatter_S50000x4x64_S500000x1_S500000x4x64_12_0_0_1 x i u) : (⟨S50000x4x64, .f32⟩ : BufTy).Contents (Elt F) → (⟨S500000x1, .i32⟩ : BufTy).Contents (Elt F) → (⟨S500000x4x64, .f32⟩ : BufTy).Contents (Elt F) → (⟨S50000x4x64, .f32⟩ : BufTy).Contents (Elt F)) ((broadcastInDim S50000x4x64 ![] bcast_S_S50000x4x64 : (⟨S_, .f32⟩ : BufTy).Contents (Elt F) → (⟨S50000x4x64, .f32⟩ : BufTy).Contents (Elt F)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) x_v1) x_v45) shapeCasts_S50000x4x64_S50000x256)

theorem after_st3_v49 (W : Valuation τ sig (Elt F)) :
    StableHlo.after hostOps3 W (Proc.devRef .tc main_v49) = st3_v49 (W (Proc.devRef .tc main_v1)) (W (Proc.devRef .tc main_v45)) := by
  after_results_simp
  rfl

/-- Stretch 3: buffer `main_v50` as a function of the buffers the stretch reads. -/
def st3_v50 (x_arg6 : (⟨S256, .f32⟩ : BufTy).Contents (Elt F)) : (⟨S1x256, .f32⟩ : BufTy).Contents (Elt F) :=
  (shapeCast S1x256 x_arg6 shapeCasts_S256_S1x256)

theorem after_st3_v50 (W : Valuation τ sig (Elt F)) :
    StableHlo.after hostOps3 W (Proc.devRef .tc main_v50) = st3_v50 (W (Proc.devRef .tc main_arg6)) := by
  after_results_simp
  rfl

/-- Stretch 3: buffer `main_v51` as a function of the buffers the stretch reads. -/
def st3_v51 (x_arg7 : (⟨S256, .f32⟩ : BufTy).Contents (Elt F)) : (⟨S1x256, .f32⟩ : BufTy).Contents (Elt F) :=
  (shapeCast S1x256 x_arg7 shapeCasts_S256_S1x256)

theorem after_st3_v51 (W : Valuation τ sig (Elt F)) :
    StableHlo.after hostOps3 W (Proc.devRef .tc main_v51) = st3_v51 (W (Proc.devRef .tc main_arg7)) := by
  after_results_simp
  rfl

/-- Stretch 3: buffer `main_v52` as a function of the buffers the stretch reads. -/
def st3_v52 (x_arg8 : (⟨S256, .f32⟩ : BufTy).Contents (Elt F)) : (⟨S1x256, .f32⟩ : BufTy).Contents (Elt F) :=
  (shapeCast S1x256 x_arg8 shapeCasts_S256_S1x256)

theorem after_st3_v52 (W : Valuation τ sig (Elt F)) :
    StableHlo.after hostOps3 W (Proc.devRef .tc main_v52) = st3_v52 (W (Proc.devRef .tc main_arg8)) := by
  after_results_simp
  rfl

/-- Stretch 5: buffer `main_v55` as a function of the buffers the stretch reads. -/
def st5_v55 (x_v54 : (⟨S50000x256, .f32⟩ : BufTy).Contents (Elt F)) : (⟨S50000x4x64, .f32⟩ : BufTy).Contents (Elt F) :=
  (shapeCast S50000x4x64 x_v54 shapeCasts_S50000x256_S50000x4x64)

theorem after_st5_v55 (W : Valuation τ sig (Elt F)) :
    StableHlo.after hostOps5 W (Proc.devRef .tc main_v55) = st5_v55 (W (Proc.devRef .tc main_v54)) := by
  after_results_simp
  rfl

/-- Stretch 5: buffer `main_v68` as a function of the buffers the stretch reads. -/
def st5_v68 (x_v54 : (⟨S50000x256, .f32⟩ : BufTy).Contents (Elt F)) (x_arg10 : (⟨S1x4x64, .f32⟩ : BufTy).Contents (Elt F)) (x_v1 : (⟨S500000, .i32⟩ : BufTy).Contents (Elt F)) : (⟨S500000x4, .f32⟩ : BufTy).Contents (Elt F) :=
  (((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) (((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)) ((mulf : (⟨S50000x4x64, .f32⟩ : BufTy).Contents (Elt F) → (⟨S50000x4x64, .f32⟩ : BufTy).Contents (Elt F) → (⟨S50000x4x64, .f32⟩ : BufTy).Contents (Elt F)) (shapeCast S50000x4x64 x_v54 shapeCasts_S50000x256_S50000x4x64) ((broadcastInDim S50000x4x64 ![0, 1, 2] bcast_S1x4x64_S50000x4x64_0_1_2 : (⟨S1x4x64, .f32⟩ : BufTy).Contents (Elt F) → (⟨S50000x4x64, .f32⟩ : BufTy).Contents (Elt F)) x_arg10)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v1 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v1 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v1)))

theorem after_st5_v68 (W : Valuation τ sig (Elt F)) :
    StableHlo.after hostOps5 W (Proc.devRef .tc main_v68) = st5_v68 (W (Proc.devRef .tc main_v54)) (W (Proc.devRef .tc main_arg10)) (W (Proc.devRef .tc main_v1)) := by
  after_results_simp
  rfl

/-- Stretch 5: buffer `main_v75` as a function of the buffers the stretch reads. -/
def st5_v75 (x_v54 : (⟨S50000x256, .f32⟩ : BufTy).Contents (Elt F)) (x_arg11 : (⟨S1x4x64, .f32⟩ : BufTy).Contents (Elt F)) (x_v3 : (⟨S500000, .i32⟩ : BufTy).Contents (Elt F)) : (⟨S500000x4, .f32⟩ : BufTy).Contents (Elt F) :=
  (((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) (((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)) ((mulf : (⟨S50000x4x64, .f32⟩ : BufTy).Contents (Elt F) → (⟨S50000x4x64, .f32⟩ : BufTy).Contents (Elt F) → (⟨S50000x4x64, .f32⟩ : BufTy).Contents (Elt F)) (shapeCast S50000x4x64 x_v54 shapeCasts_S50000x256_S50000x4x64) ((broadcastInDim S50000x4x64 ![0, 1, 2] bcast_S1x4x64_S50000x4x64_0_1_2 : (⟨S1x4x64, .f32⟩ : BufTy).Contents (Elt F) → (⟨S50000x4x64, .f32⟩ : BufTy).Contents (Elt F)) x_arg11)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st5_v75 (W : Valuation τ sig (Elt F)) :
    StableHlo.after hostOps5 W (Proc.devRef .tc main_v75) = st5_v75 (W (Proc.devRef .tc main_v54)) (W (Proc.devRef .tc main_arg11)) (W (Proc.devRef .tc main_v3)) := by
  after_results_simp
  rfl

/-- Stretch 6: buffer `main_v86` as a function of the buffers the stretch reads. -/
def st6_v86 (x_v3 : (⟨S500000, .i32⟩ : BufTy).Contents (Elt F)) (x_v76 : (⟨S500000x4, .f32⟩ : BufTy).Contents (Elt F)) : (⟨S500000x4, .f32⟩ : BufTy).Contents (Elt F) :=
  (((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) (((fun x i u => Host.scatterAdd scatter_S50000x4_S500000x1_S500000x4_1_0_0_1 x i u) : (⟨S50000x4, .f32⟩ : BufTy).Contents (Elt F) → (⟨S500000x1, .i32⟩ : BufTy).Contents (Elt F) → (⟨S500000x4, .f32⟩ : BufTy).Contents (Elt F) → (⟨S50000x4, .f32⟩ : BufTy).Contents (Elt F)) ((broadcastInDim S50000x4 ![] bcast_S_S50000x4 : (⟨S_, .f32⟩ : BufTy).Contents (Elt F) → (⟨S50000x4, .f32⟩ : BufTy).Contents (Elt F)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) x_v3) x_v76) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st6_v86 (W : Valuation τ sig (Elt F)) :
    StableHlo.after hostOps6 W (Proc.devRef .tc main_v86) = st6_v86 (W (Proc.devRef .tc main_v3)) (W (Proc.devRef .tc main_v76)) := by
  after_results_simp
  rfl

/-- Stretch 6: buffer `main_v93` as a function of the buffers the stretch reads. -/
def st6_v93 (x_v55 : (⟨S50000x4x64, .f32⟩ : BufTy).Contents (Elt F)) (x_v3 : (⟨S500000, .i32⟩ : BufTy).Contents (Elt F)) : (⟨S500000x4x64, .f32⟩ : BufTy).Contents (Elt F) :=
  (((fun x i => Host.gather gather_S50000x4x64_S500000x1_S500000x4x64_12_0_n_n_0_1_1464 x i) : (⟨S50000x4x64, .f32⟩ : BufTy).Contents (Elt F) → (⟨S500000x1, .i32⟩ : BufTy).Contents (Elt F) → (⟨S500000x4x64, .f32⟩ : BufTy).Contents (Elt F)) x_v55 ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st6_v93 (W : Valuation τ sig (Elt F)) :
    StableHlo.after hostOps6 W (Proc.devRef .tc main_v93) = st6_v93 (W (Proc.devRef .tc main_v55)) (W (Proc.devRef .tc main_v3)) := by
  after_results_simp
  rfl

/-- Stretch 7: buffer `main_v98` as a function of the buffers the stretch reads. -/
def st7_v98 (x_v1 : (⟨S500000, .i32⟩ : BufTy).Contents (Elt F)) (x_v94 : (⟨S500000x4x64, .f32⟩ : BufTy).Contents (Elt F)) : (⟨S50000x256, .f32⟩ : BufTy).Contents (Elt F) :=
  (shapeCast S50000x256 (((fun x i u => Host.scatterAdd scatter_S50000x4x64_S500000x1_S500000x4x64_12_0_0_1 x i u) : (⟨S50000x4x64, .f32⟩ : BufTy).Contents (Elt F) → (⟨S500000x1, .i32⟩ : BufTy).Contents (Elt F) → (⟨S500000x4x64, .f32⟩ : BufTy).Contents (Elt F) → (⟨S50000x4x64, .f32⟩ : BufTy).Contents (Elt F)) ((broadcastInDim S50000x4x64 ![] bcast_S_S50000x4x64 : (⟨S_, .f32⟩ : BufTy).Contents (Elt F) → (⟨S50000x4x64, .f32⟩ : BufTy).Contents (Elt F)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) x_v1) x_v94) shapeCasts_S50000x4x64_S50000x256)

theorem after_st7_v98 (W : Valuation τ sig (Elt F)) :
    StableHlo.after hostOps7 W (Proc.devRef .tc main_v98) = st7_v98 (W (Proc.devRef .tc main_v1)) (W (Proc.devRef .tc main_v94)) := by
  after_results_simp
  rfl

/-- Stretch 7: buffer `main_v99` as a function of the buffers the stretch reads. -/
def st7_v99 (x_arg12 : (⟨S256, .f32⟩ : BufTy).Contents (Elt F)) : (⟨S1x256, .f32⟩ : BufTy).Contents (Elt F) :=
  (shapeCast S1x256 x_arg12 shapeCasts_S256_S1x256)

theorem after_st7_v99 (W : Valuation τ sig (Elt F)) :
    StableHlo.after hostOps7 W (Proc.devRef .tc main_v99) = st7_v99 (W (Proc.devRef .tc main_arg12)) := by
  after_results_simp
  rfl

/-- Stretch 7: buffer `main_v100` as a function of the buffers the stretch reads. -/
def st7_v100 (x_arg13 : (⟨S256, .f32⟩ : BufTy).Contents (Elt F)) : (⟨S1x256, .f32⟩ : BufTy).Contents (Elt F) :=
  (shapeCast S1x256 x_arg13 shapeCasts_S256_S1x256)

theorem after_st7_v100 (W : Valuation τ sig (Elt F)) :
    StableHlo.after hostOps7 W (Proc.devRef .tc main_v100) = st7_v100 (W (Proc.devRef .tc main_arg13)) := by
  after_results_simp
  rfl

/-- Stretch 7: buffer `main_v101` as a function of the buffers the stretch reads. -/
def st7_v101 (x_arg14 : (⟨S256, .f32⟩ : BufTy).Contents (Elt F)) : (⟨S1x256, .f32⟩ : BufTy).Contents (Elt F) :=
  (shapeCast S1x256 x_arg14 shapeCasts_S256_S1x256)

theorem after_st7_v101 (W : Valuation τ sig (Elt F)) :
    StableHlo.after hostOps7 W (Proc.devRef .tc main_v101) = st7_v101 (W (Proc.devRef .tc main_arg14)) := by
  after_results_simp
  rfl

/-- Stretch 9: buffer `main_v104` as a function of the buffers the stretch reads. -/
def st9_v104 (x_v103 : (⟨S50000x128, .f32⟩ : BufTy).Contents (Elt F)) : (⟨S50000x1x128, .f32⟩ : BufTy).Contents (Elt F) :=
  (shapeCast S50000x1x128 x_v103 shapeCasts_S50000x128_S50000x1x128)

theorem after_st9_v104 (W : Valuation τ sig (Elt F)) :
    StableHlo.after hostOps9 W (Proc.devRef .tc main_v104) = st9_v104 (W (Proc.devRef .tc main_v103)) := by
  after_results_simp
  rfl

/-- Stretch 9: buffer `main_v117` as a function of the buffers the stretch reads. -/
def st9_v117 (x_v103 : (⟨S50000x128, .f32⟩ : BufTy).Contents (Elt F)) (x_arg16 : (⟨S1x1x128, .f32⟩ : BufTy).Contents (Elt F)) (x_v1 : (⟨S500000, .i32⟩ : BufTy).Contents (Elt F)) : (⟨S500000x1, .f32⟩ : BufTy).Contents (Elt F) :=
  (((fun x i => Host.gather gather_S50000x1_S500000x1_S500000x1_1_0_n_n_0_1_11 x i) : (⟨S50000x1, .f32⟩ : BufTy).Contents (Elt F) → (⟨S500000x1, .i32⟩ : BufTy).Contents (Elt F) → (⟨S500000x1, .f32⟩ : BufTy).Contents (Elt F)) (((fun x v => Host.reduceAdd x v reducesTo_S50000x1x128_S50000x1_d2 h_S_) : (⟨S50000x1x128, .f32⟩ : BufTy).Contents (Elt F) → (⟨S_, .f32⟩ : BufTy).Contents (Elt F) → (⟨S50000x1, .f32⟩ : BufTy).Contents (Elt F)) ((mulf : (⟨S50000x1x128, .f32⟩ : BufTy).Contents (Elt F) → (⟨S50000x1x128, .f32⟩ : BufTy).Contents (Elt F) → (⟨S50000x1x128, .f32⟩ : BufTy).Contents (Elt F)) (shapeCast S50000x1x128 x_v103 shapeCasts_S50000x128_S50000x1x128) ((broadcastInDim S50000x1x128 ![0, 1, 2] bcast_S1x1x128_S50000x1x128_0_1_2 : (⟨S1x1x128, .f32⟩ : BufTy).Contents (Elt F) → (⟨S50000x1x128, .f32⟩ : BufTy).Contents (Elt F)) x_arg16)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v1 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v1 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v1)))

theorem after_st9_v117 (W : Valuation τ sig (Elt F)) :
    StableHlo.after hostOps9 W (Proc.devRef .tc main_v117) = st9_v117 (W (Proc.devRef .tc main_v103)) (W (Proc.devRef .tc main_arg16)) (W (Proc.devRef .tc main_v1)) := by
  after_results_simp
  rfl

/-- Stretch 9: buffer `main_v124` as a function of the buffers the stretch reads. -/
def st9_v124 (x_v103 : (⟨S50000x128, .f32⟩ : BufTy).Contents (Elt F)) (x_arg17 : (⟨S1x1x128, .f32⟩ : BufTy).Contents (Elt F)) (x_v3 : (⟨S500000, .i32⟩ : BufTy).Contents (Elt F)) : (⟨S500000x1, .f32⟩ : BufTy).Contents (Elt F) :=
  (((fun x i => Host.gather gather_S50000x1_S500000x1_S500000x1_1_0_n_n_0_1_11 x i) : (⟨S50000x1, .f32⟩ : BufTy).Contents (Elt F) → (⟨S500000x1, .i32⟩ : BufTy).Contents (Elt F) → (⟨S500000x1, .f32⟩ : BufTy).Contents (Elt F)) (((fun x v => Host.reduceAdd x v reducesTo_S50000x1x128_S50000x1_d2 h_S_) : (⟨S50000x1x128, .f32⟩ : BufTy).Contents (Elt F) → (⟨S_, .f32⟩ : BufTy).Contents (Elt F) → (⟨S50000x1, .f32⟩ : BufTy).Contents (Elt F)) ((mulf : (⟨S50000x1x128, .f32⟩ : BufTy).Contents (Elt F) → (⟨S50000x1x128, .f32⟩ : BufTy).Contents (Elt F) → (⟨S50000x1x128, .f32⟩ : BufTy).Contents (Elt F)) (shapeCast S50000x1x128 x_v103 shapeCasts_S50000x128_S50000x1x128) ((broadcastInDim S50000x1x128 ![0, 1, 2] bcast_S1x1x128_S50000x1x128_0_1_2 : (⟨S1x1x128, .f32⟩ : BufTy).Contents (Elt F) → (⟨S50000x1x128, .f32⟩ : BufTy).Contents (Elt F)) x_arg17)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st9_v124 (W : Valuation τ sig (Elt F)) :
    StableHlo.after hostOps9 W (Proc.devRef .tc main_v124) = st9_v124 (W (Proc.devRef .tc main_v103)) (W (Proc.devRef .tc main_arg17)) (W (Proc.devRef .tc main_v3)) := by
  after_results_simp
  rfl

/-- Stretch 10: buffer `main_v135` as a function of the buffers the stretch reads. -/
def st10_v135 (x_v3 : (⟨S500000, .i32⟩ : BufTy).Contents (Elt F)) (x_v125 : (⟨S500000x1, .f32⟩ : BufTy).Contents (Elt F)) : (⟨S500000x1, .f32⟩ : BufTy).Contents (Elt F) :=
  (((fun x i => Host.gather gather_S50000x1_S500000x1_S500000x1_1_0_n_n_0_1_11 x i) : (⟨S50000x1, .f32⟩ : BufTy).Contents (Elt F) → (⟨S500000x1, .i32⟩ : BufTy).Contents (Elt F) → (⟨S500000x1, .f32⟩ : BufTy).Contents (Elt F)) (((fun x i u => Host.scatterAdd scatter_S50000x1_S500000x1_S500000x1_1_0_0_1 x i u) : (⟨S50000x1, .f32⟩ : BufTy).Contents (Elt F) → (⟨S500000x1, .i32⟩ : BufTy).Contents (Elt F) → (⟨S500000x1, .f32⟩ : BufTy).Contents (Elt F) → (⟨S50000x1, .f32⟩ : BufTy).Contents (Elt F)) ((broadcastInDim S50000x1 ![] bcast_S_S50000x1 : (⟨S_, .f32⟩ : BufTy).Contents (Elt F) → (⟨S50000x1, .f32⟩ : BufTy).Contents (Elt F)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) x_v3) x_v125) ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st10_v135 (W : Valuation τ sig (Elt F)) :
    StableHlo.after hostOps10 W (Proc.devRef .tc main_v135) = st10_v135 (W (Proc.devRef .tc main_v3)) (W (Proc.devRef .tc main_v125)) := by
  after_results_simp
  rfl

/-- Stretch 10: buffer `main_v142` as a function of the buffers the stretch reads. -/
def st10_v142 (x_v104 : (⟨S50000x1x128, .f32⟩ : BufTy).Contents (Elt F)) (x_v3 : (⟨S500000, .i32⟩ : BufTy).Contents (Elt F)) : (⟨S500000x1x128, .f32⟩ : BufTy).Contents (Elt F) :=
  (((fun x i => Host.gather gather_S50000x1x128_S500000x1_S500000x1x128_12_0_n_n_0_1_11128 x i) : (⟨S50000x1x128, .f32⟩ : BufTy).Contents (Elt F) → (⟨S500000x1, .i32⟩ : BufTy).Contents (Elt F) → (⟨S500000x1x128, .f32⟩ : BufTy).Contents (Elt F)) x_v104 ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) x_v3 ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) x_v3 ((broadcastInDim S500000 ![] bcast_S_S500000 : (⟨S_, .i32⟩ : BufTy).Contents (Elt F) → (⟨S500000, .i32⟩ : BufTy).Contents (Elt F)) (constantI S_ 32 50000#32 : (⟨S_, .i32⟩ : BufTy).Contents (Elt F)))) x_v3)))

theorem after_st10_v142 (W : Valuation τ sig (Elt F)) :
    StableHlo.after hostOps10 W (Proc.devRef .tc main_v142) = st10_v142 (W (Proc.devRef .tc main_v104)) (W (Proc.devRef .tc main_v3)) := by
  after_results_simp
  rfl

/-- Stretch 11: buffer `main_v149` as a function of the buffers the stretch reads. -/
def st11_v149 (x_v1 : (⟨S500000, .i32⟩ : BufTy).Contents (Elt F)) (x_v143 : (⟨S500000x1x128, .f32⟩ : BufTy).Contents (Elt F)) : (⟨S50000x128, .f32⟩ : BufTy).Contents (Elt F) :=
  ((Host.divf : (⟨S50000x128, .f32⟩ : BufTy).Contents (Elt F) → (⟨S50000x128, .f32⟩ : BufTy).Contents (Elt F) → (⟨S50000x128, .f32⟩ : BufTy).Contents (Elt F)) (((fun x v => Host.reduceAdd x v reducesTo_S50000x1x128_S50000x128_d1 h_S_) : (⟨S50000x1x128, .f32⟩ : BufTy).Contents (Elt F) → (⟨S_, .f32⟩ : BufTy).Contents (Elt F) → (⟨S50000x128, .f32⟩ : BufTy).Contents (Elt F)) (((fun x i u => Host.scatterAdd scatter_S50000x1x128_S500000x1_S500000x1x128_12_0_0_1 x i u) : (⟨S50000x1x128, .f32⟩ : BufTy).Contents (Elt F) → (⟨S500000x1, .i32⟩ : BufTy).Contents (Elt F) → (⟨S500000x1x128, .f32⟩ : BufTy).Contents (Elt F) → (⟨S50000x1x128, .f32⟩ : BufTy).Contents (Elt F)) ((broadcastInDim S50000x1x128 ![] bcast_S_S50000x1x128 : (⟨S_, .f32⟩ : BufTy).Contents (Elt F) → (⟨S50000x1x128, .f32⟩ : BufTy).Contents (Elt F)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) x_v1) x_v143) (constant S_ .f32 0x00000000#32 : (⟨S_, .f32⟩ : BufTy).Contents (Elt F))) ((broadcastInDim S50000x128 ![] bcast_S_S50000x128 : (⟨S_, .f32⟩ : BufTy).Contents (Elt F) → (⟨S50000x128, .f32⟩ : BufTy).Contents (Elt F)) (constant S_ .f32 0x3F800000#32 : (⟨S_, .f32⟩ : BufTy).Contents (Elt F))))

theorem after_st11_v149 (W : Valuation τ sig (Elt F)) :
    StableHlo.after hostOps11 W (Proc.devRef .tc main_v149) = st11_v149 (W (Proc.devRef .tc main_v1)) (W (Proc.devRef .tc main_v143)) := by
  after_results_simp
  rfl

/-- Stretch 11: buffer `main_v150` as a function of the buffers the stretch reads. -/
def st11_v150 (x_arg18 : (⟨S128, .f32⟩ : BufTy).Contents (Elt F)) : (⟨S1x128, .f32⟩ : BufTy).Contents (Elt F) :=
  (shapeCast S1x128 x_arg18 shapeCasts_S128_S1x128)

theorem after_st11_v150 (W : Valuation τ sig (Elt F)) :
    StableHlo.after hostOps11 W (Proc.devRef .tc main_v150) = st11_v150 (W (Proc.devRef .tc main_arg18)) := by
  after_results_simp
  rfl

/-- Stretch 11: buffer `main_v151` as a function of the buffers the stretch reads. -/
def st11_v151 (x_arg19 : (⟨S128, .f32⟩ : BufTy).Contents (Elt F)) : (⟨S1x128, .f32⟩ : BufTy).Contents (Elt F) :=
  (shapeCast S1x128 x_arg19 shapeCasts_S128_S1x128)

theorem after_st11_v151 (W : Valuation τ sig (Elt F)) :
    StableHlo.after hostOps11 W (Proc.devRef .tc main_v151) = st11_v151 (W (Proc.devRef .tc main_arg19)) := by
  after_results_simp
  rfl

/-- Stretch 11: buffer `main_v152` as a function of the buffers the stretch reads. -/
def st11_v152 (x_arg20 : (⟨S128, .f32⟩ : BufTy).Contents (Elt F)) : (⟨S1x128, .f32⟩ : BufTy).Contents (Elt F) :=
  (shapeCast S1x128 x_arg20 shapeCasts_S128_S1x128)

theorem after_st11_v152 (W : Valuation τ sig (Elt F)) :
    StableHlo.after hostOps11 W (Proc.devRef .tc main_v152) = st11_v152 (W (Proc.devRef .tc main_arg20)) := by
  after_results_simp
  rfl

end Cert.KernelIdeal.Stages

end
-- ==== Proof.RefRun.lean ====
/-
  The reference program as a straight line of array operations, cut into named segments (per attention layer: the dense
  product, the per-node scores gathered at the edge ends, the rectified and exponentiated edge scores, their per-node sums
  gathered back, the normalised weights, the gathered features, the weighted messages, their per-node sums, and the bias,
  normalisation and activation), with: the run of the whole line (every execution terminates with each buffer at the fold
  of the operations over the launch contents); for each segment, the buffers it hands on as functions of the buffers it
  reads; and that a segment leaves every buffer it does not write as it was.
-/
import proofs.«158057_j81853486727297_2_alg».proof.Proof.Gen.ReferenceIdeal
import proofs.«158057_j81853486727297_2_alg».proof.Proof.KStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two index rows of the edge table, each sliced out and flattened. -/
abbrev segS0 : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000 ]

/-- Layer 1: the layer's dense product. -/
abbrev segMM1 : List (HloOp τ sig (Elt F)) :=
  [ binary main_arg0 main_arg3 main_v4 ((fun l r => Host.dotGeneral dot_S50000x384_S384x256_S50000x256_1_0_0_1_n_n none l r) : (⟨S50000x384, .f32⟩ : BufTy).Contents (Elt F) → (⟨S384x256, .f32⟩ : BufTy).Contents (Elt F) → (⟨S50000x256, .f32⟩ : BufTy).Contents (Elt F)) ]

/-- Layer 1: the head-wise view, the two score reductions and their gathers at the edge ends. -/
abbrev segSC1 : List (HloOp τ sig (Elt F)) :=
  [ reshape main_v4 main_v5 rfl shapeCasts_S50000x256_S50000x4x64,
    unary main_arg4 main_v6 (broadcastInDim S50000x4x64 ![0, 1, 2] bcast_S1x4x64_S50000x4x64_0_1_2 : (⟨S1x4x64, .f32⟩ : BufTy).Contents (Elt F) → (⟨S50000x4x64, .f32⟩ : BufTy).Contents (Elt F)),
    binary main_v5 main_v6 main_v7 (mulf : (⟨S50000x4x64, .f32⟩ : BufTy).Contents (Elt F) → (⟨S50000x4x64, .f32⟩ : BufTy).Contents (Elt F) → (⟨S50000x4x64, .f32⟩ : BufTy).Contents (Elt F)),
    nullary main_cst (constant S_ .f32 0x00000000#32),
    binary main_v7 main_cst main_v8 ((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)),
    unary main_arg5 main_v9 (broadcastInDim S50000x4x64 ![0, 1, 2] bcast_S1x4x64_S50000x4x64_0_1_2 : (⟨S1x4x64, .f32⟩ : BufTy).Contents (Elt F) → (⟨S50000x4x64, .f32⟩ : BufTy).Contents (Elt F)),
    binary main_v5 main_v9 main_v10 (mulf : (⟨S50000x4x64, .f32⟩ : BufTy).Contents (Elt F) → (⟨S50000x4x64, .f32⟩ : BufTy).Contents (Elt F) → (⟨S50000x4x64, .f32⟩ : BufTy).Contents (Elt F)),
    nullary main_cst_0 (constant S_ .f32 0x00000000#32),
    binary main_v10 main_cst_0 main_v11 ((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)),
    nullary main_c (constantI S_ 32 0#32),
    unary main_c main_v12 (broadcastInDim S500000 ![] bcast_S_S500000 : (⟨S_, .i32⟩ : BufTy).Contents (Elt F) → (⟨S500000, .i32⟩ : BufTy).Contents (Elt F)),
    binary main_v1 main_v12 main_v13 (cmpi .slt : (⟨S500000, .i32⟩ : BufTy).Contents (Elt F) → (⟨S500000, .i32⟩ : BufTy).Contents (Elt F) → (⟨S500000, .i1⟩ : BufTy).Contents (Elt F)),
    nullary main_c_1 (constantI S_ 32 50000#32),
    unary main_c_1 main_v14 (broadcastInDim S500000 ![] bcast_S_S500000 : (⟨S_, .i32⟩ : BufTy).Contents (Elt F) → (⟨S500000, .i32⟩ : BufTy).Contents (Elt F)),
    binary main_v1 main_v14 main_v15 (addi : (⟨S500000, .i32⟩ : BufTy).Contents (Elt F) → (⟨S500000, .i32⟩ : BufTy).Contents (Elt F) → (⟨S500000, .i32⟩ : BufTy).Contents (Elt F)),
    ternary main_v13 main_v15 main_v1 main_v16 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v16 main_v17 (broadcastInDim S500000x1 ![0] bcast_S500000_S500000x1_0 : (⟨S500000, .i32⟩ : BufTy).Contents (Elt F) → (⟨S500000x1, .i32⟩ : BufTy).Contents (Elt F)),
    binary main_v8 main_v17 main_v18 ((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)),
    nullary main_c_2 (constantI S_ 32 0#32),
    unary main_c_2 main_v19 (broadcastInDim S500000 ![] bcast_S_S500000 : (⟨S_, .i32⟩ : BufTy).Contents (Elt F) → (⟨S500000, .i32⟩ : BufTy).Contents (Elt F)),
    binary main_v3 main_v19 main_v20 (cmpi .slt : (⟨S500000, .i32⟩ : BufTy).Contents (Elt F) → (⟨S500000, .i32⟩ : BufTy).Contents (Elt F) → (⟨S500000, .i1⟩ : BufTy).Contents (Elt F)),
    nullary main_c_3 (constantI S_ 32 50000#32),
    unary main_c_3 main_v21 (broadcastInDim S500000 ![] bcast_S_S500000 : (⟨S_, .i32⟩ : BufTy).Contents (Elt F) → (⟨S500000, .i32⟩ : BufTy).Contents (Elt F)),
    binary main_v3 main_v21 main_v22 (addi : (⟨S500000, .i32⟩ : BufTy).Contents (Elt F) → (⟨S500000, .i32⟩ : BufTy).Contents (Elt F) → (⟨S500000, .i32⟩ : BufTy).Contents (Elt F)),
    ternary main_v20 main_v22 main_v3 main_v23 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v23 main_v24 (broadcastInDim S500000x1 ![0] bcast_S500000_S500000x1_0 : (⟨S500000, .i32⟩ : BufTy).Contents (Elt F) → (⟨S500000x1, .i32⟩ : BufTy).Contents (Elt F)),
    binary main_v11 main_v24 main_v25 ((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) ]

/-- Layer 1: the summed scores, the leaky rectifier, the edge weighting and the exponential. -/
abbrev segAT1 : List (HloOp τ sig (Elt F)) :=
  [ binary main_v18 main_v25 main_v26 (addf : (⟨S500000x4, .f32⟩ : BufTy).Contents (Elt F) → (⟨S500000x4, .f32⟩ : BufTy).Contents (Elt F) → (⟨S500000x4, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S500000x4 ![] bcast_S_S500000x4),
    TRef.binary (.of main_v26) main_call0.v0 main_call0.v1 (cmpf .oge),
    TRef.unary (.of main_cst_4) main_call0.v2 id,
    TRef.unary main_call0.v2 main_call0.v3 (broadcastInDim S500000x4 ![] bcast_S_S500000x4),
    TRef.binary main_call0.v3 (.of main_v26) main_call0.v4 mulf,
    TRef.ternary main_call0.v1 (.of main_v26) main_call0.v4 main_call0.call0.v0 select,
    unary main_arg2 main_v28 (broadcastInDim S500000x1 ![0] bcast_S500000_S500000x1_0 : (⟨S500000, .f32⟩ : BufTy).Contents (Elt F) → (⟨S500000x1, .f32⟩ : BufTy).Contents (Elt F)),
    unary main_v28 main_v29 (broadcastInDim S500000x4 ![0, 1] bcast_S500000x1_S500000x4_0_1 : (⟨S500000x1, .f32⟩ : BufTy).Contents (Elt F) → (⟨S500000x4, .f32⟩ : BufTy).Contents (Elt F)),
    binary main_v27 main_v29 main_v30 (mulf : (⟨S500000x4, .f32⟩ : BufTy).Contents (Elt F) → (⟨S500000x4, .f32⟩ : BufTy).Contents (Elt F) → (⟨S500000x4, .f32⟩ : BufTy).Contents (Elt F)),
    unary main_v30 main_v31 (Host.exp : (⟨S500000x4, .f32⟩ : BufTy).Contents (Elt F) → (⟨S500000x4, .f32⟩ : BufTy).Contents (Elt F)) ]

/-- Layer 1: the per-node sum of the exponentials, gathered back at the edges. -/
abbrev segDN1 : List (HloOp τ sig (Elt F)) :=
  [ nullary main_cst_5 (constant S_ .f32 0x00000000#32),
    unary main_cst_5 main_v32 (broadcastInDim S50000x4 ![] bcast_S_S50000x4 : (⟨S_, .f32⟩ : BufTy).Contents (Elt F) → (⟨S50000x4, .f32⟩ : BufTy).Contents (Elt F)),
    unary main_v3 main_v33 (broadcastInDim S500000x1 ![0] bcast_S500000_S500000x1_0 : (⟨S500000, .i32⟩ : BufTy).Contents (Elt F) → (⟨S500000x1, .i32⟩ : BufTy).Contents (Elt F)),
    ternary main_v32 main_v33 main_v31 main_v34 ((fun x i u => Host.scatterAdd scatter_S50000x4_S500000x1_S500000x4_1_0_0_1 x i u) : (⟨S50000x4, .f32⟩ : BufTy).Contents (Elt F) → (⟨S500000x1, .i32⟩ : BufTy).Contents (Elt F) → (⟨S500000x4, .f32⟩ : BufTy).Contents (Elt F) → (⟨S50000x4, .f32⟩ : BufTy).Contents (Elt F)),
    nullary main_c_6 (constantI S_ 32 0#32),
    unary main_c_6 main_v35 (broadcastInDim S500000 ![] bcast_S_S500000 : (⟨S_, .i32⟩ : BufTy).Contents (Elt F) → (⟨S500000, .i32⟩ : BufTy).Contents (Elt F)),
    binary main_v3 main_v35 main_v36 (cmpi .slt : (⟨S500000, .i32⟩ : BufTy).Contents (Elt F) → (⟨S500000, .i32⟩ : BufTy).Contents (Elt F) → (⟨S500000, .i1⟩ : BufTy).Contents (Elt F)),
    nullary main_c_7 (constantI S_ 32 50000#32),
    unary main_c_7 main_v37 (broadcastInDim S500000 ![] bcast_S_S500000 : (⟨S_, .i32⟩ : BufTy).Contents (Elt F) → (⟨S500000, .i32⟩ : BufTy).Contents (Elt F)),
    binary main_v3 main_v37 main_v38 (addi : (⟨S500000, .i32⟩ : BufTy).Contents (Elt F) → (⟨S500000, .i32⟩ : BufTy).Contents (Elt F) → (⟨S500000, .i32⟩ : BufTy).Contents (Elt F)),
    ternary main_v36 main_v38 main_v3 main_v39 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v39 main_v40 (broadcastInDim S500000x1 ![0] bcast_S500000_S500000x1_0 : (⟨S500000, .i32⟩ : BufTy).Contents (Elt F) → (⟨S500000x1, .i32⟩ : BufTy).Contents (Elt F)),
    binary main_v34 main_v40 main_v41 ((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) ]

/-- Layer 1: the normalised attention weight, with a trailing unit axis. -/
abbrev segAL1 : List (HloOp τ sig (Elt F)) :=
  [ nullary main_cst_8 (constant S_ .f32 0x24E69595#32),
    unary main_cst_8 main_v42 (broadcastInDim S500000x4 ![] bcast_S_S500000x4 : (⟨S_, .f32⟩ : BufTy).Contents (Elt F) → (⟨S500000x4, .f32⟩ : BufTy).Contents (Elt F)),
    binary main_v41 main_v42 main_v43 (addf : (⟨S500000x4, .f32⟩ : BufTy).Contents (Elt F) → (⟨S500000x4, .f32⟩ : BufTy).Contents (Elt F) → (⟨S500000x4, .f32⟩ : BufTy).Contents (Elt F)),
    binary main_v31 main_v43 main_v44 (Host.divf : (⟨S500000x4, .f32⟩ : BufTy).Contents (Elt F) → (⟨S500000x4, .f32⟩ : BufTy).Contents (Elt F) → (⟨S500000x4, .f32⟩ : BufTy).Contents (Elt F)),
    unary main_v44 main_v45 (broadcastInDim S500000x4x1 ![0, 1] bcast_S500000x4_S500000x4x1_0_1 : (⟨S500000x4, .f32⟩ : BufTy).Contents (Elt F) → (⟨S500000x4x1, .f32⟩ : BufTy).Contents (Elt F)) ]

/-- Layer 1: the features gathered at the edges (part 1 of 2). -/
abbrev segHG1_a : List (HloOp τ sig (Elt F)) :=
  [ nullary main_c_9 (constantI S_ 32 0#32),
    unary main_c_9 main_v46 (broadcastInDim S500000 ![] bcast_S_S500000 : (⟨S_, .i32⟩ : BufTy).Contents (Elt F) → (⟨S500000, .i32⟩ : BufTy).Contents (Elt F)),
    binary main_v3 main_v46 main_v47 (cmpi .slt : (⟨S500000, .i32⟩ : BufTy).Contents (Elt F) → (⟨S500000, .i32⟩ : BufTy).Contents (Elt F) → (⟨S500000, .i1⟩ : BufTy).Contents (Elt F)) ]

/-- Layer 1: the features gathered at the edges (part 2 of 2). -/
abbrev segHG1_b : List (HloOp τ sig (Elt F)) :=
  [ nullary main_c_10 (constantI S_ 32 50000#32),
    unary main_c_10 main_v48 (broadcastInDim S500000 ![] bcast_S_S500000 : (⟨S_, .i32⟩ : BufTy).Contents (Elt F) → (⟨S500000, .i32⟩ : BufTy).Contents (Elt F)),
    binary main_v3 main_v48 main_v49 (addi : (⟨S500000, .i32⟩ : BufTy).Contents (Elt F) → (⟨S500000, .i32⟩ : BufTy).Contents (Elt F) → (⟨S500000, .i32⟩ : BufTy).Contents (Elt F)),
    ternary main_v47 main_v49 main_v3 main_v50 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v50 main_v51 (broadcastInDim S500000x1 ![0] bcast_S500000_S500000x1_0 : (⟨S500000, .i32⟩ : BufTy).Contents (Elt F) → (⟨S500000x1, .i32⟩ : BufTy).Contents (Elt F)),
    binary main_v5 main_v51 main_v52 ((fun x i => Host.gather gather_S50000x4x64_S500000x1_S500000x4x64_12_0_n_n_0_1_1464 x i) : (⟨S50000x4x64, .f32⟩ : BufTy).Contents (Elt F) → (⟨S500000x1, .i32⟩ : BufTy).Contents (Elt F) → (⟨S500000x4x64, .f32⟩ : BufTy).Contents (Elt F)) ]

abbrev segHG1 : List (HloOp τ sig (Elt F)) := segHG1_a ++ segHG1_b

/-- Layer 1: the weighted messages. -/
abbrev segMS1 : List (HloOp τ sig (Elt F)) :=
  [ unary main_v45 main_v53 (broadcastInDim S500000x4x64 ![0, 1, 2] bcast_S500000x4x1_S500000x4x64_0_1_2 : (⟨S500000x4x1, .f32⟩ : BufTy).Contents (Elt F) → (⟨S500000x4x64, .f32⟩ : BufTy).Contents (Elt F)),
    binary main_v53 main_v52 main_v54 (mulf : (⟨S500000x4x64, .f32⟩ : BufTy).Contents (Elt F) → (⟨S500000x4x64, .f32⟩ : BufTy).Contents (Elt F) → (⟨S500000x4x64, .f32⟩ : BufTy).Contents (Elt F)) ]

/-- Layer 1: the per-node sum of the messages. -/
abbrev segAG1 : List (HloOp τ sig (Elt F)) :=
  [ nullary main_cst_11 (constant S_ .f32 0x00000000#32),
    unary main_cst_11 main_v55 (broadcastInDim S50000x4x64 ![] bcast_S_S50000x4x64 : (⟨S_, .f32⟩ : BufTy).Contents (Elt F) → (⟨S50000x4x64, .f32⟩ : BufTy).Contents (Elt F)),
    unary main_v1 main_v56 (broadcastInDim S500000x1 ![0] bcast_S500000_S500000x1_0 : (⟨S500000, .i32⟩ : BufTy).Contents (Elt F) → (⟨S500000x1, .i32⟩ : BufTy).Contents (Elt F)),
    ternary main_v55 main_v56 main_v54 main_v57 ((fun x i u => Host.scatterAdd scatter_S50000x4x64_S500000x1_S500000x4x64_12_0_0_1 x i u) : (⟨S50000x4x64, .f32⟩ : BufTy).Contents (Elt F) → (⟨S500000x1, .i32⟩ : BufTy).Contents (Elt F) → (⟨S500000x4x64, .f32⟩ : BufTy).Contents (Elt F) → (⟨S50000x4x64, .f32⟩ : BufTy).Contents (Elt F)),
    reshape main_v57 main_v58 rfl shapeCasts_S50000x4x64_S50000x256 ]

/-- Layer 1: the bias, the layer normalisation and the activation. -/
abbrev segLN1 : List (HloOp τ sig (Elt F)) :=
  [ unary main_arg6 main_v59 (broadcastInDim S1x256 ![1] bcast_S256_S1x256_1 : (⟨S256, .f32⟩ : BufTy).Contents (Elt F) → (⟨S1x256, .f32⟩ : BufTy).Contents (Elt F)),
    unary main_v59 main_v60 (broadcastInDim S50000x256 ![0, 1] bcast_S1x256_S50000x256_0_1 : (⟨S1x256, .f32⟩ : BufTy).Contents (Elt F) → (⟨S50000x256, .f32⟩ : BufTy).Contents (Elt F)),
    binary main_v58 main_v60 main_v61 (addf : (⟨S50000x256, .f32⟩ : BufTy).Contents (Elt F) → (⟨S50000x256, .f32⟩ : BufTy).Contents (Elt F) → (⟨S50000x256, .f32⟩ : BufTy).Contents (Elt F)),
    nullary main_cst_12 (constant S_ .f32 0x00000000#32),
    binary main_v61 main_cst_12 main_v62 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v62 main_v63 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43800000#32),
    unary main_cst_13 main_v64 (broadcastInDim S50000x1 ![] bcast_S_S50000x1 : (⟨S_, .f32⟩ : BufTy).Contents (Elt F) → (⟨S50000x1, .f32⟩ : BufTy).Contents (Elt F)),
    binary main_v63 main_v64 main_v65 (Host.divf : (⟨S50000x1, .f32⟩ : BufTy).Contents (Elt F) → (⟨S50000x1, .f32⟩ : BufTy).Contents (Elt F) → (⟨S50000x1, .f32⟩ : BufTy).Contents (Elt F)),
    nullary main_c_14 (constantI S_ 32 0#32),
    TRef.nullary main_call1.cst (constant S_ .f32 0x00000000#32),
    TRef.binary (.of main_v61) main_call1.cst main_call1.v0 (fun x v => Host.reduceAdd x v reducesTo_S50000x256_S50000_d1 h_S_),
    TRef.unary main_call1.v0 main_call1.v1 (broadcastInDim S50000x1 ![0] bcast_S50000_S50000x1_0),
    TRef.nullary main_call1.cst_0 (constant S_ .f32 0x43800000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x256 ![0, 1] bcast_S50000x1_S50000x256_0_1),
    TRef.binary (.of main_v61) main_call1.v4 main_call1.v5 subf,
    TRef.binary main_call1.v5 main_call1.v5 main_call1.v6 mulf,
    TRef.unary (.of main_c_14) main_call1.v7 (sitofp .f32),
    TRef.nullary main_call1.cst_1 (constant S_ .f32 0x43800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x256_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b),
    unary main_v65 main_v67 (broadcastInDim S50000x256 ![0, 1] bcast_S50000x1_S50000x256_0_1 : (⟨S50000x1, .f32⟩ : BufTy).Contents (Elt F) → (⟨S50000x256, .f32⟩ : BufTy).Contents (Elt F)),
    binary main_v61 main_v67 main_v68 (subf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x3727C5AC#32),
    unary main_cst_15 main_v69 (broadcastInDim S50000x1 ![] bcast_S_S50000x1 : (⟨S_, .f32⟩ : BufTy).Contents (Elt F) → (⟨S50000x1, .f32⟩ : BufTy).Contents (Elt F)),
    binary main_v66 main_v69 main_v70 (addf : (⟨S50000x1, .f32⟩ : BufTy).Contents (Elt F) → (⟨S50000x1, .f32⟩ : BufTy).Contents (Elt F) → (⟨S50000x1, .f32⟩ : BufTy).Contents (Elt F)),
    unary main_v70 main_v71 (Host.sqrt : (⟨S50000x1, .f32⟩ : BufTy).Contents (Elt F) → (⟨S50000x1, .f32⟩ : BufTy).Contents (Elt F)),
    unary main_v71 main_v72 (broadcastInDim S50000x256 ![0, 1] bcast_S50000x1_S50000x256_0_1 : (⟨S50000x1, .f32⟩ : BufTy).Contents (Elt F) → (⟨S50000x256, .f32⟩ : BufTy).Contents (Elt F)),
    binary main_v68 main_v72 main_v73 (Host.divf : (⟨S50000x256, .f32⟩ : BufTy).Contents (Elt F) → (⟨S50000x256, .f32⟩ : BufTy).Contents (Elt F) → (⟨S50000x256, .f32⟩ : BufTy).Contents (Elt F)),
    unary main_arg7 main_v74 (broadcastInDim S1x256 ![1] bcast_S256_S1x256_1 : (⟨S256, .f32⟩ : BufTy).Contents (Elt F) → (⟨S1x256, .f32⟩ : BufTy).Contents (Elt F)),
    unary main_v74 main_v75 (broadcastInDim S50000x256 ![0, 1] bcast_S1x256_S50000x256_0_1 : (⟨S1x256, .f32⟩ : BufTy).Contents (Elt F) → (⟨S50000x256, .f32⟩ : BufTy).Contents (Elt F)),
    binary main_v73 main_v75 main_v76 (mulf : (⟨S50000x256, .f32⟩ : BufTy).Contents (Elt F) → (⟨S50000x256, .f32⟩ : BufTy).Contents (Elt F) → (⟨S50000x256, .f32⟩ : BufTy).Contents (Elt F)),
    unary main_arg8 main_v77 (broadcastInDim S1x256 ![1] bcast_S256_S1x256_1 : (⟨S256, .f32⟩ : BufTy).Contents (Elt F) → (⟨S1x256, .f32⟩ : BufTy).Contents (Elt F)),
    unary main_v77 main_v78 (broadcastInDim S50000x256 ![0, 1] bcast_S1x256_S50000x256_0_1 : (⟨S1x256, .f32⟩ : BufTy).Contents (Elt F) → (⟨S50000x256, .f32⟩ : BufTy).Contents (Elt F)),
    binary main_v76 main_v78 main_v79 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v79) main_call2.v0 main_call2.v1 (cmpf .ogt),
    TRef.nullary main_call2.cst_0 (constant S_ .f32 0x00000000#32),
    TRef.unary main_call2.cst_0 main_call2.v2 (broadcastInDim S50000x256 ![] bcast_S_S50000x256),
    TRef.binary (.of main_v79) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x256 ![] bcast_S_S50000x256),
    TRef.ternary main_call2.v3 main_call2.call0.v1 (.of main_v79) main_call2.call0.v2 select,
    TRef.unary main_call2.call0.v2 main_call2.v5 Host.expm1,
    TRef.nullary main_call2.cst_2 (constant S_ .f32 0x3F800000#32),
    TRef.unary main_call2.cst_2 main_call2.v6 (broadcastInDim S50000x256 ![] bcast_S_S50000x256),
    TRef.binary main_call2.v6 main_call2.v5 main_call2.v7 mulf,
    TRef.ternary main_call2.v1 (.of main_v79) main_call2.v7 main_call2.call1.v0 select ]

/-- Layer 2: the layer's dense product. -/
abbrev segMM2 : List (HloOp τ sig (Elt F)) :=
  [ binary main_v80 main_arg9 main_v81 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Layer 2: the head-wise view, the two score reductions and their gathers at the edge ends (part 1 of 2). -/
abbrev segSC2_a : List (HloOp τ sig (Elt F)) :=
  [ reshape main_v81 main_v82 rfl shapeCasts_S50000x256_S50000x4x64,
    unary main_arg10 main_v83 (broadcastInDim S50000x4x64 ![0, 1, 2] bcast_S1x4x64_S50000x4x64_0_1_2 : (⟨S1x4x64, .f32⟩ : BufTy).Contents (Elt F) → (⟨S50000x4x64, .f32⟩ : BufTy).Contents (Elt F)),
    binary main_v82 main_v83 main_v84 (mulf : (⟨S50000x4x64, .f32⟩ : BufTy).Contents (Elt F) → (⟨S50000x4x64, .f32⟩ : BufTy).Contents (Elt F) → (⟨S50000x4x64, .f32⟩ : BufTy).Contents (Elt F)),
    nullary main_cst_16 (constant S_ .f32 0x00000000#32),
    binary main_v84 main_cst_16 main_v85 ((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)),
    unary main_arg11 main_v86 (broadcastInDim S50000x4x64 ![0, 1, 2] bcast_S1x4x64_S50000x4x64_0_1_2 : (⟨S1x4x64, .f32⟩ : BufTy).Contents (Elt F) → (⟨S50000x4x64, .f32⟩ : BufTy).Contents (Elt F)),
    binary main_v82 main_v86 main_v87 (mulf : (⟨S50000x4x64, .f32⟩ : BufTy).Contents (Elt F) → (⟨S50000x4x64, .f32⟩ : BufTy).Contents (Elt F) → (⟨S50000x4x64, .f32⟩ : BufTy).Contents (Elt F)),
    nullary main_cst_17 (constant S_ .f32 0x00000000#32),
    binary main_v87 main_cst_17 main_v88 ((fun x v => Host.reduceAdd x v reducesTo_S50000x4x64_S50000x4_d2 h_S_) : (⟨S50000x4x64, .f32⟩ : BufTy).Contents (Elt F) → (⟨S_, .f32⟩ : BufTy).Contents (Elt F) → (⟨S50000x4, .f32⟩ : BufTy).Contents (Elt F)),
    nullary main_c_18 (constantI S_ 32 0#32),
    unary main_c_18 main_v89 (broadcastInDim S500000 ![] bcast_S_S500000 : (⟨S_, .i32⟩ : BufTy).Contents (Elt F) → (⟨S500000, .i32⟩ : BufTy).Contents (Elt F)),
    binary main_v1 main_v89 main_v90 (cmpi .slt : (⟨S500000, .i32⟩ : BufTy).Contents (Elt F) → (⟨S500000, .i32⟩ : BufTy).Contents (Elt F) → (⟨S500000, .i1⟩ : BufTy).Contents (Elt F)),
    nullary main_c_19 (constantI S_ 32 50000#32),
    unary main_c_19 main_v91 (broadcastInDim S500000 ![] bcast_S_S500000 : (⟨S_, .i32⟩ : BufTy).Contents (Elt F) → (⟨S500000, .i32⟩ : BufTy).Contents (Elt F)),
    binary main_v1 main_v91 main_v92 (addi : (⟨S500000, .i32⟩ : BufTy).Contents (Elt F) → (⟨S500000, .i32⟩ : BufTy).Contents (Elt F) → (⟨S500000, .i32⟩ : BufTy).Contents (Elt F)),
    ternary main_v90 main_v92 main_v1 main_v93 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v93 main_v94 (broadcastInDim S500000x1 ![0] bcast_S500000_S500000x1_0 : (⟨S500000, .i32⟩ : BufTy).Contents (Elt F) → (⟨S500000x1, .i32⟩ : BufTy).Contents (Elt F)),
    binary main_v85 main_v94 main_v95 ((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)),
    nullary main_c_20 (constantI S_ 32 0#32),
    unary main_c_20 main_v96 (broadcastInDim S500000 ![] bcast_S_S500000 : (⟨S_, .i32⟩ : BufTy).Contents (Elt F) → (⟨S500000, .i32⟩ : BufTy).Contents (Elt F)) ]

/-- Layer 2: the head-wise view, the two score reductions and their gathers at the edge ends (part 2 of 2). -/
abbrev segSC2_b : List (HloOp τ sig (Elt F)) :=
  [ binary main_v3 main_v96 main_v97 (cmpi .slt : (⟨S500000, .i32⟩ : BufTy).Contents (Elt F) → (⟨S500000, .i32⟩ : BufTy).Contents (Elt F) → (⟨S500000, .i1⟩ : BufTy).Contents (Elt F)),
    nullary main_c_21 (constantI S_ 32 50000#32),
    unary main_c_21 main_v98 (broadcastInDim S500000 ![] bcast_S_S500000 : (⟨S_, .i32⟩ : BufTy).Contents (Elt F) → (⟨S500000, .i32⟩ : BufTy).Contents (Elt F)),
    binary main_v3 main_v98 main_v99 (addi : (⟨S500000, .i32⟩ : BufTy).Contents (Elt F) → (⟨S500000, .i32⟩ : BufTy).Contents (Elt F) → (⟨S500000, .i32⟩ : BufTy).Contents (Elt F)),
    ternary main_v97 main_v99 main_v3 main_v100 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v100 main_v101 (broadcastInDim S500000x1 ![0] bcast_S500000_S500000x1_0 : (⟨S500000, .i32⟩ : BufTy).Contents (Elt F) → (⟨S500000x1, .i32⟩ : BufTy).Contents (Elt F)),
    binary main_v88 main_v101 main_v102 ((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) ]

abbrev segSC2 : List (HloOp τ sig (Elt F)) := segSC2_a ++ segSC2_b

/-- Layer 2: the summed scores, the leaky rectifier, the edge weighting and the exponential. -/
abbrev segAT2 : List (HloOp τ sig (Elt F)) :=
  [ binary main_v95 main_v102 main_v103 (addf : (⟨S500000x4, .f32⟩ : BufTy).Contents (Elt F) → (⟨S500000x4, .f32⟩ : BufTy).Contents (Elt F) → (⟨S500000x4, .f32⟩ : BufTy).Contents (Elt F)),
    nullary main_cst_22 (constant S_ .f32 0x3E4CCCCD#32),
    TRef.nullary main_call3.cst (constant S_ .f32 0x00000000#32),
    TRef.unary main_call3.cst main_call3.v0 (broadcastInDim S500000x4 ![] bcast_S_S500000x4),
    TRef.binary (.of main_v103) main_call3.v0 main_call3.v1 (cmpf .oge),
    TRef.unary (.of main_cst_22) main_call3.v2 id,
    TRef.unary main_call3.v2 main_call3.v3 (broadcastInDim S500000x4 ![] bcast_S_S500000x4),
    TRef.binary main_call3.v3 (.of main_v103) main_call3.v4 mulf,
    TRef.ternary main_call3.v1 (.of main_v103) main_call3.v4 main_call3.call0.v0 select,
    unary main_arg2 main_v105 (broadcastInDim S500000x1 ![0] bcast_S500000_S500000x1_0 : (⟨S500000, .f32⟩ : BufTy).Contents (Elt F) → (⟨S500000x1, .f32⟩ : BufTy).Contents (Elt F)),
    unary main_v105 main_v106 (broadcastInDim S500000x4 ![0, 1] bcast_S500000x1_S500000x4_0_1 : (⟨S500000x1, .f32⟩ : BufTy).Contents (Elt F) → (⟨S500000x4, .f32⟩ : BufTy).Contents (Elt F)),
    binary main_v104 main_v106 main_v107 (mulf : (⟨S500000x4, .f32⟩ : BufTy).Contents (Elt F) → (⟨S500000x4, .f32⟩ : BufTy).Contents (Elt F) → (⟨S500000x4, .f32⟩ : BufTy).Contents (Elt F)),
    unary main_v107 main_v108 (Host.exp : (⟨S500000x4, .f32⟩ : BufTy).Contents (Elt F) → (⟨S500000x4, .f32⟩ : BufTy).Contents (Elt F)) ]

/-- Layer 2: the per-node sum of the exponentials, gathered back at the edges. -/
abbrev segDN2 : List (HloOp τ sig (Elt F)) :=
  [ nullary main_cst_23 (constant S_ .f32 0x00000000#32),
    unary main_cst_23 main_v109 (broadcastInDim S50000x4 ![] bcast_S_S50000x4 : (⟨S_, .f32⟩ : BufTy).Contents (Elt F) → (⟨S50000x4, .f32⟩ : BufTy).Contents (Elt F)),
    unary main_v3 main_v110 (broadcastInDim S500000x1 ![0] bcast_S500000_S500000x1_0 : (⟨S500000, .i32⟩ : BufTy).Contents (Elt F) → (⟨S500000x1, .i32⟩ : BufTy).Contents (Elt F)),
    ternary main_v109 main_v110 main_v108 main_v111 ((fun x i u => Host.scatterAdd scatter_S50000x4_S500000x1_S500000x4_1_0_0_1 x i u) : (⟨S50000x4, .f32⟩ : BufTy).Contents (Elt F) → (⟨S500000x1, .i32⟩ : BufTy).Contents (Elt F) → (⟨S500000x4, .f32⟩ : BufTy).Contents (Elt F) → (⟨S50000x4, .f32⟩ : BufTy).Contents (Elt F)),
    nullary main_c_24 (constantI S_ 32 0#32),
    unary main_c_24 main_v112 (broadcastInDim S500000 ![] bcast_S_S500000 : (⟨S_, .i32⟩ : BufTy).Contents (Elt F) → (⟨S500000, .i32⟩ : BufTy).Contents (Elt F)),
    binary main_v3 main_v112 main_v113 (cmpi .slt : (⟨S500000, .i32⟩ : BufTy).Contents (Elt F) → (⟨S500000, .i32⟩ : BufTy).Contents (Elt F) → (⟨S500000, .i1⟩ : BufTy).Contents (Elt F)),
    nullary main_c_25 (constantI S_ 32 50000#32),
    unary main_c_25 main_v114 (broadcastInDim S500000 ![] bcast_S_S500000 : (⟨S_, .i32⟩ : BufTy).Contents (Elt F) → (⟨S500000, .i32⟩ : BufTy).Contents (Elt F)),
    binary main_v3 main_v114 main_v115 (addi : (⟨S500000, .i32⟩ : BufTy).Contents (Elt F) → (⟨S500000, .i32⟩ : BufTy).Contents (Elt F) → (⟨S500000, .i32⟩ : BufTy).Contents (Elt F)),
    ternary main_v113 main_v115 main_v3 main_v116 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v116 main_v117 (broadcastInDim S500000x1 ![0] bcast_S500000_S500000x1_0 : (⟨S500000, .i32⟩ : BufTy).Contents (Elt F) → (⟨S500000x1, .i32⟩ : BufTy).Contents (Elt F)),
    binary main_v111 main_v117 main_v118 ((fun x i => Host.gather gather_S50000x4_S500000x1_S500000x4_1_0_n_n_0_1_14 x i) : (⟨S50000x4, .f32⟩ : BufTy).Contents (Elt F) → (⟨S500000x1, .i32⟩ : BufTy).Contents (Elt F) → (⟨S500000x4, .f32⟩ : BufTy).Contents (Elt F)) ]

/-- Layer 2: the normalised attention weight, with a trailing unit axis. -/
abbrev segAL2 : List (HloOp τ sig (Elt F)) :=
  [ nullary main_cst_26 (constant S_ .f32 0x24E69595#32),
    unary main_cst_26 main_v119 (broadcastInDim S500000x4 ![] bcast_S_S500000x4 : (⟨S_, .f32⟩ : BufTy).Contents (Elt F) → (⟨S500000x4, .f32⟩ : BufTy).Contents (Elt F)),
    binary main_v118 main_v119 main_v120 (addf : (⟨S500000x4, .f32⟩ : BufTy).Contents (Elt F) → (⟨S500000x4, .f32⟩ : BufTy).Contents (Elt F) → (⟨S500000x4, .f32⟩ : BufTy).Contents (Elt F)),
    binary main_v108 main_v120 main_v121 (Host.divf : (⟨S500000x4, .f32⟩ : BufTy).Contents (Elt F) → (⟨S500000x4, .f32⟩ : BufTy).Contents (Elt F) → (⟨S500000x4, .f32⟩ : BufTy).Contents (Elt F)),
    unary main_v121 main_v122 (broadcastInDim S500000x4x1 ![0, 1] bcast_S500000x4_S500000x4x1_0_1 : (⟨S500000x4, .f32⟩ : BufTy).Contents (Elt F) → (⟨S500000x4x1, .f32⟩ : BufTy).Contents (Elt F)) ]

/-- Layer 2: the features gathered at the edges. -/
abbrev segHG2 : List (HloOp τ sig (Elt F)) :=
  [ nullary main_c_27 (constantI S_ 32 0#32),
    unary main_c_27 main_v123 (broadcastInDim S500000 ![] bcast_S_S500000 : (⟨S_, .i32⟩ : BufTy).Contents (Elt F) → (⟨S500000, .i32⟩ : BufTy).Contents (Elt F)),
    binary main_v3 main_v123 main_v124 (cmpi .slt : (⟨S500000, .i32⟩ : BufTy).Contents (Elt F) → (⟨S500000, .i32⟩ : BufTy).Contents (Elt F) → (⟨S500000, .i1⟩ : BufTy).Contents (Elt F)),
    nullary main_c_28 (constantI S_ 32 50000#32),
    unary main_c_28 main_v125 (broadcastInDim S500000 ![] bcast_S_S500000 : (⟨S_, .i32⟩ : BufTy).Contents (Elt F) → (⟨S500000, .i32⟩ : BufTy).Contents (Elt F)),
    binary main_v3 main_v125 main_v126 (addi : (⟨S500000, .i32⟩ : BufTy).Contents (Elt F) → (⟨S500000, .i32⟩ : BufTy).Contents (Elt F) → (⟨S500000, .i32⟩ : BufTy).Contents (Elt F)),
    ternary main_v124 main_v126 main_v3 main_v127 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v127 main_v128 (broadcastInDim S500000x1 ![0] bcast_S500000_S500000x1_0 : (⟨S500000, .i32⟩ : BufTy).Contents (Elt F) → (⟨S500000x1, .i32⟩ : BufTy).Contents (Elt F)),
    binary main_v82 main_v128 main_v129 ((fun x i => Host.gather gather_S50000x4x64_S500000x1_S500000x4x64_12_0_n_n_0_1_1464 x i) : (⟨S50000x4x64, .f32⟩ : BufTy).Contents (Elt F) → (⟨S500000x1, .i32⟩ : BufTy).Contents (Elt F) → (⟨S500000x4x64, .f32⟩ : BufTy).Contents (Elt F)) ]

/-- Layer 2: the weighted messages. -/
abbrev segMS2 : List (HloOp τ sig (Elt F)) :=
  [ unary main_v122 main_v130 (broadcastInDim S500000x4x64 ![0, 1, 2] bcast_S500000x4x1_S500000x4x64_0_1_2 : (⟨S500000x4x1, .f32⟩ : BufTy).Contents (Elt F) → (⟨S500000x4x64, .f32⟩ : BufTy).Contents (Elt F)),
    binary main_v130 main_v129 main_v131 (mulf : (⟨S500000x4x64, .f32⟩ : BufTy).Contents (Elt F) → (⟨S500000x4x64, .f32⟩ : BufTy).Contents (Elt F) → (⟨S500000x4x64, .f32⟩ : BufTy).Contents (Elt F)) ]

/-- Layer 2: the per-node sum of the messages. -/
abbrev segAG2 : List (HloOp τ sig (Elt F)) :=
  [ nullary main_cst_29 (constant S_ .f32 0x00000000#32),
    unary main_cst_29 main_v132 (broadcastInDim S50000x4x64 ![] bcast_S_S50000x4x64 : (⟨S_, .f32⟩ : BufTy).Contents (Elt F) → (⟨S50000x4x64, .f32⟩ : BufTy).Contents (Elt F)),
    unary main_v1 main_v133 (broadcastInDim S500000x1 ![0] bcast_S500000_S500000x1_0 : (⟨S500000, .i32⟩ : BufTy).Contents (Elt F) → (⟨S500000x1, .i32⟩ : BufTy).Contents (Elt F)),
    ternary main_v132 main_v133 main_v131 main_v134 ((fun x i u => Host.scatterAdd scatter_S50000x4x64_S500000x1_S500000x4x64_12_0_0_1 x i u) : (⟨S50000x4x64, .f32⟩ : BufTy).Contents (Elt F) → (⟨S500000x1, .i32⟩ : BufTy).Contents (Elt F) → (⟨S500000x4x64, .f32⟩ : BufTy).Contents (Elt F) → (⟨S50000x4x64, .f32⟩ : BufTy).Contents (Elt F)),
    reshape main_v134 main_v135 rfl shapeCasts_S50000x4x64_S50000x256 ]

/-- Layer 2: the bias, the layer normalisation and the activation (part 1 of 2). -/
abbrev segLN2_a : List (HloOp τ sig (Elt F)) :=
  [ unary main_arg12 main_v136 (broadcastInDim S1x256 ![1] bcast_S256_S1x256_1 : (⟨S256, .f32⟩ : BufTy).Contents (Elt F) → (⟨S1x256, .f32⟩ : BufTy).Contents (Elt F)),
    unary main_v136 main_v137 (broadcastInDim S50000x256 ![0, 1] bcast_S1x256_S50000x256_0_1 : (⟨S1x256, .f32⟩ : BufTy).Contents (Elt F) → (⟨S50000x256, .f32⟩ : BufTy).Contents (Elt F)),
    binary main_v135 main_v137 main_v138 (addf : (⟨S50000x256, .f32⟩ : BufTy).Contents (Elt F) → (⟨S50000x256, .f32⟩ : BufTy).Contents (Elt F) → (⟨S50000x256, .f32⟩ : BufTy).Contents (Elt F)),
    nullary main_cst_30 (constant S_ .f32 0x00000000#32),
    binary main_v138 main_cst_30 main_v139 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v139 main_v140 (broadcastInDim S50000x1 ![0] bcast_S50000_S50000x1_0 : (⟨S50000, .f32⟩ : BufTy).Contents (Elt F) → (⟨S50000x1, .f32⟩ : BufTy).Contents (Elt F)),
    nullary main_cst_31 (constant S_ .f32 0x43800000#32),
    unary main_cst_31 main_v141 (broadcastInDim S50000x1 ![] bcast_S_S50000x1 : (⟨S_, .f32⟩ : BufTy).Contents (Elt F) → (⟨S50000x1, .f32⟩ : BufTy).Contents (Elt F)),
    binary main_v140 main_v141 main_v142 (Host.divf : (⟨S50000x1, .f32⟩ : BufTy).Contents (Elt F) → (⟨S50000x1, .f32⟩ : BufTy).Contents (Elt F) → (⟨S50000x1, .f32⟩ : BufTy).Contents (Elt F)),
    nullary main_c_32 (constantI S_ 32 0#32),
    TRef.nullary main_call4.cst (constant S_ .f32 0x00000000#32),
    TRef.binary (.of main_v138) main_call4.cst main_call4.v0 (fun x v => Host.reduceAdd x v reducesTo_S50000x256_S50000_d1 h_S_),
    TRef.unary main_call4.v0 main_call4.v1 (broadcastInDim S50000x1 ![0] bcast_S50000_S50000x1_0),
    TRef.nullary main_call4.cst_0 (constant S_ .f32 0x43800000#32),
    TRef.unary main_call4.cst_0 main_call4.v2 (broadcastInDim S50000x1 ![] bcast_S_S50000x1),
    TRef.binary main_call4.v1 main_call4.v2 main_call4.v3 Host.divf,
    TRef.unary main_call4.v3 main_call4.v4 (broadcastInDim S50000x256 ![0, 1] bcast_S50000x1_S50000x256_0_1),
    TRef.binary (.of main_v138) main_call4.v4 main_call4.v5 subf,
    TRef.binary main_call4.v5 main_call4.v5 main_call4.v6 mulf,
    TRef.unary (.of main_c_32) main_call4.v7 (sitofp .f32),
    TRef.nullary main_call4.cst_1 (constant S_ .f32 0x43800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x256_S50000_d1 h_S_),
    TRef.unary main_call4.v9 main_call4.v10 (broadcastInDim S50000x1 ![0] bcast_S50000_S50000x1_0),
    TRef.unary main_call4.v8 main_call4.v11 (broadcastInDim S50000x1 ![] bcast_S_S50000x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S50000x1 ![] bcast_S_S50000x1),
    TRef.ternary main_call4.v13 main_call4.v12 main_call4.call0.v1 main_call4.call0.v2 (fun p a b => select (broadcastInDim S50000x1 ![] bcast_S_S50000x1 p) a b),
    unary main_v142 main_v144 (broadcastInDim S50000x256 ![0, 1] bcast_S50000x1_S50000x256_0_1 : (⟨S50000x1, .f32⟩ : BufTy).Contents (Elt F) → (⟨S50000x256, .f32⟩ : BufTy).Contents (Elt F)) ]

/-- Layer 2: the bias, the layer normalisation and the activation (part 2 of 2). -/
abbrev segLN2_b : List (HloOp τ sig (Elt F)) :=
  [ binary main_v138 main_v144 main_v145 (subf : (⟨S50000x256, .f32⟩ : BufTy).Contents (Elt F) → (⟨S50000x256, .f32⟩ : BufTy).Contents (Elt F) → (⟨S50000x256, .f32⟩ : BufTy).Contents (Elt F)),
    nullary main_cst_33 (constant S_ .f32 0x3727C5AC#32),
    unary main_cst_33 main_v146 (broadcastInDim S50000x1 ![] bcast_S_S50000x1 : (⟨S_, .f32⟩ : BufTy).Contents (Elt F) → (⟨S50000x1, .f32⟩ : BufTy).Contents (Elt F)),
    binary main_v143 main_v146 main_v147 (addf : (⟨S50000x1, .f32⟩ : BufTy).Contents (Elt F) → (⟨S50000x1, .f32⟩ : BufTy).Contents (Elt F) → (⟨S50000x1, .f32⟩ : BufTy).Contents (Elt F)),
    unary main_v147 main_v148 (Host.sqrt : (⟨S50000x1, .f32⟩ : BufTy).Contents (Elt F) → (⟨S50000x1, .f32⟩ : BufTy).Contents (Elt F)),
    unary main_v148 main_v149 (broadcastInDim S50000x256 ![0, 1] bcast_S50000x1_S50000x256_0_1 : (⟨S50000x1, .f32⟩ : BufTy).Contents (Elt F) → (⟨S50000x256, .f32⟩ : BufTy).Contents (Elt F)),
    binary main_v145 main_v149 main_v150 (Host.divf : (⟨S50000x256, .f32⟩ : BufTy).Contents (Elt F) → (⟨S50000x256, .f32⟩ : BufTy).Contents (Elt F) → (⟨S50000x256, .f32⟩ : BufTy).Contents (Elt F)),
    unary main_arg13 main_v151 (broadcastInDim S1x256 ![1] bcast_S256_S1x256_1 : (⟨S256, .f32⟩ : BufTy).Contents (Elt F) → (⟨S1x256, .f32⟩ : BufTy).Contents (Elt F)),
    unary main_v151 main_v152 (broadcastInDim S50000x256 ![0, 1] bcast_S1x256_S50000x256_0_1 : (⟨S1x256, .f32⟩ : BufTy).Contents (Elt F) → (⟨S50000x256, .f32⟩ : BufTy).Contents (Elt F)),
    binary main_v150 main_v152 main_v153 (mulf : (⟨S50000x256, .f32⟩ : BufTy).Contents (Elt F) → (⟨S50000x256, .f32⟩ : BufTy).Contents (Elt F) → (⟨S50000x256, .f32⟩ : BufTy).Contents (Elt F)),
    unary main_arg14 main_v154 (broadcastInDim S1x256 ![1] bcast_S256_S1x256_1 : (⟨S256, .f32⟩ : BufTy).Contents (Elt F) → (⟨S1x256, .f32⟩ : BufTy).Contents (Elt F)),
    unary main_v154 main_v155 (broadcastInDim S50000x256 ![0, 1] bcast_S1x256_S50000x256_0_1 : (⟨S1x256, .f32⟩ : BufTy).Contents (Elt F) → (⟨S50000x256, .f32⟩ : BufTy).Contents (Elt F)),
    binary main_v153 main_v155 main_v156 (addf : (⟨S50000x256, .f32⟩ : BufTy).Contents (Elt F) → (⟨S50000x256, .f32⟩ : BufTy).Contents (Elt F) → (⟨S50000x256, .f32⟩ : BufTy).Contents (Elt F)),
    TRef.nullary main_call5.cst (constant S_ .f32 0x00000000#32),
    TRef.unary main_call5.cst main_call5.v0 (broadcastInDim S50000x256 ![] bcast_S_S50000x256),
    TRef.binary (.of main_v156) main_call5.v0 main_call5.v1 (cmpf .ogt),
    TRef.nullary main_call5.cst_0 (constant S_ .f32 0x00000000#32),
    TRef.unary main_call5.cst_0 main_call5.v2 (broadcastInDim S50000x256 ![] bcast_S_S50000x256),
    TRef.binary (.of main_v156) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S50000x256 ![] bcast_S_S50000x256),
    TRef.ternary main_call5.v3 main_call5.call0.v1 (.of main_v156) main_call5.call0.v2 select,
    TRef.unary main_call5.call0.v2 main_call5.v5 Host.expm1,
    TRef.nullary main_call5.cst_2 (constant S_ .f32 0x3F800000#32),
    TRef.unary main_call5.cst_2 main_call5.v6 (broadcastInDim S50000x256 ![] bcast_S_S50000x256),
    TRef.binary main_call5.v6 main_call5.v5 main_call5.v7 mulf,
    TRef.ternary main_call5.v1 (.of main_v156) main_call5.v7 main_call5.call1.v0 select ]

abbrev segLN2 : List (HloOp τ sig (Elt F)) := segLN2_a ++ segLN2_b

/-- Layer 3: the layer's dense product. -/
abbrev segMM3 : List (HloOp τ sig (Elt F)) :=
  [ binary main_v157 main_arg15 main_v158 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- Layer 3: the head-wise view, the two score reductions and their gathers at the edge ends. -/
abbrev segSC3 : List (HloOp τ sig (Elt F)) :=
  [ reshape main_v158 main_v159 rfl shapeCasts_S50000x128_S50000x1x128,
    unary main_arg16 main_v160 (broadcastInDim S50000x1x128 ![0, 1, 2] bcast_S1x1x128_S50000x1x128_0_1_2 : (⟨S1x1x128, .f32⟩ : BufTy).Contents (Elt F) → (⟨S50000x1x128, .f32⟩ : BufTy).Contents (Elt F)),
    binary main_v159 main_v160 main_v161 (mulf : (⟨S50000x1x128, .f32⟩ : BufTy).Contents (Elt F) → (⟨S50000x1x128, .f32⟩ : BufTy).Contents (Elt F) → (⟨S50000x1x128, .f32⟩ : BufTy).Contents (Elt F)),
    nullary main_cst_34 (constant S_ .f32 0x00000000#32),
    binary main_v161 main_cst_34 main_v162 ((fun x v => Host.reduceAdd x v reducesTo_S50000x1x128_S50000x1_d2 h_S_) : (⟨S50000x1x128, .f32⟩ : BufTy).Contents (Elt F) → (⟨S_, .f32⟩ : BufTy).Contents (Elt F) → (⟨S50000x1, .f32⟩ : BufTy).Contents (Elt F)),
    unary main_arg17 main_v163 (broadcastInDim S50000x1x128 ![0, 1, 2] bcast_S1x1x128_S50000x1x128_0_1_2 : (⟨S1x1x128, .f32⟩ : BufTy).Contents (Elt F) → (⟨S50000x1x128, .f32⟩ : BufTy).Contents (Elt F)),
    binary main_v159 main_v163 main_v164 (mulf : (⟨S50000x1x128, .f32⟩ : BufTy).Contents (Elt F) → (⟨S50000x1x128, .f32⟩ : BufTy).Contents (Elt F) → (⟨S50000x1x128, .f32⟩ : BufTy).Contents (Elt F)),
    nullary main_cst_35 (constant S_ .f32 0x00000000#32),
    binary main_v164 main_cst_35 main_v165 ((fun x v => Host.reduceAdd x v reducesTo_S50000x1x128_S50000x1_d2 h_S_) : (⟨S50000x1x128, .f32⟩ : BufTy).Contents (Elt F) → (⟨S_, .f32⟩ : BufTy).Contents (Elt F) → (⟨S50000x1, .f32⟩ : BufTy).Contents (Elt F)),
    nullary main_c_36 (constantI S_ 32 0#32),
    unary main_c_36 main_v166 (broadcastInDim S500000 ![] bcast_S_S500000 : (⟨S_, .i32⟩ : BufTy).Contents (Elt F) → (⟨S500000, .i32⟩ : BufTy).Contents (Elt F)),
    binary main_v1 main_v166 main_v167 (cmpi .slt : (⟨S500000, .i32⟩ : BufTy).Contents (Elt F) → (⟨S500000, .i32⟩ : BufTy).Contents (Elt F) → (⟨S500000, .i1⟩ : BufTy).Contents (Elt F)),
    nullary main_c_37 (constantI S_ 32 50000#32),
    unary main_c_37 main_v168 (broadcastInDim S500000 ![] bcast_S_S500000 : (⟨S_, .i32⟩ : BufTy).Contents (Elt F) → (⟨S500000, .i32⟩ : BufTy).Contents (Elt F)),
    binary main_v1 main_v168 main_v169 (addi : (⟨S500000, .i32⟩ : BufTy).Contents (Elt F) → (⟨S500000, .i32⟩ : BufTy).Contents (Elt F) → (⟨S500000, .i32⟩ : BufTy).Contents (Elt F)),
    ternary main_v167 main_v169 main_v1 main_v170 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v170 main_v171 (broadcastInDim S500000x1 ![0] bcast_S500000_S500000x1_0 : (⟨S500000, .i32⟩ : BufTy).Contents (Elt F) → (⟨S500000x1, .i32⟩ : BufTy).Contents (Elt F)),
    binary main_v162 main_v171 main_v172 ((fun x i => Host.gather gather_S50000x1_S500000x1_S500000x1_1_0_n_n_0_1_11 x i) : (⟨S50000x1, .f32⟩ : BufTy).Contents (Elt F) → (⟨S500000x1, .i32⟩ : BufTy).Contents (Elt F) → (⟨S500000x1, .f32⟩ : BufTy).Contents (Elt F)),
    nullary main_c_38 (constantI S_ 32 0#32),
    unary main_c_38 main_v173 (broadcastInDim S500000 ![] bcast_S_S500000 : (⟨S_, .i32⟩ : BufTy).Contents (Elt F) → (⟨S500000, .i32⟩ : BufTy).Contents (Elt F)),
    binary main_v3 main_v173 main_v174 (cmpi .slt : (⟨S500000, .i32⟩ : BufTy).Contents (Elt F) → (⟨S500000, .i32⟩ : BufTy).Contents (Elt F) → (⟨S500000, .i1⟩ : BufTy).Contents (Elt F)),
    nullary main_c_39 (constantI S_ 32 50000#32),
    unary main_c_39 main_v175 (broadcastInDim S500000 ![] bcast_S_S500000 : (⟨S_, .i32⟩ : BufTy).Contents (Elt F) → (⟨S500000, .i32⟩ : BufTy).Contents (Elt F)),
    binary main_v3 main_v175 main_v176 (addi : (⟨S500000, .i32⟩ : BufTy).Contents (Elt F) → (⟨S500000, .i32⟩ : BufTy).Contents (Elt F) → (⟨S500000, .i32⟩ : BufTy).Contents (Elt F)),
    ternary main_v174 main_v176 main_v3 main_v177 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v177 main_v178 (broadcastInDim S500000x1 ![0] bcast_S500000_S500000x1_0 : (⟨S500000, .i32⟩ : BufTy).Contents (Elt F) → (⟨S500000x1, .i32⟩ : BufTy).Contents (Elt F)),
    binary main_v165 main_v178 main_v179 ((fun x i => Host.gather gather_S50000x1_S500000x1_S500000x1_1_0_n_n_0_1_11 x i) : (⟨S50000x1, .f32⟩ : BufTy).Contents (Elt F) → (⟨S500000x1, .i32⟩ : BufTy).Contents (Elt F) → (⟨S500000x1, .f32⟩ : BufTy).Contents (Elt F)) ]

/-- Layer 3: the summed scores, the leaky rectifier, the edge weighting and the exponential. -/
abbrev segAT3 : List (HloOp τ sig (Elt F)) :=
  [ binary main_v172 main_v179 main_v180 (addf : (⟨S500000x1, .f32⟩ : BufTy).Contents (Elt F) → (⟨S500000x1, .f32⟩ : BufTy).Contents (Elt F) → (⟨S500000x1, .f32⟩ : BufTy).Contents (Elt F)),
    nullary main_cst_40 (constant S_ .f32 0x3E4CCCCD#32),
    TRef.nullary main_call6.cst (constant S_ .f32 0x00000000#32),
    TRef.unary main_call6.cst main_call6.v0 (broadcastInDim S500000x1 ![] bcast_S_S500000x1),
    TRef.binary (.of main_v180) main_call6.v0 main_call6.v1 (cmpf .oge),
    TRef.unary (.of main_cst_40) main_call6.v2 id,
    TRef.unary main_call6.v2 main_call6.v3 (broadcastInDim S500000x1 ![] bcast_S_S500000x1),
    TRef.binary main_call6.v3 (.of main_v180) main_call6.v4 mulf,
    TRef.ternary main_call6.v1 (.of main_v180) main_call6.v4 main_call6.call0.v0 select,
    unary main_arg2 main_v182 (broadcastInDim S500000x1 ![0] bcast_S500000_S500000x1_0 : (⟨S500000, .f32⟩ : BufTy).Contents (Elt F) → (⟨S500000x1, .f32⟩ : BufTy).Contents (Elt F)),
    binary main_v181 main_v182 main_v183 (mulf : (⟨S500000x1, .f32⟩ : BufTy).Contents (Elt F) → (⟨S500000x1, .f32⟩ : BufTy).Contents (Elt F) → (⟨S500000x1, .f32⟩ : BufTy).Contents (Elt F)),
    unary main_v183 main_v184 (Host.exp : (⟨S500000x1, .f32⟩ : BufTy).Contents (Elt F) → (⟨S500000x1, .f32⟩ : BufTy).Contents (Elt F)) ]

/-- Layer 3: the per-node sum of the exponentials, gathered back at the edges (part 1 of 2). -/
abbrev segDN3_a : List (HloOp τ sig (Elt F)) :=
  [ nullary main_cst_41 (constant S_ .f32 0x00000000#32),
    unary main_cst_41 main_v185 (broadcastInDim S50000x1 ![] bcast_S_S50000x1 : (⟨S_, .f32⟩ : BufTy).Contents (Elt F) → (⟨S50000x1, .f32⟩ : BufTy).Contents (Elt F)),
    unary main_v3 main_v186 (broadcastInDim S500000x1 ![0] bcast_S500000_S500000x1_0 : (⟨S500000, .i32⟩ : BufTy).Contents (Elt F) → (⟨S500000x1, .i32⟩ : BufTy).Contents (Elt F)),
    ternary main_v185 main_v186 main_v184 main_v187 ((fun x i u => Host.scatterAdd scatter_S50000x1_S500000x1_S500000x1_1_0_0_1 x i u) : (⟨S50000x1, .f32⟩ : BufTy).Contents (Elt F) → (⟨S500000x1, .i32⟩ : BufTy).Contents (Elt F) → (⟨S500000x1, .f32⟩ : BufTy).Contents (Elt F) → (⟨S50000x1, .f32⟩ : BufTy).Contents (Elt F)),
    nullary main_c_42 (constantI S_ 32 0#32),
    unary main_c_42 main_v188 (broadcastInDim S500000 ![] bcast_S_S500000 : (⟨S_, .i32⟩ : BufTy).Contents (Elt F) → (⟨S500000, .i32⟩ : BufTy).Contents (Elt F)),
    binary main_v3 main_v188 main_v189 (cmpi .slt : (⟨S500000, .i32⟩ : BufTy).Contents (Elt F) → (⟨S500000, .i32⟩ : BufTy).Contents (Elt F) → (⟨S500000, .i1⟩ : BufTy).Contents (Elt F)),
    nullary main_c_43 (constantI S_ 32 50000#32),
    unary main_c_43 main_v190 (broadcastInDim S500000 ![] bcast_S_S500000 : (⟨S_, .i32⟩ : BufTy).Contents (Elt F) → (⟨S500000, .i32⟩ : BufTy).Contents (Elt F)),
    binary main_v3 main_v190 main_v191 (addi : (⟨S500000, .i32⟩ : BufTy).Contents (Elt F) → (⟨S500000, .i32⟩ : BufTy).Contents (Elt F) → (⟨S500000, .i32⟩ : BufTy).Contents (Elt F)),
    ternary main_v189 main_v191 main_v3 main_v192 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v192 main_v193 (broadcastInDim S500000x1 ![0] bcast_S500000_S500000x1_0 : (⟨S500000, .i32⟩ : BufTy).Contents (Elt F) → (⟨S500000x1, .i32⟩ : BufTy).Contents (Elt F)) ]

/-- Layer 3: the per-node sum of the exponentials, gathered back at the edges (part 2 of 2). -/
abbrev segDN3_b : List (HloOp τ sig (Elt F)) :=
  [ binary main_v187 main_v193 main_v194 ((fun x i => Host.gather gather_S50000x1_S500000x1_S500000x1_1_0_n_n_0_1_11 x i) : (⟨S50000x1, .f32⟩ : BufTy).Contents (Elt F) → (⟨S500000x1, .i32⟩ : BufTy).Contents (Elt F) → (⟨S500000x1, .f32⟩ : BufTy).Contents (Elt F)) ]

abbrev segDN3 : List (HloOp τ sig (Elt F)) := segDN3_a ++ segDN3_b

/-- Layer 3: the normalised attention weight, with a trailing unit axis. -/
abbrev segAL3 : List (HloOp τ sig (Elt F)) :=
  [ nullary main_cst_44 (constant S_ .f32 0x24E69595#32),
    unary main_cst_44 main_v195 (broadcastInDim S500000x1 ![] bcast_S_S500000x1 : (⟨S_, .f32⟩ : BufTy).Contents (Elt F) → (⟨S500000x1, .f32⟩ : BufTy).Contents (Elt F)),
    binary main_v194 main_v195 main_v196 (addf : (⟨S500000x1, .f32⟩ : BufTy).Contents (Elt F) → (⟨S500000x1, .f32⟩ : BufTy).Contents (Elt F) → (⟨S500000x1, .f32⟩ : BufTy).Contents (Elt F)),
    binary main_v184 main_v196 main_v197 (Host.divf : (⟨S500000x1, .f32⟩ : BufTy).Contents (Elt F) → (⟨S500000x1, .f32⟩ : BufTy).Contents (Elt F) → (⟨S500000x1, .f32⟩ : BufTy).Contents (Elt F)),
    unary main_v197 main_v198 (broadcastInDim S500000x1x1 ![0, 1] bcast_S500000x1_S500000x1x1_0_1 : (⟨S500000x1, .f32⟩ : BufTy).Contents (Elt F) → (⟨S500000x1x1, .f32⟩ : BufTy).Contents (Elt F)) ]

/-- Layer 3: the features gathered at the edges. -/
abbrev segHG3 : List (HloOp τ sig (Elt F)) :=
  [ nullary main_c_45 (constantI S_ 32 0#32),
    unary main_c_45 main_v199 (broadcastInDim S500000 ![] bcast_S_S500000 : (⟨S_, .i32⟩ : BufTy).Contents (Elt F) → (⟨S500000, .i32⟩ : BufTy).Contents (Elt F)),
    binary main_v3 main_v199 main_v200 (cmpi .slt : (⟨S500000, .i32⟩ : BufTy).Contents (Elt F) → (⟨S500000, .i32⟩ : BufTy).Contents (Elt F) → (⟨S500000, .i1⟩ : BufTy).Contents (Elt F)),
    nullary main_c_46 (constantI S_ 32 50000#32),
    unary main_c_46 main_v201 (broadcastInDim S500000 ![] bcast_S_S500000 : (⟨S_, .i32⟩ : BufTy).Contents (Elt F) → (⟨S500000, .i32⟩ : BufTy).Contents (Elt F)),
    binary main_v3 main_v201 main_v202 (addi : (⟨S500000, .i32⟩ : BufTy).Contents (Elt F) → (⟨S500000, .i32⟩ : BufTy).Contents (Elt F) → (⟨S500000, .i32⟩ : BufTy).Contents (Elt F)),
    ternary main_v200 main_v202 main_v3 main_v203 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v203 main_v204 (broadcastInDim S500000x1 ![0] bcast_S500000_S500000x1_0 : (⟨S500000, .i32⟩ : BufTy).Contents (Elt F) → (⟨S500000x1, .i32⟩ : BufTy).Contents (Elt F)),
    binary main_v159 main_v204 main_v205 ((fun x i => Host.gather gather_S50000x1x128_S500000x1_S500000x1x128_12_0_n_n_0_1_11128 x i) : (⟨S50000x1x128, .f32⟩ : BufTy).Contents (Elt F) → (⟨S500000x1, .i32⟩ : BufTy).Contents (Elt F) → (⟨S500000x1x128, .f32⟩ : BufTy).Contents (Elt F)) ]

/-- Layer 3: the weighted messages. -/
abbrev segMS3 : List (HloOp τ sig (Elt F)) :=
  [ unary main_v198 main_v206 (broadcastInDim S500000x1x128 ![0, 1, 2] bcast_S500000x1x1_S500000x1x128_0_1_2 : (⟨S500000x1x1, .f32⟩ : BufTy).Contents (Elt F) → (⟨S500000x1x128, .f32⟩ : BufTy).Contents (Elt F)),
    binary main_v206 main_v205 main_v207 (mulf : (⟨S500000x1x128, .f32⟩ : BufTy).Contents (Elt F) → (⟨S500000x1x128, .f32⟩ : BufTy).Contents (Elt F) → (⟨S500000x1x128, .f32⟩ : BufTy).Contents (Elt F)) ]

/-- Layer 3: the per-node sum of the messages. -/
abbrev segAG3 : List (HloOp τ sig (Elt F)) :=
  [ nullary main_cst_47 (constant S_ .f32 0x00000000#32),
    unary main_cst_47 main_v208 (broadcastInDim S50000x1x128 ![] bcast_S_S50000x1x128 : (⟨S_, .f32⟩ : BufTy).Contents (Elt F) → (⟨S50000x1x128, .f32⟩ : BufTy).Contents (Elt F)),
    unary main_v1 main_v209 (broadcastInDim S500000x1 ![0] bcast_S500000_S500000x1_0 : (⟨S500000, .i32⟩ : BufTy).Contents (Elt F) → (⟨S500000x1, .i32⟩ : BufTy).Contents (Elt F)),
    ternary main_v208 main_v209 main_v207 main_v210 ((fun x i u => Host.scatterAdd scatter_S50000x1x128_S500000x1_S500000x1x128_12_0_0_1 x i u) : (⟨S50000x1x128, .f32⟩ : BufTy).Contents (Elt F) → (⟨S500000x1, .i32⟩ : BufTy).Contents (Elt F) → (⟨S500000x1x128, .f32⟩ : BufTy).Contents (Elt F) → (⟨S50000x1x128, .f32⟩ : BufTy).Contents (Elt F)),
    nullary main_cst_48 (constant S_ .f32 0x00000000#32),
    binary main_v210 main_cst_48 main_v211 ((fun x v => Host.reduceAdd x v reducesTo_S50000x1x128_S50000x128_d1 h_S_) : (⟨S50000x1x128, .f32⟩ : BufTy).Contents (Elt F) → (⟨S_, .f32⟩ : BufTy).Contents (Elt F) → (⟨S50000x128, .f32⟩ : BufTy).Contents (Elt F)),
    nullary main_cst_49 (constant S_ .f32 0x3F800000#32),
    unary main_cst_49 main_v212 (broadcastInDim S50000x128 ![] bcast_S_S50000x128 : (⟨S_, .f32⟩ : BufTy).Contents (Elt F) → (⟨S50000x128, .f32⟩ : BufTy).Contents (Elt F)),
    binary main_v211 main_v212 main_v213 (Host.divf : (⟨S50000x128, .f32⟩ : BufTy).Contents (Elt F) → (⟨S50000x128, .f32⟩ : BufTy).Contents (Elt F) → (⟨S50000x128, .f32⟩ : BufTy).Contents (Elt F)) ]

/-- Layer 3: the bias and the layer normalisation. -/
abbrev segLN3 : List (HloOp τ sig (Elt F)) :=
  [ unary main_arg18 main_v214 (broadcastInDim S1x128 ![1] bcast_S128_S1x128_1 : (⟨S128, .f32⟩ : BufTy).Contents (Elt F) → (⟨S1x128, .f32⟩ : BufTy).Contents (Elt F)),
    unary main_v214 main_v215 (broadcastInDim S50000x128 ![0, 1] bcast_S1x128_S50000x128_0_1 : (⟨S1x128, .f32⟩ : BufTy).Contents (Elt F) → (⟨S50000x128, .f32⟩ : BufTy).Contents (Elt F)),
    binary main_v213 main_v215 main_v216 (addf : (⟨S50000x128, .f32⟩ : BufTy).Contents (Elt F) → (⟨S50000x128, .f32⟩ : BufTy).Contents (Elt F) → (⟨S50000x128, .f32⟩ : BufTy).Contents (Elt F)),
    nullary main_cst_50 (constant S_ .f32 0x00000000#32),
    binary main_v216 main_cst_50 main_v217 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v217 main_v218 (broadcastInDim S50000x1 ![0] bcast_S50000_S50000x1_0 : (⟨S50000, .f32⟩ : BufTy).Contents (Elt F) → (⟨S50000x1, .f32⟩ : BufTy).Contents (Elt F)),
    nullary main_cst_51 (constant S_ .f32 0x43000000#32),
    unary main_cst_51 main_v219 (broadcastInDim S50000x1 ![] bcast_S_S50000x1 : (⟨S_, .f32⟩ : BufTy).Contents (Elt F) → (⟨S50000x1, .f32⟩ : BufTy).Contents (Elt F)),
    binary main_v218 main_v219 main_v220 (Host.divf : (⟨S50000x1, .f32⟩ : BufTy).Contents (Elt F) → (⟨S50000x1, .f32⟩ : BufTy).Contents (Elt F) → (⟨S50000x1, .f32⟩ : BufTy).Contents (Elt F)),
    nullary main_c_52 (constantI S_ 32 0#32),
    TRef.nullary main_call7.cst (constant S_ .f32 0x00000000#32),
    TRef.binary (.of main_v216) main_call7.cst main_call7.v0 (fun x v => Host.reduceAdd x v reducesTo_S50000x128_S50000_d1 h_S_),
    TRef.unary main_call7.v0 main_call7.v1 (broadcastInDim S50000x1 ![0] bcast_S50000_S50000x1_0),
    TRef.nullary main_call7.cst_0 (constant S_ .f32 0x43000000#32),
    TRef.unary main_call7.cst_0 main_call7.v2 (broadcastInDim S50000x1 ![] bcast_S_S50000x1),
    TRef.binary main_call7.v1 main_call7.v2 main_call7.v3 Host.divf,
    TRef.unary main_call7.v3 main_call7.v4 (broadcastInDim S50000x128 ![0, 1] bcast_S50000x1_S50000x128_0_1),
    TRef.binary (.of main_v216) main_call7.v4 main_call7.v5 subf,
    TRef.binary main_call7.v5 main_call7.v5 main_call7.v6 mulf,
    TRef.unary (.of main_c_52) main_call7.v7 (sitofp .f32),
    TRef.nullary main_call7.cst_1 (constant S_ .f32 0x43000000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S50000x128_S50000_d1 h_S_),
    TRef.unary main_call7.v9 main_call7.v10 (broadcastInDim S50000x1 ![0] bcast_S50000_S50000x1_0),
    TRef.unary main_call7.v8 main_call7.v11 (broadcastInDim S50000x1 ![] bcast_S_S50000x1),
    TRef.binary main_call7.v10 main_call7.v11 main_call7.v12 Host.divf,
    TRef.nullary main_call7.cst_3 (constant S_ .f32 0x00000000#32),
    TRef.binary main_call7.v8 main_call7.cst_3 main_call7.v13 (cmpf .ogt),
    TRef.nullary main_call7.cst_4 (constant S_ .f32 0x7FC00000#32),
    TRef.unary main_call7.cst_4 main_call7.call0.v0 id,
    TRef.unary main_call7.call0.v0 main_call7.call0.v1 (broadcastInDim S50000x1 ![] bcast_S_S50000x1),
    TRef.ternary main_call7.v13 main_call7.v12 main_call7.call0.v1 main_call7.call0.v2 (fun p a b => select (broadcastInDim S50000x1 ![] bcast_S_S50000x1 p) a b),
    unary main_v220 main_v222 (broadcastInDim S50000x128 ![0, 1] bcast_S50000x1_S50000x128_0_1 : (⟨S50000x1, .f32⟩ : BufTy).Contents (Elt F) → (⟨S50000x128, .f32⟩ : BufTy).Contents (Elt F)),
    binary main_v216 main_v222 main_v223 (subf : (⟨S50000x128, .f32⟩ : BufTy).Contents (Elt F) → (⟨S50000x128, .f32⟩ : BufTy).Contents (Elt F) → (⟨S50000x128, .f32⟩ : BufTy).Contents (Elt F)),
    nullary main_cst_53 (constant S_ .f32 0x3727C5AC#32),
    unary main_cst_53 main_v224 (broadcastInDim S50000x1 ![] bcast_S_S50000x1 : (⟨S_, .f32⟩ : BufTy).Contents (Elt F) → (⟨S50000x1, .f32⟩ : BufTy).Contents (Elt F)),
    binary main_v221 main_v224 main_v225 (addf : (⟨S50000x1, .f32⟩ : BufTy).Contents (Elt F) → (⟨S50000x1, .f32⟩ : BufTy).Contents (Elt F) → (⟨S50000x1, .f32⟩ : BufTy).Contents (Elt F)),
    unary main_v225 main_v226 (Host.sqrt : (⟨S50000x1, .f32⟩ : BufTy).Contents (Elt F) → (⟨S50000x1, .f32⟩ : BufTy).Contents (Elt F)),
    unary main_v226 main_v227 (broadcastInDim S50000x128 ![0, 1] bcast_S50000x1_S50000x128_0_1 : (⟨S50000x1, .f32⟩ : BufTy).Contents (Elt F) → (⟨S50000x128, .f32⟩ : BufTy).Contents (Elt F)),
    binary main_v223 main_v227 main_v228 (Host.divf : (⟨S50000x128, .f32⟩ : BufTy).Contents (Elt F) → (⟨S50000x128, .f32⟩ : BufTy).Contents (Elt F) → (⟨S50000x128, .f32⟩ : BufTy).Contents (Elt F)),
    unary main_arg19 main_v229 (broadcastInDim S1x128 ![1] bcast_S128_S1x128_1 : (⟨S128, .f32⟩ : BufTy).Contents (Elt F) → (⟨S1x128, .f32⟩ : BufTy).Contents (Elt F)),
    unary main_v229 main_v230 (broadcastInDim S50000x128 ![0, 1] bcast_S1x128_S50000x128_0_1 : (⟨S1x128, .f32⟩ : BufTy).Contents (Elt F) → (⟨S50000x128, .f32⟩ : BufTy).Contents (Elt F)),
    binary main_v228 main_v230 main_v231 (mulf : (⟨S50000x128, .f32⟩ : BufTy).Contents (Elt F) → (⟨S50000x128, .f32⟩ : BufTy).Contents (Elt F) → (⟨S50000x128, .f32⟩ : BufTy).Contents (Elt F)),
    unary main_arg20 main_v232 (broadcastInDim S1x128 ![1] bcast_S128_S1x128_1 : (⟨S128, .f32⟩ : BufTy).Contents (Elt F) → (⟨S1x128, .f32⟩ : BufTy).Contents (Elt F)),
    unary main_v232 main_v233 (broadcastInDim S50000x128 ![0, 1] bcast_S1x128_S50000x128_0_1 : (⟨S1x128, .f32⟩ : BufTy).Contents (Elt F) → (⟨S50000x128, .f32⟩ : BufTy).Contents (Elt F)),
    binary main_v231 main_v233 main_v234 (addf : (⟨S50000x128, .f32⟩ : BufTy).Contents (Elt F) → (⟨S50000x128, .f32⟩ : BufTy).Contents (Elt F) → (⟨S50000x128, .f32⟩ : BufTy).Contents (Elt F)) ]

/-- The program's operations, in order: the concatenation of the segments. -/
abbrev ops : List (HloOp τ sig (Elt F)) :=
  segS0 ++ (segMM1 ++ (segSC1 ++ (segAT1 ++ (segDN1 ++ (segAL1 ++ (segHG1 ++ (segMS1 ++ (segAG1 ++ (segLN1 ++ (segMM2 ++ (segSC2 ++ (segAT2 ++ (segDN2 ++ (segAL2 ++ (segHG2 ++ (segMS2 ++ (segAG2 ++ (segLN2 ++ (segMM3 ++ (segSC3 ++ (segAT3 ++ (segDN3 ++ (segAL3 ++ (segHG3 ++ (segMS3 ++ (segAG3 ++ (segLN3)))))))))))))))))))))))))))

/-- The operations of the program's window 0. -/
abbrev part0ops : List (HloOp τ sig (Elt F)) :=
  segS0 ++ (segMM1 ++ (segSC1 ++ (segAT1 ++ (segDN1 ++ (segAL1 ++ (segHG1_a))))))

/-- The operations of the program's window 1. -/
abbrev part1ops : List (HloOp τ sig (Elt F)) :=
  segHG1_b ++ (segMS1 ++ (segAG1 ++ (segLN1 ++ (segMM2 ++ (segSC2_a)))))

/-- The operations of the program's window 2. -/
abbrev part2ops : List (HloOp τ sig (Elt F)) :=
  segSC2_b ++ (segAT2 ++ (segDN2 ++ (segAL2 ++ (segHG2 ++ (segMS2 ++ (segAG2 ++ (segLN2_a)))))))

/-- The operations of the program's window 3. -/
abbrev part3ops : List (HloOp τ sig (Elt F)) :=
  segLN2_b ++ (segMM3 ++ (segSC3 ++ (segAT3 ++ (segDN3_a))))

/-- The operations of the program's window 4. -/
abbrev part4ops : List (HloOp τ sig (Elt F)) :=
  segDN3_b ++ (segAL3 ++ (segHG3 ++ (segMS3 ++ (segAG3 ++ (segLN3)))))

set_option maxRecDepth 8192 in
set_option maxHeartbeats 4000000 in
theorem main_part0_eq (c : Dev nD) : main_part0 (F := F) c = seq part0ops := rfl

set_option maxRecDepth 8192 in
set_option maxHeartbeats 4000000 in
theorem main_part1_eq (c : Dev nD) : main_part1 (F := F) c = seq part1ops := rfl

set_option maxRecDepth 8192 in
set_option maxHeartbeats 4000000 in
theorem main_part2_eq (c : Dev nD) : main_part2 (F := F) c = seq part2ops := rfl

set_option maxRecDepth 8192 in
set_option maxHeartbeats 4000000 in
theorem main_part3_eq (c : Dev nD) : main_part3 (F := F) c = seq part3ops := rfl

set_option maxRecDepth 8192 in
set_option maxHeartbeats 4000000 in
theorem main_part4_eq (c : Dev nD) : main_part4 (F := F) c = seq part4ops := rfl

/-- The segments regrouped along the program's windows: the same list. -/
theorem ops_eq_parts : (ops : List (HloOp τ sig (Elt F))) = part0ops ++ (part1ops ++ (part2ops ++ (part3ops ++ (part4ops)))) := by
  simp only [ops, part0ops, part1ops, part2ops, part3ops, part4ops, segHG1, segSC2, segLN2, segDN3, List.append_assoc]

set_option maxRecDepth 8192 in
/-- The program is the straight line of its operations: window by window, joined by `seq_append`. -/
theorem main_eq (c : Dev nD) : main (F := F) c = seq ops := by
  rw [ops_eq_parts]
  simp only [seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem segS0_sub : (segS0 : List (HloOp τ sig (Elt F))).Forall fun op => op.bufs ⊆ tcRefs τ sig :=
  ⟨unary_bufs_sub .., reshape_bufs_sub .., unary_bufs_sub .., reshape_bufs_sub ..⟩
set_option maxRecDepth 8192 in
theorem segS0_fresh : (segS0 : List (HloOp τ sig (Elt F))).Forall fun op => op.fresh = ∅ :=
  ⟨rfl, rfl, rfl, rfl⟩

set_option maxRecDepth 8192 in
theorem segMM1_sub : (segMM1 : List (HloOp τ sig (Elt F))).Forall fun op => op.bufs ⊆ tcRefs τ sig :=
  binary_bufs_sub ..
set_option maxRecDepth 8192 in
theorem segMM1_fresh : (segMM1 : List (HloOp τ sig (Elt F))).Forall fun op => op.fresh = ∅ :=
  rfl

set_option maxRecDepth 8192 in
theorem segSC1_sub : (segSC1 : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem segSC1_fresh : (segSC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem segAT1_sub : (segAT1 : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., unary_bufs_sub ..⟩
set_option maxRecDepth 8192 in
theorem segAT1_fresh : (segAT1 : List (HloOp τ sig (Elt F))).Forall fun op => op.fresh = ∅ :=
  ⟨rfl, rfl, rfl, rfl, rfl, rfl, rfl, rfl, rfl, rfl, rfl, rfl, rfl⟩

set_option maxRecDepth 8192 in
theorem segDN1_sub : (segDN1 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem segDN1_fresh : (segDN1 : List (HloOp τ sig (Elt F))).Forall fun op => op.fresh = ∅ :=
  ⟨rfl, rfl, rfl, rfl, rfl, rfl, rfl, rfl, rfl, rfl, rfl, rfl, rfl⟩

set_option maxRecDepth 8192 in
theorem segAL1_sub : (segAL1 : List (HloOp τ sig (Elt F))).Forall fun op => op.bufs ⊆ tcRefs τ sig :=
  ⟨nullary_bufs_sub .., unary_bufs_sub .., binary_bufs_sub .., binary_bufs_sub .., unary_bufs_sub ..⟩
set_option maxRecDepth 8192 in
theorem segAL1_fresh : (segAL1 : List (HloOp τ sig (Elt F))).Forall fun op => op.fresh = ∅ :=
  ⟨rfl, rfl, rfl, rfl, rfl⟩

set_option maxRecDepth 8192 in
theorem segHG1_a_sub : (segHG1_a : List (HloOp τ sig (Elt F))).Forall fun op => op.bufs ⊆ tcRefs τ sig :=
  ⟨nullary_bufs_sub .., unary_bufs_sub .., binary_bufs_sub ..⟩
set_option maxRecDepth 8192 in
theorem segHG1_a_fresh : (segHG1_a : List (HloOp τ sig (Elt F))).Forall fun op => op.fresh = ∅ :=
  ⟨rfl, rfl, rfl⟩

set_option maxRecDepth 8192 in
theorem segHG1_b_sub : (segHG1_b : List (HloOp τ sig (Elt F))).Forall fun op => op.bufs ⊆ tcRefs τ sig :=
  ⟨nullary_bufs_sub .., unary_bufs_sub .., binary_bufs_sub .., ternary_bufs_sub .., unary_bufs_sub .., binary_bufs_sub ..⟩
set_option maxRecDepth 8192 in
theorem segHG1_b_fresh : (segHG1_b : List (HloOp τ sig (Elt F))).Forall fun op => op.fresh = ∅ :=
  ⟨rfl, rfl, rfl, rfl, rfl, rfl⟩

set_option maxRecDepth 8192 in
theorem segMS1_sub : (segMS1 : List (HloOp τ sig (Elt F))).Forall fun op => op.bufs ⊆ tcRefs τ sig :=
  ⟨unary_bufs_sub .., binary_bufs_sub ..⟩
set_option maxRecDepth 8192 in
theorem segMS1_fresh : (segMS1 : List (HloOp τ sig (Elt F))).Forall fun op => op.fresh = ∅ :=
  ⟨rfl, rfl⟩

set_option maxRecDepth 8192 in
theorem segAG1_sub : (segAG1 : List (HloOp τ sig (Elt F))).Forall fun op => op.bufs ⊆ tcRefs τ sig :=
  ⟨nullary_bufs_sub .., unary_bufs_sub .., unary_bufs_sub .., ternary_bufs_sub .., reshape_bufs_sub ..⟩
set_option maxRecDepth 8192 in
theorem segAG1_fresh : (segAG1 : List (HloOp τ sig (Elt F))).Forall fun op => op.fresh = ∅ :=
  ⟨rfl, rfl, rfl, rfl, rfl⟩

set_option maxRecDepth 8192 in
theorem segLN1_sub : (segLN1 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem segLN1_fresh : (segLN1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem segMM2_sub : (segMM2 : List (HloOp τ sig (Elt F))).Forall fun op => op.bufs ⊆ tcRefs τ sig :=
  binary_bufs_sub ..
set_option maxRecDepth 8192 in
theorem segMM2_fresh : (segMM2 : List (HloOp τ sig (Elt F))).Forall fun op => op.fresh = ∅ :=
  rfl

set_option maxRecDepth 8192 in
theorem segSC2_a_sub : (segSC2_a : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩
set_option maxRecDepth 8192 in
theorem segSC2_a_fresh : (segSC2_a : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem segSC2_b_sub : (segSC2_b : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub ..⟩
set_option maxRecDepth 8192 in
theorem segSC2_b_fresh : (segSC2_b : List (HloOp τ sig (Elt F))).Forall fun op => op.fresh = ∅ :=
  ⟨rfl, rfl, rfl, rfl, rfl, rfl, rfl⟩

set_option maxRecDepth 8192 in
theorem segAT2_sub : (segAT2 : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., unary_bufs_sub ..⟩
set_option maxRecDepth 8192 in
theorem segAT2_fresh : (segAT2 : List (HloOp τ sig (Elt F))).Forall fun op => op.fresh = ∅ :=
  ⟨rfl, rfl, rfl, rfl, rfl, rfl, rfl, rfl, rfl, rfl, rfl, rfl, rfl⟩

set_option maxRecDepth 8192 in
theorem segDN2_sub : (segDN2 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem segDN2_fresh : (segDN2 : List (HloOp τ sig (Elt F))).Forall fun op => op.fresh = ∅ :=
  ⟨rfl, rfl, rfl, rfl, rfl, rfl, rfl, rfl, rfl, rfl, rfl, rfl, rfl⟩

set_option maxRecDepth 8192 in
theorem segAL2_sub : (segAL2 : List (HloOp τ sig (Elt F))).Forall fun op => op.bufs ⊆ tcRefs τ sig :=
  ⟨nullary_bufs_sub .., unary_bufs_sub .., binary_bufs_sub .., binary_bufs_sub .., unary_bufs_sub ..⟩
set_option maxRecDepth 8192 in
theorem segAL2_fresh : (segAL2 : List (HloOp τ sig (Elt F))).Forall fun op => op.fresh = ∅ :=
  ⟨rfl, rfl, rfl, rfl, rfl⟩

set_option maxRecDepth 8192 in
theorem segHG2_sub : (segHG2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem segHG2_fresh : (segHG2 : List (HloOp τ sig (Elt F))).Forall fun op => op.fresh = ∅ :=
  ⟨rfl, rfl, rfl, rfl, rfl, rfl, rfl, rfl, rfl⟩

set_option maxRecDepth 8192 in
theorem segMS2_sub : (segMS2 : List (HloOp τ sig (Elt F))).Forall fun op => op.bufs ⊆ tcRefs τ sig :=
  ⟨unary_bufs_sub .., binary_bufs_sub ..⟩
set_option maxRecDepth 8192 in
theorem segMS2_fresh : (segMS2 : List (HloOp τ sig (Elt F))).Forall fun op => op.fresh = ∅ :=
  ⟨rfl, rfl⟩

set_option maxRecDepth 8192 in
theorem segAG2_sub : (segAG2 : List (HloOp τ sig (Elt F))).Forall fun op => op.bufs ⊆ tcRefs τ sig :=
  ⟨nullary_bufs_sub .., unary_bufs_sub .., unary_bufs_sub .., ternary_bufs_sub .., reshape_bufs_sub ..⟩
set_option maxRecDepth 8192 in
theorem segAG2_fresh : (segAG2 : List (HloOp τ sig (Elt F))).Forall fun op => op.fresh = ∅ :=
  ⟨rfl, rfl, rfl, rfl, rfl⟩

set_option maxRecDepth 8192 in
theorem segLN2_a_sub : (segLN2_a : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub ..⟩
set_option maxRecDepth 8192 in
theorem segLN2_a_fresh : (segLN2_a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem segLN2_b_sub : (segLN2_b : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem segLN2_b_fresh : (segLN2_b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem segMM3_sub : (segMM3 : List (HloOp τ sig (Elt F))).Forall fun op => op.bufs ⊆ tcRefs τ sig :=
  binary_bufs_sub ..
set_option maxRecDepth 8192 in
theorem segMM3_fresh : (segMM3 : List (HloOp τ sig (Elt F))).Forall fun op => op.fresh = ∅ :=
  rfl

set_option maxRecDepth 8192 in
theorem segSC3_sub : (segSC3 : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem segSC3_fresh : (segSC3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem segAT3_sub : (segAT3 : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub ..⟩
set_option maxRecDepth 8192 in
theorem segAT3_fresh : (segAT3 : List (HloOp τ sig (Elt F))).Forall fun op => op.fresh = ∅ :=
  ⟨rfl, rfl, rfl, rfl, rfl, rfl, rfl, rfl, rfl, rfl, rfl, rfl⟩

set_option maxRecDepth 8192 in
theorem segDN3_a_sub : (segDN3_a : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub ..⟩
set_option maxRecDepth 8192 in
theorem segDN3_a_fresh : (segDN3_a : List (HloOp τ sig (Elt F))).Forall fun op => op.fresh = ∅ :=
  ⟨rfl, rfl, rfl, rfl, rfl, rfl, rfl, rfl, rfl, rfl, rfl, rfl⟩

set_option maxRecDepth 8192 in
theorem segDN3_b_sub : (segDN3_b : List (HloOp τ sig (Elt F))).Forall fun op => op.bufs ⊆ tcRefs τ sig :=
  binary_bufs_sub ..
set_option maxRecDepth 8192 in
theorem segDN3_b_fresh : (segDN3_b : List (HloOp τ sig (Elt F))).Forall fun op => op.fresh = ∅ :=
  rfl

set_option maxRecDepth 8192 in
theorem segAL3_sub : (segAL3 : List (HloOp τ sig (Elt F))).Forall fun op => op.bufs ⊆ tcRefs τ sig :=
  ⟨nullary_bufs_sub .., unary_bufs_sub .., binary_bufs_sub .., binary_bufs_sub .., unary_bufs_sub ..⟩
set_option maxRecDepth 8192 in
theorem segAL3_fresh : (segAL3 : List (HloOp τ sig (Elt F))).Forall fun op => op.fresh = ∅ :=
  ⟨rfl, rfl, rfl, rfl, rfl⟩

set_option maxRecDepth 8192 in
theorem segHG3_sub : (segHG3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem segHG3_fresh : (segHG3 : List (HloOp τ sig (Elt F))).Forall fun op => op.fresh = ∅ :=
  ⟨rfl, rfl, rfl, rfl, rfl, rfl, rfl, rfl, rfl⟩

set_option maxRecDepth 8192 in
theorem segMS3_sub : (segMS3 : List (HloOp τ sig (Elt F))).Forall fun op => op.bufs ⊆ tcRefs τ sig :=
  ⟨unary_bufs_sub .., binary_bufs_sub ..⟩
set_option maxRecDepth 8192 in
theorem segMS3_fresh : (segMS3 : List (HloOp τ sig (Elt F))).Forall fun op => op.fresh = ∅ :=
  ⟨rfl, rfl⟩

set_option maxRecDepth 8192 in
theorem segAG3_sub : (segAG3 : List (HloOp τ sig (Elt F))).Forall fun op => op.bufs ⊆ tcRefs τ sig :=
  ⟨nullary_bufs_sub .., unary_bufs_sub .., unary_bufs_sub .., ternary_bufs_sub .., nullary_bufs_sub .., binary_bufs_sub .., nullary_bufs_sub .., unary_bufs_sub .., binary_bufs_sub ..⟩
set_option maxRecDepth 8192 in
theorem segAG3_fresh : (segAG3 : List (HloOp τ sig (Elt F))).Forall fun op => op.fresh = ∅ :=
  ⟨rfl, rfl, rfl, rfl, rfl, rfl, rfl, rfl, rfl⟩

set_option maxRecDepth 8192 in
theorem segLN3_sub : (segLN3 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem segLN3_fresh : (segLN3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, segHG1, segSC2, segLN2, segDN3, List.mem_append, or_assoc] at h
    rcases h with h | h | h | h | h | h | h | h | h | h | h | h | h | h | h | h | h | h | h | h | h | h | h | h | h | h | h | h | h | h | h | h
    exacts [List.forall_iff_forall_mem.mp segS0_sub op h,
      List.forall_iff_forall_mem.mp segMM1_sub op h,
      List.forall_iff_forall_mem.mp segSC1_sub op h,
      List.forall_iff_forall_mem.mp segAT1_sub op h,
      List.forall_iff_forall_mem.mp segDN1_sub op h,
      List.forall_iff_forall_mem.mp segAL1_sub op h,
      List.forall_iff_forall_mem.mp segHG1_a_sub op h,
      List.forall_iff_forall_mem.mp segHG1_b_sub op h,
      List.forall_iff_forall_mem.mp segMS1_sub op h,
      List.forall_iff_forall_mem.mp segAG1_sub op h,
      List.forall_iff_forall_mem.mp segLN1_sub op h,
      List.forall_iff_forall_mem.mp segMM2_sub op h,
      List.forall_iff_forall_mem.mp segSC2_a_sub op h,
      List.forall_iff_forall_mem.mp segSC2_b_sub op h,
      List.forall_iff_forall_mem.mp segAT2_sub op h,
      List.forall_iff_forall_mem.mp segDN2_sub op h,
      List.forall_iff_forall_mem.mp segAL2_sub op h,
      List.forall_iff_forall_mem.mp segHG2_sub op h,
      List.forall_iff_forall_mem.mp segMS2_sub op h,
      List.forall_iff_forall_mem.mp segAG2_sub op h,
      List.forall_iff_forall_mem.mp segLN2_a_sub op h,
      List.forall_iff_forall_mem.mp segLN2_b_sub op h,
      List.forall_iff_forall_mem.mp segMM3_sub op h,
      List.forall_iff_forall_mem.mp segSC3_sub op h,
      List.forall_iff_forall_mem.mp segAT3_sub op h,
      List.forall_iff_forall_mem.mp segDN3_a_sub op h,
      List.forall_iff_forall_mem.mp segDN3_b_sub op h,
      List.forall_iff_forall_mem.mp segAL3_sub op h,
      List.forall_iff_forall_mem.mp segHG3_sub op h,
      List.forall_iff_forall_mem.mp segMS3_sub op h,
      List.forall_iff_forall_mem.mp segAG3_sub op h,
      List.forall_iff_forall_mem.mp segLN3_sub op h]

theorem ops_fresh : ∀ op ∈ (ops : List (HloOp τ sig (Elt F))), op.fresh = ∅ := fun op h => by
    simp only [ops, segHG1, segSC2, segLN2, segDN3, List.mem_append, or_assoc] at h
    rcases h with h | h | h | h | h | h | h | h | h | h | h | h | h | h | h | h | h | h | h | h | h | h | h | h | h | h | h | h | h | h | h | h
    exacts [List.forall_iff_forall_mem.mp segS0_fresh op h,
      List.forall_iff_forall_mem.mp segMM1_fresh op h,
      List.forall_iff_forall_mem.mp segSC1_fresh op h,
      List.forall_iff_forall_mem.mp segAT1_fresh op h,
      List.forall_iff_forall_mem.mp segDN1_fresh op h,
      List.forall_iff_forall_mem.mp segAL1_fresh op h,
      List.forall_iff_forall_mem.mp segHG1_a_fresh op h,
      List.forall_iff_forall_mem.mp segHG1_b_fresh op h,
      List.forall_iff_forall_mem.mp segMS1_fresh op h,
      List.forall_iff_forall_mem.mp segAG1_fresh op h,
      List.forall_iff_forall_mem.mp segLN1_fresh op h,
      List.forall_iff_forall_mem.mp segMM2_fresh op h,
      List.forall_iff_forall_mem.mp segSC2_a_fresh op h,
      List.forall_iff_forall_mem.mp segSC2_b_fresh op h,
      List.forall_iff_forall_mem.mp segAT2_fresh op h,
      List.forall_iff_forall_mem.mp segDN2_fresh op h,
      List.forall_iff_forall_mem.mp segAL2_fresh op h,
      List.forall_iff_forall_mem.mp segHG2_fresh op h,
      List.forall_iff_forall_mem.mp segMS2_fresh op h,
      List.forall_iff_forall_mem.mp segAG2_fresh op h,
      List.forall_iff_forall_mem.mp segLN2_a_fresh op h,
      List.forall_iff_forall_mem.mp segLN2_b_fresh op h,
      List.forall_iff_forall_mem.mp segMM3_fresh op h,
      List.forall_iff_forall_mem.mp segSC3_fresh op h,
      List.forall_iff_forall_mem.mp segAT3_fresh op h,
      List.forall_iff_forall_mem.mp segDN3_a_fresh op h,
      List.forall_iff_forall_mem.mp segDN3_b_fresh op h,
      List.forall_iff_forall_mem.mp segAL3_fresh op h,
      List.forall_iff_forall_mem.mp segHG3_fresh op h,
      List.forall_iff_forall_mem.mp segMS3_fresh op h,
      List.forall_iff_forall_mem.mp segAG3_fresh op h,
      List.forall_iff_forall_mem.mp segLN3_fresh op h]

/-- On every device, for any float values, from any memory with zero counters: every weakly fair execution of
    the program terminates, and every buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (Proc.devRef .tc b) :=
  run_seq scopedRefs_eq scopedSems_eq defs main (fun _ => ops) main_eq (fun _ => ops_sub) m ρ (fun _ => ops_fresh)

/-! ## Segment by segment: what each segment computes, and what it leaves alone -/

/-- Two lines folded one after the other are their concatenation folded as one. -/
theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-- A singleton of a reference of a list lies in the list's set of device buffers. -/
theorem wsub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-! ### segS0 -/

/-- The buffers segS0 writes. -/
abbrev segS0_writes : List (Ref sig .tc) :=
  [main_v0, main_v1, main_v2, main_v3]

set_option maxRecDepth 8192 in
theorem segS0_wsub : (segS0 : List (HloOp τ sig (Elt F))).Forall fun op => op.writes ⊆ ((segS0_writes).map (Proc.devRef (τ := τ) .tc)).toFinset :=
  ⟨wsub_of_mem (by decide), wsub_of_mem (by decide), wsub_of_mem (by decide), wsub_of_mem (by decide)⟩

/-- segS0 leaves every buffer it does not write as it was. -/
theorem segS0_keep (W : Valuation τ sig (Elt F)) {r : Ref sig .tc} (hr : r ∉ segS0_writes) :
    StableHlo.after segS0 W (Proc.devRef .tc r) = W (Proc.devRef .tc r) :=
  after_of_writes_sub segS0 W segS0_wsub hr

theorem keep_S0_main_arg0 (W : Valuation τ sig (Elt F)) : StableHlo.after segS0 W (Proc.devRef .tc main_arg0) = W (Proc.devRef .tc main_arg0) := segS0_keep W (by decide)
theorem keep_S0_main_arg2 (W : Valuation τ sig (Elt F)) : StableHlo.after segS0 W (Proc.devRef .tc main_arg2) = W (Proc.devRef .tc main_arg2) := segS0_keep W (by decide)
theorem keep_S0_main_arg3 (W : Valuation τ sig (Elt F)) : StableHlo.after segS0 W (Proc.devRef .tc main_arg3) = W (Proc.devRef .tc main_arg3) := segS0_keep W (by decide)
theorem keep_S0_main_arg4 (W : Valuation τ sig (Elt F)) : StableHlo.after segS0 W (Proc.devRef .tc main_arg4) = W (Proc.devRef .tc main_arg4) := segS0_keep W (by decide)
theorem keep_S0_main_arg5 (W : Valuation τ sig (Elt F)) : StableHlo.after segS0 W (Proc.devRef .tc main_arg5) = W (Proc.devRef .tc main_arg5) := segS0_keep W (by decide)
theorem keep_S0_main_arg6 (W : Valuation τ sig (Elt F)) : StableHlo.after segS0 W (Proc.devRef .tc main_arg6) = W (Proc.devRef .tc main_arg6) := segS0_keep W (by decide)
theorem keep_S0_main_arg7 (W : Valuation τ sig (Elt F)) : StableHlo.after segS0 W (Proc.devRef .tc main_arg7) = W (Proc.devRef .tc main_arg7) := segS0_keep W (by decide)
theorem keep_S0_main_arg8 (W : Valuation τ sig (Elt F)) : StableHlo.after segS0 W (Proc.devRef .tc main_arg8) = W (Proc.devRef .tc main_arg8) := segS0_keep W (by decide)
theorem keep_S0_main_arg9 (W : Valuation τ sig (Elt F)) : StableHlo.after segS0 W (Proc.devRef .tc main_arg9) = W (Proc.devRef .tc main_arg9) := segS0_keep W (by decide)
theorem keep_S0_main_arg10 (W : Valuation τ sig (Elt F)) : StableHlo.after segS0 W (Proc.devRef .tc main_arg10) = W (Proc.devRef .tc main_arg10) := segS0_keep W (by decide)
theorem keep_S0_main_arg11 (W : Valuation τ sig (Elt F)) : StableHlo.after segS0 W (Proc.devRef .tc main_arg11) = W (Proc.devRef .tc main_arg11) := segS0_keep W (by decide)
theorem keep_S0_main_arg12 (W : Valuation τ sig (Elt F)) : StableHlo.after segS0 W (Proc.devRef .tc main_arg12) = W (Proc.devRef .tc main_arg12) := segS0_keep W (by decide)
theorem keep_S0_main_arg13 (W : Valuation τ sig (Elt F)) : StableHlo.after segS0 W (Proc.devRef .tc main_arg13) = W (Proc.devRef .tc main_arg13) := segS0_keep W (by decide)
theorem keep_S0_main_arg14 (W : Valuation τ sig (Elt F)) : StableHlo.after segS0 W (Proc.devRef .tc main_arg14) = W (Proc.devRef .tc main_arg14) := segS0_keep W (by decide)
theorem keep_S0_main_arg15 (W : Valuation τ sig (Elt F)) : StableHlo.after segS0 W (Proc.devRef .tc main_arg15) = W (Proc.devRef .tc main_arg15) := segS0_keep W (by decide)
theorem keep_S0_main_arg16 (W : Valuation τ sig (Elt F)) : StableHlo.after segS0 W (Proc.devRef .tc main_arg16) = W (Proc.devRef .tc main_arg16) := segS0_keep W (by decide)
theorem keep_S0_main_arg17 (W : Valuation τ sig (Elt F)) : StableHlo.after segS0 W (Proc.devRef .tc main_arg17) = W (Proc.devRef .tc main_arg17) := segS0_keep W (by decide)
theorem keep_S0_main_arg18 (W : Valuation τ sig (Elt F)) : StableHlo.after segS0 W (Proc.devRef .tc main_arg18) = W (Proc.devRef .tc main_arg18) := segS0_keep W (by decide)
theorem keep_S0_main_arg19 (W : Valuation τ sig (Elt F)) : StableHlo.after segS0 W (Proc.devRef .tc main_arg19) = W (Proc.devRef .tc main_arg19) := segS0_keep W (by decide)
theorem keep_S0_main_arg20 (W : Valuation τ sig (Elt F)) : StableHlo.after segS0 W (Proc.devRef .tc main_arg20) = W (Proc.devRef .tc main_arg20) := segS0_keep W (by decide)

set_option maxRecDepth 16384 in
set_option maxHeartbeats 400000 in
theorem segS0_main_v1 (W : Valuation τ sig (Elt F)) :
    StableHlo.after segS0 W (Proc.devRef .tc main_v1) = Cert.KernelIdeal.Stages.st0_v1 (W (Proc.devRef .tc main_arg1)) := by
  after_results_simp
  rfl

set_option maxRecDepth 16384 in
set_option maxHeartbeats 400000 in
theorem segS0_main_v3 (W : Valuation τ sig (Elt F)) :
    StableHlo.after segS0 W (Proc.devRef .tc main_v3) = Cert.KernelIdeal.Stages.st0_v3 (W (Proc.devRef .tc main_arg1)) := by
  after_results_simp
  rfl

/-! ### segMM1 -/

/-- The buffers segMM1 writes. -/
abbrev segMM1_writes : List (Ref sig .tc) :=
  [main_v4]

set_option maxRecDepth 8192 in
theorem segMM1_wsub : (segMM1 : List (HloOp τ sig (Elt F))).Forall fun op => op.writes ⊆ ((segMM1_writes).map (Proc.devRef (τ := τ) .tc)).toFinset :=
  wsub_of_mem (by decide)

/-- segMM1 leaves every buffer it does not write as it was. -/
theorem segMM1_keep (W : Valuation τ sig (Elt F)) {r : Ref sig .tc} (hr : r ∉ segMM1_writes) :
    StableHlo.after segMM1 W (Proc.devRef .tc r) = W (Proc.devRef .tc r) :=
  after_of_writes_sub segMM1 W segMM1_wsub hr

theorem keep_MM1_main_arg2 (W : Valuation τ sig (Elt F)) : StableHlo.after segMM1 W (Proc.devRef .tc main_arg2) = W (Proc.devRef .tc main_arg2) := segMM1_keep W (by decide)
theorem keep_MM1_main_arg4 (W : Valuation τ sig (Elt F)) : StableHlo.after segMM1 W (Proc.devRef .tc main_arg4) = W (Proc.devRef .tc main_arg4) := segMM1_keep W (by decide)
theorem keep_MM1_main_arg5 (W : Valuation τ sig (Elt F)) : StableHlo.after segMM1 W (Proc.devRef .tc main_arg5) = W (Proc.devRef .tc main_arg5) := segMM1_keep W (by decide)
theorem keep_MM1_main_arg6 (W : Valuation τ sig (Elt F)) : StableHlo.after segMM1 W (Proc.devRef .tc main_arg6) = W (Proc.devRef .tc main_arg6) := segMM1_keep W (by decide)
theorem keep_MM1_main_arg7 (W : Valuation τ sig (Elt F)) : StableHlo.after segMM1 W (Proc.devRef .tc main_arg7) = W (Proc.devRef .tc main_arg7) := segMM1_keep W (by decide)
theorem keep_MM1_main_arg8 (W : Valuation τ sig (Elt F)) : StableHlo.after segMM1 W (Proc.devRef .tc main_arg8) = W (Proc.devRef .tc main_arg8) := segMM1_keep W (by decide)
theorem keep_MM1_main_arg9 (W : Valuation τ sig (Elt F)) : StableHlo.after segMM1 W (Proc.devRef .tc main_arg9) = W (Proc.devRef .tc main_arg9) := segMM1_keep W (by decide)
theorem keep_MM1_main_arg10 (W : Valuation τ sig (Elt F)) : StableHlo.after segMM1 W (Proc.devRef .tc main_arg10) = W (Proc.devRef .tc main_arg10) := segMM1_keep W (by decide)
theorem keep_MM1_main_arg11 (W : Valuation τ sig (Elt F)) : StableHlo.after segMM1 W (Proc.devRef .tc main_arg11) = W (Proc.devRef .tc main_arg11) := segMM1_keep W (by decide)
theorem keep_MM1_main_arg12 (W : Valuation τ sig (Elt F)) : StableHlo.after segMM1 W (Proc.devRef .tc main_arg12) = W (Proc.devRef .tc main_arg12) := segMM1_keep W (by decide)
theorem keep_MM1_main_arg13 (W : Valuation τ sig (Elt F)) : StableHlo.after segMM1 W (Proc.devRef .tc main_arg13) = W (Proc.devRef .tc main_arg13) := segMM1_keep W (by decide)
theorem keep_MM1_main_arg14 (W : Valuation τ sig (Elt F)) : StableHlo.after segMM1 W (Proc.devRef .tc main_arg14) = W (Proc.devRef .tc main_arg14) := segMM1_keep W (by decide)
theorem keep_MM1_main_arg15 (W : Valuation τ sig (Elt F)) : StableHlo.after segMM1 W (Proc.devRef .tc main_arg15) = W (Proc.devRef .tc main_arg15) := segMM1_keep W (by decide)
theorem keep_MM1_main_arg16 (W : Valuation τ sig (Elt F)) : StableHlo.after segMM1 W (Proc.devRef .tc main_arg16) = W (Proc.devRef .tc main_arg16) := segMM1_keep W (by decide)
theorem keep_MM1_main_arg17 (W : Valuation τ sig (Elt F)) : StableHlo.after segMM1 W (Proc.devRef .tc main_arg17) = W (Proc.devRef .tc main_arg17) := segMM1_keep W (by decide)
theorem keep_MM1_main_arg18 (W : Valuation τ sig (Elt F)) : StableHlo.after segMM1 W (Proc.devRef .tc main_arg18) = W (Proc.devRef .tc main_arg18) := segMM1_keep W (by decide)
theorem keep_MM1_main_arg19 (W : Valuation τ sig (Elt F)) : StableHlo.after segMM1 W (Proc.devRef .tc main_arg19) = W (Proc.devRef .tc main_arg19) := segMM1_keep W (by decide)
theorem keep_MM1_main_arg20 (W : Valuation τ sig (Elt F)) : StableHlo.after segMM1 W (Proc.devRef .tc main_arg20) = W (Proc.devRef .tc main_arg20) := segMM1_keep W (by decide)
theorem keep_MM1_main_v1 (W : Valuation τ sig (Elt F)) : StableHlo.after segMM1 W (Proc.devRef .tc main_v1) = W (Proc.devRef .tc main_v1) := segMM1_keep W (by decide)
theorem keep_MM1_main_v3 (W : Valuation τ sig (Elt F)) : StableHlo.after segMM1 W (Proc.devRef .tc main_v3) = W (Proc.devRef .tc main_v3) := segMM1_keep W (by decide)

/-- the dense product of the node features with the layer's weight. -/
def refMM1 (x : (⟨S50000x384, .f32⟩ : BufTy).Contents (Elt F)) (w : (⟨S384x256, .f32⟩ : BufTy).Contents (Elt F)) : (⟨S50000x256, .f32⟩ : BufTy).Contents (Elt F) :=
  (((fun l r => Host.dotGeneral dot_S50000x384_S384x256_S50000x256_1_0_0_1_n_n none l r) : (⟨S50000x384, .f32⟩ : BufTy).Contents (Elt F) → (⟨S384x256, .f32⟩ : BufTy).Contents (Elt F) → (⟨S50000x256, .f32⟩ : BufTy).Contents (Elt F)) x w)

set_option maxRecDepth 16384 in
set_option maxHeartbeats 400000 in
theorem segMM1_main_v4 (W : Valuation τ sig (Elt F)) :
    StableHlo.after segMM1 W (Proc.devRef .tc main_v4) = refMM1 (W (Proc.devRef .tc main_arg0)) (W (Proc.devRef .tc main_arg3)) := by
  after_results_simp
  rfl

/-! ### segSC1 -/

/-- The buffers segSC1 writes. -/
abbrev segSC1_writes : List (Ref sig .tc) :=
  [main_v5, main_v6, main_v7, main_cst, main_v8, main_v9, main_v10, main_cst_0, main_v11, main_c, main_v12, main_v13, main_c_1, main_v14, main_v15, main_v16, main_v17, main_v18, main_c_2, main_v19, main_v20, main_c_3, main_v21, main_v22, main_v23, main_v24, main_v25]

set_option maxRecDepth 8192 in
theorem segSC1_wsub : (segSC1 : List (HloOp τ sig (Elt F))).Forall fun op => op.writes ⊆ ((segSC1_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segSC1 leaves every buffer it does not write as it was. -/
theorem segSC1_keep (W : Valuation τ sig (Elt F)) {r : Ref sig .tc} (hr : r ∉ segSC1_writes) :
    StableHlo.after segSC1 W (Proc.devRef .tc r) = W (Proc.devRef .tc r) :=
  after_of_writes_sub segSC1 W segSC1_wsub hr

theorem keep_SC1_main_arg2 (W : Valuation τ sig (Elt F)) : StableHlo.after segSC1 W (Proc.devRef .tc main_arg2) = W (Proc.devRef .tc main_arg2) := segSC1_keep W (by decide)
theorem keep_SC1_main_arg6 (W : Valuation τ sig (Elt F)) : StableHlo.after segSC1 W (Proc.devRef .tc main_arg6) = W (Proc.devRef .tc main_arg6) := segSC1_keep W (by decide)
theorem keep_SC1_main_arg7 (W : Valuation τ sig (Elt F)) : StableHlo.after segSC1 W (Proc.devRef .tc main_arg7) = W (Proc.devRef .tc main_arg7) := segSC1_keep W (by decide)
theorem keep_SC1_main_arg8 (W : Valuation τ sig (Elt F)) : StableHlo.after segSC1 W (Proc.devRef .tc main_arg8) = W (Proc.devRef .tc main_arg8) := segSC1_keep W (by decide)
theorem keep_SC1_main_arg9 (W : Valuation τ sig (Elt F)) : StableHlo.after segSC1 W (Proc.devRef .tc main_arg9) = W (Proc.devRef .tc main_arg9) := segSC1_keep W (by decide)
theorem keep_SC1_main_arg10 (W : Valuation τ sig (Elt F)) : StableHlo.after segSC1 W (Proc.devRef .tc main_arg10) = W (Proc.devRef .tc main_arg10) := segSC1_keep W (by decide)
theorem keep_SC1_main_arg11 (W : Valuation τ sig (Elt F)) : StableHlo.after segSC1 W (Proc.devRef .tc main_arg11) = W (Proc.devRef .tc main_arg11) := segSC1_keep W (by decide)
theorem keep_SC1_main_arg12 (W : Valuation τ sig (Elt F)) : StableHlo.after segSC1 W (Proc.devRef .tc main_arg12) = W (Proc.devRef .tc main_arg12) := segSC1_keep W (by decide)
theorem keep_SC1_main_arg13 (W : Valuation τ sig (Elt F)) : StableHlo.after segSC1 W (Proc.devRef .tc main_arg13) = W (Proc.devRef .tc main_arg13) := segSC1_keep W (by decide)
theorem keep_SC1_main_arg14 (W : Valuation τ sig (Elt F)) : StableHlo.after segSC1 W (Proc.devRef .tc main_arg14) = W (Proc.devRef .tc main_arg14) := segSC1_keep W (by decide)
theorem keep_SC1_main_arg15 (W : Valuation τ sig (Elt F)) : StableHlo.after segSC1 W (Proc.devRef .tc main_arg15) = W (Proc.devRef .tc main_arg15) := segSC1_keep W (by decide)
theorem keep_SC1_main_arg16 (W : Valuation τ sig (Elt F)) : StableHlo.after segSC1 W (Proc.devRef .tc main_arg16) = W (Proc.devRef .tc main_arg16) := segSC1_keep W (by decide)
theorem keep_SC1_main_arg17 (W : Valuation τ sig (Elt F)) : StableHlo.after segSC1 W (Proc.devRef .tc main_arg17) = W (Proc.devRef .tc main_arg17) := segSC1_keep W (by decide)
theorem keep_SC1_main_arg18 (W : Valuation τ sig (Elt F)) : StableHlo.after segSC1 W (Proc.devRef .tc main_arg18) = W (Proc.devRef .tc main_arg18) := segSC1_keep W (by decide)
theorem keep_SC1_main_arg19 (W : Valuation τ sig (Elt F)) : StableHlo.after segSC1 W (Proc.devRef .tc main_arg19) = W (Proc.devRef .tc main_arg19) := segSC1_keep W (by decide)
theorem keep_SC1_main_arg20 (W : Valuation τ sig (Elt F)) : StableHlo.after segSC1 W (Proc.devRef .tc main_arg20) = W (Proc.devRef .tc main_arg20) := segSC1_keep W (by decide)
theorem keep_SC1_main_v1 (W : Valuation τ sig (Elt F)) : StableHlo.after segSC1 W (Proc.devRef .tc main_v1) = W (Proc.devRef .tc main_v1) := segSC1_keep W (by decide)
theorem keep_SC1_main_v3 (W : Valuation τ sig (Elt F)) : StableHlo.after segSC1 W (Proc.devRef .tc main_v3) = W (Proc.devRef .tc main_v3) := segSC1_keep W (by decide)

set_option maxRecDepth 16384 in
set_option maxHeartbeats 2700000 in
theorem segSC1_main_v5 (W : Valuation τ sig (Elt F)) :
    StableHlo.after segSC1 W (Proc.devRef .tc main_v5) = Cert.KernelIdeal.Stages.st1_v6 (W (Proc.devRef .tc main_v4)) := by
  after_results_simp
  rfl

set_option maxRecDepth 16384 in
set_option maxHeartbeats 2700000 in
theorem segSC1_main_v18 (W : Valuation τ sig (Elt F)) :
    StableHlo.after segSC1 W (Proc.devRef .tc main_v18) = Cert.KernelIdeal.Stages.st1_v19 (W (Proc.devRef .tc main_v4)) (W (Proc.devRef .tc main_arg4)) (W (Proc.devRef .tc main_v1)) := by
  after_results_simp
  rfl

set_option maxRecDepth 16384 in
set_option maxHeartbeats 2700000 in
theorem segSC1_main_v25 (W : Valuation τ sig (Elt F)) :
    StableHlo.after segSC1 W (Proc.devRef .tc main_v25) = Cert.KernelIdeal.Stages.st1_v26 (W (Proc.devRef .tc main_v4)) (W (Proc.devRef .tc main_arg5)) (W (Proc.devRef .tc main_v3)) := by
  after_results_simp
  rfl

/-! ### segAT1 -/

/-- The buffers segAT1 writes. -/
abbrev segAT1_writes : List (Ref sig .tc) :=
  [main_v26, main_cst_4, main_call0_cst, main_call0_v0, main_call0_v1, main_call0_v2, main_call0_v3, main_call0_v4, main_v27, main_v28, main_v29, main_v30, main_v31]

set_option maxRecDepth 8192 in
theorem segAT1_wsub : (segAT1 : List (HloOp τ sig (Elt F))).Forall fun op => op.writes ⊆ ((segAT1_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segAT1 leaves every buffer it does not write as it was. -/
theorem segAT1_keep (W : Valuation τ sig (Elt F)) {r : Ref sig .tc} (hr : r ∉ segAT1_writes) :
    StableHlo.after segAT1 W (Proc.devRef .tc r) = W (Proc.devRef .tc r) :=
  after_of_writes_sub segAT1 W segAT1_wsub hr

theorem keep_AT1_main_arg2 (W : Valuation τ sig (Elt F)) : StableHlo.after segAT1 W (Proc.devRef .tc main_arg2) = W (Proc.devRef .tc main_arg2) := segAT1_keep W (by decide)
theorem keep_AT1_main_arg6 (W : Valuation τ sig (Elt F)) : StableHlo.after segAT1 W (Proc.devRef .tc main_arg6) = W (Proc.devRef .tc main_arg6) := segAT1_keep W (by decide)
theorem keep_AT1_main_arg7 (W : Valuation τ sig (Elt F)) : StableHlo.after segAT1 W (Proc.devRef .tc main_arg7) = W (Proc.devRef .tc main_arg7) := segAT1_keep W (by decide)
theorem keep_AT1_main_arg8 (W : Valuation τ sig (Elt F)) : StableHlo.after segAT1 W (Proc.devRef .tc main_arg8) = W (Proc.devRef .tc main_arg8) := segAT1_keep W (by decide)
theorem keep_AT1_main_arg9 (W : Valuation τ sig (Elt F)) : StableHlo.after segAT1 W (Proc.devRef .tc main_arg9) = W (Proc.devRef .tc main_arg9) := segAT1_keep W (by decide)
theorem keep_AT1_main_arg10 (W : Valuation τ sig (Elt F)) : StableHlo.after segAT1 W (Proc.devRef .tc main_arg10) = W (Proc.devRef .tc main_arg10) := segAT1_keep W (by decide)
theorem keep_AT1_main_arg11 (W : Valuation τ sig (Elt F)) : StableHlo.after segAT1 W (Proc.devRef .tc main_arg11) = W (Proc.devRef .tc main_arg11) := segAT1_keep W (by decide)
theorem keep_AT1_main_arg12 (W : Valuation τ sig (Elt F)) : StableHlo.after segAT1 W (Proc.devRef .tc main_arg12) = W (Proc.devRef .tc main_arg12) := segAT1_keep W (by decide)
theorem keep_AT1_main_arg13 (W : Valuation τ sig (Elt F)) : StableHlo.after segAT1 W (Proc.devRef .tc main_arg13) = W (Proc.devRef .tc main_arg13) := segAT1_keep W (by decide)
theorem keep_AT1_main_arg14 (W : Valuation τ sig (Elt F)) : StableHlo.after segAT1 W (Proc.devRef .tc main_arg14) = W (Proc.devRef .tc main_arg14) := segAT1_keep W (by decide)
theorem keep_AT1_main_arg15 (W : Valuation τ sig (Elt F)) : StableHlo.after segAT1 W (Proc.devRef .tc main_arg15) = W (Proc.devRef .tc main_arg15) := segAT1_keep W (by decide)
theorem keep_AT1_main_arg16 (W : Valuation τ sig (Elt F)) : StableHlo.after segAT1 W (Proc.devRef .tc main_arg16) = W (Proc.devRef .tc main_arg16) := segAT1_keep W (by decide)
theorem keep_AT1_main_arg17 (W : Valuation τ sig (Elt F)) : StableHlo.after segAT1 W (Proc.devRef .tc main_arg17) = W (Proc.devRef .tc main_arg17) := segAT1_keep W (by decide)
theorem keep_AT1_main_arg18 (W : Valuation τ sig (Elt F)) : StableHlo.after segAT1 W (Proc.devRef .tc main_arg18) = W (Proc.devRef .tc main_arg18) := segAT1_keep W (by decide)
theorem keep_AT1_main_arg19 (W : Valuation τ sig (Elt F)) : StableHlo.after segAT1 W (Proc.devRef .tc main_arg19) = W (Proc.devRef .tc main_arg19) := segAT1_keep W (by decide)
theorem keep_AT1_main_arg20 (W : Valuation τ sig (Elt F)) : StableHlo.after segAT1 W (Proc.devRef .tc main_arg20) = W (Proc.devRef .tc main_arg20) := segAT1_keep W (by decide)
theorem keep_AT1_main_v1 (W : Valuation τ sig (Elt F)) : StableHlo.after segAT1 W (Proc.devRef .tc main_v1) = W (Proc.devRef .tc main_v1) := segAT1_keep W (by decide)
theorem keep_AT1_main_v3 (W : Valuation τ sig (Elt F)) : StableHlo.after segAT1 W (Proc.devRef .tc main_v3) = W (Proc.devRef .tc main_v3) := segAT1_keep W (by decide)
theorem keep_AT1_main_v5 (W : Valuation τ sig (Elt F)) : StableHlo.after segAT1 W (Proc.devRef .tc main_v5) = W (Proc.devRef .tc main_v5) := segAT1_keep W (by decide)

/-- the leaky rectifier with slope 0.2, elementwise. -/
def refLeaky1 (z : (⟨S500000x4, .f32⟩ : BufTy).Contents (Elt F)) : (⟨S500000x4, .f32⟩ : BufTy).Contents (Elt F) :=
  ((select : (⟨S500000x4, .i1⟩ : BufTy).Contents (Elt F) → (⟨S500000x4, .f32⟩ : BufTy).Contents (Elt F) → (⟨S500000x4, .f32⟩ : BufTy).Contents (Elt F) → (⟨S500000x4, .f32⟩ : BufTy).Contents (Elt F)) (((cmpf .oge) : (⟨S500000x4, .f32⟩ : BufTy).Contents (Elt F) → (⟨S500000x4, .f32⟩ : BufTy).Contents (Elt F) → (⟨S500000x4, .i1⟩ : BufTy).Contents (Elt F)) z (((broadcastInDim S500000x4 ![] bcast_S_S500000x4) : (⟨S_, .f32⟩ : BufTy).Contents (Elt F) → (⟨S500000x4, .f32⟩ : BufTy).Contents (Elt F)) ((constant S_ .f32 0x00000000#32) : (⟨S_, .f32⟩ : BufTy).Contents (Elt F)))) z ((mulf : (⟨S500000x4, .f32⟩ : BufTy).Contents (Elt F) → (⟨S500000x4, .f32⟩ : BufTy).Contents (Elt F) → (⟨S500000x4, .f32⟩ : BufTy).Contents (Elt F)) (((broadcastInDim S500000x4 ![] bcast_S_S500000x4) : (⟨S_, .f32⟩ : BufTy).Contents (Elt F) → (⟨S500000x4, .f32⟩ : BufTy).Contents (Elt F)) ((id : (⟨S_, .f32⟩ : BufTy).Contents (Elt F) → (⟨S_, .f32⟩ : BufTy).Contents (Elt F)) ((constant S_ .f32 0x3E4CCCCD#32) : (⟨S_, .f32⟩ : BufTy).Contents (Elt F)))) z))

/-- the exponential of the rectified score sum times the edge weight (given as a column) broadcast over the heads. -/
def refAT1 (ssg : (⟨S500000x4, .f32⟩ : BufTy).Contents (Elt F)) (sdg : (⟨S500000x4, .f32⟩ : BufTy).Contents (Elt F)) (ew2 : (⟨S500000x1, .f32⟩ : BufTy).Contents (Elt F)) : (⟨S500000x4, .f32⟩ : BufTy).Contents (Elt F) :=
  ((Host.exp : (⟨S500000x4, .f32⟩ : BufTy).Contents (Elt F) → (⟨S500000x4, .f32⟩ : BufTy).Contents (Elt F)) ((mulf : (⟨S500000x4, .f32⟩ : BufTy).Contents (Elt F) → (⟨S500000x4, .f32⟩ : BufTy).Contents (Elt F) → (⟨S500000x4, .f32⟩ : BufTy).Contents (Elt F)) (refLeaky1 ((addf : (⟨S500000x4, .f32⟩ : BufTy).Contents (Elt F) → (⟨S500000x4, .f32⟩ : BufTy).Contents (Elt F) → (⟨S500000x4, .f32⟩ : BufTy).Contents (Elt F)) ssg sdg)) ((broadcastInDim S500000x4 ![0, 1] bcast_S500000x1_S500000x4_0_1 : (⟨S500000x1, .f32⟩ : BufTy).Contents (Elt F) → (⟨S500000x4, .f32⟩ : BufTy).Contents (Elt F)) ew2)))

set_option maxRecDepth 16384 in
set_option maxHeartbeats 1300000 in
theorem segAT1_main_v31 (W : Valuation τ sig (Elt F)) :
    StableHlo.after segAT1 W (Proc.devRef .tc main_v31) = refAT1 (W (Proc.devRef .tc main_v18)) (W (Proc.devRef .tc main_v25)) ((broadcastInDim S500000x1 ![0] bcast_S500000_S500000x1_0 : (⟨S500000, .f32⟩ : BufTy).Contents (Elt F) → (⟨S500000x1, .f32⟩ : BufTy).Contents (Elt F)) (W (Proc.devRef .tc main_arg2))) := by
  after_results_simp
  rfl

/-! ### segDN1 -/

/-- The buffers segDN1 writes. -/
abbrev segDN1_writes : List (Ref sig .tc) :=
  [main_cst_5, main_v32, main_v33, main_v34, main_c_6, main_v35, main_v36, main_c_7, main_v37, main_v38, main_v39, main_v40, main_v41]

set_option maxRecDepth 8192 in
theorem segDN1_wsub : (segDN1 : List (HloOp τ sig (Elt F))).Forall fun op => op.writes ⊆ ((segDN1_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segDN1 leaves every buffer it does not write as it was. -/
theorem segDN1_keep (W : Valuation τ sig (Elt F)) {r : Ref sig .tc} (hr : r ∉ segDN1_writes) :
    StableHlo.after segDN1 W (Proc.devRef .tc r) = W (Proc.devRef .tc r) :=
  after_of_writes_sub segDN1 W segDN1_wsub hr

theorem keep_DN1_main_arg2 (W : Valuation τ sig (Elt F)) : StableHlo.after segDN1 W (Proc.devRef .tc main_arg2) = W (Proc.devRef .tc main_arg2) := segDN1_keep W (by decide)
theorem keep_DN1_main_arg6 (W : Valuation τ sig (Elt F)) : StableHlo.after segDN1 W (Proc.devRef .tc main_arg6) = W (Proc.devRef .tc main_arg6) := segDN1_keep W (by decide)
theorem keep_DN1_main_arg7 (W : Valuation τ sig (Elt F)) : StableHlo.after segDN1 W (Proc.devRef .tc main_arg7) = W (Proc.devRef .tc main_arg7) := segDN1_keep W (by decide)
theorem keep_DN1_main_arg8 (W : Valuation τ sig (Elt F)) : StableHlo.after segDN1 W (Proc.devRef .tc main_arg8) = W (Proc.devRef .tc main_arg8) := segDN1_keep W (by decide)
theorem keep_DN1_main_arg9 (W : Valuation τ sig (Elt F)) : StableHlo.after segDN1 W (Proc.devRef .tc main_arg9) = W (Proc.devRef .tc main_arg9) := segDN1_keep W (by decide)
theorem keep_DN1_main_arg10 (W : Valuation τ sig (Elt F)) : StableHlo.after segDN1 W (Proc.devRef .tc main_arg10) = W (Proc.devRef .tc main_arg10) := segDN1_keep W (by decide)
theorem keep_DN1_main_arg11 (W : Valuation τ sig (Elt F)) : StableHlo.after segDN1 W (Proc.devRef .tc main_arg11) = W (Proc.devRef .tc main_arg11) := segDN1_keep W (by decide)
theorem keep_DN1_main_arg12 (W : Valuation τ sig (Elt F)) : StableHlo.after segDN1 W (Proc.devRef .tc main_arg12) = W (Proc.devRef .tc main_arg12) := segDN1_keep W (by decide)
theorem keep_DN1_main_arg13 (W : Valuation τ sig (Elt F)) : StableHlo.after segDN1 W (Proc.devRef .tc main_arg13) = W (Proc.devRef .tc main_arg13) := segDN1_keep W (by decide)
theorem keep_DN1_main_arg14 (W : Valuation τ sig (Elt F)) : StableHlo.after segDN1 W (Proc.devRef .tc main_arg14) = W (Proc.devRef .tc main_arg14) := segDN1_keep W (by decide)
theorem keep_DN1_main_arg15 (W : Valuation τ sig (Elt F)) : StableHlo.after segDN1 W (Proc.devRef .tc main_arg15) = W (Proc.devRef .tc main_arg15) := segDN1_keep W (by decide)
theorem keep_DN1_main_arg16 (W : Valuation τ sig (Elt F)) : StableHlo.after segDN1 W (Proc.devRef .tc main_arg16) = W (Proc.devRef .tc main_arg16) := segDN1_keep W (by decide)
theorem keep_DN1_main_arg17 (W : Valuation τ sig (Elt F)) : StableHlo.after segDN1 W (Proc.devRef .tc main_arg17) = W (Proc.devRef .tc main_arg17) := segDN1_keep W (by decide)
theorem keep_DN1_main_arg18 (W : Valuation τ sig (Elt F)) : StableHlo.after segDN1 W (Proc.devRef .tc main_arg18) = W (Proc.devRef .tc main_arg18) := segDN1_keep W (by decide)
theorem keep_DN1_main_arg19 (W : Valuation τ sig (Elt F)) : StableHlo.after segDN1 W (Proc.devRef .tc main_arg19) = W (Proc.devRef .tc main_arg19) := segDN1_keep W (by decide)
theorem keep_DN1_main_arg20 (W : Valuation τ sig (Elt F)) : StableHlo.after segDN1 W (Proc.devRef .tc main_arg20) = W (Proc.devRef .tc main_arg20) := segDN1_keep W (by decide)
theorem keep_DN1_main_v1 (W : Valuation τ sig (Elt F)) : StableHlo.after segDN1 W (Proc.devRef .tc main_v1) = W (Proc.devRef .tc main_v1) := segDN1_keep W (by decide)
theorem keep_DN1_main_v3 (W : Valuation τ sig (Elt F)) : StableHlo.after segDN1 W (Proc.devRef .tc main_v3) = W (Proc.devRef .tc main_v3) := segDN1_keep W (by decide)
theorem keep_DN1_main_v5 (W : Valuation τ sig (Elt F)) : StableHlo.after segDN1 W (Proc.devRef .tc main_v5) = W (Proc.devRef .tc main_v5) := segDN1_keep W (by decide)
theorem keep_DN1_main_v31 (W : Valuation τ sig (Elt F)) : StableHlo.after segDN1 W (Proc.devRef .tc main_v31) = W (Proc.devRef .tc main_v31) := segDN1_keep W (by decide)

set_option maxRecDepth 16384 in
set_option maxHeartbeats 1300000 in
theorem segDN1_main_v41 (W : Valuation τ sig (Elt F)) :
    StableHlo.after segDN1 W (Proc.devRef .tc main_v41) = Cert.KernelIdeal.Stages.st2_v37 (W (Proc.devRef .tc main_v3)) (W (Proc.devRef .tc main_v31)) := by
  after_results_simp
  rfl

/-! ### segAL1 -/

/-- The buffers segAL1 writes. -/
abbrev segAL1_writes : List (Ref sig .tc) :=
  [main_cst_8, main_v42, main_v43, main_v44, main_v45]

set_option maxRecDepth 8192 in
theorem segAL1_wsub : (segAL1 : List (HloOp τ sig (Elt F))).Forall fun op => op.writes ⊆ ((segAL1_writes).map (Proc.devRef (τ := τ) .tc)).toFinset :=
  ⟨wsub_of_mem (by decide), wsub_of_mem (by decide), wsub_of_mem (by decide), wsub_of_mem (by decide), wsub_of_mem (by decide)⟩

/-- segAL1 leaves every buffer it does not write as it was. -/
theorem segAL1_keep (W : Valuation τ sig (Elt F)) {r : Ref sig .tc} (hr : r ∉ segAL1_writes) :
    StableHlo.after segAL1 W (Proc.devRef .tc r) = W (Proc.devRef .tc r) :=
  after_of_writes_sub segAL1 W segAL1_wsub hr

theorem keep_AL1_main_arg2 (W : Valuation τ sig (Elt F)) : StableHlo.after segAL1 W (Proc.devRef .tc main_arg2) = W (Proc.devRef .tc main_arg2) := segAL1_keep W (by decide)
theorem keep_AL1_main_arg6 (W : Valuation τ sig (Elt F)) : StableHlo.after segAL1 W (Proc.devRef .tc main_arg6) = W (Proc.devRef .tc main_arg6) := segAL1_keep W (by decide)
theorem keep_AL1_main_arg7 (W : Valuation τ sig (Elt F)) : StableHlo.after segAL1 W (Proc.devRef .tc main_arg7) = W (Proc.devRef .tc main_arg7) := segAL1_keep W (by decide)
theorem keep_AL1_main_arg8 (W : Valuation τ sig (Elt F)) : StableHlo.after segAL1 W (Proc.devRef .tc main_arg8) = W (Proc.devRef .tc main_arg8) := segAL1_keep W (by decide)
theorem keep_AL1_main_arg9 (W : Valuation τ sig (Elt F)) : StableHlo.after segAL1 W (Proc.devRef .tc main_arg9) = W (Proc.devRef .tc main_arg9) := segAL1_keep W (by decide)
theorem keep_AL1_main_arg10 (W : Valuation τ sig (Elt F)) : StableHlo.after segAL1 W (Proc.devRef .tc main_arg10) = W (Proc.devRef .tc main_arg10) := segAL1_keep W (by decide)
theorem keep_AL1_main_arg11 (W : Valuation τ sig (Elt F)) : StableHlo.after segAL1 W (Proc.devRef .tc main_arg11) = W (Proc.devRef .tc main_arg11) := segAL1_keep W (by decide)
theorem keep_AL1_main_arg12 (W : Valuation τ sig (Elt F)) : StableHlo.after segAL1 W (Proc.devRef .tc main_arg12) = W (Proc.devRef .tc main_arg12) := segAL1_keep W (by decide)
theorem keep_AL1_main_arg13 (W : Valuation τ sig (Elt F)) : StableHlo.after segAL1 W (Proc.devRef .tc main_arg13) = W (Proc.devRef .tc main_arg13) := segAL1_keep W (by decide)
theorem keep_AL1_main_arg14 (W : Valuation τ sig (Elt F)) : StableHlo.after segAL1 W (Proc.devRef .tc main_arg14) = W (Proc.devRef .tc main_arg14) := segAL1_keep W (by decide)
theorem keep_AL1_main_arg15 (W : Valuation τ sig (Elt F)) : StableHlo.after segAL1 W (Proc.devRef .tc main_arg15) = W (Proc.devRef .tc main_arg15) := segAL1_keep W (by decide)
theorem keep_AL1_main_arg16 (W : Valuation τ sig (Elt F)) : StableHlo.after segAL1 W (Proc.devRef .tc main_arg16) = W (Proc.devRef .tc main_arg16) := segAL1_keep W (by decide)
theorem keep_AL1_main_arg17 (W : Valuation τ sig (Elt F)) : StableHlo.after segAL1 W (Proc.devRef .tc main_arg17) = W (Proc.devRef .tc main_arg17) := segAL1_keep W (by decide)
theorem keep_AL1_main_arg18 (W : Valuation τ sig (Elt F)) : StableHlo.after segAL1 W (Proc.devRef .tc main_arg18) = W (Proc.devRef .tc main_arg18) := segAL1_keep W (by decide)
theorem keep_AL1_main_arg19 (W : Valuation τ sig (Elt F)) : StableHlo.after segAL1 W (Proc.devRef .tc main_arg19) = W (Proc.devRef .tc main_arg19) := segAL1_keep W (by decide)
theorem keep_AL1_main_arg20 (W : Valuation τ sig (Elt F)) : StableHlo.after segAL1 W (Proc.devRef .tc main_arg20) = W (Proc.devRef .tc main_arg20) := segAL1_keep W (by decide)
theorem keep_AL1_main_v1 (W : Valuation τ sig (Elt F)) : StableHlo.after segAL1 W (Proc.devRef .tc main_v1) = W (Proc.devRef .tc main_v1) := segAL1_keep W (by decide)
theorem keep_AL1_main_v3 (W : Valuation τ sig (Elt F)) : StableHlo.after segAL1 W (Proc.devRef .tc main_v3) = W (Proc.devRef .tc main_v3) := segAL1_keep W (by decide)
theorem keep_AL1_main_v5 (W : Valuation τ sig (Elt F)) : StableHlo.after segAL1 W (Proc.devRef .tc main_v5) = W (Proc.devRef .tc main_v5) := segAL1_keep W (by decide)

/-- the exponential over the gathered sum plus the small constant, with a trailing unit axis. -/
def refAL1 (a_exp : (⟨S500000x4, .f32⟩ : BufTy).Contents (Elt F)) (denom_g : (⟨S500000x4, .f32⟩ : BufTy).Contents (Elt F)) : (⟨S500000x4x1, .f32⟩ : BufTy).Contents (Elt F) :=
  ((broadcastInDim S500000x4x1 ![0, 1] bcast_S500000x4_S500000x4x1_0_1 : (⟨S500000x4, .f32⟩ : BufTy).Contents (Elt F) → (⟨S500000x4x1, .f32⟩ : BufTy).Contents (Elt F)) ((Host.divf : (⟨S500000x4, .f32⟩ : BufTy).Contents (Elt F) → (⟨S500000x4, .f32⟩ : BufTy).Contents (Elt F) → (⟨S500000x4, .f32⟩ : BufTy).Contents (Elt F)) a_exp ((addf : (⟨S500000x4, .f32⟩ : BufTy).Contents (Elt F) → (⟨S500000x4, .f32⟩ : BufTy).Contents (Elt F) → (⟨S500000x4, .f32⟩ : BufTy).Contents (Elt F)) denom_g ((broadcastInDim S500000x4 ![] bcast_S_S500000x4 : (⟨S_, .f32⟩ : BufTy).Contents (Elt F) → (⟨S500000x4, .f32⟩ : BufTy).Contents (Elt F)) ((constant S_ .f32 0x24E69595#32) : (⟨S_, .f32⟩ : BufTy).Contents (Elt F))))))

set_option maxRecDepth 16384 in
set_option maxHeartbeats 500000 in
theorem segAL1_main_v45 (W : Valuation τ sig (Elt F)) :
    StableHlo.after segAL1 W (Proc.devRef .tc main_v45) = refAL1 (W (Proc.devRef .tc main_v31)) (W (Proc.devRef .tc main_v41)) := by
  after_results_simp
  rfl

/-! ### segHG1 -/

/-- The buffers segHG1 writes. -/
abbrev segHG1_writes : List (Ref sig .tc) :=
  [main_c_9, main_v46, main_v47, main_c_10, main_v48, main_v49, main_v50, main_v51, main_v52]

set_option maxRecDepth 8192 in
theorem segHG1_a_wsub : (segHG1_a : List (HloOp τ sig (Elt F))).Forall fun op => op.writes ⊆ ((segHG1_writes).map (Proc.devRef (τ := τ) .tc)).toFinset :=
  ⟨wsub_of_mem (by decide), wsub_of_mem (by decide), wsub_of_mem (by decide)⟩

set_option maxRecDepth 8192 in
theorem segHG1_b_wsub : (segHG1_b : List (HloOp τ sig (Elt F))).Forall fun op => op.writes ⊆ ((segHG1_writes).map (Proc.devRef (τ := τ) .tc)).toFinset :=
  ⟨wsub_of_mem (by decide), wsub_of_mem (by decide), wsub_of_mem (by decide), wsub_of_mem (by decide), wsub_of_mem (by decide), wsub_of_mem (by decide)⟩

theorem segHG1_wsub : (segHG1 : List (HloOp τ sig (Elt F))).Forall fun op => op.writes ⊆ ((segHG1_writes).map (Proc.devRef (τ := τ) .tc)).toFinset :=
  List.forall_iff_forall_mem.mpr fun op h => by
    simp only [segHG1, List.mem_append] at h
    rcases h with h | h
    exacts [List.forall_iff_forall_mem.mp segHG1_a_wsub op h, List.forall_iff_forall_mem.mp segHG1_b_wsub op h]

/-- segHG1 leaves every buffer it does not write as it was. -/
theorem segHG1_keep (W : Valuation τ sig (Elt F)) {r : Ref sig .tc} (hr : r ∉ segHG1_writes) :
    StableHlo.after segHG1 W (Proc.devRef .tc r) = W (Proc.devRef .tc r) :=
  after_of_writes_sub segHG1 W segHG1_wsub hr

theorem keep_HG1_main_arg2 (W : Valuation τ sig (Elt F)) : StableHlo.after segHG1 W (Proc.devRef .tc main_arg2) = W (Proc.devRef .tc main_arg2) := segHG1_keep W (by decide)
theorem keep_HG1_main_arg6 (W : Valuation τ sig (Elt F)) : StableHlo.after segHG1 W (Proc.devRef .tc main_arg6) = W (Proc.devRef .tc main_arg6) := segHG1_keep W (by decide)
theorem keep_HG1_main_arg7 (W : Valuation τ sig (Elt F)) : StableHlo.after segHG1 W (Proc.devRef .tc main_arg7) = W (Proc.devRef .tc main_arg7) := segHG1_keep W (by decide)
theorem keep_HG1_main_arg8 (W : Valuation τ sig (Elt F)) : StableHlo.after segHG1 W (Proc.devRef .tc main_arg8) = W (Proc.devRef .tc main_arg8) := segHG1_keep W (by decide)
theorem keep_HG1_main_arg9 (W : Valuation τ sig (Elt F)) : StableHlo.after segHG1 W (Proc.devRef .tc main_arg9) = W (Proc.devRef .tc main_arg9) := segHG1_keep W (by decide)
theorem keep_HG1_main_arg10 (W : Valuation τ sig (Elt F)) : StableHlo.after segHG1 W (Proc.devRef .tc main_arg10) = W (Proc.devRef .tc main_arg10) := segHG1_keep W (by decide)
theorem keep_HG1_main_arg11 (W : Valuation τ sig (Elt F)) : StableHlo.after segHG1 W (Proc.devRef .tc main_arg11) = W (Proc.devRef .tc main_arg11) := segHG1_keep W (by decide)
theorem keep_HG1_main_arg12 (W : Valuation τ sig (Elt F)) : StableHlo.after segHG1 W (Proc.devRef .tc main_arg12) = W (Proc.devRef .tc main_arg12) := segHG1_keep W (by decide)
theorem keep_HG1_main_arg13 (W : Valuation τ sig (Elt F)) : StableHlo.after segHG1 W (Proc.devRef .tc main_arg13) = W (Proc.devRef .tc main_arg13) := segHG1_keep W (by decide)
theorem keep_HG1_main_arg14 (W : Valuation τ sig (Elt F)) : StableHlo.after segHG1 W (Proc.devRef .tc main_arg14) = W (Proc.devRef .tc main_arg14) := segHG1_keep W (by decide)
theorem keep_HG1_main_arg15 (W : Valuation τ sig (Elt F)) : StableHlo.after segHG1 W (Proc.devRef .tc main_arg15) = W (Proc.devRef .tc main_arg15) := segHG1_keep W (by decide)
theorem keep_HG1_main_arg16 (W : Valuation τ sig (Elt F)) : StableHlo.after segHG1 W (Proc.devRef .tc main_arg16) = W (Proc.devRef .tc main_arg16) := segHG1_keep W (by decide)
theorem keep_HG1_main_arg17 (W : Valuation τ sig (Elt F)) : StableHlo.after segHG1 W (Proc.devRef .tc main_arg17) = W (Proc.devRef .tc main_arg17) := segHG1_keep W (by decide)
theorem keep_HG1_main_arg18 (W : Valuation τ sig (Elt F)) : StableHlo.after segHG1 W (Proc.devRef .tc main_arg18) = W (Proc.devRef .tc main_arg18) := segHG1_keep W (by decide)
theorem keep_HG1_main_arg19 (W : Valuation τ sig (Elt F)) : StableHlo.after segHG1 W (Proc.devRef .tc main_arg19) = W (Proc.devRef .tc main_arg19) := segHG1_keep W (by decide)
theorem keep_HG1_main_arg20 (W : Valuation τ sig (Elt F)) : StableHlo.after segHG1 W (Proc.devRef .tc main_arg20) = W (Proc.devRef .tc main_arg20) := segHG1_keep W (by decide)
theorem keep_HG1_main_v1 (W : Valuation τ sig (Elt F)) : StableHlo.after segHG1 W (Proc.devRef .tc main_v1) = W (Proc.devRef .tc main_v1) := segHG1_keep W (by decide)
theorem keep_HG1_main_v3 (W : Valuation τ sig (Elt F)) : StableHlo.after segHG1 W (Proc.devRef .tc main_v3) = W (Proc.devRef .tc main_v3) := segHG1_keep W (by decide)
theorem keep_HG1_main_v45 (W : Valuation τ sig (Elt F)) : StableHlo.after segHG1 W (Proc.devRef .tc main_v45) = W (Proc.devRef .tc main_v45) := segHG1_keep W (by decide)

set_option maxRecDepth 16384 in
set_option maxHeartbeats 900000 in
theorem segHG1_main_v52 (W : Valuation τ sig (Elt F)) :
    StableHlo.after segHG1 W (Proc.devRef .tc main_v52) = Cert.KernelIdeal.Stages.st2_v44 (W (Proc.devRef .tc main_v5)) (W (Proc.devRef .tc main_v3)) := by
  rw [show (segHG1 : List (HloOp τ sig (Elt F))) = segHG1_a ++ segHG1_b from rfl, after_app]
  after_results_simp
  rfl

/-! ### segMS1 -/

/-- The buffers segMS1 writes. -/
abbrev segMS1_writes : List (Ref sig .tc) :=
  [main_v53, main_v54]

set_option maxRecDepth 8192 in
theorem segMS1_wsub : (segMS1 : List (HloOp τ sig (Elt F))).Forall fun op => op.writes ⊆ ((segMS1_writes).map (Proc.devRef (τ := τ) .tc)).toFinset :=
  ⟨wsub_of_mem (by decide), wsub_of_mem (by decide)⟩

/-- segMS1 leaves every buffer it does not write as it was. -/
theorem segMS1_keep (W : Valuation τ sig (Elt F)) {r : Ref sig .tc} (hr : r ∉ segMS1_writes) :
    StableHlo.after segMS1 W (Proc.devRef .tc r) = W (Proc.devRef .tc r) :=
  after_of_writes_sub segMS1 W segMS1_wsub hr

theorem keep_MS1_main_arg2 (W : Valuation τ sig (Elt F)) : StableHlo.after segMS1 W (Proc.devRef .tc main_arg2) = W (Proc.devRef .tc main_arg2) := segMS1_keep W (by decide)
theorem keep_MS1_main_arg6 (W : Valuation τ sig (Elt F)) : StableHlo.after segMS1 W (Proc.devRef .tc main_arg6) = W (Proc.devRef .tc main_arg6) := segMS1_keep W (by decide)
theorem keep_MS1_main_arg7 (W : Valuation τ sig (Elt F)) : StableHlo.after segMS1 W (Proc.devRef .tc main_arg7) = W (Proc.devRef .tc main_arg7) := segMS1_keep W (by decide)
theorem keep_MS1_main_arg8 (W : Valuation τ sig (Elt F)) : StableHlo.after segMS1 W (Proc.devRef .tc main_arg8) = W (Proc.devRef .tc main_arg8) := segMS1_keep W (by decide)
theorem keep_MS1_main_arg9 (W : Valuation τ sig (Elt F)) : StableHlo.after segMS1 W (Proc.devRef .tc main_arg9) = W (Proc.devRef .tc main_arg9) := segMS1_keep W (by decide)
theorem keep_MS1_main_arg10 (W : Valuation τ sig (Elt F)) : StableHlo.after segMS1 W (Proc.devRef .tc main_arg10) = W (Proc.devRef .tc main_arg10) := segMS1_keep W (by decide)
theorem keep_MS1_main_arg11 (W : Valuation τ sig (Elt F)) : StableHlo.after segMS1 W (Proc.devRef .tc main_arg11) = W (Proc.devRef .tc main_arg11) := segMS1_keep W (by decide)
theorem keep_MS1_main_arg12 (W : Valuation τ sig (Elt F)) : StableHlo.after segMS1 W (Proc.devRef .tc main_arg12) = W (Proc.devRef .tc main_arg12) := segMS1_keep W (by decide)
theorem keep_MS1_main_arg13 (W : Valuation τ sig (Elt F)) : StableHlo.after segMS1 W (Proc.devRef .tc main_arg13) = W (Proc.devRef .tc main_arg13) := segMS1_keep W (by decide)
theorem keep_MS1_main_arg14 (W : Valuation τ sig (Elt F)) : StableHlo.after segMS1 W (Proc.devRef .tc main_arg14) = W (Proc.devRef .tc main_arg14) := segMS1_keep W (by decide)
theorem keep_MS1_main_arg15 (W : Valuation τ sig (Elt F)) : StableHlo.after segMS1 W (Proc.devRef .tc main_arg15) = W (Proc.devRef .tc main_arg15) := segMS1_keep W (by decide)
theorem keep_MS1_main_arg16 (W : Valuation τ sig (Elt F)) : StableHlo.after segMS1 W (Proc.devRef .tc main_arg16) = W (Proc.devRef .tc main_arg16) := segMS1_keep W (by decide)
theorem keep_MS1_main_arg17 (W : Valuation τ sig (Elt F)) : StableHlo.after segMS1 W (Proc.devRef .tc main_arg17) = W (Proc.devRef .tc main_arg17) := segMS1_keep W (by decide)
theorem keep_MS1_main_arg18 (W : Valuation τ sig (Elt F)) : StableHlo.after segMS1 W (Proc.devRef .tc main_arg18) = W (Proc.devRef .tc main_arg18) := segMS1_keep W (by decide)
theorem keep_MS1_main_arg19 (W : Valuation τ sig (Elt F)) : StableHlo.after segMS1 W (Proc.devRef .tc main_arg19) = W (Proc.devRef .tc main_arg19) := segMS1_keep W (by decide)
theorem keep_MS1_main_arg20 (W : Valuation τ sig (Elt F)) : StableHlo.after segMS1 W (Proc.devRef .tc main_arg20) = W (Proc.devRef .tc main_arg20) := segMS1_keep W (by decide)
theorem keep_MS1_main_v1 (W : Valuation τ sig (Elt F)) : StableHlo.after segMS1 W (Proc.devRef .tc main_v1) = W (Proc.devRef .tc main_v1) := segMS1_keep W (by decide)
theorem keep_MS1_main_v3 (W : Valuation τ sig (Elt F)) : StableHlo.after segMS1 W (Proc.devRef .tc main_v3) = W (Proc.devRef .tc main_v3) := segMS1_keep W (by decide)

/-- the attention weight broadcast along the feature axis times the gathered features. -/
def refMS1 (alpha_b : (⟨S500000x4x1, .f32⟩ : BufTy).Contents (Elt F)) (hg : (⟨S500000x4x64, .f32⟩ : BufTy).Contents (Elt F)) : (⟨S500000x4x64, .f32⟩ : BufTy).Contents (Elt F) :=
  ((mulf : (⟨S500000x4x64, .f32⟩ : BufTy).Contents (Elt F) → (⟨S500000x4x64, .f32⟩ : BufTy).Contents (Elt F) → (⟨S500000x4x64, .f32⟩ : BufTy).Contents (Elt F)) ((broadcastInDim S500000x4x64 ![0, 1, 2] bcast_S500000x4x1_S500000x4x64_0_1_2 : (⟨S500000x4x1, .f32⟩ : BufTy).Contents (Elt F) → (⟨S500000x4x64, .f32⟩ : BufTy).Contents (Elt F)) alpha_b) hg)

set_option maxRecDepth 16384 in
set_option maxHeartbeats 400000 in
theorem segMS1_main_v54 (W : Valuation τ sig (Elt F)) :
    StableHlo.after segMS1 W (Proc.devRef .tc main_v54) = refMS1 (W (Proc.devRef .tc main_v45)) (W (Proc.devRef .tc main_v52)) := by
  after_results_simp
  rfl

/-! ### segAG1 -/

/-- The buffers segAG1 writes. -/
abbrev segAG1_writes : List (Ref sig .tc) :=
  [main_cst_11, main_v55, main_v56, main_v57, main_v58]

set_option maxRecDepth 8192 in
theorem segAG1_wsub : (segAG1 : List (HloOp τ sig (Elt F))).Forall fun op => op.writes ⊆ ((segAG1_writes).map (Proc.devRef (τ := τ) .tc)).toFinset :=
  ⟨wsub_of_mem (by decide), wsub_of_mem (by decide), wsub_of_mem (by decide), wsub_of_mem (by decide), wsub_of_mem (by decide)⟩

/-- segAG1 leaves every buffer it does not write as it was. -/
theorem segAG1_keep (W : Valuation τ sig (Elt F)) {r : Ref sig .tc} (hr : r ∉ segAG1_writes) :
    StableHlo.after segAG1 W (Proc.devRef .tc r) = W (Proc.devRef .tc r) :=
  after_of_writes_sub segAG1 W segAG1_wsub hr

theorem keep_AG1_main_arg2 (W : Valuation τ sig (Elt F)) : StableHlo.after segAG1 W (Proc.devRef .tc main_arg2) = W (Proc.devRef .tc main_arg2) := segAG1_keep W (by decide)
theorem keep_AG1_main_arg6 (W : Valuation τ sig (Elt F)) : StableHlo.after segAG1 W (Proc.devRef .tc main_arg6) = W (Proc.devRef .tc main_arg6) := segAG1_keep W (by decide)
theorem keep_AG1_main_arg7 (W : Valuation τ sig (Elt F)) : StableHlo.after segAG1 W (Proc.devRef .tc main_arg7) = W (Proc.devRef .tc main_arg7) := segAG1_keep W (by decide)
theorem keep_AG1_main_arg8 (W : Valuation τ sig (Elt F)) : StableHlo.after segAG1 W (Proc.devRef .tc main_arg8) = W (Proc.devRef .tc main_arg8) := segAG1_keep W (by decide)
theorem keep_AG1_main_arg9 (W : Valuation τ sig (Elt F)) : StableHlo.after segAG1 W (Proc.devRef .tc main_arg9) = W (Proc.devRef .tc main_arg9) := segAG1_keep W (by decide)
theorem keep_AG1_main_arg10 (W : Valuation τ sig (Elt F)) : StableHlo.after segAG1 W (Proc.devRef .tc main_arg10) = W (Proc.devRef .tc main_arg10) := segAG1_keep W (by decide)
theorem keep_AG1_main_arg11 (W : Valuation τ sig (Elt F)) : StableHlo.after segAG1 W (Proc.devRef .tc main_arg11) = W (Proc.devRef .tc main_arg11) := segAG1_keep W (by decide)
theorem keep_AG1_main_arg12 (W : Valuation τ sig (Elt F)) : StableHlo.after segAG1 W (Proc.devRef .tc main_arg12) = W (Proc.devRef .tc main_arg12) := segAG1_keep W (by decide)
theorem keep_AG1_main_arg13 (W : Valuation τ sig (Elt F)) : StableHlo.after segAG1 W (Proc.devRef .tc main_arg13) = W (Proc.devRef .tc main_arg13) := segAG1_keep W (by decide)
theorem keep_AG1_main_arg14 (W : Valuation τ sig (Elt F)) : StableHlo.after segAG1 W (Proc.devRef .tc main_arg14) = W (Proc.devRef .tc main_arg14) := segAG1_keep W (by decide)
theorem keep_AG1_main_arg15 (W : Valuation τ sig (Elt F)) : StableHlo.after segAG1 W (Proc.devRef .tc main_arg15) = W (Proc.devRef .tc main_arg15) := segAG1_keep W (by decide)
theorem keep_AG1_main_arg16 (W : Valuation τ sig (Elt F)) : StableHlo.after segAG1 W (Proc.devRef .tc main_arg16) = W (Proc.devRef .tc main_arg16) := segAG1_keep W (by decide)
theorem keep_AG1_main_arg17 (W : Valuation τ sig (Elt F)) : StableHlo.after segAG1 W (Proc.devRef .tc main_arg17) = W (Proc.devRef .tc main_arg17) := segAG1_keep W (by decide)
theorem keep_AG1_main_arg18 (W : Valuation τ sig (Elt F)) : StableHlo.after segAG1 W (Proc.devRef .tc main_arg18) = W (Proc.devRef .tc main_arg18) := segAG1_keep W (by decide)
theorem keep_AG1_main_arg19 (W : Valuation τ sig (Elt F)) : StableHlo.after segAG1 W (Proc.devRef .tc main_arg19) = W (Proc.devRef .tc main_arg19) := segAG1_keep W (by decide)
theorem keep_AG1_main_arg20 (W : Valuation τ sig (Elt F)) : StableHlo.after segAG1 W (Proc.devRef .tc main_arg20) = W (Proc.devRef .tc main_arg20) := segAG1_keep W (by decide)
theorem keep_AG1_main_v1 (W : Valuation τ sig (Elt F)) : StableHlo.after segAG1 W (Proc.devRef .tc main_v1) = W (Proc.devRef .tc main_v1) := segAG1_keep W (by decide)
theorem keep_AG1_main_v3 (W : Valuation τ sig (Elt F)) : StableHlo.after segAG1 W (Proc.devRef .tc main_v3) = W (Proc.devRef .tc main_v3) := segAG1_keep W (by decide)

set_option maxRecDepth 16384 in
set_option maxHeartbeats 500000 in
theorem segAG1_main_v58 (W : Valuation τ sig (Elt F)) :
    StableHlo.after segAG1 W (Proc.devRef .tc main_v58) = Cert.KernelIdeal.Stages.st3_v49 (W (Proc.devRef .tc main_v1)) (W (Proc.devRef .tc main_v54)) := by
  after_results_simp
  rfl

/-! ### segLN1 -/

/-- The buffers segLN1 writes. -/
abbrev segLN1_writes : List (Ref sig .tc) :=
  [main_v59, main_v60, main_v61, main_cst_12, main_v62, main_v63, main_cst_13, main_v64, main_v65, main_c_14, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v66, main_v67, main_v68, main_cst_15, main_v69, main_v70, main_v71, main_v72, main_v73, main_v74, main_v75, main_v76, main_v77, main_v78, main_v79, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v80]

set_option maxRecDepth 8192 in
theorem segLN1_wsub : (segLN1 : List (HloOp τ sig (Elt F))).Forall fun op => op.writes ⊆ ((segLN1_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segLN1 leaves every buffer it does not write as it was. -/
theorem segLN1_keep (W : Valuation τ sig (Elt F)) {r : Ref sig .tc} (hr : r ∉ segLN1_writes) :
    StableHlo.after segLN1 W (Proc.devRef .tc r) = W (Proc.devRef .tc r) :=
  after_of_writes_sub segLN1 W segLN1_wsub hr

theorem keep_LN1_main_arg2 (W : Valuation τ sig (Elt F)) : StableHlo.after segLN1 W (Proc.devRef .tc main_arg2) = W (Proc.devRef .tc main_arg2) := segLN1_keep W (by decide)
theorem keep_LN1_main_arg9 (W : Valuation τ sig (Elt F)) : StableHlo.after segLN1 W (Proc.devRef .tc main_arg9) = W (Proc.devRef .tc main_arg9) := segLN1_keep W (by decide)
theorem keep_LN1_main_arg10 (W : Valuation τ sig (Elt F)) : StableHlo.after segLN1 W (Proc.devRef .tc main_arg10) = W (Proc.devRef .tc main_arg10) := segLN1_keep W (by decide)
theorem keep_LN1_main_arg11 (W : Valuation τ sig (Elt F)) : StableHlo.after segLN1 W (Proc.devRef .tc main_arg11) = W (Proc.devRef .tc main_arg11) := segLN1_keep W (by decide)
theorem keep_LN1_main_arg12 (W : Valuation τ sig (Elt F)) : StableHlo.after segLN1 W (Proc.devRef .tc main_arg12) = W (Proc.devRef .tc main_arg12) := segLN1_keep W (by decide)
theorem keep_LN1_main_arg13 (W : Valuation τ sig (Elt F)) : StableHlo.after segLN1 W (Proc.devRef .tc main_arg13) = W (Proc.devRef .tc main_arg13) := segLN1_keep W (by decide)
theorem keep_LN1_main_arg14 (W : Valuation τ sig (Elt F)) : StableHlo.after segLN1 W (Proc.devRef .tc main_arg14) = W (Proc.devRef .tc main_arg14) := segLN1_keep W (by decide)
theorem keep_LN1_main_arg15 (W : Valuation τ sig (Elt F)) : StableHlo.after segLN1 W (Proc.devRef .tc main_arg15) = W (Proc.devRef .tc main_arg15) := segLN1_keep W (by decide)
theorem keep_LN1_main_arg16 (W : Valuation τ sig (Elt F)) : StableHlo.after segLN1 W (Proc.devRef .tc main_arg16) = W (Proc.devRef .tc main_arg16) := segLN1_keep W (by decide)
theorem keep_LN1_main_arg17 (W : Valuation τ sig (Elt F)) : StableHlo.after segLN1 W (Proc.devRef .tc main_arg17) = W (Proc.devRef .tc main_arg17) := segLN1_keep W (by decide)
theorem keep_LN1_main_arg18 (W : Valuation τ sig (Elt F)) : StableHlo.after segLN1 W (Proc.devRef .tc main_arg18) = W (Proc.devRef .tc main_arg18) := segLN1_keep W (by decide)
theorem keep_LN1_main_arg19 (W : Valuation τ sig (Elt F)) : StableHlo.after segLN1 W (Proc.devRef .tc main_arg19) = W (Proc.devRef .tc main_arg19) := segLN1_keep W (by decide)
theorem keep_LN1_main_arg20 (W : Valuation τ sig (Elt F)) : StableHlo.after segLN1 W (Proc.devRef .tc main_arg20) = W (Proc.devRef .tc main_arg20) := segLN1_keep W (by decide)
theorem keep_LN1_main_v1 (W : Valuation τ sig (Elt F)) : StableHlo.after segLN1 W (Proc.devRef .tc main_v1) = W (Proc.devRef .tc main_v1) := segLN1_keep W (by decide)
theorem keep_LN1_main_v3 (W : Valuation τ sig (Elt F)) : StableHlo.after segLN1 W (Proc.devRef .tc main_v3) = W (Proc.devRef .tc main_v3) := segLN1_keep W (by decide)

/-- the aggregate plus the bias row broadcast over the nodes. -/
def refBias1 (agg : (⟨S50000x256, .f32⟩ : BufTy).Contents (Elt F)) (b2 : (⟨S1x256, .f32⟩ : BufTy).Contents (Elt F)) : (⟨S50000x256, .f32⟩ : BufTy).Contents (Elt F) :=
  ((addf : (⟨S50000x256, .f32⟩ : BufTy).Contents (Elt F) → (⟨S50000x256, .f32⟩ : BufTy).Contents (Elt F) → (⟨S50000x256, .f32⟩ : BufTy).Contents (Elt F)) agg ((broadcastInDim S50000x256 ![0, 1] bcast_S1x256_S50000x256_0_1 : (⟨S1x256, .f32⟩ : BufTy).Contents (Elt F) → (⟨S50000x256, .f32⟩ : BufTy).Contents (Elt F)) b2))

/-- the mean over the feature axis, kept as a column. -/
def refMean1 (x : (⟨S50000x256, .f32⟩ : BufTy).Contents (Elt F)) : (⟨S50000x1, .f32⟩ : BufTy).Contents (Elt F) :=
  ((Host.divf : (⟨S50000x1, .f32⟩ : BufTy).Contents (Elt F) → (⟨S50000x1, .f32⟩ : BufTy).Contents (Elt F) → (⟨S50000x1, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) ((broadcastInDim S50000x1 ![] bcast_S_S50000x1 : (⟨S_, .f32⟩ : BufTy).Contents (Elt F) → (⟨S50000x1, .f32⟩ : BufTy).Contents (Elt F)) ((constant S_ .f32 0x43800000#32) : (⟨S_, .f32⟩ : BufTy).Contents (Elt F))))

/-- the variance over the feature axis (mean of the squared deviations), kept as a column. -/
def refVar1 (x : (⟨S50000x256, .f32⟩ : BufTy).Contents (Elt F)) : (⟨S50000x1, .f32⟩ : BufTy).Contents (Elt F) :=
  (((fun p a b => select (broadcastInDim S50000x1 ![] bcast_S_S50000x1 p) a b) : (⟨S_, .i1⟩ : BufTy).Contents (Elt F) → (⟨S50000x1, .f32⟩ : BufTy).Contents (Elt F) → (⟨S50000x1, .f32⟩ : BufTy).Contents (Elt F) → (⟨S50000x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x43800000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))) ((constant S_ .f32 0x00000000#32) : (⟨S_, .f32⟩ : BufTy).Contents (Elt F))) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) x (((broadcastInDim S50000x256 ![0, 1] bcast_S50000x1_S50000x256_0_1) : (⟨S50000x1, .f32⟩ : BufTy).Contents (Elt F) → (⟨S50000x256, .f32⟩ : BufTy).Contents (Elt F)) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((constant S_ .f32 0x43800000#32) : (⟨S_, .f32⟩ : BufTy).Contents (Elt F)))))) ((subf : (⟨S50000x256, .f32⟩ : BufTy).Contents (Elt F) → (⟨S50000x256, .f32⟩ : BufTy).Contents (Elt F) → (⟨S50000x256, .f32⟩ : BufTy).Contents (Elt F)) x (((broadcastInDim S50000x256 ![0, 1] bcast_S50000x1_S50000x256_0_1) : (⟨S50000x1, .f32⟩ : BufTy).Contents (Elt F) → (⟨S50000x256, .f32⟩ : BufTy).Contents (Elt F)) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((constant S_ .f32 0x43800000#32) : (⟨S_, .f32⟩ : BufTy).Contents (Elt F))))))) ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x43800000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))))) (((broadcastInDim S50000x1 ![] bcast_S_S50000x1) : (⟨S_, .f32⟩ : BufTy).Contents (Elt F) → (⟨S50000x1, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- the layer normalisation: centred, divided by the root of the variance plus the small constant, scaled and shifted by the broadcast rows. -/
def refNorm1 (x : (⟨S50000x256, .f32⟩ : BufTy).Contents (Elt F)) (g2 : (⟨S1x256, .f32⟩ : BufTy).Contents (Elt F)) (be2 : (⟨S1x256, .f32⟩ : BufTy).Contents (Elt F)) : (⟨S50000x256, .f32⟩ : BufTy).Contents (Elt F) :=
  ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((Host.divf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) x ((broadcastInDim S50000x256 ![0, 1] bcast_S50000x1_S50000x256_0_1 : (⟨S50000x1, .f32⟩ : BufTy).Contents (Elt F) → (⟨S50000x256, .f32⟩ : BufTy).Contents (Elt F)) (refMean1 x))) ((broadcastInDim S50000x256 ![0, 1] bcast_S50000x1_S50000x256_0_1 : (⟨S50000x1, .f32⟩ : BufTy).Contents (Elt F) → (⟨S50000x256, .f32⟩ : BufTy).Contents (Elt F)) ((Host.sqrt : (⟨S50000x1, .f32⟩ : BufTy).Contents (Elt F) → (⟨S50000x1, .f32⟩ : BufTy).Contents (Elt F)) ((addf : (⟨S50000x1, .f32⟩ : BufTy).Contents (Elt F) → (⟨S50000x1, .f32⟩ : BufTy).Contents (Elt F) → (⟨S50000x1, .f32⟩ : BufTy).Contents (Elt F)) (refVar1 x) ((broadcastInDim S50000x1 ![] bcast_S_S50000x1 : (⟨S_, .f32⟩ : BufTy).Contents (Elt F) → (⟨S50000x1, .f32⟩ : BufTy).Contents (Elt F)) ((constant S_ .f32 0x3727C5AC#32) : (⟨S_, .f32⟩ : BufTy).Contents (Elt F))))))) ((broadcastInDim S50000x256 ![0, 1] bcast_S1x256_S50000x256_0_1 : (⟨S1x256, .f32⟩ : BufTy).Contents (Elt F) → (⟨S50000x256, .f32⟩ : BufTy).Contents (Elt F)) g2)) ((broadcastInDim S50000x256 ![0, 1] bcast_S1x256_S50000x256_0_1 : (⟨S1x256, .f32⟩ : BufTy).Contents (Elt F) → (⟨S50000x256, .f32⟩ : BufTy).Contents (Elt F)) be2))

/-- the exponential linear unit, elementwise. -/
def refElu1 (y : (⟨S50000x256, .f32⟩ : BufTy).Contents (Elt F)) : (⟨S50000x256, .f32⟩ : BufTy).Contents (Elt F) :=
  ((select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) (((cmpf .ogt) : (⟨S50000x256, .f32⟩ : BufTy).Contents (Elt F) → (⟨S50000x256, .f32⟩ : BufTy).Contents (Elt F) → (⟨S50000x256, .i1⟩ : BufTy).Contents (Elt F)) y (((broadcastInDim S50000x256 ![] bcast_S_S50000x256) : (⟨S_, .f32⟩ : BufTy).Contents (Elt F) → (⟨S50000x256, .f32⟩ : BufTy).Contents (Elt F)) ((constant S_ .f32 0x00000000#32) : (⟨S_, .f32⟩ : BufTy).Contents (Elt F)))) y ((mulf : (⟨S50000x256, .f32⟩ : BufTy).Contents (Elt F) → (⟨S50000x256, .f32⟩ : BufTy).Contents (Elt F) → (⟨S50000x256, .f32⟩ : BufTy).Contents (Elt F)) (((broadcastInDim S50000x256 ![] bcast_S_S50000x256) : (⟨S_, .f32⟩ : BufTy).Contents (Elt F) → (⟨S50000x256, .f32⟩ : BufTy).Contents (Elt F)) ((constant S_ .f32 0x3F800000#32) : (⟨S_, .f32⟩ : BufTy).Contents (Elt F))) ((Host.expm1 : (⟨S50000x256, .f32⟩ : BufTy).Contents (Elt F) → (⟨S50000x256, .f32⟩ : BufTy).Contents (Elt F)) ((select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) (((cmpf .ogt) : (⟨S50000x256, .f32⟩ : BufTy).Contents (Elt F) → (⟨S50000x256, .f32⟩ : BufTy).Contents (Elt F) → (⟨S50000x256, .i1⟩ : BufTy).Contents (Elt F)) y (((broadcastInDim S50000x256 ![] bcast_S_S50000x256) : (⟨S_, .f32⟩ : BufTy).Contents (Elt F) → (⟨S50000x256, .f32⟩ : BufTy).Contents (Elt F)) ((constant S_ .f32 0x00000000#32) : (⟨S_, .f32⟩ : BufTy).Contents (Elt F)))) (((broadcastInDim S50000x256 ![] bcast_S_S50000x256) : (⟨S_, .f32⟩ : BufTy).Contents (Elt F) → (⟨S50000x256, .f32⟩ : BufTy).Contents (Elt F)) ((id : (⟨S_, .f32⟩ : BufTy).Contents (Elt F) → (⟨S_, .f32⟩ : BufTy).Contents (Elt F)) ((constant S_ .f32 0x00000000#32) : (⟨S_, .f32⟩ : BufTy).Contents (Elt F)))) y))))

/-- bias, layer normalisation and activation. -/
def refLN1 (agg : (⟨S50000x256, .f32⟩ : BufTy).Contents (Elt F)) (b2 : (⟨S1x256, .f32⟩ : BufTy).Contents (Elt F)) (g2 : (⟨S1x256, .f32⟩ : BufTy).Contents (Elt F)) (be2 : (⟨S1x256, .f32⟩ : BufTy).Contents (Elt F)) : (⟨S50000x256, .f32⟩ : BufTy).Contents (Elt F) :=
  (refElu1 (refNorm1 (refBias1 agg b2) g2 be2))

set_option maxRecDepth 16384 in
set_option maxHeartbeats 6200000 in
theorem segLN1_main_v80 (W : Valuation τ sig (Elt F)) :
    StableHlo.after segLN1 W (Proc.devRef .tc main_v80) = refLN1 (W (Proc.devRef .tc main_v58)) ((broadcastInDim S1x256 ![1] bcast_S256_S1x256_1 : (⟨S256, .f32⟩ : BufTy).Contents (Elt F) → (⟨S1x256, .f32⟩ : BufTy).Contents (Elt F)) (W (Proc.devRef .tc main_arg6))) ((broadcastInDim S1x256 ![1] bcast_S256_S1x256_1 : (⟨S256, .f32⟩ : BufTy).Contents (Elt F) → (⟨S1x256, .f32⟩ : BufTy).Contents (Elt F)) (W (Proc.devRef .tc main_arg7))) ((broadcastInDim S1x256 ![1] bcast_S256_S1x256_1 : (⟨S256, .f32⟩ : BufTy).Contents (Elt F) → (⟨S1x256, .f32⟩ : BufTy).Contents (Elt F)) (W (Proc.devRef .tc main_arg8))) := by
  after_results_simp
  rfl

/-! ### segMM2 -/

/-- The buffers segMM2 writes. -/
abbrev segMM2_writes : List (Ref sig .tc) :=
  [main_v81]

set_option maxRecDepth 8192 in
theorem segMM2_wsub : (segMM2 : List (HloOp τ sig (Elt F))).Forall fun op => op.writes ⊆ ((segMM2_writes).map (Proc.devRef (τ := τ) .tc)).toFinset :=
  wsub_of_mem (by decide)

/-- segMM2 leaves every buffer it does not write as it was. -/
theorem segMM2_keep (W : Valuation τ sig (Elt F)) {r : Ref sig .tc} (hr : r ∉ segMM2_writes) :
    StableHlo.after segMM2 W (Proc.devRef .tc r) = W (Proc.devRef .tc r) :=
  after_of_writes_sub segMM2 W segMM2_wsub hr

theorem keep_MM2_main_arg2 (W : Valuation τ sig (Elt F)) : StableHlo.after segMM2 W (Proc.devRef .tc main_arg2) = W (Proc.devRef .tc main_arg2) := segMM2_keep W (by decide)
theorem keep_MM2_main_arg10 (W : Valuation τ sig (Elt F)) : StableHlo.after segMM2 W (Proc.devRef .tc main_arg10) = W (Proc.devRef .tc main_arg10) := segMM2_keep W (by decide)
theorem keep_MM2_main_arg11 (W : Valuation τ sig (Elt F)) : StableHlo.after segMM2 W (Proc.devRef .tc main_arg11) = W (Proc.devRef .tc main_arg11) := segMM2_keep W (by decide)
theorem keep_MM2_main_arg12 (W : Valuation τ sig (Elt F)) : StableHlo.after segMM2 W (Proc.devRef .tc main_arg12) = W (Proc.devRef .tc main_arg12) := segMM2_keep W (by decide)
theorem keep_MM2_main_arg13 (W : Valuation τ sig (Elt F)) : StableHlo.after segMM2 W (Proc.devRef .tc main_arg13) = W (Proc.devRef .tc main_arg13) := segMM2_keep W (by decide)
theorem keep_MM2_main_arg14 (W : Valuation τ sig (Elt F)) : StableHlo.after segMM2 W (Proc.devRef .tc main_arg14) = W (Proc.devRef .tc main_arg14) := segMM2_keep W (by decide)
theorem keep_MM2_main_arg15 (W : Valuation τ sig (Elt F)) : StableHlo.after segMM2 W (Proc.devRef .tc main_arg15) = W (Proc.devRef .tc main_arg15) := segMM2_keep W (by decide)
theorem keep_MM2_main_arg16 (W : Valuation τ sig (Elt F)) : StableHlo.after segMM2 W (Proc.devRef .tc main_arg16) = W (Proc.devRef .tc main_arg16) := segMM2_keep W (by decide)
theorem keep_MM2_main_arg17 (W : Valuation τ sig (Elt F)) : StableHlo.after segMM2 W (Proc.devRef .tc main_arg17) = W (Proc.devRef .tc main_arg17) := segMM2_keep W (by decide)
theorem keep_MM2_main_arg18 (W : Valuation τ sig (Elt F)) : StableHlo.after segMM2 W (Proc.devRef .tc main_arg18) = W (Proc.devRef .tc main_arg18) := segMM2_keep W (by decide)
theorem keep_MM2_main_arg19 (W : Valuation τ sig (Elt F)) : StableHlo.after segMM2 W (Proc.devRef .tc main_arg19) = W (Proc.devRef .tc main_arg19) := segMM2_keep W (by decide)
theorem keep_MM2_main_arg20 (W : Valuation τ sig (Elt F)) : StableHlo.after segMM2 W (Proc.devRef .tc main_arg20) = W (Proc.devRef .tc main_arg20) := segMM2_keep W (by decide)
theorem keep_MM2_main_v1 (W : Valuation τ sig (Elt F)) : StableHlo.after segMM2 W (Proc.devRef .tc main_v1) = W (Proc.devRef .tc main_v1) := segMM2_keep W (by decide)
theorem keep_MM2_main_v3 (W : Valuation τ sig (Elt F)) : StableHlo.after segMM2 W (Proc.devRef .tc main_v3) = W (Proc.devRef .tc main_v3) := segMM2_keep W (by decide)

/-- the dense product of the node features with the layer's weight. -/
def refMM2 (x : (⟨S50000x256, .f32⟩ : BufTy).Contents (Elt F)) (w : (⟨S256x256, .f32⟩ : BufTy).Contents (Elt F)) : (⟨S50000x256, .f32⟩ : BufTy).Contents (Elt F) :=
  (((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) x w)

set_option maxRecDepth 16384 in
set_option maxHeartbeats 400000 in
theorem segMM2_main_v81 (W : Valuation τ sig (Elt F)) :
    StableHlo.after segMM2 W (Proc.devRef .tc main_v81) = refMM2 (W (Proc.devRef .tc main_v80)) (W (Proc.devRef .tc main_arg9)) := by
  after_results_simp
  rfl

/-! ### segSC2 -/

/-- The buffers segSC2 writes. -/
abbrev segSC2_writes : List (Ref sig .tc) :=
  [main_v82, main_v83, main_v84, main_cst_16, main_v85, main_v86, main_v87, main_cst_17, main_v88, main_c_18, main_v89, main_v90, main_c_19, main_v91, main_v92, main_v93, main_v94, main_v95, main_c_20, main_v96, main_v97, main_c_21, main_v98, main_v99, main_v100, main_v101, main_v102]

set_option maxRecDepth 8192 in
theorem segSC2_a_wsub : (segSC2_a : List (HloOp τ sig (Elt F))).Forall fun op => op.writes ⊆ ((segSC2_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

set_option maxRecDepth 8192 in
theorem segSC2_b_wsub : (segSC2_b : List (HloOp τ sig (Elt F))).Forall fun op => op.writes ⊆ ((segSC2_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide)⟩

theorem segSC2_wsub : (segSC2 : List (HloOp τ sig (Elt F))).Forall fun op => op.writes ⊆ ((segSC2_writes).map (Proc.devRef (τ := τ) .tc)).toFinset :=
  List.forall_iff_forall_mem.mpr fun op h => by
    simp only [segSC2, List.mem_append] at h
    rcases h with h | h
    exacts [List.forall_iff_forall_mem.mp segSC2_a_wsub op h, List.forall_iff_forall_mem.mp segSC2_b_wsub op h]

/-- segSC2 leaves every buffer it does not write as it was. -/
theorem segSC2_keep (W : Valuation τ sig (Elt F)) {r : Ref sig .tc} (hr : r ∉ segSC2_writes) :
    StableHlo.after segSC2 W (Proc.devRef .tc r) = W (Proc.devRef .tc r) :=
  after_of_writes_sub segSC2 W segSC2_wsub hr

theorem keep_SC2_main_arg2 (W : Valuation τ sig (Elt F)) : StableHlo.after segSC2 W (Proc.devRef .tc main_arg2) = W (Proc.devRef .tc main_arg2) := segSC2_keep W (by decide)
theorem keep_SC2_main_arg12 (W : Valuation τ sig (Elt F)) : StableHlo.after segSC2 W (Proc.devRef .tc main_arg12) = W (Proc.devRef .tc main_arg12) := segSC2_keep W (by decide)
theorem keep_SC2_main_arg13 (W : Valuation τ sig (Elt F)) : StableHlo.after segSC2 W (Proc.devRef .tc main_arg13) = W (Proc.devRef .tc main_arg13) := segSC2_keep W (by decide)
theorem keep_SC2_main_arg14 (W : Valuation τ sig (Elt F)) : StableHlo.after segSC2 W (Proc.devRef .tc main_arg14) = W (Proc.devRef .tc main_arg14) := segSC2_keep W (by decide)
theorem keep_SC2_main_arg15 (W : Valuation τ sig (Elt F)) : StableHlo.after segSC2 W (Proc.devRef .tc main_arg15) = W (Proc.devRef .tc main_arg15) := segSC2_keep W (by decide)
theorem keep_SC2_main_arg16 (W : Valuation τ sig (Elt F)) : StableHlo.after segSC2 W (Proc.devRef .tc main_arg16) = W (Proc.devRef .tc main_arg16) := segSC2_keep W (by decide)
theorem keep_SC2_main_arg17 (W : Valuation τ sig (Elt F)) : StableHlo.after segSC2 W (Proc.devRef .tc main_arg17) = W (Proc.devRef .tc main_arg17) := segSC2_keep W (by decide)
theorem keep_SC2_main_arg18 (W : Valuation τ sig (Elt F)) : StableHlo.after segSC2 W (Proc.devRef .tc main_arg18) = W (Proc.devRef .tc main_arg18) := segSC2_keep W (by decide)
theorem keep_SC2_main_arg19 (W : Valuation τ sig (Elt F)) : StableHlo.after segSC2 W (Proc.devRef .tc main_arg19) = W (Proc.devRef .tc main_arg19) := segSC2_keep W (by decide)
theorem keep_SC2_main_arg20 (W : Valuation τ sig (Elt F)) : StableHlo.after segSC2 W (Proc.devRef .tc main_arg20) = W (Proc.devRef .tc main_arg20) := segSC2_keep W (by decide)
theorem keep_SC2_main_v1 (W : Valuation τ sig (Elt F)) : StableHlo.after segSC2 W (Proc.devRef .tc main_v1) = W (Proc.devRef .tc main_v1) := segSC2_keep W (by decide)
theorem keep_SC2_main_v3 (W : Valuation τ sig (Elt F)) : StableHlo.after segSC2 W (Proc.devRef .tc main_v3) = W (Proc.devRef .tc main_v3) := segSC2_keep W (by decide)

set_option maxRecDepth 16384 in
set_option maxHeartbeats 2700000 in
theorem segSC2_main_v82 (W : Valuation τ sig (Elt F)) :
    StableHlo.after segSC2 W (Proc.devRef .tc main_v82) = Cert.KernelIdeal.Stages.st5_v55 (W (Proc.devRef .tc main_v81)) := by
  rw [show (segSC2 : List (HloOp τ sig (Elt F))) = segSC2_a ++ segSC2_b from rfl, after_app]
  after_results_simp
  rfl

set_option maxRecDepth 16384 in
set_option maxHeartbeats 2700000 in
theorem segSC2_main_v95 (W : Valuation τ sig (Elt F)) :
    StableHlo.after segSC2 W (Proc.devRef .tc main_v95) = Cert.KernelIdeal.Stages.st5_v68 (W (Proc.devRef .tc main_v81)) (W (Proc.devRef .tc main_arg10)) (W (Proc.devRef .tc main_v1)) := by
  rw [show (segSC2 : List (HloOp τ sig (Elt F))) = segSC2_a ++ segSC2_b from rfl, after_app]
  after_results_simp
  rfl

set_option maxRecDepth 16384 in
set_option maxHeartbeats 2700000 in
theorem segSC2_main_v102 (W : Valuation τ sig (Elt F)) :
    StableHlo.after segSC2 W (Proc.devRef .tc main_v102) = Cert.KernelIdeal.Stages.st5_v75 (W (Proc.devRef .tc main_v81)) (W (Proc.devRef .tc main_arg11)) (W (Proc.devRef .tc main_v3)) := by
  rw [show (segSC2 : List (HloOp τ sig (Elt F))) = segSC2_a ++ segSC2_b from rfl, after_app]
  after_results_simp
  rfl

/-! ### segAT2 -/

/-- The buffers segAT2 writes. -/
abbrev segAT2_writes : List (Ref sig .tc) :=
  [main_v103, main_cst_22, main_call3_cst, main_call3_v0, main_call3_v1, main_call3_v2, main_call3_v3, main_call3_v4, main_v104, main_v105, main_v106, main_v107, main_v108]

set_option maxRecDepth 8192 in
theorem segAT2_wsub : (segAT2 : List (HloOp τ sig (Elt F))).Forall fun op => op.writes ⊆ ((segAT2_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segAT2 leaves every buffer it does not write as it was. -/
theorem segAT2_keep (W : Valuation τ sig (Elt F)) {r : Ref sig .tc} (hr : r ∉ segAT2_writes) :
    StableHlo.after segAT2 W (Proc.devRef .tc r) = W (Proc.devRef .tc r) :=
  after_of_writes_sub segAT2 W segAT2_wsub hr

theorem keep_AT2_main_arg2 (W : Valuation τ sig (Elt F)) : StableHlo.after segAT2 W (Proc.devRef .tc main_arg2) = W (Proc.devRef .tc main_arg2) := segAT2_keep W (by decide)
theorem keep_AT2_main_arg12 (W : Valuation τ sig (Elt F)) : StableHlo.after segAT2 W (Proc.devRef .tc main_arg12) = W (Proc.devRef .tc main_arg12) := segAT2_keep W (by decide)
theorem keep_AT2_main_arg13 (W : Valuation τ sig (Elt F)) : StableHlo.after segAT2 W (Proc.devRef .tc main_arg13) = W (Proc.devRef .tc main_arg13) := segAT2_keep W (by decide)
theorem keep_AT2_main_arg14 (W : Valuation τ sig (Elt F)) : StableHlo.after segAT2 W (Proc.devRef .tc main_arg14) = W (Proc.devRef .tc main_arg14) := segAT2_keep W (by decide)
theorem keep_AT2_main_arg15 (W : Valuation τ sig (Elt F)) : StableHlo.after segAT2 W (Proc.devRef .tc main_arg15) = W (Proc.devRef .tc main_arg15) := segAT2_keep W (by decide)
theorem keep_AT2_main_arg16 (W : Valuation τ sig (Elt F)) : StableHlo.after segAT2 W (Proc.devRef .tc main_arg16) = W (Proc.devRef .tc main_arg16) := segAT2_keep W (by decide)
theorem keep_AT2_main_arg17 (W : Valuation τ sig (Elt F)) : StableHlo.after segAT2 W (Proc.devRef .tc main_arg17) = W (Proc.devRef .tc main_arg17) := segAT2_keep W (by decide)
theorem keep_AT2_main_arg18 (W : Valuation τ sig (Elt F)) : StableHlo.after segAT2 W (Proc.devRef .tc main_arg18) = W (Proc.devRef .tc main_arg18) := segAT2_keep W (by decide)
theorem keep_AT2_main_arg19 (W : Valuation τ sig (Elt F)) : StableHlo.after segAT2 W (Proc.devRef .tc main_arg19) = W (Proc.devRef .tc main_arg19) := segAT2_keep W (by decide)
theorem keep_AT2_main_arg20 (W : Valuation τ sig (Elt F)) : StableHlo.after segAT2 W (Proc.devRef .tc main_arg20) = W (Proc.devRef .tc main_arg20) := segAT2_keep W (by decide)
theorem keep_AT2_main_v1 (W : Valuation τ sig (Elt F)) : StableHlo.after segAT2 W (Proc.devRef .tc main_v1) = W (Proc.devRef .tc main_v1) := segAT2_keep W (by decide)
theorem keep_AT2_main_v3 (W : Valuation τ sig (Elt F)) : StableHlo.after segAT2 W (Proc.devRef .tc main_v3) = W (Proc.devRef .tc main_v3) := segAT2_keep W (by decide)
theorem keep_AT2_main_v82 (W : Valuation τ sig (Elt F)) : StableHlo.after segAT2 W (Proc.devRef .tc main_v82) = W (Proc.devRef .tc main_v82) := segAT2_keep W (by decide)

/-- the leaky rectifier with slope 0.2, elementwise. -/
def refLeaky2 (z : (⟨S500000x4, .f32⟩ : BufTy).Contents (Elt F)) : (⟨S500000x4, .f32⟩ : BufTy).Contents (Elt F) :=
  ((select : (⟨S500000x4, .i1⟩ : BufTy).Contents (Elt F) → (⟨S500000x4, .f32⟩ : BufTy).Contents (Elt F) → (⟨S500000x4, .f32⟩ : BufTy).Contents (Elt F) → (⟨S500000x4, .f32⟩ : BufTy).Contents (Elt F)) (((cmpf .oge) : (⟨S500000x4, .f32⟩ : BufTy).Contents (Elt F) → (⟨S500000x4, .f32⟩ : BufTy).Contents (Elt F) → (⟨S500000x4, .i1⟩ : BufTy).Contents (Elt F)) z (((broadcastInDim S500000x4 ![] bcast_S_S500000x4) : (⟨S_, .f32⟩ : BufTy).Contents (Elt F) → (⟨S500000x4, .f32⟩ : BufTy).Contents (Elt F)) ((constant S_ .f32 0x00000000#32) : (⟨S_, .f32⟩ : BufTy).Contents (Elt F)))) z ((mulf : (⟨S500000x4, .f32⟩ : BufTy).Contents (Elt F) → (⟨S500000x4, .f32⟩ : BufTy).Contents (Elt F) → (⟨S500000x4, .f32⟩ : BufTy).Contents (Elt F)) (((broadcastInDim S500000x4 ![] bcast_S_S500000x4) : (⟨S_, .f32⟩ : BufTy).Contents (Elt F) → (⟨S500000x4, .f32⟩ : BufTy).Contents (Elt F)) ((id : (⟨S_, .f32⟩ : BufTy).Contents (Elt F) → (⟨S_, .f32⟩ : BufTy).Contents (Elt F)) ((constant S_ .f32 0x3E4CCCCD#32) : (⟨S_, .f32⟩ : BufTy).Contents (Elt F)))) z))

/-- the exponential of the rectified score sum times the edge weight (given as a column) broadcast over the heads. -/
def refAT2 (ssg : (⟨S500000x4, .f32⟩ : BufTy).Contents (Elt F)) (sdg : (⟨S500000x4, .f32⟩ : BufTy).Contents (Elt F)) (ew2 : (⟨S500000x1, .f32⟩ : BufTy).Contents (Elt F)) : (⟨S500000x4, .f32⟩ : BufTy).Contents (Elt F) :=
  ((Host.exp : (⟨S500000x4, .f32⟩ : BufTy).Contents (Elt F) → (⟨S500000x4, .f32⟩ : BufTy).Contents (Elt F)) ((mulf : (⟨S500000x4, .f32⟩ : BufTy).Contents (Elt F) → (⟨S500000x4, .f32⟩ : BufTy).Contents (Elt F) → (⟨S500000x4, .f32⟩ : BufTy).Contents (Elt F)) (refLeaky2 ((addf : (⟨S500000x4, .f32⟩ : BufTy).Contents (Elt F) → (⟨S500000x4, .f32⟩ : BufTy).Contents (Elt F) → (⟨S500000x4, .f32⟩ : BufTy).Contents (Elt F)) ssg sdg)) ((broadcastInDim S500000x4 ![0, 1] bcast_S500000x1_S500000x4_0_1 : (⟨S500000x1, .f32⟩ : BufTy).Contents (Elt F) → (⟨S500000x4, .f32⟩ : BufTy).Contents (Elt F)) ew2)))

set_option maxRecDepth 16384 in
set_option maxHeartbeats 1300000 in
theorem segAT2_main_v108 (W : Valuation τ sig (Elt F)) :
    StableHlo.after segAT2 W (Proc.devRef .tc main_v108) = refAT2 (W (Proc.devRef .tc main_v95)) (W (Proc.devRef .tc main_v102)) ((broadcastInDim S500000x1 ![0] bcast_S500000_S500000x1_0 : (⟨S500000, .f32⟩ : BufTy).Contents (Elt F) → (⟨S500000x1, .f32⟩ : BufTy).Contents (Elt F)) (W (Proc.devRef .tc main_arg2))) := by
  after_results_simp
  rfl

/-! ### segDN2 -/

/-- The buffers segDN2 writes. -/
abbrev segDN2_writes : List (Ref sig .tc) :=
  [main_cst_23, main_v109, main_v110, main_v111, main_c_24, main_v112, main_v113, main_c_25, main_v114, main_v115, main_v116, main_v117, main_v118]

set_option maxRecDepth 8192 in
theorem segDN2_wsub : (segDN2 : List (HloOp τ sig (Elt F))).Forall fun op => op.writes ⊆ ((segDN2_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segDN2 leaves every buffer it does not write as it was. -/
theorem segDN2_keep (W : Valuation τ sig (Elt F)) {r : Ref sig .tc} (hr : r ∉ segDN2_writes) :
    StableHlo.after segDN2 W (Proc.devRef .tc r) = W (Proc.devRef .tc r) :=
  after_of_writes_sub segDN2 W segDN2_wsub hr

theorem keep_DN2_main_arg2 (W : Valuation τ sig (Elt F)) : StableHlo.after segDN2 W (Proc.devRef .tc main_arg2) = W (Proc.devRef .tc main_arg2) := segDN2_keep W (by decide)
theorem keep_DN2_main_arg12 (W : Valuation τ sig (Elt F)) : StableHlo.after segDN2 W (Proc.devRef .tc main_arg12) = W (Proc.devRef .tc main_arg12) := segDN2_keep W (by decide)
theorem keep_DN2_main_arg13 (W : Valuation τ sig (Elt F)) : StableHlo.after segDN2 W (Proc.devRef .tc main_arg13) = W (Proc.devRef .tc main_arg13) := segDN2_keep W (by decide)
theorem keep_DN2_main_arg14 (W : Valuation τ sig (Elt F)) : StableHlo.after segDN2 W (Proc.devRef .tc main_arg14) = W (Proc.devRef .tc main_arg14) := segDN2_keep W (by decide)
theorem keep_DN2_main_arg15 (W : Valuation τ sig (Elt F)) : StableHlo.after segDN2 W (Proc.devRef .tc main_arg15) = W (Proc.devRef .tc main_arg15) := segDN2_keep W (by decide)
theorem keep_DN2_main_arg16 (W : Valuation τ sig (Elt F)) : StableHlo.after segDN2 W (Proc.devRef .tc main_arg16) = W (Proc.devRef .tc main_arg16) := segDN2_keep W (by decide)
theorem keep_DN2_main_arg17 (W : Valuation τ sig (Elt F)) : StableHlo.after segDN2 W (Proc.devRef .tc main_arg17) = W (Proc.devRef .tc main_arg17) := segDN2_keep W (by decide)
theorem keep_DN2_main_arg18 (W : Valuation τ sig (Elt F)) : StableHlo.after segDN2 W (Proc.devRef .tc main_arg18) = W (Proc.devRef .tc main_arg18) := segDN2_keep W (by decide)
theorem keep_DN2_main_arg19 (W : Valuation τ sig (Elt F)) : StableHlo.after segDN2 W (Proc.devRef .tc main_arg19) = W (Proc.devRef .tc main_arg19) := segDN2_keep W (by decide)
theorem keep_DN2_main_arg20 (W : Valuation τ sig (Elt F)) : StableHlo.after segDN2 W (Proc.devRef .tc main_arg20) = W (Proc.devRef .tc main_arg20) := segDN2_keep W (by decide)
theorem keep_DN2_main_v1 (W : Valuation τ sig (Elt F)) : StableHlo.after segDN2 W (Proc.devRef .tc main_v1) = W (Proc.devRef .tc main_v1) := segDN2_keep W (by decide)
theorem keep_DN2_main_v3 (W : Valuation τ sig (Elt F)) : StableHlo.after segDN2 W (Proc.devRef .tc main_v3) = W (Proc.devRef .tc main_v3) := segDN2_keep W (by decide)
theorem keep_DN2_main_v82 (W : Valuation τ sig (Elt F)) : StableHlo.after segDN2 W (Proc.devRef .tc main_v82) = W (Proc.devRef .tc main_v82) := segDN2_keep W (by decide)
theorem keep_DN2_main_v108 (W : Valuation τ sig (Elt F)) : StableHlo.after segDN2 W (Proc.devRef .tc main_v108) = W (Proc.devRef .tc main_v108) := segDN2_keep W (by decide)

set_option maxRecDepth 16384 in
set_option maxHeartbeats 1300000 in
theorem segDN2_main_v118 (W : Valuation τ sig (Elt F)) :
    StableHlo.after segDN2 W (Proc.devRef .tc main_v118) = Cert.KernelIdeal.Stages.st6_v86 (W (Proc.devRef .tc main_v3)) (W (Proc.devRef .tc main_v108)) := by
  after_results_simp
  rfl

/-! ### segAL2 -/

/-- The buffers segAL2 writes. -/
abbrev segAL2_writes : List (Ref sig .tc) :=
  [main_cst_26, main_v119, main_v120, main_v121, main_v122]

set_option maxRecDepth 8192 in
theorem segAL2_wsub : (segAL2 : List (HloOp τ sig (Elt F))).Forall fun op => op.writes ⊆ ((segAL2_writes).map (Proc.devRef (τ := τ) .tc)).toFinset :=
  ⟨wsub_of_mem (by decide), wsub_of_mem (by decide), wsub_of_mem (by decide), wsub_of_mem (by decide), wsub_of_mem (by decide)⟩

/-- segAL2 leaves every buffer it does not write as it was. -/
theorem segAL2_keep (W : Valuation τ sig (Elt F)) {r : Ref sig .tc} (hr : r ∉ segAL2_writes) :
    StableHlo.after segAL2 W (Proc.devRef .tc r) = W (Proc.devRef .tc r) :=
  after_of_writes_sub segAL2 W segAL2_wsub hr

theorem keep_AL2_main_arg2 (W : Valuation τ sig (Elt F)) : StableHlo.after segAL2 W (Proc.devRef .tc main_arg2) = W (Proc.devRef .tc main_arg2) := segAL2_keep W (by decide)
theorem keep_AL2_main_arg12 (W : Valuation τ sig (Elt F)) : StableHlo.after segAL2 W (Proc.devRef .tc main_arg12) = W (Proc.devRef .tc main_arg12) := segAL2_keep W (by decide)
theorem keep_AL2_main_arg13 (W : Valuation τ sig (Elt F)) : StableHlo.after segAL2 W (Proc.devRef .tc main_arg13) = W (Proc.devRef .tc main_arg13) := segAL2_keep W (by decide)
theorem keep_AL2_main_arg14 (W : Valuation τ sig (Elt F)) : StableHlo.after segAL2 W (Proc.devRef .tc main_arg14) = W (Proc.devRef .tc main_arg14) := segAL2_keep W (by decide)
theorem keep_AL2_main_arg15 (W : Valuation τ sig (Elt F)) : StableHlo.after segAL2 W (Proc.devRef .tc main_arg15) = W (Proc.devRef .tc main_arg15) := segAL2_keep W (by decide)
theorem keep_AL2_main_arg16 (W : Valuation τ sig (Elt F)) : StableHlo.after segAL2 W (Proc.devRef .tc main_arg16) = W (Proc.devRef .tc main_arg16) := segAL2_keep W (by decide)
theorem keep_AL2_main_arg17 (W : Valuation τ sig (Elt F)) : StableHlo.after segAL2 W (Proc.devRef .tc main_arg17) = W (Proc.devRef .tc main_arg17) := segAL2_keep W (by decide)
theorem keep_AL2_main_arg18 (W : Valuation τ sig (Elt F)) : StableHlo.after segAL2 W (Proc.devRef .tc main_arg18) = W (Proc.devRef .tc main_arg18) := segAL2_keep W (by decide)
theorem keep_AL2_main_arg19 (W : Valuation τ sig (Elt F)) : StableHlo.after segAL2 W (Proc.devRef .tc main_arg19) = W (Proc.devRef .tc main_arg19) := segAL2_keep W (by decide)
theorem keep_AL2_main_arg20 (W : Valuation τ sig (Elt F)) : StableHlo.after segAL2 W (Proc.devRef .tc main_arg20) = W (Proc.devRef .tc main_arg20) := segAL2_keep W (by decide)
theorem keep_AL2_main_v1 (W : Valuation τ sig (Elt F)) : StableHlo.after segAL2 W (Proc.devRef .tc main_v1) = W (Proc.devRef .tc main_v1) := segAL2_keep W (by decide)
theorem keep_AL2_main_v3 (W : Valuation τ sig (Elt F)) : StableHlo.after segAL2 W (Proc.devRef .tc main_v3) = W (Proc.devRef .tc main_v3) := segAL2_keep W (by decide)
theorem keep_AL2_main_v82 (W : Valuation τ sig (Elt F)) : StableHlo.after segAL2 W (Proc.devRef .tc main_v82) = W (Proc.devRef .tc main_v82) := segAL2_keep W (by decide)

/-- the exponential over the gathered sum plus the small constant, with a trailing unit axis. -/
def refAL2 (a_exp : (⟨S500000x4, .f32⟩ : BufTy).Contents (Elt F)) (denom_g : (⟨S500000x4, .f32⟩ : BufTy).Contents (Elt F)) : (⟨S500000x4x1, .f32⟩ : BufTy).Contents (Elt F) :=
  ((broadcastInDim S500000x4x1 ![0, 1] bcast_S500000x4_S500000x4x1_0_1 : (⟨S500000x4, .f32⟩ : BufTy).Contents (Elt F) → (⟨S500000x4x1, .f32⟩ : BufTy).Contents (Elt F)) ((Host.divf : (⟨S500000x4, .f32⟩ : BufTy).Contents (Elt F) → (⟨S500000x4, .f32⟩ : BufTy).Contents (Elt F) → (⟨S500000x4, .f32⟩ : BufTy).Contents (Elt F)) a_exp ((addf : (⟨S500000x4, .f32⟩ : BufTy).Contents (Elt F) → (⟨S500000x4, .f32⟩ : BufTy).Contents (Elt F) → (⟨S500000x4, .f32⟩ : BufTy).Contents (Elt F)) denom_g ((broadcastInDim S500000x4 ![] bcast_S_S500000x4 : (⟨S_, .f32⟩ : BufTy).Contents (Elt F) → (⟨S500000x4, .f32⟩ : BufTy).Contents (Elt F)) ((constant S_ .f32 0x24E69595#32) : (⟨S_, .f32⟩ : BufTy).Contents (Elt F))))))

set_option maxRecDepth 16384 in
set_option maxHeartbeats 500000 in
theorem segAL2_main_v122 (W : Valuation τ sig (Elt F)) :
    StableHlo.after segAL2 W (Proc.devRef .tc main_v122) = refAL2 (W (Proc.devRef .tc main_v108)) (W (Proc.devRef .tc main_v118)) := by
  after_results_simp
  rfl

/-! ### segHG2 -/

/-- The buffers segHG2 writes. -/
abbrev segHG2_writes : List (Ref sig .tc) :=
  [main_c_27, main_v123, main_v124, main_c_28, main_v125, main_v126, main_v127, main_v128, main_v129]

set_option maxRecDepth 8192 in
theorem segHG2_wsub : (segHG2 : List (HloOp τ sig (Elt F))).Forall fun op => op.writes ⊆ ((segHG2_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segHG2 leaves every buffer it does not write as it was. -/
theorem segHG2_keep (W : Valuation τ sig (Elt F)) {r : Ref sig .tc} (hr : r ∉ segHG2_writes) :
    StableHlo.after segHG2 W (Proc.devRef .tc r) = W (Proc.devRef .tc r) :=
  after_of_writes_sub segHG2 W segHG2_wsub hr

theorem keep_HG2_main_arg2 (W : Valuation τ sig (Elt F)) : StableHlo.after segHG2 W (Proc.devRef .tc main_arg2) = W (Proc.devRef .tc main_arg2) := segHG2_keep W (by decide)
theorem keep_HG2_main_arg12 (W : Valuation τ sig (Elt F)) : StableHlo.after segHG2 W (Proc.devRef .tc main_arg12) = W (Proc.devRef .tc main_arg12) := segHG2_keep W (by decide)
theorem keep_HG2_main_arg13 (W : Valuation τ sig (Elt F)) : StableHlo.after segHG2 W (Proc.devRef .tc main_arg13) = W (Proc.devRef .tc main_arg13) := segHG2_keep W (by decide)
theorem keep_HG2_main_arg14 (W : Valuation τ sig (Elt F)) : StableHlo.after segHG2 W (Proc.devRef .tc main_arg14) = W (Proc.devRef .tc main_arg14) := segHG2_keep W (by decide)
theorem keep_HG2_main_arg15 (W : Valuation τ sig (Elt F)) : StableHlo.after segHG2 W (Proc.devRef .tc main_arg15) = W (Proc.devRef .tc main_arg15) := segHG2_keep W (by decide)
theorem keep_HG2_main_arg16 (W : Valuation τ sig (Elt F)) : StableHlo.after segHG2 W (Proc.devRef .tc main_arg16) = W (Proc.devRef .tc main_arg16) := segHG2_keep W (by decide)
theorem keep_HG2_main_arg17 (W : Valuation τ sig (Elt F)) : StableHlo.after segHG2 W (Proc.devRef .tc main_arg17) = W (Proc.devRef .tc main_arg17) := segHG2_keep W (by decide)
theorem keep_HG2_main_arg18 (W : Valuation τ sig (Elt F)) : StableHlo.after segHG2 W (Proc.devRef .tc main_arg18) = W (Proc.devRef .tc main_arg18) := segHG2_keep W (by decide)
theorem keep_HG2_main_arg19 (W : Valuation τ sig (Elt F)) : StableHlo.after segHG2 W (Proc.devRef .tc main_arg19) = W (Proc.devRef .tc main_arg19) := segHG2_keep W (by decide)
theorem keep_HG2_main_arg20 (W : Valuation τ sig (Elt F)) : StableHlo.after segHG2 W (Proc.devRef .tc main_arg20) = W (Proc.devRef .tc main_arg20) := segHG2_keep W (by decide)
theorem keep_HG2_main_v1 (W : Valuation τ sig (Elt F)) : StableHlo.after segHG2 W (Proc.devRef .tc main_v1) = W (Proc.devRef .tc main_v1) := segHG2_keep W (by decide)
theorem keep_HG2_main_v3 (W : Valuation τ sig (Elt F)) : StableHlo.after segHG2 W (Proc.devRef .tc main_v3) = W (Proc.devRef .tc main_v3) := segHG2_keep W (by decide)
theorem keep_HG2_main_v122 (W : Valuation τ sig (Elt F)) : StableHlo.after segHG2 W (Proc.devRef .tc main_v122) = W (Proc.devRef .tc main_v122) := segHG2_keep W (by decide)

set_option maxRecDepth 16384 in
set_option maxHeartbeats 900000 in
theorem segHG2_main_v129 (W : Valuation τ sig (Elt F)) :
    StableHlo.after segHG2 W (Proc.devRef .tc main_v129) = Cert.KernelIdeal.Stages.st6_v93 (W (Proc.devRef .tc main_v82)) (W (Proc.devRef .tc main_v3)) := by
  after_results_simp
  rfl

/-! ### segMS2 -/

/-- The buffers segMS2 writes. -/
abbrev segMS2_writes : List (Ref sig .tc) :=
  [main_v130, main_v131]

set_option maxRecDepth 8192 in
theorem segMS2_wsub : (segMS2 : List (HloOp τ sig (Elt F))).Forall fun op => op.writes ⊆ ((segMS2_writes).map (Proc.devRef (τ := τ) .tc)).toFinset :=
  ⟨wsub_of_mem (by decide), wsub_of_mem (by decide)⟩

/-- segMS2 leaves every buffer it does not write as it was. -/
theorem segMS2_keep (W : Valuation τ sig (Elt F)) {r : Ref sig .tc} (hr : r ∉ segMS2_writes) :
    StableHlo.after segMS2 W (Proc.devRef .tc r) = W (Proc.devRef .tc r) :=
  after_of_writes_sub segMS2 W segMS2_wsub hr

theorem keep_MS2_main_arg2 (W : Valuation τ sig (Elt F)) : StableHlo.after segMS2 W (Proc.devRef .tc main_arg2) = W (Proc.devRef .tc main_arg2) := segMS2_keep W (by decide)
theorem keep_MS2_main_arg12 (W : Valuation τ sig (Elt F)) : StableHlo.after segMS2 W (Proc.devRef .tc main_arg12) = W (Proc.devRef .tc main_arg12) := segMS2_keep W (by decide)
theorem keep_MS2_main_arg13 (W : Valuation τ sig (Elt F)) : StableHlo.after segMS2 W (Proc.devRef .tc main_arg13) = W (Proc.devRef .tc main_arg13) := segMS2_keep W (by decide)
theorem keep_MS2_main_arg14 (W : Valuation τ sig (Elt F)) : StableHlo.after segMS2 W (Proc.devRef .tc main_arg14) = W (Proc.devRef .tc main_arg14) := segMS2_keep W (by decide)
theorem keep_MS2_main_arg15 (W : Valuation τ sig (Elt F)) : StableHlo.after segMS2 W (Proc.devRef .tc main_arg15) = W (Proc.devRef .tc main_arg15) := segMS2_keep W (by decide)
theorem keep_MS2_main_arg16 (W : Valuation τ sig (Elt F)) : StableHlo.after segMS2 W (Proc.devRef .tc main_arg16) = W (Proc.devRef .tc main_arg16) := segMS2_keep W (by decide)
theorem keep_MS2_main_arg17 (W : Valuation τ sig (Elt F)) : StableHlo.after segMS2 W (Proc.devRef .tc main_arg17) = W (Proc.devRef .tc main_arg17) := segMS2_keep W (by decide)
theorem keep_MS2_main_arg18 (W : Valuation τ sig (Elt F)) : StableHlo.after segMS2 W (Proc.devRef .tc main_arg18) = W (Proc.devRef .tc main_arg18) := segMS2_keep W (by decide)
theorem keep_MS2_main_arg19 (W : Valuation τ sig (Elt F)) : StableHlo.after segMS2 W (Proc.devRef .tc main_arg19) = W (Proc.devRef .tc main_arg19) := segMS2_keep W (by decide)
theorem keep_MS2_main_arg20 (W : Valuation τ sig (Elt F)) : StableHlo.after segMS2 W (Proc.devRef .tc main_arg20) = W (Proc.devRef .tc main_arg20) := segMS2_keep W (by decide)
theorem keep_MS2_main_v1 (W : Valuation τ sig (Elt F)) : StableHlo.after segMS2 W (Proc.devRef .tc main_v1) = W (Proc.devRef .tc main_v1) := segMS2_keep W (by decide)
theorem keep_MS2_main_v3 (W : Valuation τ sig (Elt F)) : StableHlo.after segMS2 W (Proc.devRef .tc main_v3) = W (Proc.devRef .tc main_v3) := segMS2_keep W (by decide)

/-- the attention weight broadcast along the feature axis times the gathered features. -/
def refMS2 (alpha_b : (⟨S500000x4x1, .f32⟩ : BufTy).Contents (Elt F)) (hg : (⟨S500000x4x64, .f32⟩ : BufTy).Contents (Elt F)) : (⟨S500000x4x64, .f32⟩ : BufTy).Contents (Elt F) :=
  ((mulf : (⟨S500000x4x64, .f32⟩ : BufTy).Contents (Elt F) → (⟨S500000x4x64, .f32⟩ : BufTy).Contents (Elt F) → (⟨S500000x4x64, .f32⟩ : BufTy).Contents (Elt F)) ((broadcastInDim S500000x4x64 ![0, 1, 2] bcast_S500000x4x1_S500000x4x64_0_1_2 : (⟨S500000x4x1, .f32⟩ : BufTy).Contents (Elt F) → (⟨S500000x4x64, .f32⟩ : BufTy).Contents (Elt F)) alpha_b) hg)

set_option maxRecDepth 16384 in
set_option maxHeartbeats 400000 in
theorem segMS2_main_v131 (W : Valuation τ sig (Elt F)) :
    StableHlo.after segMS2 W (Proc.devRef .tc main_v131) = refMS2 (W (Proc.devRef .tc main_v122)) (W (Proc.devRef .tc main_v129)) := by
  after_results_simp
  rfl

/-! ### segAG2 -/

/-- The buffers segAG2 writes. -/
abbrev segAG2_writes : List (Ref sig .tc) :=
  [main_cst_29, main_v132, main_v133, main_v134, main_v135]

set_option maxRecDepth 8192 in
theorem segAG2_wsub : (segAG2 : List (HloOp τ sig (Elt F))).Forall fun op => op.writes ⊆ ((segAG2_writes).map (Proc.devRef (τ := τ) .tc)).toFinset :=
  ⟨wsub_of_mem (by decide), wsub_of_mem (by decide), wsub_of_mem (by decide), wsub_of_mem (by decide), wsub_of_mem (by decide)⟩

/-- segAG2 leaves every buffer it does not write as it was. -/
theorem segAG2_keep (W : Valuation τ sig (Elt F)) {r : Ref sig .tc} (hr : r ∉ segAG2_writes) :
    StableHlo.after segAG2 W (Proc.devRef .tc r) = W (Proc.devRef .tc r) :=
  after_of_writes_sub segAG2 W segAG2_wsub hr

theorem keep_AG2_main_arg2 (W : Valuation τ sig (Elt F)) : StableHlo.after segAG2 W (Proc.devRef .tc main_arg2) = W (Proc.devRef .tc main_arg2) := segAG2_keep W (by decide)
theorem keep_AG2_main_arg12 (W : Valuation τ sig (Elt F)) : StableHlo.after segAG2 W (Proc.devRef .tc main_arg12) = W (Proc.devRef .tc main_arg12) := segAG2_keep W (by decide)
theorem keep_AG2_main_arg13 (W : Valuation τ sig (Elt F)) : StableHlo.after segAG2 W (Proc.devRef .tc main_arg13) = W (Proc.devRef .tc main_arg13) := segAG2_keep W (by decide)
theorem keep_AG2_main_arg14 (W : Valuation τ sig (Elt F)) : StableHlo.after segAG2 W (Proc.devRef .tc main_arg14) = W (Proc.devRef .tc main_arg14) := segAG2_keep W (by decide)
theorem keep_AG2_main_arg15 (W : Valuation τ sig (Elt F)) : StableHlo.after segAG2 W (Proc.devRef .tc main_arg15) = W (Proc.devRef .tc main_arg15) := segAG2_keep W (by decide)
theorem keep_AG2_main_arg16 (W : Valuation τ sig (Elt F)) : StableHlo.after segAG2 W (Proc.devRef .tc main_arg16) = W (Proc.devRef .tc main_arg16) := segAG2_keep W (by decide)
theorem keep_AG2_main_arg17 (W : Valuation τ sig (Elt F)) : StableHlo.after segAG2 W (Proc.devRef .tc main_arg17) = W (Proc.devRef .tc main_arg17) := segAG2_keep W (by decide)
theorem keep_AG2_main_arg18 (W : Valuation τ sig (Elt F)) : StableHlo.after segAG2 W (Proc.devRef .tc main_arg18) = W (Proc.devRef .tc main_arg18) := segAG2_keep W (by decide)
theorem keep_AG2_main_arg19 (W : Valuation τ sig (Elt F)) : StableHlo.after segAG2 W (Proc.devRef .tc main_arg19) = W (Proc.devRef .tc main_arg19) := segAG2_keep W (by decide)
theorem keep_AG2_main_arg20 (W : Valuation τ sig (Elt F)) : StableHlo.after segAG2 W (Proc.devRef .tc main_arg20) = W (Proc.devRef .tc main_arg20) := segAG2_keep W (by decide)
theorem keep_AG2_main_v1 (W : Valuation τ sig (Elt F)) : StableHlo.after segAG2 W (Proc.devRef .tc main_v1) = W (Proc.devRef .tc main_v1) := segAG2_keep W (by decide)
theorem keep_AG2_main_v3 (W : Valuation τ sig (Elt F)) : StableHlo.after segAG2 W (Proc.devRef .tc main_v3) = W (Proc.devRef .tc main_v3) := segAG2_keep W (by decide)

set_option maxRecDepth 16384 in
set_option maxHeartbeats 500000 in
theorem segAG2_main_v135 (W : Valuation τ sig (Elt F)) :
    StableHlo.after segAG2 W (Proc.devRef .tc main_v135) = Cert.KernelIdeal.Stages.st7_v98 (W (Proc.devRef .tc main_v1)) (W (Proc.devRef .tc main_v131)) := by
  after_results_simp
  rfl

/-! ### segLN2 -/

/-- The buffers segLN2 writes. -/
abbrev segLN2_writes : List (Ref sig .tc) :=
  [main_v136, main_v137, main_v138, main_cst_30, main_v139, main_v140, main_cst_31, main_v141, main_v142, main_c_32, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v143, main_v144, main_v145, main_cst_33, main_v146, main_v147, main_v148, main_v149, main_v150, main_v151, main_v152, main_v153, main_v154, main_v155, main_v156, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v157]

set_option maxRecDepth 8192 in
theorem segLN2_a_wsub : (segLN2_a : List (HloOp τ sig (Elt F))).Forall fun op => op.writes ⊆ ((segLN2_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

set_option maxRecDepth 8192 in
theorem segLN2_b_wsub : (segLN2_b : List (HloOp τ sig (Elt F))).Forall fun op => op.writes ⊆ ((segLN2_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

theorem segLN2_wsub : (segLN2 : List (HloOp τ sig (Elt F))).Forall fun op => op.writes ⊆ ((segLN2_writes).map (Proc.devRef (τ := τ) .tc)).toFinset :=
  List.forall_iff_forall_mem.mpr fun op h => by
    simp only [segLN2, List.mem_append] at h
    rcases h with h | h
    exacts [List.forall_iff_forall_mem.mp segLN2_a_wsub op h, List.forall_iff_forall_mem.mp segLN2_b_wsub op h]

/-- segLN2 leaves every buffer it does not write as it was. -/
theorem segLN2_keep (W : Valuation τ sig (Elt F)) {r : Ref sig .tc} (hr : r ∉ segLN2_writes) :
    StableHlo.after segLN2 W (Proc.devRef .tc r) = W (Proc.devRef .tc r) :=
  after_of_writes_sub segLN2 W segLN2_wsub hr

theorem keep_LN2_main_arg2 (W : Valuation τ sig (Elt F)) : StableHlo.after segLN2 W (Proc.devRef .tc main_arg2) = W (Proc.devRef .tc main_arg2) := segLN2_keep W (by decide)
theorem keep_LN2_main_arg15 (W : Valuation τ sig (Elt F)) : StableHlo.after segLN2 W (Proc.devRef .tc main_arg15) = W (Proc.devRef .tc main_arg15) := segLN2_keep W (by decide)
theorem keep_LN2_main_arg16 (W : Valuation τ sig (Elt F)) : StableHlo.after segLN2 W (Proc.devRef .tc main_arg16) = W (Proc.devRef .tc main_arg16) := segLN2_keep W (by decide)
theorem keep_LN2_main_arg17 (W : Valuation τ sig (Elt F)) : StableHlo.after segLN2 W (Proc.devRef .tc main_arg17) = W (Proc.devRef .tc main_arg17) := segLN2_keep W (by decide)
theorem keep_LN2_main_arg18 (W : Valuation τ sig (Elt F)) : StableHlo.after segLN2 W (Proc.devRef .tc main_arg18) = W (Proc.devRef .tc main_arg18) := segLN2_keep W (by decide)
theorem keep_LN2_main_arg19 (W : Valuation τ sig (Elt F)) : StableHlo.after segLN2 W (Proc.devRef .tc main_arg19) = W (Proc.devRef .tc main_arg19) := segLN2_keep W (by decide)
theorem keep_LN2_main_arg20 (W : Valuation τ sig (Elt F)) : StableHlo.after segLN2 W (Proc.devRef .tc main_arg20) = W (Proc.devRef .tc main_arg20) := segLN2_keep W (by decide)
theorem keep_LN2_main_v1 (W : Valuation τ sig (Elt F)) : StableHlo.after segLN2 W (Proc.devRef .tc main_v1) = W (Proc.devRef .tc main_v1) := segLN2_keep W (by decide)
theorem keep_LN2_main_v3 (W : Valuation τ sig (Elt F)) : StableHlo.after segLN2 W (Proc.devRef .tc main_v3) = W (Proc.devRef .tc main_v3) := segLN2_keep W (by decide)

/-- the aggregate plus the bias row broadcast over the nodes. -/
def refBias2 (agg : (⟨S50000x256, .f32⟩ : BufTy).Contents (Elt F)) (b2 : (⟨S1x256, .f32⟩ : BufTy).Contents (Elt F)) : (⟨S50000x256, .f32⟩ : BufTy).Contents (Elt F) :=
  ((addf : (⟨S50000x256, .f32⟩ : BufTy).Contents (Elt F) → (⟨S50000x256, .f32⟩ : BufTy).Contents (Elt F) → (⟨S50000x256, .f32⟩ : BufTy).Contents (Elt F)) agg ((broadcastInDim S50000x256 ![0, 1] bcast_S1x256_S50000x256_0_1 : (⟨S1x256, .f32⟩ : BufTy).Contents (Elt F) → (⟨S50000x256, .f32⟩ : BufTy).Contents (Elt F)) b2))

/-- the mean over the feature axis, kept as a column. -/
def refMean2 (x : (⟨S50000x256, .f32⟩ : BufTy).Contents (Elt F)) : (⟨S50000x1, .f32⟩ : BufTy).Contents (Elt F) :=
  ((Host.divf : (⟨S50000x1, .f32⟩ : BufTy).Contents (Elt F) → (⟨S50000x1, .f32⟩ : BufTy).Contents (Elt F) → (⟨S50000x1, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) ((broadcastInDim S50000x1 ![] bcast_S_S50000x1 : (⟨S_, .f32⟩ : BufTy).Contents (Elt F) → (⟨S50000x1, .f32⟩ : BufTy).Contents (Elt F)) ((constant S_ .f32 0x43800000#32) : (⟨S_, .f32⟩ : BufTy).Contents (Elt F))))

/-- the variance over the feature axis (mean of the squared deviations), kept as a column. -/
def refVar2 (x : (⟨S50000x256, .f32⟩ : BufTy).Contents (Elt F)) : (⟨S50000x1, .f32⟩ : BufTy).Contents (Elt F) :=
  (((fun p a b => select (broadcastInDim S50000x1 ![] bcast_S_S50000x1 p) a b) : (⟨S_, .i1⟩ : BufTy).Contents (Elt F) → (⟨S50000x1, .f32⟩ : BufTy).Contents (Elt F) → (⟨S50000x1, .f32⟩ : BufTy).Contents (Elt F) → (⟨S50000x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x43800000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))) ((constant S_ .f32 0x00000000#32) : (⟨S_, .f32⟩ : BufTy).Contents (Elt F))) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) x (((broadcastInDim S50000x256 ![0, 1] bcast_S50000x1_S50000x256_0_1) : (⟨S50000x1, .f32⟩ : BufTy).Contents (Elt F) → (⟨S50000x256, .f32⟩ : BufTy).Contents (Elt F)) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((constant S_ .f32 0x43800000#32) : (⟨S_, .f32⟩ : BufTy).Contents (Elt F)))))) ((subf : (⟨S50000x256, .f32⟩ : BufTy).Contents (Elt F) → (⟨S50000x256, .f32⟩ : BufTy).Contents (Elt F) → (⟨S50000x256, .f32⟩ : BufTy).Contents (Elt F)) x (((broadcastInDim S50000x256 ![0, 1] bcast_S50000x1_S50000x256_0_1) : (⟨S50000x1, .f32⟩ : BufTy).Contents (Elt F) → (⟨S50000x256, .f32⟩ : BufTy).Contents (Elt F)) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((constant S_ .f32 0x43800000#32) : (⟨S_, .f32⟩ : BufTy).Contents (Elt F))))))) ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x43800000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))))) (((broadcastInDim S50000x1 ![] bcast_S_S50000x1) : (⟨S_, .f32⟩ : BufTy).Contents (Elt F) → (⟨S50000x1, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- the layer normalisation: centred, divided by the root of the variance plus the small constant, scaled and shifted by the broadcast rows. -/
def refNorm2 (x : (⟨S50000x256, .f32⟩ : BufTy).Contents (Elt F)) (g2 : (⟨S1x256, .f32⟩ : BufTy).Contents (Elt F)) (be2 : (⟨S1x256, .f32⟩ : BufTy).Contents (Elt F)) : (⟨S50000x256, .f32⟩ : BufTy).Contents (Elt F) :=
  ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((Host.divf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) x ((broadcastInDim S50000x256 ![0, 1] bcast_S50000x1_S50000x256_0_1 : (⟨S50000x1, .f32⟩ : BufTy).Contents (Elt F) → (⟨S50000x256, .f32⟩ : BufTy).Contents (Elt F)) (refMean2 x))) ((broadcastInDim S50000x256 ![0, 1] bcast_S50000x1_S50000x256_0_1 : (⟨S50000x1, .f32⟩ : BufTy).Contents (Elt F) → (⟨S50000x256, .f32⟩ : BufTy).Contents (Elt F)) ((Host.sqrt : (⟨S50000x1, .f32⟩ : BufTy).Contents (Elt F) → (⟨S50000x1, .f32⟩ : BufTy).Contents (Elt F)) ((addf : (⟨S50000x1, .f32⟩ : BufTy).Contents (Elt F) → (⟨S50000x1, .f32⟩ : BufTy).Contents (Elt F) → (⟨S50000x1, .f32⟩ : BufTy).Contents (Elt F)) (refVar2 x) ((broadcastInDim S50000x1 ![] bcast_S_S50000x1 : (⟨S_, .f32⟩ : BufTy).Contents (Elt F) → (⟨S50000x1, .f32⟩ : BufTy).Contents (Elt F)) ((constant S_ .f32 0x3727C5AC#32) : (⟨S_, .f32⟩ : BufTy).Contents (Elt F))))))) ((broadcastInDim S50000x256 ![0, 1] bcast_S1x256_S50000x256_0_1 : (⟨S1x256, .f32⟩ : BufTy).Contents (Elt F) → (⟨S50000x256, .f32⟩ : BufTy).Contents (Elt F)) g2)) ((broadcastInDim S50000x256 ![0, 1] bcast_S1x256_S50000x256_0_1 : (⟨S1x256, .f32⟩ : BufTy).Contents (Elt F) → (⟨S50000x256, .f32⟩ : BufTy).Contents (Elt F)) be2))

/-- the exponential linear unit, elementwise. -/
def refElu2 (y : (⟨S50000x256, .f32⟩ : BufTy).Contents (Elt F)) : (⟨S50000x256, .f32⟩ : BufTy).Contents (Elt F) :=
  ((select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) (((cmpf .ogt) : (⟨S50000x256, .f32⟩ : BufTy).Contents (Elt F) → (⟨S50000x256, .f32⟩ : BufTy).Contents (Elt F) → (⟨S50000x256, .i1⟩ : BufTy).Contents (Elt F)) y (((broadcastInDim S50000x256 ![] bcast_S_S50000x256) : (⟨S_, .f32⟩ : BufTy).Contents (Elt F) → (⟨S50000x256, .f32⟩ : BufTy).Contents (Elt F)) ((constant S_ .f32 0x00000000#32) : (⟨S_, .f32⟩ : BufTy).Contents (Elt F)))) y ((mulf : (⟨S50000x256, .f32⟩ : BufTy).Contents (Elt F) → (⟨S50000x256, .f32⟩ : BufTy).Contents (Elt F) → (⟨S50000x256, .f32⟩ : BufTy).Contents (Elt F)) (((broadcastInDim S50000x256 ![] bcast_S_S50000x256) : (⟨S_, .f32⟩ : BufTy).Contents (Elt F) → (⟨S50000x256, .f32⟩ : BufTy).Contents (Elt F)) ((constant S_ .f32 0x3F800000#32) : (⟨S_, .f32⟩ : BufTy).Contents (Elt F))) ((Host.expm1 : (⟨S50000x256, .f32⟩ : BufTy).Contents (Elt F) → (⟨S50000x256, .f32⟩ : BufTy).Contents (Elt F)) ((select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) (((cmpf .ogt) : (⟨S50000x256, .f32⟩ : BufTy).Contents (Elt F) → (⟨S50000x256, .f32⟩ : BufTy).Contents (Elt F) → (⟨S50000x256, .i1⟩ : BufTy).Contents (Elt F)) y (((broadcastInDim S50000x256 ![] bcast_S_S50000x256) : (⟨S_, .f32⟩ : BufTy).Contents (Elt F) → (⟨S50000x256, .f32⟩ : BufTy).Contents (Elt F)) ((constant S_ .f32 0x00000000#32) : (⟨S_, .f32⟩ : BufTy).Contents (Elt F)))) (((broadcastInDim S50000x256 ![] bcast_S_S50000x256) : (⟨S_, .f32⟩ : BufTy).Contents (Elt F) → (⟨S50000x256, .f32⟩ : BufTy).Contents (Elt F)) ((id : (⟨S_, .f32⟩ : BufTy).Contents (Elt F) → (⟨S_, .f32⟩ : BufTy).Contents (Elt F)) ((constant S_ .f32 0x00000000#32) : (⟨S_, .f32⟩ : BufTy).Contents (Elt F)))) y))))

/-- bias, layer normalisation and activation. -/
def refLN2 (agg : (⟨S50000x256, .f32⟩ : BufTy).Contents (Elt F)) (b2 : (⟨S1x256, .f32⟩ : BufTy).Contents (Elt F)) (g2 : (⟨S1x256, .f32⟩ : BufTy).Contents (Elt F)) (be2 : (⟨S1x256, .f32⟩ : BufTy).Contents (Elt F)) : (⟨S50000x256, .f32⟩ : BufTy).Contents (Elt F) :=
  (refElu2 (refNorm2 (refBias2 agg b2) g2 be2))

set_option maxRecDepth 16384 in
set_option maxHeartbeats 6200000 in
theorem segLN2_main_v157 (W : Valuation τ sig (Elt F)) :
    StableHlo.after segLN2 W (Proc.devRef .tc main_v157) = refLN2 (W (Proc.devRef .tc main_v135)) ((broadcastInDim S1x256 ![1] bcast_S256_S1x256_1 : (⟨S256, .f32⟩ : BufTy).Contents (Elt F) → (⟨S1x256, .f32⟩ : BufTy).Contents (Elt F)) (W (Proc.devRef .tc main_arg12))) ((broadcastInDim S1x256 ![1] bcast_S256_S1x256_1 : (⟨S256, .f32⟩ : BufTy).Contents (Elt F) → (⟨S1x256, .f32⟩ : BufTy).Contents (Elt F)) (W (Proc.devRef .tc main_arg13))) ((broadcastInDim S1x256 ![1] bcast_S256_S1x256_1 : (⟨S256, .f32⟩ : BufTy).Contents (Elt F) → (⟨S1x256, .f32⟩ : BufTy).Contents (Elt F)) (W (Proc.devRef .tc main_arg14))) := by
  rw [show (segLN2 : List (HloOp τ sig (Elt F))) = segLN2_a ++ segLN2_b from rfl, after_app]
  after_results_simp
  rfl

/-! ### segMM3 -/

/-- The buffers segMM3 writes. -/
abbrev segMM3_writes : List (Ref sig .tc) :=
  [main_v158]

set_option maxRecDepth 8192 in
theorem segMM3_wsub : (segMM3 : List (HloOp τ sig (Elt F))).Forall fun op => op.writes ⊆ ((segMM3_writes).map (Proc.devRef (τ := τ) .tc)).toFinset :=
  wsub_of_mem (by decide)

/-- segMM3 leaves every buffer it does not write as it was. -/
theorem segMM3_keep (W : Valuation τ sig (Elt F)) {r : Ref sig .tc} (hr : r ∉ segMM3_writes) :
    StableHlo.after segMM3 W (Proc.devRef .tc r) = W (Proc.devRef .tc r) :=
  after_of_writes_sub segMM3 W segMM3_wsub hr

theorem keep_MM3_main_arg2 (W : Valuation τ sig (Elt F)) : StableHlo.after segMM3 W (Proc.devRef .tc main_arg2) = W (Proc.devRef .tc main_arg2) := segMM3_keep W (by decide)
theorem keep_MM3_main_arg16 (W : Valuation τ sig (Elt F)) : StableHlo.after segMM3 W (Proc.devRef .tc main_arg16) = W (Proc.devRef .tc main_arg16) := segMM3_keep W (by decide)
theorem keep_MM3_main_arg17 (W : Valuation τ sig (Elt F)) : StableHlo.after segMM3 W (Proc.devRef .tc main_arg17) = W (Proc.devRef .tc main_arg17) := segMM3_keep W (by decide)
theorem keep_MM3_main_arg18 (W : Valuation τ sig (Elt F)) : StableHlo.after segMM3 W (Proc.devRef .tc main_arg18) = W (Proc.devRef .tc main_arg18) := segMM3_keep W (by decide)
theorem keep_MM3_main_arg19 (W : Valuation τ sig (Elt F)) : StableHlo.after segMM3 W (Proc.devRef .tc main_arg19) = W (Proc.devRef .tc main_arg19) := segMM3_keep W (by decide)
theorem keep_MM3_main_arg20 (W : Valuation τ sig (Elt F)) : StableHlo.after segMM3 W (Proc.devRef .tc main_arg20) = W (Proc.devRef .tc main_arg20) := segMM3_keep W (by decide)
theorem keep_MM3_main_v1 (W : Valuation τ sig (Elt F)) : StableHlo.after segMM3 W (Proc.devRef .tc main_v1) = W (Proc.devRef .tc main_v1) := segMM3_keep W (by decide)
theorem keep_MM3_main_v3 (W : Valuation τ sig (Elt F)) : StableHlo.after segMM3 W (Proc.devRef .tc main_v3) = W (Proc.devRef .tc main_v3) := segMM3_keep W (by decide)

/-- the dense product of the node features with the layer's weight. -/
def refMM3 (x : (⟨S50000x256, .f32⟩ : BufTy).Contents (Elt F)) (w : (⟨S256x128, .f32⟩ : BufTy).Contents (Elt F)) : (⟨S50000x128, .f32⟩ : BufTy).Contents (Elt F) :=
  (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) x w)

set_option maxRecDepth 16384 in
set_option maxHeartbeats 400000 in
theorem segMM3_main_v158 (W : Valuation τ sig (Elt F)) :
    StableHlo.after segMM3 W (Proc.devRef .tc main_v158) = refMM3 (W (Proc.devRef .tc main_v157)) (W (Proc.devRef .tc main_arg15)) := by
  after_results_simp
  rfl

/-! ### segSC3 -/

/-- The buffers segSC3 writes. -/
abbrev segSC3_writes : List (Ref sig .tc) :=
  [main_v159, main_v160, main_v161, main_cst_34, main_v162, main_v163, main_v164, main_cst_35, main_v165, main_c_36, main_v166, main_v167, main_c_37, main_v168, main_v169, main_v170, main_v171, main_v172, main_c_38, main_v173, main_v174, main_c_39, main_v175, main_v176, main_v177, main_v178, main_v179]

set_option maxRecDepth 8192 in
theorem segSC3_wsub : (segSC3 : List (HloOp τ sig (Elt F))).Forall fun op => op.writes ⊆ ((segSC3_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segSC3 leaves every buffer it does not write as it was. -/
theorem segSC3_keep (W : Valuation τ sig (Elt F)) {r : Ref sig .tc} (hr : r ∉ segSC3_writes) :
    StableHlo.after segSC3 W (Proc.devRef .tc r) = W (Proc.devRef .tc r) :=
  after_of_writes_sub segSC3 W segSC3_wsub hr

theorem keep_SC3_main_arg2 (W : Valuation τ sig (Elt F)) : StableHlo.after segSC3 W (Proc.devRef .tc main_arg2) = W (Proc.devRef .tc main_arg2) := segSC3_keep W (by decide)
theorem keep_SC3_main_arg18 (W : Valuation τ sig (Elt F)) : StableHlo.after segSC3 W (Proc.devRef .tc main_arg18) = W (Proc.devRef .tc main_arg18) := segSC3_keep W (by decide)
theorem keep_SC3_main_arg19 (W : Valuation τ sig (Elt F)) : StableHlo.after segSC3 W (Proc.devRef .tc main_arg19) = W (Proc.devRef .tc main_arg19) := segSC3_keep W (by decide)
theorem keep_SC3_main_arg20 (W : Valuation τ sig (Elt F)) : StableHlo.after segSC3 W (Proc.devRef .tc main_arg20) = W (Proc.devRef .tc main_arg20) := segSC3_keep W (by decide)
theorem keep_SC3_main_v1 (W : Valuation τ sig (Elt F)) : StableHlo.after segSC3 W (Proc.devRef .tc main_v1) = W (Proc.devRef .tc main_v1) := segSC3_keep W (by decide)
theorem keep_SC3_main_v3 (W : Valuation τ sig (Elt F)) : StableHlo.after segSC3 W (Proc.devRef .tc main_v3) = W (Proc.devRef .tc main_v3) := segSC3_keep W (by decide)

set_option maxRecDepth 16384 in
set_option maxHeartbeats 2700000 in
theorem segSC3_main_v159 (W : Valuation τ sig (Elt F)) :
    StableHlo.after segSC3 W (Proc.devRef .tc main_v159) = Cert.KernelIdeal.Stages.st9_v104 (W (Proc.devRef .tc main_v158)) := by
  after_results_simp
  rfl

set_option maxRecDepth 16384 in
set_option maxHeartbeats 2700000 in
theorem segSC3_main_v172 (W : Valuation τ sig (Elt F)) :
    StableHlo.after segSC3 W (Proc.devRef .tc main_v172) = Cert.KernelIdeal.Stages.st9_v117 (W (Proc.devRef .tc main_v158)) (W (Proc.devRef .tc main_arg16)) (W (Proc.devRef .tc main_v1)) := by
  after_results_simp
  rfl

set_option maxRecDepth 16384 in
set_option maxHeartbeats 2700000 in
theorem segSC3_main_v179 (W : Valuation τ sig (Elt F)) :
    StableHlo.after segSC3 W (Proc.devRef .tc main_v179) = Cert.KernelIdeal.Stages.st9_v124 (W (Proc.devRef .tc main_v158)) (W (Proc.devRef .tc main_arg17)) (W (Proc.devRef .tc main_v3)) := by
  after_results_simp
  rfl

/-! ### segAT3 -/

/-- The buffers segAT3 writes. -/
abbrev segAT3_writes : List (Ref sig .tc) :=
  [main_v180, main_cst_40, main_call6_cst, main_call6_v0, main_call6_v1, main_call6_v2, main_call6_v3, main_call6_v4, main_v181, main_v182, main_v183, main_v184]

set_option maxRecDepth 8192 in
theorem segAT3_wsub : (segAT3 : List (HloOp τ sig (Elt F))).Forall fun op => op.writes ⊆ ((segAT3_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segAT3 leaves every buffer it does not write as it was. -/
theorem segAT3_keep (W : Valuation τ sig (Elt F)) {r : Ref sig .tc} (hr : r ∉ segAT3_writes) :
    StableHlo.after segAT3 W (Proc.devRef .tc r) = W (Proc.devRef .tc r) :=
  after_of_writes_sub segAT3 W segAT3_wsub hr

theorem keep_AT3_main_arg18 (W : Valuation τ sig (Elt F)) : StableHlo.after segAT3 W (Proc.devRef .tc main_arg18) = W (Proc.devRef .tc main_arg18) := segAT3_keep W (by decide)
theorem keep_AT3_main_arg19 (W : Valuation τ sig (Elt F)) : StableHlo.after segAT3 W (Proc.devRef .tc main_arg19) = W (Proc.devRef .tc main_arg19) := segAT3_keep W (by decide)
theorem keep_AT3_main_arg20 (W : Valuation τ sig (Elt F)) : StableHlo.after segAT3 W (Proc.devRef .tc main_arg20) = W (Proc.devRef .tc main_arg20) := segAT3_keep W (by decide)
theorem keep_AT3_main_v1 (W : Valuation τ sig (Elt F)) : StableHlo.after segAT3 W (Proc.devRef .tc main_v1) = W (Proc.devRef .tc main_v1) := segAT3_keep W (by decide)
theorem keep_AT3_main_v3 (W : Valuation τ sig (Elt F)) : StableHlo.after segAT3 W (Proc.devRef .tc main_v3) = W (Proc.devRef .tc main_v3) := segAT3_keep W (by decide)
theorem keep_AT3_main_v159 (W : Valuation τ sig (Elt F)) : StableHlo.after segAT3 W (Proc.devRef .tc main_v159) = W (Proc.devRef .tc main_v159) := segAT3_keep W (by decide)

/-- the leaky rectifier with slope 0.2, elementwise. -/
def refLeaky3 (z : (⟨S500000x1, .f32⟩ : BufTy).Contents (Elt F)) : (⟨S500000x1, .f32⟩ : BufTy).Contents (Elt F) :=
  ((select : (⟨S500000x1, .i1⟩ : BufTy).Contents (Elt F) → (⟨S500000x1, .f32⟩ : BufTy).Contents (Elt F) → (⟨S500000x1, .f32⟩ : BufTy).Contents (Elt F) → (⟨S500000x1, .f32⟩ : BufTy).Contents (Elt F)) (((cmpf .oge) : (⟨S500000x1, .f32⟩ : BufTy).Contents (Elt F) → (⟨S500000x1, .f32⟩ : BufTy).Contents (Elt F) → (⟨S500000x1, .i1⟩ : BufTy).Contents (Elt F)) z (((broadcastInDim S500000x1 ![] bcast_S_S500000x1) : (⟨S_, .f32⟩ : BufTy).Contents (Elt F) → (⟨S500000x1, .f32⟩ : BufTy).Contents (Elt F)) ((constant S_ .f32 0x00000000#32) : (⟨S_, .f32⟩ : BufTy).Contents (Elt F)))) z ((mulf : (⟨S500000x1, .f32⟩ : BufTy).Contents (Elt F) → (⟨S500000x1, .f32⟩ : BufTy).Contents (Elt F) → (⟨S500000x1, .f32⟩ : BufTy).Contents (Elt F)) (((broadcastInDim S500000x1 ![] bcast_S_S500000x1) : (⟨S_, .f32⟩ : BufTy).Contents (Elt F) → (⟨S500000x1, .f32⟩ : BufTy).Contents (Elt F)) ((id : (⟨S_, .f32⟩ : BufTy).Contents (Elt F) → (⟨S_, .f32⟩ : BufTy).Contents (Elt F)) ((constant S_ .f32 0x3E4CCCCD#32) : (⟨S_, .f32⟩ : BufTy).Contents (Elt F)))) z))

/-- the exponential of the rectified score sum times the edge weight (a column). -/
def refAT3 (ssg : (⟨S500000x1, .f32⟩ : BufTy).Contents (Elt F)) (sdg : (⟨S500000x1, .f32⟩ : BufTy).Contents (Elt F)) (ew2 : (⟨S500000x1, .f32⟩ : BufTy).Contents (Elt F)) : (⟨S500000x1, .f32⟩ : BufTy).Contents (Elt F) :=
  ((Host.exp : (⟨S500000x1, .f32⟩ : BufTy).Contents (Elt F) → (⟨S500000x1, .f32⟩ : BufTy).Contents (Elt F)) ((mulf : (⟨S500000x1, .f32⟩ : BufTy).Contents (Elt F) → (⟨S500000x1, .f32⟩ : BufTy).Contents (Elt F) → (⟨S500000x1, .f32⟩ : BufTy).Contents (Elt F)) (refLeaky3 ((addf : (⟨S500000x1, .f32⟩ : BufTy).Contents (Elt F) → (⟨S500000x1, .f32⟩ : BufTy).Contents (Elt F) → (⟨S500000x1, .f32⟩ : BufTy).Contents (Elt F)) ssg sdg)) ew2))

set_option maxRecDepth 16384 in
set_option maxHeartbeats 1200000 in
theorem segAT3_main_v184 (W : Valuation τ sig (Elt F)) :
    StableHlo.after segAT3 W (Proc.devRef .tc main_v184) = refAT3 (W (Proc.devRef .tc main_v172)) (W (Proc.devRef .tc main_v179)) ((broadcastInDim S500000x1 ![0] bcast_S500000_S500000x1_0 : (⟨S500000, .f32⟩ : BufTy).Contents (Elt F) → (⟨S500000x1, .f32⟩ : BufTy).Contents (Elt F)) (W (Proc.devRef .tc main_arg2))) := by
  after_results_simp
  rfl

/-! ### segDN3 -/

/-- The buffers segDN3 writes. -/
abbrev segDN3_writes : List (Ref sig .tc) :=
  [main_cst_41, main_v185, main_v186, main_v187, main_c_42, main_v188, main_v189, main_c_43, main_v190, main_v191, main_v192, main_v193, main_v194]

set_option maxRecDepth 8192 in
theorem segDN3_a_wsub : (segDN3_a : List (HloOp τ sig (Elt F))).Forall fun op => op.writes ⊆ ((segDN3_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

set_option maxRecDepth 8192 in
theorem segDN3_b_wsub : (segDN3_b : List (HloOp τ sig (Elt F))).Forall fun op => op.writes ⊆ ((segDN3_writes).map (Proc.devRef (τ := τ) .tc)).toFinset :=
  wsub_of_mem (by decide)

theorem segDN3_wsub : (segDN3 : List (HloOp τ sig (Elt F))).Forall fun op => op.writes ⊆ ((segDN3_writes).map (Proc.devRef (τ := τ) .tc)).toFinset :=
  List.forall_iff_forall_mem.mpr fun op h => by
    simp only [segDN3, List.mem_append] at h
    rcases h with h | h
    exacts [List.forall_iff_forall_mem.mp segDN3_a_wsub op h, List.forall_iff_forall_mem.mp segDN3_b_wsub op h]

/-- segDN3 leaves every buffer it does not write as it was. -/
theorem segDN3_keep (W : Valuation τ sig (Elt F)) {r : Ref sig .tc} (hr : r ∉ segDN3_writes) :
    StableHlo.after segDN3 W (Proc.devRef .tc r) = W (Proc.devRef .tc r) :=
  after_of_writes_sub segDN3 W segDN3_wsub hr

theorem keep_DN3_main_arg18 (W : Valuation τ sig (Elt F)) : StableHlo.after segDN3 W (Proc.devRef .tc main_arg18) = W (Proc.devRef .tc main_arg18) := segDN3_keep W (by decide)
theorem keep_DN3_main_arg19 (W : Valuation τ sig (Elt F)) : StableHlo.after segDN3 W (Proc.devRef .tc main_arg19) = W (Proc.devRef .tc main_arg19) := segDN3_keep W (by decide)
theorem keep_DN3_main_arg20 (W : Valuation τ sig (Elt F)) : StableHlo.after segDN3 W (Proc.devRef .tc main_arg20) = W (Proc.devRef .tc main_arg20) := segDN3_keep W (by decide)
theorem keep_DN3_main_v1 (W : Valuation τ sig (Elt F)) : StableHlo.after segDN3 W (Proc.devRef .tc main_v1) = W (Proc.devRef .tc main_v1) := segDN3_keep W (by decide)
theorem keep_DN3_main_v3 (W : Valuation τ sig (Elt F)) : StableHlo.after segDN3 W (Proc.devRef .tc main_v3) = W (Proc.devRef .tc main_v3) := segDN3_keep W (by decide)
theorem keep_DN3_main_v159 (W : Valuation τ sig (Elt F)) : StableHlo.after segDN3 W (Proc.devRef .tc main_v159) = W (Proc.devRef .tc main_v159) := segDN3_keep W (by decide)
theorem keep_DN3_main_v184 (W : Valuation τ sig (Elt F)) : StableHlo.after segDN3 W (Proc.devRef .tc main_v184) = W (Proc.devRef .tc main_v184) := segDN3_keep W (by decide)

set_option maxRecDepth 16384 in
set_option maxHeartbeats 1300000 in
theorem segDN3_main_v194 (W : Valuation τ sig (Elt F)) :
    StableHlo.after segDN3 W (Proc.devRef .tc main_v194) = Cert.KernelIdeal.Stages.st10_v135 (W (Proc.devRef .tc main_v3)) (W (Proc.devRef .tc main_v184)) := by
  rw [show (segDN3 : List (HloOp τ sig (Elt F))) = segDN3_a ++ segDN3_b from rfl, after_app]
  after_results_simp
  rfl

/-! ### segAL3 -/

/-- The buffers segAL3 writes. -/
abbrev segAL3_writes : List (Ref sig .tc) :=
  [main_cst_44, main_v195, main_v196, main_v197, main_v198]

set_option maxRecDepth 8192 in
theorem segAL3_wsub : (segAL3 : List (HloOp τ sig (Elt F))).Forall fun op => op.writes ⊆ ((segAL3_writes).map (Proc.devRef (τ := τ) .tc)).toFinset :=
  ⟨wsub_of_mem (by decide), wsub_of_mem (by decide), wsub_of_mem (by decide), wsub_of_mem (by decide), wsub_of_mem (by decide)⟩

/-- segAL3 leaves every buffer it does not write as it was. -/
theorem segAL3_keep (W : Valuation τ sig (Elt F)) {r : Ref sig .tc} (hr : r ∉ segAL3_writes) :
    StableHlo.after segAL3 W (Proc.devRef .tc r) = W (Proc.devRef .tc r) :=
  after_of_writes_sub segAL3 W segAL3_wsub hr

theorem keep_AL3_main_arg18 (W : Valuation τ sig (Elt F)) : StableHlo.after segAL3 W (Proc.devRef .tc main_arg18) = W (Proc.devRef .tc main_arg18) := segAL3_keep W (by decide)
theorem keep_AL3_main_arg19 (W : Valuation τ sig (Elt F)) : StableHlo.after segAL3 W (Proc.devRef .tc main_arg19) = W (Proc.devRef .tc main_arg19) := segAL3_keep W (by decide)
theorem keep_AL3_main_arg20 (W : Valuation τ sig (Elt F)) : StableHlo.after segAL3 W (Proc.devRef .tc main_arg20) = W (Proc.devRef .tc main_arg20) := segAL3_keep W (by decide)
theorem keep_AL3_main_v1 (W : Valuation τ sig (Elt F)) : StableHlo.after segAL3 W (Proc.devRef .tc main_v1) = W (Proc.devRef .tc main_v1) := segAL3_keep W (by decide)
theorem keep_AL3_main_v3 (W : Valuation τ sig (Elt F)) : StableHlo.after segAL3 W (Proc.devRef .tc main_v3) = W (Proc.devRef .tc main_v3) := segAL3_keep W (by decide)
theorem keep_AL3_main_v159 (W : Valuation τ sig (Elt F)) : StableHlo.after segAL3 W (Proc.devRef .tc main_v159) = W (Proc.devRef .tc main_v159) := segAL3_keep W (by decide)

/-- the exponential over the gathered sum plus the small constant, with a trailing unit axis. -/
def refAL3 (a_exp : (⟨S500000x1, .f32⟩ : BufTy).Contents (Elt F)) (denom_g : (⟨S500000x1, .f32⟩ : BufTy).Contents (Elt F)) : (⟨S500000x1x1, .f32⟩ : BufTy).Contents (Elt F) :=
  ((broadcastInDim S500000x1x1 ![0, 1] bcast_S500000x1_S500000x1x1_0_1 : (⟨S500000x1, .f32⟩ : BufTy).Contents (Elt F) → (⟨S500000x1x1, .f32⟩ : BufTy).Contents (Elt F)) ((Host.divf : (⟨S500000x1, .f32⟩ : BufTy).Contents (Elt F) → (⟨S500000x1, .f32⟩ : BufTy).Contents (Elt F) → (⟨S500000x1, .f32⟩ : BufTy).Contents (Elt F)) a_exp ((addf : (⟨S500000x1, .f32⟩ : BufTy).Contents (Elt F) → (⟨S500000x1, .f32⟩ : BufTy).Contents (Elt F) → (⟨S500000x1, .f32⟩ : BufTy).Contents (Elt F)) denom_g ((broadcastInDim S500000x1 ![] bcast_S_S500000x1 : (⟨S_, .f32⟩ : BufTy).Contents (Elt F) → (⟨S500000x1, .f32⟩ : BufTy).Contents (Elt F)) ((constant S_ .f32 0x24E69595#32) : (⟨S_, .f32⟩ : BufTy).Contents (Elt F))))))

set_option maxRecDepth 16384 in
set_option maxHeartbeats 500000 in
theorem segAL3_main_v198 (W : Valuation τ sig (Elt F)) :
    StableHlo.after segAL3 W (Proc.devRef .tc main_v198) = refAL3 (W (Proc.devRef .tc main_v184)) (W (Proc.devRef .tc main_v194)) := by
  after_results_simp
  rfl

/-! ### segHG3 -/

/-- The buffers segHG3 writes. -/
abbrev segHG3_writes : List (Ref sig .tc) :=
  [main_c_45, main_v199, main_v200, main_c_46, main_v201, main_v202, main_v203, main_v204, main_v205]

set_option maxRecDepth 8192 in
theorem segHG3_wsub : (segHG3 : List (HloOp τ sig (Elt F))).Forall fun op => op.writes ⊆ ((segHG3_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segHG3 leaves every buffer it does not write as it was. -/
theorem segHG3_keep (W : Valuation τ sig (Elt F)) {r : Ref sig .tc} (hr : r ∉ segHG3_writes) :
    StableHlo.after segHG3 W (Proc.devRef .tc r) = W (Proc.devRef .tc r) :=
  after_of_writes_sub segHG3 W segHG3_wsub hr

theorem keep_HG3_main_arg18 (W : Valuation τ sig (Elt F)) : StableHlo.after segHG3 W (Proc.devRef .tc main_arg18) = W (Proc.devRef .tc main_arg18) := segHG3_keep W (by decide)
theorem keep_HG3_main_arg19 (W : Valuation τ sig (Elt F)) : StableHlo.after segHG3 W (Proc.devRef .tc main_arg19) = W (Proc.devRef .tc main_arg19) := segHG3_keep W (by decide)
theorem keep_HG3_main_arg20 (W : Valuation τ sig (Elt F)) : StableHlo.after segHG3 W (Proc.devRef .tc main_arg20) = W (Proc.devRef .tc main_arg20) := segHG3_keep W (by decide)
theorem keep_HG3_main_v1 (W : Valuation τ sig (Elt F)) : StableHlo.after segHG3 W (Proc.devRef .tc main_v1) = W (Proc.devRef .tc main_v1) := segHG3_keep W (by decide)
theorem keep_HG3_main_v198 (W : Valuation τ sig (Elt F)) : StableHlo.after segHG3 W (Proc.devRef .tc main_v198) = W (Proc.devRef .tc main_v198) := segHG3_keep W (by decide)

set_option maxRecDepth 16384 in
set_option maxHeartbeats 900000 in
theorem segHG3_main_v205 (W : Valuation τ sig (Elt F)) :
    StableHlo.after segHG3 W (Proc.devRef .tc main_v205) = Cert.KernelIdeal.Stages.st10_v142 (W (Proc.devRef .tc main_v159)) (W (Proc.devRef .tc main_v3)) := by
  after_results_simp
  rfl

/-! ### segMS3 -/

/-- The buffers segMS3 writes. -/
abbrev segMS3_writes : List (Ref sig .tc) :=
  [main_v206, main_v207]

set_option maxRecDepth 8192 in
theorem segMS3_wsub : (segMS3 : List (HloOp τ sig (Elt F))).Forall fun op => op.writes ⊆ ((segMS3_writes).map (Proc.devRef (τ := τ) .tc)).toFinset :=
  ⟨wsub_of_mem (by decide), wsub_of_mem (by decide)⟩

/-- segMS3 leaves every buffer it does not write as it was. -/
theorem segMS3_keep (W : Valuation τ sig (Elt F)) {r : Ref sig .tc} (hr : r ∉ segMS3_writes) :
    StableHlo.after segMS3 W (Proc.devRef .tc r) = W (Proc.devRef .tc r) :=
  after_of_writes_sub segMS3 W segMS3_wsub hr

theorem keep_MS3_main_arg18 (W : Valuation τ sig (Elt F)) : StableHlo.after segMS3 W (Proc.devRef .tc main_arg18) = W (Proc.devRef .tc main_arg18) := segMS3_keep W (by decide)
theorem keep_MS3_main_arg19 (W : Valuation τ sig (Elt F)) : StableHlo.after segMS3 W (Proc.devRef .tc main_arg19) = W (Proc.devRef .tc main_arg19) := segMS3_keep W (by decide)
theorem keep_MS3_main_arg20 (W : Valuation τ sig (Elt F)) : StableHlo.after segMS3 W (Proc.devRef .tc main_arg20) = W (Proc.devRef .tc main_arg20) := segMS3_keep W (by decide)
theorem keep_MS3_main_v1 (W : Valuation τ sig (Elt F)) : StableHlo.after segMS3 W (Proc.devRef .tc main_v1) = W (Proc.devRef .tc main_v1) := segMS3_keep W (by decide)

/-- the attention weight broadcast along the feature axis times the gathered features. -/
def refMS3 (alpha_b : (⟨S500000x1x1, .f32⟩ : BufTy).Contents (Elt F)) (hg : (⟨S500000x1x128, .f32⟩ : BufTy).Contents (Elt F)) : (⟨S500000x1x128, .f32⟩ : BufTy).Contents (Elt F) :=
  ((mulf : (⟨S500000x1x128, .f32⟩ : BufTy).Contents (Elt F) → (⟨S500000x1x128, .f32⟩ : BufTy).Contents (Elt F) → (⟨S500000x1x128, .f32⟩ : BufTy).Contents (Elt F)) ((broadcastInDim S500000x1x128 ![0, 1, 2] bcast_S500000x1x1_S500000x1x128_0_1_2 : (⟨S500000x1x1, .f32⟩ : BufTy).Contents (Elt F) → (⟨S500000x1x128, .f32⟩ : BufTy).Contents (Elt F)) alpha_b) hg)

set_option maxRecDepth 16384 in
set_option maxHeartbeats 400000 in
theorem segMS3_main_v207 (W : Valuation τ sig (Elt F)) :
    StableHlo.after segMS3 W (Proc.devRef .tc main_v207) = refMS3 (W (Proc.devRef .tc main_v198)) (W (Proc.devRef .tc main_v205)) := by
  after_results_simp
  rfl

/-! ### segAG3 -/

/-- The buffers segAG3 writes. -/
abbrev segAG3_writes : List (Ref sig .tc) :=
  [main_cst_47, main_v208, main_v209, main_v210, main_cst_48, main_v211, main_cst_49, main_v212, main_v213]

set_option maxRecDepth 8192 in
theorem segAG3_wsub : (segAG3 : List (HloOp τ sig (Elt F))).Forall fun op => op.writes ⊆ ((segAG3_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segAG3 leaves every buffer it does not write as it was. -/
theorem segAG3_keep (W : Valuation τ sig (Elt F)) {r : Ref sig .tc} (hr : r ∉ segAG3_writes) :
    StableHlo.after segAG3 W (Proc.devRef .tc r) = W (Proc.devRef .tc r) :=
  after_of_writes_sub segAG3 W segAG3_wsub hr

theorem keep_AG3_main_arg18 (W : Valuation τ sig (Elt F)) : StableHlo.after segAG3 W (Proc.devRef .tc main_arg18) = W (Proc.devRef .tc main_arg18) := segAG3_keep W (by decide)
theorem keep_AG3_main_arg19 (W : Valuation τ sig (Elt F)) : StableHlo.after segAG3 W (Proc.devRef .tc main_arg19) = W (Proc.devRef .tc main_arg19) := segAG3_keep W (by decide)
theorem keep_AG3_main_arg20 (W : Valuation τ sig (Elt F)) : StableHlo.after segAG3 W (Proc.devRef .tc main_arg20) = W (Proc.devRef .tc main_arg20) := segAG3_keep W (by decide)

set_option maxRecDepth 16384 in
set_option maxHeartbeats 900000 in
theorem segAG3_main_v213 (W : Valuation τ sig (Elt F)) :
    StableHlo.after segAG3 W (Proc.devRef .tc main_v213) = Cert.KernelIdeal.Stages.st11_v149 (W (Proc.devRef .tc main_v1)) (W (Proc.devRef .tc main_v207)) := by
  after_results_simp
  rfl

/-! ### segLN3 -/

/-- The buffers segLN3 writes. -/
abbrev segLN3_writes : List (Ref sig .tc) :=
  [main_v214, main_v215, main_v216, main_cst_50, main_v217, main_v218, main_cst_51, main_v219, main_v220, main_c_52, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v221, main_v222, main_v223, main_cst_53, main_v224, main_v225, main_v226, main_v227, main_v228, main_v229, main_v230, main_v231, main_v232, main_v233, main_v234]

set_option maxRecDepth 8192 in
theorem segLN3_wsub : (segLN3 : List (HloOp τ sig (Elt F))).Forall fun op => op.writes ⊆ ((segLN3_writes).map (Proc.devRef (τ := τ) .tc)).toFinset :=
  ⟨wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide), wsub_of_mem (by decide)⟩

/-- segLN3 leaves every buffer it does not write as it was. -/
theorem segLN3_keep (W : Valuation τ sig (Elt F)) {r : Ref sig .tc} (hr : r ∉ segLN3_writes) :
    StableHlo.after segLN3 W (Proc.devRef .tc r) = W (Proc.devRef .tc r) :=
  after_of_writes_sub segLN3 W segLN3_wsub hr

/-- the aggregate plus the bias row broadcast over the nodes. -/
def refBias3 (agg : (⟨S50000x128, .f32⟩ : BufTy).Contents (Elt F)) (b2 : (⟨S1x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) agg ((broadcastInDim S50000x128 ![0, 1] bcast_S1x128_S50000x128_0_1 : (⟨S1x128, .f32⟩ : BufTy).Contents (Elt F) → (⟨S50000x128, .f32⟩ : BufTy).Contents (Elt F)) b2))

/-- the mean over the feature axis, kept as a column. -/
def refMean3 (x : (⟨S50000x128, .f32⟩ : BufTy).Contents (Elt F)) : (⟨S50000x1, .f32⟩ : BufTy).Contents (Elt F) :=
  ((Host.divf : (⟨S50000x1, .f32⟩ : BufTy).Contents (Elt F) → (⟨S50000x1, .f32⟩ : BufTy).Contents (Elt F) → (⟨S50000x1, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) ((broadcastInDim S50000x1 ![] bcast_S_S50000x1 : (⟨S_, .f32⟩ : BufTy).Contents (Elt F) → (⟨S50000x1, .f32⟩ : BufTy).Contents (Elt F)) ((constant S_ .f32 0x43000000#32) : (⟨S_, .f32⟩ : BufTy).Contents (Elt F))))

/-- the variance over the feature axis (mean of the squared deviations), kept as a column. -/
def refVar3 (x : (⟨S50000x128, .f32⟩ : BufTy).Contents (Elt F)) : (⟨S50000x1, .f32⟩ : BufTy).Contents (Elt F) :=
  (((fun p a b => select (broadcastInDim S50000x1 ![] bcast_S_S50000x1 p) a b) : (⟨S_, .i1⟩ : BufTy).Contents (Elt F) → (⟨S50000x1, .f32⟩ : BufTy).Contents (Elt F) → (⟨S50000x1, .f32⟩ : BufTy).Contents (Elt F) → (⟨S50000x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x43000000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))) ((constant S_ .f32 0x00000000#32) : (⟨S_, .f32⟩ : BufTy).Contents (Elt F))) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x (((broadcastInDim S50000x128 ![0, 1] bcast_S50000x1_S50000x128_0_1) : (⟨S50000x1, .f32⟩ : BufTy).Contents (Elt F) → (⟨S50000x128, .f32⟩ : BufTy).Contents (Elt F)) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((constant S_ .f32 0x43000000#32) : (⟨S_, .f32⟩ : BufTy).Contents (Elt F)))))) ((subf : (⟨S50000x128, .f32⟩ : BufTy).Contents (Elt F) → (⟨S50000x128, .f32⟩ : BufTy).Contents (Elt F) → (⟨S50000x128, .f32⟩ : BufTy).Contents (Elt F)) x (((broadcastInDim S50000x128 ![0, 1] bcast_S50000x1_S50000x128_0_1) : (⟨S50000x1, .f32⟩ : BufTy).Contents (Elt F) → (⟨S50000x128, .f32⟩ : BufTy).Contents (Elt F)) ((Host.divf : (⟨S50000x1, .f32⟩ : BufTy).Contents (Elt F) → (⟨S50000x1, .f32⟩ : BufTy).Contents (Elt F) → (⟨S50000x1, .f32⟩ : BufTy).Contents (Elt F)) (((broadcastInDim S50000x1 ![0] bcast_S50000_S50000x1_0) : (⟨S50000, .f32⟩ : BufTy).Contents (Elt F) → (⟨S50000x1, .f32⟩ : BufTy).Contents (Elt F)) (((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) x ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((constant S_ .f32 0x43000000#32) : (⟨S_, .f32⟩ : BufTy).Contents (Elt F))))))) ((constant S_ .f32 0x00000000#32) : (⟨S_, .f32⟩ : BufTy).Contents (Elt F)))) (((broadcastInDim S50000x1 ![] bcast_S_S50000x1) : (⟨S_, .f32⟩ : BufTy).Contents (Elt F) → (⟨S50000x1, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x43000000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))))) (((broadcastInDim S50000x1 ![] bcast_S_S50000x1) : (⟨S_, .f32⟩ : BufTy).Contents (Elt F) → (⟨S50000x1, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- the layer normalisation: centred, divided by the root of the variance plus the small constant, scaled and shifted by the broadcast rows. -/
def refNorm3 (x : (⟨S50000x128, .f32⟩ : BufTy).Contents (Elt F)) (g2 : (⟨S1x128, .f32⟩ : BufTy).Contents (Elt F)) (be2 : (⟨S1x128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((Host.divf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x ((broadcastInDim S50000x128 ![0, 1] bcast_S50000x1_S50000x128_0_1 : (⟨S50000x1, .f32⟩ : BufTy).Contents (Elt F) → (⟨S50000x128, .f32⟩ : BufTy).Contents (Elt F)) (refMean3 x))) ((broadcastInDim S50000x128 ![0, 1] bcast_S50000x1_S50000x128_0_1 : (⟨S50000x1, .f32⟩ : BufTy).Contents (Elt F) → (⟨S50000x128, .f32⟩ : BufTy).Contents (Elt F)) ((Host.sqrt : (⟨S50000x1, .f32⟩ : BufTy).Contents (Elt F) → (⟨S50000x1, .f32⟩ : BufTy).Contents (Elt F)) ((addf : (⟨S50000x1, .f32⟩ : BufTy).Contents (Elt F) → (⟨S50000x1, .f32⟩ : BufTy).Contents (Elt F) → (⟨S50000x1, .f32⟩ : BufTy).Contents (Elt F)) (refVar3 x) ((broadcastInDim S50000x1 ![] bcast_S_S50000x1 : (⟨S_, .f32⟩ : BufTy).Contents (Elt F) → (⟨S50000x1, .f32⟩ : BufTy).Contents (Elt F)) ((constant S_ .f32 0x3727C5AC#32) : (⟨S_, .f32⟩ : BufTy).Contents (Elt F))))))) ((broadcastInDim S50000x128 ![0, 1] bcast_S1x128_S50000x128_0_1 : (⟨S1x128, .f32⟩ : BufTy).Contents (Elt F) → (⟨S50000x128, .f32⟩ : BufTy).Contents (Elt F)) g2)) ((broadcastInDim S50000x128 ![0, 1] bcast_S1x128_S50000x128_0_1 : (⟨S1x128, .f32⟩ : BufTy).Contents (Elt F) → (⟨S50000x128, .f32⟩ : BufTy).Contents (Elt F)) be2))

/-- bias and layer normalisation. -/
def refLN3 (agg : (⟨S50000x128, .f32⟩ : BufTy).Contents (Elt F)) (b2 : (⟨S1x128, .f32⟩ : BufTy).Contents (Elt F)) (g2 : (⟨S1x128, .f32⟩ : BufTy).Contents (Elt F)) (be2 : (⟨S1x128, .f32⟩ : BufTy).Contents (Elt F)) : (⟨S50000x128, .f32⟩ : BufTy).Contents (Elt F) :=
  (refNorm3 (refBias3 agg b2) g2 be2)

set_option maxRecDepth 16384 in
set_option maxHeartbeats 4700000 in
theorem segLN3_main_v234 (W : Valuation τ sig (Elt F)) :
    StableHlo.after segLN3 W (Proc.devRef .tc main_v234) = refLN3 (W (Proc.devRef .tc main_v213)) ((broadcastInDim S1x128 ![1] bcast_S128_S1x128_1 : (⟨S128, .f32⟩ : BufTy).Contents (Elt F) → (⟨S1x128, .f32⟩ : BufTy).Contents (Elt F)) (W (Proc.devRef .tc main_arg18))) ((broadcastInDim S1x128 ![1] bcast_S128_S1x128_1 : (⟨S128, .f32⟩ : BufTy).Contents (Elt F) → (⟨S1x128, .f32⟩ : BufTy).Contents (Elt F)) (W (Proc.devRef .tc main_arg19))) ((broadcastInDim S1x128 ![1] bcast_S128_S1x128_1 : (⟨S128, .f32⟩ : BufTy).Contents (Elt F) → (⟨S1x128, .f32⟩ : BufTy).Contents (Elt F)) (W (Proc.devRef .tc main_arg20))) := by
  after_results_simp
  rfl

/-! ## The whole line leaves the arguments alone -/

/-- A buffer two lines both leave alone is left alone by their concatenation. -/
theorem keep_append {l₁ l₂ : List (HloOp τ sig (Elt F))} {b : DevRef τ sig}
    (h₁ : ∀ V : Valuation τ sig (Elt F), after l₁ V b = V b) (h₂ : ∀ V : Valuation τ sig (Elt F), after l₂ V b = V b) :
    ∀ V : Valuation τ sig (Elt F), after (l₁ ++ l₂) V b = V b := fun V => by rw [after_app, h₂, h₁]

theorem ops_keep_main_arg0 : ∀ W : Valuation τ sig (Elt F), StableHlo.after ops W (Proc.devRef .tc main_arg0) = W (Proc.devRef .tc main_arg0) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg1 : ∀ W : Valuation τ sig (Elt F), StableHlo.after ops W (Proc.devRef .tc main_arg1) = W (Proc.devRef .tc main_arg1) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg2 : ∀ W : Valuation τ sig (Elt F), StableHlo.after ops W (Proc.devRef .tc main_arg2) = W (Proc.devRef .tc main_arg2) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg3 : ∀ W : Valuation τ sig (Elt F), StableHlo.after ops W (Proc.devRef .tc main_arg3) = W (Proc.devRef .tc main_arg3) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg4 : ∀ W : Valuation τ sig (Elt F), StableHlo.after ops W (Proc.devRef .tc main_arg4) = W (Proc.devRef .tc main_arg4) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg5 : ∀ W : Valuation τ sig (Elt F), StableHlo.after ops W (Proc.devRef .tc main_arg5) = W (Proc.devRef .tc main_arg5) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg6 : ∀ W : Valuation τ sig (Elt F), StableHlo.after ops W (Proc.devRef .tc main_arg6) = W (Proc.devRef .tc main_arg6) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg7 : ∀ W : Valuation τ sig (Elt F), StableHlo.after ops W (Proc.devRef .tc main_arg7) = W (Proc.devRef .tc main_arg7) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg8 : ∀ W : Valuation τ sig (Elt F), StableHlo.after ops W (Proc.devRef .tc main_arg8) = W (Proc.devRef .tc main_arg8) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg9 : ∀ W : Valuation τ sig (Elt F), StableHlo.after ops W (Proc.devRef .tc main_arg9) = W (Proc.devRef .tc main_arg9) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg10 : ∀ W : Valuation τ sig (Elt F), StableHlo.after ops W (Proc.devRef .tc main_arg10) = W (Proc.devRef .tc main_arg10) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg11 : ∀ W : Valuation τ sig (Elt F), StableHlo.after ops W (Proc.devRef .tc main_arg11) = W (Proc.devRef .tc main_arg11) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg12 : ∀ W : Valuation τ sig (Elt F), StableHlo.after ops W (Proc.devRef .tc main_arg12) = W (Proc.devRef .tc main_arg12) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg13 : ∀ W : Valuation τ sig (Elt F), StableHlo.after ops W (Proc.devRef .tc main_arg13) = W (Proc.devRef .tc main_arg13) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg14 : ∀ W : Valuation τ sig (Elt F), StableHlo.after ops W (Proc.devRef .tc main_arg14) = W (Proc.devRef .tc main_arg14) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg15 : ∀ W : Valuation τ sig (Elt F), StableHlo.after ops W (Proc.devRef .tc main_arg15) = W (Proc.devRef .tc main_arg15) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg16 : ∀ W : Valuation τ sig (Elt F), StableHlo.after ops W (Proc.devRef .tc main_arg16) = W (Proc.devRef .tc main_arg16) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg17 : ∀ W : Valuation τ sig (Elt F), StableHlo.after ops W (Proc.devRef .tc main_arg17) = W (Proc.devRef .tc main_arg17) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg18 : ∀ W : Valuation τ sig (Elt F), StableHlo.after ops W (Proc.devRef .tc main_arg18) = W (Proc.devRef .tc main_arg18) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg19 : ∀ W : Valuation τ sig (Elt F), StableHlo.after ops W (Proc.devRef .tc main_arg19) = W (Proc.devRef .tc main_arg19) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

theorem ops_keep_main_arg20 : ∀ W : Valuation τ sig (Elt F), StableHlo.after ops W (Proc.devRef .tc main_arg20) = W (Proc.devRef .tc main_arg20) :=
  (keep_append (fun V => segS0_keep V (by decide)) (keep_append (fun V => segMM1_keep V (by decide)) (keep_append (fun V => segSC1_keep V (by decide)) (keep_append (fun V => segAT1_keep V (by decide)) (keep_append (fun V => segDN1_keep V (by decide)) (keep_append (fun V => segAL1_keep V (by decide)) (keep_append (fun V => segHG1_keep V (by decide)) (keep_append (fun V => segMS1_keep V (by decide)) (keep_append (fun V => segAG1_keep V (by decide)) (keep_append (fun V => segLN1_keep V (by decide)) (keep_append (fun V => segMM2_keep V (by decide)) (keep_append (fun V => segSC2_keep V (by decide)) (keep_append (fun V => segAT2_keep V (by decide)) (keep_append (fun V => segDN2_keep V (by decide)) (keep_append (fun V => segAL2_keep V (by decide)) (keep_append (fun V => segHG2_keep V (by decide)) (keep_append (fun V => segMS2_keep V (by decide)) (keep_append (fun V => segAG2_keep V (by decide)) (keep_append (fun V => segLN2_keep V (by decide)) (keep_append (fun V => segMM3_keep V (by decide)) (keep_append (fun V => segSC3_keep V (by decide)) (keep_append (fun V => segAT3_keep V (by decide)) (keep_append (fun V => segDN3_keep V (by decide)) (keep_append (fun V => segAL3_keep V (by decide)) (keep_append (fun V => segHG3_keep V (by decide)) (keep_append (fun V => segMS3_keep V (by decide)) (keep_append (fun V => segAG3_keep V (by decide)) (fun V => segLN3_keep V (by decide)))))))))))))))))))))))))))))

end Cert.ReferenceIdeal.RefRun

end
-- ==== Proof.KKeep.lean ====
/-
  A stretch of host operations keeps the contents of every buffer none of its operations writes.
-/
import proofs.«158057_j81853486727297_2_alg».proof.Proof.Gen.KernelIdeal.Launch
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

/-! ## A stretch keeps every buffer it does not write -/

section Keep
variable {F : FTy → Type} [FloatOps F]
theorem keep2_v1 (W : Valuation τ sig (Elt F)) : StableHlo.after hostOps2 W (Proc.devRef .tc main_v1) = W (Proc.devRef .tc main_v1) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v1 (W : Valuation τ sig (Elt F)) : StableHlo.after hostOps1 W (Proc.devRef .tc main_v1) = W (Proc.devRef .tc main_v1) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v27 (W : Valuation τ sig (Elt F)) : StableHlo.after hostOps2 W (Proc.devRef .tc main_v27) = W (Proc.devRef .tc main_v27) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg0 (W : Valuation τ sig (Elt F)) : StableHlo.after hostOps0 W (Proc.devRef .tc main_arg0) = W (Proc.devRef .tc main_arg0) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg3 (W : Valuation τ sig (Elt F)) : StableHlo.after hostOps0 W (Proc.devRef .tc main_arg3) = W (Proc.devRef .tc main_arg3) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg4 (W : Valuation τ sig (Elt F)) : StableHlo.after hostOps0 W (Proc.devRef .tc main_arg4) = W (Proc.devRef .tc main_arg4) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg5 (W : Valuation τ sig (Elt F)) : StableHlo.after hostOps0 W (Proc.devRef .tc main_arg5) = W (Proc.devRef .tc main_arg5) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v4 (W : Valuation τ sig (Elt F)) : StableHlo.after hostOps1 W (Proc.devRef .tc main_v4) = W (Proc.devRef .tc main_v4) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v3 (W : Valuation τ sig (Elt F)) : StableHlo.after hostOps1 W (Proc.devRef .tc main_v3) = W (Proc.devRef .tc main_v3) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg6 (W : Valuation τ sig (Elt F)) : StableHlo.after hostOps2 W (Proc.devRef .tc main_arg6) = W (Proc.devRef .tc main_arg6) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg6 (W : Valuation τ sig (Elt F)) : StableHlo.after hostOps1 W (Proc.devRef .tc main_arg6) = W (Proc.devRef .tc main_arg6) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg6 (W : Valuation τ sig (Elt F)) : StableHlo.after hostOps0 W (Proc.devRef .tc main_arg6) = W (Proc.devRef .tc main_arg6) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg7 (W : Valuation τ sig (Elt F)) : StableHlo.after hostOps2 W (Proc.devRef .tc main_arg7) = W (Proc.devRef .tc main_arg7) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg7 (W : Valuation τ sig (Elt F)) : StableHlo.after hostOps1 W (Proc.devRef .tc main_arg7) = W (Proc.devRef .tc main_arg7) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg7 (W : Valuation τ sig (Elt F)) : StableHlo.after hostOps0 W (Proc.devRef .tc main_arg7) = W (Proc.devRef .tc main_arg7) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg8 (W : Valuation τ sig (Elt F)) : StableHlo.after hostOps2 W (Proc.devRef .tc main_arg8) = W (Proc.devRef .tc main_arg8) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg8 (W : Valuation τ sig (Elt F)) : StableHlo.after hostOps1 W (Proc.devRef .tc main_arg8) = W (Proc.devRef .tc main_arg8) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg8 (W : Valuation τ sig (Elt F)) : StableHlo.after hostOps0 W (Proc.devRef .tc main_arg8) = W (Proc.devRef .tc main_arg8) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_v1 (W : Valuation τ sig (Elt F)) : StableHlo.after hostOps6 W (Proc.devRef .tc main_v1) = W (Proc.devRef .tc main_v1) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v1 (W : Valuation τ sig (Elt F)) : StableHlo.after hostOps5 W (Proc.devRef .tc main_v1) = W (Proc.devRef .tc main_v1) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v1 (W : Valuation τ sig (Elt F)) : StableHlo.after hostOps3 W (Proc.devRef .tc main_v1) = W (Proc.devRef .tc main_v1) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_v76 (W : Valuation τ sig (Elt F)) : StableHlo.after hostOps6 W (Proc.devRef .tc main_v76) = W (Proc.devRef .tc main_v76) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg9 (W : Valuation τ sig (Elt F)) : StableHlo.after hostOps3 W (Proc.devRef .tc main_arg9) = W (Proc.devRef .tc main_arg9) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg9 (W : Valuation τ sig (Elt F)) : StableHlo.after hostOps2 W (Proc.devRef .tc main_arg9) = W (Proc.devRef .tc main_arg9) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg9 (W : Valuation τ sig (Elt F)) : StableHlo.after hostOps1 W (Proc.devRef .tc main_arg9) = W (Proc.devRef .tc main_arg9) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg9 (W : Valuation τ sig (Elt F)) : StableHlo.after hostOps0 W (Proc.devRef .tc main_arg9) = W (Proc.devRef .tc main_arg9) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg10 (W : Valuation τ sig (Elt F)) : StableHlo.after hostOps3 W (Proc.devRef .tc main_arg10) = W (Proc.devRef .tc main_arg10) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg10 (W : Valuation τ sig (Elt F)) : StableHlo.after hostOps2 W (Proc.devRef .tc main_arg10) = W (Proc.devRef .tc main_arg10) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg10 (W : Valuation τ sig (Elt F)) : StableHlo.after hostOps1 W (Proc.devRef .tc main_arg10) = W (Proc.devRef .tc main_arg10) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg10 (W : Valuation τ sig (Elt F)) : StableHlo.after hostOps0 W (Proc.devRef .tc main_arg10) = W (Proc.devRef .tc main_arg10) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg11 (W : Valuation τ sig (Elt F)) : StableHlo.after hostOps3 W (Proc.devRef .tc main_arg11) = W (Proc.devRef .tc main_arg11) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg11 (W : Valuation τ sig (Elt F)) : StableHlo.after hostOps2 W (Proc.devRef .tc main_arg11) = W (Proc.devRef .tc main_arg11) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg11 (W : Valuation τ sig (Elt F)) : StableHlo.after hostOps1 W (Proc.devRef .tc main_arg11) = W (Proc.devRef .tc main_arg11) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg11 (W : Valuation τ sig (Elt F)) : StableHlo.after hostOps0 W (Proc.devRef .tc main_arg11) = W (Proc.devRef .tc main_arg11) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v3 (W : Valuation τ sig (Elt F)) : StableHlo.after hostOps3 W (Proc.devRef .tc main_v3) = W (Proc.devRef .tc main_v3) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v3 (W : Valuation τ sig (Elt F)) : StableHlo.after hostOps2 W (Proc.devRef .tc main_v3) = W (Proc.devRef .tc main_v3) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v4 (W : Valuation τ sig (Elt F)) : StableHlo.after hostOps5 W (Proc.devRef .tc main_v4) = W (Proc.devRef .tc main_v4) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v4 (W : Valuation τ sig (Elt F)) : StableHlo.after hostOps3 W (Proc.devRef .tc main_v4) = W (Proc.devRef .tc main_v4) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v4 (W : Valuation τ sig (Elt F)) : StableHlo.after hostOps2 W (Proc.devRef .tc main_v4) = W (Proc.devRef .tc main_v4) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v3 (W : Valuation τ sig (Elt F)) : StableHlo.after hostOps5 W (Proc.devRef .tc main_v3) = W (Proc.devRef .tc main_v3) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg12 (W : Valuation τ sig (Elt F)) : StableHlo.after hostOps6 W (Proc.devRef .tc main_arg12) = W (Proc.devRef .tc main_arg12) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg12 (W : Valuation τ sig (Elt F)) : StableHlo.after hostOps5 W (Proc.devRef .tc main_arg12) = W (Proc.devRef .tc main_arg12) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg12 (W : Valuation τ sig (Elt F)) : StableHlo.after hostOps3 W (Proc.devRef .tc main_arg12) = W (Proc.devRef .tc main_arg12) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg12 (W : Valuation τ sig (Elt F)) : StableHlo.after hostOps2 W (Proc.devRef .tc main_arg12) = W (Proc.devRef .tc main_arg12) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg12 (W : Valuation τ sig (Elt F)) : StableHlo.after hostOps1 W (Proc.devRef .tc main_arg12) = W (Proc.devRef .tc main_arg12) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg12 (W : Valuation τ sig (Elt F)) : StableHlo.after hostOps0 W (Proc.devRef .tc main_arg12) = W (Proc.devRef .tc main_arg12) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg13 (W : Valuation τ sig (Elt F)) : StableHlo.after hostOps6 W (Proc.devRef .tc main_arg13) = W (Proc.devRef .tc main_arg13) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg13 (W : Valuation τ sig (Elt F)) : StableHlo.after hostOps5 W (Proc.devRef .tc main_arg13) = W (Proc.devRef .tc main_arg13) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg13 (W : Valuation τ sig (Elt F)) : StableHlo.after hostOps3 W (Proc.devRef .tc main_arg13) = W (Proc.devRef .tc main_arg13) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg13 (W : Valuation τ sig (Elt F)) : StableHlo.after hostOps2 W (Proc.devRef .tc main_arg13) = W (Proc.devRef .tc main_arg13) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg13 (W : Valuation τ sig (Elt F)) : StableHlo.after hostOps1 W (Proc.devRef .tc main_arg13) = W (Proc.devRef .tc main_arg13) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg13 (W : Valuation τ sig (Elt F)) : StableHlo.after hostOps0 W (Proc.devRef .tc main_arg13) = W (Proc.devRef .tc main_arg13) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg14 (W : Valuation τ sig (Elt F)) : StableHlo.after hostOps6 W (Proc.devRef .tc main_arg14) = W (Proc.devRef .tc main_arg14) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg14 (W : Valuation τ sig (Elt F)) : StableHlo.after hostOps5 W (Proc.devRef .tc main_arg14) = W (Proc.devRef .tc main_arg14) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg14 (W : Valuation τ sig (Elt F)) : StableHlo.after hostOps3 W (Proc.devRef .tc main_arg14) = W (Proc.devRef .tc main_arg14) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg14 (W : Valuation τ sig (Elt F)) : StableHlo.after hostOps2 W (Proc.devRef .tc main_arg14) = W (Proc.devRef .tc main_arg14) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg14 (W : Valuation τ sig (Elt F)) : StableHlo.after hostOps1 W (Proc.devRef .tc main_arg14) = W (Proc.devRef .tc main_arg14) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg14 (W : Valuation τ sig (Elt F)) : StableHlo.after hostOps0 W (Proc.devRef .tc main_arg14) = W (Proc.devRef .tc main_arg14) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_v1 (W : Valuation τ sig (Elt F)) : StableHlo.after hostOps10 W (Proc.devRef .tc main_v1) = W (Proc.devRef .tc main_v1) :=
  StableHlo.after_of_forall_not_mem (b := _) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_v1 (W : Valuation τ sig (Elt F)) : StableHlo.after hostOps9 W (Proc.devRef .tc main_v1) = W (Proc.devRef .tc main_v1) :=
  StableHlo.after_of_forall_not_mem (b := _) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_v1 (W : Valuation τ sig (Elt F)) : StableHlo.after hostOps7 W (Proc.devRef .tc main_v1) = W (Proc.devRef .tc main_v1) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_v125 (W : Valuation τ sig (Elt F)) : StableHlo.after hostOps10 W (Proc.devRef .tc main_v125) = W (Proc.devRef .tc main_v125) :=
  StableHlo.after_of_forall_not_mem (b := _) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg15 (W : Valuation τ sig (Elt F)) : StableHlo.after hostOps7 W (Proc.devRef .tc main_arg15) = W (Proc.devRef .tc main_arg15) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg15 (W : Valuation τ sig (Elt F)) : StableHlo.after hostOps6 W (Proc.devRef .tc main_arg15) = W (Proc.devRef .tc main_arg15) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg15 (W : Valuation τ sig (Elt F)) : StableHlo.after hostOps5 W (Proc.devRef .tc main_arg15) = W (Proc.devRef .tc main_arg15) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg15 (W : Valuation τ sig (Elt F)) : StableHlo.after hostOps3 W (Proc.devRef .tc main_arg15) = W (Proc.devRef .tc main_arg15) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg15 (W : Valuation τ sig (Elt F)) : StableHlo.after hostOps2 W (Proc.devRef .tc main_arg15) = W (Proc.devRef .tc main_arg15) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg15 (W : Valuation τ sig (Elt F)) : StableHlo.after hostOps1 W (Proc.devRef .tc main_arg15) = W (Proc.devRef .tc main_arg15) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg15 (W : Valuation τ sig (Elt F)) : StableHlo.after hostOps0 W (Proc.devRef .tc main_arg15) = W (Proc.devRef .tc main_arg15) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg16 (W : Valuation τ sig (Elt F)) : StableHlo.after hostOps7 W (Proc.devRef .tc main_arg16) = W (Proc.devRef .tc main_arg16) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg16 (W : Valuation τ sig (Elt F)) : StableHlo.after hostOps6 W (Proc.devRef .tc main_arg16) = W (Proc.devRef .tc main_arg16) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg16 (W : Valuation τ sig (Elt F)) : StableHlo.after hostOps5 W (Proc.devRef .tc main_arg16) = W (Proc.devRef .tc main_arg16) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg16 (W : Valuation τ sig (Elt F)) : StableHlo.after hostOps3 W (Proc.devRef .tc main_arg16) = W (Proc.devRef .tc main_arg16) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg16 (W : Valuation τ sig (Elt F)) : StableHlo.after hostOps2 W (Proc.devRef .tc main_arg16) = W (Proc.devRef .tc main_arg16) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg16 (W : Valuation τ sig (Elt F)) : StableHlo.after hostOps1 W (Proc.devRef .tc main_arg16) = W (Proc.devRef .tc main_arg16) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg16 (W : Valuation τ sig (Elt F)) : StableHlo.after hostOps0 W (Proc.devRef .tc main_arg16) = W (Proc.devRef .tc main_arg16) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg17 (W : Valuation τ sig (Elt F)) : StableHlo.after hostOps7 W (Proc.devRef .tc main_arg17) = W (Proc.devRef .tc main_arg17) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg17 (W : Valuation τ sig (Elt F)) : StableHlo.after hostOps6 W (Proc.devRef .tc main_arg17) = W (Proc.devRef .tc main_arg17) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg17 (W : Valuation τ sig (Elt F)) : StableHlo.after hostOps5 W (Proc.devRef .tc main_arg17) = W (Proc.devRef .tc main_arg17) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg17 (W : Valuation τ sig (Elt F)) : StableHlo.after hostOps3 W (Proc.devRef .tc main_arg17) = W (Proc.devRef .tc main_arg17) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg17 (W : Valuation τ sig (Elt F)) : StableHlo.after hostOps2 W (Proc.devRef .tc main_arg17) = W (Proc.devRef .tc main_arg17) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg17 (W : Valuation τ sig (Elt F)) : StableHlo.after hostOps1 W (Proc.devRef .tc main_arg17) = W (Proc.devRef .tc main_arg17) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg17 (W : Valuation τ sig (Elt F)) : StableHlo.after hostOps0 W (Proc.devRef .tc main_arg17) = W (Proc.devRef .tc main_arg17) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_v3 (W : Valuation τ sig (Elt F)) : StableHlo.after hostOps7 W (Proc.devRef .tc main_v3) = W (Proc.devRef .tc main_v3) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_v3 (W : Valuation τ sig (Elt F)) : StableHlo.after hostOps6 W (Proc.devRef .tc main_v3) = W (Proc.devRef .tc main_v3) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_v4 (W : Valuation τ sig (Elt F)) : StableHlo.after hostOps9 W (Proc.devRef .tc main_v4) = W (Proc.devRef .tc main_v4) :=
  StableHlo.after_of_forall_not_mem (b := _) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_v4 (W : Valuation τ sig (Elt F)) : StableHlo.after hostOps7 W (Proc.devRef .tc main_v4) = W (Proc.devRef .tc main_v4) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_v4 (W : Valuation τ sig (Elt F)) : StableHlo.after hostOps6 W (Proc.devRef .tc main_v4) = W (Proc.devRef .tc main_v4) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_v3 (W : Valuation τ sig (Elt F)) : StableHlo.after hostOps9 W (Proc.devRef .tc main_v3) = W (Proc.devRef .tc main_v3) :=
  StableHlo.after_of_forall_not_mem (b := _) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_arg18 (W : Valuation τ sig (Elt F)) : StableHlo.after hostOps10 W (Proc.devRef .tc main_arg18) = W (Proc.devRef .tc main_arg18) :=
  StableHlo.after_of_forall_not_mem (b := _) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_arg18 (W : Valuation τ sig (Elt F)) : StableHlo.after hostOps9 W (Proc.devRef .tc main_arg18) = W (Proc.devRef .tc main_arg18) :=
  StableHlo.after_of_forall_not_mem (b := _) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg18 (W : Valuation τ sig (Elt F)) : StableHlo.after hostOps7 W (Proc.devRef .tc main_arg18) = W (Proc.devRef .tc main_arg18) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg18 (W : Valuation τ sig (Elt F)) : StableHlo.after hostOps6 W (Proc.devRef .tc main_arg18) = W (Proc.devRef .tc main_arg18) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg18 (W : Valuation τ sig (Elt F)) : StableHlo.after hostOps5 W (Proc.devRef .tc main_arg18) = W (Proc.devRef .tc main_arg18) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg18 (W : Valuation τ sig (Elt F)) : StableHlo.after hostOps3 W (Proc.devRef .tc main_arg18) = W (Proc.devRef .tc main_arg18) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg18 (W : Valuation τ sig (Elt F)) : StableHlo.after hostOps2 W (Proc.devRef .tc main_arg18) = W (Proc.devRef .tc main_arg18) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg18 (W : Valuation τ sig (Elt F)) : StableHlo.after hostOps1 W (Proc.devRef .tc main_arg18) = W (Proc.devRef .tc main_arg18) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg18 (W : Valuation τ sig (Elt F)) : StableHlo.after hostOps0 W (Proc.devRef .tc main_arg18) = W (Proc.devRef .tc main_arg18) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_arg19 (W : Valuation τ sig (Elt F)) : StableHlo.after hostOps10 W (Proc.devRef .tc main_arg19) = W (Proc.devRef .tc main_arg19) :=
  StableHlo.after_of_forall_not_mem (b := _) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_arg19 (W : Valuation τ sig (Elt F)) : StableHlo.after hostOps9 W (Proc.devRef .tc main_arg19) = W (Proc.devRef .tc main_arg19) :=
  StableHlo.after_of_forall_not_mem (b := _) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg19 (W : Valuation τ sig (Elt F)) : StableHlo.after hostOps7 W (Proc.devRef .tc main_arg19) = W (Proc.devRef .tc main_arg19) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg19 (W : Valuation τ sig (Elt F)) : StableHlo.after hostOps6 W (Proc.devRef .tc main_arg19) = W (Proc.devRef .tc main_arg19) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg19 (W : Valuation τ sig (Elt F)) : StableHlo.after hostOps5 W (Proc.devRef .tc main_arg19) = W (Proc.devRef .tc main_arg19) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg19 (W : Valuation τ sig (Elt F)) : StableHlo.after hostOps3 W (Proc.devRef .tc main_arg19) = W (Proc.devRef .tc main_arg19) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg19 (W : Valuation τ sig (Elt F)) : StableHlo.after hostOps2 W (Proc.devRef .tc main_arg19) = W (Proc.devRef .tc main_arg19) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg19 (W : Valuation τ sig (Elt F)) : StableHlo.after hostOps1 W (Proc.devRef .tc main_arg19) = W (Proc.devRef .tc main_arg19) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg19 (W : Valuation τ sig (Elt F)) : StableHlo.after hostOps0 W (Proc.devRef .tc main_arg19) = W (Proc.devRef .tc main_arg19) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_arg20 (W : Valuation τ sig (Elt F)) : StableHlo.after hostOps10 W (Proc.devRef .tc main_arg20) = W (Proc.devRef .tc main_arg20) :=
  StableHlo.after_of_forall_not_mem (b := _) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_arg20 (W : Valuation τ sig (Elt F)) : StableHlo.after hostOps9 W (Proc.devRef .tc main_arg20) = W (Proc.devRef .tc main_arg20) :=
  StableHlo.after_of_forall_not_mem (b := _) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg20 (W : Valuation τ sig (Elt F)) : StableHlo.after hostOps7 W (Proc.devRef .tc main_arg20) = W (Proc.devRef .tc main_arg20) :=
  StableHlo.after_of_forall_not_mem (b := _) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_arg20 (W : Valuation τ sig (Elt F)) : StableHlo.after hostOps6 W (Proc.devRef .tc main_arg20) = W (Proc.devRef .tc main_arg20) :=
  StableHlo.after_of_forall_not_mem (b := _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg20 (W : Valuation τ sig (Elt F)) : StableHlo.after hostOps5 W (Proc.devRef .tc main_arg20) = W (Proc.devRef .tc main_arg20) :=
  StableHlo.after_of_forall_not_mem (b := _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg20 (W : Valuation τ sig (Elt F)) : StableHlo.after hostOps3 W (Proc.devRef .tc main_arg20) = W (Proc.devRef .tc main_arg20) :=
  StableHlo.after_of_forall_not_mem (b := _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg20 (W : Valuation τ sig (Elt F)) : StableHlo.after hostOps2 W (Proc.devRef .tc main_arg20) = W (Proc.devRef .tc main_arg20) :=
  StableHlo.after_of_forall_not_mem (b := _) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg20 (W : Valuation τ sig (Elt F)) : StableHlo.after hostOps1 W (Proc.devRef .tc main_arg20) = W (Proc.devRef .tc main_arg20) :=
  StableHlo.after_of_forall_not_mem (b := _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg20 (W : Valuation τ sig (Elt F)) : StableHlo.after hostOps0 W (Proc.devRef .tc main_arg20) = W (Proc.devRef .tc main_arg20) :=
  StableHlo.after_of_forall_not_mem (b := _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
end Keep

end Cert.KernelIdeal.Keep

end
-- ==== Proof.KChain.lean ====
/-
  The idealized kernel program's buffer contents, boundary by boundary: what each stretch of host operations and each
  region leaves in every buffer a later step reads — a stretch computes its stage function of the previous boundary's
  contents, a region leaves its output array at the closed form of its inputs, and every other buffer is kept.
-/
import proofs.«158057_j81853486727297_2_alg».proof.Proof.Gen.KernelIdeal.Frame
import proofs.«158057_j81853486727297_2_alg».proof.Proof.KStages
import proofs.«158057_j81853486727297_2_alg».proof.Proof.KKeep
import Idealize.ShloMosaic.PureOps.Ideal

set_option maxRecDepth 16384

noncomputable section

namespace Cert.KernelIdeal.Chain

open Cert.KernelIdeal Cert.KernelIdeal.Gen Cert.KernelIdeal.Stages Cert.KernelIdeal.Keep
open Idealize.ShloMosaic Idealize.ShloMosaic.TcCoe Idealize.SL.Sem Idealize.ShloMosaic.StableHlo

/-! ## The boundaries' contents, step by step, at the ideal instance -/

variable (m : (ℓ : Loc nD τ sig) → Buf (Elt Ideal) ℓ) (ρ : Dev nD → PrngReg)

theorem p1_v1 (c : Dev nD) : W1 m ρ c (Proc.devRef .tc main_v1) = st0_v1 (W0 m ρ c (Proc.devRef .tc main_arg1)) := after_st0_v1 (W0 m ρ c)
theorem k1_arg0 (c : Dev nD) : W1 m ρ c (Proc.devRef .tc main_arg0) = W0 m ρ c (Proc.devRef .tc main_arg0) := keep0_arg0 (W0 m ρ c)
theorem k1_arg3 (c : Dev nD) : W1 m ρ c (Proc.devRef .tc main_arg3) = W0 m ρ c (Proc.devRef .tc main_arg3) := keep0_arg3 (W0 m ρ c)
theorem k1_arg4 (c : Dev nD) : W1 m ρ c (Proc.devRef .tc main_arg4) = W0 m ρ c (Proc.devRef .tc main_arg4) := keep0_arg4 (W0 m ρ c)
theorem k1_arg5 (c : Dev nD) : W1 m ρ c (Proc.devRef .tc main_arg5) = W0 m ρ c (Proc.devRef .tc main_arg5) := keep0_arg5 (W0 m ρ c)
theorem p1_v3 (c : Dev nD) : W1 m ρ c (Proc.devRef .tc main_v3) = st0_v3 (W0 m ρ c (Proc.devRef .tc main_arg1)) := after_st0_v3 (W0 m ρ c)
theorem p1_v4 (c : Dev nD) : W1 m ρ c (Proc.devRef .tc main_v4) = st0_v4 (W0 m ρ c (Proc.devRef .tc main_arg2)) := after_st0_v4 (W0 m ρ c)
theorem k1_arg6 (c : Dev nD) : W1 m ρ c (Proc.devRef .tc main_arg6) = W0 m ρ c (Proc.devRef .tc main_arg6) := keep0_arg6 (W0 m ρ c)
theorem k1_arg7 (c : Dev nD) : W1 m ρ c (Proc.devRef .tc main_arg7) = W0 m ρ c (Proc.devRef .tc main_arg7) := keep0_arg7 (W0 m ρ c)
theorem k1_arg8 (c : Dev nD) : W1 m ρ c (Proc.devRef .tc main_arg8) = W0 m ρ c (Proc.devRef .tc main_arg8) := keep0_arg8 (W0 m ρ c)
theorem k1_arg9 (c : Dev nD) : W1 m ρ c (Proc.devRef .tc main_arg9) = W0 m ρ c (Proc.devRef .tc main_arg9) := keep0_arg9 (W0 m ρ c)
theorem k1_arg10 (c : Dev nD) : W1 m ρ c (Proc.devRef .tc main_arg10) = W0 m ρ c (Proc.devRef .tc main_arg10) := keep0_arg10 (W0 m ρ c)
theorem k1_arg11 (c : Dev nD) : W1 m ρ c (Proc.devRef .tc main_arg11) = W0 m ρ c (Proc.devRef .tc main_arg11) := keep0_arg11 (W0 m ρ c)
theorem k1_arg12 (c : Dev nD) : W1 m ρ c (Proc.devRef .tc main_arg12) = W0 m ρ c (Proc.devRef .tc main_arg12) := keep0_arg12 (W0 m ρ c)
theorem k1_arg13 (c : Dev nD) : W1 m ρ c (Proc.devRef .tc main_arg13) = W0 m ρ c (Proc.devRef .tc main_arg13) := keep0_arg13 (W0 m ρ c)
theorem k1_arg14 (c : Dev nD) : W1 m ρ c (Proc.devRef .tc main_arg14) = W0 m ρ c (Proc.devRef .tc main_arg14) := keep0_arg14 (W0 m ρ c)
theorem k1_arg15 (c : Dev nD) : W1 m ρ c (Proc.devRef .tc main_arg15) = W0 m ρ c (Proc.devRef .tc main_arg15) := keep0_arg15 (W0 m ρ c)
theorem k1_arg16 (c : Dev nD) : W1 m ρ c (Proc.devRef .tc main_arg16) = W0 m ρ c (Proc.devRef .tc main_arg16) := keep0_arg16 (W0 m ρ c)
theorem k1_arg17 (c : Dev nD) : W1 m ρ c (Proc.devRef .tc main_arg17) = W0 m ρ c (Proc.devRef .tc main_arg17) := keep0_arg17 (W0 m ρ c)
theorem k1_arg18 (c : Dev nD) : W1 m ρ c (Proc.devRef .tc main_arg18) = W0 m ρ c (Proc.devRef .tc main_arg18) := keep0_arg18 (W0 m ρ c)
theorem k1_arg19 (c : Dev nD) : W1 m ρ c (Proc.devRef .tc main_arg19) = W0 m ρ c (Proc.devRef .tc main_arg19) := keep0_arg19 (W0 m ρ c)
theorem k1_arg20 (c : Dev nD) : W1 m ρ c (Proc.devRef .tc main_arg20) = W0 m ρ c (Proc.devRef .tc main_arg20) := keep0_arg20 (W0 m ρ c)
theorem k2_v1 (c : Dev nD) : W2 m ρ c (Proc.devRef .tc main_v1) = W1 m ρ c (Proc.devRef .tc main_v1) := W2_of_ne m ρ c main_v1 (by decide)
theorem p2_v5 {G0 : (⟨S50000x384, .f32⟩ : BufTy).Contents (Elt Ideal) → (⟨S384x256, .f32⟩ : BufTy).Contents (Elt Ideal) → (⟨S50000x256, .f32⟩ : BufTy).Contents (Elt Ideal)}
    (h0 : ∀ (V : (c : Dev nD) → (b : Ref sig .tc) → Buf (Elt Ideal) ((c : Thread nD τ).loc b)) (c : Dev nD), (dat0 (F := Ideal) V c).arrAt 2 cfg0.N = G0 (V c main_arg0) (V c main_arg3)) (c : Dev nD) :
    W2 m ρ c (Proc.devRef .tc main_v5) = G0 (W1 m ρ c (Proc.devRef .tc main_arg0)) (W1 m ρ c (Proc.devRef .tc main_arg3)) :=
  (W2_arr m ρ c 2).trans (h0 (V1 m ρ) c)
theorem k2_arg4 (c : Dev nD) : W2 m ρ c (Proc.devRef .tc main_arg4) = W1 m ρ c (Proc.devRef .tc main_arg4) := W2_of_ne m ρ c main_arg4 (by decide)
theorem k2_arg5 (c : Dev nD) : W2 m ρ c (Proc.devRef .tc main_arg5) = W1 m ρ c (Proc.devRef .tc main_arg5) := W2_of_ne m ρ c main_arg5 (by decide)
theorem k2_v3 (c : Dev nD) : W2 m ρ c (Proc.devRef .tc main_v3) = W1 m ρ c (Proc.devRef .tc main_v3) := W2_of_ne m ρ c main_v3 (by decide)
theorem k2_v4 (c : Dev nD) : W2 m ρ c (Proc.devRef .tc main_v4) = W1 m ρ c (Proc.devRef .tc main_v4) := W2_of_ne m ρ c main_v4 (by decide)
theorem k2_arg6 (c : Dev nD) : W2 m ρ c (Proc.devRef .tc main_arg6) = W1 m ρ c (Proc.devRef .tc main_arg6) := W2_of_ne m ρ c main_arg6 (by decide)
theorem k2_arg7 (c : Dev nD) : W2 m ρ c (Proc.devRef .tc main_arg7) = W1 m ρ c (Proc.devRef .tc main_arg7) := W2_of_ne m ρ c main_arg7 (by decide)
theorem k2_arg8 (c : Dev nD) : W2 m ρ c (Proc.devRef .tc main_arg8) = W1 m ρ c (Proc.devRef .tc main_arg8) := W2_of_ne m ρ c main_arg8 (by decide)
theorem k2_arg9 (c : Dev nD) : W2 m ρ c (Proc.devRef .tc main_arg9) = W1 m ρ c (Proc.devRef .tc main_arg9) := W2_of_ne m ρ c main_arg9 (by decide)
theorem k2_arg10 (c : Dev nD) : W2 m ρ c (Proc.devRef .tc main_arg10) = W1 m ρ c (Proc.devRef .tc main_arg10) := W2_of_ne m ρ c main_arg10 (by decide)
theorem k2_arg11 (c : Dev nD) : W2 m ρ c (Proc.devRef .tc main_arg11) = W1 m ρ c (Proc.devRef .tc main_arg11) := W2_of_ne m ρ c main_arg11 (by decide)
theorem k2_arg12 (c : Dev nD) : W2 m ρ c (Proc.devRef .tc main_arg12) = W1 m ρ c (Proc.devRef .tc main_arg12) := W2_of_ne m ρ c main_arg12 (by decide)
theorem k2_arg13 (c : Dev nD) : W2 m ρ c (Proc.devRef .tc main_arg13) = W1 m ρ c (Proc.devRef .tc main_arg13) := W2_of_ne m ρ c main_arg13 (by decide)
theorem k2_arg14 (c : Dev nD) : W2 m ρ c (Proc.devRef .tc main_arg14) = W1 m ρ c (Proc.devRef .tc main_arg14) := W2_of_ne m ρ c main_arg14 (by decide)
theorem k2_arg15 (c : Dev nD) : W2 m ρ c (Proc.devRef .tc main_arg15) = W1 m ρ c (Proc.devRef .tc main_arg15) := W2_of_ne m ρ c main_arg15 (by decide)
theorem k2_arg16 (c : Dev nD) : W2 m ρ c (Proc.devRef .tc main_arg16) = W1 m ρ c (Proc.devRef .tc main_arg16) := W2_of_ne m ρ c main_arg16 (by decide)
theorem k2_arg17 (c : Dev nD) : W2 m ρ c (Proc.devRef .tc main_arg17) = W1 m ρ c (Proc.devRef .tc main_arg17) := W2_of_ne m ρ c main_arg17 (by decide)
theorem k2_arg18 (c : Dev nD) : W2 m ρ c (Proc.devRef .tc main_arg18) = W1 m ρ c (Proc.devRef .tc main_arg18) := W2_of_ne m ρ c main_arg18 (by decide)
theorem k2_arg19 (c : Dev nD) : W2 m ρ c (Proc.devRef .tc main_arg19) = W1 m ρ c (Proc.devRef .tc main_arg19) := W2_of_ne m ρ c main_arg19 (by decide)
theorem k2_arg20 (c : Dev nD) : W2 m ρ c (Proc.devRef .tc main_arg20) = W1 m ρ c (Proc.devRef .tc main_arg20) := W2_of_ne m ρ c main_arg20 (by decide)
theorem k3_v1 (c : Dev nD) : W3 m ρ c (Proc.devRef .tc main_v1) = W2 m ρ c (Proc.devRef .tc main_v1) := keep1_v1 (W2 m ρ c)
theorem p3_v19 (c : Dev nD) : W3 m ρ c (Proc.devRef .tc main_v19) = st1_v19 (W2 m ρ c (Proc.devRef .tc main_v5)) (W2 m ρ c (Proc.devRef .tc main_arg4)) (W2 m ρ c (Proc.devRef .tc main_v1)) := after_st1_v19 (W2 m ρ c)
theorem p3_v26 (c : Dev nD) : W3 m ρ c (Proc.devRef .tc main_v26) = st1_v26 (W2 m ρ c (Proc.devRef .tc main_v5)) (W2 m ρ c (Proc.devRef .tc main_arg5)) (W2 m ρ c (Proc.devRef .tc main_v3)) := after_st1_v26 (W2 m ρ c)
theorem k3_v4 (c : Dev nD) : W3 m ρ c (Proc.devRef .tc main_v4) = W2 m ρ c (Proc.devRef .tc main_v4) := keep1_v4 (W2 m ρ c)
theorem k3_v3 (c : Dev nD) : W3 m ρ c (Proc.devRef .tc main_v3) = W2 m ρ c (Proc.devRef .tc main_v3) := keep1_v3 (W2 m ρ c)
theorem p3_v6 (c : Dev nD) : W3 m ρ c (Proc.devRef .tc main_v6) = st1_v6 (W2 m ρ c (Proc.devRef .tc main_v5)) := after_st1_v6 (W2 m ρ c)
theorem k3_arg6 (c : Dev nD) : W3 m ρ c (Proc.devRef .tc main_arg6) = W2 m ρ c (Proc.devRef .tc main_arg6) := keep1_arg6 (W2 m ρ c)
theorem k3_arg7 (c : Dev nD) : W3 m ρ c (Proc.devRef .tc main_arg7) = W2 m ρ c (Proc.devRef .tc main_arg7) := keep1_arg7 (W2 m ρ c)
theorem k3_arg8 (c : Dev nD) : W3 m ρ c (Proc.devRef .tc main_arg8) = W2 m ρ c (Proc.devRef .tc main_arg8) := keep1_arg8 (W2 m ρ c)
theorem k3_arg9 (c : Dev nD) : W3 m ρ c (Proc.devRef .tc main_arg9) = W2 m ρ c (Proc.devRef .tc main_arg9) := keep1_arg9 (W2 m ρ c)
theorem k3_arg10 (c : Dev nD) : W3 m ρ c (Proc.devRef .tc main_arg10) = W2 m ρ c (Proc.devRef .tc main_arg10) := keep1_arg10 (W2 m ρ c)
theorem k3_arg11 (c : Dev nD) : W3 m ρ c (Proc.devRef .tc main_arg11) = W2 m ρ c (Proc.devRef .tc main_arg11) := keep1_arg11 (W2 m ρ c)
theorem k3_arg12 (c : Dev nD) : W3 m ρ c (Proc.devRef .tc main_arg12) = W2 m ρ c (Proc.devRef .tc main_arg12) := keep1_arg12 (W2 m ρ c)
theorem k3_arg13 (c : Dev nD) : W3 m ρ c (Proc.devRef .tc main_arg13) = W2 m ρ c (Proc.devRef .tc main_arg13) := keep1_arg13 (W2 m ρ c)
theorem k3_arg14 (c : Dev nD) : W3 m ρ c (Proc.devRef .tc main_arg14) = W2 m ρ c (Proc.devRef .tc main_arg14) := keep1_arg14 (W2 m ρ c)
theorem k3_arg15 (c : Dev nD) : W3 m ρ c (Proc.devRef .tc main_arg15) = W2 m ρ c (Proc.devRef .tc main_arg15) := keep1_arg15 (W2 m ρ c)
theorem k3_arg16 (c : Dev nD) : W3 m ρ c (Proc.devRef .tc main_arg16) = W2 m ρ c (Proc.devRef .tc main_arg16) := keep1_arg16 (W2 m ρ c)
theorem k3_arg17 (c : Dev nD) : W3 m ρ c (Proc.devRef .tc main_arg17) = W2 m ρ c (Proc.devRef .tc main_arg17) := keep1_arg17 (W2 m ρ c)
theorem k3_arg18 (c : Dev nD) : W3 m ρ c (Proc.devRef .tc main_arg18) = W2 m ρ c (Proc.devRef .tc main_arg18) := keep1_arg18 (W2 m ρ c)
theorem k3_arg19 (c : Dev nD) : W3 m ρ c (Proc.devRef .tc main_arg19) = W2 m ρ c (Proc.devRef .tc main_arg19) := keep1_arg19 (W2 m ρ c)
theorem k3_arg20 (c : Dev nD) : W3 m ρ c (Proc.devRef .tc main_arg20) = W2 m ρ c (Proc.devRef .tc main_arg20) := keep1_arg20 (W2 m ρ c)
theorem k4_v1 (c : Dev nD) : W4 m ρ c (Proc.devRef .tc main_v1) = W3 m ρ c (Proc.devRef .tc main_v1) := W4_of_ne m ρ c main_v1 (by decide)
theorem p4_v27 {G1 : (⟨S500000x4, .f32⟩ : BufTy).Contents (Elt Ideal) → (⟨S500000x4, .f32⟩ : BufTy).Contents (Elt Ideal) → (⟨S500000x1, .f32⟩ : BufTy).Contents (Elt Ideal) → (⟨S500000x4, .f32⟩ : BufTy).Contents (Elt Ideal)}
    (h1 : ∀ (V : (c : Dev nD) → (b : Ref sig .tc) → Buf (Elt Ideal) ((c : Thread nD τ).loc b)) (c : Dev nD), (dat1 (F := Ideal) V c).arrAt 3 cfg1.N = G1 (V c main_v19) (V c main_v26) (V c main_v4)) (c : Dev nD) :
    W4 m ρ c (Proc.devRef .tc main_v27) = G1 (W3 m ρ c (Proc.devRef .tc main_v19)) (W3 m ρ c (Proc.devRef .tc main_v26)) (W3 m ρ c (Proc.devRef .tc main_v4)) :=
  (W4_arr m ρ c 3).trans (h1 (V3 m ρ) c)
theorem k4_v3 (c : Dev nD) : W4 m ρ c (Proc.devRef .tc main_v3) = W3 m ρ c (Proc.devRef .tc main_v3) := W4_of_ne m ρ c main_v3 (by decide)
theorem k4_v6 (c : Dev nD) : W4 m ρ c (Proc.devRef .tc main_v6) = W3 m ρ c (Proc.devRef .tc main_v6) := W4_of_ne m ρ c main_v6 (by decide)
theorem k4_arg6 (c : Dev nD) : W4 m ρ c (Proc.devRef .tc main_arg6) = W3 m ρ c (Proc.devRef .tc main_arg6) := W4_of_ne m ρ c main_arg6 (by decide)
theorem k4_arg7 (c : Dev nD) : W4 m ρ c (Proc.devRef .tc main_arg7) = W3 m ρ c (Proc.devRef .tc main_arg7) := W4_of_ne m ρ c main_arg7 (by decide)
theorem k4_arg8 (c : Dev nD) : W4 m ρ c (Proc.devRef .tc main_arg8) = W3 m ρ c (Proc.devRef .tc main_arg8) := W4_of_ne m ρ c main_arg8 (by decide)
theorem k4_arg9 (c : Dev nD) : W4 m ρ c (Proc.devRef .tc main_arg9) = W3 m ρ c (Proc.devRef .tc main_arg9) := W4_of_ne m ρ c main_arg9 (by decide)
theorem k4_arg10 (c : Dev nD) : W4 m ρ c (Proc.devRef .tc main_arg10) = W3 m ρ c (Proc.devRef .tc main_arg10) := W4_of_ne m ρ c main_arg10 (by decide)
theorem k4_arg11 (c : Dev nD) : W4 m ρ c (Proc.devRef .tc main_arg11) = W3 m ρ c (Proc.devRef .tc main_arg11) := W4_of_ne m ρ c main_arg11 (by decide)
theorem k4_v4 (c : Dev nD) : W4 m ρ c (Proc.devRef .tc main_v4) = W3 m ρ c (Proc.devRef .tc main_v4) := (W4_arr m ρ c 2).trans (((dat1 (V3 m ρ) c).arrAt_in 2 rfl _).trans (A_eq1 (V3 m ρ) c 2))
theorem k4_arg12 (c : Dev nD) : W4 m ρ c (Proc.devRef .tc main_arg12) = W3 m ρ c (Proc.devRef .tc main_arg12) := W4_of_ne m ρ c main_arg12 (by decide)
theorem k4_arg13 (c : Dev nD) : W4 m ρ c (Proc.devRef .tc main_arg13) = W3 m ρ c (Proc.devRef .tc main_arg13) := W4_of_ne m ρ c main_arg13 (by decide)
theorem k4_arg14 (c : Dev nD) : W4 m ρ c (Proc.devRef .tc main_arg14) = W3 m ρ c (Proc.devRef .tc main_arg14) := W4_of_ne m ρ c main_arg14 (by decide)
theorem k4_arg15 (c : Dev nD) : W4 m ρ c (Proc.devRef .tc main_arg15) = W3 m ρ c (Proc.devRef .tc main_arg15) := W4_of_ne m ρ c main_arg15 (by decide)
theorem k4_arg16 (c : Dev nD) : W4 m ρ c (Proc.devRef .tc main_arg16) = W3 m ρ c (Proc.devRef .tc main_arg16) := W4_of_ne m ρ c main_arg16 (by decide)
theorem k4_arg17 (c : Dev nD) : W4 m ρ c (Proc.devRef .tc main_arg17) = W3 m ρ c (Proc.devRef .tc main_arg17) := W4_of_ne m ρ c main_arg17 (by decide)
theorem k4_arg18 (c : Dev nD) : W4 m ρ c (Proc.devRef .tc main_arg18) = W3 m ρ c (Proc.devRef .tc main_arg18) := W4_of_ne m ρ c main_arg18 (by decide)
theorem k4_arg19 (c : Dev nD) : W4 m ρ c (Proc.devRef .tc main_arg19) = W3 m ρ c (Proc.devRef .tc main_arg19) := W4_of_ne m ρ c main_arg19 (by decide)
theorem k4_arg20 (c : Dev nD) : W4 m ρ c (Proc.devRef .tc main_arg20) = W3 m ρ c (Proc.devRef .tc main_arg20) := W4_of_ne m ρ c main_arg20 (by decide)
theorem k5_v1 (c : Dev nD) : W5 m ρ c (Proc.devRef .tc main_v1) = W4 m ρ c (Proc.devRef .tc main_v1) := keep2_v1 (W4 m ρ c)
theorem k5_v27 (c : Dev nD) : W5 m ρ c (Proc.devRef .tc main_v27) = W4 m ρ c (Proc.devRef .tc main_v27) := keep2_v27 (W4 m ρ c)
theorem p5_v37 (c : Dev nD) : W5 m ρ c (Proc.devRef .tc main_v37) = st2_v37 (W4 m ρ c (Proc.devRef .tc main_v3)) (W4 m ρ c (Proc.devRef .tc main_v27)) := after_st2_v37 (W4 m ρ c)
theorem p5_v44 (c : Dev nD) : W5 m ρ c (Proc.devRef .tc main_v44) = st2_v44 (W4 m ρ c (Proc.devRef .tc main_v6)) (W4 m ρ c (Proc.devRef .tc main_v3)) := after_st2_v44 (W4 m ρ c)
theorem k5_arg6 (c : Dev nD) : W5 m ρ c (Proc.devRef .tc main_arg6) = W4 m ρ c (Proc.devRef .tc main_arg6) := keep2_arg6 (W4 m ρ c)
theorem k5_arg7 (c : Dev nD) : W5 m ρ c (Proc.devRef .tc main_arg7) = W4 m ρ c (Proc.devRef .tc main_arg7) := keep2_arg7 (W4 m ρ c)
theorem k5_arg8 (c : Dev nD) : W5 m ρ c (Proc.devRef .tc main_arg8) = W4 m ρ c (Proc.devRef .tc main_arg8) := keep2_arg8 (W4 m ρ c)
theorem k5_arg9 (c : Dev nD) : W5 m ρ c (Proc.devRef .tc main_arg9) = W4 m ρ c (Proc.devRef .tc main_arg9) := keep2_arg9 (W4 m ρ c)
theorem k5_arg10 (c : Dev nD) : W5 m ρ c (Proc.devRef .tc main_arg10) = W4 m ρ c (Proc.devRef .tc main_arg10) := keep2_arg10 (W4 m ρ c)
theorem k5_arg11 (c : Dev nD) : W5 m ρ c (Proc.devRef .tc main_arg11) = W4 m ρ c (Proc.devRef .tc main_arg11) := keep2_arg11 (W4 m ρ c)
theorem k5_v3 (c : Dev nD) : W5 m ρ c (Proc.devRef .tc main_v3) = W4 m ρ c (Proc.devRef .tc main_v3) := keep2_v3 (W4 m ρ c)
theorem k5_v4 (c : Dev nD) : W5 m ρ c (Proc.devRef .tc main_v4) = W4 m ρ c (Proc.devRef .tc main_v4) := keep2_v4 (W4 m ρ c)
theorem k5_arg12 (c : Dev nD) : W5 m ρ c (Proc.devRef .tc main_arg12) = W4 m ρ c (Proc.devRef .tc main_arg12) := keep2_arg12 (W4 m ρ c)
theorem k5_arg13 (c : Dev nD) : W5 m ρ c (Proc.devRef .tc main_arg13) = W4 m ρ c (Proc.devRef .tc main_arg13) := keep2_arg13 (W4 m ρ c)
theorem k5_arg14 (c : Dev nD) : W5 m ρ c (Proc.devRef .tc main_arg14) = W4 m ρ c (Proc.devRef .tc main_arg14) := keep2_arg14 (W4 m ρ c)
theorem k5_arg15 (c : Dev nD) : W5 m ρ c (Proc.devRef .tc main_arg15) = W4 m ρ c (Proc.devRef .tc main_arg15) := keep2_arg15 (W4 m ρ c)
theorem k5_arg16 (c : Dev nD) : W5 m ρ c (Proc.devRef .tc main_arg16) = W4 m ρ c (Proc.devRef .tc main_arg16) := keep2_arg16 (W4 m ρ c)
theorem k5_arg17 (c : Dev nD) : W5 m ρ c (Proc.devRef .tc main_arg17) = W4 m ρ c (Proc.devRef .tc main_arg17) := keep2_arg17 (W4 m ρ c)
theorem k5_arg18 (c : Dev nD) : W5 m ρ c (Proc.devRef .tc main_arg18) = W4 m ρ c (Proc.devRef .tc main_arg18) := keep2_arg18 (W4 m ρ c)
theorem k5_arg19 (c : Dev nD) : W5 m ρ c (Proc.devRef .tc main_arg19) = W4 m ρ c (Proc.devRef .tc main_arg19) := keep2_arg19 (W4 m ρ c)
theorem k5_arg20 (c : Dev nD) : W5 m ρ c (Proc.devRef .tc main_arg20) = W4 m ρ c (Proc.devRef .tc main_arg20) := keep2_arg20 (W4 m ρ c)
theorem k6_v1 (c : Dev nD) : W6 m ρ c (Proc.devRef .tc main_v1) = W5 m ρ c (Proc.devRef .tc main_v1) := W6_of_ne m ρ c main_v1 (by decide)
theorem p6_v45 {G2 : (⟨S500000x4, .f32⟩ : BufTy).Contents (Elt Ideal) → (⟨S500000x4, .f32⟩ : BufTy).Contents (Elt Ideal) → (⟨S500000x4x64, .f32⟩ : BufTy).Contents (Elt Ideal) → (⟨S500000x4x64, .f32⟩ : BufTy).Contents (Elt Ideal)}
    (h2 : ∀ (V : (c : Dev nD) → (b : Ref sig .tc) → Buf (Elt Ideal) ((c : Thread nD τ).loc b)) (c : Dev nD), (dat2 (F := Ideal) V c).arrAt 3 cfg2.N = G2 (V c main_v27) (V c main_v37) (V c main_v44)) (c : Dev nD) :
    W6 m ρ c (Proc.devRef .tc main_v45) = G2 (W5 m ρ c (Proc.devRef .tc main_v27)) (W5 m ρ c (Proc.devRef .tc main_v37)) (W5 m ρ c (Proc.devRef .tc main_v44)) :=
  (W6_arr m ρ c 3).trans (h2 (V5 m ρ) c)
theorem k6_arg6 (c : Dev nD) : W6 m ρ c (Proc.devRef .tc main_arg6) = W5 m ρ c (Proc.devRef .tc main_arg6) := W6_of_ne m ρ c main_arg6 (by decide)
theorem k6_arg7 (c : Dev nD) : W6 m ρ c (Proc.devRef .tc main_arg7) = W5 m ρ c (Proc.devRef .tc main_arg7) := W6_of_ne m ρ c main_arg7 (by decide)
theorem k6_arg8 (c : Dev nD) : W6 m ρ c (Proc.devRef .tc main_arg8) = W5 m ρ c (Proc.devRef .tc main_arg8) := W6_of_ne m ρ c main_arg8 (by decide)
theorem k6_arg9 (c : Dev nD) : W6 m ρ c (Proc.devRef .tc main_arg9) = W5 m ρ c (Proc.devRef .tc main_arg9) := W6_of_ne m ρ c main_arg9 (by decide)
theorem k6_arg10 (c : Dev nD) : W6 m ρ c (Proc.devRef .tc main_arg10) = W5 m ρ c (Proc.devRef .tc main_arg10) := W6_of_ne m ρ c main_arg10 (by decide)
theorem k6_arg11 (c : Dev nD) : W6 m ρ c (Proc.devRef .tc main_arg11) = W5 m ρ c (Proc.devRef .tc main_arg11) := W6_of_ne m ρ c main_arg11 (by decide)
theorem k6_v3 (c : Dev nD) : W6 m ρ c (Proc.devRef .tc main_v3) = W5 m ρ c (Proc.devRef .tc main_v3) := W6_of_ne m ρ c main_v3 (by decide)
theorem k6_v4 (c : Dev nD) : W6 m ρ c (Proc.devRef .tc main_v4) = W5 m ρ c (Proc.devRef .tc main_v4) := W6_of_ne m ρ c main_v4 (by decide)
theorem k6_arg12 (c : Dev nD) : W6 m ρ c (Proc.devRef .tc main_arg12) = W5 m ρ c (Proc.devRef .tc main_arg12) := W6_of_ne m ρ c main_arg12 (by decide)
theorem k6_arg13 (c : Dev nD) : W6 m ρ c (Proc.devRef .tc main_arg13) = W5 m ρ c (Proc.devRef .tc main_arg13) := W6_of_ne m ρ c main_arg13 (by decide)
theorem k6_arg14 (c : Dev nD) : W6 m ρ c (Proc.devRef .tc main_arg14) = W5 m ρ c (Proc.devRef .tc main_arg14) := W6_of_ne m ρ c main_arg14 (by decide)
theorem k6_arg15 (c : Dev nD) : W6 m ρ c (Proc.devRef .tc main_arg15) = W5 m ρ c (Proc.devRef .tc main_arg15) := W6_of_ne m ρ c main_arg15 (by decide)
theorem k6_arg16 (c : Dev nD) : W6 m ρ c (Proc.devRef .tc main_arg16) = W5 m ρ c (Proc.devRef .tc main_arg16) := W6_of_ne m ρ c main_arg16 (by decide)
theorem k6_arg17 (c : Dev nD) : W6 m ρ c (Proc.devRef .tc main_arg17) = W5 m ρ c (Proc.devRef .tc main_arg17) := W6_of_ne m ρ c main_arg17 (by decide)
theorem k6_arg18 (c : Dev nD) : W6 m ρ c (Proc.devRef .tc main_arg18) = W5 m ρ c (Proc.devRef .tc main_arg18) := W6_of_ne m ρ c main_arg18 (by decide)
theorem k6_arg19 (c : Dev nD) : W6 m ρ c (Proc.devRef .tc main_arg19) = W5 m ρ c (Proc.devRef .tc main_arg19) := W6_of_ne m ρ c main_arg19 (by decide)
theorem k6_arg20 (c : Dev nD) : W6 m ρ c (Proc.devRef .tc main_arg20) = W5 m ρ c (Proc.devRef .tc main_arg20) := W6_of_ne m ρ c main_arg20 (by decide)
theorem p7_v49 (c : Dev nD) : W7 m ρ c (Proc.devRef .tc main_v49) = st3_v49 (W6 m ρ c (Proc.devRef .tc main_v1)) (W6 m ρ c (Proc.devRef .tc main_v45)) := after_st3_v49 (W6 m ρ c)
theorem p7_v50 (c : Dev nD) : W7 m ρ c (Proc.devRef .tc main_v50) = st3_v50 (W6 m ρ c (Proc.devRef .tc main_arg6)) := after_st3_v50 (W6 m ρ c)
theorem p7_v51 (c : Dev nD) : W7 m ρ c (Proc.devRef .tc main_v51) = st3_v51 (W6 m ρ c (Proc.devRef .tc main_arg7)) := after_st3_v51 (W6 m ρ c)
theorem p7_v52 (c : Dev nD) : W7 m ρ c (Proc.devRef .tc main_v52) = st3_v52 (W6 m ρ c (Proc.devRef .tc main_arg8)) := after_st3_v52 (W6 m ρ c)
theorem k7_v1 (c : Dev nD) : W7 m ρ c (Proc.devRef .tc main_v1) = W6 m ρ c (Proc.devRef .tc main_v1) := keep3_v1 (W6 m ρ c)
theorem k7_arg9 (c : Dev nD) : W7 m ρ c (Proc.devRef .tc main_arg9) = W6 m ρ c (Proc.devRef .tc main_arg9) := keep3_arg9 (W6 m ρ c)
theorem k7_arg10 (c : Dev nD) : W7 m ρ c (Proc.devRef .tc main_arg10) = W6 m ρ c (Proc.devRef .tc main_arg10) := keep3_arg10 (W6 m ρ c)
theorem k7_arg11 (c : Dev nD) : W7 m ρ c (Proc.devRef .tc main_arg11) = W6 m ρ c (Proc.devRef .tc main_arg11) := keep3_arg11 (W6 m ρ c)
theorem k7_v3 (c : Dev nD) : W7 m ρ c (Proc.devRef .tc main_v3) = W6 m ρ c (Proc.devRef .tc main_v3) := keep3_v3 (W6 m ρ c)
theorem k7_v4 (c : Dev nD) : W7 m ρ c (Proc.devRef .tc main_v4) = W6 m ρ c (Proc.devRef .tc main_v4) := keep3_v4 (W6 m ρ c)
theorem k7_arg12 (c : Dev nD) : W7 m ρ c (Proc.devRef .tc main_arg12) = W6 m ρ c (Proc.devRef .tc main_arg12) := keep3_arg12 (W6 m ρ c)
theorem k7_arg13 (c : Dev nD) : W7 m ρ c (Proc.devRef .tc main_arg13) = W6 m ρ c (Proc.devRef .tc main_arg13) := keep3_arg13 (W6 m ρ c)
theorem k7_arg14 (c : Dev nD) : W7 m ρ c (Proc.devRef .tc main_arg14) = W6 m ρ c (Proc.devRef .tc main_arg14) := keep3_arg14 (W6 m ρ c)
theorem k7_arg15 (c : Dev nD) : W7 m ρ c (Proc.devRef .tc main_arg15) = W6 m ρ c (Proc.devRef .tc main_arg15) := keep3_arg15 (W6 m ρ c)
theorem k7_arg16 (c : Dev nD) : W7 m ρ c (Proc.devRef .tc main_arg16) = W6 m ρ c (Proc.devRef .tc main_arg16) := keep3_arg16 (W6 m ρ c)
theorem k7_arg17 (c : Dev nD) : W7 m ρ c (Proc.devRef .tc main_arg17) = W6 m ρ c (Proc.devRef .tc main_arg17) := keep3_arg17 (W6 m ρ c)
theorem k7_arg18 (c : Dev nD) : W7 m ρ c (Proc.devRef .tc main_arg18) = W6 m ρ c (Proc.devRef .tc main_arg18) := keep3_arg18 (W6 m ρ c)
theorem k7_arg19 (c : Dev nD) : W7 m ρ c (Proc.devRef .tc main_arg19) = W6 m ρ c (Proc.devRef .tc main_arg19) := keep3_arg19 (W6 m ρ c)
theorem k7_arg20 (c : Dev nD) : W7 m ρ c (Proc.devRef .tc main_arg20) = W6 m ρ c (Proc.devRef .tc main_arg20) := keep3_arg20 (W6 m ρ c)
theorem p8_v53 {G3 : (⟨S50000x256, .f32⟩ : BufTy).Contents (Elt Ideal) → (⟨S1x256, .f32⟩ : BufTy).Contents (Elt Ideal) → (⟨S1x256, .f32⟩ : BufTy).Contents (Elt Ideal) → (⟨S1x256, .f32⟩ : BufTy).Contents (Elt Ideal) → (⟨S50000x256, .f32⟩ : BufTy).Contents (Elt Ideal)}
    (h3 : ∀ (V : (c : Dev nD) → (b : Ref sig .tc) → Buf (Elt Ideal) ((c : Thread nD τ).loc b)) (c : Dev nD), (dat3 (F := Ideal) V c).arrAt 4 cfg3.N = G3 (V c main_v49) (V c main_v50) (V c main_v51) (V c main_v52)) (c : Dev nD) :
    W8 m ρ c (Proc.devRef .tc main_v53) = G3 (W7 m ρ c (Proc.devRef .tc main_v49)) (W7 m ρ c (Proc.devRef .tc main_v50)) (W7 m ρ c (Proc.devRef .tc main_v51)) (W7 m ρ c (Proc.devRef .tc main_v52)) :=
  (W8_arr m ρ c 4).trans (h3 (V7 m ρ) c)
theorem k8_v1 (c : Dev nD) : W8 m ρ c (Proc.devRef .tc main_v1) = W7 m ρ c (Proc.devRef .tc main_v1) := W8_of_ne m ρ c main_v1 (by decide)
theorem k8_arg9 (c : Dev nD) : W8 m ρ c (Proc.devRef .tc main_arg9) = W7 m ρ c (Proc.devRef .tc main_arg9) := W8_of_ne m ρ c main_arg9 (by decide)
theorem k8_arg10 (c : Dev nD) : W8 m ρ c (Proc.devRef .tc main_arg10) = W7 m ρ c (Proc.devRef .tc main_arg10) := W8_of_ne m ρ c main_arg10 (by decide)
theorem k8_arg11 (c : Dev nD) : W8 m ρ c (Proc.devRef .tc main_arg11) = W7 m ρ c (Proc.devRef .tc main_arg11) := W8_of_ne m ρ c main_arg11 (by decide)
theorem k8_v3 (c : Dev nD) : W8 m ρ c (Proc.devRef .tc main_v3) = W7 m ρ c (Proc.devRef .tc main_v3) := W8_of_ne m ρ c main_v3 (by decide)
theorem k8_v4 (c : Dev nD) : W8 m ρ c (Proc.devRef .tc main_v4) = W7 m ρ c (Proc.devRef .tc main_v4) := W8_of_ne m ρ c main_v4 (by decide)
theorem k8_arg12 (c : Dev nD) : W8 m ρ c (Proc.devRef .tc main_arg12) = W7 m ρ c (Proc.devRef .tc main_arg12) := W8_of_ne m ρ c main_arg12 (by decide)
theorem k8_arg13 (c : Dev nD) : W8 m ρ c (Proc.devRef .tc main_arg13) = W7 m ρ c (Proc.devRef .tc main_arg13) := W8_of_ne m ρ c main_arg13 (by decide)
theorem k8_arg14 (c : Dev nD) : W8 m ρ c (Proc.devRef .tc main_arg14) = W7 m ρ c (Proc.devRef .tc main_arg14) := W8_of_ne m ρ c main_arg14 (by decide)
theorem k8_arg15 (c : Dev nD) : W8 m ρ c (Proc.devRef .tc main_arg15) = W7 m ρ c (Proc.devRef .tc main_arg15) := W8_of_ne m ρ c main_arg15 (by decide)
theorem k8_arg16 (c : Dev nD) : W8 m ρ c (Proc.devRef .tc main_arg16) = W7 m ρ c (Proc.devRef .tc main_arg16) := W8_of_ne m ρ c main_arg16 (by decide)
theorem k8_arg17 (c : Dev nD) : W8 m ρ c (Proc.devRef .tc main_arg17) = W7 m ρ c (Proc.devRef .tc main_arg17) := W8_of_ne m ρ c main_arg17 (by decide)
theorem k8_arg18 (c : Dev nD) : W8 m ρ c (Proc.devRef .tc main_arg18) = W7 m ρ c (Proc.devRef .tc main_arg18) := W8_of_ne m ρ c main_arg18 (by decide)
theorem k8_arg19 (c : Dev nD) : W8 m ρ c (Proc.devRef .tc main_arg19) = W7 m ρ c (Proc.devRef .tc main_arg19) := W8_of_ne m ρ c main_arg19 (by decide)
theorem k8_arg20 (c : Dev nD) : W8 m ρ c (Proc.devRef .tc main_arg20) = W7 m ρ c (Proc.devRef .tc main_arg20) := W8_of_ne m ρ c main_arg20 (by decide)
theorem k9_v1 (c : Dev nD) : W9 m ρ c (Proc.devRef .tc main_v1) = W8 m ρ c (Proc.devRef .tc main_v1) := W9_of_ne m ρ c main_v1 (by decide)
theorem p9_v54 {G4 : (⟨S50000x256, .f32⟩ : BufTy).Contents (Elt Ideal) → (⟨S256x256, .f32⟩ : BufTy).Contents (Elt Ideal) → (⟨S50000x256, .f32⟩ : BufTy).Contents (Elt Ideal)}
    (h4 : ∀ (V : (c : Dev nD) → (b : Ref sig .tc) → Buf (Elt Ideal) ((c : Thread nD τ).loc b)) (c : Dev nD), (dat4 (F := Ideal) V c).arrAt 2 cfg4.N = G4 (V c main_v53) (V c main_arg9)) (c : Dev nD) :
    W9 m ρ c (Proc.devRef .tc main_v54) = G4 (W8 m ρ c (Proc.devRef .tc main_v53)) (W8 m ρ c (Proc.devRef .tc main_arg9)) :=
  (W9_arr m ρ c 2).trans (h4 (V8 m ρ) c)
theorem k9_arg10 (c : Dev nD) : W9 m ρ c (Proc.devRef .tc main_arg10) = W8 m ρ c (Proc.devRef .tc main_arg10) := W9_of_ne m ρ c main_arg10 (by decide)
theorem k9_arg11 (c : Dev nD) : W9 m ρ c (Proc.devRef .tc main_arg11) = W8 m ρ c (Proc.devRef .tc main_arg11) := W9_of_ne m ρ c main_arg11 (by decide)
theorem k9_v3 (c : Dev nD) : W9 m ρ c (Proc.devRef .tc main_v3) = W8 m ρ c (Proc.devRef .tc main_v3) := W9_of_ne m ρ c main_v3 (by decide)
theorem k9_v4 (c : Dev nD) : W9 m ρ c (Proc.devRef .tc main_v4) = W8 m ρ c (Proc.devRef .tc main_v4) := W9_of_ne m ρ c main_v4 (by decide)
theorem k9_arg12 (c : Dev nD) : W9 m ρ c (Proc.devRef .tc main_arg12) = W8 m ρ c (Proc.devRef .tc main_arg12) := W9_of_ne m ρ c main_arg12 (by decide)
theorem k9_arg13 (c : Dev nD) : W9 m ρ c (Proc.devRef .tc main_arg13) = W8 m ρ c (Proc.devRef .tc main_arg13) := W9_of_ne m ρ c main_arg13 (by decide)
theorem k9_arg14 (c : Dev nD) : W9 m ρ c (Proc.devRef .tc main_arg14) = W8 m ρ c (Proc.devRef .tc main_arg14) := W9_of_ne m ρ c main_arg14 (by decide)
theorem k9_arg15 (c : Dev nD) : W9 m ρ c (Proc.devRef .tc main_arg15) = W8 m ρ c (Proc.devRef .tc main_arg15) := W9_of_ne m ρ c main_arg15 (by decide)
theorem k9_arg16 (c : Dev nD) : W9 m ρ c (Proc.devRef .tc main_arg16) = W8 m ρ c (Proc.devRef .tc main_arg16) := W9_of_ne m ρ c main_arg16 (by decide)
theorem k9_arg17 (c : Dev nD) : W9 m ρ c (Proc.devRef .tc main_arg17) = W8 m ρ c (Proc.devRef .tc main_arg17) := W9_of_ne m ρ c main_arg17 (by decide)
theorem k9_arg18 (c : Dev nD) : W9 m ρ c (Proc.devRef .tc main_arg18) = W8 m ρ c (Proc.devRef .tc main_arg18) := W9_of_ne m ρ c main_arg18 (by decide)
theorem k9_arg19 (c : Dev nD) : W9 m ρ c (Proc.devRef .tc main_arg19) = W8 m ρ c (Proc.devRef .tc main_arg19) := W9_of_ne m ρ c main_arg19 (by decide)
theorem k9_arg20 (c : Dev nD) : W9 m ρ c (Proc.devRef .tc main_arg20) = W8 m ρ c (Proc.devRef .tc main_arg20) := W9_of_ne m ρ c main_arg20 (by decide)
theorem k10_v1 (c : Dev nD) : W10 m ρ c (Proc.devRef .tc main_v1) = W9 m ρ c (Proc.devRef .tc main_v1) := keep5_v1 (W9 m ρ c)
theorem p10_v68 (c : Dev nD) : W10 m ρ c (Proc.devRef .tc main_v68) = st5_v68 (W9 m ρ c (Proc.devRef .tc main_v54)) (W9 m ρ c (Proc.devRef .tc main_arg10)) (W9 m ρ c (Proc.devRef .tc main_v1)) := after_st5_v68 (W9 m ρ c)
theorem p10_v75 (c : Dev nD) : W10 m ρ c (Proc.devRef .tc main_v75) = st5_v75 (W9 m ρ c (Proc.devRef .tc main_v54)) (W9 m ρ c (Proc.devRef .tc main_arg11)) (W9 m ρ c (Proc.devRef .tc main_v3)) := after_st5_v75 (W9 m ρ c)
theorem k10_v4 (c : Dev nD) : W10 m ρ c (Proc.devRef .tc main_v4) = W9 m ρ c (Proc.devRef .tc main_v4) := keep5_v4 (W9 m ρ c)
theorem k10_v3 (c : Dev nD) : W10 m ρ c (Proc.devRef .tc main_v3) = W9 m ρ c (Proc.devRef .tc main_v3) := keep5_v3 (W9 m ρ c)
theorem p10_v55 (c : Dev nD) : W10 m ρ c (Proc.devRef .tc main_v55) = st5_v55 (W9 m ρ c (Proc.devRef .tc main_v54)) := after_st5_v55 (W9 m ρ c)
theorem k10_arg12 (c : Dev nD) : W10 m ρ c (Proc.devRef .tc main_arg12) = W9 m ρ c (Proc.devRef .tc main_arg12) := keep5_arg12 (W9 m ρ c)
theorem k10_arg13 (c : Dev nD) : W10 m ρ c (Proc.devRef .tc main_arg13) = W9 m ρ c (Proc.devRef .tc main_arg13) := keep5_arg13 (W9 m ρ c)
theorem k10_arg14 (c : Dev nD) : W10 m ρ c (Proc.devRef .tc main_arg14) = W9 m ρ c (Proc.devRef .tc main_arg14) := keep5_arg14 (W9 m ρ c)
theorem k10_arg15 (c : Dev nD) : W10 m ρ c (Proc.devRef .tc main_arg15) = W9 m ρ c (Proc.devRef .tc main_arg15) := keep5_arg15 (W9 m ρ c)
theorem k10_arg16 (c : Dev nD) : W10 m ρ c (Proc.devRef .tc main_arg16) = W9 m ρ c (Proc.devRef .tc main_arg16) := keep5_arg16 (W9 m ρ c)
theorem k10_arg17 (c : Dev nD) : W10 m ρ c (Proc.devRef .tc main_arg17) = W9 m ρ c (Proc.devRef .tc main_arg17) := keep5_arg17 (W9 m ρ c)
theorem k10_arg18 (c : Dev nD) : W10 m ρ c (Proc.devRef .tc main_arg18) = W9 m ρ c (Proc.devRef .tc main_arg18) := keep5_arg18 (W9 m ρ c)
theorem k10_arg19 (c : Dev nD) : W10 m ρ c (Proc.devRef .tc main_arg19) = W9 m ρ c (Proc.devRef .tc main_arg19) := keep5_arg19 (W9 m ρ c)
theorem k10_arg20 (c : Dev nD) : W10 m ρ c (Proc.devRef .tc main_arg20) = W9 m ρ c (Proc.devRef .tc main_arg20) := keep5_arg20 (W9 m ρ c)
theorem k11_v1 (c : Dev nD) : W11 m ρ c (Proc.devRef .tc main_v1) = W10 m ρ c (Proc.devRef .tc main_v1) := W11_of_ne m ρ c main_v1 (by decide)
theorem p11_v76 {G5 : (⟨S500000x4, .f32⟩ : BufTy).Contents (Elt Ideal) → (⟨S500000x4, .f32⟩ : BufTy).Contents (Elt Ideal) → (⟨S500000x1, .f32⟩ : BufTy).Contents (Elt Ideal) → (⟨S500000x4, .f32⟩ : BufTy).Contents (Elt Ideal)}
    (h5 : ∀ (V : (c : Dev nD) → (b : Ref sig .tc) → Buf (Elt Ideal) ((c : Thread nD τ).loc b)) (c : Dev nD), (dat5 (F := Ideal) V c).arrAt 3 cfg5.N = G5 (V c main_v68) (V c main_v75) (V c main_v4)) (c : Dev nD) :
    W11 m ρ c (Proc.devRef .tc main_v76) = G5 (W10 m ρ c (Proc.devRef .tc main_v68)) (W10 m ρ c (Proc.devRef .tc main_v75)) (W10 m ρ c (Proc.devRef .tc main_v4)) :=
  (W11_arr m ρ c 3).trans (h5 (V10 m ρ) c)
theorem k11_v3 (c : Dev nD) : W11 m ρ c (Proc.devRef .tc main_v3) = W10 m ρ c (Proc.devRef .tc main_v3) := W11_of_ne m ρ c main_v3 (by decide)
theorem k11_v55 (c : Dev nD) : W11 m ρ c (Proc.devRef .tc main_v55) = W10 m ρ c (Proc.devRef .tc main_v55) := W11_of_ne m ρ c main_v55 (by decide)
theorem k11_arg12 (c : Dev nD) : W11 m ρ c (Proc.devRef .tc main_arg12) = W10 m ρ c (Proc.devRef .tc main_arg12) := W11_of_ne m ρ c main_arg12 (by decide)
theorem k11_arg13 (c : Dev nD) : W11 m ρ c (Proc.devRef .tc main_arg13) = W10 m ρ c (Proc.devRef .tc main_arg13) := W11_of_ne m ρ c main_arg13 (by decide)
theorem k11_arg14 (c : Dev nD) : W11 m ρ c (Proc.devRef .tc main_arg14) = W10 m ρ c (Proc.devRef .tc main_arg14) := W11_of_ne m ρ c main_arg14 (by decide)
theorem k11_arg15 (c : Dev nD) : W11 m ρ c (Proc.devRef .tc main_arg15) = W10 m ρ c (Proc.devRef .tc main_arg15) := W11_of_ne m ρ c main_arg15 (by decide)
theorem k11_arg16 (c : Dev nD) : W11 m ρ c (Proc.devRef .tc main_arg16) = W10 m ρ c (Proc.devRef .tc main_arg16) := W11_of_ne m ρ c main_arg16 (by decide)
theorem k11_arg17 (c : Dev nD) : W11 m ρ c (Proc.devRef .tc main_arg17) = W10 m ρ c (Proc.devRef .tc main_arg17) := W11_of_ne m ρ c main_arg17 (by decide)
theorem k11_v4 (c : Dev nD) : W11 m ρ c (Proc.devRef .tc main_v4) = W10 m ρ c (Proc.devRef .tc main_v4) := (W11_arr m ρ c 2).trans (((dat5 (V10 m ρ) c).arrAt_in 2 rfl _).trans (A_eq5 (V10 m ρ) c 2))
theorem k11_arg18 (c : Dev nD) : W11 m ρ c (Proc.devRef .tc main_arg18) = W10 m ρ c (Proc.devRef .tc main_arg18) := W11_of_ne m ρ c main_arg18 (by decide)
theorem k11_arg19 (c : Dev nD) : W11 m ρ c (Proc.devRef .tc main_arg19) = W10 m ρ c (Proc.devRef .tc main_arg19) := W11_of_ne m ρ c main_arg19 (by decide)
theorem k11_arg20 (c : Dev nD) : W11 m ρ c (Proc.devRef .tc main_arg20) = W10 m ρ c (Proc.devRef .tc main_arg20) := W11_of_ne m ρ c main_arg20 (by decide)
theorem k12_v1 (c : Dev nD) : W12 m ρ c (Proc.devRef .tc main_v1) = W11 m ρ c (Proc.devRef .tc main_v1) := keep6_v1 (W11 m ρ c)
theorem k12_v76 (c : Dev nD) : W12 m ρ c (Proc.devRef .tc main_v76) = W11 m ρ c (Proc.devRef .tc main_v76) := keep6_v76 (W11 m ρ c)
theorem p12_v86 (c : Dev nD) : W12 m ρ c (Proc.devRef .tc main_v86) = st6_v86 (W11 m ρ c (Proc.devRef .tc main_v3)) (W11 m ρ c (Proc.devRef .tc main_v76)) := after_st6_v86 (W11 m ρ c)
theorem p12_v93 (c : Dev nD) : W12 m ρ c (Proc.devRef .tc main_v93) = st6_v93 (W11 m ρ c (Proc.devRef .tc main_v55)) (W11 m ρ c (Proc.devRef .tc main_v3)) := after_st6_v93 (W11 m ρ c)
theorem k12_arg12 (c : Dev nD) : W12 m ρ c (Proc.devRef .tc main_arg12) = W11 m ρ c (Proc.devRef .tc main_arg12) := keep6_arg12 (W11 m ρ c)
theorem k12_arg13 (c : Dev nD) : W12 m ρ c (Proc.devRef .tc main_arg13) = W11 m ρ c (Proc.devRef .tc main_arg13) := keep6_arg13 (W11 m ρ c)
theorem k12_arg14 (c : Dev nD) : W12 m ρ c (Proc.devRef .tc main_arg14) = W11 m ρ c (Proc.devRef .tc main_arg14) := keep6_arg14 (W11 m ρ c)
theorem k12_arg15 (c : Dev nD) : W12 m ρ c (Proc.devRef .tc main_arg15) = W11 m ρ c (Proc.devRef .tc main_arg15) := keep6_arg15 (W11 m ρ c)
theorem k12_arg16 (c : Dev nD) : W12 m ρ c (Proc.devRef .tc main_arg16) = W11 m ρ c (Proc.devRef .tc main_arg16) := keep6_arg16 (W11 m ρ c)
theorem k12_arg17 (c : Dev nD) : W12 m ρ c (Proc.devRef .tc main_arg17) = W11 m ρ c (Proc.devRef .tc main_arg17) := keep6_arg17 (W11 m ρ c)
theorem k12_v3 (c : Dev nD) : W12 m ρ c (Proc.devRef .tc main_v3) = W11 m ρ c (Proc.devRef .tc main_v3) := keep6_v3 (W11 m ρ c)
theorem k12_v4 (c : Dev nD) : W12 m ρ c (Proc.devRef .tc main_v4) = W11 m ρ c (Proc.devRef .tc main_v4) := keep6_v4 (W11 m ρ c)
theorem k12_arg18 (c : Dev nD) : W12 m ρ c (Proc.devRef .tc main_arg18) = W11 m ρ c (Proc.devRef .tc main_arg18) := keep6_arg18 (W11 m ρ c)
theorem k12_arg19 (c : Dev nD) : W12 m ρ c (Proc.devRef .tc main_arg19) = W11 m ρ c (Proc.devRef .tc main_arg19) := keep6_arg19 (W11 m ρ c)
theorem k12_arg20 (c : Dev nD) : W12 m ρ c (Proc.devRef .tc main_arg20) = W11 m ρ c (Proc.devRef .tc main_arg20) := keep6_arg20 (W11 m ρ c)
theorem k13_v1 (c : Dev nD) : W13 m ρ c (Proc.devRef .tc main_v1) = W12 m ρ c (Proc.devRef .tc main_v1) := W13_of_ne m ρ c main_v1 (by decide)
theorem p13_v94 {G6 : (⟨S500000x4, .f32⟩ : BufTy).Contents (Elt Ideal) → (⟨S500000x4, .f32⟩ : BufTy).Contents (Elt Ideal) → (⟨S500000x4x64, .f32⟩ : BufTy).Contents (Elt Ideal) → (⟨S500000x4x64, .f32⟩ : BufTy).Contents (Elt Ideal)}
    (h6 : ∀ (V : (c : Dev nD) → (b : Ref sig .tc) → Buf (Elt Ideal) ((c : Thread nD τ).loc b)) (c : Dev nD), (dat6 (F := Ideal) V c).arrAt 3 cfg6.N = G6 (V c main_v76) (V c main_v86) (V c main_v93)) (c : Dev nD) :
    W13 m ρ c (Proc.devRef .tc main_v94) = G6 (W12 m ρ c (Proc.devRef .tc main_v76)) (W12 m ρ c (Proc.devRef .tc main_v86)) (W12 m ρ c (Proc.devRef .tc main_v93)) :=
  (W13_arr m ρ c 3).trans (h6 (V12 m ρ) c)
theorem k13_arg12 (c : Dev nD) : W13 m ρ c (Proc.devRef .tc main_arg12) = W12 m ρ c (Proc.devRef .tc main_arg12) := W13_of_ne m ρ c main_arg12 (by decide)
theorem k13_arg13 (c : Dev nD) : W13 m ρ c (Proc.devRef .tc main_arg13) = W12 m ρ c (Proc.devRef .tc main_arg13) := W13_of_ne m ρ c main_arg13 (by decide)
theorem k13_arg14 (c : Dev nD) : W13 m ρ c (Proc.devRef .tc main_arg14) = W12 m ρ c (Proc.devRef .tc main_arg14) := W13_of_ne m ρ c main_arg14 (by decide)
theorem k13_arg15 (c : Dev nD) : W13 m ρ c (Proc.devRef .tc main_arg15) = W12 m ρ c (Proc.devRef .tc main_arg15) := W13_of_ne m ρ c main_arg15 (by decide)
theorem k13_arg16 (c : Dev nD) : W13 m ρ c (Proc.devRef .tc main_arg16) = W12 m ρ c (Proc.devRef .tc main_arg16) := W13_of_ne m ρ c main_arg16 (by decide)
theorem k13_arg17 (c : Dev nD) : W13 m ρ c (Proc.devRef .tc main_arg17) = W12 m ρ c (Proc.devRef .tc main_arg17) := W13_of_ne m ρ c main_arg17 (by decide)
theorem k13_v3 (c : Dev nD) : W13 m ρ c (Proc.devRef .tc main_v3) = W12 m ρ c (Proc.devRef .tc main_v3) := W13_of_ne m ρ c main_v3 (by decide)
theorem k13_v4 (c : Dev nD) : W13 m ρ c (Proc.devRef .tc main_v4) = W12 m ρ c (Proc.devRef .tc main_v4) := W13_of_ne m ρ c main_v4 (by decide)
theorem k13_arg18 (c : Dev nD) : W13 m ρ c (Proc.devRef .tc main_arg18) = W12 m ρ c (Proc.devRef .tc main_arg18) := W13_of_ne m ρ c main_arg18 (by decide)
theorem k13_arg19 (c : Dev nD) : W13 m ρ c (Proc.devRef .tc main_arg19) = W12 m ρ c (Proc.devRef .tc main_arg19) := W13_of_ne m ρ c main_arg19 (by decide)
theorem k13_arg20 (c : Dev nD) : W13 m ρ c (Proc.devRef .tc main_arg20) = W12 m ρ c (Proc.devRef .tc main_arg20) := W13_of_ne m ρ c main_arg20 (by decide)
theorem p14_v98 (c : Dev nD) : W14 m ρ c (Proc.devRef .tc main_v98) = st7_v98 (W13 m ρ c (Proc.devRef .tc main_v1)) (W13 m ρ c (Proc.devRef .tc main_v94)) := after_st7_v98 (W13 m ρ c)
theorem p14_v99 (c : Dev nD) : W14 m ρ c (Proc.devRef .tc main_v99) = st7_v99 (W13 m ρ c (Proc.devRef .tc main_arg12)) := after_st7_v99 (W13 m ρ c)
theorem p14_v100 (c : Dev nD) : W14 m ρ c (Proc.devRef .tc main_v100) = st7_v100 (W13 m ρ c (Proc.devRef .tc main_arg13)) := after_st7_v100 (W13 m ρ c)
theorem p14_v101 (c : Dev nD) : W14 m ρ c (Proc.devRef .tc main_v101) = st7_v101 (W13 m ρ c (Proc.devRef .tc main_arg14)) := after_st7_v101 (W13 m ρ c)
theorem k14_v1 (c : Dev nD) : W14 m ρ c (Proc.devRef .tc main_v1) = W13 m ρ c (Proc.devRef .tc main_v1) := keep7_v1 (W13 m ρ c)
theorem k14_arg15 (c : Dev nD) : W14 m ρ c (Proc.devRef .tc main_arg15) = W13 m ρ c (Proc.devRef .tc main_arg15) := keep7_arg15 (W13 m ρ c)
theorem k14_arg16 (c : Dev nD) : W14 m ρ c (Proc.devRef .tc main_arg16) = W13 m ρ c (Proc.devRef .tc main_arg16) := keep7_arg16 (W13 m ρ c)
theorem k14_arg17 (c : Dev nD) : W14 m ρ c (Proc.devRef .tc main_arg17) = W13 m ρ c (Proc.devRef .tc main_arg17) := keep7_arg17 (W13 m ρ c)
theorem k14_v3 (c : Dev nD) : W14 m ρ c (Proc.devRef .tc main_v3) = W13 m ρ c (Proc.devRef .tc main_v3) := keep7_v3 (W13 m ρ c)
theorem k14_v4 (c : Dev nD) : W14 m ρ c (Proc.devRef .tc main_v4) = W13 m ρ c (Proc.devRef .tc main_v4) := keep7_v4 (W13 m ρ c)
theorem k14_arg18 (c : Dev nD) : W14 m ρ c (Proc.devRef .tc main_arg18) = W13 m ρ c (Proc.devRef .tc main_arg18) := keep7_arg18 (W13 m ρ c)
theorem k14_arg19 (c : Dev nD) : W14 m ρ c (Proc.devRef .tc main_arg19) = W13 m ρ c (Proc.devRef .tc main_arg19) := keep7_arg19 (W13 m ρ c)
theorem k14_arg20 (c : Dev nD) : W14 m ρ c (Proc.devRef .tc main_arg20) = W13 m ρ c (Proc.devRef .tc main_arg20) := keep7_arg20 (W13 m ρ c)
theorem p15_v102 {G7 : (⟨S50000x256, .f32⟩ : BufTy).Contents (Elt Ideal) → (⟨S1x256, .f32⟩ : BufTy).Contents (Elt Ideal) → (⟨S1x256, .f32⟩ : BufTy).Contents (Elt Ideal) → (⟨S1x256, .f32⟩ : BufTy).Contents (Elt Ideal) → (⟨S50000x256, .f32⟩ : BufTy).Contents (Elt Ideal)}
    (h7 : ∀ (V : (c : Dev nD) → (b : Ref sig .tc) → Buf (Elt Ideal) ((c : Thread nD τ).loc b)) (c : Dev nD), (dat7 (F := Ideal) V c).arrAt 4 cfg7.N = G7 (V c main_v98) (V c main_v99) (V c main_v100) (V c main_v101)) (c : Dev nD) :
    W15 m ρ c (Proc.devRef .tc main_v102) = G7 (W14 m ρ c (Proc.devRef .tc main_v98)) (W14 m ρ c (Proc.devRef .tc main_v99)) (W14 m ρ c (Proc.devRef .tc main_v100)) (W14 m ρ c (Proc.devRef .tc main_v101)) :=
  (W15_arr m ρ c 4).trans (h7 (V14 m ρ) c)
theorem k15_v1 (c : Dev nD) : W15 m ρ c (Proc.devRef .tc main_v1) = W14 m ρ c (Proc.devRef .tc main_v1) := W15_of_ne m ρ c main_v1 (by decide)
theorem k15_arg15 (c : Dev nD) : W15 m ρ c (Proc.devRef .tc main_arg15) = W14 m ρ c (Proc.devRef .tc main_arg15) := W15_of_ne m ρ c main_arg15 (by decide)
theorem k15_arg16 (c : Dev nD) : W15 m ρ c (Proc.devRef .tc main_arg16) = W14 m ρ c (Proc.devRef .tc main_arg16) := W15_of_ne m ρ c main_arg16 (by decide)
theorem k15_arg17 (c : Dev nD) : W15 m ρ c (Proc.devRef .tc main_arg17) = W14 m ρ c (Proc.devRef .tc main_arg17) := W15_of_ne m ρ c main_arg17 (by decide)
theorem k15_v3 (c : Dev nD) : W15 m ρ c (Proc.devRef .tc main_v3) = W14 m ρ c (Proc.devRef .tc main_v3) := W15_of_ne m ρ c main_v3 (by decide)
theorem k15_v4 (c : Dev nD) : W15 m ρ c (Proc.devRef .tc main_v4) = W14 m ρ c (Proc.devRef .tc main_v4) := W15_of_ne m ρ c main_v4 (by decide)
theorem k15_arg18 (c : Dev nD) : W15 m ρ c (Proc.devRef .tc main_arg18) = W14 m ρ c (Proc.devRef .tc main_arg18) := W15_of_ne m ρ c main_arg18 (by decide)
theorem k15_arg19 (c : Dev nD) : W15 m ρ c (Proc.devRef .tc main_arg19) = W14 m ρ c (Proc.devRef .tc main_arg19) := W15_of_ne m ρ c main_arg19 (by decide)
theorem k15_arg20 (c : Dev nD) : W15 m ρ c (Proc.devRef .tc main_arg20) = W14 m ρ c (Proc.devRef .tc main_arg20) := W15_of_ne m ρ c main_arg20 (by decide)
theorem k16_v1 (c : Dev nD) : W16 m ρ c (Proc.devRef .tc main_v1) = W15 m ρ c (Proc.devRef .tc main_v1) := W16_of_ne m ρ c main_v1 (by decide)
theorem p16_v103 {G8 : (⟨S50000x256, .f32⟩ : BufTy).Contents (Elt Ideal) → (⟨S256x128, .f32⟩ : BufTy).Contents (Elt Ideal) → (⟨S50000x128, .f32⟩ : BufTy).Contents (Elt Ideal)}
    (h8 : ∀ (V : (c : Dev nD) → (b : Ref sig .tc) → Buf (Elt Ideal) ((c : Thread nD τ).loc b)) (c : Dev nD), (dat8 (F := Ideal) V c).arrAt 2 cfg8.N = G8 (V c main_v102) (V c main_arg15)) (c : Dev nD) :
    W16 m ρ c (Proc.devRef .tc main_v103) = G8 (W15 m ρ c (Proc.devRef .tc main_v102)) (W15 m ρ c (Proc.devRef .tc main_arg15)) :=
  (W16_arr m ρ c 2).trans (h8 (V15 m ρ) c)
theorem k16_arg16 (c : Dev nD) : W16 m ρ c (Proc.devRef .tc main_arg16) = W15 m ρ c (Proc.devRef .tc main_arg16) := W16_of_ne m ρ c main_arg16 (by decide)
theorem k16_arg17 (c : Dev nD) : W16 m ρ c (Proc.devRef .tc main_arg17) = W15 m ρ c (Proc.devRef .tc main_arg17) := W16_of_ne m ρ c main_arg17 (by decide)
theorem k16_v3 (c : Dev nD) : W16 m ρ c (Proc.devRef .tc main_v3) = W15 m ρ c (Proc.devRef .tc main_v3) := W16_of_ne m ρ c main_v3 (by decide)
theorem k16_v4 (c : Dev nD) : W16 m ρ c (Proc.devRef .tc main_v4) = W15 m ρ c (Proc.devRef .tc main_v4) := W16_of_ne m ρ c main_v4 (by decide)
theorem k16_arg18 (c : Dev nD) : W16 m ρ c (Proc.devRef .tc main_arg18) = W15 m ρ c (Proc.devRef .tc main_arg18) := W16_of_ne m ρ c main_arg18 (by decide)
theorem k16_arg19 (c : Dev nD) : W16 m ρ c (Proc.devRef .tc main_arg19) = W15 m ρ c (Proc.devRef .tc main_arg19) := W16_of_ne m ρ c main_arg19 (by decide)
theorem k16_arg20 (c : Dev nD) : W16 m ρ c (Proc.devRef .tc main_arg20) = W15 m ρ c (Proc.devRef .tc main_arg20) := W16_of_ne m ρ c main_arg20 (by decide)
theorem k17_v1 (c : Dev nD) : W17 m ρ c (Proc.devRef .tc main_v1) = W16 m ρ c (Proc.devRef .tc main_v1) := keep9_v1 (W16 m ρ c)
theorem p17_v117 (c : Dev nD) : W17 m ρ c (Proc.devRef .tc main_v117) = st9_v117 (W16 m ρ c (Proc.devRef .tc main_v103)) (W16 m ρ c (Proc.devRef .tc main_arg16)) (W16 m ρ c (Proc.devRef .tc main_v1)) := after_st9_v117 (W16 m ρ c)
theorem p17_v124 (c : Dev nD) : W17 m ρ c (Proc.devRef .tc main_v124) = st9_v124 (W16 m ρ c (Proc.devRef .tc main_v103)) (W16 m ρ c (Proc.devRef .tc main_arg17)) (W16 m ρ c (Proc.devRef .tc main_v3)) := after_st9_v124 (W16 m ρ c)
theorem k17_v4 (c : Dev nD) : W17 m ρ c (Proc.devRef .tc main_v4) = W16 m ρ c (Proc.devRef .tc main_v4) := keep9_v4 (W16 m ρ c)
theorem k17_v3 (c : Dev nD) : W17 m ρ c (Proc.devRef .tc main_v3) = W16 m ρ c (Proc.devRef .tc main_v3) := keep9_v3 (W16 m ρ c)
theorem p17_v104 (c : Dev nD) : W17 m ρ c (Proc.devRef .tc main_v104) = st9_v104 (W16 m ρ c (Proc.devRef .tc main_v103)) := after_st9_v104 (W16 m ρ c)
theorem k17_arg18 (c : Dev nD) : W17 m ρ c (Proc.devRef .tc main_arg18) = W16 m ρ c (Proc.devRef .tc main_arg18) := keep9_arg18 (W16 m ρ c)
theorem k17_arg19 (c : Dev nD) : W17 m ρ c (Proc.devRef .tc main_arg19) = W16 m ρ c (Proc.devRef .tc main_arg19) := keep9_arg19 (W16 m ρ c)
theorem k17_arg20 (c : Dev nD) : W17 m ρ c (Proc.devRef .tc main_arg20) = W16 m ρ c (Proc.devRef .tc main_arg20) := keep9_arg20 (W16 m ρ c)
theorem k18_v1 (c : Dev nD) : W18 m ρ c (Proc.devRef .tc main_v1) = W17 m ρ c (Proc.devRef .tc main_v1) := W18_of_ne m ρ c main_v1 (by decide)
theorem p18_v125 {G9 : (⟨S500000x1, .f32⟩ : BufTy).Contents (Elt Ideal) → (⟨S500000x1, .f32⟩ : BufTy).Contents (Elt Ideal) → (⟨S500000x1, .f32⟩ : BufTy).Contents (Elt Ideal) → (⟨S500000x1, .f32⟩ : BufTy).Contents (Elt Ideal)}
    (h9 : ∀ (V : (c : Dev nD) → (b : Ref sig .tc) → Buf (Elt Ideal) ((c : Thread nD τ).loc b)) (c : Dev nD), (dat9 (F := Ideal) V c).arrAt 3 cfg9.N = G9 (V c main_v117) (V c main_v124) (V c main_v4)) (c : Dev nD) :
    W18 m ρ c (Proc.devRef .tc main_v125) = G9 (W17 m ρ c (Proc.devRef .tc main_v117)) (W17 m ρ c (Proc.devRef .tc main_v124)) (W17 m ρ c (Proc.devRef .tc main_v4)) :=
  (W18_arr m ρ c 3).trans (h9 (V17 m ρ) c)
theorem k18_v3 (c : Dev nD) : W18 m ρ c (Proc.devRef .tc main_v3) = W17 m ρ c (Proc.devRef .tc main_v3) := W18_of_ne m ρ c main_v3 (by decide)
theorem k18_v104 (c : Dev nD) : W18 m ρ c (Proc.devRef .tc main_v104) = W17 m ρ c (Proc.devRef .tc main_v104) := W18_of_ne m ρ c main_v104 (by decide)
theorem k18_arg18 (c : Dev nD) : W18 m ρ c (Proc.devRef .tc main_arg18) = W17 m ρ c (Proc.devRef .tc main_arg18) := W18_of_ne m ρ c main_arg18 (by decide)
theorem k18_arg19 (c : Dev nD) : W18 m ρ c (Proc.devRef .tc main_arg19) = W17 m ρ c (Proc.devRef .tc main_arg19) := W18_of_ne m ρ c main_arg19 (by decide)
theorem k18_arg20 (c : Dev nD) : W18 m ρ c (Proc.devRef .tc main_arg20) = W17 m ρ c (Proc.devRef .tc main_arg20) := W18_of_ne m ρ c main_arg20 (by decide)
theorem k19_v1 (c : Dev nD) : W19 m ρ c (Proc.devRef .tc main_v1) = W18 m ρ c (Proc.devRef .tc main_v1) := keep10_v1 (W18 m ρ c)
theorem k19_v125 (c : Dev nD) : W19 m ρ c (Proc.devRef .tc main_v125) = W18 m ρ c (Proc.devRef .tc main_v125) := keep10_v125 (W18 m ρ c)
theorem p19_v135 (c : Dev nD) : W19 m ρ c (Proc.devRef .tc main_v135) = st10_v135 (W18 m ρ c (Proc.devRef .tc main_v3)) (W18 m ρ c (Proc.devRef .tc main_v125)) := after_st10_v135 (W18 m ρ c)
theorem p19_v142 (c : Dev nD) : W19 m ρ c (Proc.devRef .tc main_v142) = st10_v142 (W18 m ρ c (Proc.devRef .tc main_v104)) (W18 m ρ c (Proc.devRef .tc main_v3)) := after_st10_v142 (W18 m ρ c)
theorem k19_arg18 (c : Dev nD) : W19 m ρ c (Proc.devRef .tc main_arg18) = W18 m ρ c (Proc.devRef .tc main_arg18) := keep10_arg18 (W18 m ρ c)
theorem k19_arg19 (c : Dev nD) : W19 m ρ c (Proc.devRef .tc main_arg19) = W18 m ρ c (Proc.devRef .tc main_arg19) := keep10_arg19 (W18 m ρ c)
theorem k19_arg20 (c : Dev nD) : W19 m ρ c (Proc.devRef .tc main_arg20) = W18 m ρ c (Proc.devRef .tc main_arg20) := keep10_arg20 (W18 m ρ c)
theorem k20_v1 (c : Dev nD) : W20 m ρ c (Proc.devRef .tc main_v1) = W19 m ρ c (Proc.devRef .tc main_v1) := W20_of_ne m ρ c main_v1 (by decide)
theorem p20_v143 {G10 : (⟨S500000x1, .f32⟩ : BufTy).Contents (Elt Ideal) → (⟨S500000x1, .f32⟩ : BufTy).Contents (Elt Ideal) → (⟨S500000x1x128, .f32⟩ : BufTy).Contents (Elt Ideal) → (⟨S500000x1x128, .f32⟩ : BufTy).Contents (Elt Ideal)}
    (h10 : ∀ (V : (c : Dev nD) → (b : Ref sig .tc) → Buf (Elt Ideal) ((c : Thread nD τ).loc b)) (c : Dev nD), (dat10 (F := Ideal) V c).arrAt 3 cfg10.N = G10 (V c main_v125) (V c main_v135) (V c main_v142)) (c : Dev nD) :
    W20 m ρ c (Proc.devRef .tc main_v143) = G10 (W19 m ρ c (Proc.devRef .tc main_v125)) (W19 m ρ c (Proc.devRef .tc main_v135)) (W19 m ρ c (Proc.devRef .tc main_v142)) :=
  (W20_arr m ρ c 3).trans (h10 (V19 m ρ) c)
theorem k20_arg18 (c : Dev nD) : W20 m ρ c (Proc.devRef .tc main_arg18) = W19 m ρ c (Proc.devRef .tc main_arg18) := W20_of_ne m ρ c main_arg18 (by decide)
theorem k20_arg19 (c : Dev nD) : W20 m ρ c (Proc.devRef .tc main_arg19) = W19 m ρ c (Proc.devRef .tc main_arg19) := W20_of_ne m ρ c main_arg19 (by decide)
theorem k20_arg20 (c : Dev nD) : W20 m ρ c (Proc.devRef .tc main_arg20) = W19 m ρ c (Proc.devRef .tc main_arg20) := W20_of_ne m ρ c main_arg20 (by decide)
theorem p21_v149 (c : Dev nD) : W21 m ρ c (Proc.devRef .tc main_v149) = st11_v149 (W20 m ρ c (Proc.devRef .tc main_v1)) (W20 m ρ c (Proc.devRef .tc main_v143)) := after_st11_v149 (W20 m ρ c)
theorem p21_v150 (c : Dev nD) : W21 m ρ c (Proc.devRef .tc main_v150) = st11_v150 (W20 m ρ c (Proc.devRef .tc main_arg18)) := after_st11_v150 (W20 m ρ c)
theorem p21_v151 (c : Dev nD) : W21 m ρ c (Proc.devRef .tc main_v151) = st11_v151 (W20 m ρ c (Proc.devRef .tc main_arg19)) := after_st11_v151 (W20 m ρ c)
theorem p21_v152 (c : Dev nD) : W21 m ρ c (Proc.devRef .tc main_v152) = st11_v152 (W20 m ρ c (Proc.devRef .tc main_arg20)) := after_st11_v152 (W20 m ρ c)
theorem p22_v153 {G11 : (⟨S50000x128, .f32⟩ : BufTy).Contents (Elt Ideal) → (⟨S1x128, .f32⟩ : BufTy).Contents (Elt Ideal) → (⟨S1x128, .f32⟩ : BufTy).Contents (Elt Ideal) → (⟨S1x128, .f32⟩ : BufTy).Contents (Elt Ideal) → (⟨S50000x128, .f32⟩ : BufTy).Contents (Elt Ideal)}
    (h11 : ∀ (V : (c : Dev nD) → (b : Ref sig .tc) → Buf (Elt Ideal) ((c : Thread nD τ).loc b)) (c : Dev nD), (dat11 (F := Ideal) V c).arrAt 4 cfg11.N = G11 (V c main_v149) (V c main_v150) (V c main_v151) (V c main_v152)) (c : Dev nD) :
    W22 m ρ c (Proc.devRef .tc main_v153) = G11 (W21 m ρ c (Proc.devRef .tc main_v149)) (W21 m ρ c (Proc.devRef .tc main_v150)) (W21 m ρ c (Proc.devRef .tc main_v151)) (W21 m ρ c (Proc.devRef .tc main_v152)) :=
  (W22_arr m ρ c 4).trans (h11 (V21 m ρ) c)

end Cert.KernelIdeal.Chain

end
-- ==== Proof.Net.lean ====
/-
  One graph-attention layer as a function: the layer's input features, the edge endpoints and weights, the layer's
  parameters, and FOUR region functions (the dense projection, the edge attention scores, the edge messages, the
  normalisation) combined by the host operations between them — per-node scores, gathers along the edges, segment
  sums back to the nodes. Both programs compute this function of the same arguments, each with its own spelling of
  the four region functions.
-/
import proofs.«158057_j81853486727297_2_alg».proof.Proof.KStages
import Idealize.ShloMosaic.PureOps.Ideal

noncomputable section

namespace Cert.KernelIdeal.Net

open Cert.KernelIdeal Cert.KernelIdeal.Stages Idealize.ShloMosaic

/-- Layer 1. -/
def layer1
    (G0 : (⟨S50000x384, .f32⟩ : BufTy).Contents (Elt Ideal) → (⟨S384x256, .f32⟩ : BufTy).Contents (Elt Ideal) → (⟨S50000x256, .f32⟩ : BufTy).Contents (Elt Ideal))
    (G1 : (⟨S500000x4, .f32⟩ : BufTy).Contents (Elt Ideal) → (⟨S500000x4, .f32⟩ : BufTy).Contents (Elt Ideal) → (⟨S500000x1, .f32⟩ : BufTy).Contents (Elt Ideal) → (⟨S500000x4, .f32⟩ : BufTy).Contents (Elt Ideal))
    (G2 : (⟨S500000x4, .f32⟩ : BufTy).Contents (Elt Ideal) → (⟨S500000x4, .f32⟩ : BufTy).Contents (Elt Ideal) → (⟨S500000x4x64, .f32⟩ : BufTy).Contents (Elt Ideal) → (⟨S500000x4x64, .f32⟩ : BufTy).Contents (Elt Ideal))
    (G3 : (⟨S50000x256, .f32⟩ : BufTy).Contents (Elt Ideal) → (⟨S1x256, .f32⟩ : BufTy).Contents (Elt Ideal) → (⟨S1x256, .f32⟩ : BufTy).Contents (Elt Ideal) → (⟨S1x256, .f32⟩ : BufTy).Contents (Elt Ideal) → (⟨S50000x256, .f32⟩ : BufTy).Contents (Elt Ideal))
    (x_arg1 : (⟨S2x500000, .i32⟩ : BufTy).Contents (Elt Ideal)) (x_arg0 : (⟨S50000x384, .f32⟩ : BufTy).Contents (Elt Ideal)) (x_arg3 : (⟨S384x256, .f32⟩ : BufTy).Contents (Elt Ideal)) (x_arg4 : (⟨S1x4x64, .f32⟩ : BufTy).Contents (Elt Ideal)) (x_arg5 : (⟨S1x4x64, .f32⟩ : BufTy).Contents (Elt Ideal)) (x_arg2 : (⟨S500000, .f32⟩ : BufTy).Contents (Elt Ideal)) (x_arg6 : (⟨S256, .f32⟩ : BufTy).Contents (Elt Ideal)) (x_arg7 : (⟨S256, .f32⟩ : BufTy).Contents (Elt Ideal)) (x_arg8 : (⟨S256, .f32⟩ : BufTy).Contents (Elt Ideal)) : (⟨S50000x256, .f32⟩ : BufTy).Contents (Elt Ideal) :=
  (G3 (st3_v49 (st0_v1 x_arg1) (G2 (G1 (st1_v19 (G0 x_arg0 x_arg3) x_arg4 (st0_v1 x_arg1)) (st1_v26 (G0 x_arg0 x_arg3) x_arg5 (st0_v3 x_arg1)) (st0_v4 x_arg2)) (st2_v37 (st0_v3 x_arg1) (G1 (st1_v19 (G0 x_arg0 x_arg3) x_arg4 (st0_v1 x_arg1)) (st1_v26 (G0 x_arg0 x_arg3) x_arg5 (st0_v3 x_arg1)) (st0_v4 x_arg2))) (st2_v44 (st1_v6 (G0 x_arg0 x_arg3)) (st0_v3 x_arg1)))) (st3_v50 x_arg6) (st3_v51 x_arg7) (st3_v52 x_arg8))

/-- Layer 2. -/
def layer2
    (G4 : (⟨S50000x256, .f32⟩ : BufTy).Contents (Elt Ideal) → (⟨S256x256, .f32⟩ : BufTy).Contents (Elt Ideal) → (⟨S50000x256, .f32⟩ : BufTy).Contents (Elt Ideal))
    (G5 : (⟨S500000x4, .f32⟩ : BufTy).Contents (Elt Ideal) → (⟨S500000x4, .f32⟩ : BufTy).Contents (Elt Ideal) → (⟨S500000x1, .f32⟩ : BufTy).Contents (Elt Ideal) → (⟨S500000x4, .f32⟩ : BufTy).Contents (Elt Ideal))
    (G6 : (⟨S500000x4, .f32⟩ : BufTy).Contents (Elt Ideal) → (⟨S500000x4, .f32⟩ : BufTy).Contents (Elt Ideal) → (⟨S500000x4x64, .f32⟩ : BufTy).Contents (Elt Ideal) → (⟨S500000x4x64, .f32⟩ : BufTy).Contents (Elt Ideal))
    (G7 : (⟨S50000x256, .f32⟩ : BufTy).Contents (Elt Ideal) → (⟨S1x256, .f32⟩ : BufTy).Contents (Elt Ideal) → (⟨S1x256, .f32⟩ : BufTy).Contents (Elt Ideal) → (⟨S1x256, .f32⟩ : BufTy).Contents (Elt Ideal) → (⟨S50000x256, .f32⟩ : BufTy).Contents (Elt Ideal))
    (x_arg1 : (⟨S2x500000, .i32⟩ : BufTy).Contents (Elt Ideal)) (x_v53 : (⟨S50000x256, .f32⟩ : BufTy).Contents (Elt Ideal)) (x_arg9 : (⟨S256x256, .f32⟩ : BufTy).Contents (Elt Ideal)) (x_arg10 : (⟨S1x4x64, .f32⟩ : BufTy).Contents (Elt Ideal)) (x_arg11 : (⟨S1x4x64, .f32⟩ : BufTy).Contents (Elt Ideal)) (x_arg2 : (⟨S500000, .f32⟩ : BufTy).Contents (Elt Ideal)) (x_arg12 : (⟨S256, .f32⟩ : BufTy).Contents (Elt Ideal)) (x_arg13 : (⟨S256, .f32⟩ : BufTy).Contents (Elt Ideal)) (x_arg14 : (⟨S256, .f32⟩ : BufTy).Contents (Elt Ideal)) : (⟨S50000x256, .f32⟩ : BufTy).Contents (Elt Ideal) :=
  (G7 (st7_v98 (st0_v1 x_arg1) (G6 (G5 (st5_v68 (G4 x_v53 x_arg9) x_arg10 (st0_v1 x_arg1)) (st5_v75 (G4 x_v53 x_arg9) x_arg11 (st0_v3 x_arg1)) (st0_v4 x_arg2)) (st6_v86 (st0_v3 x_arg1) (G5 (st5_v68 (G4 x_v53 x_arg9) x_arg10 (st0_v1 x_arg1)) (st5_v75 (G4 x_v53 x_arg9) x_arg11 (st0_v3 x_arg1)) (st0_v4 x_arg2))) (st6_v93 (st5_v55 (G4 x_v53 x_arg9)) (st0_v3 x_arg1)))) (st7_v99 x_arg12) (st7_v100 x_arg13) (st7_v101 x_arg14))

/-- Layer 3. -/
def layer3
    (G8 : (⟨S50000x256, .f32⟩ : BufTy).Contents (Elt Ideal) → (⟨S256x128, .f32⟩ : BufTy).Contents (Elt Ideal) → (⟨S50000x128, .f32⟩ : BufTy).Contents (Elt Ideal))
    (G9 : (⟨S500000x1, .f32⟩ : BufTy).Contents (Elt Ideal) → (⟨S500000x1, .f32⟩ : BufTy).Contents (Elt Ideal) → (⟨S500000x1, .f32⟩ : BufTy).Contents (Elt Ideal) → (⟨S500000x1, .f32⟩ : BufTy).Contents (Elt Ideal))
    (G10 : (⟨S500000x1, .f32⟩ : BufTy).Contents (Elt Ideal) → (⟨S500000x1, .f32⟩ : BufTy).Contents (Elt Ideal) → (⟨S500000x1x128, .f32⟩ : BufTy).Contents (Elt Ideal) → (⟨S500000x1x128, .f32⟩ : BufTy).Contents (Elt Ideal))
    (G11 : (⟨S50000x128, .f32⟩ : BufTy).Contents (Elt Ideal) → (⟨S1x128, .f32⟩ : BufTy).Contents (Elt Ideal) → (⟨S1x128, .f32⟩ : BufTy).Contents (Elt Ideal) → (⟨S1x128, .f32⟩ : BufTy).Contents (Elt Ideal) → (⟨S50000x128, .f32⟩ : BufTy).Contents (Elt Ideal))
    (x_arg1 : (⟨S2x500000, .i32⟩ : BufTy).Contents (Elt Ideal)) (x_v102 : (⟨S50000x256, .f32⟩ : BufTy).Contents (Elt Ideal)) (x_arg15 : (⟨S256x128, .f32⟩ : BufTy).Contents (Elt Ideal)) (x_arg16 : (⟨S1x1x128, .f32⟩ : BufTy).Contents (Elt Ideal)) (x_arg17 : (⟨S1x1x128, .f32⟩ : BufTy).Contents (Elt Ideal)) (x_arg2 : (⟨S500000, .f32⟩ : BufTy).Contents (Elt Ideal)) (x_arg18 : (⟨S128, .f32⟩ : BufTy).Contents (Elt Ideal)) (x_arg19 : (⟨S128, .f32⟩ : BufTy).Contents (Elt Ideal)) (x_arg20 : (⟨S128, .f32⟩ : BufTy).Contents (Elt Ideal)) : (⟨S50000x128, .f32⟩ : BufTy).Contents (Elt Ideal) :=
  (G11 (st11_v149 (st0_v1 x_arg1) (G10 (G9 (st9_v117 (G8 x_v102 x_arg15) x_arg16 (st0_v1 x_arg1)) (st9_v124 (G8 x_v102 x_arg15) x_arg17 (st0_v3 x_arg1)) (st0_v4 x_arg2)) (st10_v135 (st0_v3 x_arg1) (G9 (st9_v117 (G8 x_v102 x_arg15) x_arg16 (st0_v1 x_arg1)) (st9_v124 (G8 x_v102 x_arg15) x_arg17 (st0_v3 x_arg1)) (st0_v4 x_arg2))) (st10_v142 (st9_v104 (G8 x_v102 x_arg15)) (st0_v3 x_arg1)))) (st11_v150 x_arg18) (st11_v151 x_arg19) (st11_v152 x_arg20))

end Cert.KernelIdeal.Net

end
-- ==== Proof.KLayers.lean ====
/-
  The idealized kernel program computes each layer function: the boundary contents after a layer's last region are
  the layer function of the contents the layer started from, with the regions' closed forms as its region functions.
-/
import proofs.«158057_j81853486727297_2_alg».proof.Proof.KChain
import proofs.«158057_j81853486727297_2_alg».proof.Proof.Net

set_option maxRecDepth 16384

noncomputable section

namespace Cert.KernelIdeal.Layers

open Cert.KernelIdeal Cert.KernelIdeal.Gen Cert.KernelIdeal.Stages Cert.KernelIdeal.Chain Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg)

/-- Layer 1 of the kernel program. -/
theorem kernel_layer1
    {G0 : (⟨S50000x384, .f32⟩ : BufTy).Contents (Elt Ideal) → (⟨S384x256, .f32⟩ : BufTy).Contents (Elt Ideal) → (⟨S50000x256, .f32⟩ : BufTy).Contents (Elt Ideal)}
    {G1 : (⟨S500000x4, .f32⟩ : BufTy).Contents (Elt Ideal) → (⟨S500000x4, .f32⟩ : BufTy).Contents (Elt Ideal) → (⟨S500000x1, .f32⟩ : BufTy).Contents (Elt Ideal) → (⟨S500000x4, .f32⟩ : BufTy).Contents (Elt Ideal)}
    {G2 : (⟨S500000x4, .f32⟩ : BufTy).Contents (Elt Ideal) → (⟨S500000x4, .f32⟩ : BufTy).Contents (Elt Ideal) → (⟨S500000x4x64, .f32⟩ : BufTy).Contents (Elt Ideal) → (⟨S500000x4x64, .f32⟩ : BufTy).Contents (Elt Ideal)}
    {G3 : (⟨S50000x256, .f32⟩ : BufTy).Contents (Elt Ideal) → (⟨S1x256, .f32⟩ : BufTy).Contents (Elt Ideal) → (⟨S1x256, .f32⟩ : BufTy).Contents (Elt Ideal) → (⟨S1x256, .f32⟩ : BufTy).Contents (Elt Ideal) → (⟨S50000x256, .f32⟩ : BufTy).Contents (Elt Ideal)}
    (h0 : ∀ (V : (c : Dev nD) → (b : Ref sig .tc) → Buf (Elt Ideal) ((c : Thread nD τ).loc b)) (c : Dev nD), (dat0 (F := Ideal) V c).arrAt 2 cfg0.N = G0 (V c main_arg0) (V c main_arg3))
    (h1 : ∀ (V : (c : Dev nD) → (b : Ref sig .tc) → Buf (Elt Ideal) ((c : Thread nD τ).loc b)) (c : Dev nD), (dat1 (F := Ideal) V c).arrAt 3 cfg1.N = G1 (V c main_v19) (V c main_v26) (V c main_v4))
    (h2 : ∀ (V : (c : Dev nD) → (b : Ref sig .tc) → Buf (Elt Ideal) ((c : Thread nD τ).loc b)) (c : Dev nD), (dat2 (F := Ideal) V c).arrAt 3 cfg2.N = G2 (V c main_v27) (V c main_v37) (V c main_v44))
    (h3 : ∀ (V : (c : Dev nD) → (b : Ref sig .tc) → Buf (Elt Ideal) ((c : Thread nD τ).loc b)) (c : Dev nD), (dat3 (F := Ideal) V c).arrAt 4 cfg3.N = G3 (V c main_v49) (V c main_v50) (V c main_v51) (V c main_v52)) (c : Dev nD) :
    W8 m ρ c (Proc.devRef .tc main_v53) = layer1 G0 G1 G2 G3 (W0 m ρ c (Proc.devRef .tc main_arg1)) (W0 m ρ c (Proc.devRef .tc main_arg0)) (W0 m ρ c (Proc.devRef .tc main_arg3)) (W0 m ρ c (Proc.devRef .tc main_arg4)) (W0 m ρ c (Proc.devRef .tc main_arg5)) (W0 m ρ c (Proc.devRef .tc main_arg2)) (W0 m ρ c (Proc.devRef .tc main_arg6)) (W0 m ρ c (Proc.devRef .tc main_arg7)) (W0 m ρ c (Proc.devRef .tc main_arg8)) := by
  rw [p8_v53 m ρ h3 c, p7_v49 m ρ c, p7_v50 m ρ c, p7_v51 m ρ c, p7_v52 m ρ c, k6_v1 m ρ c]
  rw [p6_v45 m ρ h2 c, k6_arg6 m ρ c, k6_arg7 m ρ c, k6_arg8 m ρ c, k5_v1 m ρ c, k5_v27 m ρ c]
  rw [p5_v37 m ρ c, p5_v44 m ρ c, k5_arg6 m ρ c, k5_arg7 m ρ c, k5_arg8 m ρ c, k4_v1 m ρ c]
  rw [p4_v27 m ρ h1 c, k4_v3 m ρ c, k4_v6 m ρ c, k4_arg6 m ρ c, k4_arg7 m ρ c, k4_arg8 m ρ c]
  rw [k3_v1 m ρ c, p3_v19 m ρ c, p3_v26 m ρ c, k3_v4 m ρ c, k3_v3 m ρ c, p3_v6 m ρ c]
  rw [k3_arg6 m ρ c, k3_arg7 m ρ c, k3_arg8 m ρ c, k2_v1 m ρ c, p2_v5 m ρ h0 c, k2_arg4 m ρ c]
  rw [k2_arg5 m ρ c, k2_v3 m ρ c, k2_v4 m ρ c, k2_arg6 m ρ c, k2_arg7 m ρ c, k2_arg8 m ρ c]
  rw [p1_v1 m ρ c, k1_arg0 m ρ c, k1_arg3 m ρ c, k1_arg4 m ρ c, k1_arg5 m ρ c, p1_v3 m ρ c]
  rw [p1_v4 m ρ c, k1_arg6 m ρ c, k1_arg7 m ρ c, k1_arg8 m ρ c]
  rfl

/-- Layer 2 of the kernel program. -/
theorem kernel_layer2
    {G4 : (⟨S50000x256, .f32⟩ : BufTy).Contents (Elt Ideal) → (⟨S256x256, .f32⟩ : BufTy).Contents (Elt Ideal) → (⟨S50000x256, .f32⟩ : BufTy).Contents (Elt Ideal)}
    {G5 : (⟨S500000x4, .f32⟩ : BufTy).Contents (Elt Ideal) → (⟨S500000x4, .f32⟩ : BufTy).Contents (Elt Ideal) → (⟨S500000x1, .f32⟩ : BufTy).Contents (Elt Ideal) → (⟨S500000x4, .f32⟩ : BufTy).Contents (Elt Ideal)}
    {G6 : (⟨S500000x4, .f32⟩ : BufTy).Contents (Elt Ideal) → (⟨S500000x4, .f32⟩ : BufTy).Contents (Elt Ideal) → (⟨S500000x4x64, .f32⟩ : BufTy).Contents (Elt Ideal) → (⟨S500000x4x64, .f32⟩ : BufTy).Contents (Elt Ideal)}
    {G7 : (⟨S50000x256, .f32⟩ : BufTy).Contents (Elt Ideal) → (⟨S1x256, .f32⟩ : BufTy).Contents (Elt Ideal) → (⟨S1x256, .f32⟩ : BufTy).Contents (Elt Ideal) → (⟨S1x256, .f32⟩ : BufTy).Contents (Elt Ideal) → (⟨S50000x256, .f32⟩ : BufTy).Contents (Elt Ideal)}
    (h4 : ∀ (V : (c : Dev nD) → (b : Ref sig .tc) → Buf (Elt Ideal) ((c : Thread nD τ).loc b)) (c : Dev nD), (dat4 (F := Ideal) V c).arrAt 2 cfg4.N = G4 (V c main_v53) (V c main_arg9))
    (h5 : ∀ (V : (c : Dev nD) → (b : Ref sig .tc) → Buf (Elt Ideal) ((c : Thread nD τ).loc b)) (c : Dev nD), (dat5 (F := Ideal) V c).arrAt 3 cfg5.N = G5 (V c main_v68) (V c main_v75) (V c main_v4))
    (h6 : ∀ (V : (c : Dev nD) → (b : Ref sig .tc) → Buf (Elt Ideal) ((c : Thread nD τ).loc b)) (c : Dev nD), (dat6 (F := Ideal) V c).arrAt 3 cfg6.N = G6 (V c main_v76) (V c main_v86) (V c main_v93))
    (h7 : ∀ (V : (c : Dev nD) → (b : Ref sig .tc) → Buf (Elt Ideal) ((c : Thread nD τ).loc b)) (c : Dev nD), (dat7 (F := Ideal) V c).arrAt 4 cfg7.N = G7 (V c main_v98) (V c main_v99) (V c main_v100) (V c main_v101)) (c : Dev nD) :
    W15 m ρ c (Proc.devRef .tc main_v102) = layer2 G4 G5 G6 G7 (W0 m ρ c (Proc.devRef .tc main_arg1)) (W8 m ρ c (Proc.devRef .tc main_v53)) (W0 m ρ c (Proc.devRef .tc main_arg9)) (W0 m ρ c (Proc.devRef .tc main_arg10)) (W0 m ρ c (Proc.devRef .tc main_arg11)) (W0 m ρ c (Proc.devRef .tc main_arg2)) (W0 m ρ c (Proc.devRef .tc main_arg12)) (W0 m ρ c (Proc.devRef .tc main_arg13)) (W0 m ρ c (Proc.devRef .tc main_arg14)) := by
  rw [p15_v102 m ρ h7 c, p14_v98 m ρ c, p14_v99 m ρ c, p14_v100 m ρ c, p14_v101 m ρ c, k13_v1 m ρ c]
  rw [p13_v94 m ρ h6 c, k13_arg12 m ρ c, k13_arg13 m ρ c, k13_arg14 m ρ c, k12_v1 m ρ c, k12_v76 m ρ c]
  rw [p12_v86 m ρ c, p12_v93 m ρ c, k12_arg12 m ρ c, k12_arg13 m ρ c, k12_arg14 m ρ c, k11_v1 m ρ c]
  rw [p11_v76 m ρ h5 c, k11_v3 m ρ c, k11_v55 m ρ c, k11_arg12 m ρ c, k11_arg13 m ρ c, k11_arg14 m ρ c]
  rw [k10_v1 m ρ c, p10_v68 m ρ c, p10_v75 m ρ c, k10_v4 m ρ c, k10_v3 m ρ c, p10_v55 m ρ c]
  rw [k10_arg12 m ρ c, k10_arg13 m ρ c, k10_arg14 m ρ c, k9_v1 m ρ c, p9_v54 m ρ h4 c, k9_arg10 m ρ c]
  rw [k9_arg11 m ρ c, k9_v3 m ρ c, k9_v4 m ρ c, k9_arg12 m ρ c, k9_arg13 m ρ c, k9_arg14 m ρ c]
  rw [k8_v1 m ρ c, k8_arg9 m ρ c, k8_arg10 m ρ c, k8_arg11 m ρ c, k8_v3 m ρ c, k8_v4 m ρ c]
  rw [k8_arg12 m ρ c, k8_arg13 m ρ c, k8_arg14 m ρ c, k7_v1 m ρ c, k7_arg9 m ρ c, k7_arg10 m ρ c]
  rw [k7_arg11 m ρ c, k7_v3 m ρ c, k7_v4 m ρ c, k7_arg12 m ρ c, k7_arg13 m ρ c, k7_arg14 m ρ c]
  rw [k6_v1 m ρ c, k6_arg9 m ρ c, k6_arg10 m ρ c, k6_arg11 m ρ c, k6_v3 m ρ c, k6_v4 m ρ c]
  rw [k6_arg12 m ρ c, k6_arg13 m ρ c, k6_arg14 m ρ c, k5_v1 m ρ c, k5_arg9 m ρ c, k5_arg10 m ρ c]
  rw [k5_arg11 m ρ c, k5_v3 m ρ c, k5_v4 m ρ c, k5_arg12 m ρ c, k5_arg13 m ρ c, k5_arg14 m ρ c]
  rw [k4_v1 m ρ c, k4_arg9 m ρ c, k4_arg10 m ρ c, k4_arg11 m ρ c, k4_v3 m ρ c, k4_v4 m ρ c]
  rw [k4_arg12 m ρ c, k4_arg13 m ρ c, k4_arg14 m ρ c, k3_v1 m ρ c, k3_arg9 m ρ c, k3_arg10 m ρ c]
  rw [k3_arg11 m ρ c, k3_v3 m ρ c, k3_v4 m ρ c, k3_arg12 m ρ c, k3_arg13 m ρ c, k3_arg14 m ρ c]
  rw [k2_v1 m ρ c, k2_arg9 m ρ c, k2_arg10 m ρ c, k2_arg11 m ρ c, k2_v3 m ρ c, k2_v4 m ρ c]
  rw [k2_arg12 m ρ c, k2_arg13 m ρ c, k2_arg14 m ρ c, p1_v1 m ρ c, k1_arg9 m ρ c, k1_arg10 m ρ c]
  rw [k1_arg11 m ρ c, p1_v3 m ρ c, p1_v4 m ρ c, k1_arg12 m ρ c, k1_arg13 m ρ c, k1_arg14 m ρ c]
  rfl

/-- Layer 3 of the kernel program. -/
theorem kernel_layer3
    {G8 : (⟨S50000x256, .f32⟩ : BufTy).Contents (Elt Ideal) → (⟨S256x128, .f32⟩ : BufTy).Contents (Elt Ideal) → (⟨S50000x128, .f32⟩ : BufTy).Contents (Elt Ideal)}
    {G9 : (⟨S500000x1, .f32⟩ : BufTy).Contents (Elt Ideal) → (⟨S500000x1, .f32⟩ : BufTy).Contents (Elt Ideal) → (⟨S500000x1, .f32⟩ : BufTy).Contents (Elt Ideal) → (⟨S500000x1, .f32⟩ : BufTy).Contents (Elt Ideal)}
    {G10 : (⟨S500000x1, .f32⟩ : BufTy).Contents (Elt Ideal) → (⟨S500000x1, .f32⟩ : BufTy).Contents (Elt Ideal) → (⟨S500000x1x128, .f32⟩ : BufTy).Contents (Elt Ideal) → (⟨S500000x1x128, .f32⟩ : BufTy).Contents (Elt Ideal)}
    {G11 : (⟨S50000x128, .f32⟩ : BufTy).Contents (Elt Ideal) → (⟨S1x128, .f32⟩ : BufTy).Contents (Elt Ideal) → (⟨S1x128, .f32⟩ : BufTy).Contents (Elt Ideal) → (⟨S1x128, .f32⟩ : BufTy).Contents (Elt Ideal) → (⟨S50000x128, .f32⟩ : BufTy).Contents (Elt Ideal)}
    (h8 : ∀ (V : (c : Dev nD) → (b : Ref sig .tc) → Buf (Elt Ideal) ((c : Thread nD τ).loc b)) (c : Dev nD), (dat8 (F := Ideal) V c).arrAt 2 cfg8.N = G8 (V c main_v102) (V c main_arg15))
    (h9 : ∀ (V : (c : Dev nD) → (b : Ref sig .tc) → Buf (Elt Ideal) ((c : Thread nD τ).loc b)) (c : Dev nD), (dat9 (F := Ideal) V c).arrAt 3 cfg9.N = G9 (V c main_v117) (V c main_v124) (V c main_v4))
    (h10 : ∀ (V : (c : Dev nD) → (b : Ref sig .tc) → Buf (Elt Ideal) ((c : Thread nD τ).loc b)) (c : Dev nD), (dat10 (F := Ideal) V c).arrAt 3 cfg10.N = G10 (V c main_v125) (V c main_v135) (V c main_v142))
    (h11 : ∀ (V : (c : Dev nD) → (b : Ref sig .tc) → Buf (Elt Ideal) ((c : Thread nD τ).loc b)) (c : Dev nD), (dat11 (F := Ideal) V c).arrAt 4 cfg11.N = G11 (V c main_v149) (V c main_v150) (V c main_v151) (V c main_v152)) (c : Dev nD) :
    W22 m ρ c (Proc.devRef .tc main_v153) = layer3 G8 G9 G10 G11 (W0 m ρ c (Proc.devRef .tc main_arg1)) (W15 m ρ c (Proc.devRef .tc main_v102)) (W0 m ρ c (Proc.devRef .tc main_arg15)) (W0 m ρ c (Proc.devRef .tc main_arg16)) (W0 m ρ c (Proc.devRef .tc main_arg17)) (W0 m ρ c (Proc.devRef .tc main_arg2)) (W0 m ρ c (Proc.devRef .tc main_arg18)) (W0 m ρ c (Proc.devRef .tc main_arg19)) (W0 m ρ c (Proc.devRef .tc main_arg20)) := by
  rw [p22_v153 m ρ h11 c, p21_v149 m ρ c, p21_v150 m ρ c, p21_v151 m ρ c, p21_v152 m ρ c, k20_v1 m ρ c]
  rw [p20_v143 m ρ h10 c, k20_arg18 m ρ c, k20_arg19 m ρ c, k20_arg20 m ρ c, k19_v1 m ρ c, k19_v125 m ρ c]
  rw [p19_v135 m ρ c, p19_v142 m ρ c, k19_arg18 m ρ c, k19_arg19 m ρ c, k19_arg20 m ρ c, k18_v1 m ρ c]
  rw [p18_v125 m ρ h9 c, k18_v3 m ρ c, k18_v104 m ρ c, k18_arg18 m ρ c, k18_arg19 m ρ c, k18_arg20 m ρ c]
  rw [k17_v1 m ρ c, p17_v117 m ρ c, p17_v124 m ρ c, k17_v4 m ρ c, k17_v3 m ρ c, p17_v104 m ρ c]
  rw [k17_arg18 m ρ c, k17_arg19 m ρ c, k17_arg20 m ρ c, k16_v1 m ρ c, p16_v103 m ρ h8 c, k16_arg16 m ρ c]
  rw [k16_arg17 m ρ c, k16_v3 m ρ c, k16_v4 m ρ c, k16_arg18 m ρ c, k16_arg19 m ρ c, k16_arg20 m ρ c]
  rw [k15_v1 m ρ c, k15_arg15 m ρ c, k15_arg16 m ρ c, k15_arg17 m ρ c, k15_v3 m ρ c, k15_v4 m ρ c]
  rw [k15_arg18 m ρ c, k15_arg19 m ρ c, k15_arg20 m ρ c, k14_v1 m ρ c, k14_arg15 m ρ c, k14_arg16 m ρ c]
  rw [k14_arg17 m ρ c, k14_v3 m ρ c, k14_v4 m ρ c, k14_arg18 m ρ c, k14_arg19 m ρ c, k14_arg20 m ρ c]
  rw [k13_v1 m ρ c, k13_arg15 m ρ c, k13_arg16 m ρ c, k13_arg17 m ρ c, k13_v3 m ρ c, k13_v4 m ρ c]
  rw [k13_arg18 m ρ c, k13_arg19 m ρ c, k13_arg20 m ρ c, k12_v1 m ρ c, k12_arg15 m ρ c, k12_arg16 m ρ c]
  rw [k12_arg17 m ρ c, k12_v3 m ρ c, k12_v4 m ρ c, k12_arg18 m ρ c, k12_arg19 m ρ c, k12_arg20 m ρ c]
  rw [k11_v1 m ρ c, k11_arg15 m ρ c, k11_arg16 m ρ c, k11_arg17 m ρ c, k11_v3 m ρ c, k11_v4 m ρ c]
  rw [k11_arg18 m ρ c, k11_arg19 m ρ c, k11_arg20 m ρ c, k10_v1 m ρ c, k10_arg15 m ρ c, k10_arg16 m ρ c]
  rw [k10_arg17 m ρ c, k10_v3 m ρ c, k10_v4 m ρ c, k10_arg18 m ρ c, k10_arg19 m ρ c, k10_arg20 m ρ c]
  rw [k9_v1 m ρ c, k9_arg15 m ρ c, k9_arg16 m ρ c, k9_arg17 m ρ c, k9_v3 m ρ c, k9_v4 m ρ c]
  rw [k9_arg18 m ρ c, k9_arg19 m ρ c, k9_arg20 m ρ c, k8_v1 m ρ c, k8_arg15 m ρ c, k8_arg16 m ρ c]
  rw [k8_arg17 m ρ c, k8_v3 m ρ c, k8_v4 m ρ c, k8_arg18 m ρ c, k8_arg19 m ρ c, k8_arg20 m ρ c]
  rw [k7_v1 m ρ c, k7_arg15 m ρ c, k7_arg16 m ρ c, k7_arg17 m ρ c, k7_v3 m ρ c, k7_v4 m ρ c]
  rw [k7_arg18 m ρ c, k7_arg19 m ρ c, k7_arg20 m ρ c, k6_v1 m ρ c, k6_arg15 m ρ c, k6_arg16 m ρ c]
  rw [k6_arg17 m ρ c, k6_v3 m ρ c, k6_v4 m ρ c, k6_arg18 m ρ c, k6_arg19 m ρ c, k6_arg20 m ρ c]
  rw [k5_v1 m ρ c, k5_arg15 m ρ c, k5_arg16 m ρ c, k5_arg17 m ρ c, k5_v3 m ρ c, k5_v4 m ρ c]
  rw [k5_arg18 m ρ c, k5_arg19 m ρ c, k5_arg20 m ρ c, k4_v1 m ρ c, k4_arg15 m ρ c, k4_arg16 m ρ c]
  rw [k4_arg17 m ρ c, k4_v3 m ρ c, k4_v4 m ρ c, k4_arg18 m ρ c, k4_arg19 m ρ c, k4_arg20 m ρ c]
  rw [k3_v1 m ρ c, k3_arg15 m ρ c, k3_arg16 m ρ c, k3_arg17 m ρ c, k3_v3 m ρ c, k3_v4 m ρ c]
  rw [k3_arg18 m ρ c, k3_arg19 m ρ c, k3_arg20 m ρ c, k2_v1 m ρ c, k2_arg15 m ρ c, k2_arg16 m ρ c]
  rw [k2_arg17 m ρ c, k2_v3 m ρ c, k2_v4 m ρ c, k2_arg18 m ρ c, k2_arg19 m ρ c, k2_arg20 m ρ c]
  rw [p1_v1 m ρ c, k1_arg15 m ρ c, k1_arg16 m ρ c, k1_arg17 m ρ c, p1_v3 m ρ c, p1_v4 m ρ c]
  rw [k1_arg18 m ρ c, k1_arg19 m ρ c, k1_arg20 m ρ c]
  rfl

end Cert.KernelIdeal.Layers

end
-- ==== Proof.RChain.lean ====
/-
  The reference program's buffer contents, segment by segment: its host operations cut into the segments that
  correspond to the kernel program's stretches and regions; after each segment, every buffer a later segment reads is
  the segment's function of the previous contents, or is kept.
-/
import proofs.«158057_j81853486727297_2_alg».proof.Proof.RefRun
import Idealize.ShloMosaic.PureOps.Ideal

set_option maxRecDepth 16384

noncomputable section

namespace Cert.ReferenceIdeal.Chain

open Cert.ReferenceIdeal Cert.ReferenceIdeal.Gen Cert.ReferenceIdeal.RefRun
open Idealize.ShloMosaic Idealize.ShloMosaic.TcCoe Idealize.SL.Sem Idealize.ShloMosaic.StableHlo

variable (m' : (ℓ : Loc nD τ sig) → Buf (Elt Ideal) ℓ)

/-- The contents at launch. -/
def RB0 (c : Dev nD) : Valuation τ sig (Elt Ideal) := launchContents m' c
/-- After segment S0. -/
def RB1 (c : Dev nD) : Valuation τ sig (Elt Ideal) := StableHlo.after (segS0 (F := Ideal)) (RB0 m' c)
/-- After segment MM1. -/
def RB2 (c : Dev nD) : Valuation τ sig (Elt Ideal) := StableHlo.after (segMM1 (F := Ideal)) (RB1 m' c)
/-- After segment SC1. -/
def RB3 (c : Dev nD) : Valuation τ sig (Elt Ideal) := StableHlo.after (segSC1 (F := Ideal)) (RB2 m' c)
/-- After segment AT1. -/
def RB4 (c : Dev nD) : Valuation τ sig (Elt Ideal) := StableHlo.after (segAT1 (F := Ideal)) (RB3 m' c)
/-- After segment DN1. -/
def RB5 (c : Dev nD) : Valuation τ sig (Elt Ideal) := StableHlo.after (segDN1 (F := Ideal)) (RB4 m' c)
/-- After segment AL1. -/
def RB6 (c : Dev nD) : Valuation τ sig (Elt Ideal) := StableHlo.after (segAL1 (F := Ideal)) (RB5 m' c)
/-- After segment HG1. -/
def RB7 (c : Dev nD) : Valuation τ sig (Elt Ideal) := StableHlo.after (segHG1 (F := Ideal)) (RB6 m' c)
/-- After segment MS1. -/
def RB8 (c : Dev nD) : Valuation τ sig (Elt Ideal) := StableHlo.after (segMS1 (F := Ideal)) (RB7 m' c)
/-- After segment AG1. -/
def RB9 (c : Dev nD) : Valuation τ sig (Elt Ideal) := StableHlo.after (segAG1 (F := Ideal)) (RB8 m' c)
/-- After segment LN1. -/
def RB10 (c : Dev nD) : Valuation τ sig (Elt Ideal) := StableHlo.after (segLN1 (F := Ideal)) (RB9 m' c)
/-- After segment MM2. -/
def RB11 (c : Dev nD) : Valuation τ sig (Elt Ideal) := StableHlo.after (segMM2 (F := Ideal)) (RB10 m' c)
/-- After segment SC2. -/
def RB12 (c : Dev nD) : Valuation τ sig (Elt Ideal) := StableHlo.after (segSC2 (F := Ideal)) (RB11 m' c)
/-- After segment AT2. -/
def RB13 (c : Dev nD) : Valuation τ sig (Elt Ideal) := StableHlo.after (segAT2 (F := Ideal)) (RB12 m' c)
/-- After segment DN2. -/
def RB14 (c : Dev nD) : Valuation τ sig (Elt Ideal) := StableHlo.after (segDN2 (F := Ideal)) (RB13 m' c)
/-- After segment AL2. -/
def RB15 (c : Dev nD) : Valuation τ sig (Elt Ideal) := StableHlo.after (segAL2 (F := Ideal)) (RB14 m' c)
/-- After segment HG2. -/
def RB16 (c : Dev nD) : Valuation τ sig (Elt Ideal) := StableHlo.after (segHG2 (F := Ideal)) (RB15 m' c)
/-- After segment MS2. -/
def RB17 (c : Dev nD) : Valuation τ sig (Elt Ideal) := StableHlo.after (segMS2 (F := Ideal)) (RB16 m' c)
/-- After segment AG2. -/
def RB18 (c : Dev nD) : Valuation τ sig (Elt Ideal) := StableHlo.after (segAG2 (F := Ideal)) (RB17 m' c)
/-- After segment LN2. -/
def RB19 (c : Dev nD) : Valuation τ sig (Elt Ideal) := StableHlo.after (segLN2 (F := Ideal)) (RB18 m' c)
/-- After segment MM3. -/
def RB20 (c : Dev nD) : Valuation τ sig (Elt Ideal) := StableHlo.after (segMM3 (F := Ideal)) (RB19 m' c)
/-- After segment SC3. -/
def RB21 (c : Dev nD) : Valuation τ sig (Elt Ideal) := StableHlo.after (segSC3 (F := Ideal)) (RB20 m' c)
/-- After segment AT3. -/
def RB22 (c : Dev nD) : Valuation τ sig (Elt Ideal) := StableHlo.after (segAT3 (F := Ideal)) (RB21 m' c)
/-- After segment DN3. -/
def RB23 (c : Dev nD) : Valuation τ sig (Elt Ideal) := StableHlo.after (segDN3 (F := Ideal)) (RB22 m' c)
/-- After segment AL3. -/
def RB24 (c : Dev nD) : Valuation τ sig (Elt Ideal) := StableHlo.after (segAL3 (F := Ideal)) (RB23 m' c)
/-- After segment HG3. -/
def RB25 (c : Dev nD) : Valuation τ sig (Elt Ideal) := StableHlo.after (segHG3 (F := Ideal)) (RB24 m' c)
/-- After segment MS3. -/
def RB26 (c : Dev nD) : Valuation τ sig (Elt Ideal) := StableHlo.after (segMS3 (F := Ideal)) (RB25 m' c)
/-- After segment AG3. -/
def RB27 (c : Dev nD) : Valuation τ sig (Elt Ideal) := StableHlo.after (segAG3 (F := Ideal)) (RB26 m' c)
/-- After segment LN3. -/
def RB28 (c : Dev nD) : Valuation τ sig (Elt Ideal) := StableHlo.after (segLN3 (F := Ideal)) (RB27 m' c)

/-- The whole program's operations leave the last boundary's contents. -/
theorem ops_eq (c : Dev nD) : StableHlo.after (ops (F := Ideal)) (launchContents m' c) = RB28 m' c := by
  unfold ops
  rw [after_app segS0, after_app segMM1, after_app segSC1, after_app segAT1, after_app segDN1, after_app segAL1, after_app segHG1, after_app segMS1, after_app segAG1, after_app segLN1, after_app segMM2, after_app segSC2, after_app segAT2, after_app segDN2, after_app segAL2, after_app segHG2, after_app segMS2, after_app segAG2, after_app segLN2, after_app segMM3, after_app segSC3, after_app segAT3, after_app segDN3, after_app segAL3, after_app segHG3, after_app segMS3, after_app segAG3]
  rfl

theorem rp1_v1 (c : Dev nD) : RB1 m' c (Proc.devRef .tc main_v1) = Cert.KernelIdeal.Stages.st0_v1 (RB0 m' c (Proc.devRef .tc main_arg1)) := segS0_main_v1 (F := Ideal) (RB0 m' c)
theorem rk1_arg0 (c : Dev nD) : RB1 m' c (Proc.devRef .tc main_arg0) = RB0 m' c (Proc.devRef .tc main_arg0) := segS0_keep (F := Ideal) (RB0 m' c) (r := main_arg0) (by decide)
theorem rk1_arg3 (c : Dev nD) : RB1 m' c (Proc.devRef .tc main_arg3) = RB0 m' c (Proc.devRef .tc main_arg3) := segS0_keep (F := Ideal) (RB0 m' c) (r := main_arg3) (by decide)
theorem rk1_arg4 (c : Dev nD) : RB1 m' c (Proc.devRef .tc main_arg4) = RB0 m' c (Proc.devRef .tc main_arg4) := segS0_keep (F := Ideal) (RB0 m' c) (r := main_arg4) (by decide)
theorem rk1_arg5 (c : Dev nD) : RB1 m' c (Proc.devRef .tc main_arg5) = RB0 m' c (Proc.devRef .tc main_arg5) := segS0_keep (F := Ideal) (RB0 m' c) (r := main_arg5) (by decide)
theorem rp1_v3 (c : Dev nD) : RB1 m' c (Proc.devRef .tc main_v3) = Cert.KernelIdeal.Stages.st0_v3 (RB0 m' c (Proc.devRef .tc main_arg1)) := segS0_main_v3 (F := Ideal) (RB0 m' c)
theorem rk1_arg2 (c : Dev nD) : RB1 m' c (Proc.devRef .tc main_arg2) = RB0 m' c (Proc.devRef .tc main_arg2) := segS0_keep (F := Ideal) (RB0 m' c) (r := main_arg2) (by decide)
theorem rk1_arg6 (c : Dev nD) : RB1 m' c (Proc.devRef .tc main_arg6) = RB0 m' c (Proc.devRef .tc main_arg6) := segS0_keep (F := Ideal) (RB0 m' c) (r := main_arg6) (by decide)
theorem rk1_arg7 (c : Dev nD) : RB1 m' c (Proc.devRef .tc main_arg7) = RB0 m' c (Proc.devRef .tc main_arg7) := segS0_keep (F := Ideal) (RB0 m' c) (r := main_arg7) (by decide)
theorem rk1_arg8 (c : Dev nD) : RB1 m' c (Proc.devRef .tc main_arg8) = RB0 m' c (Proc.devRef .tc main_arg8) := segS0_keep (F := Ideal) (RB0 m' c) (r := main_arg8) (by decide)
theorem rk1_arg9 (c : Dev nD) : RB1 m' c (Proc.devRef .tc main_arg9) = RB0 m' c (Proc.devRef .tc main_arg9) := segS0_keep (F := Ideal) (RB0 m' c) (r := main_arg9) (by decide)
theorem rk1_arg10 (c : Dev nD) : RB1 m' c (Proc.devRef .tc main_arg10) = RB0 m' c (Proc.devRef .tc main_arg10) := segS0_keep (F := Ideal) (RB0 m' c) (r := main_arg10) (by decide)
theorem rk1_arg11 (c : Dev nD) : RB1 m' c (Proc.devRef .tc main_arg11) = RB0 m' c (Proc.devRef .tc main_arg11) := segS0_keep (F := Ideal) (RB0 m' c) (r := main_arg11) (by decide)
theorem rk1_arg12 (c : Dev nD) : RB1 m' c (Proc.devRef .tc main_arg12) = RB0 m' c (Proc.devRef .tc main_arg12) := segS0_keep (F := Ideal) (RB0 m' c) (r := main_arg12) (by decide)
theorem rk1_arg13 (c : Dev nD) : RB1 m' c (Proc.devRef .tc main_arg13) = RB0 m' c (Proc.devRef .tc main_arg13) := segS0_keep (F := Ideal) (RB0 m' c) (r := main_arg13) (by decide)
theorem rk1_arg14 (c : Dev nD) : RB1 m' c (Proc.devRef .tc main_arg14) = RB0 m' c (Proc.devRef .tc main_arg14) := segS0_keep (F := Ideal) (RB0 m' c) (r := main_arg14) (by decide)
theorem rk1_arg15 (c : Dev nD) : RB1 m' c (Proc.devRef .tc main_arg15) = RB0 m' c (Proc.devRef .tc main_arg15) := segS0_keep (F := Ideal) (RB0 m' c) (r := main_arg15) (by decide)
theorem rk1_arg16 (c : Dev nD) : RB1 m' c (Proc.devRef .tc main_arg16) = RB0 m' c (Proc.devRef .tc main_arg16) := segS0_keep (F := Ideal) (RB0 m' c) (r := main_arg16) (by decide)
theorem rk1_arg17 (c : Dev nD) : RB1 m' c (Proc.devRef .tc main_arg17) = RB0 m' c (Proc.devRef .tc main_arg17) := segS0_keep (F := Ideal) (RB0 m' c) (r := main_arg17) (by decide)
theorem rk1_arg18 (c : Dev nD) : RB1 m' c (Proc.devRef .tc main_arg18) = RB0 m' c (Proc.devRef .tc main_arg18) := segS0_keep (F := Ideal) (RB0 m' c) (r := main_arg18) (by decide)
theorem rk1_arg19 (c : Dev nD) : RB1 m' c (Proc.devRef .tc main_arg19) = RB0 m' c (Proc.devRef .tc main_arg19) := segS0_keep (F := Ideal) (RB0 m' c) (r := main_arg19) (by decide)
theorem rk1_arg20 (c : Dev nD) : RB1 m' c (Proc.devRef .tc main_arg20) = RB0 m' c (Proc.devRef .tc main_arg20) := segS0_keep (F := Ideal) (RB0 m' c) (r := main_arg20) (by decide)
theorem rk2_v1 (c : Dev nD) : RB2 m' c (Proc.devRef .tc main_v1) = RB1 m' c (Proc.devRef .tc main_v1) := segMM1_keep (F := Ideal) (RB1 m' c) (r := main_v1) (by decide)
theorem rp2_v4 (c : Dev nD) : RB2 m' c (Proc.devRef .tc main_v4) = refMM1 (F := Ideal) (RB1 m' c (Proc.devRef .tc main_arg0)) (RB1 m' c (Proc.devRef .tc main_arg3)) := segMM1_main_v4 (F := Ideal) (RB1 m' c)
theorem rk2_arg4 (c : Dev nD) : RB2 m' c (Proc.devRef .tc main_arg4) = RB1 m' c (Proc.devRef .tc main_arg4) := segMM1_keep (F := Ideal) (RB1 m' c) (r := main_arg4) (by decide)
theorem rk2_arg5 (c : Dev nD) : RB2 m' c (Proc.devRef .tc main_arg5) = RB1 m' c (Proc.devRef .tc main_arg5) := segMM1_keep (F := Ideal) (RB1 m' c) (r := main_arg5) (by decide)
theorem rk2_v3 (c : Dev nD) : RB2 m' c (Proc.devRef .tc main_v3) = RB1 m' c (Proc.devRef .tc main_v3) := segMM1_keep (F := Ideal) (RB1 m' c) (r := main_v3) (by decide)
theorem rk2_arg2 (c : Dev nD) : RB2 m' c (Proc.devRef .tc main_arg2) = RB1 m' c (Proc.devRef .tc main_arg2) := segMM1_keep (F := Ideal) (RB1 m' c) (r := main_arg2) (by decide)
theorem rk2_arg6 (c : Dev nD) : RB2 m' c (Proc.devRef .tc main_arg6) = RB1 m' c (Proc.devRef .tc main_arg6) := segMM1_keep (F := Ideal) (RB1 m' c) (r := main_arg6) (by decide)
theorem rk2_arg7 (c : Dev nD) : RB2 m' c (Proc.devRef .tc main_arg7) = RB1 m' c (Proc.devRef .tc main_arg7) := segMM1_keep (F := Ideal) (RB1 m' c) (r := main_arg7) (by decide)
theorem rk2_arg8 (c : Dev nD) : RB2 m' c (Proc.devRef .tc main_arg8) = RB1 m' c (Proc.devRef .tc main_arg8) := segMM1_keep (F := Ideal) (RB1 m' c) (r := main_arg8) (by decide)
theorem rk2_arg9 (c : Dev nD) : RB2 m' c (Proc.devRef .tc main_arg9) = RB1 m' c (Proc.devRef .tc main_arg9) := segMM1_keep (F := Ideal) (RB1 m' c) (r := main_arg9) (by decide)
theorem rk2_arg10 (c : Dev nD) : RB2 m' c (Proc.devRef .tc main_arg10) = RB1 m' c (Proc.devRef .tc main_arg10) := segMM1_keep (F := Ideal) (RB1 m' c) (r := main_arg10) (by decide)
theorem rk2_arg11 (c : Dev nD) : RB2 m' c (Proc.devRef .tc main_arg11) = RB1 m' c (Proc.devRef .tc main_arg11) := segMM1_keep (F := Ideal) (RB1 m' c) (r := main_arg11) (by decide)
theorem rk2_arg12 (c : Dev nD) : RB2 m' c (Proc.devRef .tc main_arg12) = RB1 m' c (Proc.devRef .tc main_arg12) := segMM1_keep (F := Ideal) (RB1 m' c) (r := main_arg12) (by decide)
theorem rk2_arg13 (c : Dev nD) : RB2 m' c (Proc.devRef .tc main_arg13) = RB1 m' c (Proc.devRef .tc main_arg13) := segMM1_keep (F := Ideal) (RB1 m' c) (r := main_arg13) (by decide)
theorem rk2_arg14 (c : Dev nD) : RB2 m' c (Proc.devRef .tc main_arg14) = RB1 m' c (Proc.devRef .tc main_arg14) := segMM1_keep (F := Ideal) (RB1 m' c) (r := main_arg14) (by decide)
theorem rk2_arg15 (c : Dev nD) : RB2 m' c (Proc.devRef .tc main_arg15) = RB1 m' c (Proc.devRef .tc main_arg15) := segMM1_keep (F := Ideal) (RB1 m' c) (r := main_arg15) (by decide)
theorem rk2_arg16 (c : Dev nD) : RB2 m' c (Proc.devRef .tc main_arg16) = RB1 m' c (Proc.devRef .tc main_arg16) := segMM1_keep (F := Ideal) (RB1 m' c) (r := main_arg16) (by decide)
theorem rk2_arg17 (c : Dev nD) : RB2 m' c (Proc.devRef .tc main_arg17) = RB1 m' c (Proc.devRef .tc main_arg17) := segMM1_keep (F := Ideal) (RB1 m' c) (r := main_arg17) (by decide)
theorem rk2_arg18 (c : Dev nD) : RB2 m' c (Proc.devRef .tc main_arg18) = RB1 m' c (Proc.devRef .tc main_arg18) := segMM1_keep (F := Ideal) (RB1 m' c) (r := main_arg18) (by decide)
theorem rk2_arg19 (c : Dev nD) : RB2 m' c (Proc.devRef .tc main_arg19) = RB1 m' c (Proc.devRef .tc main_arg19) := segMM1_keep (F := Ideal) (RB1 m' c) (r := main_arg19) (by decide)
theorem rk2_arg20 (c : Dev nD) : RB2 m' c (Proc.devRef .tc main_arg20) = RB1 m' c (Proc.devRef .tc main_arg20) := segMM1_keep (F := Ideal) (RB1 m' c) (r := main_arg20) (by decide)
theorem rk3_v1 (c : Dev nD) : RB3 m' c (Proc.devRef .tc main_v1) = RB2 m' c (Proc.devRef .tc main_v1) := segSC1_keep (F := Ideal) (RB2 m' c) (r := main_v1) (by decide)
theorem rp3_v18 (c : Dev nD) : RB3 m' c (Proc.devRef .tc main_v18) = Cert.KernelIdeal.Stages.st1_v19 (RB2 m' c (Proc.devRef .tc main_v4)) (RB2 m' c (Proc.devRef .tc main_arg4)) (RB2 m' c (Proc.devRef .tc main_v1)) := segSC1_main_v18 (F := Ideal) (RB2 m' c)
theorem rp3_v25 (c : Dev nD) : RB3 m' c (Proc.devRef .tc main_v25) = Cert.KernelIdeal.Stages.st1_v26 (RB2 m' c (Proc.devRef .tc main_v4)) (RB2 m' c (Proc.devRef .tc main_arg5)) (RB2 m' c (Proc.devRef .tc main_v3)) := segSC1_main_v25 (F := Ideal) (RB2 m' c)
theorem rk3_arg2 (c : Dev nD) : RB3 m' c (Proc.devRef .tc main_arg2) = RB2 m' c (Proc.devRef .tc main_arg2) := segSC1_keep (F := Ideal) (RB2 m' c) (r := main_arg2) (by decide)
theorem rk3_v3 (c : Dev nD) : RB3 m' c (Proc.devRef .tc main_v3) = RB2 m' c (Proc.devRef .tc main_v3) := segSC1_keep (F := Ideal) (RB2 m' c) (r := main_v3) (by decide)
theorem rp3_v5 (c : Dev nD) : RB3 m' c (Proc.devRef .tc main_v5) = Cert.KernelIdeal.Stages.st1_v6 (RB2 m' c (Proc.devRef .tc main_v4)) := segSC1_main_v5 (F := Ideal) (RB2 m' c)
theorem rk3_arg6 (c : Dev nD) : RB3 m' c (Proc.devRef .tc main_arg6) = RB2 m' c (Proc.devRef .tc main_arg6) := segSC1_keep (F := Ideal) (RB2 m' c) (r := main_arg6) (by decide)
theorem rk3_arg7 (c : Dev nD) : RB3 m' c (Proc.devRef .tc main_arg7) = RB2 m' c (Proc.devRef .tc main_arg7) := segSC1_keep (F := Ideal) (RB2 m' c) (r := main_arg7) (by decide)
theorem rk3_arg8 (c : Dev nD) : RB3 m' c (Proc.devRef .tc main_arg8) = RB2 m' c (Proc.devRef .tc main_arg8) := segSC1_keep (F := Ideal) (RB2 m' c) (r := main_arg8) (by decide)
theorem rk3_arg9 (c : Dev nD) : RB3 m' c (Proc.devRef .tc main_arg9) = RB2 m' c (Proc.devRef .tc main_arg9) := segSC1_keep (F := Ideal) (RB2 m' c) (r := main_arg9) (by decide)
theorem rk3_arg10 (c : Dev nD) : RB3 m' c (Proc.devRef .tc main_arg10) = RB2 m' c (Proc.devRef .tc main_arg10) := segSC1_keep (F := Ideal) (RB2 m' c) (r := main_arg10) (by decide)
theorem rk3_arg11 (c : Dev nD) : RB3 m' c (Proc.devRef .tc main_arg11) = RB2 m' c (Proc.devRef .tc main_arg11) := segSC1_keep (F := Ideal) (RB2 m' c) (r := main_arg11) (by decide)
theorem rk3_arg12 (c : Dev nD) : RB3 m' c (Proc.devRef .tc main_arg12) = RB2 m' c (Proc.devRef .tc main_arg12) := segSC1_keep (F := Ideal) (RB2 m' c) (r := main_arg12) (by decide)
theorem rk3_arg13 (c : Dev nD) : RB3 m' c (Proc.devRef .tc main_arg13) = RB2 m' c (Proc.devRef .tc main_arg13) := segSC1_keep (F := Ideal) (RB2 m' c) (r := main_arg13) (by decide)
theorem rk3_arg14 (c : Dev nD) : RB3 m' c (Proc.devRef .tc main_arg14) = RB2 m' c (Proc.devRef .tc main_arg14) := segSC1_keep (F := Ideal) (RB2 m' c) (r := main_arg14) (by decide)
theorem rk3_arg15 (c : Dev nD) : RB3 m' c (Proc.devRef .tc main_arg15) = RB2 m' c (Proc.devRef .tc main_arg15) := segSC1_keep (F := Ideal) (RB2 m' c) (r := main_arg15) (by decide)
theorem rk3_arg16 (c : Dev nD) : RB3 m' c (Proc.devRef .tc main_arg16) = RB2 m' c (Proc.devRef .tc main_arg16) := segSC1_keep (F := Ideal) (RB2 m' c) (r := main_arg16) (by decide)
theorem rk3_arg17 (c : Dev nD) : RB3 m' c (Proc.devRef .tc main_arg17) = RB2 m' c (Proc.devRef .tc main_arg17) := segSC1_keep (F := Ideal) (RB2 m' c) (r := main_arg17) (by decide)
theorem rk3_arg18 (c : Dev nD) : RB3 m' c (Proc.devRef .tc main_arg18) = RB2 m' c (Proc.devRef .tc main_arg18) := segSC1_keep (F := Ideal) (RB2 m' c) (r := main_arg18) (by decide)
theorem rk3_arg19 (c : Dev nD) : RB3 m' c (Proc.devRef .tc main_arg19) = RB2 m' c (Proc.devRef .tc main_arg19) := segSC1_keep (F := Ideal) (RB2 m' c) (r := main_arg19) (by decide)
theorem rk3_arg20 (c : Dev nD) : RB3 m' c (Proc.devRef .tc main_arg20) = RB2 m' c (Proc.devRef .tc main_arg20) := segSC1_keep (F := Ideal) (RB2 m' c) (r := main_arg20) (by decide)
theorem rk4_v1 (c : Dev nD) : RB4 m' c (Proc.devRef .tc main_v1) = RB3 m' c (Proc.devRef .tc main_v1) := segAT1_keep (F := Ideal) (RB3 m' c) (r := main_v1) (by decide)
theorem rp4_v31 (c : Dev nD) : RB4 m' c (Proc.devRef .tc main_v31) = refAT1 (F := Ideal) (RB3 m' c (Proc.devRef .tc main_v18)) (RB3 m' c (Proc.devRef .tc main_v25)) ((broadcastInDim S500000x1 ![0] bcast_S500000_S500000x1_0 : (⟨S500000, .f32⟩ : BufTy).Contents (Elt Ideal) → (⟨S500000x1, .f32⟩ : BufTy).Contents (Elt Ideal)) (RB3 m' c (Proc.devRef .tc main_arg2))) := segAT1_main_v31 (F := Ideal) (RB3 m' c)
theorem rk4_v3 (c : Dev nD) : RB4 m' c (Proc.devRef .tc main_v3) = RB3 m' c (Proc.devRef .tc main_v3) := segAT1_keep (F := Ideal) (RB3 m' c) (r := main_v3) (by decide)
theorem rk4_v5 (c : Dev nD) : RB4 m' c (Proc.devRef .tc main_v5) = RB3 m' c (Proc.devRef .tc main_v5) := segAT1_keep (F := Ideal) (RB3 m' c) (r := main_v5) (by decide)
theorem rk4_arg6 (c : Dev nD) : RB4 m' c (Proc.devRef .tc main_arg6) = RB3 m' c (Proc.devRef .tc main_arg6) := segAT1_keep (F := Ideal) (RB3 m' c) (r := main_arg6) (by decide)
theorem rk4_arg7 (c : Dev nD) : RB4 m' c (Proc.devRef .tc main_arg7) = RB3 m' c (Proc.devRef .tc main_arg7) := segAT1_keep (F := Ideal) (RB3 m' c) (r := main_arg7) (by decide)
theorem rk4_arg8 (c : Dev nD) : RB4 m' c (Proc.devRef .tc main_arg8) = RB3 m' c (Proc.devRef .tc main_arg8) := segAT1_keep (F := Ideal) (RB3 m' c) (r := main_arg8) (by decide)
theorem rk4_arg9 (c : Dev nD) : RB4 m' c (Proc.devRef .tc main_arg9) = RB3 m' c (Proc.devRef .tc main_arg9) := segAT1_keep (F := Ideal) (RB3 m' c) (r := main_arg9) (by decide)
theorem rk4_arg10 (c : Dev nD) : RB4 m' c (Proc.devRef .tc main_arg10) = RB3 m' c (Proc.devRef .tc main_arg10) := segAT1_keep (F := Ideal) (RB3 m' c) (r := main_arg10) (by decide)
theorem rk4_arg11 (c : Dev nD) : RB4 m' c (Proc.devRef .tc main_arg11) = RB3 m' c (Proc.devRef .tc main_arg11) := segAT1_keep (F := Ideal) (RB3 m' c) (r := main_arg11) (by decide)
theorem rk4_arg2 (c : Dev nD) : RB4 m' c (Proc.devRef .tc main_arg2) = RB3 m' c (Proc.devRef .tc main_arg2) := segAT1_keep (F := Ideal) (RB3 m' c) (r := main_arg2) (by decide)
theorem rk4_arg12 (c : Dev nD) : RB4 m' c (Proc.devRef .tc main_arg12) = RB3 m' c (Proc.devRef .tc main_arg12) := segAT1_keep (F := Ideal) (RB3 m' c) (r := main_arg12) (by decide)
theorem rk4_arg13 (c : Dev nD) : RB4 m' c (Proc.devRef .tc main_arg13) = RB3 m' c (Proc.devRef .tc main_arg13) := segAT1_keep (F := Ideal) (RB3 m' c) (r := main_arg13) (by decide)
theorem rk4_arg14 (c : Dev nD) : RB4 m' c (Proc.devRef .tc main_arg14) = RB3 m' c (Proc.devRef .tc main_arg14) := segAT1_keep (F := Ideal) (RB3 m' c) (r := main_arg14) (by decide)
theorem rk4_arg15 (c : Dev nD) : RB4 m' c (Proc.devRef .tc main_arg15) = RB3 m' c (Proc.devRef .tc main_arg15) := segAT1_keep (F := Ideal) (RB3 m' c) (r := main_arg15) (by decide)
theorem rk4_arg16 (c : Dev nD) : RB4 m' c (Proc.devRef .tc main_arg16) = RB3 m' c (Proc.devRef .tc main_arg16) := segAT1_keep (F := Ideal) (RB3 m' c) (r := main_arg16) (by decide)
theorem rk4_arg17 (c : Dev nD) : RB4 m' c (Proc.devRef .tc main_arg17) = RB3 m' c (Proc.devRef .tc main_arg17) := segAT1_keep (F := Ideal) (RB3 m' c) (r := main_arg17) (by decide)
theorem rk4_arg18 (c : Dev nD) : RB4 m' c (Proc.devRef .tc main_arg18) = RB3 m' c (Proc.devRef .tc main_arg18) := segAT1_keep (F := Ideal) (RB3 m' c) (r := main_arg18) (by decide)
theorem rk4_arg19 (c : Dev nD) : RB4 m' c (Proc.devRef .tc main_arg19) = RB3 m' c (Proc.devRef .tc main_arg19) := segAT1_keep (F := Ideal) (RB3 m' c) (r := main_arg19) (by decide)
theorem rk4_arg20 (c : Dev nD) : RB4 m' c (Proc.devRef .tc main_arg20) = RB3 m' c (Proc.devRef .tc main_arg20) := segAT1_keep (F := Ideal) (RB3 m' c) (r := main_arg20) (by decide)
theorem rk5_v1 (c : Dev nD) : RB5 m' c (Proc.devRef .tc main_v1) = RB4 m' c (Proc.devRef .tc main_v1) := segDN1_keep (F := Ideal) (RB4 m' c) (r := main_v1) (by decide)
theorem rk5_v31 (c : Dev nD) : RB5 m' c (Proc.devRef .tc main_v31) = RB4 m' c (Proc.devRef .tc main_v31) := segDN1_keep (F := Ideal) (RB4 m' c) (r := main_v31) (by decide)
theorem rp5_v41 (c : Dev nD) : RB5 m' c (Proc.devRef .tc main_v41) = Cert.KernelIdeal.Stages.st2_v37 (RB4 m' c (Proc.devRef .tc main_v3)) (RB4 m' c (Proc.devRef .tc main_v31)) := segDN1_main_v41 (F := Ideal) (RB4 m' c)
theorem rk5_v5 (c : Dev nD) : RB5 m' c (Proc.devRef .tc main_v5) = RB4 m' c (Proc.devRef .tc main_v5) := segDN1_keep (F := Ideal) (RB4 m' c) (r := main_v5) (by decide)
theorem rk5_v3 (c : Dev nD) : RB5 m' c (Proc.devRef .tc main_v3) = RB4 m' c (Proc.devRef .tc main_v3) := segDN1_keep (F := Ideal) (RB4 m' c) (r := main_v3) (by decide)
theorem rk5_arg6 (c : Dev nD) : RB5 m' c (Proc.devRef .tc main_arg6) = RB4 m' c (Proc.devRef .tc main_arg6) := segDN1_keep (F := Ideal) (RB4 m' c) (r := main_arg6) (by decide)
theorem rk5_arg7 (c : Dev nD) : RB5 m' c (Proc.devRef .tc main_arg7) = RB4 m' c (Proc.devRef .tc main_arg7) := segDN1_keep (F := Ideal) (RB4 m' c) (r := main_arg7) (by decide)
theorem rk5_arg8 (c : Dev nD) : RB5 m' c (Proc.devRef .tc main_arg8) = RB4 m' c (Proc.devRef .tc main_arg8) := segDN1_keep (F := Ideal) (RB4 m' c) (r := main_arg8) (by decide)
theorem rk5_arg9 (c : Dev nD) : RB5 m' c (Proc.devRef .tc main_arg9) = RB4 m' c (Proc.devRef .tc main_arg9) := segDN1_keep (F := Ideal) (RB4 m' c) (r := main_arg9) (by decide)
theorem rk5_arg10 (c : Dev nD) : RB5 m' c (Proc.devRef .tc main_arg10) = RB4 m' c (Proc.devRef .tc main_arg10) := segDN1_keep (F := Ideal) (RB4 m' c) (r := main_arg10) (by decide)
theorem rk5_arg11 (c : Dev nD) : RB5 m' c (Proc.devRef .tc main_arg11) = RB4 m' c (Proc.devRef .tc main_arg11) := segDN1_keep (F := Ideal) (RB4 m' c) (r := main_arg11) (by decide)
theorem rk5_arg2 (c : Dev nD) : RB5 m' c (Proc.devRef .tc main_arg2) = RB4 m' c (Proc.devRef .tc main_arg2) := segDN1_keep (F := Ideal) (RB4 m' c) (r := main_arg2) (by decide)
theorem rk5_arg12 (c : Dev nD) : RB5 m' c (Proc.devRef .tc main_arg12) = RB4 m' c (Proc.devRef .tc main_arg12) := segDN1_keep (F := Ideal) (RB4 m' c) (r := main_arg12) (by decide)
theorem rk5_arg13 (c : Dev nD) : RB5 m' c (Proc.devRef .tc main_arg13) = RB4 m' c (Proc.devRef .tc main_arg13) := segDN1_keep (F := Ideal) (RB4 m' c) (r := main_arg13) (by decide)
theorem rk5_arg14 (c : Dev nD) : RB5 m' c (Proc.devRef .tc main_arg14) = RB4 m' c (Proc.devRef .tc main_arg14) := segDN1_keep (F := Ideal) (RB4 m' c) (r := main_arg14) (by decide)
theorem rk5_arg15 (c : Dev nD) : RB5 m' c (Proc.devRef .tc main_arg15) = RB4 m' c (Proc.devRef .tc main_arg15) := segDN1_keep (F := Ideal) (RB4 m' c) (r := main_arg15) (by decide)
theorem rk5_arg16 (c : Dev nD) : RB5 m' c (Proc.devRef .tc main_arg16) = RB4 m' c (Proc.devRef .tc main_arg16) := segDN1_keep (F := Ideal) (RB4 m' c) (r := main_arg16) (by decide)
theorem rk5_arg17 (c : Dev nD) : RB5 m' c (Proc.devRef .tc main_arg17) = RB4 m' c (Proc.devRef .tc main_arg17) := segDN1_keep (F := Ideal) (RB4 m' c) (r := main_arg17) (by decide)
theorem rk5_arg18 (c : Dev nD) : RB5 m' c (Proc.devRef .tc main_arg18) = RB4 m' c (Proc.devRef .tc main_arg18) := segDN1_keep (F := Ideal) (RB4 m' c) (r := main_arg18) (by decide)
theorem rk5_arg19 (c : Dev nD) : RB5 m' c (Proc.devRef .tc main_arg19) = RB4 m' c (Proc.devRef .tc main_arg19) := segDN1_keep (F := Ideal) (RB4 m' c) (r := main_arg19) (by decide)
theorem rk5_arg20 (c : Dev nD) : RB5 m' c (Proc.devRef .tc main_arg20) = RB4 m' c (Proc.devRef .tc main_arg20) := segDN1_keep (F := Ideal) (RB4 m' c) (r := main_arg20) (by decide)
theorem rk6_v1 (c : Dev nD) : RB6 m' c (Proc.devRef .tc main_v1) = RB5 m' c (Proc.devRef .tc main_v1) := segAL1_keep (F := Ideal) (RB5 m' c) (r := main_v1) (by decide)
theorem rp6_v45 (c : Dev nD) : RB6 m' c (Proc.devRef .tc main_v45) = refAL1 (F := Ideal) (RB5 m' c (Proc.devRef .tc main_v31)) (RB5 m' c (Proc.devRef .tc main_v41)) := segAL1_main_v45 (F := Ideal) (RB5 m' c)
theorem rk6_v5 (c : Dev nD) : RB6 m' c (Proc.devRef .tc main_v5) = RB5 m' c (Proc.devRef .tc main_v5) := segAL1_keep (F := Ideal) (RB5 m' c) (r := main_v5) (by decide)
theorem rk6_v3 (c : Dev nD) : RB6 m' c (Proc.devRef .tc main_v3) = RB5 m' c (Proc.devRef .tc main_v3) := segAL1_keep (F := Ideal) (RB5 m' c) (r := main_v3) (by decide)
theorem rk6_arg6 (c : Dev nD) : RB6 m' c (Proc.devRef .tc main_arg6) = RB5 m' c (Proc.devRef .tc main_arg6) := segAL1_keep (F := Ideal) (RB5 m' c) (r := main_arg6) (by decide)
theorem rk6_arg7 (c : Dev nD) : RB6 m' c (Proc.devRef .tc main_arg7) = RB5 m' c (Proc.devRef .tc main_arg7) := segAL1_keep (F := Ideal) (RB5 m' c) (r := main_arg7) (by decide)
theorem rk6_arg8 (c : Dev nD) : RB6 m' c (Proc.devRef .tc main_arg8) = RB5 m' c (Proc.devRef .tc main_arg8) := segAL1_keep (F := Ideal) (RB5 m' c) (r := main_arg8) (by decide)
theorem rk6_arg9 (c : Dev nD) : RB6 m' c (Proc.devRef .tc main_arg9) = RB5 m' c (Proc.devRef .tc main_arg9) := segAL1_keep (F := Ideal) (RB5 m' c) (r := main_arg9) (by decide)
theorem rk6_arg10 (c : Dev nD) : RB6 m' c (Proc.devRef .tc main_arg10) = RB5 m' c (Proc.devRef .tc main_arg10) := segAL1_keep (F := Ideal) (RB5 m' c) (r := main_arg10) (by decide)
theorem rk6_arg11 (c : Dev nD) : RB6 m' c (Proc.devRef .tc main_arg11) = RB5 m' c (Proc.devRef .tc main_arg11) := segAL1_keep (F := Ideal) (RB5 m' c) (r := main_arg11) (by decide)
theorem rk6_arg2 (c : Dev nD) : RB6 m' c (Proc.devRef .tc main_arg2) = RB5 m' c (Proc.devRef .tc main_arg2) := segAL1_keep (F := Ideal) (RB5 m' c) (r := main_arg2) (by decide)
theorem rk6_arg12 (c : Dev nD) : RB6 m' c (Proc.devRef .tc main_arg12) = RB5 m' c (Proc.devRef .tc main_arg12) := segAL1_keep (F := Ideal) (RB5 m' c) (r := main_arg12) (by decide)
theorem rk6_arg13 (c : Dev nD) : RB6 m' c (Proc.devRef .tc main_arg13) = RB5 m' c (Proc.devRef .tc main_arg13) := segAL1_keep (F := Ideal) (RB5 m' c) (r := main_arg13) (by decide)
theorem rk6_arg14 (c : Dev nD) : RB6 m' c (Proc.devRef .tc main_arg14) = RB5 m' c (Proc.devRef .tc main_arg14) := segAL1_keep (F := Ideal) (RB5 m' c) (r := main_arg14) (by decide)
theorem rk6_arg15 (c : Dev nD) : RB6 m' c (Proc.devRef .tc main_arg15) = RB5 m' c (Proc.devRef .tc main_arg15) := segAL1_keep (F := Ideal) (RB5 m' c) (r := main_arg15) (by decide)
theorem rk6_arg16 (c : Dev nD) : RB6 m' c (Proc.devRef .tc main_arg16) = RB5 m' c (Proc.devRef .tc main_arg16) := segAL1_keep (F := Ideal) (RB5 m' c) (r := main_arg16) (by decide)
theorem rk6_arg17 (c : Dev nD) : RB6 m' c (Proc.devRef .tc main_arg17) = RB5 m' c (Proc.devRef .tc main_arg17) := segAL1_keep (F := Ideal) (RB5 m' c) (r := main_arg17) (by decide)
theorem rk6_arg18 (c : Dev nD) : RB6 m' c (Proc.devRef .tc main_arg18) = RB5 m' c (Proc.devRef .tc main_arg18) := segAL1_keep (F := Ideal) (RB5 m' c) (r := main_arg18) (by decide)
theorem rk6_arg19 (c : Dev nD) : RB6 m' c (Proc.devRef .tc main_arg19) = RB5 m' c (Proc.devRef .tc main_arg19) := segAL1_keep (F := Ideal) (RB5 m' c) (r := main_arg19) (by decide)
theorem rk6_arg20 (c : Dev nD) : RB6 m' c (Proc.devRef .tc main_arg20) = RB5 m' c (Proc.devRef .tc main_arg20) := segAL1_keep (F := Ideal) (RB5 m' c) (r := main_arg20) (by decide)
theorem rk7_v1 (c : Dev nD) : RB7 m' c (Proc.devRef .tc main_v1) = RB6 m' c (Proc.devRef .tc main_v1) := segHG1_keep (F := Ideal) (RB6 m' c) (r := main_v1) (by decide)
theorem rk7_v45 (c : Dev nD) : RB7 m' c (Proc.devRef .tc main_v45) = RB6 m' c (Proc.devRef .tc main_v45) := segHG1_keep (F := Ideal) (RB6 m' c) (r := main_v45) (by decide)
theorem rp7_v52 (c : Dev nD) : RB7 m' c (Proc.devRef .tc main_v52) = Cert.KernelIdeal.Stages.st2_v44 (RB6 m' c (Proc.devRef .tc main_v5)) (RB6 m' c (Proc.devRef .tc main_v3)) := segHG1_main_v52 (F := Ideal) (RB6 m' c)
theorem rk7_arg6 (c : Dev nD) : RB7 m' c (Proc.devRef .tc main_arg6) = RB6 m' c (Proc.devRef .tc main_arg6) := segHG1_keep (F := Ideal) (RB6 m' c) (r := main_arg6) (by decide)
theorem rk7_arg7 (c : Dev nD) : RB7 m' c (Proc.devRef .tc main_arg7) = RB6 m' c (Proc.devRef .tc main_arg7) := segHG1_keep (F := Ideal) (RB6 m' c) (r := main_arg7) (by decide)
theorem rk7_arg8 (c : Dev nD) : RB7 m' c (Proc.devRef .tc main_arg8) = RB6 m' c (Proc.devRef .tc main_arg8) := segHG1_keep (F := Ideal) (RB6 m' c) (r := main_arg8) (by decide)
theorem rk7_arg9 (c : Dev nD) : RB7 m' c (Proc.devRef .tc main_arg9) = RB6 m' c (Proc.devRef .tc main_arg9) := segHG1_keep (F := Ideal) (RB6 m' c) (r := main_arg9) (by decide)
theorem rk7_arg10 (c : Dev nD) : RB7 m' c (Proc.devRef .tc main_arg10) = RB6 m' c (Proc.devRef .tc main_arg10) := segHG1_keep (F := Ideal) (RB6 m' c) (r := main_arg10) (by decide)
theorem rk7_arg11 (c : Dev nD) : RB7 m' c (Proc.devRef .tc main_arg11) = RB6 m' c (Proc.devRef .tc main_arg11) := segHG1_keep (F := Ideal) (RB6 m' c) (r := main_arg11) (by decide)
theorem rk7_v3 (c : Dev nD) : RB7 m' c (Proc.devRef .tc main_v3) = RB6 m' c (Proc.devRef .tc main_v3) := segHG1_keep (F := Ideal) (RB6 m' c) (r := main_v3) (by decide)
theorem rk7_arg2 (c : Dev nD) : RB7 m' c (Proc.devRef .tc main_arg2) = RB6 m' c (Proc.devRef .tc main_arg2) := segHG1_keep (F := Ideal) (RB6 m' c) (r := main_arg2) (by decide)
theorem rk7_arg12 (c : Dev nD) : RB7 m' c (Proc.devRef .tc main_arg12) = RB6 m' c (Proc.devRef .tc main_arg12) := segHG1_keep (F := Ideal) (RB6 m' c) (r := main_arg12) (by decide)
theorem rk7_arg13 (c : Dev nD) : RB7 m' c (Proc.devRef .tc main_arg13) = RB6 m' c (Proc.devRef .tc main_arg13) := segHG1_keep (F := Ideal) (RB6 m' c) (r := main_arg13) (by decide)
theorem rk7_arg14 (c : Dev nD) : RB7 m' c (Proc.devRef .tc main_arg14) = RB6 m' c (Proc.devRef .tc main_arg14) := segHG1_keep (F := Ideal) (RB6 m' c) (r := main_arg14) (by decide)
theorem rk7_arg15 (c : Dev nD) : RB7 m' c (Proc.devRef .tc main_arg15) = RB6 m' c (Proc.devRef .tc main_arg15) := segHG1_keep (F := Ideal) (RB6 m' c) (r := main_arg15) (by decide)
theorem rk7_arg16 (c : Dev nD) : RB7 m' c (Proc.devRef .tc main_arg16) = RB6 m' c (Proc.devRef .tc main_arg16) := segHG1_keep (F := Ideal) (RB6 m' c) (r := main_arg16) (by decide)
theorem rk7_arg17 (c : Dev nD) : RB7 m' c (Proc.devRef .tc main_arg17) = RB6 m' c (Proc.devRef .tc main_arg17) := segHG1_keep (F := Ideal) (RB6 m' c) (r := main_arg17) (by decide)
theorem rk7_arg18 (c : Dev nD) : RB7 m' c (Proc.devRef .tc main_arg18) = RB6 m' c (Proc.devRef .tc main_arg18) := segHG1_keep (F := Ideal) (RB6 m' c) (r := main_arg18) (by decide)
theorem rk7_arg19 (c : Dev nD) : RB7 m' c (Proc.devRef .tc main_arg19) = RB6 m' c (Proc.devRef .tc main_arg19) := segHG1_keep (F := Ideal) (RB6 m' c) (r := main_arg19) (by decide)
theorem rk7_arg20 (c : Dev nD) : RB7 m' c (Proc.devRef .tc main_arg20) = RB6 m' c (Proc.devRef .tc main_arg20) := segHG1_keep (F := Ideal) (RB6 m' c) (r := main_arg20) (by decide)
theorem rk8_v1 (c : Dev nD) : RB8 m' c (Proc.devRef .tc main_v1) = RB7 m' c (Proc.devRef .tc main_v1) := segMS1_keep (F := Ideal) (RB7 m' c) (r := main_v1) (by decide)
theorem rp8_v54 (c : Dev nD) : RB8 m' c (Proc.devRef .tc main_v54) = refMS1 (F := Ideal) (RB7 m' c (Proc.devRef .tc main_v45)) (RB7 m' c (Proc.devRef .tc main_v52)) := segMS1_main_v54 (F := Ideal) (RB7 m' c)
theorem rk8_arg6 (c : Dev nD) : RB8 m' c (Proc.devRef .tc main_arg6) = RB7 m' c (Proc.devRef .tc main_arg6) := segMS1_keep (F := Ideal) (RB7 m' c) (r := main_arg6) (by decide)
theorem rk8_arg7 (c : Dev nD) : RB8 m' c (Proc.devRef .tc main_arg7) = RB7 m' c (Proc.devRef .tc main_arg7) := segMS1_keep (F := Ideal) (RB7 m' c) (r := main_arg7) (by decide)
theorem rk8_arg8 (c : Dev nD) : RB8 m' c (Proc.devRef .tc main_arg8) = RB7 m' c (Proc.devRef .tc main_arg8) := segMS1_keep (F := Ideal) (RB7 m' c) (r := main_arg8) (by decide)
theorem rk8_arg9 (c : Dev nD) : RB8 m' c (Proc.devRef .tc main_arg9) = RB7 m' c (Proc.devRef .tc main_arg9) := segMS1_keep (F := Ideal) (RB7 m' c) (r := main_arg9) (by decide)
theorem rk8_arg10 (c : Dev nD) : RB8 m' c (Proc.devRef .tc main_arg10) = RB7 m' c (Proc.devRef .tc main_arg10) := segMS1_keep (F := Ideal) (RB7 m' c) (r := main_arg10) (by decide)
theorem rk8_arg11 (c : Dev nD) : RB8 m' c (Proc.devRef .tc main_arg11) = RB7 m' c (Proc.devRef .tc main_arg11) := segMS1_keep (F := Ideal) (RB7 m' c) (r := main_arg11) (by decide)
theorem rk8_v3 (c : Dev nD) : RB8 m' c (Proc.devRef .tc main_v3) = RB7 m' c (Proc.devRef .tc main_v3) := segMS1_keep (F := Ideal) (RB7 m' c) (r := main_v3) (by decide)
theorem rk8_arg2 (c : Dev nD) : RB8 m' c (Proc.devRef .tc main_arg2) = RB7 m' c (Proc.devRef .tc main_arg2) := segMS1_keep (F := Ideal) (RB7 m' c) (r := main_arg2) (by decide)
theorem rk8_arg12 (c : Dev nD) : RB8 m' c (Proc.devRef .tc main_arg12) = RB7 m' c (Proc.devRef .tc main_arg12) := segMS1_keep (F := Ideal) (RB7 m' c) (r := main_arg12) (by decide)
theorem rk8_arg13 (c : Dev nD) : RB8 m' c (Proc.devRef .tc main_arg13) = RB7 m' c (Proc.devRef .tc main_arg13) := segMS1_keep (F := Ideal) (RB7 m' c) (r := main_arg13) (by decide)
theorem rk8_arg14 (c : Dev nD) : RB8 m' c (Proc.devRef .tc main_arg14) = RB7 m' c (Proc.devRef .tc main_arg14) := segMS1_keep (F := Ideal) (RB7 m' c) (r := main_arg14) (by decide)
theorem rk8_arg15 (c : Dev nD) : RB8 m' c (Proc.devRef .tc main_arg15) = RB7 m' c (Proc.devRef .tc main_arg15) := segMS1_keep (F := Ideal) (RB7 m' c) (r := main_arg15) (by decide)
theorem rk8_arg16 (c : Dev nD) : RB8 m' c (Proc.devRef .tc main_arg16) = RB7 m' c (Proc.devRef .tc main_arg16) := segMS1_keep (F := Ideal) (RB7 m' c) (r := main_arg16) (by decide)
theorem rk8_arg17 (c : Dev nD) : RB8 m' c (Proc.devRef .tc main_arg17) = RB7 m' c (Proc.devRef .tc main_arg17) := segMS1_keep (F := Ideal) (RB7 m' c) (r := main_arg17) (by decide)
theorem rk8_arg18 (c : Dev nD) : RB8 m' c (Proc.devRef .tc main_arg18) = RB7 m' c (Proc.devRef .tc main_arg18) := segMS1_keep (F := Ideal) (RB7 m' c) (r := main_arg18) (by decide)
theorem rk8_arg19 (c : Dev nD) : RB8 m' c (Proc.devRef .tc main_arg19) = RB7 m' c (Proc.devRef .tc main_arg19) := segMS1_keep (F := Ideal) (RB7 m' c) (r := main_arg19) (by decide)
theorem rk8_arg20 (c : Dev nD) : RB8 m' c (Proc.devRef .tc main_arg20) = RB7 m' c (Proc.devRef .tc main_arg20) := segMS1_keep (F := Ideal) (RB7 m' c) (r := main_arg20) (by decide)
theorem rp9_v58 (c : Dev nD) : RB9 m' c (Proc.devRef .tc main_v58) = Cert.KernelIdeal.Stages.st3_v49 (RB8 m' c (Proc.devRef .tc main_v1)) (RB8 m' c (Proc.devRef .tc main_v54)) := segAG1_main_v58 (F := Ideal) (RB8 m' c)
theorem rk9_arg6 (c : Dev nD) : RB9 m' c (Proc.devRef .tc main_arg6) = RB8 m' c (Proc.devRef .tc main_arg6) := segAG1_keep (F := Ideal) (RB8 m' c) (r := main_arg6) (by decide)
theorem rk9_arg7 (c : Dev nD) : RB9 m' c (Proc.devRef .tc main_arg7) = RB8 m' c (Proc.devRef .tc main_arg7) := segAG1_keep (F := Ideal) (RB8 m' c) (r := main_arg7) (by decide)
theorem rk9_arg8 (c : Dev nD) : RB9 m' c (Proc.devRef .tc main_arg8) = RB8 m' c (Proc.devRef .tc main_arg8) := segAG1_keep (F := Ideal) (RB8 m' c) (r := main_arg8) (by decide)
theorem rk9_v1 (c : Dev nD) : RB9 m' c (Proc.devRef .tc main_v1) = RB8 m' c (Proc.devRef .tc main_v1) := segAG1_keep (F := Ideal) (RB8 m' c) (r := main_v1) (by decide)
theorem rk9_arg9 (c : Dev nD) : RB9 m' c (Proc.devRef .tc main_arg9) = RB8 m' c (Proc.devRef .tc main_arg9) := segAG1_keep (F := Ideal) (RB8 m' c) (r := main_arg9) (by decide)
theorem rk9_arg10 (c : Dev nD) : RB9 m' c (Proc.devRef .tc main_arg10) = RB8 m' c (Proc.devRef .tc main_arg10) := segAG1_keep (F := Ideal) (RB8 m' c) (r := main_arg10) (by decide)
theorem rk9_arg11 (c : Dev nD) : RB9 m' c (Proc.devRef .tc main_arg11) = RB8 m' c (Proc.devRef .tc main_arg11) := segAG1_keep (F := Ideal) (RB8 m' c) (r := main_arg11) (by decide)
theorem rk9_v3 (c : Dev nD) : RB9 m' c (Proc.devRef .tc main_v3) = RB8 m' c (Proc.devRef .tc main_v3) := segAG1_keep (F := Ideal) (RB8 m' c) (r := main_v3) (by decide)
theorem rk9_arg2 (c : Dev nD) : RB9 m' c (Proc.devRef .tc main_arg2) = RB8 m' c (Proc.devRef .tc main_arg2) := segAG1_keep (F := Ideal) (RB8 m' c) (r := main_arg2) (by decide)
theorem rk9_arg12 (c : Dev nD) : RB9 m' c (Proc.devRef .tc main_arg12) = RB8 m' c (Proc.devRef .tc main_arg12) := segAG1_keep (F := Ideal) (RB8 m' c) (r := main_arg12) (by decide)
theorem rk9_arg13 (c : Dev nD) : RB9 m' c (Proc.devRef .tc main_arg13) = RB8 m' c (Proc.devRef .tc main_arg13) := segAG1_keep (F := Ideal) (RB8 m' c) (r := main_arg13) (by decide)
theorem rk9_arg14 (c : Dev nD) : RB9 m' c (Proc.devRef .tc main_arg14) = RB8 m' c (Proc.devRef .tc main_arg14) := segAG1_keep (F := Ideal) (RB8 m' c) (r := main_arg14) (by decide)
theorem rk9_arg15 (c : Dev nD) : RB9 m' c (Proc.devRef .tc main_arg15) = RB8 m' c (Proc.devRef .tc main_arg15) := segAG1_keep (F := Ideal) (RB8 m' c) (r := main_arg15) (by decide)
theorem rk9_arg16 (c : Dev nD) : RB9 m' c (Proc.devRef .tc main_arg16) = RB8 m' c (Proc.devRef .tc main_arg16) := segAG1_keep (F := Ideal) (RB8 m' c) (r := main_arg16) (by decide)
theorem rk9_arg17 (c : Dev nD) : RB9 m' c (Proc.devRef .tc main_arg17) = RB8 m' c (Proc.devRef .tc main_arg17) := segAG1_keep (F := Ideal) (RB8 m' c) (r := main_arg17) (by decide)
theorem rk9_arg18 (c : Dev nD) : RB9 m' c (Proc.devRef .tc main_arg18) = RB8 m' c (Proc.devRef .tc main_arg18) := segAG1_keep (F := Ideal) (RB8 m' c) (r := main_arg18) (by decide)
theorem rk9_arg19 (c : Dev nD) : RB9 m' c (Proc.devRef .tc main_arg19) = RB8 m' c (Proc.devRef .tc main_arg19) := segAG1_keep (F := Ideal) (RB8 m' c) (r := main_arg19) (by decide)
theorem rk9_arg20 (c : Dev nD) : RB9 m' c (Proc.devRef .tc main_arg20) = RB8 m' c (Proc.devRef .tc main_arg20) := segAG1_keep (F := Ideal) (RB8 m' c) (r := main_arg20) (by decide)
theorem rp10_v80 (c : Dev nD) : RB10 m' c (Proc.devRef .tc main_v80) = refLN1 (F := Ideal) (RB9 m' c (Proc.devRef .tc main_v58)) ((broadcastInDim S1x256 ![1] bcast_S256_S1x256_1 : (⟨S256, .f32⟩ : BufTy).Contents (Elt Ideal) → (⟨S1x256, .f32⟩ : BufTy).Contents (Elt Ideal)) (RB9 m' c (Proc.devRef .tc main_arg6))) ((broadcastInDim S1x256 ![1] bcast_S256_S1x256_1 : (⟨S256, .f32⟩ : BufTy).Contents (Elt Ideal) → (⟨S1x256, .f32⟩ : BufTy).Contents (Elt Ideal)) (RB9 m' c (Proc.devRef .tc main_arg7))) ((broadcastInDim S1x256 ![1] bcast_S256_S1x256_1 : (⟨S256, .f32⟩ : BufTy).Contents (Elt Ideal) → (⟨S1x256, .f32⟩ : BufTy).Contents (Elt Ideal)) (RB9 m' c (Proc.devRef .tc main_arg8))) := segLN1_main_v80 (F := Ideal) (RB9 m' c)
theorem rk10_v1 (c : Dev nD) : RB10 m' c (Proc.devRef .tc main_v1) = RB9 m' c (Proc.devRef .tc main_v1) := segLN1_keep (F := Ideal) (RB9 m' c) (r := main_v1) (by decide)
theorem rk10_arg9 (c : Dev nD) : RB10 m' c (Proc.devRef .tc main_arg9) = RB9 m' c (Proc.devRef .tc main_arg9) := segLN1_keep (F := Ideal) (RB9 m' c) (r := main_arg9) (by decide)
theorem rk10_arg10 (c : Dev nD) : RB10 m' c (Proc.devRef .tc main_arg10) = RB9 m' c (Proc.devRef .tc main_arg10) := segLN1_keep (F := Ideal) (RB9 m' c) (r := main_arg10) (by decide)
theorem rk10_arg11 (c : Dev nD) : RB10 m' c (Proc.devRef .tc main_arg11) = RB9 m' c (Proc.devRef .tc main_arg11) := segLN1_keep (F := Ideal) (RB9 m' c) (r := main_arg11) (by decide)
theorem rk10_v3 (c : Dev nD) : RB10 m' c (Proc.devRef .tc main_v3) = RB9 m' c (Proc.devRef .tc main_v3) := segLN1_keep (F := Ideal) (RB9 m' c) (r := main_v3) (by decide)
theorem rk10_arg2 (c : Dev nD) : RB10 m' c (Proc.devRef .tc main_arg2) = RB9 m' c (Proc.devRef .tc main_arg2) := segLN1_keep (F := Ideal) (RB9 m' c) (r := main_arg2) (by decide)
theorem rk10_arg12 (c : Dev nD) : RB10 m' c (Proc.devRef .tc main_arg12) = RB9 m' c (Proc.devRef .tc main_arg12) := segLN1_keep (F := Ideal) (RB9 m' c) (r := main_arg12) (by decide)
theorem rk10_arg13 (c : Dev nD) : RB10 m' c (Proc.devRef .tc main_arg13) = RB9 m' c (Proc.devRef .tc main_arg13) := segLN1_keep (F := Ideal) (RB9 m' c) (r := main_arg13) (by decide)
theorem rk10_arg14 (c : Dev nD) : RB10 m' c (Proc.devRef .tc main_arg14) = RB9 m' c (Proc.devRef .tc main_arg14) := segLN1_keep (F := Ideal) (RB9 m' c) (r := main_arg14) (by decide)
theorem rk10_arg15 (c : Dev nD) : RB10 m' c (Proc.devRef .tc main_arg15) = RB9 m' c (Proc.devRef .tc main_arg15) := segLN1_keep (F := Ideal) (RB9 m' c) (r := main_arg15) (by decide)
theorem rk10_arg16 (c : Dev nD) : RB10 m' c (Proc.devRef .tc main_arg16) = RB9 m' c (Proc.devRef .tc main_arg16) := segLN1_keep (F := Ideal) (RB9 m' c) (r := main_arg16) (by decide)
theorem rk10_arg17 (c : Dev nD) : RB10 m' c (Proc.devRef .tc main_arg17) = RB9 m' c (Proc.devRef .tc main_arg17) := segLN1_keep (F := Ideal) (RB9 m' c) (r := main_arg17) (by decide)
theorem rk10_arg18 (c : Dev nD) : RB10 m' c (Proc.devRef .tc main_arg18) = RB9 m' c (Proc.devRef .tc main_arg18) := segLN1_keep (F := Ideal) (RB9 m' c) (r := main_arg18) (by decide)
theorem rk10_arg19 (c : Dev nD) : RB10 m' c (Proc.devRef .tc main_arg19) = RB9 m' c (Proc.devRef .tc main_arg19) := segLN1_keep (F := Ideal) (RB9 m' c) (r := main_arg19) (by decide)
theorem rk10_arg20 (c : Dev nD) : RB10 m' c (Proc.devRef .tc main_arg20) = RB9 m' c (Proc.devRef .tc main_arg20) := segLN1_keep (F := Ideal) (RB9 m' c) (r := main_arg20) (by decide)
theorem rk11_v1 (c : Dev nD) : RB11 m' c (Proc.devRef .tc main_v1) = RB10 m' c (Proc.devRef .tc main_v1) := segMM2_keep (F := Ideal) (RB10 m' c) (r := main_v1) (by decide)
theorem rp11_v81 (c : Dev nD) : RB11 m' c (Proc.devRef .tc main_v81) = refMM2 (F := Ideal) (RB10 m' c (Proc.devRef .tc main_v80)) (RB10 m' c (Proc.devRef .tc main_arg9)) := segMM2_main_v81 (F := Ideal) (RB10 m' c)
theorem rk11_arg10 (c : Dev nD) : RB11 m' c (Proc.devRef .tc main_arg10) = RB10 m' c (Proc.devRef .tc main_arg10) := segMM2_keep (F := Ideal) (RB10 m' c) (r := main_arg10) (by decide)
theorem rk11_arg11 (c : Dev nD) : RB11 m' c (Proc.devRef .tc main_arg11) = RB10 m' c (Proc.devRef .tc main_arg11) := segMM2_keep (F := Ideal) (RB10 m' c) (r := main_arg11) (by decide)
theorem rk11_v3 (c : Dev nD) : RB11 m' c (Proc.devRef .tc main_v3) = RB10 m' c (Proc.devRef .tc main_v3) := segMM2_keep (F := Ideal) (RB10 m' c) (r := main_v3) (by decide)
theorem rk11_arg2 (c : Dev nD) : RB11 m' c (Proc.devRef .tc main_arg2) = RB10 m' c (Proc.devRef .tc main_arg2) := segMM2_keep (F := Ideal) (RB10 m' c) (r := main_arg2) (by decide)
theorem rk11_arg12 (c : Dev nD) : RB11 m' c (Proc.devRef .tc main_arg12) = RB10 m' c (Proc.devRef .tc main_arg12) := segMM2_keep (F := Ideal) (RB10 m' c) (r := main_arg12) (by decide)
theorem rk11_arg13 (c : Dev nD) : RB11 m' c (Proc.devRef .tc main_arg13) = RB10 m' c (Proc.devRef .tc main_arg13) := segMM2_keep (F := Ideal) (RB10 m' c) (r := main_arg13) (by decide)
theorem rk11_arg14 (c : Dev nD) : RB11 m' c (Proc.devRef .tc main_arg14) = RB10 m' c (Proc.devRef .tc main_arg14) := segMM2_keep (F := Ideal) (RB10 m' c) (r := main_arg14) (by decide)
theorem rk11_arg15 (c : Dev nD) : RB11 m' c (Proc.devRef .tc main_arg15) = RB10 m' c (Proc.devRef .tc main_arg15) := segMM2_keep (F := Ideal) (RB10 m' c) (r := main_arg15) (by decide)
theorem rk11_arg16 (c : Dev nD) : RB11 m' c (Proc.devRef .tc main_arg16) = RB10 m' c (Proc.devRef .tc main_arg16) := segMM2_keep (F := Ideal) (RB10 m' c) (r := main_arg16) (by decide)
theorem rk11_arg17 (c : Dev nD) : RB11 m' c (Proc.devRef .tc main_arg17) = RB10 m' c (Proc.devRef .tc main_arg17) := segMM2_keep (F := Ideal) (RB10 m' c) (r := main_arg17) (by decide)
theorem rk11_arg18 (c : Dev nD) : RB11 m' c (Proc.devRef .tc main_arg18) = RB10 m' c (Proc.devRef .tc main_arg18) := segMM2_keep (F := Ideal) (RB10 m' c) (r := main_arg18) (by decide)
theorem rk11_arg19 (c : Dev nD) : RB11 m' c (Proc.devRef .tc main_arg19) = RB10 m' c (Proc.devRef .tc main_arg19) := segMM2_keep (F := Ideal) (RB10 m' c) (r := main_arg19) (by decide)
theorem rk11_arg20 (c : Dev nD) : RB11 m' c (Proc.devRef .tc main_arg20) = RB10 m' c (Proc.devRef .tc main_arg20) := segMM2_keep (F := Ideal) (RB10 m' c) (r := main_arg20) (by decide)
theorem rk12_v1 (c : Dev nD) : RB12 m' c (Proc.devRef .tc main_v1) = RB11 m' c (Proc.devRef .tc main_v1) := segSC2_keep (F := Ideal) (RB11 m' c) (r := main_v1) (by decide)
theorem rp12_v95 (c : Dev nD) : RB12 m' c (Proc.devRef .tc main_v95) = Cert.KernelIdeal.Stages.st5_v68 (RB11 m' c (Proc.devRef .tc main_v81)) (RB11 m' c (Proc.devRef .tc main_arg10)) (RB11 m' c (Proc.devRef .tc main_v1)) := segSC2_main_v95 (F := Ideal) (RB11 m' c)
theorem rp12_v102 (c : Dev nD) : RB12 m' c (Proc.devRef .tc main_v102) = Cert.KernelIdeal.Stages.st5_v75 (RB11 m' c (Proc.devRef .tc main_v81)) (RB11 m' c (Proc.devRef .tc main_arg11)) (RB11 m' c (Proc.devRef .tc main_v3)) := segSC2_main_v102 (F := Ideal) (RB11 m' c)
theorem rk12_arg2 (c : Dev nD) : RB12 m' c (Proc.devRef .tc main_arg2) = RB11 m' c (Proc.devRef .tc main_arg2) := segSC2_keep (F := Ideal) (RB11 m' c) (r := main_arg2) (by decide)
theorem rk12_v3 (c : Dev nD) : RB12 m' c (Proc.devRef .tc main_v3) = RB11 m' c (Proc.devRef .tc main_v3) := segSC2_keep (F := Ideal) (RB11 m' c) (r := main_v3) (by decide)
theorem rp12_v82 (c : Dev nD) : RB12 m' c (Proc.devRef .tc main_v82) = Cert.KernelIdeal.Stages.st5_v55 (RB11 m' c (Proc.devRef .tc main_v81)) := segSC2_main_v82 (F := Ideal) (RB11 m' c)
theorem rk12_arg12 (c : Dev nD) : RB12 m' c (Proc.devRef .tc main_arg12) = RB11 m' c (Proc.devRef .tc main_arg12) := segSC2_keep (F := Ideal) (RB11 m' c) (r := main_arg12) (by decide)
theorem rk12_arg13 (c : Dev nD) : RB12 m' c (Proc.devRef .tc main_arg13) = RB11 m' c (Proc.devRef .tc main_arg13) := segSC2_keep (F := Ideal) (RB11 m' c) (r := main_arg13) (by decide)
theorem rk12_arg14 (c : Dev nD) : RB12 m' c (Proc.devRef .tc main_arg14) = RB11 m' c (Proc.devRef .tc main_arg14) := segSC2_keep (F := Ideal) (RB11 m' c) (r := main_arg14) (by decide)
theorem rk12_arg15 (c : Dev nD) : RB12 m' c (Proc.devRef .tc main_arg15) = RB11 m' c (Proc.devRef .tc main_arg15) := segSC2_keep (F := Ideal) (RB11 m' c) (r := main_arg15) (by decide)
theorem rk12_arg16 (c : Dev nD) : RB12 m' c (Proc.devRef .tc main_arg16) = RB11 m' c (Proc.devRef .tc main_arg16) := segSC2_keep (F := Ideal) (RB11 m' c) (r := main_arg16) (by decide)
theorem rk12_arg17 (c : Dev nD) : RB12 m' c (Proc.devRef .tc main_arg17) = RB11 m' c (Proc.devRef .tc main_arg17) := segSC2_keep (F := Ideal) (RB11 m' c) (r := main_arg17) (by decide)
theorem rk12_arg18 (c : Dev nD) : RB12 m' c (Proc.devRef .tc main_arg18) = RB11 m' c (Proc.devRef .tc main_arg18) := segSC2_keep (F := Ideal) (RB11 m' c) (r := main_arg18) (by decide)
theorem rk12_arg19 (c : Dev nD) : RB12 m' c (Proc.devRef .tc main_arg19) = RB11 m' c (Proc.devRef .tc main_arg19) := segSC2_keep (F := Ideal) (RB11 m' c) (r := main_arg19) (by decide)
theorem rk12_arg20 (c : Dev nD) : RB12 m' c (Proc.devRef .tc main_arg20) = RB11 m' c (Proc.devRef .tc main_arg20) := segSC2_keep (F := Ideal) (RB11 m' c) (r := main_arg20) (by decide)
theorem rk13_v1 (c : Dev nD) : RB13 m' c (Proc.devRef .tc main_v1) = RB12 m' c (Proc.devRef .tc main_v1) := segAT2_keep (F := Ideal) (RB12 m' c) (r := main_v1) (by decide)
theorem rp13_v108 (c : Dev nD) : RB13 m' c (Proc.devRef .tc main_v108) = refAT2 (F := Ideal) (RB12 m' c (Proc.devRef .tc main_v95)) (RB12 m' c (Proc.devRef .tc main_v102)) ((broadcastInDim S500000x1 ![0] bcast_S500000_S500000x1_0 : (⟨S500000, .f32⟩ : BufTy).Contents (Elt Ideal) → (⟨S500000x1, .f32⟩ : BufTy).Contents (Elt Ideal)) (RB12 m' c (Proc.devRef .tc main_arg2))) := segAT2_main_v108 (F := Ideal) (RB12 m' c)
theorem rk13_v3 (c : Dev nD) : RB13 m' c (Proc.devRef .tc main_v3) = RB12 m' c (Proc.devRef .tc main_v3) := segAT2_keep (F := Ideal) (RB12 m' c) (r := main_v3) (by decide)
theorem rk13_v82 (c : Dev nD) : RB13 m' c (Proc.devRef .tc main_v82) = RB12 m' c (Proc.devRef .tc main_v82) := segAT2_keep (F := Ideal) (RB12 m' c) (r := main_v82) (by decide)
theorem rk13_arg12 (c : Dev nD) : RB13 m' c (Proc.devRef .tc main_arg12) = RB12 m' c (Proc.devRef .tc main_arg12) := segAT2_keep (F := Ideal) (RB12 m' c) (r := main_arg12) (by decide)
theorem rk13_arg13 (c : Dev nD) : RB13 m' c (Proc.devRef .tc main_arg13) = RB12 m' c (Proc.devRef .tc main_arg13) := segAT2_keep (F := Ideal) (RB12 m' c) (r := main_arg13) (by decide)
theorem rk13_arg14 (c : Dev nD) : RB13 m' c (Proc.devRef .tc main_arg14) = RB12 m' c (Proc.devRef .tc main_arg14) := segAT2_keep (F := Ideal) (RB12 m' c) (r := main_arg14) (by decide)
theorem rk13_arg15 (c : Dev nD) : RB13 m' c (Proc.devRef .tc main_arg15) = RB12 m' c (Proc.devRef .tc main_arg15) := segAT2_keep (F := Ideal) (RB12 m' c) (r := main_arg15) (by decide)
theorem rk13_arg16 (c : Dev nD) : RB13 m' c (Proc.devRef .tc main_arg16) = RB12 m' c (Proc.devRef .tc main_arg16) := segAT2_keep (F := Ideal) (RB12 m' c) (r := main_arg16) (by decide)
theorem rk13_arg17 (c : Dev nD) : RB13 m' c (Proc.devRef .tc main_arg17) = RB12 m' c (Proc.devRef .tc main_arg17) := segAT2_keep (F := Ideal) (RB12 m' c) (r := main_arg17) (by decide)
theorem rk13_arg2 (c : Dev nD) : RB13 m' c (Proc.devRef .tc main_arg2) = RB12 m' c (Proc.devRef .tc main_arg2) := segAT2_keep (F := Ideal) (RB12 m' c) (r := main_arg2) (by decide)
theorem rk13_arg18 (c : Dev nD) : RB13 m' c (Proc.devRef .tc main_arg18) = RB12 m' c (Proc.devRef .tc main_arg18) := segAT2_keep (F := Ideal) (RB12 m' c) (r := main_arg18) (by decide)
theorem rk13_arg19 (c : Dev nD) : RB13 m' c (Proc.devRef .tc main_arg19) = RB12 m' c (Proc.devRef .tc main_arg19) := segAT2_keep (F := Ideal) (RB12 m' c) (r := main_arg19) (by decide)
theorem rk13_arg20 (c : Dev nD) : RB13 m' c (Proc.devRef .tc main_arg20) = RB12 m' c (Proc.devRef .tc main_arg20) := segAT2_keep (F := Ideal) (RB12 m' c) (r := main_arg20) (by decide)
theorem rk14_v1 (c : Dev nD) : RB14 m' c (Proc.devRef .tc main_v1) = RB13 m' c (Proc.devRef .tc main_v1) := segDN2_keep (F := Ideal) (RB13 m' c) (r := main_v1) (by decide)
theorem rk14_v108 (c : Dev nD) : RB14 m' c (Proc.devRef .tc main_v108) = RB13 m' c (Proc.devRef .tc main_v108) := segDN2_keep (F := Ideal) (RB13 m' c) (r := main_v108) (by decide)
theorem rp14_v118 (c : Dev nD) : RB14 m' c (Proc.devRef .tc main_v118) = Cert.KernelIdeal.Stages.st6_v86 (RB13 m' c (Proc.devRef .tc main_v3)) (RB13 m' c (Proc.devRef .tc main_v108)) := segDN2_main_v118 (F := Ideal) (RB13 m' c)
theorem rk14_v82 (c : Dev nD) : RB14 m' c (Proc.devRef .tc main_v82) = RB13 m' c (Proc.devRef .tc main_v82) := segDN2_keep (F := Ideal) (RB13 m' c) (r := main_v82) (by decide)
theorem rk14_v3 (c : Dev nD) : RB14 m' c (Proc.devRef .tc main_v3) = RB13 m' c (Proc.devRef .tc main_v3) := segDN2_keep (F := Ideal) (RB13 m' c) (r := main_v3) (by decide)
theorem rk14_arg12 (c : Dev nD) : RB14 m' c (Proc.devRef .tc main_arg12) = RB13 m' c (Proc.devRef .tc main_arg12) := segDN2_keep (F := Ideal) (RB13 m' c) (r := main_arg12) (by decide)
theorem rk14_arg13 (c : Dev nD) : RB14 m' c (Proc.devRef .tc main_arg13) = RB13 m' c (Proc.devRef .tc main_arg13) := segDN2_keep (F := Ideal) (RB13 m' c) (r := main_arg13) (by decide)
theorem rk14_arg14 (c : Dev nD) : RB14 m' c (Proc.devRef .tc main_arg14) = RB13 m' c (Proc.devRef .tc main_arg14) := segDN2_keep (F := Ideal) (RB13 m' c) (r := main_arg14) (by decide)
theorem rk14_arg15 (c : Dev nD) : RB14 m' c (Proc.devRef .tc main_arg15) = RB13 m' c (Proc.devRef .tc main_arg15) := segDN2_keep (F := Ideal) (RB13 m' c) (r := main_arg15) (by decide)
theorem rk14_arg16 (c : Dev nD) : RB14 m' c (Proc.devRef .tc main_arg16) = RB13 m' c (Proc.devRef .tc main_arg16) := segDN2_keep (F := Ideal) (RB13 m' c) (r := main_arg16) (by decide)
theorem rk14_arg17 (c : Dev nD) : RB14 m' c (Proc.devRef .tc main_arg17) = RB13 m' c (Proc.devRef .tc main_arg17) := segDN2_keep (F := Ideal) (RB13 m' c) (r := main_arg17) (by decide)
theorem rk14_arg2 (c : Dev nD) : RB14 m' c (Proc.devRef .tc main_arg2) = RB13 m' c (Proc.devRef .tc main_arg2) := segDN2_keep (F := Ideal) (RB13 m' c) (r := main_arg2) (by decide)
theorem rk14_arg18 (c : Dev nD) : RB14 m' c (Proc.devRef .tc main_arg18) = RB13 m' c (Proc.devRef .tc main_arg18) := segDN2_keep (F := Ideal) (RB13 m' c) (r := main_arg18) (by decide)
theorem rk14_arg19 (c : Dev nD) : RB14 m' c (Proc.devRef .tc main_arg19) = RB13 m' c (Proc.devRef .tc main_arg19) := segDN2_keep (F := Ideal) (RB13 m' c) (r := main_arg19) (by decide)
theorem rk14_arg20 (c : Dev nD) : RB14 m' c (Proc.devRef .tc main_arg20) = RB13 m' c (Proc.devRef .tc main_arg20) := segDN2_keep (F := Ideal) (RB13 m' c) (r := main_arg20) (by decide)
theorem rk15_v1 (c : Dev nD) : RB15 m' c (Proc.devRef .tc main_v1) = RB14 m' c (Proc.devRef .tc main_v1) := segAL2_keep (F := Ideal) (RB14 m' c) (r := main_v1) (by decide)
theorem rp15_v122 (c : Dev nD) : RB15 m' c (Proc.devRef .tc main_v122) = refAL2 (F := Ideal) (RB14 m' c (Proc.devRef .tc main_v108)) (RB14 m' c (Proc.devRef .tc main_v118)) := segAL2_main_v122 (F := Ideal) (RB14 m' c)
theorem rk15_v82 (c : Dev nD) : RB15 m' c (Proc.devRef .tc main_v82) = RB14 m' c (Proc.devRef .tc main_v82) := segAL2_keep (F := Ideal) (RB14 m' c) (r := main_v82) (by decide)
theorem rk15_v3 (c : Dev nD) : RB15 m' c (Proc.devRef .tc main_v3) = RB14 m' c (Proc.devRef .tc main_v3) := segAL2_keep (F := Ideal) (RB14 m' c) (r := main_v3) (by decide)
theorem rk15_arg12 (c : Dev nD) : RB15 m' c (Proc.devRef .tc main_arg12) = RB14 m' c (Proc.devRef .tc main_arg12) := segAL2_keep (F := Ideal) (RB14 m' c) (r := main_arg12) (by decide)
theorem rk15_arg13 (c : Dev nD) : RB15 m' c (Proc.devRef .tc main_arg13) = RB14 m' c (Proc.devRef .tc main_arg13) := segAL2_keep (F := Ideal) (RB14 m' c) (r := main_arg13) (by decide)
theorem rk15_arg14 (c : Dev nD) : RB15 m' c (Proc.devRef .tc main_arg14) = RB14 m' c (Proc.devRef .tc main_arg14) := segAL2_keep (F := Ideal) (RB14 m' c) (r := main_arg14) (by decide)
theorem rk15_arg15 (c : Dev nD) : RB15 m' c (Proc.devRef .tc main_arg15) = RB14 m' c (Proc.devRef .tc main_arg15) := segAL2_keep (F := Ideal) (RB14 m' c) (r := main_arg15) (by decide)
theorem rk15_arg16 (c : Dev nD) : RB15 m' c (Proc.devRef .tc main_arg16) = RB14 m' c (Proc.devRef .tc main_arg16) := segAL2_keep (F := Ideal) (RB14 m' c) (r := main_arg16) (by decide)
theorem rk15_arg17 (c : Dev nD) : RB15 m' c (Proc.devRef .tc main_arg17) = RB14 m' c (Proc.devRef .tc main_arg17) := segAL2_keep (F := Ideal) (RB14 m' c) (r := main_arg17) (by decide)
theorem rk15_arg2 (c : Dev nD) : RB15 m' c (Proc.devRef .tc main_arg2) = RB14 m' c (Proc.devRef .tc main_arg2) := segAL2_keep (F := Ideal) (RB14 m' c) (r := main_arg2) (by decide)
theorem rk15_arg18 (c : Dev nD) : RB15 m' c (Proc.devRef .tc main_arg18) = RB14 m' c (Proc.devRef .tc main_arg18) := segAL2_keep (F := Ideal) (RB14 m' c) (r := main_arg18) (by decide)
theorem rk15_arg19 (c : Dev nD) : RB15 m' c (Proc.devRef .tc main_arg19) = RB14 m' c (Proc.devRef .tc main_arg19) := segAL2_keep (F := Ideal) (RB14 m' c) (r := main_arg19) (by decide)
theorem rk15_arg20 (c : Dev nD) : RB15 m' c (Proc.devRef .tc main_arg20) = RB14 m' c (Proc.devRef .tc main_arg20) := segAL2_keep (F := Ideal) (RB14 m' c) (r := main_arg20) (by decide)
theorem rk16_v1 (c : Dev nD) : RB16 m' c (Proc.devRef .tc main_v1) = RB15 m' c (Proc.devRef .tc main_v1) := segHG2_keep (F := Ideal) (RB15 m' c) (r := main_v1) (by decide)
theorem rk16_v122 (c : Dev nD) : RB16 m' c (Proc.devRef .tc main_v122) = RB15 m' c (Proc.devRef .tc main_v122) := segHG2_keep (F := Ideal) (RB15 m' c) (r := main_v122) (by decide)
theorem rp16_v129 (c : Dev nD) : RB16 m' c (Proc.devRef .tc main_v129) = Cert.KernelIdeal.Stages.st6_v93 (RB15 m' c (Proc.devRef .tc main_v82)) (RB15 m' c (Proc.devRef .tc main_v3)) := segHG2_main_v129 (F := Ideal) (RB15 m' c)
theorem rk16_arg12 (c : Dev nD) : RB16 m' c (Proc.devRef .tc main_arg12) = RB15 m' c (Proc.devRef .tc main_arg12) := segHG2_keep (F := Ideal) (RB15 m' c) (r := main_arg12) (by decide)
theorem rk16_arg13 (c : Dev nD) : RB16 m' c (Proc.devRef .tc main_arg13) = RB15 m' c (Proc.devRef .tc main_arg13) := segHG2_keep (F := Ideal) (RB15 m' c) (r := main_arg13) (by decide)
theorem rk16_arg14 (c : Dev nD) : RB16 m' c (Proc.devRef .tc main_arg14) = RB15 m' c (Proc.devRef .tc main_arg14) := segHG2_keep (F := Ideal) (RB15 m' c) (r := main_arg14) (by decide)
theorem rk16_arg15 (c : Dev nD) : RB16 m' c (Proc.devRef .tc main_arg15) = RB15 m' c (Proc.devRef .tc main_arg15) := segHG2_keep (F := Ideal) (RB15 m' c) (r := main_arg15) (by decide)
theorem rk16_arg16 (c : Dev nD) : RB16 m' c (Proc.devRef .tc main_arg16) = RB15 m' c (Proc.devRef .tc main_arg16) := segHG2_keep (F := Ideal) (RB15 m' c) (r := main_arg16) (by decide)
theorem rk16_arg17 (c : Dev nD) : RB16 m' c (Proc.devRef .tc main_arg17) = RB15 m' c (Proc.devRef .tc main_arg17) := segHG2_keep (F := Ideal) (RB15 m' c) (r := main_arg17) (by decide)
theorem rk16_v3 (c : Dev nD) : RB16 m' c (Proc.devRef .tc main_v3) = RB15 m' c (Proc.devRef .tc main_v3) := segHG2_keep (F := Ideal) (RB15 m' c) (r := main_v3) (by decide)
theorem rk16_arg2 (c : Dev nD) : RB16 m' c (Proc.devRef .tc main_arg2) = RB15 m' c (Proc.devRef .tc main_arg2) := segHG2_keep (F := Ideal) (RB15 m' c) (r := main_arg2) (by decide)
theorem rk16_arg18 (c : Dev nD) : RB16 m' c (Proc.devRef .tc main_arg18) = RB15 m' c (Proc.devRef .tc main_arg18) := segHG2_keep (F := Ideal) (RB15 m' c) (r := main_arg18) (by decide)
theorem rk16_arg19 (c : Dev nD) : RB16 m' c (Proc.devRef .tc main_arg19) = RB15 m' c (Proc.devRef .tc main_arg19) := segHG2_keep (F := Ideal) (RB15 m' c) (r := main_arg19) (by decide)
theorem rk16_arg20 (c : Dev nD) : RB16 m' c (Proc.devRef .tc main_arg20) = RB15 m' c (Proc.devRef .tc main_arg20) := segHG2_keep (F := Ideal) (RB15 m' c) (r := main_arg20) (by decide)
theorem rk17_v1 (c : Dev nD) : RB17 m' c (Proc.devRef .tc main_v1) = RB16 m' c (Proc.devRef .tc main_v1) := segMS2_keep (F := Ideal) (RB16 m' c) (r := main_v1) (by decide)
theorem rp17_v131 (c : Dev nD) : RB17 m' c (Proc.devRef .tc main_v131) = refMS2 (F := Ideal) (RB16 m' c (Proc.devRef .tc main_v122)) (RB16 m' c (Proc.devRef .tc main_v129)) := segMS2_main_v131 (F := Ideal) (RB16 m' c)
theorem rk17_arg12 (c : Dev nD) : RB17 m' c (Proc.devRef .tc main_arg12) = RB16 m' c (Proc.devRef .tc main_arg12) := segMS2_keep (F := Ideal) (RB16 m' c) (r := main_arg12) (by decide)
theorem rk17_arg13 (c : Dev nD) : RB17 m' c (Proc.devRef .tc main_arg13) = RB16 m' c (Proc.devRef .tc main_arg13) := segMS2_keep (F := Ideal) (RB16 m' c) (r := main_arg13) (by decide)
theorem rk17_arg14 (c : Dev nD) : RB17 m' c (Proc.devRef .tc main_arg14) = RB16 m' c (Proc.devRef .tc main_arg14) := segMS2_keep (F := Ideal) (RB16 m' c) (r := main_arg14) (by decide)
theorem rk17_arg15 (c : Dev nD) : RB17 m' c (Proc.devRef .tc main_arg15) = RB16 m' c (Proc.devRef .tc main_arg15) := segMS2_keep (F := Ideal) (RB16 m' c) (r := main_arg15) (by decide)
theorem rk17_arg16 (c : Dev nD) : RB17 m' c (Proc.devRef .tc main_arg16) = RB16 m' c (Proc.devRef .tc main_arg16) := segMS2_keep (F := Ideal) (RB16 m' c) (r := main_arg16) (by decide)
theorem rk17_arg17 (c : Dev nD) : RB17 m' c (Proc.devRef .tc main_arg17) = RB16 m' c (Proc.devRef .tc main_arg17) := segMS2_keep (F := Ideal) (RB16 m' c) (r := main_arg17) (by decide)
theorem rk17_v3 (c : Dev nD) : RB17 m' c (Proc.devRef .tc main_v3) = RB16 m' c (Proc.devRef .tc main_v3) := segMS2_keep (F := Ideal) (RB16 m' c) (r := main_v3) (by decide)
theorem rk17_arg2 (c : Dev nD) : RB17 m' c (Proc.devRef .tc main_arg2) = RB16 m' c (Proc.devRef .tc main_arg2) := segMS2_keep (F := Ideal) (RB16 m' c) (r := main_arg2) (by decide)
theorem rk17_arg18 (c : Dev nD) : RB17 m' c (Proc.devRef .tc main_arg18) = RB16 m' c (Proc.devRef .tc main_arg18) := segMS2_keep (F := Ideal) (RB16 m' c) (r := main_arg18) (by decide)
theorem rk17_arg19 (c : Dev nD) : RB17 m' c (Proc.devRef .tc main_arg19) = RB16 m' c (Proc.devRef .tc main_arg19) := segMS2_keep (F := Ideal) (RB16 m' c) (r := main_arg19) (by decide)
theorem rk17_arg20 (c : Dev nD) : RB17 m' c (Proc.devRef .tc main_arg20) = RB16 m' c (Proc.devRef .tc main_arg20) := segMS2_keep (F := Ideal) (RB16 m' c) (r := main_arg20) (by decide)
theorem rp18_v135 (c : Dev nD) : RB18 m' c (Proc.devRef .tc main_v135) = Cert.KernelIdeal.Stages.st7_v98 (RB17 m' c (Proc.devRef .tc main_v1)) (RB17 m' c (Proc.devRef .tc main_v131)) := segAG2_main_v135 (F := Ideal) (RB17 m' c)
theorem rk18_arg12 (c : Dev nD) : RB18 m' c (Proc.devRef .tc main_arg12) = RB17 m' c (Proc.devRef .tc main_arg12) := segAG2_keep (F := Ideal) (RB17 m' c) (r := main_arg12) (by decide)
theorem rk18_arg13 (c : Dev nD) : RB18 m' c (Proc.devRef .tc main_arg13) = RB17 m' c (Proc.devRef .tc main_arg13) := segAG2_keep (F := Ideal) (RB17 m' c) (r := main_arg13) (by decide)
theorem rk18_arg14 (c : Dev nD) : RB18 m' c (Proc.devRef .tc main_arg14) = RB17 m' c (Proc.devRef .tc main_arg14) := segAG2_keep (F := Ideal) (RB17 m' c) (r := main_arg14) (by decide)
theorem rk18_v1 (c : Dev nD) : RB18 m' c (Proc.devRef .tc main_v1) = RB17 m' c (Proc.devRef .tc main_v1) := segAG2_keep (F := Ideal) (RB17 m' c) (r := main_v1) (by decide)
theorem rk18_arg15 (c : Dev nD) : RB18 m' c (Proc.devRef .tc main_arg15) = RB17 m' c (Proc.devRef .tc main_arg15) := segAG2_keep (F := Ideal) (RB17 m' c) (r := main_arg15) (by decide)
theorem rk18_arg16 (c : Dev nD) : RB18 m' c (Proc.devRef .tc main_arg16) = RB17 m' c (Proc.devRef .tc main_arg16) := segAG2_keep (F := Ideal) (RB17 m' c) (r := main_arg16) (by decide)
theorem rk18_arg17 (c : Dev nD) : RB18 m' c (Proc.devRef .tc main_arg17) = RB17 m' c (Proc.devRef .tc main_arg17) := segAG2_keep (F := Ideal) (RB17 m' c) (r := main_arg17) (by decide)
theorem rk18_v3 (c : Dev nD) : RB18 m' c (Proc.devRef .tc main_v3) = RB17 m' c (Proc.devRef .tc main_v3) := segAG2_keep (F := Ideal) (RB17 m' c) (r := main_v3) (by decide)
theorem rk18_arg2 (c : Dev nD) : RB18 m' c (Proc.devRef .tc main_arg2) = RB17 m' c (Proc.devRef .tc main_arg2) := segAG2_keep (F := Ideal) (RB17 m' c) (r := main_arg2) (by decide)
theorem rk18_arg18 (c : Dev nD) : RB18 m' c (Proc.devRef .tc main_arg18) = RB17 m' c (Proc.devRef .tc main_arg18) := segAG2_keep (F := Ideal) (RB17 m' c) (r := main_arg18) (by decide)
theorem rk18_arg19 (c : Dev nD) : RB18 m' c (Proc.devRef .tc main_arg19) = RB17 m' c (Proc.devRef .tc main_arg19) := segAG2_keep (F := Ideal) (RB17 m' c) (r := main_arg19) (by decide)
theorem rk18_arg20 (c : Dev nD) : RB18 m' c (Proc.devRef .tc main_arg20) = RB17 m' c (Proc.devRef .tc main_arg20) := segAG2_keep (F := Ideal) (RB17 m' c) (r := main_arg20) (by decide)
theorem rp19_v157 (c : Dev nD) : RB19 m' c (Proc.devRef .tc main_v157) = refLN2 (F := Ideal) (RB18 m' c (Proc.devRef .tc main_v135)) ((broadcastInDim S1x256 ![1] bcast_S256_S1x256_1 : (⟨S256, .f32⟩ : BufTy).Contents (Elt Ideal) → (⟨S1x256, .f32⟩ : BufTy).Contents (Elt Ideal)) (RB18 m' c (Proc.devRef .tc main_arg12))) ((broadcastInDim S1x256 ![1] bcast_S256_S1x256_1 : (⟨S256, .f32⟩ : BufTy).Contents (Elt Ideal) → (⟨S1x256, .f32⟩ : BufTy).Contents (Elt Ideal)) (RB18 m' c (Proc.devRef .tc main_arg13))) ((broadcastInDim S1x256 ![1] bcast_S256_S1x256_1 : (⟨S256, .f32⟩ : BufTy).Contents (Elt Ideal) → (⟨S1x256, .f32⟩ : BufTy).Contents (Elt Ideal)) (RB18 m' c (Proc.devRef .tc main_arg14))) := segLN2_main_v157 (F := Ideal) (RB18 m' c)
theorem rk19_v1 (c : Dev nD) : RB19 m' c (Proc.devRef .tc main_v1) = RB18 m' c (Proc.devRef .tc main_v1) := segLN2_keep (F := Ideal) (RB18 m' c) (r := main_v1) (by decide)
theorem rk19_arg15 (c : Dev nD) : RB19 m' c (Proc.devRef .tc main_arg15) = RB18 m' c (Proc.devRef .tc main_arg15) := segLN2_keep (F := Ideal) (RB18 m' c) (r := main_arg15) (by decide)
theorem rk19_arg16 (c : Dev nD) : RB19 m' c (Proc.devRef .tc main_arg16) = RB18 m' c (Proc.devRef .tc main_arg16) := segLN2_keep (F := Ideal) (RB18 m' c) (r := main_arg16) (by decide)
theorem rk19_arg17 (c : Dev nD) : RB19 m' c (Proc.devRef .tc main_arg17) = RB18 m' c (Proc.devRef .tc main_arg17) := segLN2_keep (F := Ideal) (RB18 m' c) (r := main_arg17) (by decide)
theorem rk19_v3 (c : Dev nD) : RB19 m' c (Proc.devRef .tc main_v3) = RB18 m' c (Proc.devRef .tc main_v3) := segLN2_keep (F := Ideal) (RB18 m' c) (r := main_v3) (by decide)
theorem rk19_arg2 (c : Dev nD) : RB19 m' c (Proc.devRef .tc main_arg2) = RB18 m' c (Proc.devRef .tc main_arg2) := segLN2_keep (F := Ideal) (RB18 m' c) (r := main_arg2) (by decide)
theorem rk19_arg18 (c : Dev nD) : RB19 m' c (Proc.devRef .tc main_arg18) = RB18 m' c (Proc.devRef .tc main_arg18) := segLN2_keep (F := Ideal) (RB18 m' c) (r := main_arg18) (by decide)
theorem rk19_arg19 (c : Dev nD) : RB19 m' c (Proc.devRef .tc main_arg19) = RB18 m' c (Proc.devRef .tc main_arg19) := segLN2_keep (F := Ideal) (RB18 m' c) (r := main_arg19) (by decide)
theorem rk19_arg20 (c : Dev nD) : RB19 m' c (Proc.devRef .tc main_arg20) = RB18 m' c (Proc.devRef .tc main_arg20) := segLN2_keep (F := Ideal) (RB18 m' c) (r := main_arg20) (by decide)
theorem rk20_v1 (c : Dev nD) : RB20 m' c (Proc.devRef .tc main_v1) = RB19 m' c (Proc.devRef .tc main_v1) := segMM3_keep (F := Ideal) (RB19 m' c) (r := main_v1) (by decide)
theorem rp20_v158 (c : Dev nD) : RB20 m' c (Proc.devRef .tc main_v158) = refMM3 (F := Ideal) (RB19 m' c (Proc.devRef .tc main_v157)) (RB19 m' c (Proc.devRef .tc main_arg15)) := segMM3_main_v158 (F := Ideal) (RB19 m' c)
theorem rk20_arg16 (c : Dev nD) : RB20 m' c (Proc.devRef .tc main_arg16) = RB19 m' c (Proc.devRef .tc main_arg16) := segMM3_keep (F := Ideal) (RB19 m' c) (r := main_arg16) (by decide)
theorem rk20_arg17 (c : Dev nD) : RB20 m' c (Proc.devRef .tc main_arg17) = RB19 m' c (Proc.devRef .tc main_arg17) := segMM3_keep (F := Ideal) (RB19 m' c) (r := main_arg17) (by decide)
theorem rk20_v3 (c : Dev nD) : RB20 m' c (Proc.devRef .tc main_v3) = RB19 m' c (Proc.devRef .tc main_v3) := segMM3_keep (F := Ideal) (RB19 m' c) (r := main_v3) (by decide)
theorem rk20_arg2 (c : Dev nD) : RB20 m' c (Proc.devRef .tc main_arg2) = RB19 m' c (Proc.devRef .tc main_arg2) := segMM3_keep (F := Ideal) (RB19 m' c) (r := main_arg2) (by decide)
theorem rk20_arg18 (c : Dev nD) : RB20 m' c (Proc.devRef .tc main_arg18) = RB19 m' c (Proc.devRef .tc main_arg18) := segMM3_keep (F := Ideal) (RB19 m' c) (r := main_arg18) (by decide)
theorem rk20_arg19 (c : Dev nD) : RB20 m' c (Proc.devRef .tc main_arg19) = RB19 m' c (Proc.devRef .tc main_arg19) := segMM3_keep (F := Ideal) (RB19 m' c) (r := main_arg19) (by decide)
theorem rk20_arg20 (c : Dev nD) : RB20 m' c (Proc.devRef .tc main_arg20) = RB19 m' c (Proc.devRef .tc main_arg20) := segMM3_keep (F := Ideal) (RB19 m' c) (r := main_arg20) (by decide)
theorem rk21_v1 (c : Dev nD) : RB21 m' c (Proc.devRef .tc main_v1) = RB20 m' c (Proc.devRef .tc main_v1) := segSC3_keep (F := Ideal) (RB20 m' c) (r := main_v1) (by decide)
theorem rp21_v172 (c : Dev nD) : RB21 m' c (Proc.devRef .tc main_v172) = Cert.KernelIdeal.Stages.st9_v117 (RB20 m' c (Proc.devRef .tc main_v158)) (RB20 m' c (Proc.devRef .tc main_arg16)) (RB20 m' c (Proc.devRef .tc main_v1)) := segSC3_main_v172 (F := Ideal) (RB20 m' c)
theorem rp21_v179 (c : Dev nD) : RB21 m' c (Proc.devRef .tc main_v179) = Cert.KernelIdeal.Stages.st9_v124 (RB20 m' c (Proc.devRef .tc main_v158)) (RB20 m' c (Proc.devRef .tc main_arg17)) (RB20 m' c (Proc.devRef .tc main_v3)) := segSC3_main_v179 (F := Ideal) (RB20 m' c)
theorem rk21_arg2 (c : Dev nD) : RB21 m' c (Proc.devRef .tc main_arg2) = RB20 m' c (Proc.devRef .tc main_arg2) := segSC3_keep (F := Ideal) (RB20 m' c) (r := main_arg2) (by decide)
theorem rk21_v3 (c : Dev nD) : RB21 m' c (Proc.devRef .tc main_v3) = RB20 m' c (Proc.devRef .tc main_v3) := segSC3_keep (F := Ideal) (RB20 m' c) (r := main_v3) (by decide)
theorem rp21_v159 (c : Dev nD) : RB21 m' c (Proc.devRef .tc main_v159) = Cert.KernelIdeal.Stages.st9_v104 (RB20 m' c (Proc.devRef .tc main_v158)) := segSC3_main_v159 (F := Ideal) (RB20 m' c)
theorem rk21_arg18 (c : Dev nD) : RB21 m' c (Proc.devRef .tc main_arg18) = RB20 m' c (Proc.devRef .tc main_arg18) := segSC3_keep (F := Ideal) (RB20 m' c) (r := main_arg18) (by decide)
theorem rk21_arg19 (c : Dev nD) : RB21 m' c (Proc.devRef .tc main_arg19) = RB20 m' c (Proc.devRef .tc main_arg19) := segSC3_keep (F := Ideal) (RB20 m' c) (r := main_arg19) (by decide)
theorem rk21_arg20 (c : Dev nD) : RB21 m' c (Proc.devRef .tc main_arg20) = RB20 m' c (Proc.devRef .tc main_arg20) := segSC3_keep (F := Ideal) (RB20 m' c) (r := main_arg20) (by decide)
theorem rk22_v1 (c : Dev nD) : RB22 m' c (Proc.devRef .tc main_v1) = RB21 m' c (Proc.devRef .tc main_v1) := segAT3_keep (F := Ideal) (RB21 m' c) (r := main_v1) (by decide)
theorem rp22_v184 (c : Dev nD) : RB22 m' c (Proc.devRef .tc main_v184) = refAT3 (F := Ideal) (RB21 m' c (Proc.devRef .tc main_v172)) (RB21 m' c (Proc.devRef .tc main_v179)) ((broadcastInDim S500000x1 ![0] bcast_S500000_S500000x1_0 : (⟨S500000, .f32⟩ : BufTy).Contents (Elt Ideal) → (⟨S500000x1, .f32⟩ : BufTy).Contents (Elt Ideal)) (RB21 m' c (Proc.devRef .tc main_arg2))) := segAT3_main_v184 (F := Ideal) (RB21 m' c)
theorem rk22_v3 (c : Dev nD) : RB22 m' c (Proc.devRef .tc main_v3) = RB21 m' c (Proc.devRef .tc main_v3) := segAT3_keep (F := Ideal) (RB21 m' c) (r := main_v3) (by decide)
theorem rk22_v159 (c : Dev nD) : RB22 m' c (Proc.devRef .tc main_v159) = RB21 m' c (Proc.devRef .tc main_v159) := segAT3_keep (F := Ideal) (RB21 m' c) (r := main_v159) (by decide)
theorem rk22_arg18 (c : Dev nD) : RB22 m' c (Proc.devRef .tc main_arg18) = RB21 m' c (Proc.devRef .tc main_arg18) := segAT3_keep (F := Ideal) (RB21 m' c) (r := main_arg18) (by decide)
theorem rk22_arg19 (c : Dev nD) : RB22 m' c (Proc.devRef .tc main_arg19) = RB21 m' c (Proc.devRef .tc main_arg19) := segAT3_keep (F := Ideal) (RB21 m' c) (r := main_arg19) (by decide)
theorem rk22_arg20 (c : Dev nD) : RB22 m' c (Proc.devRef .tc main_arg20) = RB21 m' c (Proc.devRef .tc main_arg20) := segAT3_keep (F := Ideal) (RB21 m' c) (r := main_arg20) (by decide)
theorem rk23_v1 (c : Dev nD) : RB23 m' c (Proc.devRef .tc main_v1) = RB22 m' c (Proc.devRef .tc main_v1) := segDN3_keep (F := Ideal) (RB22 m' c) (r := main_v1) (by decide)
theorem rk23_v184 (c : Dev nD) : RB23 m' c (Proc.devRef .tc main_v184) = RB22 m' c (Proc.devRef .tc main_v184) := segDN3_keep (F := Ideal) (RB22 m' c) (r := main_v184) (by decide)
theorem rp23_v194 (c : Dev nD) : RB23 m' c (Proc.devRef .tc main_v194) = Cert.KernelIdeal.Stages.st10_v135 (RB22 m' c (Proc.devRef .tc main_v3)) (RB22 m' c (Proc.devRef .tc main_v184)) := segDN3_main_v194 (F := Ideal) (RB22 m' c)
theorem rk23_v159 (c : Dev nD) : RB23 m' c (Proc.devRef .tc main_v159) = RB22 m' c (Proc.devRef .tc main_v159) := segDN3_keep (F := Ideal) (RB22 m' c) (r := main_v159) (by decide)
theorem rk23_v3 (c : Dev nD) : RB23 m' c (Proc.devRef .tc main_v3) = RB22 m' c (Proc.devRef .tc main_v3) := segDN3_keep (F := Ideal) (RB22 m' c) (r := main_v3) (by decide)
theorem rk23_arg18 (c : Dev nD) : RB23 m' c (Proc.devRef .tc main_arg18) = RB22 m' c (Proc.devRef .tc main_arg18) := segDN3_keep (F := Ideal) (RB22 m' c) (r := main_arg18) (by decide)
theorem rk23_arg19 (c : Dev nD) : RB23 m' c (Proc.devRef .tc main_arg19) = RB22 m' c (Proc.devRef .tc main_arg19) := segDN3_keep (F := Ideal) (RB22 m' c) (r := main_arg19) (by decide)
theorem rk23_arg20 (c : Dev nD) : RB23 m' c (Proc.devRef .tc main_arg20) = RB22 m' c (Proc.devRef .tc main_arg20) := segDN3_keep (F := Ideal) (RB22 m' c) (r := main_arg20) (by decide)
theorem rk24_v1 (c : Dev nD) : RB24 m' c (Proc.devRef .tc main_v1) = RB23 m' c (Proc.devRef .tc main_v1) := segAL3_keep (F := Ideal) (RB23 m' c) (r := main_v1) (by decide)
theorem rp24_v198 (c : Dev nD) : RB24 m' c (Proc.devRef .tc main_v198) = refAL3 (F := Ideal) (RB23 m' c (Proc.devRef .tc main_v184)) (RB23 m' c (Proc.devRef .tc main_v194)) := segAL3_main_v198 (F := Ideal) (RB23 m' c)
theorem rk24_v159 (c : Dev nD) : RB24 m' c (Proc.devRef .tc main_v159) = RB23 m' c (Proc.devRef .tc main_v159) := segAL3_keep (F := Ideal) (RB23 m' c) (r := main_v159) (by decide)
theorem rk24_v3 (c : Dev nD) : RB24 m' c (Proc.devRef .tc main_v3) = RB23 m' c (Proc.devRef .tc main_v3) := segAL3_keep (F := Ideal) (RB23 m' c) (r := main_v3) (by decide)
theorem rk24_arg18 (c : Dev nD) : RB24 m' c (Proc.devRef .tc main_arg18) = RB23 m' c (Proc.devRef .tc main_arg18) := segAL3_keep (F := Ideal) (RB23 m' c) (r := main_arg18) (by decide)
theorem rk24_arg19 (c : Dev nD) : RB24 m' c (Proc.devRef .tc main_arg19) = RB23 m' c (Proc.devRef .tc main_arg19) := segAL3_keep (F := Ideal) (RB23 m' c) (r := main_arg19) (by decide)
theorem rk24_arg20 (c : Dev nD) : RB24 m' c (Proc.devRef .tc main_arg20) = RB23 m' c (Proc.devRef .tc main_arg20) := segAL3_keep (F := Ideal) (RB23 m' c) (r := main_arg20) (by decide)
theorem rk25_v1 (c : Dev nD) : RB25 m' c (Proc.devRef .tc main_v1) = RB24 m' c (Proc.devRef .tc main_v1) := segHG3_keep (F := Ideal) (RB24 m' c) (r := main_v1) (by decide)
theorem rk25_v198 (c : Dev nD) : RB25 m' c (Proc.devRef .tc main_v198) = RB24 m' c (Proc.devRef .tc main_v198) := segHG3_keep (F := Ideal) (RB24 m' c) (r := main_v198) (by decide)
theorem rp25_v205 (c : Dev nD) : RB25 m' c (Proc.devRef .tc main_v205) = Cert.KernelIdeal.Stages.st10_v142 (RB24 m' c (Proc.devRef .tc main_v159)) (RB24 m' c (Proc.devRef .tc main_v3)) := segHG3_main_v205 (F := Ideal) (RB24 m' c)
theorem rk25_arg18 (c : Dev nD) : RB25 m' c (Proc.devRef .tc main_arg18) = RB24 m' c (Proc.devRef .tc main_arg18) := segHG3_keep (F := Ideal) (RB24 m' c) (r := main_arg18) (by decide)
theorem rk25_arg19 (c : Dev nD) : RB25 m' c (Proc.devRef .tc main_arg19) = RB24 m' c (Proc.devRef .tc main_arg19) := segHG3_keep (F := Ideal) (RB24 m' c) (r := main_arg19) (by decide)
theorem rk25_arg20 (c : Dev nD) : RB25 m' c (Proc.devRef .tc main_arg20) = RB24 m' c (Proc.devRef .tc main_arg20) := segHG3_keep (F := Ideal) (RB24 m' c) (r := main_arg20) (by decide)
theorem rk26_v1 (c : Dev nD) : RB26 m' c (Proc.devRef .tc main_v1) = RB25 m' c (Proc.devRef .tc main_v1) := segMS3_keep (F := Ideal) (RB25 m' c) (r := main_v1) (by decide)
theorem rp26_v207 (c : Dev nD) : RB26 m' c (Proc.devRef .tc main_v207) = refMS3 (F := Ideal) (RB25 m' c (Proc.devRef .tc main_v198)) (RB25 m' c (Proc.devRef .tc main_v205)) := segMS3_main_v207 (F := Ideal) (RB25 m' c)
theorem rk26_arg18 (c : Dev nD) : RB26 m' c (Proc.devRef .tc main_arg18) = RB25 m' c (Proc.devRef .tc main_arg18) := segMS3_keep (F := Ideal) (RB25 m' c) (r := main_arg18) (by decide)
theorem rk26_arg19 (c : Dev nD) : RB26 m' c (Proc.devRef .tc main_arg19) = RB25 m' c (Proc.devRef .tc main_arg19) := segMS3_keep (F := Ideal) (RB25 m' c) (r := main_arg19) (by decide)
theorem rk26_arg20 (c : Dev nD) : RB26 m' c (Proc.devRef .tc main_arg20) = RB25 m' c (Proc.devRef .tc main_arg20) := segMS3_keep (F := Ideal) (RB25 m' c) (r := main_arg20) (by decide)
theorem rp27_v213 (c : Dev nD) : RB27 m' c (Proc.devRef .tc main_v213) = Cert.KernelIdeal.Stages.st11_v149 (RB26 m' c (Proc.devRef .tc main_v1)) (RB26 m' c (Proc.devRef .tc main_v207)) := segAG3_main_v213 (F := Ideal) (RB26 m' c)
theorem rk27_arg18 (c : Dev nD) : RB27 m' c (Proc.devRef .tc main_arg18) = RB26 m' c (Proc.devRef .tc main_arg18) := segAG3_keep (F := Ideal) (RB26 m' c) (r := main_arg18) (by decide)
theorem rk27_arg19 (c : Dev nD) : RB27 m' c (Proc.devRef .tc main_arg19) = RB26 m' c (Proc.devRef .tc main_arg19) := segAG3_keep (F := Ideal) (RB26 m' c) (r := main_arg19) (by decide)
theorem rk27_arg20 (c : Dev nD) : RB27 m' c (Proc.devRef .tc main_arg20) = RB26 m' c (Proc.devRef .tc main_arg20) := segAG3_keep (F := Ideal) (RB26 m' c) (r := main_arg20) (by decide)
theorem rp28_v234 (c : Dev nD) : RB28 m' c (Proc.devRef .tc main_v234) = refLN3 (F := Ideal) (RB27 m' c (Proc.devRef .tc main_v213)) ((broadcastInDim S1x128 ![1] bcast_S128_S1x128_1 : (⟨S128, .f32⟩ : BufTy).Contents (Elt Ideal) → (⟨S1x128, .f32⟩ : BufTy).Contents (Elt Ideal)) (RB27 m' c (Proc.devRef .tc main_arg18))) ((broadcastInDim S1x128 ![1] bcast_S128_S1x128_1 : (⟨S128, .f32⟩ : BufTy).Contents (Elt Ideal) → (⟨S1x128, .f32⟩ : BufTy).Contents (Elt Ideal)) (RB27 m' c (Proc.devRef .tc main_arg19))) ((broadcastInDim S1x128 ![1] bcast_S128_S1x128_1 : (⟨S128, .f32⟩ : BufTy).Contents (Elt Ideal) → (⟨S1x128, .f32⟩ : BufTy).Contents (Elt Ideal)) (RB27 m' c (Proc.devRef .tc main_arg20))) := segLN3_main_v234 (F := Ideal) (RB27 m' c)

end Cert.ReferenceIdeal.Chain

end
-- ==== Proof.Layout.lean ====
/-
  Two layout facts. Spreading a vector of length `n` into a column `[n, 1]` along axis 0, or a vector of length `d`
  into a row `[1, d]` along axis 1, reads entry `(i, 0)` resp. `(0, k)` at the vector's entry `i` resp. `k` — exactly
  what reshaping the vector to that column or row reads. So the broadcast and the reshape are the same array.
-/
import Idealize.ShloMosaic.Lib.Pipeline.Value
import Idealize.ShloMosaic.Lib.ValueIdx
import Idealize.ShloMosaic.Lib.ValueLayout

noncomputable section

namespace Cert.GatLayout

open Idealize.ShloMosaic Idealize.ShloMosaic.ValueIdx

variable {α : Type}

/-- A vector spread into a column is the vector reshaped to that column. -/
theorem bcast_col_eq_cast {n : ℕ} (hn : n ≠ 1) (x : (⟨1, ![n]⟩ : Shape).Idx → α)
    (hb : (⟨1, ![n]⟩ : Shape).BroadcastsInDim ⟨2, ![n, 1]⟩ ![0]) (hc : (⟨1, ![n]⟩ : Shape).ShapeCasts ⟨2, ![n, 1]⟩) :
    broadcastInDim ⟨2, ![n, 1]⟩ ![0] hb x = shapeCast ⟨2, ![n, 1]⟩ x hc := by
  funext j
  have h1 : (j 1).val = 0 := by
    have h := (j 1).isLt
    have e : (⟨2, ![n, 1]⟩ : Shape).size 1 = 1 := rfl
    omega
  have hj0 : (j 0).val < n := (j 0).isLt
  let k : (⟨1, ![n]⟩ : Shape).Idx := ix1 ⟨(j 0).val, hj0⟩
  rw [broadcastInDim_apply ![0] hb x j k (by
        intro a
        have ea : a = 0 := Subsingleton.elim _ _
        subst ea
        show (j 0).val = if n = 1 then 0 else (j 0).val
        rw [if_neg hn]),
    shapeCast_apply x hc j k (by
        rw [Shape.rowMajor_val_one, Shape.rowMajor_val_two]
        show (j 0).val = (j 0).val * 1 + (j 1).val
        omega)]

/-- A vector spread into a row is the vector reshaped to that row. -/
theorem bcast_row_eq_cast {d : ℕ} (hd : d ≠ 1) (x : (⟨1, ![d]⟩ : Shape).Idx → α)
    (hb : (⟨1, ![d]⟩ : Shape).BroadcastsInDim ⟨2, ![1, d]⟩ ![1]) (hc : (⟨1, ![d]⟩ : Shape).ShapeCasts ⟨2, ![1, d]⟩) :
    broadcastInDim ⟨2, ![1, d]⟩ ![1] hb x = shapeCast ⟨2, ![1, d]⟩ x hc := by
  funext j
  have h0 : (j 0).val = 0 := by
    have h := (j 0).isLt
    have e : (⟨2, ![1, d]⟩ : Shape).size 0 = 1 := rfl
    omega
  have hj1 : (j 1).val < d := (j 1).isLt
  let k : (⟨1, ![d]⟩ : Shape).Idx := ix1 ⟨(j 1).val, hj1⟩
  rw [broadcastInDim_apply ![1] hb x j k (by
        intro a
        have ea : a = 0 := Subsingleton.elim _ _
        subst ea
        show (j 1).val = if d = 1 then 0 else (j 1).val
        rw [if_neg hd]),
    shapeCast_apply x hc j k (by
        rw [Shape.rowMajor_val_one, Shape.rowMajor_val_two]
        show (j 1).val = (j 0).val * d + (j 1).val
        rw [h0]; omega)]

end Cert.GatLayout

end
-- ==== Proof.RLayers.lean ====
/-
  The reference program computes each layer function, with its own spelling of the four region functions: the dense
  projection as a host matrix product, the attention scores and messages as host elementwise chains, the normalisation
  through the host mean / variance / square root. (A vector spread into a column or a row is that vector reshaped:
  the two programs differ there only in spelling.)
-/
import proofs.«158057_j81853486727297_2_alg».proof.Proof.RChain
import proofs.«158057_j81853486727297_2_alg».proof.Proof.Net
import proofs.«158057_j81853486727297_2_alg».proof.Proof.Layout

set_option maxRecDepth 16384

noncomputable section

namespace Cert.ReferenceIdeal.Layers

open Cert.ReferenceIdeal Cert.ReferenceIdeal.Gen Cert.ReferenceIdeal.RefRun Cert.ReferenceIdeal.Chain
open Idealize.ShloMosaic Idealize.ShloMosaic.TcCoe Idealize.SL.Sem Idealize.ShloMosaic.StableHlo

/-- The edge weights spread into a column are the edge weights reshaped to that column. -/
theorem col_eq (x : (⟨S500000, .f32⟩ : BufTy).Contents (Elt Ideal)) :
    (broadcastInDim S500000x1 ![0] bcast_S500000_S500000x1_0 : (⟨S500000, .f32⟩ : BufTy).Contents (Elt Ideal) → (⟨S500000x1, .f32⟩ : BufTy).Contents (Elt Ideal)) x = Cert.KernelIdeal.Stages.st0_v4 x :=
  Cert.GatLayout.bcast_col_eq_cast (by decide) x _ _

/-- A parameter vector of length 256 spread into a row is that vector reshaped to the row. -/
theorem row50 (x : (⟨S256, .f32⟩ : BufTy).Contents (Elt Ideal)) :
    (broadcastInDim S1x256 ![1] bcast_S256_S1x256_1 : (⟨S256, .f32⟩ : BufTy).Contents (Elt Ideal) → (⟨S1x256, .f32⟩ : BufTy).Contents (Elt Ideal)) x = Cert.KernelIdeal.Stages.st3_v50 x :=
  Cert.GatLayout.bcast_row_eq_cast (by decide) x _ _

/-- A parameter vector of length 256 spread into a row is that vector reshaped to the row. -/
theorem row51 (x : (⟨S256, .f32⟩ : BufTy).Contents (Elt Ideal)) :
    (broadcastInDim S1x256 ![1] bcast_S256_S1x256_1 : (⟨S256, .f32⟩ : BufTy).Contents (Elt Ideal) → (⟨S1x256, .f32⟩ : BufTy).Contents (Elt Ideal)) x = Cert.KernelIdeal.Stages.st3_v51 x :=
  Cert.GatLayout.bcast_row_eq_cast (by decide) x _ _

/-- A parameter vector of length 256 spread into a row is that vector reshaped to the row. -/
theorem row52 (x : (⟨S256, .f32⟩ : BufTy).Contents (Elt Ideal)) :
    (broadcastInDim S1x256 ![1] bcast_S256_S1x256_1 : (⟨S256, .f32⟩ : BufTy).Contents (Elt Ideal) → (⟨S1x256, .f32⟩ : BufTy).Contents (Elt Ideal)) x = Cert.KernelIdeal.Stages.st3_v52 x :=
  Cert.GatLayout.bcast_row_eq_cast (by decide) x _ _

/-- A parameter vector of length 256 spread into a row is that vector reshaped to the row. -/
theorem row99 (x : (⟨S256, .f32⟩ : BufTy).Contents (Elt Ideal)) :
    (broadcastInDim S1x256 ![1] bcast_S256_S1x256_1 : (⟨S256, .f32⟩ : BufTy).Contents (Elt Ideal) → (⟨S1x256, .f32⟩ : BufTy).Contents (Elt Ideal)) x = Cert.KernelIdeal.Stages.st7_v99 x :=
  Cert.GatLayout.bcast_row_eq_cast (by decide) x _ _

/-- A parameter vector of length 256 spread into a row is that vector reshaped to the row. -/
theorem row100 (x : (⟨S256, .f32⟩ : BufTy).Contents (Elt Ideal)) :
    (broadcastInDim S1x256 ![1] bcast_S256_S1x256_1 : (⟨S256, .f32⟩ : BufTy).Contents (Elt Ideal) → (⟨S1x256, .f32⟩ : BufTy).Contents (Elt Ideal)) x = Cert.KernelIdeal.Stages.st7_v100 x :=
  Cert.GatLayout.bcast_row_eq_cast (by decide) x _ _

/-- A parameter vector of length 256 spread into a row is that vector reshaped to the row. -/
theorem row101 (x : (⟨S256, .f32⟩ : BufTy).Contents (Elt Ideal)) :
    (broadcastInDim S1x256 ![1] bcast_S256_S1x256_1 : (⟨S256, .f32⟩ : BufTy).Contents (Elt Ideal) → (⟨S1x256, .f32⟩ : BufTy).Contents (Elt Ideal)) x = Cert.KernelIdeal.Stages.st7_v101 x :=
  Cert.GatLayout.bcast_row_eq_cast (by decide) x _ _

/-- A parameter vector of length 128 spread into a row is that vector reshaped to the row. -/
theorem row150 (x : (⟨S128, .f32⟩ : BufTy).Contents (Elt Ideal)) :
    (broadcastInDim S1x128 ![1] bcast_S128_S1x128_1 : (⟨S128, .f32⟩ : BufTy).Contents (Elt Ideal) → (⟨S1x128, .f32⟩ : BufTy).Contents (Elt Ideal)) x = Cert.KernelIdeal.Stages.st11_v150 x :=
  Cert.GatLayout.bcast_row_eq_cast (by decide) x _ _

/-- A parameter vector of length 128 spread into a row is that vector reshaped to the row. -/
theorem row151 (x : (⟨S128, .f32⟩ : BufTy).Contents (Elt Ideal)) :
    (broadcastInDim S1x128 ![1] bcast_S128_S1x128_1 : (⟨S128, .f32⟩ : BufTy).Contents (Elt Ideal) → (⟨S1x128, .f32⟩ : BufTy).Contents (Elt Ideal)) x = Cert.KernelIdeal.Stages.st11_v151 x :=
  Cert.GatLayout.bcast_row_eq_cast (by decide) x _ _

/-- A parameter vector of length 128 spread into a row is that vector reshaped to the row. -/
theorem row152 (x : (⟨S128, .f32⟩ : BufTy).Contents (Elt Ideal)) :
    (broadcastInDim S1x128 ![1] bcast_S128_S1x128_1 : (⟨S128, .f32⟩ : BufTy).Contents (Elt Ideal) → (⟨S1x128, .f32⟩ : BufTy).Contents (Elt Ideal)) x = Cert.KernelIdeal.Stages.st11_v152 x :=
  Cert.GatLayout.bcast_row_eq_cast (by decide) x _ _

variable (m' : (ℓ : Loc nD τ sig) → Buf (Elt Ideal) ℓ)

/-- Layer 1 of the reference program. -/
theorem ref_layer1 (c : Dev nD) :
    RB10 m' c (Proc.devRef .tc main_v80) = Cert.KernelIdeal.Net.layer1 (refMM1 (F := Ideal)) (refAT1 (F := Ideal)) (fun a d h => refMS1 (F := Ideal) (refAL1 (F := Ideal) a d) h) (refLN1 (F := Ideal)) (RB0 m' c (Proc.devRef .tc main_arg1)) (RB0 m' c (Proc.devRef .tc main_arg0)) (RB0 m' c (Proc.devRef .tc main_arg3)) (RB0 m' c (Proc.devRef .tc main_arg4)) (RB0 m' c (Proc.devRef .tc main_arg5)) (RB0 m' c (Proc.devRef .tc main_arg2)) (RB0 m' c (Proc.devRef .tc main_arg6)) (RB0 m' c (Proc.devRef .tc main_arg7)) (RB0 m' c (Proc.devRef .tc main_arg8)) := by
  rw [rp10_v80 m' c, rp9_v58 m' c, rk9_arg6 m' c, rk9_arg7 m' c, rk9_arg8 m' c, rk8_v1 m' c]
  rw [rp8_v54 m' c, rk8_arg6 m' c, rk8_arg7 m' c, rk8_arg8 m' c, rk7_v1 m' c, rk7_v45 m' c]
  rw [rp7_v52 m' c, rk7_arg6 m' c, rk7_arg7 m' c, rk7_arg8 m' c, rk6_v1 m' c, rp6_v45 m' c]
  rw [rk6_v5 m' c, rk6_v3 m' c, rk6_arg6 m' c, rk6_arg7 m' c, rk6_arg8 m' c, rk5_v1 m' c]
  rw [rk5_v31 m' c, rp5_v41 m' c, rk5_v5 m' c, rk5_v3 m' c, rk5_arg6 m' c, rk5_arg7 m' c]
  rw [rk5_arg8 m' c, rk4_v1 m' c, rp4_v31 m' c, rk4_v3 m' c, rk4_v5 m' c, rk4_arg6 m' c]
  rw [rk4_arg7 m' c, rk4_arg8 m' c, rk3_v1 m' c, rp3_v18 m' c, rp3_v25 m' c, rk3_arg2 m' c]
  rw [rk3_v3 m' c, rp3_v5 m' c, rk3_arg6 m' c, rk3_arg7 m' c, rk3_arg8 m' c, rk2_v1 m' c]
  rw [rp2_v4 m' c, rk2_arg4 m' c, rk2_arg5 m' c, rk2_v3 m' c, rk2_arg2 m' c, rk2_arg6 m' c]
  rw [rk2_arg7 m' c, rk2_arg8 m' c, rp1_v1 m' c, rk1_arg0 m' c, rk1_arg3 m' c, rk1_arg4 m' c]
  rw [rk1_arg5 m' c, rp1_v3 m' c, rk1_arg2 m' c, rk1_arg6 m' c, rk1_arg7 m' c, rk1_arg8 m' c]
  -- the row / column spellings
  rw [col_eq (RB0 m' c (Proc.devRef .tc main_arg2)), row50 (RB0 m' c (Proc.devRef .tc main_arg6)), row51 (RB0 m' c (Proc.devRef .tc main_arg7)), row52 (RB0 m' c (Proc.devRef .tc main_arg8))]
  unfold Cert.KernelIdeal.Net.layer1
  rfl

/-- Layer 2 of the reference program. -/
theorem ref_layer2 (c : Dev nD) :
    RB19 m' c (Proc.devRef .tc main_v157) = Cert.KernelIdeal.Net.layer2 (refMM2 (F := Ideal)) (refAT2 (F := Ideal)) (fun a d h => refMS2 (F := Ideal) (refAL2 (F := Ideal) a d) h) (refLN2 (F := Ideal)) (RB0 m' c (Proc.devRef .tc main_arg1)) (RB10 m' c (Proc.devRef .tc main_v80)) (RB0 m' c (Proc.devRef .tc main_arg9)) (RB0 m' c (Proc.devRef .tc main_arg10)) (RB0 m' c (Proc.devRef .tc main_arg11)) (RB0 m' c (Proc.devRef .tc main_arg2)) (RB0 m' c (Proc.devRef .tc main_arg12)) (RB0 m' c (Proc.devRef .tc main_arg13)) (RB0 m' c (Proc.devRef .tc main_arg14)) := by
  rw [rp19_v157 m' c, rp18_v135 m' c, rk18_arg12 m' c, rk18_arg13 m' c, rk18_arg14 m' c, rk17_v1 m' c]
  rw [rp17_v131 m' c, rk17_arg12 m' c, rk17_arg13 m' c, rk17_arg14 m' c, rk16_v1 m' c, rk16_v122 m' c]
  rw [rp16_v129 m' c, rk16_arg12 m' c, rk16_arg13 m' c, rk16_arg14 m' c, rk15_v1 m' c, rp15_v122 m' c]
  rw [rk15_v82 m' c, rk15_v3 m' c, rk15_arg12 m' c, rk15_arg13 m' c, rk15_arg14 m' c, rk14_v1 m' c]
  rw [rk14_v108 m' c, rp14_v118 m' c, rk14_v82 m' c, rk14_v3 m' c, rk14_arg12 m' c, rk14_arg13 m' c]
  rw [rk14_arg14 m' c, rk13_v1 m' c, rp13_v108 m' c, rk13_v3 m' c, rk13_v82 m' c, rk13_arg12 m' c]
  rw [rk13_arg13 m' c, rk13_arg14 m' c, rk12_v1 m' c, rp12_v95 m' c, rp12_v102 m' c, rk12_arg2 m' c]
  rw [rk12_v3 m' c, rp12_v82 m' c, rk12_arg12 m' c, rk12_arg13 m' c, rk12_arg14 m' c, rk11_v1 m' c]
  rw [rp11_v81 m' c, rk11_arg10 m' c, rk11_arg11 m' c, rk11_v3 m' c, rk11_arg2 m' c, rk11_arg12 m' c]
  rw [rk11_arg13 m' c, rk11_arg14 m' c, rk10_v1 m' c, rk10_arg9 m' c, rk10_arg10 m' c, rk10_arg11 m' c]
  rw [rk10_v3 m' c, rk10_arg2 m' c, rk10_arg12 m' c, rk10_arg13 m' c, rk10_arg14 m' c, rk9_v1 m' c]
  rw [rk9_arg9 m' c, rk9_arg10 m' c, rk9_arg11 m' c, rk9_v3 m' c, rk9_arg2 m' c, rk9_arg12 m' c]
  rw [rk9_arg13 m' c, rk9_arg14 m' c, rk8_v1 m' c, rk8_arg9 m' c, rk8_arg10 m' c, rk8_arg11 m' c]
  rw [rk8_v3 m' c, rk8_arg2 m' c, rk8_arg12 m' c, rk8_arg13 m' c, rk8_arg14 m' c, rk7_v1 m' c]
  rw [rk7_arg9 m' c, rk7_arg10 m' c, rk7_arg11 m' c, rk7_v3 m' c, rk7_arg2 m' c, rk7_arg12 m' c]
  rw [rk7_arg13 m' c, rk7_arg14 m' c, rk6_v1 m' c, rk6_arg9 m' c, rk6_arg10 m' c, rk6_arg11 m' c]
  rw [rk6_v3 m' c, rk6_arg2 m' c, rk6_arg12 m' c, rk6_arg13 m' c, rk6_arg14 m' c, rk5_v1 m' c]
  rw [rk5_arg9 m' c, rk5_arg10 m' c, rk5_arg11 m' c, rk5_v3 m' c, rk5_arg2 m' c, rk5_arg12 m' c]
  rw [rk5_arg13 m' c, rk5_arg14 m' c, rk4_v1 m' c, rk4_arg9 m' c, rk4_arg10 m' c, rk4_arg11 m' c]
  rw [rk4_v3 m' c, rk4_arg2 m' c, rk4_arg12 m' c, rk4_arg13 m' c, rk4_arg14 m' c, rk3_v1 m' c]
  rw [rk3_arg9 m' c, rk3_arg10 m' c, rk3_arg11 m' c, rk3_v3 m' c, rk3_arg2 m' c, rk3_arg12 m' c]
  rw [rk3_arg13 m' c, rk3_arg14 m' c, rk2_v1 m' c, rk2_arg9 m' c, rk2_arg10 m' c, rk2_arg11 m' c]
  rw [rk2_v3 m' c, rk2_arg2 m' c, rk2_arg12 m' c, rk2_arg13 m' c, rk2_arg14 m' c, rp1_v1 m' c]
  rw [rk1_arg9 m' c, rk1_arg10 m' c, rk1_arg11 m' c, rp1_v3 m' c, rk1_arg2 m' c, rk1_arg12 m' c]
  rw [rk1_arg13 m' c, rk1_arg14 m' c]
  -- the row / column spellings
  rw [col_eq (RB0 m' c (Proc.devRef .tc main_arg2)), row99 (RB0 m' c (Proc.devRef .tc main_arg12)), row100 (RB0 m' c (Proc.devRef .tc main_arg13)), row101 (RB0 m' c (Proc.devRef .tc main_arg14))]
  unfold Cert.KernelIdeal.Net.layer2
  rfl

/-- Layer 3 of the reference program. -/
theorem ref_layer3 (c : Dev nD) :
    RB28 m' c (Proc.devRef .tc main_v234) = Cert.KernelIdeal.Net.layer3 (refMM3 (F := Ideal)) (refAT3 (F := Ideal)) (fun a d h => refMS3 (F := Ideal) (refAL3 (F := Ideal) a d) h) (refLN3 (F := Ideal)) (RB0 m' c (Proc.devRef .tc main_arg1)) (RB19 m' c (Proc.devRef .tc main_v157)) (RB0 m' c (Proc.devRef .tc main_arg15)) (RB0 m' c (Proc.devRef .tc main_arg16)) (RB0 m' c (Proc.devRef .tc main_arg17)) (RB0 m' c (Proc.devRef .tc main_arg2)) (RB0 m' c (Proc.devRef .tc main_arg18)) (RB0 m' c (Proc.devRef .tc main_arg19)) (RB0 m' c (Proc.devRef .tc main_arg20)) := by
  rw [rp28_v234 m' c, rp27_v213 m' c, rk27_arg18 m' c, rk27_arg19 m' c, rk27_arg20 m' c, rk26_v1 m' c]
  rw [rp26_v207 m' c, rk26_arg18 m' c, rk26_arg19 m' c, rk26_arg20 m' c, rk25_v1 m' c, rk25_v198 m' c]
  rw [rp25_v205 m' c, rk25_arg18 m' c, rk25_arg19 m' c, rk25_arg20 m' c, rk24_v1 m' c, rp24_v198 m' c]
  rw [rk24_v159 m' c, rk24_v3 m' c, rk24_arg18 m' c, rk24_arg19 m' c, rk24_arg20 m' c, rk23_v1 m' c]
  rw [rk23_v184 m' c, rp23_v194 m' c, rk23_v159 m' c, rk23_v3 m' c, rk23_arg18 m' c, rk23_arg19 m' c]
  rw [rk23_arg20 m' c, rk22_v1 m' c, rp22_v184 m' c, rk22_v3 m' c, rk22_v159 m' c, rk22_arg18 m' c]
  rw [rk22_arg19 m' c, rk22_arg20 m' c, rk21_v1 m' c, rp21_v172 m' c, rp21_v179 m' c, rk21_arg2 m' c]
  rw [rk21_v3 m' c, rp21_v159 m' c, rk21_arg18 m' c, rk21_arg19 m' c, rk21_arg20 m' c, rk20_v1 m' c]
  rw [rp20_v158 m' c, rk20_arg16 m' c, rk20_arg17 m' c, rk20_v3 m' c, rk20_arg2 m' c, rk20_arg18 m' c]
  rw [rk20_arg19 m' c, rk20_arg20 m' c, rk19_v1 m' c, rk19_arg15 m' c, rk19_arg16 m' c, rk19_arg17 m' c]
  rw [rk19_v3 m' c, rk19_arg2 m' c, rk19_arg18 m' c, rk19_arg19 m' c, rk19_arg20 m' c, rk18_v1 m' c]
  rw [rk18_arg15 m' c, rk18_arg16 m' c, rk18_arg17 m' c, rk18_v3 m' c, rk18_arg2 m' c, rk18_arg18 m' c]
  rw [rk18_arg19 m' c, rk18_arg20 m' c, rk17_v1 m' c, rk17_arg15 m' c, rk17_arg16 m' c, rk17_arg17 m' c]
  rw [rk17_v3 m' c, rk17_arg2 m' c, rk17_arg18 m' c, rk17_arg19 m' c, rk17_arg20 m' c, rk16_v1 m' c]
  rw [rk16_arg15 m' c, rk16_arg16 m' c, rk16_arg17 m' c, rk16_v3 m' c, rk16_arg2 m' c, rk16_arg18 m' c]
  rw [rk16_arg19 m' c, rk16_arg20 m' c, rk15_v1 m' c, rk15_arg15 m' c, rk15_arg16 m' c, rk15_arg17 m' c]
  rw [rk15_v3 m' c, rk15_arg2 m' c, rk15_arg18 m' c, rk15_arg19 m' c, rk15_arg20 m' c, rk14_v1 m' c]
  rw [rk14_arg15 m' c, rk14_arg16 m' c, rk14_arg17 m' c, rk14_v3 m' c, rk14_arg2 m' c, rk14_arg18 m' c]
  rw [rk14_arg19 m' c, rk14_arg20 m' c, rk13_v1 m' c, rk13_arg15 m' c, rk13_arg16 m' c, rk13_arg17 m' c]
  rw [rk13_v3 m' c, rk13_arg2 m' c, rk13_arg18 m' c, rk13_arg19 m' c, rk13_arg20 m' c, rk12_v1 m' c]
  rw [rk12_arg15 m' c, rk12_arg16 m' c, rk12_arg17 m' c, rk12_v3 m' c, rk12_arg2 m' c, rk12_arg18 m' c]
  rw [rk12_arg19 m' c, rk12_arg20 m' c, rk11_v1 m' c, rk11_arg15 m' c, rk11_arg16 m' c, rk11_arg17 m' c]
  rw [rk11_v3 m' c, rk11_arg2 m' c, rk11_arg18 m' c, rk11_arg19 m' c, rk11_arg20 m' c, rk10_v1 m' c]
  rw [rk10_arg15 m' c, rk10_arg16 m' c, rk10_arg17 m' c, rk10_v3 m' c, rk10_arg2 m' c, rk10_arg18 m' c]
  rw [rk10_arg19 m' c, rk10_arg20 m' c, rk9_v1 m' c, rk9_arg15 m' c, rk9_arg16 m' c, rk9_arg17 m' c]
  rw [rk9_v3 m' c, rk9_arg2 m' c, rk9_arg18 m' c, rk9_arg19 m' c, rk9_arg20 m' c, rk8_v1 m' c]
  rw [rk8_arg15 m' c, rk8_arg16 m' c, rk8_arg17 m' c, rk8_v3 m' c, rk8_arg2 m' c, rk8_arg18 m' c]
  rw [rk8_arg19 m' c, rk8_arg20 m' c, rk7_v1 m' c, rk7_arg15 m' c, rk7_arg16 m' c, rk7_arg17 m' c]
  rw [rk7_v3 m' c, rk7_arg2 m' c, rk7_arg18 m' c, rk7_arg19 m' c, rk7_arg20 m' c, rk6_v1 m' c]
  rw [rk6_arg15 m' c, rk6_arg16 m' c, rk6_arg17 m' c, rk6_v3 m' c, rk6_arg2 m' c, rk6_arg18 m' c]
  rw [rk6_arg19 m' c, rk6_arg20 m' c, rk5_v1 m' c, rk5_arg15 m' c, rk5_arg16 m' c, rk5_arg17 m' c]
  rw [rk5_v3 m' c, rk5_arg2 m' c, rk5_arg18 m' c, rk5_arg19 m' c, rk5_arg20 m' c, rk4_v1 m' c]
  rw [rk4_arg15 m' c, rk4_arg16 m' c, rk4_arg17 m' c, rk4_v3 m' c, rk4_arg2 m' c, rk4_arg18 m' c]
  rw [rk4_arg19 m' c, rk4_arg20 m' c, rk3_v1 m' c, rk3_arg15 m' c, rk3_arg16 m' c, rk3_arg17 m' c]
  rw [rk3_v3 m' c, rk3_arg2 m' c, rk3_arg18 m' c, rk3_arg19 m' c, rk3_arg20 m' c, rk2_v1 m' c]
  rw [rk2_arg15 m' c, rk2_arg16 m' c, rk2_arg17 m' c, rk2_v3 m' c, rk2_arg2 m' c, rk2_arg18 m' c]
  rw [rk2_arg19 m' c, rk2_arg20 m' c, rp1_v1 m' c, rk1_arg15 m' c, rk1_arg16 m' c, rk1_arg17 m' c]
  rw [rp1_v3 m' c, rk1_arg2 m' c, rk1_arg18 m' c, rk1_arg19 m' c, rk1_arg20 m' c]
  -- the row / column spellings
  rw [col_eq (RB0 m' c (Proc.devRef .tc main_arg2)), row150 (RB0 m' c (Proc.devRef .tc main_arg18)), row151 (RB0 m' c (Proc.devRef .tc main_arg19)), row152 (RB0 m' c (Proc.devRef .tc main_arg20))]
  unfold Cert.KernelIdeal.Net.layer3
  rfl

end Cert.ReferenceIdeal.Layers

end
-- ==== Proof.Assemble.lean ====
/-
  The two programs end with the same result array. Both compute the three layer functions one after the other from
  the same arguments; the kernel program with its regions' closed forms as region functions, the reference with its
  own spelling of them; and each closed form IS the reference's function of the same arrays.
-/
import proofs.«158057_j81853486727297_2_alg».proof.Proof.KLayers
import proofs.«158057_j81853486727297_2_alg».proof.Proof.RLayers

set_option maxRecDepth 16384

noncomputable section

namespace Cert.Assemble

open Idealize.ShloMosaic Idealize.ShloMosaic.TcCoe Idealize.SL.Sem Idealize.ShloMosaic.StableHlo

/-- The reference's result buffer after all its operations is the kernel program's result buffer at its last
    boundary, given each region's closed form and that it is the reference's function. -/
theorem result_eq_of
    {G0 : (⟨Cert.KernelIdeal.S50000x384, .f32⟩ : BufTy).Contents (Elt Ideal) → (⟨Cert.KernelIdeal.S384x256, .f32⟩ : BufTy).Contents (Elt Ideal) → (⟨Cert.KernelIdeal.S50000x256, .f32⟩ : BufTy).Contents (Elt Ideal)}
    {G1 : (⟨Cert.KernelIdeal.S500000x4, .f32⟩ : BufTy).Contents (Elt Ideal) → (⟨Cert.KernelIdeal.S500000x4, .f32⟩ : BufTy).Contents (Elt Ideal) → (⟨Cert.KernelIdeal.S500000x1, .f32⟩ : BufTy).Contents (Elt Ideal) → (⟨Cert.KernelIdeal.S500000x4, .f32⟩ : BufTy).Contents (Elt Ideal)}
    {G2 : (⟨Cert.KernelIdeal.S500000x4, .f32⟩ : BufTy).Contents (Elt Ideal) → (⟨Cert.KernelIdeal.S500000x4, .f32⟩ : BufTy).Contents (Elt Ideal) → (⟨Cert.KernelIdeal.S500000x4x64, .f32⟩ : BufTy).Contents (Elt Ideal) → (⟨Cert.KernelIdeal.S500000x4x64, .f32⟩ : BufTy).Contents (Elt Ideal)}
    {G3 : (⟨Cert.KernelIdeal.S50000x256, .f32⟩ : BufTy).Contents (Elt Ideal) → (⟨Cert.KernelIdeal.S1x256, .f32⟩ : BufTy).Contents (Elt Ideal) → (⟨Cert.KernelIdeal.S1x256, .f32⟩ : BufTy).Contents (Elt Ideal) → (⟨Cert.KernelIdeal.S1x256, .f32⟩ : BufTy).Contents (Elt Ideal) → (⟨Cert.KernelIdeal.S50000x256, .f32⟩ : BufTy).Contents (Elt Ideal)}
    {G4 : (⟨Cert.KernelIdeal.S50000x256, .f32⟩ : BufTy).Contents (Elt Ideal) → (⟨Cert.KernelIdeal.S256x256, .f32⟩ : BufTy).Contents (Elt Ideal) → (⟨Cert.KernelIdeal.S50000x256, .f32⟩ : BufTy).Contents (Elt Ideal)}
    {G5 : (⟨Cert.KernelIdeal.S500000x4, .f32⟩ : BufTy).Contents (Elt Ideal) → (⟨Cert.KernelIdeal.S500000x4, .f32⟩ : BufTy).Contents (Elt Ideal) → (⟨Cert.KernelIdeal.S500000x1, .f32⟩ : BufTy).Contents (Elt Ideal) → (⟨Cert.KernelIdeal.S500000x4, .f32⟩ : BufTy).Contents (Elt Ideal)}
    {G6 : (⟨Cert.KernelIdeal.S500000x4, .f32⟩ : BufTy).Contents (Elt Ideal) → (⟨Cert.KernelIdeal.S500000x4, .f32⟩ : BufTy).Contents (Elt Ideal) → (⟨Cert.KernelIdeal.S500000x4x64, .f32⟩ : BufTy).Contents (Elt Ideal) → (⟨Cert.KernelIdeal.S500000x4x64, .f32⟩ : BufTy).Contents (Elt Ideal)}
    {G7 : (⟨Cert.KernelIdeal.S50000x256, .f32⟩ : BufTy).Contents (Elt Ideal) → (⟨Cert.KernelIdeal.S1x256, .f32⟩ : BufTy).Contents (Elt Ideal) → (⟨Cert.KernelIdeal.S1x256, .f32⟩ : BufTy).Contents (Elt Ideal) → (⟨Cert.KernelIdeal.S1x256, .f32⟩ : BufTy).Contents (Elt Ideal) → (⟨Cert.KernelIdeal.S50000x256, .f32⟩ : BufTy).Contents (Elt Ideal)}
    {G8 : (⟨Cert.KernelIdeal.S50000x256, .f32⟩ : BufTy).Contents (Elt Ideal) → (⟨Cert.KernelIdeal.S256x128, .f32⟩ : BufTy).Contents (Elt Ideal) → (⟨Cert.KernelIdeal.S50000x128, .f32⟩ : BufTy).Contents (Elt Ideal)}
    {G9 : (⟨Cert.KernelIdeal.S500000x1, .f32⟩ : BufTy).Contents (Elt Ideal) → (⟨Cert.KernelIdeal.S500000x1, .f32⟩ : BufTy).Contents (Elt Ideal) → (⟨Cert.KernelIdeal.S500000x1, .f32⟩ : BufTy).Contents (Elt Ideal) → (⟨Cert.KernelIdeal.S500000x1, .f32⟩ : BufTy).Contents (Elt Ideal)}
    {G10 : (⟨Cert.KernelIdeal.S500000x1, .f32⟩ : BufTy).Contents (Elt Ideal) → (⟨Cert.KernelIdeal.S500000x1, .f32⟩ : BufTy).Contents (Elt Ideal) → (⟨Cert.KernelIdeal.S500000x1x128, .f32⟩ : BufTy).Contents (Elt Ideal) → (⟨Cert.KernelIdeal.S500000x1x128, .f32⟩ : BufTy).Contents (Elt Ideal)}
    {G11 : (⟨Cert.KernelIdeal.S50000x128, .f32⟩ : BufTy).Contents (Elt Ideal) → (⟨Cert.KernelIdeal.S1x128, .f32⟩ : BufTy).Contents (Elt Ideal) → (⟨Cert.KernelIdeal.S1x128, .f32⟩ : BufTy).Contents (Elt Ideal) → (⟨Cert.KernelIdeal.S1x128, .f32⟩ : BufTy).Contents (Elt Ideal) → (⟨Cert.KernelIdeal.S50000x128, .f32⟩ : BufTy).Contents (Elt Ideal)}
    (h0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat0 (F := Ideal) V c).arrAt 2 Cert.KernelIdeal.cfg0.N = G0 (V c Cert.KernelIdeal.main_arg0) (V c Cert.KernelIdeal.main_arg3))
    (h1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat1 (F := Ideal) V c).arrAt 3 Cert.KernelIdeal.cfg1.N = G1 (V c Cert.KernelIdeal.main_v19) (V c Cert.KernelIdeal.main_v26) (V c Cert.KernelIdeal.main_v4))
    (h2 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat2 (F := Ideal) V c).arrAt 3 Cert.KernelIdeal.cfg2.N = G2 (V c Cert.KernelIdeal.main_v27) (V c Cert.KernelIdeal.main_v37) (V c Cert.KernelIdeal.main_v44))
    (h3 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat3 (F := Ideal) V c).arrAt 4 Cert.KernelIdeal.cfg3.N = G3 (V c Cert.KernelIdeal.main_v49) (V c Cert.KernelIdeal.main_v50) (V c Cert.KernelIdeal.main_v51) (V c Cert.KernelIdeal.main_v52))
    (h4 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat4 (F := Ideal) V c).arrAt 2 Cert.KernelIdeal.cfg4.N = G4 (V c Cert.KernelIdeal.main_v53) (V c Cert.KernelIdeal.main_arg9))
    (h5 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat5 (F := Ideal) V c).arrAt 3 Cert.KernelIdeal.cfg5.N = G5 (V c Cert.KernelIdeal.main_v68) (V c Cert.KernelIdeal.main_v75) (V c Cert.KernelIdeal.main_v4))
    (h6 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat6 (F := Ideal) V c).arrAt 3 Cert.KernelIdeal.cfg6.N = G6 (V c Cert.KernelIdeal.main_v76) (V c Cert.KernelIdeal.main_v86) (V c Cert.KernelIdeal.main_v93))
    (h7 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat7 (F := Ideal) V c).arrAt 4 Cert.KernelIdeal.cfg7.N = G7 (V c Cert.KernelIdeal.main_v98) (V c Cert.KernelIdeal.main_v99) (V c Cert.KernelIdeal.main_v100) (V c Cert.KernelIdeal.main_v101))
    (h8 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat8 (F := Ideal) V c).arrAt 2 Cert.KernelIdeal.cfg8.N = G8 (V c Cert.KernelIdeal.main_v102) (V c Cert.KernelIdeal.main_arg15))
    (h9 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat9 (F := Ideal) V c).arrAt 3 Cert.KernelIdeal.cfg9.N = G9 (V c Cert.KernelIdeal.main_v117) (V c Cert.KernelIdeal.main_v124) (V c Cert.KernelIdeal.main_v4))
    (h10 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat10 (F := Ideal) V c).arrAt 3 Cert.KernelIdeal.cfg10.N = G10 (V c Cert.KernelIdeal.main_v125) (V c Cert.KernelIdeal.main_v135) (V c Cert.KernelIdeal.main_v142))
    (h11 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD), (Cert.KernelIdeal.Gen.dat11 (F := Ideal) V c).arrAt 4 Cert.KernelIdeal.cfg11.N = G11 (V c Cert.KernelIdeal.main_v149) (V c Cert.KernelIdeal.main_v150) (V c Cert.KernelIdeal.main_v151) (V c Cert.KernelIdeal.main_v152))
    (e0 : G0 = (Cert.ReferenceIdeal.RefRun.refMM1 (F := Ideal)))
    (e1 : G1 = (Cert.ReferenceIdeal.RefRun.refAT1 (F := Ideal)))
    (e2 : G2 = (fun a d h => Cert.ReferenceIdeal.RefRun.refMS1 (F := Ideal) (Cert.ReferenceIdeal.RefRun.refAL1 (F := Ideal) a d) h))
    (e3 : G3 = (Cert.ReferenceIdeal.RefRun.refLN1 (F := Ideal)))
    (e4 : G4 = (Cert.ReferenceIdeal.RefRun.refMM2 (F := Ideal)))
    (e5 : G5 = (Cert.ReferenceIdeal.RefRun.refAT2 (F := Ideal)))
    (e6 : G6 = (fun a d h => Cert.ReferenceIdeal.RefRun.refMS2 (F := Ideal) (Cert.ReferenceIdeal.RefRun.refAL2 (F := Ideal) a d) h))
    (e7 : G7 = (Cert.ReferenceIdeal.RefRun.refLN2 (F := Ideal)))
    (e8 : G8 = (Cert.ReferenceIdeal.RefRun.refMM3 (F := Ideal)))
    (e9 : G9 = (Cert.ReferenceIdeal.RefRun.refAT3 (F := Ideal)))
    (e10 : G10 = (fun a d h => Cert.ReferenceIdeal.RefRun.refMS3 (F := Ideal) (Cert.ReferenceIdeal.RefRun.refAL3 (F := Ideal) a d) h))
    (e11 : G11 = (Cert.ReferenceIdeal.RefRun.refLN3 (F := Ideal)))
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    StableHlo.after (Cert.ReferenceIdeal.RefRun.ops (F := Ideal)) (StableHlo.launchContents m' c) (Proc.devRef .tc Cert.ReferenceIdeal.main_v234)
      = Cert.KernelIdeal.Gen.W22 m ρ c (Proc.devRef .tc Cert.KernelIdeal.main_v153) := by
  have a0 : Cert.ReferenceIdeal.Chain.RB0 m' c (Proc.devRef .tc Cert.ReferenceIdeal.main_arg0) = Cert.KernelIdeal.Gen.W0 m ρ c (Proc.devRef .tc Cert.KernelIdeal.main_arg0) := hagree.1
  have a1 : Cert.ReferenceIdeal.Chain.RB0 m' c (Proc.devRef .tc Cert.ReferenceIdeal.main_arg1) = Cert.KernelIdeal.Gen.W0 m ρ c (Proc.devRef .tc Cert.KernelIdeal.main_arg1) := hagree.2.1
  have a2 : Cert.ReferenceIdeal.Chain.RB0 m' c (Proc.devRef .tc Cert.ReferenceIdeal.main_arg2) = Cert.KernelIdeal.Gen.W0 m ρ c (Proc.devRef .tc Cert.KernelIdeal.main_arg2) := hagree.2.2.1
  have a3 : Cert.ReferenceIdeal.Chain.RB0 m' c (Proc.devRef .tc Cert.ReferenceIdeal.main_arg3) = Cert.KernelIdeal.Gen.W0 m ρ c (Proc.devRef .tc Cert.KernelIdeal.main_arg3) := hagree.2.2.2.1
  have a4 : Cert.ReferenceIdeal.Chain.RB0 m' c (Proc.devRef .tc Cert.ReferenceIdeal.main_arg4) = Cert.KernelIdeal.Gen.W0 m ρ c (Proc.devRef .tc Cert.KernelIdeal.main_arg4) := hagree.2.2.2.2.1
  have a5 : Cert.ReferenceIdeal.Chain.RB0 m' c (Proc.devRef .tc Cert.ReferenceIdeal.main_arg5) = Cert.KernelIdeal.Gen.W0 m ρ c (Proc.devRef .tc Cert.KernelIdeal.main_arg5) := hagree.2.2.2.2.2.1
  have a6 : Cert.ReferenceIdeal.Chain.RB0 m' c (Proc.devRef .tc Cert.ReferenceIdeal.main_arg6) = Cert.KernelIdeal.Gen.W0 m ρ c (Proc.devRef .tc Cert.KernelIdeal.main_arg6) := hagree.2.2.2.2.2.2.1
  have a7 : Cert.ReferenceIdeal.Chain.RB0 m' c (Proc.devRef .tc Cert.ReferenceIdeal.main_arg7) = Cert.KernelIdeal.Gen.W0 m ρ c (Proc.devRef .tc Cert.KernelIdeal.main_arg7) := hagree.2.2.2.2.2.2.2.1
  have a8 : Cert.ReferenceIdeal.Chain.RB0 m' c (Proc.devRef .tc Cert.ReferenceIdeal.main_arg8) = Cert.KernelIdeal.Gen.W0 m ρ c (Proc.devRef .tc Cert.KernelIdeal.main_arg8) := hagree.2.2.2.2.2.2.2.2.1
  have a9 : Cert.ReferenceIdeal.Chain.RB0 m' c (Proc.devRef .tc Cert.ReferenceIdeal.main_arg9) = Cert.KernelIdeal.Gen.W0 m ρ c (Proc.devRef .tc Cert.KernelIdeal.main_arg9) := hagree.2.2.2.2.2.2.2.2.2.1
  have a10 : Cert.ReferenceIdeal.Chain.RB0 m' c (Proc.devRef .tc Cert.ReferenceIdeal.main_arg10) = Cert.KernelIdeal.Gen.W0 m ρ c (Proc.devRef .tc Cert.KernelIdeal.main_arg10) := hagree.2.2.2.2.2.2.2.2.2.2.1
  have a11 : Cert.ReferenceIdeal.Chain.RB0 m' c (Proc.devRef .tc Cert.ReferenceIdeal.main_arg11) = Cert.KernelIdeal.Gen.W0 m ρ c (Proc.devRef .tc Cert.KernelIdeal.main_arg11) := hagree.2.2.2.2.2.2.2.2.2.2.2.1
  have a12 : Cert.ReferenceIdeal.Chain.RB0 m' c (Proc.devRef .tc Cert.ReferenceIdeal.main_arg12) = Cert.KernelIdeal.Gen.W0 m ρ c (Proc.devRef .tc Cert.KernelIdeal.main_arg12) := hagree.2.2.2.2.2.2.2.2.2.2.2.2.1
  have a13 : Cert.ReferenceIdeal.Chain.RB0 m' c (Proc.devRef .tc Cert.ReferenceIdeal.main_arg13) = Cert.KernelIdeal.Gen.W0 m ρ c (Proc.devRef .tc Cert.KernelIdeal.main_arg13) := hagree.2.2.2.2.2.2.2.2.2.2.2.2.2.1
  have a14 : Cert.ReferenceIdeal.Chain.RB0 m' c (Proc.devRef .tc Cert.ReferenceIdeal.main_arg14) = Cert.KernelIdeal.Gen.W0 m ρ c (Proc.devRef .tc Cert.KernelIdeal.main_arg14) := hagree.2.2.2.2.2.2.2.2.2.2.2.2.2.2.1
  have a15 : Cert.ReferenceIdeal.Chain.RB0 m' c (Proc.devRef .tc Cert.ReferenceIdeal.main_arg15) = Cert.KernelIdeal.Gen.W0 m ρ c (Proc.devRef .tc Cert.KernelIdeal.main_arg15) := hagree.2.2.2.2.2.2.2.2.2.2.2.2.2.2.2.1
  have a16 : Cert.ReferenceIdeal.Chain.RB0 m' c (Proc.devRef .tc Cert.ReferenceIdeal.main_arg16) = Cert.KernelIdeal.Gen.W0 m ρ c (Proc.devRef .tc Cert.KernelIdeal.main_arg16) := hagree.2.2.2.2.2.2.2.2.2.2.2.2.2.2.2.2.1
  have a17 : Cert.ReferenceIdeal.Chain.RB0 m' c (Proc.devRef .tc Cert.ReferenceIdeal.main_arg17) = Cert.KernelIdeal.Gen.W0 m ρ c (Proc.devRef .tc Cert.KernelIdeal.main_arg17) := hagree.2.2.2.2.2.2.2.2.2.2.2.2.2.2.2.2.2.1
  have a18 : Cert.ReferenceIdeal.Chain.RB0 m' c (Proc.devRef .tc Cert.ReferenceIdeal.main_arg18) = Cert.KernelIdeal.Gen.W0 m ρ c (Proc.devRef .tc Cert.KernelIdeal.main_arg18) := hagree.2.2.2.2.2.2.2.2.2.2.2.2.2.2.2.2.2.2.1
  have a19 : Cert.ReferenceIdeal.Chain.RB0 m' c (Proc.devRef .tc Cert.ReferenceIdeal.main_arg19) = Cert.KernelIdeal.Gen.W0 m ρ c (Proc.devRef .tc Cert.KernelIdeal.main_arg19) := hagree.2.2.2.2.2.2.2.2.2.2.2.2.2.2.2.2.2.2.2.1
  have a20 : Cert.ReferenceIdeal.Chain.RB0 m' c (Proc.devRef .tc Cert.ReferenceIdeal.main_arg20) = Cert.KernelIdeal.Gen.W0 m ρ c (Proc.devRef .tc Cert.KernelIdeal.main_arg20) := hagree.2.2.2.2.2.2.2.2.2.2.2.2.2.2.2.2.2.2.2.2
  rw [Cert.ReferenceIdeal.Chain.ops_eq m' c, Cert.ReferenceIdeal.Layers.ref_layer3 m' c, Cert.ReferenceIdeal.Layers.ref_layer2 m' c, Cert.ReferenceIdeal.Layers.ref_layer1 m' c]
  rw [Cert.KernelIdeal.Layers.kernel_layer3 m ρ h8 h9 h10 h11 c, Cert.KernelIdeal.Layers.kernel_layer2 m ρ h4 h5 h6 h7 c, Cert.KernelIdeal.Layers.kernel_layer1 m ρ h0 h1 h2 h3 c]
  subst e0 e1 e2 e3 e4 e5 e6 e7 e8 e9 e10 e11
  rw [a0, a1, a2, a3, a4, a5, a6, a7, a8, a9, a10, a11, a12, a13, a14, a15, a16, a17, a18, a19, a20]

end Cert.Assemble

end
-- ==== Proof.RegMatmul.lean ====
/- The three matrix-product regions, each as ONE function of its input arrays index by index: the product array after
   the region is, entry (r, n), the sum over the contracted coordinate k of the row operand at (r, k) times the weight
   at (k, n) (the narrowing of both operands is the identity at the ideal values, the accumulator is the zero splat).
   Per region: the body's payload read at an index, the block a grid point writes back (the weight window's block is
   the whole weight array at every point), the cover of the array by the blocks, and the whole-array equation. -/
import proofs.«158057_j81853486727297_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Matmul

theorem hz2 : (![0, 0] : Fin 2 → Nat) = fun _ => 0 := funext fun a => by fin_cases a <;> rfl

end Cert.KernelIdeal.Matmul

namespace Cert.KernelIdeal.Reg0
open Cert.KernelIdeal Cert.KernelIdeal.Gen Cert.KernelIdeal.Matmul

/-- The whole product array, index by index: entry (r, n) is the sum over k of the row operand at (r, k) times the
    weight at (k, n). -/
abbrev G0 (x : S50000x384.Idx → Elt Ideal .f32) (w : S384x256.Idx → Elt Ideal .f32) : S50000x256.Idx → Elt Ideal .f32 :=
  fun i => ∑ k : Fin 384, x (ix2 (i 0) k) * w (ix2 k (i 1))

/-- The body's payload at entry (a, b) of a block: the contraction's one axis re-indexed by its coordinate, the left
    index (a, k) and the right index (k, b). -/
theorem pay0_apply (x0 : Vec Ideal S2000x384 .f32) (x1 : Vec Ideal S384x256 .f32) (a : Fin 2000) (b : Fin 256) :
    k0_pay1 x0 x1 (ix2 a b) = ∑ k : Fin 384, x0 (ix2 a k) * x1 (ix2 k b) := by
  unfold k0_pay1
  refine (Ideal.matmul_constant_zero_apply dot_S2000x384_S384x256_S2000x256_1_0_0_1_n_n none _ _ (ix2 a b)).trans ?_
  rw [← Equiv.sum_comp (contrEquiv1 dot_S2000x384_S384x256_S2000x256_1_0_0_1_n_n 384 rfl rfl).symm]
  refine Finset.sum_congr rfl fun c _ => ?_
  have c2 := contrEquiv1_symm_val dot_S2000x384_S384x256_S2000x256_1_0_0_1_n_n 384 rfl rfl c
  have l2 : dot_S2000x384_S384x256_S2000x256_1_0_0_1_n_n.lhsIdx (ix2 a b) ((contrEquiv1 dot_S2000x384_S384x256_S2000x256_1_0_0_1_n_n 384 rfl rfl).symm c) = ix2 a c := by
    funext ax; apply Fin.ext
    match ax with
    | ⟨0, _⟩ => simp [DotDims.lhsIdx, dot_S2000x384_S384x256_S2000x256_1_0_0_1_n_n]; rfl
    | ⟨1, _⟩ => simp [DotDims.lhsIdx, dot_S2000x384_S384x256_S2000x256_1_0_0_1_n_n]; exact c2
  have r2 : dot_S2000x384_S384x256_S2000x256_1_0_0_1_n_n.rhsIdx (ix2 a b) ((contrEquiv1 dot_S2000x384_S384x256_S2000x256_1_0_0_1_n_n 384 rfl rfl).symm c) = ix2 c b := by
    funext ax; apply Fin.ext
    match ax with
    | ⟨0, _⟩ => simp [DotDims.rhsIdx, dot_S2000x384_S384x256_S2000x256_1_0_0_1_n_n]; exact c2
    | ⟨1, _⟩ => simp [DotDims.rhsIdx, dot_S2000x384_S384x256_S2000x256_1_0_0_1_n_n]; rfl
  rw [l2, r2]
  rfl

theorem pay0_at (x0 : Vec Ideal S2000x384 .f32) (x1 : Vec Ideal S384x256 .f32) (j : S2000x256.Idx) :
    k0_pay1 x0 x1 j = ∑ k : Fin 384, x0 (ix2 (j 0) k) * x1 (ix2 k (j 1)) := by
  obtain ⟨a, b, rfl⟩ : ∃ (a : Fin 2000) (b : Fin 256), j = ix2 a b := ⟨j 0, j 1, eq_ix2 j⟩
  exact pay0_apply x0 x1 a b

/-- The printed index maps, decided over the 25 grid points: the row operand's and the result's block index on the
    long axis is the point's number and 0 on the other axis; the weight's block index is (0, 0) at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `G0` of the two input arrays as the region finds them. -/
theorem flushed0_eq (c : Dev nD) (t : Fin cfg0.N) :
    (dat0 (F := Ideal) V c).flushed 2 t
      = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz2]
  simp only [View.ld_unit_zero (S := S2000x384) hz2, View.ld_unit_zero (S := S384x256) hz2]
  obtain ⟨e00, e01, e10, e11, e20, e21⟩ := idx_facts0 t
  funext j
  show k0_pay1 (iblk0 V c 0 t) (iblk0 V c 1 t) j = _
  refine (pay0_at (iblk0 V c 0 t) (iblk0 V c 1 t) j).trans ?_
  show _ = G0 (V c main_arg0) (V c main_arg3) (((cfg0.win 2).blk t).view.emb j)
  refine Finset.sum_congr rfl fun k _ => ?_
  have h0 : (((cfg0.win 0).blk t).view.emb (ix2 (n0 := 2000) (n1 := 384) (j 0) k) : S50000x384.Idx)
      = ix2 (n0 := 50000) (n1 := 384) ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 384 + 1 * k.val = k.val; omega
  have h1 : (((cfg0.win 1).blk t).view.emb (ix2 (n0 := 384) (n1 := 256) k (j 1)) : S384x256.Idx)
      = ix2 (n0 := 384) (n1 := 256) k ((((cfg0.win 2).blk t).view.emb j) 1) := by
    funext a; apply Fin.ext
    match a with
    | ⟨0, _⟩ => show win0_1.index t (0 : Fin 2) * 384 + 1 * k.val = k.val; omega
    | ⟨1, _⟩ => show win0_1.index t (1 : Fin 2) * 256 + 1 * (j 1).val = win0_2.index t (1 : Fin 2) * 256 + 1 * (j 1).val; omega
  have hL : iblk0 V c 0 t (ix2 (n0 := 2000) (n1 := 384) (j 0) k)
      = V c main_arg0 (ix2 (n0 := 50000) (n1 := 384) ((((cfg0.win 2).blk t).view.emb j) 0) k) := congrArg (V c main_arg0) h0
  have hR : iblk0 V c 1 t (ix2 (n0 := 384) (n1 := 256) k (j 1))
      = V c main_arg3 (ix2 (n0 := 384) (n1 := 256) k ((((cfg0.win 2).blk t).view.emb j) 1)) := congrArg (V c main_arg3) h1
  exact congr (congrArg HMul.hMul hL) hR

/-- An index of the product array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v5).slice (win0_2.rect t)).set ↔ _
  rw [View.set_slice_whole, Rect.mem_set_unit]
  exact Iff.rfl

/-- The 25 blocks of 2000 rows tile the 50000 rows: row `r` is in the block of point `r / 2000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < cfg0.N := by rw [show cfg0.N = 25 from N_0]; omega
  obtain ⟨-, -, -, -, e20, e21⟩ := idx_facts0 ⟨(i 0).val / 2000, ht⟩
  have e20' : win0_2.index ⟨(i 0).val / 2000, ht⟩ (0 : Fin 2) = (i 0).val / 2000 := e20
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    omega

/-- THE PRODUCT ARRAY after the region: `G0` of the two input arrays as the region finds them. -/
theorem final0 (c : Dev nD) :
    (dat0 (F := Ideal) V c).arrAt 2 cfg0.N = G0 (V c main_arg0) (V c main_arg3) :=
  (dat0 (F := Ideal) V c).arrAt_eq_of_cover 2 (G0 (V c main_arg0) (V c main_arg3))
    (fun t _ => flushed0_eq V c t) cover0

end Cert.KernelIdeal.Reg0

namespace Cert.KernelIdeal.Reg4
open Cert.KernelIdeal Cert.KernelIdeal.Gen Cert.KernelIdeal.Matmul

/-- The whole product array, index by index: entry (r, n) is the sum over k of the row operand at (r, k) times the
    weight at (k, n). -/
abbrev G4 (x : S50000x256.Idx → Elt Ideal .f32) (w : S256x256.Idx → Elt Ideal .f32) : S50000x256.Idx → Elt Ideal .f32 :=
  fun i => ∑ k : Fin 256, x (ix2 (i 0) k) * w (ix2 k (i 1))

/-- The body's payload at entry (a, b) of a block: the contraction's one axis re-indexed by its coordinate, the left
    index (a, k) and the right index (k, b). -/
theorem pay4_apply (x0 : Vec Ideal S2000x256 .f32) (x1 : Vec Ideal S256x256 .f32) (a : Fin 2000) (b : Fin 256) :
    k4_pay1 x0 x1 (ix2 a b) = ∑ k : Fin 256, x0 (ix2 a k) * x1 (ix2 k b) := by
  unfold k4_pay1
  simp only [shapeCast_self]
  refine (Ideal.matmul_constant_zero_apply dot_S2000x256_S256x256_S2000x256_1_0_0_1_n_n none _ _ (ix2 a b)).trans ?_
  rw [← Equiv.sum_comp (contrEquiv1 dot_S2000x256_S256x256_S2000x256_1_0_0_1_n_n 256 rfl rfl).symm]
  refine Finset.sum_congr rfl fun c _ => ?_
  have c2 := contrEquiv1_symm_val dot_S2000x256_S256x256_S2000x256_1_0_0_1_n_n 256 rfl rfl c
  have l2 : dot_S2000x256_S256x256_S2000x256_1_0_0_1_n_n.lhsIdx (ix2 a b) ((contrEquiv1 dot_S2000x256_S256x256_S2000x256_1_0_0_1_n_n 256 rfl rfl).symm c) = ix2 a c := by
    funext ax; apply Fin.ext
    match ax with
    | ⟨0, _⟩ => simp [DotDims.lhsIdx, dot_S2000x256_S256x256_S2000x256_1_0_0_1_n_n]; rfl
    | ⟨1, _⟩ => simp [DotDims.lhsIdx, dot_S2000x256_S256x256_S2000x256_1_0_0_1_n_n]; exact c2
  have r2 : dot_S2000x256_S256x256_S2000x256_1_0_0_1_n_n.rhsIdx (ix2 a b) ((contrEquiv1 dot_S2000x256_S256x256_S2000x256_1_0_0_1_n_n 256 rfl rfl).symm c) = ix2 c b := by
    funext ax; apply Fin.ext
    match ax with
    | ⟨0, _⟩ => simp [DotDims.rhsIdx, dot_S2000x256_S256x256_S2000x256_1_0_0_1_n_n]; exact c2
    | ⟨1, _⟩ => simp [DotDims.rhsIdx, dot_S2000x256_S256x256_S2000x256_1_0_0_1_n_n]; rfl
  rw [l2, r2]
  rfl

theorem pay4_at (x0 : Vec Ideal S2000x256 .f32) (x1 : Vec Ideal S256x256 .f32) (j : S2000x256.Idx) :
    k4_pay1 x0 x1 j = ∑ k : Fin 256, x0 (ix2 (j 0) k) * x1 (ix2 k (j 1)) := by
  obtain ⟨a, b, rfl⟩ : ∃ (a : Fin 2000) (b : Fin 256), j = ix2 a b := ⟨j 0, j 1, eq_ix2 j⟩
  exact pay4_apply x0 x1 a b

/-- The printed index maps, decided over the 25 grid points: the row operand's and the result's block index on the
    long axis is the point's number and 0 on the other axis; the weight's block index is (0, 0) at every point. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point `t` writes back is block `t` of `G4` of the two input arrays as the region finds them. -/
theorem flushed4_eq (c : Dev nD) (t : Fin cfg4.N) :
    (dat4 (F := Ideal) V c).flushed 2 t
      = ((cfg4.win 2).blk t).view.read (Elt Ideal) (G4 (V c main_v53) (V c main_arg9)) := by
  show (cfg4.win 2).cut (grid4.coords t) ((dat4 V c).after 2 t) = _
  rw [after4_2]
  unfold out4_2
  rw [View.canon_unit_zero hz2]
  simp only [View.ld_unit_zero (S := S2000x256) hz2, View.ld_unit_zero (S := S256x256) hz2]
  obtain ⟨e00, e01, e10, e11, e20, e21⟩ := idx_facts4 t
  funext j
  show k4_pay1 (iblk4 V c 0 t) (iblk4 V c 1 t) j = _
  refine (pay4_at (iblk4 V c 0 t) (iblk4 V c 1 t) j).trans ?_
  show _ = G4 (V c main_v53) (V c main_arg9) (((cfg4.win 2).blk t).view.emb j)
  refine Finset.sum_congr rfl fun k _ => ?_
  have h0 : (((cfg4.win 0).blk t).view.emb (ix2 (n0 := 2000) (n1 := 256) (j 0) k) : S50000x256.Idx)
      = ix2 (n0 := 50000) (n1 := 256) ((((cfg4.win 2).blk t).view.emb j) 0) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  have h1 : (((cfg4.win 1).blk t).view.emb (ix2 (n0 := 256) (n1 := 256) k (j 1)) : S256x256.Idx)
      = ix2 (n0 := 256) (n1 := 256) k ((((cfg4.win 2).blk t).view.emb j) 1) := by
    funext a; apply Fin.ext
    match a with
    | ⟨0, _⟩ => show win4_1.index t (0 : Fin 2) * 256 + 1 * k.val = k.val; omega
    | ⟨1, _⟩ => show win4_1.index t (1 : Fin 2) * 256 + 1 * (j 1).val = win4_2.index t (1 : Fin 2) * 256 + 1 * (j 1).val; omega
  have hL : iblk4 V c 0 t (ix2 (n0 := 2000) (n1 := 256) (j 0) k)
      = V c main_v53 (ix2 (n0 := 50000) (n1 := 256) ((((cfg4.win 2).blk t).view.emb j) 0) k) := congrArg (V c main_v53) h0
  have hR : iblk4 V c 1 t (ix2 (n0 := 256) (n1 := 256) k (j 1))
      = V c main_arg9 (ix2 (n0 := 256) (n1 := 256) k ((((cfg4.win 2).blk t).view.emb j) 1)) := congrArg (V c main_arg9) h1
  exact congr (congrArg HMul.hMul hL) hR

/-- An index of the product array is in point `t`'s block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v54).slice (win4_2.rect t)).set ↔ _
  rw [View.set_slice_whole, Rect.mem_set_unit]
  exact Iff.rfl

/-- The 25 blocks of 2000 rows tile the 50000 rows: row `r` is in the block of point `r / 2000`. -/
theorem cover4 (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have ht : (i 0).val / 2000 < cfg4.N := by rw [show cfg4.N = 25 from N_4]; omega
  obtain ⟨-, -, -, -, e20, e21⟩ := idx_facts4 ⟨(i 0).val / 2000, ht⟩
  have e20' : win4_2.index ⟨(i 0).val / 2000, ht⟩ (0 : Fin 2) = (i 0).val / 2000 := e20
  refine ⟨⟨(i 0).val / 2000, ht⟩, flush4_2 _, ?_⟩
  rw [mem_blk4]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    omega
  | ⟨1, _⟩ =>
    show win4_2.index ⟨(i 0).val / 2000, ht⟩ (1 : Fin 2) * 256 ≤ (i 1).val
      ∧ (i 1).val < win4_2.index ⟨(i 0).val / 2000, ht⟩ (1 : Fin 2) * 256 + 256
    omega

/-- THE PRODUCT ARRAY after the region: `G4` of the two input arrays as the region finds them. -/
theorem final4 (c : Dev nD) :
    (dat4 (F := Ideal) V c).arrAt 2 cfg4.N = G4 (V c main_v53) (V c main_arg9) :=
  (dat4 (F := Ideal) V c).arrAt_eq_of_cover 2 (G4 (V c main_v53) (V c main_arg9))
    (fun t _ => flushed4_eq V c t) cover4

end Cert.KernelIdeal.Reg4

namespace Cert.KernelIdeal.Reg8
open Cert.KernelIdeal Cert.KernelIdeal.Gen Cert.KernelIdeal.Matmul

/-- The whole product array, index by index: entry (r, n) is the sum over k of the row operand at (r, k) times the
    weight at (k, n). -/
abbrev G8 (x : S50000x256.Idx → Elt Ideal .f32) (w : S256x128.Idx → Elt Ideal .f32) : S50000x128.Idx → Elt Ideal .f32 :=
  fun i => ∑ k : Fin 256, x (ix2 (i 0) k) * w (ix2 k (i 1))

/-- The body's payload at entry (a, b) of a block: the contraction's one axis re-indexed by its coordinate, the left
    index (a, k) and the right index (k, b). -/
theorem pay8_apply (x0 : Vec Ideal S2000x256 .f32) (x1 : Vec Ideal S256x128 .f32) (a : Fin 2000) (b : Fin 128) :
    k8_pay1 x0 x1 (ix2 a b) = ∑ k : Fin 256, x0 (ix2 a k) * x1 (ix2 k b) := by
  unfold k8_pay1
  simp only [shapeCast_self]
  refine (Ideal.matmul_constant_zero_apply dot_S2000x256_S256x128_S2000x128_1_0_0_1_n_n none _ _ (ix2 a b)).trans ?_
  rw [← Equiv.sum_comp (contrEquiv1 dot_S2000x256_S256x128_S2000x128_1_0_0_1_n_n 256 rfl rfl).symm]
  refine Finset.sum_congr rfl fun c _ => ?_
  have c2 := contrEquiv1_symm_val dot_S2000x256_S256x128_S2000x128_1_0_0_1_n_n 256 rfl rfl c
  have l2 : dot_S2000x256_S256x128_S2000x128_1_0_0_1_n_n.lhsIdx (ix2 a b) ((contrEquiv1 dot_S2000x256_S256x128_S2000x128_1_0_0_1_n_n 256 rfl rfl).symm c) = ix2 a c := by
    funext ax; apply Fin.ext
    match ax with
    | ⟨0, _⟩ => simp [DotDims.lhsIdx, dot_S2000x256_S256x128_S2000x128_1_0_0_1_n_n]; rfl
    | ⟨1, _⟩ => simp [DotDims.lhsIdx, dot_S2000x256_S256x128_S2000x128_1_0_0_1_n_n]; exact c2
  have r2 : dot_S2000x256_S256x128_S2000x128_1_0_0_1_n_n.rhsIdx (ix2 a b) ((contrEquiv1 dot_S2000x256_S256x128_S2000x128_1_0_0_1_n_n 256 rfl rfl).symm c) = ix2 c b := by
    funext ax; apply Fin.ext
    match ax with
    | ⟨0, _⟩ => simp [DotDims.rhsIdx, dot_S2000x256_S256x128_S2000x128_1_0_0_1_n_n]; exact c2
    | ⟨1, _⟩ => simp [DotDims.rhsIdx, dot_S2000x256_S256x128_S2000x128_1_0_0_1_n_n]; rfl
  rw [l2, r2]
  rfl

theorem pay8_at (x0 : Vec Ideal S2000x256 .f32) (x1 : Vec Ideal S256x128 .f32) (j : S2000x128.Idx) :
    k8_pay1 x0 x1 j = ∑ k : Fin 256, x0 (ix2 (j 0) k) * x1 (ix2 k (j 1)) := by
  obtain ⟨a, b, rfl⟩ : ∃ (a : Fin 2000) (b : Fin 128), j = ix2 a b := ⟨j 0, j 1, eq_ix2 j⟩
  exact pay8_apply x0 x1 a b

/-- The printed index maps, decided over the 25 grid points: the row operand's and the result's block index on the
    long axis is the point's number and 0 on the other axis; the weight's block index is (0, 0) at every point. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

variable (V : (c : Dev nD) → (b : Ref sig .tc) → Buf (Elt Ideal) ((c : Thread nD τ).loc b))

/-- What point `t` writes back is block `t` of `G8` of the two input arrays as the region finds them. -/
theorem flushed8_eq (c : Dev nD) (t : Fin cfg8.N) :
    (dat8 (F := Ideal) V c).flushed 2 t
      = ((cfg8.win 2).blk t).view.read (Elt Ideal) (G8 (V c main_v102) (V c main_arg15)) := by
  show (cfg8.win 2).cut (grid8.coords t) ((dat8 V c).after 2 t) = _
  rw [after8_2]
  unfold out8_2
  rw [View.canon_unit_zero hz2]
  simp only [View.ld_unit_zero (S := S2000x256) hz2, View.ld_unit_zero (S := S256x128) hz2]
  obtain ⟨e00, e01, e10, e11, e20, e21⟩ := idx_facts8 t
  funext j
  show k8_pay1 (iblk8 V c 0 t) (iblk8 V c 1 t) j = _
  refine (pay8_at (iblk8 V c 0 t) (iblk8 V c 1 t) j).trans ?_
  show _ = G8 (V c main_v102) (V c main_arg15) (((cfg8.win 2).blk t).view.emb j)
  refine Finset.sum_congr rfl fun k _ => ?_
  have h0 : (((cfg8.win 0).blk t).view.emb (ix2 (n0 := 2000) (n1 := 256) (j 0) k) : S50000x256.Idx)
      = ix2 (n0 := 50000) (n1 := 256) ((((cfg8.win 2).blk t).view.emb j) 0) k := by
    funext a; apply Fin.ext
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 256 + 1 * k.val = k.val; omega
  have h1 : (((cfg8.win 1).blk t).view.emb (ix2 (n0 := 256) (n1 := 128) k (j 1)) : S256x128.Idx)
      = ix2 (n0 := 256) (n1 := 128) k ((((cfg8.win 2).blk t).view.emb j) 1) := by
    funext a; apply Fin.ext
    match a with
    | ⟨0, _⟩ => show win8_1.index t (0 : Fin 2) * 256 + 1 * k.val = k.val; omega
    | ⟨1, _⟩ => show win8_1.index t (1 : Fin 2) * 128 + 1 * (j 1).val = win8_2.index t (1 : Fin 2) * 128 + 1 * (j 1).val; omega
  have hL : iblk8 V c 0 t (ix2 (n0 := 2000) (n1 := 256) (j 0) k)
      = V c main_v102 (ix2 (n0 := 50000) (n1 := 256) ((((cfg8.win 2).blk t).view.emb j) 0) k) := congrArg (V c main_v102) h0
  have hR : iblk8 V c 1 t (ix2 (n0 := 256) (n1 := 128) k (j 1))
      = V c main_arg15 (ix2 (n0 := 256) (n1 := 128) k ((((cfg8.win 2).blk t).view.emb j) 1)) := congrArg (V c main_arg15) h1
  exact congr (congrArg HMul.hMul hL) hR

/-- An index of the product array is in point `t`'s block iff each coordinate is in the block's range on its axis. -/
theorem mem_blk8 (t : Fin cfg8.N) (i : S50000x128.Idx) :
    i ∈ ((cfg8.win 2).blk t).view.set ↔ ∀ a : Fin 2, win8_2.index t a * S2000x128.size a ≤ (i a).val
      ∧ (i a).val < win8_2.index t a * S2000x128.size a + S2000x128.size a := by
  show i ∈ ((View.whole main_v103).slice (win8_2.rect t)).set ↔ _
  rw [View.set_slice_whole, Rect.mem_set_unit]
  exact Iff.rfl

/-- The 25 blocks of 2000 rows tile the 50000 rows: row `r` is in the block of point `r / 2000`. -/
theorem cover8 (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  have ht : (i 0).val / 2000 < cfg8.N := by rw [show cfg8.N = 25 from N_8]; omega
  obtain ⟨-, -, -, -, e20, e21⟩ := idx_facts8 ⟨(i 0).val / 2000, ht⟩
  have e20' : win8_2.index ⟨(i 0).val / 2000, ht⟩ (0 : Fin 2) = (i 0).val / 2000 := e20
  refine ⟨⟨(i 0).val / 2000, ht⟩, flush8_2 _, ?_⟩
  rw [mem_blk8]
  intro a
  match a with
  | ⟨0, _⟩ =>
    show win8_2.index ⟨(i 0).val / 2000, ht⟩ (0 : Fin 2) * 2000 ≤ (i 0).val
      ∧ (i 0).val < win8_2.index ⟨(i 0).val / 2000, ht⟩ (0 : Fin 2) * 2000 + 2000
    omega
  | ⟨1, _⟩ =>
    show win8_2.index ⟨(i 0).val / 2000, ht⟩ (1 : Fin 2) * 128 ≤ (i 1).val
      ∧ (i 1).val < win8_2.index ⟨(i 0).val / 2000, ht⟩ (1 : Fin 2) * 128 + 128
    omega

/-- THE PRODUCT ARRAY after the region: `G8` of the two input arrays as the region finds them. -/
theorem final8 (c : Dev nD) :
    (dat8 (F := Ideal) V c).arrAt 2 cfg8.N = G8 (V c main_v102) (V c main_arg15) :=
  (dat8 (F := Ideal) V c).arrAt_eq_of_cover 2 (G8 (V c main_v102) (V c main_arg15))
    (fun t _ => flushed8_eq V c t) cover8

end Cert.KernelIdeal.Reg8

end
-- ==== Proof.RegAttn.lean ====
/- The three attention-score regions, each as ONE function of its input arrays index by index: the score array after the
   region is, entry by entry, the exponential of the edge weight times the leaky rectifier of the sum of the two
   gathered attention terms. Per region: the body's payload read at an index, the block a grid point writes back, the
   cover of the array by the blocks, and the whole-array equation. -/
import proofs.«158057_j81853486727297_2_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Attn

theorem hz2 : (![0, 0] : Fin 2 → Nat) = fun _ => 0 := funext fun a => by fin_cases a <;> rfl

/-- One attention score: with s = x + y, the value s where s > 0 and s times the slope (the literal word) elsewhere,
    times the edge weight w, exponentiated. -/
def score (x y w : Ideal .f32) : Ideal .f32 :=
  FloatOps.exp (Scalar.select (FloatOps.cmpf .ogt (x + y) (Scalar.ofBits .f32 0x00000000#32)) (x + y)
    ((x + y) * Scalar.ofBits .f32 0x3E4CCCCD#32) * w)

end Cert.KernelIdeal.Attn

namespace Cert.KernelIdeal.Reg1
open Cert.KernelIdeal Cert.KernelIdeal.Gen Cert.KernelIdeal.Attn

/-- The whole score array, index by index: entry (e, h) reads the two terms at (e, h) and the weight at (e, 0). -/
abbrev G1 (a0 a1 : S500000x4.Idx → Elt Ideal .f32) (a2 : S500000x1.Idx → Elt Ideal .f32) : S500000x4.Idx → Elt Ideal .f32 :=
  fun i => score (a0 i) (a1 i) (a2 (ix2 (i 0) 0))

/-- The body's payload at entry (p, q) of a block: the casts to the same shape are the identity, the weight column is
    broadcast along the short axis. -/
theorem pay1_apply (x0 x1 : Vec Ideal S5000x4 .f32) (x2 : Vec Ideal S5000x1 .f32) (p : Fin 5000) (q : Fin 4) :
    k1_pay1 x0 x1 x2 (ix2 p q) = score (x0 (ix2 p q)) (x1 (ix2 p q)) (x2 (ix2 p 0)) := by
  unfold k1_pay1
  simp only [shapeCast_self]
  have hb : broadcastTo S5000x4 x2 broadcasts_S5000x1_S5000x4 (ix2 p q) = x2 (ix2 p 0) :=
    broadcastTo_apply x2 _ (ix2 p q) (ix2 p 0) (fun a => by
      match a with
      | ⟨0, _⟩ => rfl
      | ⟨1, _⟩ => rfl)
  unfold score
  rw [← hb]
  rfl

theorem pay1_at (x0 x1 : Vec Ideal S5000x4 .f32) (x2 : Vec Ideal S5000x1 .f32) (j : S5000x4.Idx) :
    k1_pay1 x0 x1 x2 j = score (x0 j) (x1 j) (x2 (ix2 (j 0) 0)) := by
  obtain ⟨p, q, rfl⟩ : ∃ (p : Fin 5000) (q : Fin 4), j = ix2 p q := ⟨j 0, j 1, eq_ix2 j⟩
  exact pay1_apply x0 x1 x2 p q

/-- The printed index maps, decided over the 100 grid points: every window's block index on the long axis is the
    point's number, and 0 on the short axis. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `G1` of the three input arrays as the region finds them. -/
theorem flushed1_eq (c : Dev nD) (t : Fin cfg1.N) :
    (dat1 (F := Ideal) V c).flushed 3 t
      = ((cfg1.win 3).blk t).view.read (Elt Ideal) (G1 (V c main_v19) (V c main_v26) (V c main_v4)) := by
  show (cfg1.win 3).cut (grid1.coords t) ((dat1 V c).after 3 t) = _
  rw [after1_3]
  unfold out1_3
  rw [View.canon_unit_zero hz2]
  simp only [View.ld_unit_zero (S := S5000x4) hz2, View.ld_unit_zero (S := S5000x1) hz2]
  obtain ⟨e00, e01, e10, e11, e20, e21, e30, e31⟩ := idx_facts1 t
  funext j
  show k1_pay1 (iblk1 V c 0 t) (iblk1 V c 1 t) (iblk1 V c 2 t) j = _
  refine (pay1_at (iblk1 V c 0 t) (iblk1 V c 1 t) (iblk1 V c 2 t) j).trans ?_
  show score (V c main_v19 (((cfg1.win 0).blk t).view.emb j)) (V c main_v26 (((cfg1.win 1).blk t).view.emb j))
      (V c main_v4 (((cfg1.win 2).blk t).view.emb (ix2 (n0 := 5000) (n1 := 1) (j 0) 0)))
    = score (V c main_v19 (((cfg1.win 3).blk t).view.emb j)) (V c main_v26 (((cfg1.win 3).blk t).view.emb j))
      (V c main_v4 (ix2 (n0 := 500000) (n1 := 1) ((((cfg1.win 3).blk t).view.emb j) 0) 0))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 4 + 1 * (j 1).val = win1_3.index t (1 : Fin 2) * 4 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 4 + 1 * (j 1).val = win1_3.index t (1 : Fin 2) * 4 + 1 * (j 1).val; omega
  have h2 : (((cfg1.win 2).blk t).view.emb (ix2 (n0 := 5000) (n1 := 1) (j 0) 0) : S500000x1.Idx)
      = ix2 (n0 := 500000) (n1 := 1) ((((cfg1.win 3).blk t).view.emb j) 0) 0 := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega
  rw [h0, h1, h2]

/-- An index of the score array is in point `t`'s block iff each coordinate is in the block's range on its axis. -/
theorem mem_blk1 (t : Fin cfg1.N) (i : S500000x4.Idx) :
    i ∈ ((cfg1.win 3).blk t).view.set ↔ ∀ a : Fin 2, win1_3.index t a * S5000x4.size a ≤ (i a).val
      ∧ (i a).val < win1_3.index t a * S5000x4.size a + S5000x4.size a := by
  show i ∈ ((View.whole main_v27).slice (win1_3.rect t)).set ↔ _
  rw [View.set_slice_whole, Rect.mem_set_unit]
  exact Iff.rfl

/-- The 100 blocks of 5000 rows tile the 500000 rows: row `r` is in the block of point `r / 5000`. -/
theorem cover1 (i : S500000x4.Idx) :
    ∃ t : Fin cfg1.N, (cfg1.win 3).flush t = true ∧ i ∈ ((cfg1.win 3).blk t).view.set := by
  have hi0 : (i 0).val < 500000 := (i 0).isLt
  have hi1 : (i 1).val < 4 := (i 1).isLt
  have ht : (i 0).val / 5000 < cfg1.N := by rw [show cfg1.N = 100 from N_1]; omega
  obtain ⟨-, -, -, -, -, -, e30, e31⟩ := idx_facts1 ⟨(i 0).val / 5000, ht⟩
  have e30' : win1_3.index ⟨(i 0).val / 5000, ht⟩ (0 : Fin 2) = (i 0).val / 5000 := e30
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 4 ≤ (i 1).val
      ∧ (i 1).val < win1_3.index ⟨(i 0).val / 5000, ht⟩ (1 : Fin 2) * 4 + 4
    omega

/-- THE SCORE ARRAY after the region: `G1` of the three input arrays as the region finds them. -/
theorem final1 (c : Dev nD) :
    (dat1 (F := Ideal) V c).arrAt 3 cfg1.N = G1 (V c main_v19) (V c main_v26) (V c main_v4) :=
  (dat1 (F := Ideal) V c).arrAt_eq_of_cover 3 (G1 (V c main_v19) (V c main_v26) (V c main_v4))
    (fun t _ => flushed1_eq V c t) cover1

end Cert.KernelIdeal.Reg1

namespace Cert.KernelIdeal.Reg5
open Cert.KernelIdeal Cert.KernelIdeal.Gen Cert.KernelIdeal.Attn

/-- The whole score array, index by index: entry (e, h) reads the two terms at (e, h) and the weight at (e, 0). -/
abbrev G5 (a0 a1 : S500000x4.Idx → Elt Ideal .f32) (a2 : S500000x1.Idx → Elt Ideal .f32) : S500000x4.Idx → Elt Ideal .f32 :=
  fun i => score (a0 i) (a1 i) (a2 (ix2 (i 0) 0))

/-- The body's payload at entry (p, q) of a block: the casts to the same shape are the identity, the weight column is
    broadcast along the short axis. -/
theorem pay5_apply (x0 x1 : Vec Ideal S5000x4 .f32) (x2 : Vec Ideal S5000x1 .f32) (p : Fin 5000) (q : Fin 4) :
    k5_pay1 x0 x1 x2 (ix2 p q) = score (x0 (ix2 p q)) (x1 (ix2 p q)) (x2 (ix2 p 0)) := by
  unfold k5_pay1
  simp only [shapeCast_self]
  have hb : broadcastTo S5000x4 x2 broadcasts_S5000x1_S5000x4 (ix2 p q) = x2 (ix2 p 0) :=
    broadcastTo_apply x2 _ (ix2 p q) (ix2 p 0) (fun a => by
      match a with
      | ⟨0, _⟩ => rfl
      | ⟨1, _⟩ => rfl)
  unfold score
  rw [← hb]
  rfl

theorem pay5_at (x0 x1 : Vec Ideal S5000x4 .f32) (x2 : Vec Ideal S5000x1 .f32) (j : S5000x4.Idx) :
    k5_pay1 x0 x1 x2 j = score (x0 j) (x1 j) (x2 (ix2 (j 0) 0)) := by
  obtain ⟨p, q, rfl⟩ : ∃ (p : Fin 5000) (q : Fin 4), j = ix2 p q := ⟨j 0, j 1, eq_ix2 j⟩
  exact pay5_apply x0 x1 x2 p q

/-- The printed index maps, decided over the 100 grid points: every window's block index on the long axis is the
    point's number, and 0 on the short axis. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What point `t` writes back is block `t` of `G5` of the three input arrays as the region finds them. -/
theorem flushed5_eq (c : Dev nD) (t : Fin cfg5.N) :
    (dat5 (F := Ideal) V c).flushed 3 t
      = ((cfg5.win 3).blk t).view.read (Elt Ideal) (G5 (V c main_v68) (V c main_v75) (V c main_v4)) := by
  show (cfg5.win 3).cut (grid5.coords t) ((dat5 V c).after 3 t) = _
  rw [after5_3]
  unfold out5_3
  rw [View.canon_unit_zero hz2]
  simp only [View.ld_unit_zero (S := S5000x4) hz2, View.ld_unit_zero (S := S5000x1) hz2]
  obtain ⟨e00, e01, e10, e11, e20, e21, e30, e31⟩ := idx_facts5 t
  funext j
  show k5_pay1 (iblk5 V c 0 t) (iblk5 V c 1 t) (iblk5 V c 2 t) j = _
  refine (pay5_at (iblk5 V c 0 t) (iblk5 V c 1 t) (iblk5 V c 2 t) j).trans ?_
  show score (V c main_v68 (((cfg5.win 0).blk t).view.emb j)) (V c main_v75 (((cfg5.win 1).blk t).view.emb j))
      (V c main_v4 (((cfg5.win 2).blk t).view.emb (ix2 (n0 := 5000) (n1 := 1) (j 0) 0)))
    = score (V c main_v68 (((cfg5.win 3).blk t).view.emb j)) (V c main_v75 (((cfg5.win 3).blk t).view.emb j))
      (V c main_v4 (ix2 (n0 := 500000) (n1 := 1) ((((cfg5.win 3).blk t).view.emb j) 0) 0))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 4 + 1 * (j 1).val = win5_3.index t (1 : Fin 2) * 4 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 4 + 1 * (j 1).val = win5_3.index t (1 : Fin 2) * 4 + 1 * (j 1).val; omega
  have h2 : (((cfg5.win 2).blk t).view.emb (ix2 (n0 := 5000) (n1 := 1) (j 0) 0) : S500000x1.Idx)
      = ix2 (n0 := 500000) (n1 := 1) ((((cfg5.win 3).blk t).view.emb j) 0) 0 := by
    funext a; apply Fin.ext
    match a with
    | ⟨0, _⟩ => show win5_2.index t (0 : Fin 2) * 5000 + 1 * (j 0).val = win5_3.index t (0 : Fin 2) * 5000 + 1 * (j 0).val; omega
    | ⟨1, _⟩ => show win5_2.index t (1 : Fin 2) * 1 + 1 * 0 = 0; omega
  rw [h0, h1, h2]

/-- An index of the score array is in point `t`'s block iff each coordinate is in the block's range on its axis. -/
theorem mem_blk5 (t : Fin cfg5.N) (i : S500000x4.Idx) :
    i ∈ ((cfg5.win 3).blk t).view.set ↔ ∀ a : Fin 2, win5_3.index t a * S5000x4.size a ≤ (i a).val
      ∧ (i a).val < win5_3.index t a * S5000x4.size a + S5000x4.size a := by
  show i ∈ ((View.whole main_v76).slice (win5_3.rect t)).set ↔ _
  rw [View.set_slice_whole, Rect.mem_set_unit]
  exact Iff.rfl

/-- The 100 blocks of 5000 rows tile the 500000 rows: row `r` is in the block of point `r / 5000`. -/
theorem cover5 (i : S500000x4.Idx) :
    ∃ t : Fin cfg5.N, (cfg5.win 3).flush t = true ∧ i ∈ ((cfg5.win 3).blk t).view.set := by
  have hi0 : (i 0).val < 500000 := (i 0).isLt
  have hi1 : (i 1).val < 4 := (i 1).isLt
  have ht : (i 0).val / 5000 < cfg5.N := by rw [show cfg5.N = 100 from N_5]; omega
  obtain ⟨-, -, -, -, -, -, e30, e31⟩ := idx_facts5 ⟨(i 0).val / 5000, ht⟩
  have e30' : win5_3.index ⟨(i 0).val / 5000, ht⟩ (0 : Fin 2) = (i 0).val / 5000 := e30
  refine ⟨⟨(i 0).val / 5000, ht⟩, flush5_3 _, ?_⟩
  rw [mem_blk5]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    omega
  | ⟨1, _⟩ =>
    show win5_3.index ⟨(i 0).val / 5000, ht⟩ (1 : Fin 2) * 4 ≤ (i 1).val
      ∧ (i 1).val < win5_3.index ⟨(i 0).val / 5000, ht⟩ (1 : Fin 2) * 4 + 4
    omega

/-- THE SCORE ARRAY after the region: `G5` of the three input arrays as the region finds them. -/
theorem final5 (c : Dev nD) :
    (dat5 (F := Ideal) V c).arrAt 3 cfg5.N = G5 (V c main_v68) (V c main_v75) (V c main_v4) :=
  (dat5 (F := Ideal) V c).arrAt_eq_of_cover 3 (G5 (V c main_v68) (V c main_v75) (V c main_v4))
    (fun t _ => flushed5_eq V c t) cover5

end Cert.KernelIdeal.Reg5

namespace Cert.KernelIdeal.Reg9
open Cert.KernelIdeal Cert.KernelIdeal.Gen Cert.KernelIdeal.Attn

/-- The whole score array (one head), index by index: entry i reads the two terms and the weight at i. -/
abbrev G9 (a0 a1 a2 : S500000x1.Idx → Elt Ideal .f32) : S500000x1.Idx → Elt Ideal .f32 :=
  fun i => score (a0 i) (a1 i) (a2 i)

/-- The body's payload at an entry of a block: the casts to the same shape are the identity, the rest is pointwise. -/
theorem pay9_at (x0 x1 x2 : Vec Ideal S5000x1 .f32) (j : S5000x1.Idx) :
    k9_pay1 x0 x1 x2 j = score (x0 j) (x1 j) (x2 j) := by
  unfold k9_pay1
  simp only [shapeCast_self]
  rfl

/-- The printed index maps, decided over the 100 grid points: every window's block index on the long axis is the
    point's number, and 0 on the unit axis. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

variable (V : (c : Dev nD) → (b : Ref sig .tc) → Buf (Elt Ideal) ((c : Thread nD τ).loc b))

/-- What point `t` writes back is block `t` of `G9` of the three input arrays as the region finds them. -/
theorem flushed9_eq (c : Dev nD) (t : Fin cfg9.N) :
    (dat9 (F := Ideal) V c).flushed 3 t
      = ((cfg9.win 3).blk t).view.read (Elt Ideal) (G9 (V c main_v117) (V c main_v124) (V c main_v4)) := by
  show (cfg9.win 3).cut (grid9.coords t) ((dat9 V c).after 3 t) = _
  rw [after9_3]
  unfold out9_3
  rw [View.canon_unit_zero hz2]
  simp only [View.ld_unit_zero (S := S5000x1) hz2]
  obtain ⟨e00, e01, e10, e11, e20, e21, e30, e31⟩ := idx_facts9 t
  funext j
  show k9_pay1 (iblk9 V c 0 t) (iblk9 V c 1 t) (iblk9 V c 2 t) j = _
  refine (pay9_at (iblk9 V c 0 t) (iblk9 V c 1 t) (iblk9 V c 2 t) j).trans ?_
  show score (V c main_v117 (((cfg9.win 0).blk t).view.emb j)) (V c main_v124 (((cfg9.win 1).blk t).view.emb j))
      (V c main_v4 (((cfg9.win 2).blk t).view.emb j))
    = score (V c main_v117 (((cfg9.win 3).blk t).view.emb j)) (V c main_v124 (((cfg9.win 3).blk t).view.emb j))
      (V c main_v4 (((cfg9.win 3).blk t).view.emb j))
  have h0 : ((cfg9.win 0).blk t).view.emb j = ((cfg9.win 3).blk t).view.emb j := by
    funext a; apply Fin.ext
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 1 + 1 * (j 1).val = win9_3.index t (1 : Fin 2) * 1 + 1 * (j 1).val; omega
  have h1 : ((cfg9.win 1).blk t).view.emb j = ((cfg9.win 3).blk t).view.emb j := by
    funext a; apply Fin.ext
    match a with
    | ⟨0, _⟩ => show win9_1.index t (0 : Fin 2) * 5000 + 1 * (j 0).val = win9_3.index t (0 : Fin 2) * 5000 + 1 * (j 0).val; omega
    | ⟨1, _⟩ => show win9_1.index t (1 : Fin 2) * 1 + 1 * (j 1).val = win9_3.index t (1 : Fin 2) * 1 + 1 * (j 1).val; omega
  have h2 : ((cfg9.win 2).blk t).view.emb j = ((cfg9.win 3).blk t).view.emb j := by
    funext a; apply Fin.ext
    match a with
    | ⟨0, _⟩ => show win9_2.index t (0 : Fin 2) * 5000 + 1 * (j 0).val = win9_3.index t (0 : Fin 2) * 5000 + 1 * (j 0).val; omega
    | ⟨1, _⟩ => show win9_2.index t (1 : Fin 2) * 1 + 1 * (j 1).val = win9_3.index t (1 : Fin 2) * 1 + 1 * (j 1).val; omega
  rw [h0, h1, h2]

/-- An index of the score array is in point `t`'s block iff each coordinate is in the block's range on its axis. -/
theorem mem_blk9 (t : Fin cfg9.N) (i : S500000x1.Idx) :
    i ∈ ((cfg9.win 3).blk t).view.set ↔ ∀ a : Fin 2, win9_3.index t a * S5000x1.size a ≤ (i a).val
      ∧ (i a).val < win9_3.index t a * S5000x1.size a + S5000x1.size a := by
  show i ∈ ((View.whole main_v125).slice (win9_3.rect t)).set ↔ _
  rw [View.set_slice_whole, Rect.mem_set_unit]
  exact Iff.rfl

/-- The 100 blocks of 5000 rows tile the 500000 rows: row `r` is in the block of point `r / 5000`. -/
theorem cover9 (i : S500000x1.Idx) :
    ∃ t : Fin cfg9.N, (cfg9.win 3).flush t = true ∧ i ∈ ((cfg9.win 3).blk t).view.set := by
  have hi0 : (i 0).val < 500000 := (i 0).isLt
  have hi1 : (i 1).val < 1 := (i 1).isLt
  have ht : (i 0).val / 5000 < cfg9.N := by rw [show cfg9.N = 100 from N_9]; omega
  obtain ⟨-, -, -, -, -, -, e30, e31⟩ := idx_facts9 ⟨(i 0).val / 5000, ht⟩
  have e30' : win9_3.index ⟨(i 0).val / 5000, ht⟩ (0 : Fin 2) = (i 0).val / 5000 := e30
  refine ⟨⟨(i 0).val / 5000, ht⟩, flush9_3 _, ?_⟩
  rw [mem_blk9]
  intro a
  match a with
  | ⟨0, _⟩ =>
    show win9_3.index ⟨(i 0).val / 5000, ht⟩ (0 : Fin 2) * 5000 ≤ (i 0).val
      ∧ (i 0).val < win9_3.index ⟨(i 0).val / 5000, ht⟩ (0 : Fin 2) * 5000 + 5000
    omega
  | ⟨1, _⟩ =>
    show win9_3.index ⟨(i 0).val / 5000, ht⟩ (1 : Fin 2) * 1 ≤ (i 1).val
      ∧ (i 1).val < win9_3.index ⟨(i 0).val / 5000, ht⟩ (1 : Fin 2) * 1 + 1
    omega

/-- THE SCORE ARRAY after the region: `G9` of the three input arrays as the region finds them. -/
theorem final9 (c : Dev nD) :
    (dat9 (F := Ideal) V c).arrAt 3 cfg9.N = G9 (V c main_v117) (V c main_v124) (V c main_v4) :=
  (dat9 (F := Ideal) V c).arrAt_eq_of_cover 3 (G9 (V c main_v117) (V c main_v124) (V c main_v4))
    (fun t _ => flushed9_eq V c t) cover9

end Cert.KernelIdeal.Reg9

end
-- ==== Proof.RegMsg.lean ====
/- The three message regions, each as ONE function of its input arrays index by index: the message array after the
   region is, entry by entry, the normalised attention weight (the score divided by its per-target sum plus the small
   literal) of the entry's edge and head, times the gathered feature. Per region: the body's payload read at an index
   (a cast that appends a unit axis followed by a broadcast along it reads the [rows, heads] operand at the entry's
   first two coordinates), the block a grid point writes back, the cover of the array by the blocks, and the
   whole-array equation. -/
import proofs.«158057_j81853486727297_2_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Msg

theorem hz2 : (![0, 0] : Fin 2 → Nat) = fun _ => 0 := funext fun a => by fin_cases a <;> rfl
theorem hz3 : (![0, 0, 0] : Fin 3 → Nat) = fun _ => 0 := funext fun a => by fin_cases a <;> rfl

/-- An `[a, b]` array cast to `[a, b, 1]` reads, at `(i, j, u)`, the operand at `(i, j)`: the two indices have the
    same row-major position. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- One message entry: the score e over its normaliser d plus the small literal (the word), times the feature h. -/
def msg (e d h : Ideal .f32) : Ideal .f32 :=
  Ideal.div e (d + (Scalar.ofBits .f32 0x24E69595#32 : Ideal .f32)) * h

end Cert.KernelIdeal.Msg

namespace Cert.KernelIdeal.Reg2
open Cert.KernelIdeal Cert.KernelIdeal.Gen Cert.KernelIdeal.Msg

/-- The whole message array, index by index: entry (e, h, k) reads the score and its normaliser at (e, h) and the
    gathered feature at (e, h, k). -/
abbrev G2 (e d : S500000x4.Idx → Elt Ideal .f32) (hg : S500000x4x64.Idx → Elt Ideal .f32) : S500000x4x64.Idx → Elt Ideal .f32 :=
  fun i => msg (e (ix2 (i 0) (i 1))) (d (ix2 (i 0) (i 1))) (hg i)

/-- A [rows, heads] block with a unit axis appended and then broadcast along it reads, at (p, q, r), the block at (p, q). -/
theorem bc2 (y : Vec Ideal S1000x4 .f32) (p : Fin 1000) (q : Fin 4) (r : Fin 64) :
    broadcastTo S1000x4x64 (shapeCast S1000x4x1 y shapeCasts_S1000x4_S1000x4x1) broadcasts_S1000x4x1_S1000x4x64 (ix3 p q r) = y (ix2 p q) := by
  refine (broadcastTo_apply _ _ (ix3 p q r) (ix3 p q 0) (fun a => by
      match a with
      | ⟨0, _⟩ => rfl
      | ⟨1, _⟩ => rfl
      | ⟨2, _⟩ => rfl)).trans ?_
  exact shapeCast_ab_ab1_apply y _ p q 0

/-- The body's payload at entry (p, q, r) of a block: the casts to the same shape are the identity, the quotient is
    read at (p, q). -/
theorem pay2_apply (x0 x1 : Vec Ideal S1000x4 .f32) (x2 : Vec Ideal S1000x4x64 .f32) (p : Fin 1000) (q : Fin 4) (r : Fin 64) :
    k2_pay1 x0 x1 x2 (ix3 p q r) = msg (x0 (ix2 p q)) (x1 (ix2 p q)) (x2 (ix3 p q r)) := by
  unfold k2_pay1
  simp only [shapeCast_self]
  refine Eq.trans ?_ (congrArg (fun z => z * x2 (ix3 p q r))
    (bc2 (divf x0 (addf x1 (broadcast S1000x4 (Scalar.ofBits .f32 0x24E69595#32 : Ideal .f32)))) p q r))
  rfl

theorem pay2_at (x0 x1 : Vec Ideal S1000x4 .f32) (x2 : Vec Ideal S1000x4x64 .f32) (j : S1000x4x64.Idx) :
    k2_pay1 x0 x1 x2 j = msg (x0 (ix2 (j 0) (j 1))) (x1 (ix2 (j 0) (j 1))) (x2 j) := by
  obtain ⟨p, q, r, rfl⟩ : ∃ (p : Fin 1000) (q : Fin 4) (r : Fin 64), j = ix3 p q r := ⟨j 0, j 1, j 2, eq_ix3 j⟩
  exact pay2_apply x0 x1 x2 p q r

/-- The printed index maps, decided over the 500 grid points: every window's block index on the long axis is the
    point's number, and 0 on the other axes. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0 :=
  (by decide +kernel : ∀ t : Fin grid2.N, _)

variable (V : (c : Dev nD) → (b : Ref sig .tc) → Buf (Elt Ideal) ((c : Thread nD τ).loc b))

/-- What point `t` writes back is block `t` of `G2` of the three input arrays as the region finds them. -/
theorem flushed2_eq (c : Dev nD) (t : Fin cfg2.N) :
    (dat2 (F := Ideal) V c).flushed 3 t
      = ((cfg2.win 3).blk t).view.read (Elt Ideal) (G2 (V c main_v27) (V c main_v37) (V c main_v44)) := by
  show (cfg2.win 3).cut (grid2.coords t) ((dat2 V c).after 3 t) = _
  rw [after2_3]
  unfold out2_3
  rw [View.canon_unit_zero hz3]
  simp only [View.ld_unit_zero (S := S1000x4) hz2, View.ld_unit_zero (S := S1000x4x64) hz3]
  obtain ⟨e00, e01, e10, e11, e20, e21, e22, e30, e31, e32⟩ := idx_facts2 t
  funext j
  show k2_pay1 (iblk2 V c 0 t) (iblk2 V c 1 t) (iblk2 V c 2 t) j = _
  refine (pay2_at (iblk2 V c 0 t) (iblk2 V c 1 t) (iblk2 V c 2 t) j).trans ?_
  show msg (V c main_v27 (((cfg2.win 0).blk t).view.emb (ix2 (n0 := 1000) (n1 := 4) (j 0) (j 1))))
      (V c main_v37 (((cfg2.win 1).blk t).view.emb (ix2 (n0 := 1000) (n1 := 4) (j 0) (j 1))))
      (V c main_v44 (((cfg2.win 2).blk t).view.emb j))
    = msg (V c main_v27 (ix2 (n0 := 500000) (n1 := 4) ((((cfg2.win 3).blk t).view.emb j) 0) ((((cfg2.win 3).blk t).view.emb j) 1)))
      (V c main_v37 (ix2 (n0 := 500000) (n1 := 4) ((((cfg2.win 3).blk t).view.emb j) 0) ((((cfg2.win 3).blk t).view.emb j) 1)))
      (V c main_v44 (((cfg2.win 3).blk t).view.emb j))
  have h0 : (((cfg2.win 0).blk t).view.emb (ix2 (n0 := 1000) (n1 := 4) (j 0) (j 1)) : S500000x4.Idx)
      = ix2 (n0 := 500000) (n1 := 4) ((((cfg2.win 3).blk t).view.emb j) 0) ((((cfg2.win 3).blk t).view.emb j) 1) := by
    funext a; apply Fin.ext
    match a with
    | ⟨0, _⟩ => show win2_0.index t (0 : Fin 2) * 1000 + 1 * (j 0).val = win2_3.index t (0 : Fin 3) * 1000 + 1 * (j 0).val; omega
    | ⟨1, _⟩ => show win2_0.index t (1 : Fin 2) * 4 + 1 * (j 1).val = win2_3.index t (1 : Fin 3) * 4 + 1 * (j 1).val; omega
  have h1 : (((cfg2.win 1).blk t).view.emb (ix2 (n0 := 1000) (n1 := 4) (j 0) (j 1)) : S500000x4.Idx)
      = ix2 (n0 := 500000) (n1 := 4) ((((cfg2.win 3).blk t).view.emb j) 0) ((((cfg2.win 3).blk t).view.emb j) 1) := by
    funext a; apply Fin.ext
    match a with
    | ⟨0, _⟩ => show win2_1.index t (0 : Fin 2) * 1000 + 1 * (j 0).val = win2_3.index t (0 : Fin 3) * 1000 + 1 * (j 0).val; omega
    | ⟨1, _⟩ => show win2_1.index t (1 : Fin 2) * 4 + 1 * (j 1).val = win2_3.index t (1 : Fin 3) * 4 + 1 * (j 1).val; omega
  have h2 : ((cfg2.win 2).blk t).view.emb j = ((cfg2.win 3).blk t).view.emb j := by
    funext a; apply Fin.ext
    match a with
    | ⟨0, _⟩ => show win2_2.index t (0 : Fin 3) * 1000 + 1 * (j 0).val = win2_3.index t (0 : Fin 3) * 1000 + 1 * (j 0).val; omega
    | ⟨1, _⟩ => show win2_2.index t (1 : Fin 3) * 4 + 1 * (j 1).val = win2_3.index t (1 : Fin 3) * 4 + 1 * (j 1).val; omega
    | ⟨2, _⟩ => show win2_2.index t (2 : Fin 3) * 64 + 1 * (j 2).val = win2_3.index t (2 : Fin 3) * 64 + 1 * (j 2).val; omega
  rw [h0, h1, h2]

/-- An index of the message array is in point `t`'s block iff each coordinate is in the block's range on its axis. -/
theorem mem_blk2 (t : Fin cfg2.N) (i : S500000x4x64.Idx) :
    i ∈ ((cfg2.win 3).blk t).view.set ↔ ∀ a : Fin 3, win2_3.index t a * S1000x4x64.size a ≤ (i a).val
      ∧ (i a).val < win2_3.index t a * S1000x4x64.size a + S1000x4x64.size a := by
  show i ∈ ((View.whole main_v45).slice (win2_3.rect t)).set ↔ _
  rw [View.set_slice_whole, Rect.mem_set_unit]
  exact Iff.rfl

/-- The 500 blocks of 1000 rows tile the 500000 rows: row `r` is in the block of point `r / 1000`. -/
theorem cover2 (i : S500000x4x64.Idx) :
    ∃ t : Fin cfg2.N, (cfg2.win 3).flush t = true ∧ i ∈ ((cfg2.win 3).blk t).view.set := by
  have hi0 : (i 0).val < 500000 := (i 0).isLt
  have hi1 : (i 1).val < 4 := (i 1).isLt
  have hi2 : (i 2).val < 64 := (i 2).isLt
  have ht : (i 0).val / 1000 < cfg2.N := by rw [show cfg2.N = 500 from N_2]; omega
  obtain ⟨-, -, -, -, -, -, -, e30, e31, e32⟩ := idx_facts2 ⟨(i 0).val / 1000, ht⟩
  have e30' : win2_3.index ⟨(i 0).val / 1000, ht⟩ (0 : Fin 3) = (i 0).val / 1000 := e30
  refine ⟨⟨(i 0).val / 1000, ht⟩, flush2_3 _, ?_⟩
  rw [mem_blk2]
  intro a
  match a with
  | ⟨0, _⟩ =>
    show win2_3.index ⟨(i 0).val / 1000, ht⟩ (0 : Fin 3) * 1000 ≤ (i 0).val
      ∧ (i 0).val < win2_3.index ⟨(i 0).val / 1000, ht⟩ (0 : Fin 3) * 1000 + 1000
    omega
  | ⟨1, _⟩ =>
    show win2_3.index ⟨(i 0).val / 1000, ht⟩ (1 : Fin 3) * 4 ≤ (i 1).val
      ∧ (i 1).val < win2_3.index ⟨(i 0).val / 1000, ht⟩ (1 : Fin 3) * 4 + 4
    omega
  | ⟨2, _⟩ =>
    show win2_3.index ⟨(i 0).val / 1000, ht⟩ (2 : Fin 3) * 64 ≤ (i 2).val
      ∧ (i 2).val < win2_3.index ⟨(i 0).val / 1000, ht⟩ (2 : Fin 3) * 64 + 64
    omega

/-- THE MESSAGE ARRAY after the region: `G2` of the three input arrays as the region finds them. -/
theorem final2 (c : Dev nD) :
    (dat2 (F := Ideal) V c).arrAt 3 cfg2.N = G2 (V c main_v27) (V c main_v37) (V c main_v44) :=
  (dat2 (F := Ideal) V c).arrAt_eq_of_cover 3 (G2 (V c main_v27) (V c main_v37) (V c main_v44))
    (fun t _ => flushed2_eq V c t) cover2

end Cert.KernelIdeal.Reg2

namespace Cert.KernelIdeal.Reg6
open Cert.KernelIdeal Cert.KernelIdeal.Gen Cert.KernelIdeal.Msg

/-- The whole message array, index by index: entry (e, h, k) reads the score and its normaliser at (e, h) and the
    gathered feature at (e, h, k). -/
abbrev G6 (e d : S500000x4.Idx → Elt Ideal .f32) (hg : S500000x4x64.Idx → Elt Ideal .f32) : S500000x4x64.Idx → Elt Ideal .f32 :=
  fun i => msg (e (ix2 (i 0) (i 1))) (d (ix2 (i 0) (i 1))) (hg i)

/-- A [rows, heads] block with a unit axis appended and then broadcast along it reads, at (p, q, r), the block at (p, q). -/
theorem bc6 (y : Vec Ideal S1000x4 .f32) (p : Fin 1000) (q : Fin 4) (r : Fin 64) :
    broadcastTo S1000x4x64 (shapeCast S1000x4x1 y shapeCasts_S1000x4_S1000x4x1) broadcasts_S1000x4x1_S1000x4x64 (ix3 p q r) = y (ix2 p q) := by
  refine (broadcastTo_apply _ _ (ix3 p q r) (ix3 p q 0) (fun a => by
      match a with
      | ⟨0, _⟩ => rfl
      | ⟨1, _⟩ => rfl
      | ⟨2, _⟩ => rfl)).trans ?_
  exact shapeCast_ab_ab1_apply y _ p q 0

/-- The body's payload at entry (p, q, r) of a block: the casts to the same shape are the identity, the quotient is
    read at (p, q). -/
theorem pay6_apply (x0 x1 : Vec Ideal S1000x4 .f32) (x2 : Vec Ideal S1000x4x64 .f32) (p : Fin 1000) (q : Fin 4) (r : Fin 64) :
    k6_pay1 x0 x1 x2 (ix3 p q r) = msg (x0 (ix2 p q)) (x1 (ix2 p q)) (x2 (ix3 p q r)) := by
  unfold k6_pay1
  simp only [shapeCast_self]
  refine Eq.trans ?_ (congrArg (fun z => z * x2 (ix3 p q r))
    (bc6 (divf x0 (addf x1 (broadcast S1000x4 (Scalar.ofBits .f32 0x24E69595#32 : Ideal .f32)))) p q r))
  rfl

theorem pay6_at (x0 x1 : Vec Ideal S1000x4 .f32) (x2 : Vec Ideal S1000x4x64 .f32) (j : S1000x4x64.Idx) :
    k6_pay1 x0 x1 x2 j = msg (x0 (ix2 (j 0) (j 1))) (x1 (ix2 (j 0) (j 1))) (x2 j) := by
  obtain ⟨p, q, r, rfl⟩ : ∃ (p : Fin 1000) (q : Fin 4) (r : Fin 64), j = ix3 p q r := ⟨j 0, j 1, j 2, eq_ix3 j⟩
  exact pay6_apply x0 x1 x2 p q r

/-- The printed index maps, decided over the 500 grid points: every window's block index on the long axis is the
    point's number, and 0 on the other axes. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 3) = t.val ∧ win6_2.index t (1 : Fin 3) = 0 ∧ win6_2.index t (2 : Fin 3) = 0
    ∧ win6_3.index t (0 : Fin 3) = t.val ∧ win6_3.index t (1 : Fin 3) = 0 ∧ win6_3.index t (2 : Fin 3) = 0 :=
  (by decide +kernel : ∀ t : Fin grid6.N, _)

variable (V : (c : Dev nD) → (b : Ref sig .tc) → Buf (Elt Ideal) ((c : Thread nD τ).loc b))

/-- What point `t` writes back is block `t` of `G6` of the three input arrays as the region finds them. -/
theorem flushed6_eq (c : Dev nD) (t : Fin cfg6.N) :
    (dat6 (F := Ideal) V c).flushed 3 t
      = ((cfg6.win 3).blk t).view.read (Elt Ideal) (G6 (V c main_v76) (V c main_v86) (V c main_v93)) := by
  show (cfg6.win 3).cut (grid6.coords t) ((dat6 V c).after 3 t) = _
  rw [after6_3]
  unfold out6_3
  rw [View.canon_unit_zero hz3]
  simp only [View.ld_unit_zero (S := S1000x4) hz2, View.ld_unit_zero (S := S1000x4x64) hz3]
  obtain ⟨e00, e01, e10, e11, e20, e21, e22, e30, e31, e32⟩ := idx_facts6 t
  funext j
  show k6_pay1 (iblk6 V c 0 t) (iblk6 V c 1 t) (iblk6 V c 2 t) j = _
  refine (pay6_at (iblk6 V c 0 t) (iblk6 V c 1 t) (iblk6 V c 2 t) j).trans ?_
  show msg (V c main_v76 (((cfg6.win 0).blk t).view.emb (ix2 (n0 := 1000) (n1 := 4) (j 0) (j 1))))
      (V c main_v86 (((cfg6.win 1).blk t).view.emb (ix2 (n0 := 1000) (n1 := 4) (j 0) (j 1))))
      (V c main_v93 (((cfg6.win 2).blk t).view.emb j))
    = msg (V c main_v76 (ix2 (n0 := 500000) (n1 := 4) ((((cfg6.win 3).blk t).view.emb j) 0) ((((cfg6.win 3).blk t).view.emb j) 1)))
      (V c main_v86 (ix2 (n0 := 500000) (n1 := 4) ((((cfg6.win 3).blk t).view.emb j) 0) ((((cfg6.win 3).blk t).view.emb j) 1)))
      (V c main_v93 (((cfg6.win 3).blk t).view.emb j))
  have h0 : (((cfg6.win 0).blk t).view.emb (ix2 (n0 := 1000) (n1 := 4) (j 0) (j 1)) : S500000x4.Idx)
      = ix2 (n0 := 500000) (n1 := 4) ((((cfg6.win 3).blk t).view.emb j) 0) ((((cfg6.win 3).blk t).view.emb j) 1) := by
    funext a; apply Fin.ext
    match a with
    | ⟨0, _⟩ => show win6_0.index t (0 : Fin 2) * 1000 + 1 * (j 0).val = win6_3.index t (0 : Fin 3) * 1000 + 1 * (j 0).val; omega
    | ⟨1, _⟩ => show win6_0.index t (1 : Fin 2) * 4 + 1 * (j 1).val = win6_3.index t (1 : Fin 3) * 4 + 1 * (j 1).val; omega
  have h1 : (((cfg6.win 1).blk t).view.emb (ix2 (n0 := 1000) (n1 := 4) (j 0) (j 1)) : S500000x4.Idx)
      = ix2 (n0 := 500000) (n1 := 4) ((((cfg6.win 3).blk t).view.emb j) 0) ((((cfg6.win 3).blk t).view.emb j) 1) := by
    funext a; apply Fin.ext
    match a with
    | ⟨0, _⟩ => show win6_1.index t (0 : Fin 2) * 1000 + 1 * (j 0).val = win6_3.index t (0 : Fin 3) * 1000 + 1 * (j 0).val; omega
    | ⟨1, _⟩ => show win6_1.index t (1 : Fin 2) * 4 + 1 * (j 1).val = win6_3.index t (1 : Fin 3) * 4 + 1 * (j 1).val; omega
  have h2 : ((cfg6.win 2).blk t).view.emb j = ((cfg6.win 3).blk t).view.emb j := by
    funext a; apply Fin.ext
    match a with
    | ⟨0, _⟩ => show win6_2.index t (0 : Fin 3) * 1000 + 1 * (j 0).val = win6_3.index t (0 : Fin 3) * 1000 + 1 * (j 0).val; omega
    | ⟨1, _⟩ => show win6_2.index t (1 : Fin 3) * 4 + 1 * (j 1).val = win6_3.index t (1 : Fin 3) * 4 + 1 * (j 1).val; omega
    | ⟨2, _⟩ => show win6_2.index t (2 : Fin 3) * 64 + 1 * (j 2).val = win6_3.index t (2 : Fin 3) * 64 + 1 * (j 2).val; omega
  rw [h0, h1, h2]

/-- An index of the message array is in point `t`'s block iff each coordinate is in the block's range on its axis. -/
theorem mem_blk6 (t : Fin cfg6.N) (i : S500000x4x64.Idx) :
    i ∈ ((cfg6.win 3).blk t).view.set ↔ ∀ a : Fin 3, win6_3.index t a * S1000x4x64.size a ≤ (i a).val
      ∧ (i a).val < win6_3.index t a * S1000x4x64.size a + S1000x4x64.size a := by
  show i ∈ ((View.whole main_v94).slice (win6_3.rect t)).set ↔ _
  rw [View.set_slice_whole, Rect.mem_set_unit]
  exact Iff.rfl

/-- The 500 blocks of 1000 rows tile the 500000 rows: row `r` is in the block of point `r / 1000`. -/
theorem cover6 (i : S500000x4x64.Idx) :
    ∃ t : Fin cfg6.N, (cfg6.win 3).flush t = true ∧ i ∈ ((cfg6.win 3).blk t).view.set := by
  have hi0 : (i 0).val < 500000 := (i 0).isLt
  have hi1 : (i 1).val < 4 := (i 1).isLt
  have hi2 : (i 2).val < 64 := (i 2).isLt
  have ht : (i 0).val / 1000 < cfg6.N := by rw [show cfg6.N = 500 from N_6]; omega
  obtain ⟨-, -, -, -, -, -, -, e30, e31, e32⟩ := idx_facts6 ⟨(i 0).val / 1000, ht⟩
  have e30' : win6_3.index ⟨(i 0).val / 1000, ht⟩ (0 : Fin 3) = (i 0).val / 1000 := e30
  refine ⟨⟨(i 0).val / 1000, ht⟩, flush6_3 _, ?_⟩
  rw [mem_blk6]
  intro a
  match a with
  | ⟨0, _⟩ =>
    show win6_3.index ⟨(i 0).val / 1000, ht⟩ (0 : Fin 3) * 1000 ≤ (i 0).val
      ∧ (i 0).val < win6_3.index ⟨(i 0).val / 1000, ht⟩ (0 : Fin 3) * 1000 + 1000
    omega
  | ⟨1, _⟩ =>
    show win6_3.index ⟨(i 0).val / 1000, ht⟩ (1 : Fin 3) * 4 ≤ (i 1).val
      ∧ (i 1).val < win6_3.index ⟨(i 0).val / 1000, ht⟩ (1 : Fin 3) * 4 + 4
    omega
  | ⟨2, _⟩ =>
    show win6_3.index ⟨(i 0).val / 1000, ht⟩ (2 : Fin 3) * 64 ≤ (i 2).val
      ∧ (i 2).val < win6_3.index ⟨(i 0).val / 1000, ht⟩ (2 : Fin 3) * 64 + 64
    omega

/-- THE MESSAGE ARRAY after the region: `G6` of the three input arrays as the region finds them. -/
theorem final6 (c : Dev nD) :
    (dat6 (F := Ideal) V c).arrAt 3 cfg6.N = G6 (V c main_v76) (V c main_v86) (V c main_v93) :=
  (dat6 (F := Ideal) V c).arrAt_eq_of_cover 3 (G6 (V c main_v76) (V c main_v86) (V c main_v93))
    (fun t _ => flushed6_eq V c t) cover6

end Cert.KernelIdeal.Reg6

namespace Cert.KernelIdeal.Reg10
open Cert.KernelIdeal Cert.KernelIdeal.Gen Cert.KernelIdeal.Msg

/-- The whole message array, index by index: entry (e, h, k) reads the score and its normaliser at (e, h) and the
    gathered feature at (e, h, k). -/
abbrev G10 (e d : S500000x1.Idx → Elt Ideal .f32) (hg : S500000x1x128.Idx → Elt Ideal .f32) : S500000x1x128.Idx → Elt Ideal .f32 :=
  fun i => msg (e (ix2 (i 0) (i 1))) (d (ix2 (i 0) (i 1))) (hg i)

/-- A [rows, heads] block with a unit axis appended and then broadcast along it reads, at (p, q, r), the block at (p, q). -/
theorem bc10 (y : Vec Ideal S1000x1 .f32) (p : Fin 1000) (q : Fin 1) (r : Fin 128) :
    broadcastTo S1000x1x128 (shapeCast S1000x1x1 y shapeCasts_S1000x1_S1000x1x1) broadcasts_S1000x1x1_S1000x1x128 (ix3 p q r) = y (ix2 p q) := by
  obtain rfl : q = 0 := Fin.eq_zero q
  refine (broadcastTo_apply _ _ (ix3 p 0 r) (ix3 p 0 0) (fun a => by
      match a with
      | ⟨0, _⟩ => rfl
      | ⟨1, _⟩ => rfl
      | ⟨2, _⟩ => rfl)).trans ?_
  exact shapeCast_ab_ab1_apply y _ p 0 0

/-- The body's payload at entry (p, q, r) of a block: the casts to the same shape are the identity, the quotient is
    read at (p, q). -/
theorem pay10_apply (x0 x1 : Vec Ideal S1000x1 .f32) (x2 : Vec Ideal S1000x1x128 .f32) (p : Fin 1000) (q : Fin 1) (r : Fin 128) :
    k10_pay1 x0 x1 x2 (ix3 p q r) = msg (x0 (ix2 p q)) (x1 (ix2 p q)) (x2 (ix3 p q r)) := by
  unfold k10_pay1
  simp only [shapeCast_self]
  refine Eq.trans ?_ (congrArg (fun z => z * x2 (ix3 p q r))
    (bc10 (divf x0 (addf x1 (broadcast S1000x1 (Scalar.ofBits .f32 0x24E69595#32 : Ideal .f32)))) p q r))
  rfl

theorem pay10_at (x0 x1 : Vec Ideal S1000x1 .f32) (x2 : Vec Ideal S1000x1x128 .f32) (j : S1000x1x128.Idx) :
    k10_pay1 x0 x1 x2 j = msg (x0 (ix2 (j 0) (j 1))) (x1 (ix2 (j 0) (j 1))) (x2 j) := by
  obtain ⟨p, q, r, rfl⟩ : ∃ (p : Fin 1000) (q : Fin 1) (r : Fin 128), j = ix3 p q r := ⟨j 0, j 1, j 2, eq_ix3 j⟩
  exact pay10_apply x0 x1 x2 p q r

/-- The printed index maps, decided over the 500 grid points: every window's block index on the long axis is the
    point's number, and 0 on the other axes. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 3) = t.val ∧ win10_2.index t (1 : Fin 3) = 0 ∧ win10_2.index t (2 : Fin 3) = 0
    ∧ win10_3.index t (0 : Fin 3) = t.val ∧ win10_3.index t (1 : Fin 3) = 0 ∧ win10_3.index t (2 : Fin 3) = 0 :=
  (by decide +kernel : ∀ t : Fin grid10.N, _)

variable (V : (c : Dev nD) → (b : Ref sig .tc) → Buf (Elt Ideal) ((c : Thread nD τ).loc b))

/-- What point `t` writes back is block `t` of `G10` of the three input arrays as the region finds them. -/
theorem flushed10_eq (c : Dev nD) (t : Fin cfg10.N) :
    (dat10 (F := Ideal) V c).flushed 3 t
      = ((cfg10.win 3).blk t).view.read (Elt Ideal) (G10 (V c main_v125) (V c main_v135) (V c main_v142)) := by
  show (cfg10.win 3).cut (grid10.coords t) ((dat10 V c).after 3 t) = _
  rw [after10_3]
  unfold out10_3
  rw [View.canon_unit_zero hz3]
  simp only [View.ld_unit_zero (S := S1000x1) hz2, View.ld_unit_zero (S := S1000x1x128) hz3]
  obtain ⟨e00, e01, e10, e11, e20, e21, e22, e30, e31, e32⟩ := idx_facts10 t
  funext j
  show k10_pay1 (iblk10 V c 0 t) (iblk10 V c 1 t) (iblk10 V c 2 t) j = _
  refine (pay10_at (iblk10 V c 0 t) (iblk10 V c 1 t) (iblk10 V c 2 t) j).trans ?_
  show msg (V c main_v125 (((cfg10.win 0).blk t).view.emb (ix2 (n0 := 1000) (n1 := 1) (j 0) (j 1))))
      (V c main_v135 (((cfg10.win 1).blk t).view.emb (ix2 (n0 := 1000) (n1 := 1) (j 0) (j 1))))
      (V c main_v142 (((cfg10.win 2).blk t).view.emb j))
    = msg (V c main_v125 (ix2 (n0 := 500000) (n1 := 1) ((((cfg10.win 3).blk t).view.emb j) 0) ((((cfg10.win 3).blk t).view.emb j) 1)))
      (V c main_v135 (ix2 (n0 := 500000) (n1 := 1) ((((cfg10.win 3).blk t).view.emb j) 0) ((((cfg10.win 3).blk t).view.emb j) 1)))
      (V c main_v142 (((cfg10.win 3).blk t).view.emb j))
  have h0 : (((cfg10.win 0).blk t).view.emb (ix2 (n0 := 1000) (n1 := 1) (j 0) (j 1)) : S500000x1.Idx)
      = ix2 (n0 := 500000) (n1 := 1) ((((cfg10.win 3).blk t).view.emb j) 0) ((((cfg10.win 3).blk t).view.emb j) 1) := by
    funext a; apply Fin.ext
    match a with
    | ⟨0, _⟩ => show win10_0.index t (0 : Fin 2) * 1000 + 1 * (j 0).val = win10_3.index t (0 : Fin 3) * 1000 + 1 * (j 0).val; omega
    | ⟨1, _⟩ => show win10_0.index t (1 : Fin 2) * 1 + 1 * (j 1).val = win10_3.index t (1 : Fin 3) * 1 + 1 * (j 1).val; omega
  have h1 : (((cfg10.win 1).blk t).view.emb (ix2 (n0 := 1000) (n1 := 1) (j 0) (j 1)) : S500000x1.Idx)
      = ix2 (n0 := 500000) (n1 := 1) ((((cfg10.win 3).blk t).view.emb j) 0) ((((cfg10.win 3).blk t).view.emb j) 1) := by
    funext a; apply Fin.ext
    match a with
    | ⟨0, _⟩ => show win10_1.index t (0 : Fin 2) * 1000 + 1 * (j 0).val = win10_3.index t (0 : Fin 3) * 1000 + 1 * (j 0).val; omega
    | ⟨1, _⟩ => show win10_1.index t (1 : Fin 2) * 1 + 1 * (j 1).val = win10_3.index t (1 : Fin 3) * 1 + 1 * (j 1).val; omega
  have h2 : ((cfg10.win 2).blk t).view.emb j = ((cfg10.win 3).blk t).view.emb j := by
    funext a; apply Fin.ext
    match a with
    | ⟨0, _⟩ => show win10_2.index t (0 : Fin 3) * 1000 + 1 * (j 0).val = win10_3.index t (0 : Fin 3) * 1000 + 1 * (j 0).val; omega
    | ⟨1, _⟩ => show win10_2.index t (1 : Fin 3) * 1 + 1 * (j 1).val = win10_3.index t (1 : Fin 3) * 1 + 1 * (j 1).val; omega
    | ⟨2, _⟩ => show win10_2.index t (2 : Fin 3) * 128 + 1 * (j 2).val = win10_3.index t (2 : Fin 3) * 128 + 1 * (j 2).val; omega
  rw [h0, h1, h2]

/-- An index of the message array is in point `t`'s block iff each coordinate is in the block's range on its axis. -/
theorem mem_blk10 (t : Fin cfg10.N) (i : S500000x1x128.Idx) :
    i ∈ ((cfg10.win 3).blk t).view.set ↔ ∀ a : Fin 3, win10_3.index t a * S1000x1x128.size a ≤ (i a).val
      ∧ (i a).val < win10_3.index t a * S1000x1x128.size a + S1000x1x128.size a := by
  show i ∈ ((View.whole main_v143).slice (win10_3.rect t)).set ↔ _
  rw [View.set_slice_whole, Rect.mem_set_unit]
  exact Iff.rfl

/-- The 500 blocks of 1000 rows tile the 500000 rows: row `r` is in the block of point `r / 1000`. -/
theorem cover10 (i : S500000x1x128.Idx) :
    ∃ t : Fin cfg10.N, (cfg10.win 3).flush t = true ∧ i ∈ ((cfg10.win 3).blk t).view.set := by
  have hi0 : (i 0).val < 500000 := (i 0).isLt
  have hi1 : (i 1).val < 1 := (i 1).isLt
  have hi2 : (i 2).val < 128 := (i 2).isLt
  have ht : (i 0).val / 1000 < cfg10.N := by rw [show cfg10.N = 500 from N_10]; omega
  obtain ⟨-, -, -, -, -, -, -, e30, e31, e32⟩ := idx_facts10 ⟨(i 0).val / 1000, ht⟩
  have e30' : win10_3.index ⟨(i 0).val / 1000, ht⟩ (0 : Fin 3) = (i 0).val / 1000 := e30
  refine ⟨⟨(i 0).val / 1000, ht⟩, flush10_3 _, ?_⟩
  rw [mem_blk10]
  intro a
  match a with
  | ⟨0, _⟩ =>
    show win10_3.index ⟨(i 0).val / 1000, ht⟩ (0 : Fin 3) * 1000 ≤ (i 0).val
      ∧ (i 0).val < win10_3.index ⟨(i 0).val / 1000, ht⟩ (0 : Fin 3) * 1000 + 1000
    omega
  | ⟨1, _⟩ =>
    show win10_3.index ⟨(i 0).val / 1000, ht⟩ (1 : Fin 3) * 1 ≤ (i 1).val
      ∧ (i 1).val < win10_3.index ⟨(i 0).val / 1000, ht⟩ (1 : Fin 3) * 1 + 1
    omega
  | ⟨2, _⟩ =>
    show win10_3.index ⟨(i 0).val / 1000, ht⟩ (2 : Fin 3) * 128 ≤ (i 2).val
      ∧ (i 2).val < win10_3.index ⟨(i 0).val / 1000, ht⟩ (2 : Fin 3) * 128 + 128
    omega

/-- THE MESSAGE ARRAY after the region: `G10` of the three input arrays as the region finds them. -/
theorem final10 (c : Dev nD) :
    (dat10 (F := Ideal) V c).arrAt 3 cfg10.N = G10 (V c main_v125) (V c main_v135) (V c main_v142) :=
  (dat10 (F := Ideal) V c).arrAt_eq_of_cover 3 (G10 (V c main_v125) (V c main_v135) (V c main_v142))
    (fun t _ => flushed10_eq V c t) cover10

end Cert.KernelIdeal.Reg10

end
-- ==== Proof.RegLnSpec.lean ====
/- The layer-normalisation regions' specification: the scalar formulas, the whole-array functions over literal shapes,
   and the three layout readings the blocks need (a column cast, a column broadcast, a lane sum). Imports no program. -/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.Ln

variable {α : Type}

/-- A `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` block over its second axis, at row `p`: the sum of the row. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats FTy.f32)
    (hacc : (0x00000000#32 : BitVec 32) = 0x00000000#32) (p : Fin a) :
    multiReduction .add [(1 : Fin 2)] (⟨1, ![a]⟩ : Shape) src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = ∑ k : Fin b, src (ix2 p k)
  refine Finset.sum_congr rfl fun k _ => congrArg src ?_
  funext d
  apply Fin.ext
  match d with
  | ⟨0, _⟩ => rfl
  | ⟨1, _⟩ => rfl

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-- One entry of a row normalised to zero mean and unit variance, scaled and shifted: with `mu` the row's sum divided by `d`
    and `v` the sum of the squared deviations divided by `d`, the entry is `(xb j - mu) * rsqrt (v + eps) * g j + be j`. -/
def lnorm {D : ℕ} (d eps : EReal) (xb g be : Fin D → EReal) (j : Fin D) : EReal :=
  let mu := Ideal.div (∑ k : Fin D, xb k) d
  let v := Ideal.div (∑ k : Fin D, (xb k - mu) * (xb k - mu)) d
  (xb j - mu) * Ideal.rsqrt (v + eps) * g j + be j

/-- The exponential linear unit: `y` where `y > 0`, `exp y - 1` elsewhere. -/
def elu (y : EReal) : EReal :=
  Scalar.select (FloatOps.cmpf (F := Ideal) (φ := .f32) .ogt y (Ideal.ofBits .f32 0x00000000#32)) y
    (Ideal.exp y - Ideal.ofBits .f32 0x3F800000#32)

/-- Rows of 256: entry `(p, q)` of the normalised, scaled and shifted row `p` of `x + b` (divisor 256, epsilon the
    single-precision word nearest 1e-5), through the exponential linear unit. -/
def G256pt (x : (⟨2, ![50000, 256]⟩ : Shape).Idx → EReal) (b g be : (⟨2, ![1, 256]⟩ : Shape).Idx → EReal)
    (p : Fin 50000) (q : Fin 256) : EReal :=
  elu (lnorm (Ideal.ofBits .f32 0x43800000#32) (Ideal.ofBits .f32 0x3727C5AC#32)
    (fun k : Fin 256 => x (ix2 p k) + b (ix2 (0 : Fin 1) k)) (fun k => g (ix2 (0 : Fin 1) k))
    (fun k => be (ix2 (0 : Fin 1) k)) q)

/-- The whole [50000, 256] array, index by index. -/
def G256 (x : (⟨2, ![50000, 256]⟩ : Shape).Idx → EReal) (b g be : (⟨2, ![1, 256]⟩ : Shape).Idx → EReal) :
    (⟨2, ![50000, 256]⟩ : Shape).Idx → EReal :=
  fun i => G256pt x b g be (i 0) (i 1)

/-- Rows of 128: entry `(p, q)` of the normalised, scaled and shifted row `p` of `x + b` (divisor 128, the same epsilon). -/
def G128pt (x : (⟨2, ![50000, 128]⟩ : Shape).Idx → EReal) (b g be : (⟨2, ![1, 128]⟩ : Shape).Idx → EReal)
    (p : Fin 50000) (q : Fin 128) : EReal :=
  lnorm (Ideal.ofBits .f32 0x43000000#32) (Ideal.ofBits .f32 0x3727C5AC#32)
    (fun k : Fin 128 => x (ix2 p k) + b (ix2 (0 : Fin 1) k)) (fun k => g (ix2 (0 : Fin 1) k))
    (fun k => be (ix2 (0 : Fin 1) k)) q

/-- The whole [50000, 128] array, index by index. -/
def G128 (x : (⟨2, ![50000, 128]⟩ : Shape).Idx → EReal) (b g be : (⟨2, ![1, 128]⟩ : Shape).Idx → EReal) :
    (⟨2, ![50000, 128]⟩ : Shape).Idx → EReal :=
  fun i => G128pt x b g be (i 0) (i 1)

end Cert.KernelIdeal.Ln

end
-- ==== Proof.RegLn3.lean ====
/- Region 3 of the kernel's @main (rows of 256 normalised, scaled, shifted, then the exponential linear unit): the array the region leaves is
   `Ln.G256` of the arrays it finds, for any contents at entry. The body's payload is read at an index; each point's
   write-back is its block of `Ln.G256`; the 25 blocks of 2000 rows cover the 50000 rows. -/
import proofs.«158057_j81853486727297_2_alg».proof.Proof.Gen.KernelIdeal.Frame
import proofs.«158057_j81853486727297_2_alg».proof.Proof.RegLnSpec

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg3

open Cert.KernelIdeal Cert.KernelIdeal.Gen Cert.KernelIdeal.Ln

theorem hz : (![0, 0] : Fin 2 → Nat) = fun _ => 0 := funext fun a => by fin_cases a <;> rfl

/-- The lane sum of a [2000, 256] block at row `p` is the sum of that row. -/
theorem rowSum (src : FVec Ideal S2000x256 .f32) (p : Fin 2000) :
    multiReduction .add [1] S2000 src 0x00000000#32 reduces_S2000x256_S2000 (.inl rfl) rfl (ix1 p) = ∑ k : Fin 256, src (ix2 p k) :=
  rowSum_apply src _ _ _ p

/-- The body's payload at row `p`, lane `q` of the block: the row of `v0 + v2` normalised, scaled by `v22`, shifted by `v26`, then the exponential linear unit. -/
theorem pay_apply (v0 : Vec Ideal S2000x256 .f32) (v2 v22 v26 : Vec Ideal S1x256 .f32) (p : Fin 2000) (q : Fin 256) :
    k3_pay1 v0 v2 v22 v26 (ix2 p q)
      = elu (lnorm (Ideal.ofBits .f32 0x43800000#32) (Ideal.ofBits .f32 0x3727C5AC#32)
          (fun k : Fin 256 => v0 (ix2 p k) + v2 (ix2 (0 : Fin 1) k)) (fun k => v22 (ix2 (0 : Fin 1) k))
          (fun k => v26 (ix2 (0 : Fin 1) k)) q) := by
  unfold k3_pay1
  simp only [shapeCast_self]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  unfold elu lnorm
  rfl

/-- The payload of blocks whose row `p` is row `r` of the arrays: the array function at row `r`. -/
theorem pay_of_rows (X : S50000x256.Idx → EReal) (B Gm Be : S1x256.Idx → EReal)
    (v0 : Vec Ideal S2000x256 .f32) (v2 v22 v26 : Vec Ideal S1x256 .f32) (r : Fin 50000) (p : Fin 2000) (q : Fin 256)
    (h0 : ∀ k : Fin 256, v0 (ix2 p k) = X (ix2 r k)) (h1 : ∀ k : Fin 256, v2 (ix2 (0 : Fin 1) k) = B (ix2 (0 : Fin 1) k))
    (h2 : ∀ k : Fin 256, v22 (ix2 (0 : Fin 1) k) = Gm (ix2 (0 : Fin 1) k))
    (h3 : ∀ k : Fin 256, v26 (ix2 (0 : Fin 1) k) = Be (ix2 (0 : Fin 1) k)) :
    k3_pay1 v0 v2 v22 v26 (ix2 p q) = G256 X B Gm Be (ix2 r q) := by
  rw [pay_apply]
  unfold G256 G256pt
  simp only [h0, h1, h2, h3]

/-- The printed index maps, decided over the 25 grid points: the row windows sit at block `t`, the parameter windows at block 0. -/
theorem idx_facts : ∀ t : Fin cfg3.N, win3_0.index t (0 : Fin 2) = t.val ∧ win3_0.index t (1 : Fin 2) = 0
    ∧ win3_4.index t (0 : Fin 2) = t.val ∧ win3_4.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

variable (V : (c : Dev nD) → (b : Ref sig .tc) → Buf (Elt Ideal) ((c : Thread nD τ).loc b))

/-- WHAT POINT `t` WRITES BACK is block `t` of `G256` of the arrays as the region finds them. -/
theorem flushed_eq (c : Dev nD) (t : Fin cfg3.N) :
    (dat3 (F := Ideal) V c).flushed 4 t
      = ((cfg3.win 4).blk t).view.read (Elt Ideal) (G256 (V c main_v49) (V c main_v50) (V c main_v51) (V c main_v52)) := by
  show (cfg3.win 4).cut (grid3.coords t) ((dat3 V c).after 4 t) = _
  rw [after3_4]
  unfold out3_4
  rw [View.canon_unit_zero hz]
  simp only [View.ld_unit_zero (S := S2000x256) hz, View.ld_unit_zero (S := S1x256) hz]
  obtain ⟨e00, e01, e40, e41, e10, e11, e20, e21, e30, e31⟩ := idx_facts t
  funext j
  have hj : (j : S2000x256.Idx) = ix2 (j 0) (j 1) := eq_ix2 j
  have he : (((cfg3.win 4).blk t).view.emb j : S50000x256.Idx) = ix2 ((((cfg3.win 4).blk t).view.emb j) 0) (j 1) := by
    funext a; apply Fin.ext
    match a with
    | ⟨0, _⟩ => rfl
    | ⟨1, _⟩ => show win3_4.index t (1 : Fin 2) * 256 + 1 * (j 1).val = (j 1).val; omega
  show k3_pay1 (iblk3 V c 0 t) (iblk3 V c 1 t) (iblk3 V c 2 t) (iblk3 V c 3 t) j
      = G256 (V c main_v49) (V c main_v50) (V c main_v51) (V c main_v52) (((cfg3.win 4).blk t).view.emb j)
  refine ((congrArg (k3_pay1 (iblk3 V c 0 t) (iblk3 V c 1 t) (iblk3 V c 2 t) (iblk3 V c 3 t)) hj).trans ?_).trans
    (congrArg (G256 (V c main_v49) (V c main_v50) (V c main_v51) (V c main_v52)) he.symm)
  refine pay_of_rows _ _ _ _ _ _ _ _ _ (j 0) (j 1) (fun k => ?_) (fun k => ?_) (fun k => ?_) (fun k => ?_)
  · show V c main_v49 (((cfg3.win 0).blk t).view.emb (ix2 (j 0) k)) = V c main_v49 _
    refine congrArg (V c main_v49) (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 256 + 1 * k.val = k.val; omega
  · show V c main_v50 (((cfg3.win 1).blk t).view.emb (ix2 (0 : Fin 1) k)) = V c main_v50 _
    refine congrArg (V c main_v50) (funext fun a => Fin.ext ?_)
    match a with
    | ⟨0, _⟩ => show win3_1.index t (0 : Fin 2) * 1 + 1 * 0 = 0; omega
    | ⟨1, _⟩ => show win3_1.index t (1 : Fin 2) * 256 + 1 * k.val = k.val; omega
  · show V c main_v51 (((cfg3.win 2).blk t).view.emb (ix2 (0 : Fin 1) k)) = V c main_v51 _
    refine congrArg (V c main_v51) (funext fun a => Fin.ext ?_)
    match a with
    | ⟨0, _⟩ => show win3_2.index t (0 : Fin 2) * 1 + 1 * 0 = 0; omega
    | ⟨1, _⟩ => show win3_2.index t (1 : Fin 2) * 256 + 1 * k.val = k.val; omega
  · show V c main_v52 (((cfg3.win 3).blk t).view.emb (ix2 (0 : Fin 1) k)) = V c main_v52 _
    refine congrArg (V c main_v52) (funext fun a => Fin.ext ?_)
    match a with
    | ⟨0, _⟩ => show win3_3.index t (0 : Fin 2) * 1 + 1 * 0 = 0; omega
    | ⟨1, _⟩ => show win3_3.index t (1 : Fin 2) * 256 + 1 * k.val = k.val; omega

/-- An index of the array is in point `t`'s block iff each coordinate is in the block's range on its axis. -/
theorem mem_blk (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v53).slice (win3_4.rect t)).set ↔ _
  rw [View.set_slice_whole, Rect.mem_set_unit]
  exact Iff.rfl

/-- Every row of the array is in the block of the point `row / 2000`: the 25 blocks of 2000 rows tile the 50000 rows. -/
theorem cover (i : S50000x256.Idx) : ∃ t : Fin cfg3.N, (cfg3.win 4).flush t = true ∧ i ∈ ((cfg3.win 4).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨e00, e01, e40, e41, e10, e11, e20, e21, e30, e31⟩ := idx_facts t
  have ht : t.val = (i 0).val / 2000 := rfl
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- THE ARRAY after the region: `G256` of the arrays as the region finds them. -/
theorem final (c : Dev nD) :
    (dat3 (F := Ideal) V c).arrAt 4 cfg3.N = G256 (V c main_v49) (V c main_v50) (V c main_v51) (V c main_v52) :=
  (dat3 V c).arrAt_eq_of_cover 4 (G256 (V c main_v49) (V c main_v50) (V c main_v51) (V c main_v52)) (fun t _ => flushed_eq V c t) cover

end Cert.KernelIdeal.Reg3

end
-- ==== Proof.RegLn7.lean ====
/- Region 7 of the kernel's @main (rows of 256 normalised, scaled, shifted, then the exponential linear unit): the array the region leaves is
   `Ln.G256` of the arrays it finds, for any contents at entry. The body's payload is read at an index; each point's
   write-back is its block of `Ln.G256`; the 25 blocks of 2000 rows cover the 50000 rows. -/
import proofs.«158057_j81853486727297_2_alg».proof.Proof.Gen.KernelIdeal.Frame
import proofs.«158057_j81853486727297_2_alg».proof.Proof.RegLnSpec

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg7

open Cert.KernelIdeal Cert.KernelIdeal.Gen Cert.KernelIdeal.Ln

theorem hz : (![0, 0] : Fin 2 → Nat) = fun _ => 0 := funext fun a => by fin_cases a <;> rfl

/-- The lane sum of a [2000, 256] block at row `p` is the sum of that row. -/
theorem rowSum (src : FVec Ideal S2000x256 .f32) (p : Fin 2000) :
    multiReduction .add [1] S2000 src 0x00000000#32 reduces_S2000x256_S2000 (.inl rfl) rfl (ix1 p) = ∑ k : Fin 256, src (ix2 p k) :=
  rowSum_apply src _ _ _ p

/-- The body's payload at row `p`, lane `q` of the block: the row of `v0 + v2` normalised, scaled by `v22`, shifted by `v26`, then the exponential linear unit. -/
theorem pay_apply (v0 : Vec Ideal S2000x256 .f32) (v2 v22 v26 : Vec Ideal S1x256 .f32) (p : Fin 2000) (q : Fin 256) :
    k7_pay1 v0 v2 v22 v26 (ix2 p q)
      = elu (lnorm (Ideal.ofBits .f32 0x43800000#32) (Ideal.ofBits .f32 0x3727C5AC#32)
          (fun k : Fin 256 => v0 (ix2 p k) + v2 (ix2 (0 : Fin 1) k)) (fun k => v22 (ix2 (0 : Fin 1) k))
          (fun k => v26 (ix2 (0 : Fin 1) k)) q) := by
  unfold k7_pay1
  simp only [shapeCast_self]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  unfold elu lnorm
  rfl

/-- The payload of blocks whose row `p` is row `r` of the arrays: the array function at row `r`. -/
theorem pay_of_rows (X : S50000x256.Idx → EReal) (B Gm Be : S1x256.Idx → EReal)
    (v0 : Vec Ideal S2000x256 .f32) (v2 v22 v26 : Vec Ideal S1x256 .f32) (r : Fin 50000) (p : Fin 2000) (q : Fin 256)
    (h0 : ∀ k : Fin 256, v0 (ix2 p k) = X (ix2 r k)) (h1 : ∀ k : Fin 256, v2 (ix2 (0 : Fin 1) k) = B (ix2 (0 : Fin 1) k))
    (h2 : ∀ k : Fin 256, v22 (ix2 (0 : Fin 1) k) = Gm (ix2 (0 : Fin 1) k))
    (h3 : ∀ k : Fin 256, v26 (ix2 (0 : Fin 1) k) = Be (ix2 (0 : Fin 1) k)) :
    k7_pay1 v0 v2 v22 v26 (ix2 p q) = G256 X B Gm Be (ix2 r q) := by
  rw [pay_apply]
  unfold G256 G256pt
  simp only [h0, h1, h2, h3]

/-- The printed index maps, decided over the 25 grid points: the row windows sit at block `t`, the parameter windows at block 0. -/
theorem idx_facts : ∀ t : Fin cfg7.N, win7_0.index t (0 : Fin 2) = t.val ∧ win7_0.index t (1 : Fin 2) = 0
    ∧ win7_4.index t (0 : Fin 2) = t.val ∧ win7_4.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

variable (V : (c : Dev nD) → (b : Ref sig .tc) → Buf (Elt Ideal) ((c : Thread nD τ).loc b))

/-- WHAT POINT `t` WRITES BACK is block `t` of `G256` of the arrays as the region finds them. -/
theorem flushed_eq (c : Dev nD) (t : Fin cfg7.N) :
    (dat7 (F := Ideal) V c).flushed 4 t
      = ((cfg7.win 4).blk t).view.read (Elt Ideal) (G256 (V c main_v98) (V c main_v99) (V c main_v100) (V c main_v101)) := by
  show (cfg7.win 4).cut (grid7.coords t) ((dat7 V c).after 4 t) = _
  rw [after7_4]
  unfold out7_4
  rw [View.canon_unit_zero hz]
  simp only [View.ld_unit_zero (S := S2000x256) hz, View.ld_unit_zero (S := S1x256) hz]
  obtain ⟨e00, e01, e40, e41, e10, e11, e20, e21, e30, e31⟩ := idx_facts t
  funext j
  have hj : (j : S2000x256.Idx) = ix2 (j 0) (j 1) := eq_ix2 j
  have he : (((cfg7.win 4).blk t).view.emb j : S50000x256.Idx) = ix2 ((((cfg7.win 4).blk t).view.emb j) 0) (j 1) := by
    funext a; apply Fin.ext
    match a with
    | ⟨0, _⟩ => rfl
    | ⟨1, _⟩ => show win7_4.index t (1 : Fin 2) * 256 + 1 * (j 1).val = (j 1).val; omega
  show k7_pay1 (iblk7 V c 0 t) (iblk7 V c 1 t) (iblk7 V c 2 t) (iblk7 V c 3 t) j
      = G256 (V c main_v98) (V c main_v99) (V c main_v100) (V c main_v101) (((cfg7.win 4).blk t).view.emb j)
  refine ((congrArg (k7_pay1 (iblk7 V c 0 t) (iblk7 V c 1 t) (iblk7 V c 2 t) (iblk7 V c 3 t)) hj).trans ?_).trans
    (congrArg (G256 (V c main_v98) (V c main_v99) (V c main_v100) (V c main_v101)) he.symm)
  refine pay_of_rows _ _ _ _ _ _ _ _ _ (j 0) (j 1) (fun k => ?_) (fun k => ?_) (fun k => ?_) (fun k => ?_)
  · show V c main_v98 (((cfg7.win 0).blk t).view.emb (ix2 (j 0) k)) = V c main_v98 _
    refine congrArg (V c main_v98) (funext fun a => Fin.ext ?_)
    match a with
    | ⟨0, _⟩ => show win7_0.index t (0 : Fin 2) * 2000 + 1 * (j 0).val = win7_4.index t (0 : Fin 2) * 2000 + 1 * (j 0).val; omega
    | ⟨1, _⟩ => show win7_0.index t (1 : Fin 2) * 256 + 1 * k.val = k.val; omega
  · show V c main_v99 (((cfg7.win 1).blk t).view.emb (ix2 (0 : Fin 1) k)) = V c main_v99 _
    refine congrArg (V c main_v99) (funext fun a => Fin.ext ?_)
    match a with
    | ⟨0, _⟩ => show win7_1.index t (0 : Fin 2) * 1 + 1 * 0 = 0; omega
    | ⟨1, _⟩ => show win7_1.index t (1 : Fin 2) * 256 + 1 * k.val = k.val; omega
  · show V c main_v100 (((cfg7.win 2).blk t).view.emb (ix2 (0 : Fin 1) k)) = V c main_v100 _
    refine congrArg (V c main_v100) (funext fun a => Fin.ext ?_)
    match a with
    | ⟨0, _⟩ => show win7_2.index t (0 : Fin 2) * 1 + 1 * 0 = 0; omega
    | ⟨1, _⟩ => show win7_2.index t (1 : Fin 2) * 256 + 1 * k.val = k.val; omega
  · show V c main_v101 (((cfg7.win 3).blk t).view.emb (ix2 (0 : Fin 1) k)) = V c main_v101 _
    refine congrArg (V c main_v101) (funext fun a => Fin.ext ?_)
    match a with
    | ⟨0, _⟩ => show win7_3.index t (0 : Fin 2) * 1 + 1 * 0 = 0; omega
    | ⟨1, _⟩ => show win7_3.index t (1 : Fin 2) * 256 + 1 * k.val = k.val; omega

/-- An index of the array is in point `t`'s block iff each coordinate is in the block's range on its axis. -/
theorem mem_blk (t : Fin cfg7.N) (i : S50000x256.Idx) :
    i ∈ ((cfg7.win 4).blk t).view.set ↔ ∀ a : Fin 2, win7_4.index t a * S2000x256.size a ≤ (i a).val ∧ (i a).val < win7_4.index t a * S2000x256.size a + S2000x256.size a := by
  show i ∈ ((View.whole main_v102).slice (win7_4.rect t)).set ↔ _
  rw [View.set_slice_whole, Rect.mem_set_unit]
  exact Iff.rfl

/-- Every row of the array is in the block of the point `row / 2000`: the 25 blocks of 2000 rows tile the 50000 rows. -/
theorem cover (i : S50000x256.Idx) : ∃ t : Fin cfg7.N, (cfg7.win 4).flush t = true ∧ i ∈ ((cfg7.win 4).blk t).view.set := by
  have hi0 : (i 0).val < 50000 := (i 0).isLt
  have hi1 : (i 1).val < 256 := (i 1).isLt
  have hN : cfg7.N = 25 := N_7
  let t : Fin cfg7.N := ⟨(i 0).val / 2000, by rw [hN]; omega⟩
  obtain ⟨e00, e01, e40, e41, e10, e11, e20, e21, e30, e31⟩ := idx_facts t
  have ht : t.val = (i 0).val / 2000 := rfl
  refine ⟨t, flush7_4 t, ?_⟩
  rw [mem_blk]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 256 ≤ (i 1).val ∧ (i 1).val < win7_4.index t (1 : Fin 2) * 256 + 256; omega

/-- THE ARRAY after the region: `G256` of the arrays as the region finds them. -/
theorem final (c : Dev nD) :
    (dat7 (F := Ideal) V c).arrAt 4 cfg7.N = G256 (V c main_v98) (V c main_v99) (V c main_v100) (V c main_v101) :=
  (dat7 V c).arrAt_eq_of_cover 4 (G256 (V c main_v98) (V c main_v99) (V c main_v100) (V c main_v101)) (fun t _ => flushed_eq V c t) cover

end Cert.KernelIdeal.Reg7

end
-- ==== Proof.RegLn11.lean ====
/- Region 11 of the kernel's @main (rows of 128 normalised, scaled and shifted): the array the region leaves is
   `Ln.G128` of the arrays it finds, for any contents at entry. The body's payload is read at an index; each point's
   write-back is its block of `Ln.G128`; the 25 blocks of 2000 rows cover the 50000 rows. -/
import proofs.«158057_j81853486727297_2_alg».proof.Proof.Gen.KernelIdeal.Frame
import proofs.«158057_j81853486727297_2_alg».proof.Proof.RegLnSpec

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg11

open Cert.KernelIdeal Cert.KernelIdeal.Gen Cert.KernelIdeal.Ln

theorem hz : (![0, 0] : Fin 2 → Nat) = fun _ => 0 := funext fun a => by fin_cases a <;> rfl

/-- The lane sum of a [2000, 128] block at row `p` is the sum of that row. -/
theorem rowSum (src : FVec Ideal S2000x128 .f32) (p : Fin 2000) :
    multiReduction .add [1] S2000 src 0x00000000#32 reduces_S2000x128_S2000 (.inl rfl) rfl (ix1 p) = ∑ k : Fin 128, src (ix2 p k) :=
  rowSum_apply src _ _ _ p

/-- The body's payload at row `p`, lane `q` of the block: the row of `v0 + v2` normalised, scaled by `v22` and shifted by `v26`. -/
theorem pay_apply (v0 : Vec Ideal S2000x128 .f32) (v2 v22 v26 : Vec Ideal S1x128 .f32) (p : Fin 2000) (q : Fin 128) :
    k11_pay1 v0 v2 v22 v26 (ix2 p q)
      = lnorm (Ideal.ofBits .f32 0x43000000#32) (Ideal.ofBits .f32 0x3727C5AC#32)
          (fun k : Fin 128 => v0 (ix2 p k) + v2 (ix2 (0 : Fin 1) k)) (fun k => v22 (ix2 (0 : Fin 1) k))
          (fun k => v26 (ix2 (0 : Fin 1) k)) q := by
  unfold k11_pay1
  simp only [shapeCast_self]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  rw [rowSum]
  simp only [select_apply, cmpf_apply, subf_apply, addf_apply, mulf_apply, divf_apply, broadcast_apply, exp_apply, rsqrt_apply,
    broadcastTo_1b_ab_apply, broadcastTo_a1_ab_apply, shapeCast_a_a1_apply]
  unfold lnorm
  rfl

/-- The payload of blocks whose row `p` is row `r` of the arrays: the array function at row `r`. -/
theorem pay_of_rows (X : S50000x128.Idx → EReal) (B Gm Be : S1x128.Idx → EReal)
    (v0 : Vec Ideal S2000x128 .f32) (v2 v22 v26 : Vec Ideal S1x128 .f32) (r : Fin 50000) (p : Fin 2000) (q : Fin 128)
    (h0 : ∀ k : Fin 128, v0 (ix2 p k) = X (ix2 r k)) (h1 : ∀ k : Fin 128, v2 (ix2 (0 : Fin 1) k) = B (ix2 (0 : Fin 1) k))
    (h2 : ∀ k : Fin 128, v22 (ix2 (0 : Fin 1) k) = Gm (ix2 (0 : Fin 1) k))
    (h3 : ∀ k : Fin 128, v26 (ix2 (0 : Fin 1) k) = Be (ix2 (0 : Fin 1) k)) :
    k11_pay1 v0 v2 v22 v26 (ix2 p q) = G128 X B Gm Be (ix2 r q) := by
  rw [pay_apply]
  unfold G128 G128pt
  simp only [h0, h1, h2, h3]

/-- The printed index maps, decided over the 25 grid points: the row windows sit at block `t`, the parameter windows at block 0. -/
theorem idx_facts : ∀ t : Fin cfg11.N, win11_0.index t (0 : Fin 2) = t.val ∧ win11_0.index t (1 : Fin 2) = 0
    ∧ win11_4.index t (0 : Fin 2) = t.val ∧ win11_4.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0 :=
  (by decide +kernel : ∀ t : Fin grid11.N, _)

variable (V : (c : Dev nD) → (b : Ref sig .tc) → Buf (Elt Ideal) ((c : Thread nD τ).loc b))

/-- WHAT POINT `t` WRITES BACK is block `t` of `G128` of the arrays as the region finds them. -/
theorem flushed_eq (c : Dev nD) (t : Fin cfg11.N) :
    (dat11 (F := Ideal) V c).flushed 4 t
      = ((cfg11.win 4).blk t).view.read (Elt Ideal) (G128 (V c main_v149) (V c main_v150) (V c main_v151) (V c main_v152)) := by
  show (cfg11.win 4).cut (grid11.coords t) ((dat11 V c).after 4 t) = _
  rw [after11_4]
  unfold out11_4
  rw [View.canon_unit_zero hz]
  simp only [View.ld_unit_zero (S := S2000x128) hz, View.ld_unit_zero (S := S1x128) hz]
  obtain ⟨e00, e01, e40, e41, e10, e11, e20, e21, e30, e31⟩ := idx_facts t
  funext j
  have hj : (j : S2000x128.Idx) = ix2 (j 0) (j 1) := eq_ix2 j
  have he : (((cfg11.win 4).blk t).view.emb j : S50000x128.Idx) = ix2 ((((cfg11.win 4).blk t).view.emb j) 0) (j 1) := by
    funext a; apply Fin.ext
    match a with
    | ⟨0, _⟩ => rfl
    | ⟨1, _⟩ => show win11_4.index t (1 : Fin 2) * 128 + 1 * (j 1).val = (j 1).val; omega
  show k11_pay1 (iblk11 V c 0 t) (iblk11 V c 1 t) (iblk11 V c 2 t) (iblk11 V c 3 t) j
      = G128 (V c main_v149) (V c main_v150) (V c main_v151) (V c main_v152) (((cfg11.win 4).blk t).view.emb j)
  refine ((congrArg (k11_pay1 (iblk11 V c 0 t) (iblk11 V c 1 t) (iblk11 V c 2 t) (iblk11 V c 3 t)) hj).trans ?_).trans
    (congrArg (G128 (V c main_v149) (V c main_v150) (V c main_v151) (V c main_v152)) he.symm)
  refine pay_of_rows _ _ _ _ _ _ _ _ _ (j 0) (j 1) (fun k => ?_) (fun k => ?_) (fun k => ?_) (fun k => ?_)
  · show V c main_v149 (((cfg11.win 0).blk t).view.emb (ix2 (j 0) k)) = V c main_v149 _
    refine congrArg (V c main_v149) (funext fun a => Fin.ext ?_)
    match a with
    | ⟨0, _⟩ => show win11_0.index t (0 : Fin 2) * 2000 + 1 * (j 0).val = win11_4.index t (0 : Fin 2) * 2000 + 1 * (j 0).val; omega
    | ⟨1, _⟩ => show win11_0.index t (1 : Fin 2) * 128 + 1 * k.val = k.val; omega
  · show V c main_v150 (((cfg11.win 1).blk t).view.emb (ix2 (0 : Fin 1) k)) = V c main_v150 _
    refine congrArg (V c main_v150) (funext fun a => Fin.ext ?_)
    match a with
    | ⟨0, _⟩ => show win11_1.index t (0 : Fin 2) * 1 + 1 * 0 = 0; omega
    | ⟨1, _⟩ => show win11_1.index t (1 : Fin 2) * 128 + 1 * k.val = k.val; omega
  · show V c main_v151 (((cfg11.win 2).blk t).view.emb (ix2 (0 : Fin 1) k)) = V c main_v151 _
    refine congrArg (V c main_v151) (funext fun a => Fin.ext ?_)
    match a with
    | ⟨0, _⟩ => show win11_2.index t (0 : Fin 2) * 1 + 1 * 0 = 0; omega
    | ⟨1, _⟩ => show win11_2.index t (1 : Fin 2) * 128 + 1 * k.val = k.val; omega
  · show V c main_v152 (((cfg11.win 3).blk t).view.emb (ix2 (0 : Fin 1) k)) = V c main_v152 _
    refine congrArg (V c main_v152) (funext fun a => Fin.ext ?_)
    match a with
    | ⟨0, _⟩ => show win11_3.index t (0 : Fin 2) * 1 + 1 * 0 = 0; omega
    | ⟨1, _⟩ => show win11_3.index t (1 : Fin 2) * 128 + 1 * k.val = k.val; omega

/-- An index of the array is in point `t`'s block iff each coordinate is in the block's range on its axis. -/
theorem mem_blk (t : Fin cfg11.N) (i : S50000x128.Idx) :
    i ∈ ((cfg11.win 4).blk t).view.set ↔ ∀ a : Fin 2, win11_4.index t a * S2000x128.size a ≤ (i a).val ∧ (i a).val < win11_4.index t a * S2000x128.size a + S2000x128.size a := by
  show i ∈ ((View.whole main_v153).slice (win11_4.rect t)).set ↔ _
  rw [View.set_slice_whole, Rect.mem_set_unit]
  exact Iff.rfl

/-- Every row of the array is in the block of the point `row / 2000`: the 25 blocks of 2000 rows tile the 50000 rows. -/
theorem cover (i : S50000x128.Idx) : ∃ t : Fin cfg11.N, (cfg11.win 4).flush t = true ∧ i ∈ ((cfg11.win 4).blk t).view.set := by
  have hi0 : (i 0).val < 50000 := (i 0).isLt
  have hi1 : (i 1).val < 128 := (i 1).isLt
  have hN : cfg11.N = 25 := N_11
  let t : Fin cfg11.N := ⟨(i 0).val / 2000, by rw [hN]; omega⟩
  obtain ⟨e00, e01, e40, e41, e10, e11, e20, e21, e30, e31⟩ := idx_facts t
  have ht : t.val = (i 0).val / 2000 := rfl
  refine ⟨t, flush11_4 t, ?_⟩
  rw [mem_blk]
  intro a
  match a with
  | ⟨0, _⟩ => show win11_4.index t (0 : Fin 2) * 2000 ≤ (i 0).val ∧ (i 0).val < win11_4.index t (0 : Fin 2) * 2000 + 2000; omega
  | ⟨1, _⟩ => show win11_4.index t (1 : Fin 2) * 128 ≤ (i 1).val ∧ (i 1).val < win11_4.index t (1 : Fin 2) * 128 + 128; omega

/-- THE ARRAY after the region: `G128` of the arrays as the region finds them. -/
theorem final (c : Dev nD) :
    (dat11 (F := Ideal) V c).arrAt 4 cfg11.N = G128 (V c main_v149) (V c main_v150) (V c main_v151) (V c main_v152) :=
  (dat11 V c).arrAt_eq_of_cover 4 (G128 (V c main_v149) (V c main_v150) (V c main_v151) (V c main_v152)) (fun t _ => flushed_eq V c t) cover

end Cert.KernelIdeal.Reg11

end
-- ==== Proof.RegLn.lean ====
/- The three layer-normalisation regions of the kernel's @main (3, 7, 11), gathered: `Reg3.final`, `Reg7.final`, `Reg11.final`. -/
import proofs.«158057_j81853486727297_2_alg».proof.Proof.RegLn3
import proofs.«158057_j81853486727297_2_alg».proof.Proof.RegLn7
import proofs.«158057_j81853486727297_2_alg».proof.Proof.RegLn11
-- ==== Proof.BridgeMm.lean ====
/- The kernel's three matrix products, as whole-array functions, ARE the reference's host matrix products at the ideal
   values: the host contraction of one axis read at an index is the plain sum over that axis of the products of the
   row operand's and the weight's entries, which is the kernel's closed form term by term. -/
import proofs.«158057_j81853486727297_2_alg».proof.Proof.RegMatmul
import proofs.«158057_j81853486727297_2_alg».proof.Proof.RefRun
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.Bridge.Mm

/-- The host product of the [50000, 384] operand with the [384, 256] weight, read at (a, b), is the sum over k of
    the operand at (a, k) times the weight at (k, b). -/
theorem ref1_apply (x : FVec Ideal Cert.KernelIdeal.S50000x384 .f32) (w : FVec Ideal Cert.KernelIdeal.S384x256 .f32)
    (a : Fin 50000) (b : Fin 256) :
    Cert.ReferenceIdeal.RefRun.refMM1 (F := Ideal) x w (ix2 a b) = ∑ k : Fin 384, x (ix2 a k) * w (ix2 k b) := by
  unfold Cert.ReferenceIdeal.RefRun.refMM1
  show FloatOps.dotGeneral (F := Ideal) Cert.ReferenceIdeal.dot_S50000x384_S384x256_S50000x256_1_0_0_1_n_n none _ x w (ix2 a b) = _
  rw [Ideal.dotGeneral_apply, ← Equiv.sum_comp (contrEquiv1 Cert.ReferenceIdeal.dot_S50000x384_S384x256_S50000x256_1_0_0_1_n_n 384 rfl rfl).symm]
  refine Finset.sum_congr rfl fun c _ => ?_
  have c2 := contrEquiv1_symm_val Cert.ReferenceIdeal.dot_S50000x384_S384x256_S50000x256_1_0_0_1_n_n 384 rfl rfl c
  have l2 : Cert.ReferenceIdeal.dot_S50000x384_S384x256_S50000x256_1_0_0_1_n_n.lhsIdx (ix2 a b) ((contrEquiv1 Cert.ReferenceIdeal.dot_S50000x384_S384x256_S50000x256_1_0_0_1_n_n 384 rfl rfl).symm c) = ix2 a c := by
    funext ax; apply Fin.ext
    match ax with
    | ⟨0, _⟩ => simp [DotDims.lhsIdx, Cert.ReferenceIdeal.dot_S50000x384_S384x256_S50000x256_1_0_0_1_n_n]; rfl
    | ⟨1, _⟩ => simp [DotDims.lhsIdx, Cert.ReferenceIdeal.dot_S50000x384_S384x256_S50000x256_1_0_0_1_n_n]; exact c2
  have r2 : Cert.ReferenceIdeal.dot_S50000x384_S384x256_S50000x256_1_0_0_1_n_n.rhsIdx (ix2 a b) ((contrEquiv1 Cert.ReferenceIdeal.dot_S50000x384_S384x256_S50000x256_1_0_0_1_n_n 384 rfl rfl).symm c) = ix2 c b := by
    funext ax; apply Fin.ext
    match ax with
    | ⟨0, _⟩ => simp [DotDims.rhsIdx, Cert.ReferenceIdeal.dot_S50000x384_S384x256_S50000x256_1_0_0_1_n_n]; exact c2
    | ⟨1, _⟩ => simp [DotDims.rhsIdx, Cert.ReferenceIdeal.dot_S50000x384_S384x256_S50000x256_1_0_0_1_n_n]; rfl
  rw [l2, r2]

/-- The kernel's product array is the reference's. -/
theorem mm1_eq (x : FVec Ideal Cert.KernelIdeal.S50000x384 .f32) (w : FVec Ideal Cert.KernelIdeal.S384x256 .f32) :
    Cert.KernelIdeal.Reg0.G0 x w = Cert.ReferenceIdeal.RefRun.refMM1 (F := Ideal) x w := by
  funext i
  obtain ⟨a, b, rfl⟩ : ∃ (a : Fin 50000) (b : Fin 256), i = ix2 a b := ⟨i 0, i 1, eq_ix2 i⟩
  exact (ref1_apply x w a b).symm

/-- The host product of the [50000, 256] operand with the [256, 256] weight, read at (a, b), is the sum over k of
    the operand at (a, k) times the weight at (k, b). -/
theorem ref2_apply (x : FVec Ideal Cert.KernelIdeal.S50000x256 .f32) (w : FVec Ideal Cert.KernelIdeal.S256x256 .f32)
    (a : Fin 50000) (b : Fin 256) :
    Cert.ReferenceIdeal.RefRun.refMM2 (F := Ideal) x w (ix2 a b) = ∑ k : Fin 256, x (ix2 a k) * w (ix2 k b) := by
  unfold Cert.ReferenceIdeal.RefRun.refMM2
  show FloatOps.dotGeneral (F := Ideal) Cert.ReferenceIdeal.dot_S50000x256_S256x256_S50000x256_1_0_0_1_n_n none _ x w (ix2 a b) = _
  rw [Ideal.dotGeneral_apply, ← Equiv.sum_comp (contrEquiv1 Cert.ReferenceIdeal.dot_S50000x256_S256x256_S50000x256_1_0_0_1_n_n 256 rfl rfl).symm]
  refine Finset.sum_congr rfl fun c _ => ?_
  have c2 := contrEquiv1_symm_val Cert.ReferenceIdeal.dot_S50000x256_S256x256_S50000x256_1_0_0_1_n_n 256 rfl rfl c
  have l2 : Cert.ReferenceIdeal.dot_S50000x256_S256x256_S50000x256_1_0_0_1_n_n.lhsIdx (ix2 a b) ((contrEquiv1 Cert.ReferenceIdeal.dot_S50000x256_S256x256_S50000x256_1_0_0_1_n_n 256 rfl rfl).symm c) = ix2 a c := by
    funext ax; apply Fin.ext
    match ax with
    | ⟨0, _⟩ => simp [DotDims.lhsIdx, Cert.ReferenceIdeal.dot_S50000x256_S256x256_S50000x256_1_0_0_1_n_n]; rfl
    | ⟨1, _⟩ => simp [DotDims.lhsIdx, Cert.ReferenceIdeal.dot_S50000x256_S256x256_S50000x256_1_0_0_1_n_n]; exact c2
  have r2 : Cert.ReferenceIdeal.dot_S50000x256_S256x256_S50000x256_1_0_0_1_n_n.rhsIdx (ix2 a b) ((contrEquiv1 Cert.ReferenceIdeal.dot_S50000x256_S256x256_S50000x256_1_0_0_1_n_n 256 rfl rfl).symm c) = ix2 c b := by
    funext ax; apply Fin.ext
    match ax with
    | ⟨0, _⟩ => simp [DotDims.rhsIdx, Cert.ReferenceIdeal.dot_S50000x256_S256x256_S50000x256_1_0_0_1_n_n]; exact c2
    | ⟨1, _⟩ => simp [DotDims.rhsIdx, Cert.ReferenceIdeal.dot_S50000x256_S256x256_S50000x256_1_0_0_1_n_n]; rfl
  rw [l2, r2]

/-- The kernel's product array is the reference's. -/
theorem mm2_eq (x : FVec Ideal Cert.KernelIdeal.S50000x256 .f32) (w : FVec Ideal Cert.KernelIdeal.S256x256 .f32) :
    Cert.KernelIdeal.Reg4.G4 x w = Cert.ReferenceIdeal.RefRun.refMM2 (F := Ideal) x w := by
  funext i
  obtain ⟨a, b, rfl⟩ : ∃ (a : Fin 50000) (b : Fin 256), i = ix2 a b := ⟨i 0, i 1, eq_ix2 i⟩
  exact (ref2_apply x w a b).symm

/-- The host product of the [50000, 256] operand with the [256, 128] weight, read at (a, b), is the sum over k of
    the operand at (a, k) times the weight at (k, b). -/
theorem ref3_apply (x : FVec Ideal Cert.KernelIdeal.S50000x256 .f32) (w : FVec Ideal Cert.KernelIdeal.S256x128 .f32)
    (a : Fin 50000) (b : Fin 128) :
    Cert.ReferenceIdeal.RefRun.refMM3 (F := Ideal) x w (ix2 a b) = ∑ k : Fin 256, x (ix2 a k) * w (ix2 k b) := by
  unfold Cert.ReferenceIdeal.RefRun.refMM3
  show FloatOps.dotGeneral (F := Ideal) Cert.ReferenceIdeal.dot_S50000x256_S256x128_S50000x128_1_0_0_1_n_n none _ x w (ix2 a b) = _
  rw [Ideal.dotGeneral_apply, ← Equiv.sum_comp (contrEquiv1 Cert.ReferenceIdeal.dot_S50000x256_S256x128_S50000x128_1_0_0_1_n_n 256 rfl rfl).symm]
  refine Finset.sum_congr rfl fun c _ => ?_
  have c2 := contrEquiv1_symm_val Cert.ReferenceIdeal.dot_S50000x256_S256x128_S50000x128_1_0_0_1_n_n 256 rfl rfl c
  have l2 : Cert.ReferenceIdeal.dot_S50000x256_S256x128_S50000x128_1_0_0_1_n_n.lhsIdx (ix2 a b) ((contrEquiv1 Cert.ReferenceIdeal.dot_S50000x256_S256x128_S50000x128_1_0_0_1_n_n 256 rfl rfl).symm c) = ix2 a c := by
    funext ax; apply Fin.ext
    match ax with
    | ⟨0, _⟩ => simp [DotDims.lhsIdx, Cert.ReferenceIdeal.dot_S50000x256_S256x128_S50000x128_1_0_0_1_n_n]; rfl
    | ⟨1, _⟩ => simp [DotDims.lhsIdx, Cert.ReferenceIdeal.dot_S50000x256_S256x128_S50000x128_1_0_0_1_n_n]; exact c2
  have r2 : Cert.ReferenceIdeal.dot_S50000x256_S256x128_S50000x128_1_0_0_1_n_n.rhsIdx (ix2 a b) ((contrEquiv1 Cert.ReferenceIdeal.dot_S50000x256_S256x128_S50000x128_1_0_0_1_n_n 256 rfl rfl).symm c) = ix2 c b := by
    funext ax; apply Fin.ext
    match ax with
    | ⟨0, _⟩ => simp [DotDims.rhsIdx, Cert.ReferenceIdeal.dot_S50000x256_S256x128_S50000x128_1_0_0_1_n_n]; exact c2
    | ⟨1, _⟩ => simp [DotDims.rhsIdx, Cert.ReferenceIdeal.dot_S50000x256_S256x128_S50000x128_1_0_0_1_n_n]; rfl
  rw [l2, r2]

/-- The kernel's product array is the reference's. -/
theorem mm3_eq (x : FVec Ideal Cert.KernelIdeal.S50000x256 .f32) (w : FVec Ideal Cert.KernelIdeal.S256x128 .f32) :
    Cert.KernelIdeal.Reg8.G8 x w = Cert.ReferenceIdeal.RefRun.refMM3 (F := Ideal) x w := by
  funext i
  obtain ⟨a, b, rfl⟩ : ∃ (a : Fin 50000) (b : Fin 128), i = ix2 a b := ⟨i 0, i 1, eq_ix2 i⟩
  exact (ref3_apply x w a b).symm

end Cert.Bridge.Mm

end
-- ==== Proof.Laws.lean ====
/-
  The scalar laws, on the extended reals, that join the two programs' arithmetic.

  * Normalisation: the kernel multiplies the centred entry by the reciprocal square root of `variance + ε`, the
    reference divides it by the square root. On the extended reals `a · v^(-1/2) = a / √v` for EVERY `a` and every
    `v > 0`, the value `⊤` included (both sides are then `0`); and `variance + ε` is positive because a square is
    never negative, a sum of non-negative terms is non-negative, and `ε > 0`. No finiteness is used.
  * Leaky rectifier: `if 0 < s then s else s·c` against `if 0 ≤ s then s else c·s`: they differ in the branch taken only at
    `s = 0`, where `0·c = 0`.
  * Exponential linear unit: `if 0 < y then y else e^y − 1` against `if 0 < y then y else 1·(e^(if 0 < y then 0 else y) − 1)`.
-/
import Idealize.ShloMosaic.PureOps.Ideal
import Idealize.ShloMosaic.PureOps.Ideal.Laws
import Idealize.ShloMosaic.Lib.IdealHost

noncomputable section

namespace Cert.GatLaws

open Idealize.ShloMosaic

/-- `a · v^(-1/2) = a / √v` on the extended reals, for every `a` and every positive `v` (`⊤` included). -/
theorem mul_rsqrt_eq_div_sqrt (a v : EReal) (hv : 0 < v) : a * Ideal.rsqrt v = Ideal.div a (Ideal.sqrt v) := by
  induction v using EReal.rec with
  | bot => exact absurd hv (by simp)
  | top =>
    have h : (⊤ : EReal) ≠ 0 := by simp
    simp [Ideal.div, h]
  | coe r =>
    have hr : 0 < r := by exact_mod_cast hv
    have hs : 0 < Real.sqrt r := Real.sqrt_pos.mpr hr
    have hne : ((Real.sqrt r : ℝ) : EReal) ≠ 0 := by
      intro h; exact hs.ne' (by exact_mod_cast h)
    rw [Ideal.rsqrt_coe, Ideal.sqrt_coe, if_neg (not_lt.mpr hr.le), if_neg hr.ne', if_neg (not_lt.mpr hr.le)]
    unfold Ideal.div
    rw [if_neg hne, EReal.coe_inv]

/-- A square is never negative on the extended reals. -/
theorem mul_self_nonneg' (x : EReal) : 0 ≤ x * x := by
  induction x using EReal.rec with
  | bot => simp [EReal.bot_mul_bot]
  | top => simp [EReal.top_mul_top]
  | coe r => exact_mod_cast mul_self_nonneg r

/-- A finite sum of non-negative extended reals is non-negative. -/
theorem sum_nonneg' {ι : Type*} (s : Finset ι) (f : ι → EReal) (h : ∀ i ∈ s, 0 ≤ f i) : 0 ≤ ∑ i ∈ s, f i :=
  Finset.sum_nonneg h

/-- A non-negative extended real plus a positive one is positive. -/
theorem add_pos_of_nonneg_of_pos' {a b : EReal} (ha : 0 ≤ a) (hb : 0 < b) : 0 < a + b := by
  calc (0 : EReal) < b := hb
    _ = 0 + b := (zero_add b).symm
    _ ≤ a + b := add_le_add_left ha b

/-- The leaky rectifier's two spellings agree: they choose differently only at `0`, where `0 · c = 0`. -/
theorem leaky_eq (s c : EReal) : (if 0 < s then s else s * c) = (if 0 ≤ s then s else c * s) := by
  by_cases h : 0 < s
  · rw [if_pos h, if_pos h.le]
  · rw [if_neg h]
    by_cases h0 : 0 ≤ s
    · have : s = 0 := le_antisymm (not_lt.mp h) h0
      rw [if_pos h0, this, zero_mul]
    · rw [if_neg h0, mul_comm]

/-- The exponential linear unit's two spellings agree. -/
theorem elu_eq (y : EReal) :
    (if 0 < y then y else Ideal.exp y - 1) = (if 0 < y then y else 1 * (Ideal.exp (if 0 < y then 0 else y) - 1)) := by
  by_cases h : 0 < y
  · rw [if_pos h, if_pos h]
  · rw [if_neg h, if_neg h, if_neg h, one_mul]

end Cert.GatLaws

end
-- ==== Proof.BridgePw.lean ====
/- The two pointwise stages of an attention layer, kernel against reference, as equations of functions of the input arrays:
   the exponentiated rectified score times the edge weight (the rectifier's two spellings agree because they differ only at
   zero, where the slope multiplies zero), and the message (the score over its normaliser plus the small constant, times the
   gathered feature; the reference's broadcasts along unit axes read the same entries). -/
import proofs.«158057_j81853486727297_2_alg».proof.Proof.RegAttn
import proofs.«158057_j81853486727297_2_alg».proof.Proof.RegMsg
import proofs.«158057_j81853486727297_2_alg».proof.Proof.RefRun
import proofs.«158057_j81853486727297_2_alg».proof.Proof.Laws
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Bridge.Pw

/-- A decided proposition turned into a one-bit word is the word `1` exactly when the proposition holds. -/
theorem ofBool_decide_eq_one (P : Prop) [Decidable P] : (BitVec.ofBool (decide P) = (1 : BitVec 1)) ↔ P := by
  by_cases h : P <;> simp [h]

/-- The attention score with the rectifier spelt the other way: the branch on `0 ≤ s` and the slope on the left. -/
theorem score_eq (x y w : EReal) :
    Cert.KernelIdeal.Attn.score x y w
      = Ideal.exp (Scalar.select (Ideal.cmp .oge (x + y) (Ideal.ofBits .f32 0x00000000#32)) (x + y)
          (Ideal.ofBits .f32 0x3E4CCCCD#32 * (x + y)) * w) := by
  unfold Cert.KernelIdeal.Attn.score
  show Ideal.exp (Scalar.select (Ideal.cmp .ogt (x + y) (Ideal.ofBits .f32 0x00000000#32)) (x + y)
          ((x + y) * Ideal.ofBits .f32 0x3E4CCCCD#32) * w) = _
  rw [Ideal.ofBits_zero_f32]
  unfold Scalar.select Ideal.cmp
  simp only [ofBool_decide_eq_one]
  rw [Cert.GatLaws.leaky_eq]

/-! ## The attention scores -/

/-- Layer 1: the kernel's score array is the reference's, for all inputs. -/
theorem attn1 (a0 a1 : Cert.KernelIdeal.S500000x4.Idx → EReal) (a2 : Cert.KernelIdeal.S500000x1.Idx → EReal) :
    Cert.KernelIdeal.Reg1.G1 a0 a1 a2 = Cert.ReferenceIdeal.RefRun.refAT1 (F := Ideal) a0 a1 a2 := by
  funext i
  obtain ⟨p, q, rfl⟩ : ∃ (p : Fin 500000) (q : Fin 4), i = ix2 p q := ⟨i 0, i 1, eq_ix2 i⟩
  show Cert.KernelIdeal.Attn.score (a0 (ix2 p q)) (a1 (ix2 p q)) (a2 (ix2 p 0)) = _
  rw [score_eq]
  unfold Cert.ReferenceIdeal.RefRun.refAT1 Cert.ReferenceIdeal.RefRun.refLeaky1
  simp only [Host.exp, mulf_apply, select_apply, cmpf_apply, addf_apply, id]
  have hc : ∀ b : BitVec 32, broadcastInDim Cert.ReferenceIdeal.S500000x4 ![] Cert.ReferenceIdeal.Gen.bcast_S_S500000x4
      (constant (F := Ideal) Cert.ReferenceIdeal.S_ .f32 b) (ix2 p q) = Ideal.ofBits .f32 b :=
    fun b => broadcastInDim_apply _ _ _ (ix2 p q) ix0 (fun a => a.elim0)
  have hb : broadcastInDim Cert.ReferenceIdeal.S500000x4 ![0, 1] Cert.ReferenceIdeal.Gen.bcast_S500000x1_S500000x4_0_1 a2 (ix2 p q)
      = a2 (ix2 p 0) :=
    broadcastInDim_apply _ _ _ (ix2 p q) (ix2 p 0) (fun a => by match a with | ⟨0, _⟩ => rfl | ⟨1, _⟩ => rfl)
  rw [hc, hc, hb]
  rfl

/-- Layer 2: the same. -/
theorem attn2 (a0 a1 : Cert.KernelIdeal.S500000x4.Idx → EReal) (a2 : Cert.KernelIdeal.S500000x1.Idx → EReal) :
    Cert.KernelIdeal.Reg5.G5 a0 a1 a2 = Cert.ReferenceIdeal.RefRun.refAT2 (F := Ideal) a0 a1 a2 := by
  funext i
  obtain ⟨p, q, rfl⟩ : ∃ (p : Fin 500000) (q : Fin 4), i = ix2 p q := ⟨i 0, i 1, eq_ix2 i⟩
  show Cert.KernelIdeal.Attn.score (a0 (ix2 p q)) (a1 (ix2 p q)) (a2 (ix2 p 0)) = _
  rw [score_eq]
  unfold Cert.ReferenceIdeal.RefRun.refAT2 Cert.ReferenceIdeal.RefRun.refLeaky2
  simp only [Host.exp, mulf_apply, select_apply, cmpf_apply, addf_apply, id]
  have hc : ∀ b : BitVec 32, broadcastInDim Cert.ReferenceIdeal.S500000x4 ![] Cert.ReferenceIdeal.Gen.bcast_S_S500000x4
      (constant (F := Ideal) Cert.ReferenceIdeal.S_ .f32 b) (ix2 p q) = Ideal.ofBits .f32 b :=
    fun b => broadcastInDim_apply _ _ _ (ix2 p q) ix0 (fun a => a.elim0)
  have hb : broadcastInDim Cert.ReferenceIdeal.S500000x4 ![0, 1] Cert.ReferenceIdeal.Gen.bcast_S500000x1_S500000x4_0_1 a2 (ix2 p q)
      = a2 (ix2 p 0) :=
    broadcastInDim_apply _ _ _ (ix2 p q) (ix2 p 0) (fun a => by match a with | ⟨0, _⟩ => rfl | ⟨1, _⟩ => rfl)
  rw [hc, hc, hb]
  rfl

/-- Layer 3 (one head): the weight is read at the entry itself. -/
theorem attn3 (a0 a1 a2 : Cert.KernelIdeal.S500000x1.Idx → EReal) :
    Cert.KernelIdeal.Reg9.G9 a0 a1 a2 = Cert.ReferenceIdeal.RefRun.refAT3 (F := Ideal) a0 a1 a2 := by
  funext i
  show Cert.KernelIdeal.Attn.score (a0 i) (a1 i) (a2 i) = _
  rw [score_eq]
  unfold Cert.ReferenceIdeal.RefRun.refAT3 Cert.ReferenceIdeal.RefRun.refLeaky3
  simp only [Host.exp, mulf_apply, select_apply, cmpf_apply, addf_apply, id]
  have hc : ∀ b : BitVec 32, broadcastInDim Cert.ReferenceIdeal.S500000x1 ![] Cert.ReferenceIdeal.Gen.bcast_S_S500000x1
      (constant (F := Ideal) Cert.ReferenceIdeal.S_ .f32 b) i = Ideal.ofBits .f32 b :=
    fun b => broadcastInDim_apply _ _ _ i ix0 (fun a => a.elim0)
  rw [hc, hc]
  rfl

/-! ## The messages -/

/-- Layer 1: the kernel's message array is the reference's product of the broadcast normalised weight and the gathered features. -/
theorem msg1 (e d : Cert.KernelIdeal.S500000x4.Idx → EReal) (hg : Cert.KernelIdeal.S500000x4x64.Idx → EReal) :
    Cert.KernelIdeal.Reg2.G2 e d hg
      = Cert.ReferenceIdeal.RefRun.refMS1 (F := Ideal) (Cert.ReferenceIdeal.RefRun.refAL1 (F := Ideal) e d) hg := by
  funext i
  obtain ⟨a, b, c, rfl⟩ : ∃ (a : Fin 500000) (b : Fin 4) (c : Fin 64), i = ix3 a b c := ⟨i 0, i 1, i 2, eq_ix3 i⟩
  show Cert.KernelIdeal.Msg.msg (e (ix2 a b)) (d (ix2 a b)) (hg (ix3 a b c)) = _
  unfold Cert.KernelIdeal.Msg.msg Cert.ReferenceIdeal.RefRun.refMS1 Cert.ReferenceIdeal.RefRun.refAL1
  rw [mulf_apply]
  have h3 : ∀ X : Cert.ReferenceIdeal.S500000x4x1.Idx → EReal,
      broadcastInDim Cert.ReferenceIdeal.S500000x4x64 ![0, 1, 2] Cert.ReferenceIdeal.Gen.bcast_S500000x4x1_S500000x4x64_0_1_2 X (ix3 a b c) = X (ix3 a b (0 : Fin 1)) :=
    fun X => broadcastInDim_apply _ _ X (ix3 a b c) (ix3 a b (0 : Fin 1))
      (fun ax => by match ax with | ⟨0, _⟩ => rfl | ⟨1, _⟩ => rfl | ⟨2, _⟩ => rfl)
  have h2 : ∀ Y : Cert.ReferenceIdeal.S500000x4.Idx → EReal,
      broadcastInDim Cert.ReferenceIdeal.S500000x4x1 ![0, 1] Cert.ReferenceIdeal.Gen.bcast_S500000x4_S500000x4x1_0_1 Y (ix3 a b (0 : Fin 1)) = Y (ix2 a b) :=
    fun Y => broadcastInDim_apply _ _ Y (ix3 a b (0 : Fin 1)) (ix2 a b)
      (fun ax => by match ax with | ⟨0, _⟩ => rfl | ⟨1, _⟩ => rfl)
  have hc : broadcastInDim Cert.ReferenceIdeal.S500000x4 ![] Cert.ReferenceIdeal.Gen.bcast_S_S500000x4
      (constant (F := Ideal) Cert.ReferenceIdeal.S_ .f32 0x24E69595#32) (ix2 a b) = Ideal.ofBits .f32 0x24E69595#32 :=
    broadcastInDim_apply _ _ _ (ix2 a b) ix0 (fun ax => ax.elim0)
  rw [h3, h2]
  show _ = Ideal.div (e (ix2 a b)) (d (ix2 a b) + broadcastInDim Cert.ReferenceIdeal.S500000x4 ![] Cert.ReferenceIdeal.Gen.bcast_S_S500000x4
      (constant (F := Ideal) Cert.ReferenceIdeal.S_ .f32 0x24E69595#32) (ix2 a b)) * hg (ix3 a b c)
  rw [hc]
  rfl

/-- Layer 2: the same. -/
theorem msg2 (e d : Cert.KernelIdeal.S500000x4.Idx → EReal) (hg : Cert.KernelIdeal.S500000x4x64.Idx → EReal) :
    Cert.KernelIdeal.Reg6.G6 e d hg
      = Cert.ReferenceIdeal.RefRun.refMS2 (F := Ideal) (Cert.ReferenceIdeal.RefRun.refAL2 (F := Ideal) e d) hg := by
  funext i
  obtain ⟨a, b, c, rfl⟩ : ∃ (a : Fin 500000) (b : Fin 4) (c : Fin 64), i = ix3 a b c := ⟨i 0, i 1, i 2, eq_ix3 i⟩
  show Cert.KernelIdeal.Msg.msg (e (ix2 a b)) (d (ix2 a b)) (hg (ix3 a b c)) = _
  unfold Cert.KernelIdeal.Msg.msg Cert.ReferenceIdeal.RefRun.refMS2 Cert.ReferenceIdeal.RefRun.refAL2
  rw [mulf_apply]
  have h3 : ∀ X : Cert.ReferenceIdeal.S500000x4x1.Idx → EReal,
      broadcastInDim Cert.ReferenceIdeal.S500000x4x64 ![0, 1, 2] Cert.ReferenceIdeal.Gen.bcast_S500000x4x1_S500000x4x64_0_1_2 X (ix3 a b c) = X (ix3 a b (0 : Fin 1)) :=
    fun X => broadcastInDim_apply _ _ X (ix3 a b c) (ix3 a b (0 : Fin 1))
      (fun ax => by match ax with | ⟨0, _⟩ => rfl | ⟨1, _⟩ => rfl | ⟨2, _⟩ => rfl)
  have h2 : ∀ Y : Cert.ReferenceIdeal.S500000x4.Idx → EReal,
      broadcastInDim Cert.ReferenceIdeal.S500000x4x1 ![0, 1] Cert.ReferenceIdeal.Gen.bcast_S500000x4_S500000x4x1_0_1 Y (ix3 a b (0 : Fin 1)) = Y (ix2 a b) :=
    fun Y => broadcastInDim_apply _ _ Y (ix3 a b (0 : Fin 1)) (ix2 a b)
      (fun ax => by match ax with | ⟨0, _⟩ => rfl | ⟨1, _⟩ => rfl)
  have hc : broadcastInDim Cert.ReferenceIdeal.S500000x4 ![] Cert.ReferenceIdeal.Gen.bcast_S_S500000x4
      (constant (F := Ideal) Cert.ReferenceIdeal.S_ .f32 0x24E69595#32) (ix2 a b) = Ideal.ofBits .f32 0x24E69595#32 :=
    broadcastInDim_apply _ _ _ (ix2 a b) ix0 (fun ax => ax.elim0)
  rw [h3, h2]
  show _ = Ideal.div (e (ix2 a b)) (d (ix2 a b) + broadcastInDim Cert.ReferenceIdeal.S500000x4 ![] Cert.ReferenceIdeal.Gen.bcast_S_S500000x4
      (constant (F := Ideal) Cert.ReferenceIdeal.S_ .f32 0x24E69595#32) (ix2 a b)) * hg (ix3 a b c)
  rw [hc]
  rfl

/-- Layer 3 (one head, 128 features): the head coordinate is the single one. -/
theorem msg3 (e d : Cert.KernelIdeal.S500000x1.Idx → EReal) (hg : Cert.KernelIdeal.S500000x1x128.Idx → EReal) :
    Cert.KernelIdeal.Reg10.G10 e d hg
      = Cert.ReferenceIdeal.RefRun.refMS3 (F := Ideal) (Cert.ReferenceIdeal.RefRun.refAL3 (F := Ideal) e d) hg := by
  funext i
  obtain ⟨a, b, c, rfl⟩ : ∃ (a : Fin 500000) (b : Fin 1) (c : Fin 128), i = ix3 a b c := ⟨i 0, i 1, i 2, eq_ix3 i⟩
  obtain rfl : b = 0 := Subsingleton.elim _ _
  show Cert.KernelIdeal.Msg.msg (e (ix2 a 0)) (d (ix2 a 0)) (hg (ix3 a 0 c)) = _
  unfold Cert.KernelIdeal.Msg.msg Cert.ReferenceIdeal.RefRun.refMS3 Cert.ReferenceIdeal.RefRun.refAL3
  rw [mulf_apply]
  have h3 : ∀ X : Cert.ReferenceIdeal.S500000x1x1.Idx → EReal,
      broadcastInDim Cert.ReferenceIdeal.S500000x1x128 ![0, 1, 2] Cert.ReferenceIdeal.Gen.bcast_S500000x1x1_S500000x1x128_0_1_2 X (ix3 a 0 c) = X (ix3 a 0 (0 : Fin 1)) :=
    fun X => broadcastInDim_apply _ _ X (ix3 a 0 c) (ix3 a 0 (0 : Fin 1))
      (fun ax => by match ax with | ⟨0, _⟩ => rfl | ⟨1, _⟩ => rfl | ⟨2, _⟩ => rfl)
  have h2 : ∀ Y : Cert.ReferenceIdeal.S500000x1.Idx → EReal,
      broadcastInDim Cert.ReferenceIdeal.S500000x1x1 ![0, 1] Cert.ReferenceIdeal.Gen.bcast_S500000x1_S500000x1x1_0_1 Y (ix3 a 0 (0 : Fin 1)) = Y (ix2 a 0) :=
    fun Y => broadcastInDim_apply _ _ Y (ix3 a 0 (0 : Fin 1)) (ix2 a 0)
      (fun ax => by match ax with | ⟨0, _⟩ => rfl | ⟨1, _⟩ => rfl)
  have hc : broadcastInDim Cert.ReferenceIdeal.S500000x1 ![] Cert.ReferenceIdeal.Gen.bcast_S_S500000x1
      (constant (F := Ideal) Cert.ReferenceIdeal.S_ .f32 0x24E69595#32) (ix2 a 0) = Ideal.ofBits .f32 0x24E69595#32 :=
    broadcastInDim_apply _ _ _ (ix2 a 0) ix0 (fun ax => ax.elim0)
  rw [h3, h2]
  show _ = Ideal.div (e (ix2 a 0)) (d (ix2 a 0) + broadcastInDim Cert.ReferenceIdeal.S500000x1 ![] Cert.ReferenceIdeal.Gen.bcast_S_S500000x1
      (constant (F := Ideal) Cert.ReferenceIdeal.S_ .f32 0x24E69595#32) (ix2 a 0)) * hg (ix3 a 0 c)
  rw [hc]
  rfl

end Cert.Bridge.Pw

end
-- ==== Proof.Consts.lean ====
/-
  The float constants the layer normalisation spells, as the extended reals their single-precision patterns denote:
  the two row lengths 256 and 128 (as reals), and that the small constant added to the variance is positive.
-/
import Idealize.ShloMosaic.PureOps.Ideal
import Idealize.ShloMosaic.PureOps.Ideal.Laws

noncomputable section

namespace Cert.Consts

open Idealize.ShloMosaic

/-- The pattern `0x43800000` denotes the real `256`. -/
theorem ofBits_256 : Ideal.ofBits .f32 0x43800000#32 = ((256 : ℝ) : EReal) := by
  simp [Ideal.ofBits, Ideal.ieee, -EReal.coe_mul]; norm_num

/-- The pattern `0x43000000` denotes the real `128`. -/
theorem ofBits_128 : Ideal.ofBits .f32 0x43000000#32 = ((128 : ℝ) : EReal) := by
  simp [Ideal.ofBits, Ideal.ieee, -EReal.coe_mul]; norm_num

/-- The pattern `0x3727C5AC` (the single-precision number nearest `1e-5`) denotes a positive real. -/
theorem ofBits_eps_pos : 0 < Ideal.ofBits .f32 0x3727C5AC#32 := by
  have h : Ideal.ofBits .f32 0x3727C5AC#32 = (((10995116 : ℝ) / 2 ^ 40 : ℝ) : EReal) := by
    simp [Ideal.ofBits, Ideal.ieee, -EReal.coe_mul]; norm_num
  rw [h]; exact EReal.coe_pos.mpr (by norm_num)

end Cert.Consts

end
-- ==== Proof.BridgeLn.lean ====
/-
  The layer normalisation, two spellings of one function of four arrays: rows normalised by multiplying the centred entry
  with the reciprocal square root of (variance + a small positive constant), against rows normalised by dividing it by the
  square root. On the extended reals the two agree for every input, because a sum of squares divided by a positive
  row length is never negative; the exponential linear unit's two spellings agree case by case.
-/
import proofs.«158057_j81853486727297_2_alg».proof.Proof.RefRun
import proofs.«158057_j81853486727297_2_alg».proof.Proof.RegLnSpec
import proofs.«158057_j81853486727297_2_alg».proof.Proof.Laws
import proofs.«158057_j81853486727297_2_alg».proof.Proof.Consts
import Idealize.ShloMosaic.Lib.IdealHost

noncomputable section

namespace Cert.Bridge.Ln

open Idealize.ShloMosaic Idealize.ShloMosaic.ValueIdx Cert.ReferenceIdeal Cert.ReferenceIdeal.Gen Cert.ReferenceIdeal.RefRun
open scoped BigOperators

theorem bcVec {α : Type} (w : S50000.Idx → α) (p : Fin 50000) (u : Fin 1) :
    broadcastInDim S50000x1 ![0] bcast_S50000_S50000x1_0 w (ix2 p u) = w (ix1 p) :=
  broadcastInDim_apply _ _ _ _ _ (fun a => by match a with | ⟨0, _⟩ => rfl)

/-! ### The scalar laws joined -/

/-- A non-negative extended real divided by a positive real is non-negative. -/
theorem div_nonneg_of_pos {s : EReal} (hs : 0 ≤ s) {r : ℝ} (hr : 0 < r) : 0 ≤ Ideal.div s (r : EReal) := by
  rw [Ideal.div_coe hr.ne']
  exact EReal.mul_nonneg hs (EReal.coe_nonneg.mpr (by positivity))

/-- Multiplying by the reciprocal square root of (variance + a positive constant) is dividing by the square root:
    the variance, a sum of squares over a positive real, is never negative. -/
theorem lnorm_eq_div {D : ℕ} (r : ℝ) (hr : 0 < r) (eps : EReal) (he : 0 < eps) (xb g be : Fin D → EReal) (j : Fin D) :
    Cert.KernelIdeal.Ln.lnorm (r : EReal) eps xb g be j
      = Ideal.div (xb j - Ideal.div (∑ k : Fin D, xb k) (r : EReal))
          (Ideal.sqrt (Ideal.div (∑ k : Fin D, (xb k - Ideal.div (∑ k : Fin D, xb k) (r : EReal)) * (xb k - Ideal.div (∑ k : Fin D, xb k) (r : EReal))) (r : EReal) + eps))
        * g j + be j := by
  unfold Cert.KernelIdeal.Ln.lnorm
  simp only []
  rw [Cert.GatLaws.mul_rsqrt_eq_div_sqrt _ _ (Cert.GatLaws.add_pos_of_nonneg_of_pos'
    (div_nonneg_of_pos (Cert.GatLaws.sum_nonneg' _ _ fun k _ => Cert.GatLaws.mul_self_nonneg' _) hr) he)]

/-- The exponential linear unit's two spellings agree, whichever way the comparison falls. -/
theorem elu_eq (t : EReal) :
    Cert.KernelIdeal.Ln.elu t
      = Scalar.select (FloatOps.cmpf (F := Ideal) (φ := .f32) .ogt t (Ideal.ofBits .f32 0x00000000#32)) t
          (Ideal.ofBits .f32 0x3F800000#32 * (Ideal.exp (Scalar.select (FloatOps.cmpf (F := Ideal) (φ := .f32) .ogt t (Ideal.ofBits .f32 0x00000000#32))
            (Ideal.ofBits .f32 0x00000000#32) t) - 1)) := by
  unfold Cert.KernelIdeal.Ln.elu
  by_cases h : FloatOps.cmpf (F := Ideal) (φ := .f32) .ogt t (Ideal.ofBits .f32 0x00000000#32) = 1#1
  · rw [h, select_one, select_one]
  · rw [eq_zero_of_ne_one h, select_zero, select_zero, select_zero, Ideal.ofBits_one_f32, one_mul]

/-! ### Rows of 256 (layer 1) -/

theorem bcRow1 {α : Type} (x : S1x256.Idx → α) (p : Fin 50000) (k : Fin 256) :
    broadcastInDim S50000x256 ![0, 1] bcast_S1x256_S50000x256_0_1 x (ix2 p k) = x (ix2 (0 : Fin 1) k) :=
  broadcastInDim_apply _ _ _ _ _ (fun a => by match a with | ⟨0, _⟩ => rfl | ⟨1, _⟩ => rfl)

theorem bcCol1 {α : Type} (v : S50000x1.Idx → α) (p : Fin 50000) (k : Fin 256) :
    broadcastInDim S50000x256 ![0, 1] bcast_S50000x1_S50000x256_0_1 v (ix2 p k) = v (ix2 p (0 : Fin 1)) :=
  broadcastInDim_apply _ _ _ _ _ (fun a => by match a with | ⟨0, _⟩ => rfl | ⟨1, _⟩ => rfl)

theorem rowSum1 (x : FVec Ideal S50000x256 .f32) (v : FVec Ideal S_ .f32) (p : Fin 50000) :
    Host.reduceAdd x v reducesTo_S50000x256_S50000_d1 h_S_ (ix1 p) = v (Shape.Idx.first h_S_) + ∑ k : Fin 256, x (ix2 p k) := by
  have h : S50000x256.Reduces [1] S50000 := by decide
  refine (Ideal.hostReduceAdd_single reducesTo_S50000x256_S50000_d1 h x _ (ix1 p)).trans ?_
  congr 1
  refine Finset.sum_congr rfl fun k _ => congrArg x ?_
  funext d
  apply Fin.ext
  match d with
  | ⟨0, _⟩ => rfl
  | ⟨1, _⟩ => rfl

/-- The row length minus the integer zero converted to a float is the row length. -/
theorem ddof1 : Ideal.ofBits .f32 0x43800000#32 - FloatOps.sitofp (F := Ideal) .f32 (0#32 : BitVec 32) = Ideal.ofBits .f32 0x43800000#32 := by
  show Ideal.ofBits .f32 0x43800000#32 - (((0#32 : BitVec 32).toInt : ℝ) : EReal) = _
  simp

/-- … and it is positive, so the variance's guard chooses the quotient. -/
theorem ddofPos1 : FloatOps.cmpf (F := Ideal) (φ := .f32) .ogt
      (Ideal.ofBits .f32 0x43800000#32 - FloatOps.sitofp (F := Ideal) .f32 (0#32 : BitVec 32)) (Ideal.ofBits .f32 0x00000000#32) = 1#1 := by
  rw [ddof1, Ideal.cmpf_def, Ideal.ofBits_zero_f32, Cert.Consts.ofBits_256]
  have h : (0 : EReal) < ((256 : ℝ) : EReal) := EReal.coe_pos.mpr (by norm_num)
  simp [Ideal.cmp, h]

theorem refBias1_apply (agg : FVec Ideal S50000x256 .f32) (b2 : FVec Ideal S1x256 .f32) (p : Fin 50000) (k : Fin 256) :
    refBias1 (F := Ideal) agg b2 (ix2 p k) = agg (ix2 p k) + b2 (ix2 (0 : Fin 1) k) := by
  unfold refBias1
  rw [addf_apply, bcRow1]

theorem refMean1_apply (x : FVec Ideal S50000x256 .f32) (p : Fin 50000) (u : Fin 1) :
    refMean1 (F := Ideal) x (ix2 p u) = Ideal.div (∑ k : Fin 256, x (ix2 p k)) (Ideal.ofBits .f32 0x43800000#32) := by
  unfold refMean1
  beta_reduce
  rw [hostDivf_apply, bcVec, rowSum1, broadcastInDim_scalar_apply, constant_apply, constant_apply, Ideal.ofBits_zero_f32, zero_add]

set_option maxRecDepth 16384 in
theorem refVar1_apply (x : FVec Ideal S50000x256 .f32) (p : Fin 50000) (u : Fin 1) :
    refVar1 (F := Ideal) x (ix2 p u)
      = Ideal.div (∑ k : Fin 256, (x (ix2 p k) - Ideal.div (∑ k : Fin 256, x (ix2 p k)) (Ideal.ofBits .f32 0x43800000#32))
            * (x (ix2 p k) - Ideal.div (∑ k : Fin 256, x (ix2 p k)) (Ideal.ofBits .f32 0x43800000#32))) (Ideal.ofBits .f32 0x43800000#32) := by
  unfold refVar1
  beta_reduce
  rw [select_apply, broadcastInDim_scalar_apply, cmpf_apply, subf_apply, sitofp_apply, constant_apply, constant_apply]
  show Scalar.select (FloatOps.cmpf (F := Ideal) (φ := .f32) .ogt
      (Ideal.ofBits .f32 0x43800000#32 - FloatOps.sitofp (F := Ideal) .f32 (0#32 : BitVec 32)) (Ideal.ofBits .f32 0x00000000#32)) _ _ = _
  rw [ddofPos1, select_one, hostDivf_apply, bcVec, rowSum1, broadcastInDim_scalar_apply, subf_apply, sitofp_apply,
    constant_apply, constant_apply]
  show Ideal.div (Ideal.ofBits .f32 0x00000000#32 + _) (Ideal.ofBits .f32 0x43800000#32 - FloatOps.sitofp (F := Ideal) .f32 (0#32 : BitVec 32)) = _
  rw [ddof1, Ideal.ofBits_zero_f32, zero_add]
  refine congrArg (Ideal.div · (Ideal.ofBits .f32 0x43800000#32)) ?_
  refine Finset.sum_congr rfl fun k _ => ?_
  rw [mulf_apply, subf_apply, bcCol1, hostDivf_apply, bcVec, rowSum1, broadcastInDim_scalar_apply, constant_apply, constant_apply,
    Ideal.ofBits_zero_f32, zero_add]

theorem refNorm1_apply (x : FVec Ideal S50000x256 .f32) (g2 be2 : FVec Ideal S1x256 .f32) (p : Fin 50000) (q : Fin 256) :
    refNorm1 (F := Ideal) x g2 be2 (ix2 p q)
      = Ideal.div (x (ix2 p q) - refMean1 (F := Ideal) x (ix2 p (0 : Fin 1)))
          (Ideal.sqrt (refVar1 (F := Ideal) x (ix2 p (0 : Fin 1)) + Ideal.ofBits .f32 0x3727C5AC#32)) * g2 (ix2 (0 : Fin 1) q)
        + be2 (ix2 (0 : Fin 1) q) := by
  unfold refNorm1
  rw [addf_apply, mulf_apply, hostDivf_apply, subf_apply, bcCol1, bcCol1, bcRow1, bcRow1]
  rfl

theorem refElu1_apply (y : FVec Ideal S50000x256 .f32) (i : S50000x256.Idx) :
    refElu1 (F := Ideal) y i
      = Scalar.select (FloatOps.cmpf (F := Ideal) (φ := .f32) .ogt (y i) (Ideal.ofBits .f32 0x00000000#32)) (y i)
          (Ideal.ofBits .f32 0x3F800000#32 * (Ideal.exp (Scalar.select (FloatOps.cmpf (F := Ideal) (φ := .f32) .ogt (y i) (Ideal.ofBits .f32 0x00000000#32))
            (Ideal.ofBits .f32 0x00000000#32) (y i)) - 1)) := rfl

/-- Layer 1, at one entry. -/
theorem ln1_pt (agg : FVec Ideal S50000x256 .f32) (b2 g2 be2 : FVec Ideal S1x256 .f32) (p : Fin 50000) (q : Fin 256) :
    Cert.KernelIdeal.Ln.G256 agg b2 g2 be2 (ix2 p q) = refLN1 (F := Ideal) agg b2 g2 be2 (ix2 p q) := by
  unfold refLN1
  rw [refElu1_apply, refNorm1_apply, refMean1_apply, refVar1_apply]
  simp only [refBias1_apply]
  show Cert.KernelIdeal.Ln.elu (Cert.KernelIdeal.Ln.lnorm (Ideal.ofBits .f32 0x43800000#32) (Ideal.ofBits .f32 0x3727C5AC#32)
      (fun k : Fin 256 => agg (ix2 p k) + b2 (ix2 (0 : Fin 1) k)) (fun k => g2 (ix2 (0 : Fin 1) k)) (fun k => be2 (ix2 (0 : Fin 1) k)) q) = _
  rw [elu_eq, Cert.Consts.ofBits_256, lnorm_eq_div 256 (by norm_num) _ Cert.Consts.ofBits_eps_pos]

/-- Layer 1: the two spellings of the normalised, activated rows are one function of the four arrays. -/
theorem ln1_eq (agg : FVec Ideal S50000x256 .f32) (b2 g2 be2 : FVec Ideal S1x256 .f32) :
    Cert.KernelIdeal.Ln.G256 agg b2 g2 be2 = refLN1 (F := Ideal) agg b2 g2 be2 := by
  funext i
  exact (congrArg (Cert.KernelIdeal.Ln.G256 agg b2 g2 be2) (eq_ix2 i)).trans
    ((ln1_pt agg b2 g2 be2 (i 0) (i 1)).trans (congrArg (refLN1 (F := Ideal) agg b2 g2 be2) (eq_ix2 i)).symm)

/-! ### Rows of 256 (layer 2) -/

theorem bcRow2 {α : Type} (x : S1x256.Idx → α) (p : Fin 50000) (k : Fin 256) :
    broadcastInDim S50000x256 ![0, 1] bcast_S1x256_S50000x256_0_1 x (ix2 p k) = x (ix2 (0 : Fin 1) k) :=
  broadcastInDim_apply _ _ _ _ _ (fun a => by match a with | ⟨0, _⟩ => rfl | ⟨1, _⟩ => rfl)

theorem bcCol2 {α : Type} (v : S50000x1.Idx → α) (p : Fin 50000) (k : Fin 256) :
    broadcastInDim S50000x256 ![0, 1] bcast_S50000x1_S50000x256_0_1 v (ix2 p k) = v (ix2 p (0 : Fin 1)) :=
  broadcastInDim_apply _ _ _ _ _ (fun a => by match a with | ⟨0, _⟩ => rfl | ⟨1, _⟩ => rfl)

theorem rowSum2 (x : FVec Ideal S50000x256 .f32) (v : FVec Ideal S_ .f32) (p : Fin 50000) :
    Host.reduceAdd x v reducesTo_S50000x256_S50000_d1 h_S_ (ix1 p) = v (Shape.Idx.first h_S_) + ∑ k : Fin 256, x (ix2 p k) := by
  have h : S50000x256.Reduces [1] S50000 := by decide
  refine (Ideal.hostReduceAdd_single reducesTo_S50000x256_S50000_d1 h x _ (ix1 p)).trans ?_
  congr 1
  refine Finset.sum_congr rfl fun k _ => congrArg x ?_
  funext d
  apply Fin.ext
  match d with
  | ⟨0, _⟩ => rfl
  | ⟨1, _⟩ => rfl

/-- The row length minus the integer zero converted to a float is the row length. -/
theorem ddof2 : Ideal.ofBits .f32 0x43800000#32 - FloatOps.sitofp (F := Ideal) .f32 (0#32 : BitVec 32) = Ideal.ofBits .f32 0x43800000#32 := by
  show Ideal.ofBits .f32 0x43800000#32 - (((0#32 : BitVec 32).toInt : ℝ) : EReal) = _
  simp

/-- … and it is positive, so the variance's guard chooses the quotient. -/
theorem ddofPos2 : FloatOps.cmpf (F := Ideal) (φ := .f32) .ogt
      (Ideal.ofBits .f32 0x43800000#32 - FloatOps.sitofp (F := Ideal) .f32 (0#32 : BitVec 32)) (Ideal.ofBits .f32 0x00000000#32) = 1#1 := by
  rw [ddof2, Ideal.cmpf_def, Ideal.ofBits_zero_f32, Cert.Consts.ofBits_256]
  have h : (0 : EReal) < ((256 : ℝ) : EReal) := EReal.coe_pos.mpr (by norm_num)
  simp [Ideal.cmp, h]

theorem refBias2_apply (agg : FVec Ideal S50000x256 .f32) (b2 : FVec Ideal S1x256 .f32) (p : Fin 50000) (k : Fin 256) :
    refBias2 (F := Ideal) agg b2 (ix2 p k) = agg (ix2 p k) + b2 (ix2 (0 : Fin 1) k) := by
  unfold refBias2
  rw [addf_apply, bcRow2]

theorem refMean2_apply (x : FVec Ideal S50000x256 .f32) (p : Fin 50000) (u : Fin 1) :
    refMean2 (F := Ideal) x (ix2 p u) = Ideal.div (∑ k : Fin 256, x (ix2 p k)) (Ideal.ofBits .f32 0x43800000#32) := by
  unfold refMean2
  beta_reduce
  rw [hostDivf_apply, bcVec, rowSum2, broadcastInDim_scalar_apply, constant_apply, constant_apply, Ideal.ofBits_zero_f32, zero_add]

set_option maxRecDepth 16384 in
theorem refVar2_apply (x : FVec Ideal S50000x256 .f32) (p : Fin 50000) (u : Fin 1) :
    refVar2 (F := Ideal) x (ix2 p u)
      = Ideal.div (∑ k : Fin 256, (x (ix2 p k) - Ideal.div (∑ k : Fin 256, x (ix2 p k)) (Ideal.ofBits .f32 0x43800000#32))
            * (x (ix2 p k) - Ideal.div (∑ k : Fin 256, x (ix2 p k)) (Ideal.ofBits .f32 0x43800000#32))) (Ideal.ofBits .f32 0x43800000#32) := by
  unfold refVar2
  beta_reduce
  rw [select_apply, broadcastInDim_scalar_apply, cmpf_apply, subf_apply, sitofp_apply, constant_apply, constant_apply]
  show Scalar.select (FloatOps.cmpf (F := Ideal) (φ := .f32) .ogt
      (Ideal.ofBits .f32 0x43800000#32 - FloatOps.sitofp (F := Ideal) .f32 (0#32 : BitVec 32)) (Ideal.ofBits .f32 0x00000000#32)) _ _ = _
  rw [ddofPos2, select_one, hostDivf_apply, bcVec, rowSum2, broadcastInDim_scalar_apply, subf_apply, sitofp_apply,
    constant_apply, constant_apply]
  show Ideal.div (Ideal.ofBits .f32 0x00000000#32 + _) (Ideal.ofBits .f32 0x43800000#32 - FloatOps.sitofp (F := Ideal) .f32 (0#32 : BitVec 32)) = _
  rw [ddof2, Ideal.ofBits_zero_f32, zero_add]
  refine congrArg (Ideal.div · (Ideal.ofBits .f32 0x43800000#32)) ?_
  refine Finset.sum_congr rfl fun k _ => ?_
  rw [mulf_apply, subf_apply, bcCol2, hostDivf_apply, bcVec, rowSum2, broadcastInDim_scalar_apply, constant_apply, constant_apply,
    Ideal.ofBits_zero_f32, zero_add]

theorem refNorm2_apply (x : FVec Ideal S50000x256 .f32) (g2 be2 : FVec Ideal S1x256 .f32) (p : Fin 50000) (q : Fin 256) :
    refNorm2 (F := Ideal) x g2 be2 (ix2 p q)
      = Ideal.div (x (ix2 p q) - refMean2 (F := Ideal) x (ix2 p (0 : Fin 1)))
          (Ideal.sqrt (refVar2 (F := Ideal) x (ix2 p (0 : Fin 1)) + Ideal.ofBits .f32 0x3727C5AC#32)) * g2 (ix2 (0 : Fin 1) q)
        + be2 (ix2 (0 : Fin 1) q) := by
  unfold refNorm2
  rw [addf_apply, mulf_apply, hostDivf_apply, subf_apply, bcCol2, bcCol2, bcRow2, bcRow2]
  rfl

theorem refElu2_apply (y : FVec Ideal S50000x256 .f32) (i : S50000x256.Idx) :
    refElu2 (F := Ideal) y i
      = Scalar.select (FloatOps.cmpf (F := Ideal) (φ := .f32) .ogt (y i) (Ideal.ofBits .f32 0x00000000#32)) (y i)
          (Ideal.ofBits .f32 0x3F800000#32 * (Ideal.exp (Scalar.select (FloatOps.cmpf (F := Ideal) (φ := .f32) .ogt (y i) (Ideal.ofBits .f32 0x00000000#32))
            (Ideal.ofBits .f32 0x00000000#32) (y i)) - 1)) := rfl

/-- Layer 2, at one entry. -/
theorem ln2_pt (agg : FVec Ideal S50000x256 .f32) (b2 g2 be2 : FVec Ideal S1x256 .f32) (p : Fin 50000) (q : Fin 256) :
    Cert.KernelIdeal.Ln.G256 agg b2 g2 be2 (ix2 p q) = refLN2 (F := Ideal) agg b2 g2 be2 (ix2 p q) := by
  unfold refLN2
  rw [refElu2_apply, refNorm2_apply, refMean2_apply, refVar2_apply]
  simp only [refBias2_apply]
  show Cert.KernelIdeal.Ln.elu (Cert.KernelIdeal.Ln.lnorm (Ideal.ofBits .f32 0x43800000#32) (Ideal.ofBits .f32 0x3727C5AC#32)
      (fun k : Fin 256 => agg (ix2 p k) + b2 (ix2 (0 : Fin 1) k)) (fun k => g2 (ix2 (0 : Fin 1) k)) (fun k => be2 (ix2 (0 : Fin 1) k)) q) = _
  rw [elu_eq, Cert.Consts.ofBits_256, lnorm_eq_div 256 (by norm_num) _ Cert.Consts.ofBits_eps_pos]

/-- Layer 2: the two spellings of the normalised, activated rows are one function of the four arrays. -/
theorem ln2_eq (agg : FVec Ideal S50000x256 .f32) (b2 g2 be2 : FVec Ideal S1x256 .f32) :
    Cert.KernelIdeal.Ln.G256 agg b2 g2 be2 = refLN2 (F := Ideal) agg b2 g2 be2 := by
  funext i
  exact (congrArg (Cert.KernelIdeal.Ln.G256 agg b2 g2 be2) (eq_ix2 i)).trans
    ((ln2_pt agg b2 g2 be2 (i 0) (i 1)).trans (congrArg (refLN2 (F := Ideal) agg b2 g2 be2) (eq_ix2 i)).symm)

/-! ### Rows of 128 (layer 3) -/

theorem bcRow3 {α : Type} (x : S1x128.Idx → α) (p : Fin 50000) (k : Fin 128) :
    broadcastInDim S50000x128 ![0, 1] bcast_S1x128_S50000x128_0_1 x (ix2 p k) = x (ix2 (0 : Fin 1) k) :=
  broadcastInDim_apply _ _ _ _ _ (fun a => by match a with | ⟨0, _⟩ => rfl | ⟨1, _⟩ => rfl)

theorem bcCol3 {α : Type} (v : S50000x1.Idx → α) (p : Fin 50000) (k : Fin 128) :
    broadcastInDim S50000x128 ![0, 1] bcast_S50000x1_S50000x128_0_1 v (ix2 p k) = v (ix2 p (0 : Fin 1)) :=
  broadcastInDim_apply _ _ _ _ _ (fun a => by match a with | ⟨0, _⟩ => rfl | ⟨1, _⟩ => rfl)

theorem rowSum3 (x : FVec Ideal S50000x128 .f32) (v : FVec Ideal S_ .f32) (p : Fin 50000) :
    Host.reduceAdd x v reducesTo_S50000x128_S50000_d1 h_S_ (ix1 p) = v (Shape.Idx.first h_S_) + ∑ k : Fin 128, x (ix2 p k) := by
  have h : S50000x128.Reduces [1] S50000 := by decide
  refine (Ideal.hostReduceAdd_single reducesTo_S50000x128_S50000_d1 h x _ (ix1 p)).trans ?_
  congr 1
  refine Finset.sum_congr rfl fun k _ => congrArg x ?_
  funext d
  apply Fin.ext
  match d with
  | ⟨0, _⟩ => rfl
  | ⟨1, _⟩ => rfl

/-- The row length minus the integer zero converted to a float is the row length. -/
theorem ddof3 : Ideal.ofBits .f32 0x43000000#32 - FloatOps.sitofp (F := Ideal) .f32 (0#32 : BitVec 32) = Ideal.ofBits .f32 0x43000000#32 := by
  show Ideal.ofBits .f32 0x43000000#32 - (((0#32 : BitVec 32).toInt : ℝ) : EReal) = _
  simp

/-- … and it is positive, so the variance's guard chooses the quotient. -/
theorem ddofPos3 : FloatOps.cmpf (F := Ideal) (φ := .f32) .ogt
      (Ideal.ofBits .f32 0x43000000#32 - FloatOps.sitofp (F := Ideal) .f32 (0#32 : BitVec 32)) (Ideal.ofBits .f32 0x00000000#32) = 1#1 := by
  rw [ddof3, Ideal.cmpf_def, Ideal.ofBits_zero_f32, Cert.Consts.ofBits_128]
  have h : (0 : EReal) < ((128 : ℝ) : EReal) := EReal.coe_pos.mpr (by norm_num)
  simp [Ideal.cmp, h]

theorem refBias3_apply (agg : FVec Ideal S50000x128 .f32) (b2 : FVec Ideal S1x128 .f32) (p : Fin 50000) (k : Fin 128) :
    refBias3 (F := Ideal) agg b2 (ix2 p k) = agg (ix2 p k) + b2 (ix2 (0 : Fin 1) k) := by
  unfold refBias3
  rw [addf_apply, bcRow3]

theorem refMean3_apply (x : FVec Ideal S50000x128 .f32) (p : Fin 50000) (u : Fin 1) :
    refMean3 (F := Ideal) x (ix2 p u) = Ideal.div (∑ k : Fin 128, x (ix2 p k)) (Ideal.ofBits .f32 0x43000000#32) := by
  unfold refMean3
  beta_reduce
  rw [hostDivf_apply, bcVec, rowSum3, broadcastInDim_scalar_apply, constant_apply, constant_apply, Ideal.ofBits_zero_f32, zero_add]

set_option maxRecDepth 16384 in
theorem refVar3_apply (x : FVec Ideal S50000x128 .f32) (p : Fin 50000) (u : Fin 1) :
    refVar3 (F := Ideal) x (ix2 p u)
      = Ideal.div (∑ k : Fin 128, (x (ix2 p k) - Ideal.div (∑ k : Fin 128, x (ix2 p k)) (Ideal.ofBits .f32 0x43000000#32))
            * (x (ix2 p k) - Ideal.div (∑ k : Fin 128, x (ix2 p k)) (Ideal.ofBits .f32 0x43000000#32))) (Ideal.ofBits .f32 0x43000000#32) := by
  unfold refVar3
  beta_reduce
  rw [select_apply, broadcastInDim_scalar_apply, cmpf_apply, subf_apply, sitofp_apply, constant_apply, constant_apply]
  show Scalar.select (FloatOps.cmpf (F := Ideal) (φ := .f32) .ogt
      (Ideal.ofBits .f32 0x43000000#32 - FloatOps.sitofp (F := Ideal) .f32 (0#32 : BitVec 32)) (Ideal.ofBits .f32 0x00000000#32)) _ _ = _
  rw [ddofPos3, select_one, hostDivf_apply, bcVec, rowSum3, broadcastInDim_scalar_apply, subf_apply, sitofp_apply,
    constant_apply, constant_apply]
  show Ideal.div (Ideal.ofBits .f32 0x00000000#32 + _) (Ideal.ofBits .f32 0x43000000#32 - FloatOps.sitofp (F := Ideal) .f32 (0#32 : BitVec 32)) = _
  rw [ddof3, Ideal.ofBits_zero_f32, zero_add]
  refine congrArg (Ideal.div · (Ideal.ofBits .f32 0x43000000#32)) ?_
  refine Finset.sum_congr rfl fun k _ => ?_
  rw [mulf_apply, subf_apply, bcCol3, hostDivf_apply, bcVec, rowSum3, broadcastInDim_scalar_apply, constant_apply, constant_apply,
    Ideal.ofBits_zero_f32, zero_add]

theorem refNorm3_apply (x : FVec Ideal S50000x128 .f32) (g2 be2 : FVec Ideal S1x128 .f32) (p : Fin 50000) (q : Fin 128) :
    refNorm3 (F := Ideal) x g2 be2 (ix2 p q)
      = Ideal.div (x (ix2 p q) - refMean3 (F := Ideal) x (ix2 p (0 : Fin 1)))
          (Ideal.sqrt (refVar3 (F := Ideal) x (ix2 p (0 : Fin 1)) + Ideal.ofBits .f32 0x3727C5AC#32)) * g2 (ix2 (0 : Fin 1) q)
        + be2 (ix2 (0 : Fin 1) q) := by
  unfold refNorm3
  rw [addf_apply, mulf_apply, hostDivf_apply, subf_apply, bcCol3, bcCol3, bcRow3, bcRow3]
  rfl

/-- Layer 3, at one entry. -/
theorem ln3_pt (agg : FVec Ideal S50000x128 .f32) (b2 g2 be2 : FVec Ideal S1x128 .f32) (p : Fin 50000) (q : Fin 128) :
    Cert.KernelIdeal.Ln.G128 agg b2 g2 be2 (ix2 p q) = refLN3 (F := Ideal) agg b2 g2 be2 (ix2 p q) := by
  unfold refLN3
  rw [refNorm3_apply, refMean3_apply, refVar3_apply]
  simp only [refBias3_apply]
  show Cert.KernelIdeal.Ln.lnorm (Ideal.ofBits .f32 0x43000000#32) (Ideal.ofBits .f32 0x3727C5AC#32)
      (fun k : Fin 128 => agg (ix2 p k) + b2 (ix2 (0 : Fin 1) k)) (fun k => g2 (ix2 (0 : Fin 1) k)) (fun k => be2 (ix2 (0 : Fin 1) k)) q = _
  rw [Cert.Consts.ofBits_128, lnorm_eq_div 128 (by norm_num) _ Cert.Consts.ofBits_eps_pos]

/-- Layer 3: the two spellings of the normalised rows are one function of the four arrays. -/
theorem ln3_eq (agg : FVec Ideal S50000x128 .f32) (b2 g2 be2 : FVec Ideal S1x128 .f32) :
    Cert.KernelIdeal.Ln.G128 agg b2 g2 be2 = refLN3 (F := Ideal) agg b2 g2 be2 := by
  funext i
  exact (congrArg (Cert.KernelIdeal.Ln.G128 agg b2 g2 be2) (eq_ix2 i)).trans
    ((ln3_pt agg b2 g2 be2 (i 0) (i 1)).trans (congrArg (refLN3 (F := Ideal) agg b2 g2 be2) (eq_ix2 i)).symm)

end Cert.Bridge.Ln

end
-- ==== Proof.Result.lean ====
/-
  The two programs' results are equal: the assembly instantiated with the twelve regions' closed forms and with the
  four kinds of equalities between a closed form and the reference's function (matrix product, attention score,
  message, normalisation).
-/
import proofs.«158057_j81853486727297_2_alg».proof.Proof.Assemble
import proofs.«158057_j81853486727297_2_alg».proof.Proof.RegMatmul
import proofs.«158057_j81853486727297_2_alg».proof.Proof.RegAttn
import proofs.«158057_j81853486727297_2_alg».proof.Proof.RegMsg
import proofs.«158057_j81853486727297_2_alg».proof.Proof.RegLn
import proofs.«158057_j81853486727297_2_alg».proof.Proof.BridgeMm
import proofs.«158057_j81853486727297_2_alg».proof.Proof.BridgePw
import proofs.«158057_j81853486727297_2_alg».proof.Proof.BridgeLn

set_option maxRecDepth 16384

noncomputable section

namespace Cert.Assemble

open Idealize.ShloMosaic Idealize.ShloMosaic.TcCoe Idealize.SL.Sem Idealize.ShloMosaic.StableHlo

/-- The reference's result buffer after all its operations is the kernel program's result buffer at its last boundary. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    StableHlo.after (Cert.ReferenceIdeal.RefRun.ops (F := Ideal)) (StableHlo.launchContents m' c) (Proc.devRef .tc Cert.ReferenceIdeal.main_v234)
      = Cert.KernelIdeal.Gen.W22 m ρ c (Proc.devRef .tc Cert.KernelIdeal.main_v153) :=
  result_eq_of
    (h0 := Cert.KernelIdeal.Reg0.final0) (h1 := Cert.KernelIdeal.Reg1.final1) (h2 := Cert.KernelIdeal.Reg2.final2) (h3 := Cert.KernelIdeal.Reg3.final)
    (h4 := Cert.KernelIdeal.Reg4.final4) (h5 := Cert.KernelIdeal.Reg5.final5) (h6 := Cert.KernelIdeal.Reg6.final6) (h7 := Cert.KernelIdeal.Reg7.final)
    (h8 := Cert.KernelIdeal.Reg8.final8) (h9 := Cert.KernelIdeal.Reg9.final9) (h10 := Cert.KernelIdeal.Reg10.final10) (h11 := Cert.KernelIdeal.Reg11.final)
    (e0 := (funext fun x => funext fun w => Cert.Bridge.Mm.mm1_eq x w)) (e1 := (funext fun a => funext fun b => funext fun d => Cert.Bridge.Pw.attn1 a b d)) (e2 := (funext fun a => funext fun b => funext fun d => Cert.Bridge.Pw.msg1 a b d)) (e3 := (funext fun a => funext fun b => funext fun g => funext fun e => Cert.Bridge.Ln.ln1_eq a b g e))
    (e4 := (funext fun x => funext fun w => Cert.Bridge.Mm.mm2_eq x w)) (e5 := (funext fun a => funext fun b => funext fun d => Cert.Bridge.Pw.attn2 a b d)) (e6 := (funext fun a => funext fun b => funext fun d => Cert.Bridge.Pw.msg2 a b d)) (e7 := (funext fun a => funext fun b => funext fun g => funext fun e => Cert.Bridge.Ln.ln2_eq a b g e))
    (e8 := (funext fun x => funext fun w => Cert.Bridge.Mm.mm3_eq x w)) (e9 := (funext fun a => funext fun b => funext fun d => Cert.Bridge.Pw.attn3 a b d)) (e10 := (funext fun a => funext fun b => funext fun d => Cert.Bridge.Pw.msg3 a b d)) (e11 := (funext fun a => funext fun b => funext fun g => funext fun e => Cert.Bridge.Ln.ln3_eq a b g e))
    m ρ m' c hagree

end Cert.Assemble

end
-- ==== Proof.lean ====
/-
  The certificate of a three-layer graph-attention network: twelve tiled kernels (per layer a dense projection, the
  edge attention scores, the edge messages, and a normalisation — with an exponential linear unit after the first
  two layers) among host operations (per-node scores, gathers along the edges, segment sums back to the nodes),
  against the plain array program.

  The three frames: the two kernel programs' by their generated frame proofs; the reference's from its run, written
  as a list of host operations. The idealization rewrote nothing, so it preserves the kernel trivially. The value
  claim: at the ideal instance both programs compute, layer by layer, the same function of the same arguments.
  What differs is only spelling: a matrix product tiled by rows against one whole product; `s > 0` against
  `s ≥ 0` in the leaky rectifier (they part only at `s = 0`, where both give `0`); `x · v^(-1/2)` against `x / √v`
  (equal for every `v > 0`, and variance + ε is positive because a sum of squares is never negative); `e^y − 1`
  against `1 · expm1(·)`; a parameter vector reshaped against the same vector broadcast. No finiteness of the
  inputs is used.
-/
import proofs.«158057_j81853486727297_2_alg».proof.Defs
import proofs.«158057_j81853486727297_2_alg».proof.Proof.Gen.Kernel
import proofs.«158057_j81853486727297_2_alg».proof.Proof.Gen.Kernel.Frame
import proofs.«158057_j81853486727297_2_alg».proof.Proof.Gen.KernelIdeal
import proofs.«158057_j81853486727297_2_alg».proof.Proof.Gen.KernelIdeal.Frame
import proofs.«158057_j81853486727297_2_alg».proof.Proof.Gen.ReferenceIdeal
import proofs.«158057_j81853486727297_2_alg».proof.Proof.Gen.Pre_finite_inputs
import proofs.«158057_j81853486727297_2_alg».proof.Proof.KernelRun
import proofs.«158057_j81853486727297_2_alg».proof.Proof.RefRun
import proofs.«158057_j81853486727297_2_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and none of its operations writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefRun.ops_keep_main_arg0 (F := Ideal) _),
     (h c Cert.ReferenceIdeal.main_arg1).trans (Cert.ReferenceIdeal.RefRun.ops_keep_main_arg1 (F := Ideal) _),
     (h c Cert.ReferenceIdeal.main_arg2).trans (Cert.ReferenceIdeal.RefRun.ops_keep_main_arg2 (F := Ideal) _),
     (h c Cert.ReferenceIdeal.main_arg3).trans (Cert.ReferenceIdeal.RefRun.ops_keep_main_arg3 (F := Ideal) _),
     (h c Cert.ReferenceIdeal.main_arg4).trans (Cert.ReferenceIdeal.RefRun.ops_keep_main_arg4 (F := Ideal) _),
     (h c Cert.ReferenceIdeal.main_arg5).trans (Cert.ReferenceIdeal.RefRun.ops_keep_main_arg5 (F := Ideal) _),
     (h c Cert.ReferenceIdeal.main_arg6).trans (Cert.ReferenceIdeal.RefRun.ops_keep_main_arg6 (F := Ideal) _),
     (h c Cert.ReferenceIdeal.main_arg7).trans (Cert.ReferenceIdeal.RefRun.ops_keep_main_arg7 (F := Ideal) _),
     (h c Cert.ReferenceIdeal.main_arg8).trans (Cert.ReferenceIdeal.RefRun.ops_keep_main_arg8 (F := Ideal) _),
     (h c Cert.ReferenceIdeal.main_arg9).trans (Cert.ReferenceIdeal.RefRun.ops_keep_main_arg9 (F := Ideal) _),
     (h c Cert.ReferenceIdeal.main_arg10).trans (Cert.ReferenceIdeal.RefRun.ops_keep_main_arg10 (F := Ideal) _),
     (h c Cert.ReferenceIdeal.main_arg11).trans (Cert.ReferenceIdeal.RefRun.ops_keep_main_arg11 (F := Ideal) _),
     (h c Cert.ReferenceIdeal.main_arg12).trans (Cert.ReferenceIdeal.RefRun.ops_keep_main_arg12 (F := Ideal) _),
     (h c Cert.ReferenceIdeal.main_arg13).trans (Cert.ReferenceIdeal.RefRun.ops_keep_main_arg13 (F := Ideal) _),
     (h c Cert.ReferenceIdeal.main_arg14).trans (Cert.ReferenceIdeal.RefRun.ops_keep_main_arg14 (F := Ideal) _),
     (h c Cert.ReferenceIdeal.main_arg15).trans (Cert.ReferenceIdeal.RefRun.ops_keep_main_arg15 (F := Ideal) _),
     (h c Cert.ReferenceIdeal.main_arg16).trans (Cert.ReferenceIdeal.RefRun.ops_keep_main_arg16 (F := Ideal) _),
     (h c Cert.ReferenceIdeal.main_arg17).trans (Cert.ReferenceIdeal.RefRun.ops_keep_main_arg17 (F := Ideal) _),
     (h c Cert.ReferenceIdeal.main_arg18).trans (Cert.ReferenceIdeal.RefRun.ops_keep_main_arg18 (F := Ideal) _),
     (h c Cert.ReferenceIdeal.main_arg19).trans (Cert.ReferenceIdeal.RefRun.ops_keep_main_arg19 (F := Ideal) _),
     (h c Cert.ReferenceIdeal.main_arg20).trans (Cert.ReferenceIdeal.RefRun.ops_keep_main_arg20 (F := Ideal) _)⟩)
    (Cert.ReferenceIdeal.RefRun.run_all (F := Ideal) m ρ)

/-- The ideal pass rewrote no operation. -/
theorem preserves : Cert.preserves_Kernel_KernelIdeal := trivial

/-- Both idealized programs run from memories agreeing on the arguments and end with equal result arrays. -/
theorem algebraic : Cert.algebraic_KernelIdeal_ReferenceIdeal := by
  intro m ρ m' ρ' _ hagree
  refine ⟨fun c => Cert.KernelIdeal.Gen.W22 m ρ c (Proc.devRef .tc Cert.KernelIdeal.main_v153),
    Cert.KernelIdeal.RunValue.run_value m ρ, ?_⟩
  exact (θ_run Cert.ReferenceIdeal.defs _ _).mono (fun r h c =>
    ⟨(h c Cert.ReferenceIdeal.main_v234).trans (Cert.Assemble.result_eq m ρ m' c (hagree c)),
     (h c Cert.ReferenceIdeal.main_arg0).trans (Cert.ReferenceIdeal.RefRun.ops_keep_main_arg0 (F := Ideal) _),
     (h c Cert.ReferenceIdeal.main_arg1).trans (Cert.ReferenceIdeal.RefRun.ops_keep_main_arg1 (F := Ideal) _),
     (h c Cert.ReferenceIdeal.main_arg2).trans (Cert.ReferenceIdeal.RefRun.ops_keep_main_arg2 (F := Ideal) _),
     (h c Cert.ReferenceIdeal.main_arg3).trans (Cert.ReferenceIdeal.RefRun.ops_keep_main_arg3 (F := Ideal) _),
     (h c Cert.ReferenceIdeal.main_arg4).trans (Cert.ReferenceIdeal.RefRun.ops_keep_main_arg4 (F := Ideal) _),
     (h c Cert.ReferenceIdeal.main_arg5).trans (Cert.ReferenceIdeal.RefRun.ops_keep_main_arg5 (F := Ideal) _),
     (h c Cert.ReferenceIdeal.main_arg6).trans (Cert.ReferenceIdeal.RefRun.ops_keep_main_arg6 (F := Ideal) _),
     (h c Cert.ReferenceIdeal.main_arg7).trans (Cert.ReferenceIdeal.RefRun.ops_keep_main_arg7 (F := Ideal) _),
     (h c Cert.ReferenceIdeal.main_arg8).trans (Cert.ReferenceIdeal.RefRun.ops_keep_main_arg8 (F := Ideal) _),
     (h c Cert.ReferenceIdeal.main_arg9).trans (Cert.ReferenceIdeal.RefRun.ops_keep_main_arg9 (F := Ideal) _),
     (h c Cert.ReferenceIdeal.main_arg10).trans (Cert.ReferenceIdeal.RefRun.ops_keep_main_arg10 (F := Ideal) _),
     (h c Cert.ReferenceIdeal.main_arg11).trans (Cert.ReferenceIdeal.RefRun.ops_keep_main_arg11 (F := Ideal) _),
     (h c Cert.ReferenceIdeal.main_arg12).trans (Cert.ReferenceIdeal.RefRun.ops_keep_main_arg12 (F := Ideal) _),
     (h c Cert.ReferenceIdeal.main_arg13).trans (Cert.ReferenceIdeal.RefRun.ops_keep_main_arg13 (F := Ideal) _),
     (h c Cert.ReferenceIdeal.main_arg14).trans (Cert.ReferenceIdeal.RefRun.ops_keep_main_arg14 (F := Ideal) _),
     (h c Cert.ReferenceIdeal.main_arg15).trans (Cert.ReferenceIdeal.RefRun.ops_keep_main_arg15 (F := Ideal) _),
     (h c Cert.ReferenceIdeal.main_arg16).trans (Cert.ReferenceIdeal.RefRun.ops_keep_main_arg16 (F := Ideal) _),
     (h c Cert.ReferenceIdeal.main_arg17).trans (Cert.ReferenceIdeal.RefRun.ops_keep_main_arg17 (F := Ideal) _),
     (h c Cert.ReferenceIdeal.main_arg18).trans (Cert.ReferenceIdeal.RefRun.ops_keep_main_arg18 (F := Ideal) _),
     (h c Cert.ReferenceIdeal.main_arg19).trans (Cert.ReferenceIdeal.RefRun.ops_keep_main_arg19 (F := Ideal) _),
     (h c Cert.ReferenceIdeal.main_arg20).trans (Cert.ReferenceIdeal.RefRun.ops_keep_main_arg20 (F := Ideal) _)⟩)
    (Cert.ReferenceIdeal.RefRun.run_all (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
